-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v362)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v362) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v603) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S12x512x1024 : Shape := ⟨3, ![12, 512, 1024]⟩
abbrev S12x512 : Shape := ⟨2, ![12, 512]⟩
abbrev S512x1024 : Shape := ⟨2, ![512, 1024]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S12x512x1024 : S_.BroadcastsInDim S12x512x1024 (![] : Fin 0 → Fin S12x512x1024.rank)
  reducesTo_S12x512x1024_S_d0_1_2 : S12x512x1024.ReducesTo [0, 1, 2] S_
  bcast_S_S12x512 : S_.BroadcastsInDim S12x512 (![] : Fin 0 → Fin S12x512.rank)
  reducesTo_S12x512_S_d0_1 : S12x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x1024 .f32) (main_arg8 : FVec F S512 .f32) (main_arg9 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S12x512x1024 .f32) (main_arg5 : FVec F S12x512 .f32) (main_arg6 : FVec F S12x512 .f32) (main_arg7 : FVec F S512x1024 .f32) (main_arg8 : FVec F S512 .f32) (main_arg9 : FVec F S512 .f32) (main_v13 : IVec S_ 1) (main_v16 : IVec S12x512 1) : IVec S_ 1 :=
  let main_c_5 : IVec S_ 1 := constantI S_ 1 1#1
  let main_v17 : IVec S_ 1 := (fun x v => Host.reduce IntOp.andi x v reducesTo_S12x512_S_d0_1 h_S_) main_v16 main_c_5
  let main_v18 : IVec S_ 1 := andi main_v13 main_v17
  let main_v19 : FVec F S12x512x1024 .f32 := Host.absf main_arg4
  let main_cst_6 : FVec F S_ .f32 := constant S_ .f32 0x7F800000#32
  let main_v20 : FVec F S12x512x1024 .f32 := broadcastInDim S12x512x1024 ![] bcast_S_S12x512x1024 main_cst_6
  let main_v21 : IVec S12x512x1024 1 := cmpf .olt main_v19 main_v20
  let main_c_7 : IVec S_ 1 := constantI S_ 1 1#1
  let main_v22 : IVec S_ 1 := (fun x v => Host.reduce IntOp.andi x v reducesTo_S12x512x1024_S_d0_1_2 h_S_) main_v21 main_c_7
  let main_v23 : IVec S_ 1 := andi main_v18 main_v22
  let main_v24 : FVec F S12x512 .f32 := Host.absf main_arg5
  let main_cst_8 : FVec F S_ .f32 := constant S_ .f32 0x7F800000#32
  let main_v25 : FVec F S12x512 .f32 := broadcastInDim S12x512 ![] bcast_S_S12x512 main_cst_8
  let main_v26 : IVec S12x512 1 := cmpf .olt main_v24 main_v25
  let main_c_9 : IVec S_ 1 := constantI S_ 1 1#1
  let main_v27 : IVec S_ 1 := (fun x v => Host.reduce IntOp.andi x v reducesTo_S12x512_S_d0_1 h_S_) main_v26 main_c_9
  let main_v28 : IVec S_ 1 := andi main_v23 main_v27
  let main_v29 : FVec F S12x512 .f32 := Host.absf main_arg6
  let main_cst_10 : FVec F S_ .f32 := constant S_ .f32 0x7F800000#32
  let main_v30 : FVec F S12x512 .f32 := broadcastInDim S12x512 ![] bcast_S_S12x512 main_cst_10
  let main_v31 : IVec S12x512 1 := cmpf .olt main_v29 main_v30
  let main_c_11 : IVec S_ 1 := constantI S_ 1 1#1
  let main_v32 : IVec S_ 1 := (fun x v => Host.reduce IntOp.andi x v reducesTo_S12x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x4096x512 .f32) (main_arg1 : FVec F S12x512x1024 .f32) (main_arg2 : FVec F S12x512 .f32) (main_arg3 : FVec F S12x512 .f32) (main_arg4 : FVec F S12x512x1024 .f32) (main_arg5 : FVec F S12x512 .f32) (main_arg6 : FVec F S12x512 .f32) (main_arg7 : FVec F S512x1024 .f32) (main_arg8 : FVec F S512 .f32) (main_arg9 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S12x512x1024 .f32 := Host.absf main_arg1
  let main_cst_0 : FVec F S_ .f32 := constant S_ .f32 0x7F800000#32
  let main_v5 : FVec F S12x512x1024 .f32 := broadcastInDim S12x512x1024 ![] bcast_S_S12x512x1024 main_cst_0
  let main_v6 : IVec S12x512x1024 1 := cmpf .olt main_v4 main_v5
  let main_c_1 : IVec S_ 1 := constantI S_ 1 1#1
  let main_v7 : IVec S_ 1 := (fun x v => Host.reduce IntOp.andi x v reducesTo_S12x512x1024_S_d0_1_2 h_S_) main_v6 main_c_1
  let main_v8 : IVec S_ 1 := andi main_v3 main_v7
  let main_v9 : FVec F S12x512 .f32 := Host.absf main_arg2
  let main_cst_2 : FVec F S_ .f32 := constant S_ .f32 0x7F800000#32
  let main_v10 : FVec F S12x512 .f32 := broadcastInDim S12x512 ![] bcast_S_S12x512 main_cst_2
  let main_v11 : IVec S12x512 1 := cmpf .olt main_v9 main_v10
  let main_c_3 : IVec S_ 1 := constantI S_ 1 1#1
  let main_v12 : IVec S_ 1 := (fun x v => Host.reduce IntOp.andi x v reducesTo_S12x512_S_d0_1 h_S_) main_v11 main_c_3
  let main_v13 : IVec S_ 1 := andi main_v8 main_v12
  let main_v14 : FVec F S12x512 .f32 := Host.absf main_arg3
  let main_cst_4 : FVec F S_ .f32 := constant S_ .f32 0x7F800000#32
  let main_v15 : FVec F S12x512 .f32 := broadcastInDim S12x512 ![] bcast_S_S12x512 main_cst_4
  let main_v16 : IVec S12x512 1 := cmpf .olt main_v14 main_v15
  fn_part1 (F := F) main_arg4 main_arg5 main_arg6 main_arg7 main_arg8 main_arg9 main_v13 main_v16
-- ==== Kernel.lean ====
abbrev S16x4096x512 : Shape := ⟨3, ![16, 4096, 512]⟩
abbrev S12x512x1024 : Shape := ⟨3, ![12, 512, 1024]⟩
abbrev S12x512 : Shape := ⟨2, ![12, 512]⟩
abbrev S512x1024 : Shape := ⟨2, ![512, 1024]⟩
abbrev S512 : Shape := ⟨1, ![512]⟩
abbrev S12x1024x512 : Shape := ⟨3, ![12, 1024, 512]⟩
abbrev S1024x512 : Shape := ⟨2, ![1024, 512]⟩
abbrev S16x2048x1024 : Shape := ⟨3, ![16, 2048, 1024]⟩
abbrev S32768x1024 : Shape := ⟨2, ![32768, 1024]⟩
abbrev S1x512 : Shape := ⟨2, ![1, 512]⟩
abbrev S1x1024x512 : Shape := ⟨3, ![1, 1024, 512]⟩
abbrev S32768x512 : Shape := ⟨2, ![32768, 512]⟩
abbrev S2048x1024 : Shape := ⟨2, ![2048, 1024]⟩
abbrev S2048x512 : Shape := ⟨2, ![2048, 512]⟩
abbrev S2048 : Shape := ⟨1, ![2048]⟩
abbrev S2048x1 : Shape := ⟨2, ![2048, 1]⟩
abbrev S16x2048x512 : Shape := ⟨3, ![16, 2048, 512]⟩
abbrev S16x1024x1024 : Shape := ⟨3, ![16, 1024, 1024]⟩
abbrev S16384x1024 : Shape := ⟨2, ![16384, 1024]⟩
abbrev S16384x512 : Shape := ⟨2, ![16384, 512]⟩
abbrev S16x1024x512 : Shape := ⟨3, ![16, 1024, 512]⟩
abbrev S16x512x1024 : Shape := ⟨3, ![16, 512, 1024]⟩
abbrev S8192x1024 : Shape := ⟨2, ![8192, 1024]⟩
abbrev S8192x512 : Shape := ⟨2, ![8192, 512]⟩
abbrev S16x512x512 : Shape := ⟨3, ![16, 512, 512]⟩
abbrev S16x256x1024 : Shape := ⟨3, ![16, 256, 1024]⟩
abbrev S4096x1024 : Shape := ⟨2, ![4096, 1024]⟩
abbrev S4096x512 : Shape := ⟨2, ![4096, 512]⟩
abbrev S16x256x512 : Shape := ⟨3, ![16, 256, 512]⟩
abbrev S16x128x1024 : Shape := ⟨3, ![16, 128, 1024]⟩
abbrev S16x128x512 : Shape := ⟨3, ![16, 128, 512]⟩
abbrev S16x64x1024 : Shape := ⟨3, ![16, 64, 1024]⟩
abbrev S1024x1024 : Shape := ⟨2, ![1024, 1024]⟩
abbrev S1024 : Shape := ⟨1, ![1024]⟩
abbrev S1024x1 : Shape := ⟨2, ![1024, 1]⟩
abbrev S16x64x512 : Shape := ⟨3, ![16, 64, 512]⟩
abbrev S16x32x1024 : Shape := ⟨3, ![16, 32, 1024]⟩
abbrev S512x512 : Shape := ⟨2, ![512, 512]⟩
abbrev S512x1 : Shape := ⟨2, ![512, 1]⟩
abbrev S16x32x512 : Shape := ⟨3, ![16, 32, 512]⟩
abbrev S16x16x1024 : Shape := ⟨3, ![16, 16, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S16x16x512 : Shape := ⟨3, ![16, 16, 512]⟩
abbrev S16x8x1024 : Shape := ⟨3, ![16, 8, 1024]⟩
abbrev S128x1024 : Shape := ⟨2, ![128, 1024]⟩
abbrev S128x512 : Shape := ⟨2, ![128, 512]⟩
abbrev S128 : Shape := ⟨1, ![128]⟩
abbrev S128x1 : Shape := ⟨2, ![128, 1]⟩
abbrev S16x8x512 : Shape := ⟨3, ![16, 8, 512]⟩
abbrev S16x4x1024 : Shape := ⟨3, ![16, 4, 1024]⟩
abbrev S64x1024 : Shape := ⟨2, ![64, 1024]⟩
abbrev S64x512 : Shape := ⟨2, ![64, 512]⟩
abbrev S64 : Shape := ⟨1, ![64]⟩
abbrev S64x1 : Shape := ⟨2, ![64, 1]⟩
abbrev S16x4x512 : Shape := ⟨3, ![16, 4, 512]⟩
abbrev S16x2x1024 : Shape := ⟨3, ![16, 2, 1024]⟩
abbrev S32x1024 : Shape := ⟨2, ![32, 1024]⟩
abbrev S32x512 : Shape := ⟨2, ![32, 512]⟩
abbrev S32 : Shape := ⟨1, ![32]⟩
abbrev S32x1 : Shape := ⟨2, ![32, 1]⟩
abbrev S16x2x512 : Shape := ⟨3, ![16, 2, 512]⟩
abbrev S16x1x1024 : Shape := ⟨3, ![16, 1, 1024]⟩
abbrev S16x1024 : Shape := ⟨2, ![16, 1024]⟩
abbrev S16x512 : Shape := ⟨2, ![16, 512]⟩
abbrev S16 : Shape := ⟨1, ![16]⟩
abbrev S16x1 : Shape := ⟨2, ![16, 1]⟩
abbrev S16x1x512 : Shape := ⟨3, ![16, 1, 512]⟩
abbrev S_ : Shape := ⟨0, ![]⟩
abbrev S65536x512 : Shape := ⟨2, ![65536, 512]⟩

abbrev nBuf : Space → Nat
  | .hbm => 374
  | .vmem => 174
  | .smem => 0
  | _ => 0

abbrev hbmTy0_0 (i : Nat) : BufTy := match i % 128 with
  | 0 => ⟨S16x4096x512, .f32⟩
  | 1 => ⟨S12x512x1024, .f32⟩
  | 2 => ⟨S12x512, .f32⟩
  | 3 => ⟨S12x512, .f32⟩
  | 4 => ⟨S12x512x1024, .f32⟩
  | 5 => ⟨S12x512, .f32⟩
  | 6 => ⟨S12x512, .f32⟩
  | 7 => ⟨S512x1024, .f32⟩
  | 8 => ⟨S512, .f32⟩
  | 9 => ⟨S512, .f32⟩
  | 10 => ⟨S12x512x1024, .bf16⟩
  | 11 => ⟨S12x1024x512, .bf16⟩
  | 12 => ⟨S12x512x1024, .bf16⟩
  | 13 => ⟨S12x1024x512, .bf16⟩
  | 14 => ⟨S512x1024, .bf16⟩
  | 15 => ⟨S1024x512, .bf16⟩
  | 16 => ⟨S16x2048x1024, .f32⟩
  | 17 => ⟨S32768x1024, .f32⟩
  | 18 => ⟨S1x512, .f32⟩
  | 19 => ⟨S512, .f32⟩
  | 20 => ⟨S1x512, .f32⟩
  | 21 => ⟨S1x512, .f32⟩
  | 22 => ⟨S512, .f32⟩
  | 23 => ⟨S1x512, .f32⟩
  | 24 => ⟨S1x1024x512, .bf16⟩
  | 25 => ⟨S1024x512, .bf16⟩
  | 26 => ⟨S32768x512, .bf16⟩
  | 27 => ⟨S16x2048x512, .bf16⟩
  | 28 => ⟨S16x1024x1024, .bf16⟩
  | 29 => ⟨S16384x1024, .bf16⟩
  | 30 => ⟨S1x512, .f32⟩
  | 31 => ⟨S512, .f32⟩
  | 32 => ⟨S1x512, .f32⟩
  | 33 => ⟨S1x512, .f32⟩
  | 34 => ⟨S512, .f32⟩
  | 35 => ⟨S1x512, .f32⟩
  | 36 => ⟨S1x1024x512, .bf16⟩
  | 37 => ⟨S1024x512, .bf16⟩
  | 38 => ⟨S16384x512, .bf16⟩
  | 39 => ⟨S16x1024x512, .bf16⟩
  | 40 => ⟨S16x512x1024, .bf16⟩
  | 41 => ⟨S8192x1024, .bf16⟩
  | 42 => ⟨S1x512, .f32⟩
  | 43 => ⟨S512, .f32⟩
  | 44 => ⟨S1x512, .f32⟩
  | 45 => ⟨S1x512, .f32⟩
  | 46 => ⟨S512, .f32⟩
  | 47 => ⟨S1x512, .f32⟩
  | 48 => ⟨S1x1024x512, .bf16⟩
  | 49 => ⟨S1024x512, .bf16⟩
  | 50 => ⟨S8192x512, .bf16⟩
  | 51 => ⟨S16x512x512, .bf16⟩
  | 52 => ⟨S16x256x1024, .bf16⟩
  | 53 => ⟨S4096x1024, .bf16⟩
  | 54 => ⟨S1x512, .f32⟩
  | 55 => ⟨S512, .f32⟩
  | 56 => ⟨S1x512, .f32⟩
  | 57 => ⟨S1x512, .f32⟩
  | 58 => ⟨S512, .f32⟩
  | 59 => ⟨S1x512, .f32⟩
  | 60 => ⟨S1x1024x512, .bf16⟩
  | 61 => ⟨S1024x512, .bf16⟩
  | 62 => ⟨S4096x512, .bf16⟩
  | 63 => ⟨S16x256x512, .bf16⟩
  | 64 => ⟨S16x128x1024, .bf16⟩
  | 65 => ⟨S2048x1024, .bf16⟩
  | 66 => ⟨S1x512, .f32⟩
  | 67 => ⟨S512, .f32⟩
  | 68 => ⟨S1x512, .f32⟩
  | 69 => ⟨S1x512, .f32⟩
  | 70 => ⟨S512, .f32⟩
  | 71 => ⟨S1x512, .f32⟩
  | 72 => ⟨S1x1024x512, .bf16⟩
  | 73 => ⟨S1024x512, .bf16⟩
  | 74 => ⟨S2048x512, .bf16⟩
  | 75 => ⟨S16x128x512, .bf16⟩
  | 76 => ⟨S16x64x1024, .bf16⟩
  | 77 => ⟨S1024x1024, .bf16⟩
  | 78 => ⟨S1x512, .f32⟩
  | 79 => ⟨S512, .f32⟩
  | 80 => ⟨S1x512, .f32⟩
  | 81 => ⟨S1x512, .f32⟩
  | 82 => ⟨S512, .f32⟩
  | 83 => ⟨S1x512, .f32⟩
  | 84 => ⟨S1x1024x512, .bf16⟩
  | 85 => ⟨S1024x512, .bf16⟩
  | 86 => ⟨S1024x512, .bf16⟩
  | 87 => ⟨S16x64x512, .bf16⟩
  | 88 => ⟨S16x32x1024, .bf16⟩
  | 89 => ⟨S512x1024, .bf16⟩
  | 90 => ⟨S1x512, .f32⟩
  | 91 => ⟨S512, .f32⟩
  | 92 => ⟨S1x512, .f32⟩
  | 93 => ⟨S1x512, .f32⟩
  | 94 => ⟨S512, .f32⟩
  | 95 => ⟨S1x512, .f32⟩
  | 96 => ⟨S1x1024x512, .bf16⟩
  | 97 => ⟨S1024x512, .bf16⟩
  | 98 => ⟨S512x512, .bf16⟩
  | 99 => ⟨S16x32x512, .bf16⟩
  | 100 => ⟨S16x16x1024, .bf16⟩
  | 101 => ⟨S256x1024, .bf16⟩
  | 102 => ⟨S1x512, .f32⟩
  | 103 => ⟨S512, .f32⟩
  | 104 => ⟨S1x512, .f32⟩
  | 105 => ⟨S1x512, .f32⟩
  | 106 => ⟨S512, .f32⟩
  | 107 => ⟨S1x512, .f32⟩
  | 108 => ⟨S1x1024x512, .bf16⟩
  | 109 => ⟨S1024x512, .bf16⟩
  | 110 => ⟨S256x512, .bf16⟩
  | 111 => ⟨S16x16x512, .bf16⟩
  | 112 => ⟨S16x8x1024, .bf16⟩
  | 113 => ⟨S128x1024, .bf16⟩
  | 114 => ⟨S1x512, .f32⟩
  | 115 => ⟨S512, .f32⟩
  | 116 => ⟨S1x512, .f32⟩
  | 117 => ⟨S1x512, .f32⟩
  | 118 => ⟨S512, .f32⟩
  | 119 => ⟨S1x512, .f32⟩
  | 120 => ⟨S1x1024x512, .bf16⟩
  | 121 => ⟨S1024x512, .bf16⟩
  | 122 => ⟨S128x512, .bf16⟩
  | 123 => ⟨S16x8x512, .bf16⟩
  | 124 => ⟨S16x4x1024, .bf16⟩
  | 125 => ⟨S64x1024, .bf16⟩
  | 126 => ⟨S1x512, .f32⟩
  | 127 => ⟨S512, .f32⟩
  | _ => ⟨S16x4096x512, .f32⟩

abbrev hbmTy0_1 (i : Nat) : BufTy := match i % 128 with
  | 0 => ⟨S1x512, .f32⟩
  | 1 => ⟨S1x512, .f32⟩
  | 2 => ⟨S512, .f32⟩
  | 3 => ⟨S1x512, .f32⟩
  | 4 => ⟨S1x1024x512, .bf16⟩
  | 5 => ⟨S1024x512, .bf16⟩
  | 6 => ⟨S64x512, .bf16⟩
  | 7 => ⟨S16x4x512, .bf16⟩
  | 8 => ⟨S16x2x1024, .bf16⟩
  | 9 => ⟨S32x1024, .bf16⟩
  | 10 => ⟨S1x512, .f32⟩
  | 11 => ⟨S512, .f32⟩
  | 12 => ⟨S1x512, .f32⟩
  | 13 => ⟨S1x512, .f32⟩
  | 14 => ⟨S512, .f32⟩
  | 15 => ⟨S1x512, .f32⟩
  | 16 => ⟨S1x1024x512, .bf16⟩
  | 17 => ⟨S1024x512, .bf16⟩
  | 18 => ⟨S32x512, .bf16⟩
  | 19 => ⟨S16x2x512, .bf16⟩
  | 20 => ⟨S16x1x1024, .bf16⟩
  | 21 => ⟨S16x1024, .bf16⟩
  | 22 => ⟨S1x512, .f32⟩
  | 23 => ⟨S512, .f32⟩
  | 24 => ⟨S1x512, .f32⟩
  | 25 => ⟨S1x512, .f32⟩
  | 26 => ⟨S512, .f32⟩
  | 27 => ⟨S1x512, .f32⟩
  | 28 => ⟨S1x1024x512, .bf16⟩
  | 29 => ⟨S1024x512, .bf16⟩
  | 30 => ⟨S16x512, .bf16⟩
  | 31 => ⟨S16x1x512, .bf16⟩
  | 32 => ⟨S_, .bf16⟩
  | 33 => ⟨S16x1x512, .bf16⟩
  | 34 => ⟨S16x1x1024, .bf16⟩
  | 35 => ⟨S16x1024, .bf16⟩
  | 36 => ⟨S16x512, .bf16⟩
  | 37 => ⟨S1x1024x512, .bf16⟩
  | 38 => ⟨S1024x512, .bf16⟩
  | 39 => ⟨S512x512, .bf16⟩
  | 40 => ⟨S1x1024x512, .bf16⟩
  | 41 => ⟨S1024x512, .bf16⟩
  | 42 => ⟨S512x512, .bf16⟩
  | 43 => ⟨S1x512, .f32⟩
  | 44 => ⟨S512, .f32⟩
  | 45 => ⟨S1x512, .f32⟩
  | 46 => ⟨S1x512, .f32⟩
  | 47 => ⟨S512, .f32⟩
  | 48 => ⟨S1x512, .f32⟩
  | 49 => ⟨S16x1024, .bf16⟩
  | 50 => ⟨S16x2x512, .bf16⟩
  | 51 => ⟨S16x2x1024, .bf16⟩
  | 52 => ⟨S32x1024, .bf16⟩
  | 53 => ⟨S32x512, .bf16⟩
  | 54 => ⟨S1x1024x512, .bf16⟩
  | 55 => ⟨S1024x512, .bf16⟩
  | 56 => ⟨S512x512, .bf16⟩
  | 57 => ⟨S1x1024x512, .bf16⟩
  | 58 => ⟨S1024x512, .bf16⟩
  | 59 => ⟨S512x512, .bf16⟩
  | 60 => ⟨S1x512, .f32⟩
  | 61 => ⟨S512, .f32⟩
  | 62 => ⟨S1x512, .f32⟩
  | 63 => ⟨S1x512, .f32⟩
  | 64 => ⟨S512, .f32⟩
  | 65 => ⟨S1x512, .f32⟩
  | 66 => ⟨S32x1024, .bf16⟩
  | 67 => ⟨S16x4x512, .bf16⟩
  | 68 => ⟨S16x4x1024, .bf16⟩
  | 69 => ⟨S64x1024, .bf16⟩
  | 70 => ⟨S64x512, .bf16⟩
  | 71 => ⟨S1x1024x512, .bf16⟩
  | 72 => ⟨S1024x512, .bf16⟩
  | 73 => ⟨S512x512, .bf16⟩
  | 74 => ⟨S1x1024x512, .bf16⟩
  | 75 => ⟨S1024x512, .bf16⟩
  | 76 => ⟨S512x512, .bf16⟩
  | 77 => ⟨S1x512, .f32⟩
  | 78 => ⟨S512, .f32⟩
  | 79 => ⟨S1x512, .f32⟩
  | 80 => ⟨S1x512, .f32⟩
  | 81 => ⟨S512, .f32⟩
  | 82 => ⟨S1x512, .f32⟩
  | 83 => ⟨S64x1024, .bf16⟩
  | 84 => ⟨S16x8x512, .bf16⟩
  | 85 => ⟨S16x8x1024, .bf16⟩
  | 86 => ⟨S128x1024, .bf16⟩
  | 87 => ⟨S128x512, .bf16⟩
  | 88 => ⟨S1x1024x512, .bf16⟩
  | 89 => ⟨S1024x512, .bf16⟩
  | 90 => ⟨S512x512, .bf16⟩
  | 91 => ⟨S1x1024x512, .bf16⟩
  | 92 => ⟨S1024x512, .bf16⟩
  | 93 => ⟨S512x512, .bf16⟩
  | 94 => ⟨S1x512, .f32⟩
  | 95 => ⟨S512, .f32⟩
  | 96 => ⟨S1x512, .f32⟩
  | 97 => ⟨S1x512, .f32⟩
  | 98 => ⟨S512, .f32⟩
  | 99 => ⟨S1x512, .f32⟩
  | 100 => ⟨S128x1024, .bf16⟩
  | 101 => ⟨S16x16x512, .bf16⟩
  | 102 => ⟨S16x16x1024, .bf16⟩
  | 103 => ⟨S256x1024, .bf16⟩
  | 104 => ⟨S256x512, .bf16⟩
  | 105 => ⟨S1x1024x512, .bf16⟩
  | 106 => ⟨S1024x512, .bf16⟩
  | 107 => ⟨S512x512, .bf16⟩
  | 108 => ⟨S1x1024x512, .bf16⟩
  | 109 => ⟨S1024x512, .bf16⟩
  | 110 => ⟨S512x512, .bf16⟩
  | 111 => ⟨S1x512, .f32⟩
  | 112 => ⟨S512, .f32⟩
  | 113 => ⟨S1x512, .f32⟩
  | 114 => ⟨S1x512, .f32⟩
  | 115 => ⟨S512, .f32⟩
  | 116 => ⟨S1x512, .f32⟩
  | 117 => ⟨S256x1024, .bf16⟩
  | 118 => ⟨S16x32x512, .bf16⟩
  | 119 => ⟨S16x32x1024, .bf16⟩
  | 120 => ⟨S512x1024, .bf16⟩
  | 121 => ⟨S512x512, .bf16⟩
  | 122 => ⟨S1x1024x512, .bf16⟩
  | 123 => ⟨S1024x512, .bf16⟩
  | 124 => ⟨S512x512, .bf16⟩
  | 125 => ⟨S1x1024x512, .bf16⟩
  | 126 => ⟨S1024x512, .bf16⟩
  | 127 => ⟨S512x512, .bf16⟩
  | _ => ⟨S16x4096x512, .f32⟩

abbrev hbmTy0_2 (i : Nat) : BufTy := match i % 128 with
  | 0 => ⟨S1x512, .f32⟩
  | 1 => ⟨S512, .f32⟩
  | 2 => ⟨S1x512, .f32⟩
  | 3 => ⟨S1x512, .f32⟩
  | 4 => ⟨S512, .f32⟩
  | 5 => ⟨S1x512, .f32⟩
  | 6 => ⟨S512x1024, .bf16⟩
  | 7 => ⟨S16x64x512, .bf16⟩
  | 8 => ⟨S16x64x1024, .bf16⟩
  | 9 => ⟨S1024x1024, .bf16⟩
  | 10 => ⟨S1024x512, .bf16⟩
  | 11 => ⟨S1x1024x512, .bf16⟩
  | 12 => ⟨S1024x512, .bf16⟩
  | 13 => ⟨S512x512, .bf16⟩
  | 14 => ⟨S1x1024x512, .bf16⟩
  | 15 => ⟨S1024x512, .bf16⟩
  | 16 => ⟨S512x512, .bf16⟩
  | 17 => ⟨S1x512, .f32⟩
  | 18 => ⟨S512, .f32⟩
  | 19 => ⟨S1x512, .f32⟩
  | 20 => ⟨S1x512, .f32⟩
  | 21 => ⟨S512, .f32⟩
  | 22 => ⟨S1x512, .f32⟩
  | 23 => ⟨S1024x1024, .bf16⟩
  | 24 => ⟨S16x128x512, .bf16⟩
  | 25 => ⟨S16x128x1024, .bf16⟩
  | 26 => ⟨S2048x1024, .bf16⟩
  | 27 => ⟨S2048x512, .bf16⟩
  | 28 => ⟨S1x1024x512, .bf16⟩
  | 29 => ⟨S1024x512, .bf16⟩
  | 30 => ⟨S512x512, .bf16⟩
  | 31 => ⟨S1x1024x512, .bf16⟩
  | 32 => ⟨S1024x512, .bf16⟩
  | 33 => ⟨S512x512, .bf16⟩
  | 34 => ⟨S1x512, .f32⟩
  | 35 => ⟨S512, .f32⟩
  | 36 => ⟨S1x512, .f32⟩
  | 37 => ⟨S1x512, .f32⟩
  | 38 => ⟨S512, .f32⟩
  | 39 => ⟨S1x512, .f32⟩
  | 40 => ⟨S2048x1024, .bf16⟩
  | 41 => ⟨S16x256x512, .bf16⟩
  | 42 => ⟨S16x256x1024, .bf16⟩
  | 43 => ⟨S4096x1024, .bf16⟩
  | 44 => ⟨S4096x512, .bf16⟩
  | 45 => ⟨S1x1024x512, .bf16⟩
  | 46 => ⟨S1024x512, .bf16⟩
  | 47 => ⟨S512x512, .bf16⟩
  | 48 => ⟨S1x1024x512, .bf16⟩
  | 49 => ⟨S1024x512, .bf16⟩
  | 50 => ⟨S512x512, .bf16⟩
  | 51 => ⟨S1x512, .f32⟩
  | 52 => ⟨S512, .f32⟩
  | 53 => ⟨S1x512, .f32⟩
  | 54 => ⟨S1x512, .f32⟩
  | 55 => ⟨S512, .f32⟩
  | 56 => ⟨S1x512, .f32⟩
  | 57 => ⟨S4096x1024, .bf16⟩
  | 58 => ⟨S16x512x512, .bf16⟩
  | 59 => ⟨S16x512x1024, .bf16⟩
  | 60 => ⟨S8192x1024, .bf16⟩
  | 61 => ⟨S8192x512, .bf16⟩
  | 62 => ⟨S1x1024x512, .bf16⟩
  | 63 => ⟨S1024x512, .bf16⟩
  | 64 => ⟨S512x512, .bf16⟩
  | 65 => ⟨S1x1024x512, .bf16⟩
  | 66 => ⟨S1024x512, .bf16⟩
  | 67 => ⟨S512x512, .bf16⟩
  | 68 => ⟨S1x512, .f32⟩
  | 69 => ⟨S512, .f32⟩
  | 70 => ⟨S1x512, .f32⟩
  | 71 => ⟨S1x512, .f32⟩
  | 72 => ⟨S512, .f32⟩
  | 73 => ⟨S1x512, .f32⟩
  | 74 => ⟨S8192x1024, .bf16⟩
  | 75 => ⟨S16x1024x512, .bf16⟩
  | 76 => ⟨S16x1024x1024, .bf16⟩
  | 77 => ⟨S16384x1024, .bf16⟩
  | 78 => ⟨S16384x512, .bf16⟩
  | 79 => ⟨S1x1024x512, .bf16⟩
  | 80 => ⟨S1024x512, .bf16⟩
  | 81 => ⟨S512x512, .bf16⟩
  | 82 => ⟨S1x1024x512, .bf16⟩
  | 83 => ⟨S1024x512, .bf16⟩
  | 84 => ⟨S512x512, .bf16⟩
  | 85 => ⟨S1x512, .f32⟩
  | 86 => ⟨S512, .f32⟩
  | 87 => ⟨S1x512, .f32⟩
  | 88 => ⟨S1x512, .f32⟩
  | 89 => ⟨S512, .f32⟩
  | 90 => ⟨S1x512, .f32⟩
  | 91 => ⟨S16384x1024, .bf16⟩
  | 92 => ⟨S16x2048x512, .bf16⟩
  | 93 => ⟨S16x2048x1024, .f32⟩
  | 94 => ⟨S32768x1024, .f32⟩
  | 95 => ⟨S32768x512, .bf16⟩
  | 96 => ⟨S1x1024x512, .bf16⟩
  | 97 => ⟨S1024x512, .bf16⟩
  | 98 => ⟨S512x512, .bf16⟩
  | 99 => ⟨S1x1024x512, .bf16⟩
  | 100 => ⟨S1024x512, .bf16⟩
  | 101 => ⟨S512x512, .bf16⟩
  | 102 => ⟨S1x512, .f32⟩
  | 103 => ⟨S512, .f32⟩
  | 104 => ⟨S1x512, .f32⟩
  | 105 => ⟨S1x512, .f32⟩
  | 106 => ⟨S512, .f32⟩
  | 107 => ⟨S1x512, .f32⟩
  | 108 => ⟨S32768x1024, .bf16⟩
  | 109 => ⟨S16x4096x512, .bf16⟩
  | 110 => ⟨S65536x512, .f32⟩
  | 111 => ⟨S65536x512, .bf16⟩
  | 112 => ⟨S512x512, .bf16⟩
  | 113 => ⟨S512x512, .bf16⟩
  | 114 => ⟨S1x512, .f32⟩
  | 115 => ⟨S1x512, .f32⟩
  | 116 => ⟨S65536x512, .f32⟩
  | 117 => ⟨S16x4096x512, .f32⟩
  | _ => ⟨S16x4096x512, .f32⟩

abbrev hbmTy (i : Nat) : BufTy := match i / 128 with
  | 0 => hbmTy0_0 i
  | 1 => hbmTy0_1 i
  | 2 => hbmTy0_2 i
  | _ => ⟨S16x4096x512, .f32⟩

abbrev vmemTy0_0 (i : Nat) : BufTy := match i % 128 with
  | 0 => ⟨S2048x1024, .f32⟩
  | 1 => ⟨S2048x1024, .f32⟩
  | 2 => ⟨S1024x512, .bf16⟩
  | 3 => ⟨S1x512, .f32⟩
  | 4 => ⟨S1x512, .f32⟩
  | 5 => ⟨S2048x512, .bf16⟩
  | 6 => ⟨S2048x512, .bf16⟩
  | 7 => ⟨S2048x1024, .bf16⟩
  | 8 => ⟨S2048x1024, .bf16⟩
  | 9 => ⟨S1024x512, .bf16⟩
  | 10 => ⟨S1x512, .f32⟩
  | 11 => ⟨S1x512, .f32⟩
  | 12 => ⟨S2048x512, .bf16⟩
  | 13 => ⟨S2048x512, .bf16⟩
  | 14 => ⟨S2048x1024, .bf16⟩
  | 15 => ⟨S2048x1024, .bf16⟩
  | 16 => ⟨S1024x512, .bf16⟩
  | 17 => ⟨S1x512, .f32⟩
  | 18 => ⟨S1x512, .f32⟩
  | 19 => ⟨S2048x512, .bf16⟩
  | 20 => ⟨S2048x512, .bf16⟩
  | 21 => ⟨S2048x1024, .bf16⟩
  | 22 => ⟨S2048x1024, .bf16⟩
  | 23 => ⟨S1024x512, .bf16⟩
  | 24 => ⟨S1x512, .f32⟩
  | 25 => ⟨S1x512, .f32⟩
  | 26 => ⟨S2048x512, .bf16⟩
  | 27 => ⟨S2048x512, .bf16⟩
  | 28 => ⟨S2048x1024, .bf16⟩
  | 29 => ⟨S1024x512, .bf16⟩
  | 30 => ⟨S1x512, .f32⟩
  | 31 => ⟨S1x512, .f32⟩
  | 32 => ⟨S2048x512, .bf16⟩
  | 33 => ⟨S1024x1024, .bf16⟩
  | 34 => ⟨S1024x512, .bf16⟩
  | 35 => ⟨S1x512, .f32⟩
  | 36 => ⟨S1x512, .f32⟩
  | 37 => ⟨S1024x512, .bf16⟩
  | 38 => ⟨S512x1024, .bf16⟩
  | 39 => ⟨S1024x512, .bf16⟩
  | 40 => ⟨S1x512, .f32⟩
  | 41 => ⟨S1x512, .f32⟩
  | 42 => ⟨S512x512, .bf16⟩
  | 43 => ⟨S256x1024, .bf16⟩
  | 44 => ⟨S1024x512, .bf16⟩
  | 45 => ⟨S1x512, .f32⟩
  | 46 => ⟨S1x512, .f32⟩
  | 47 => ⟨S256x512, .bf16⟩
  | 48 => ⟨S128x1024, .bf16⟩
  | 49 => ⟨S1024x512, .bf16⟩
  | 50 => ⟨S1x512, .f32⟩
  | 51 => ⟨S1x512, .f32⟩
  | 52 => ⟨S128x512, .bf16⟩
  | 53 => ⟨S64x1024, .bf16⟩
  | 54 => ⟨S1024x512, .bf16⟩
  | 55 => ⟨S1x512, .f32⟩
  | 56 => ⟨S1x512, .f32⟩
  | 57 => ⟨S64x512, .bf16⟩
  | 58 => ⟨S32x1024, .bf16⟩
  | 59 => ⟨S1024x512, .bf16⟩
  | 60 => ⟨S1x512, .f32⟩
  | 61 => ⟨S1x512, .f32⟩
  | 62 => ⟨S32x512, .bf16⟩
  | 63 => ⟨S16x1024, .bf16⟩
  | 64 => ⟨S1024x512, .bf16⟩
  | 65 => ⟨S1x512, .f32⟩
  | 66 => ⟨S1x512, .f32⟩
  | 67 => ⟨S16x512, .bf16⟩
  | 68 => ⟨S16x512, .bf16⟩
  | 69 => ⟨S16x512, .bf16⟩
  | 70 => ⟨S512x512, .bf16⟩
  | 71 => ⟨S512x512, .bf16⟩
  | 72 => ⟨S1x512, .f32⟩
  | 73 => ⟨S1x512, .f32⟩
  | 74 => ⟨S16x1024, .bf16⟩
  | 75 => ⟨S32x512, .bf16⟩
  | 76 => ⟨S32x512, .bf16⟩
  | 77 => ⟨S512x512, .bf16⟩
  | 78 => ⟨S512x512, .bf16⟩
  | 79 => ⟨S1x512, .f32⟩
  | 80 => ⟨S1x512, .f32⟩
  | 81 => ⟨S32x1024, .bf16⟩
  | 82 => ⟨S64x512, .bf16⟩
  | 83 => ⟨S64x512, .bf16⟩
  | 84 => ⟨S512x512, .bf16⟩
  | 85 => ⟨S512x512, .bf16⟩
  | 86 => ⟨S1x512, .f32⟩
  | 87 => ⟨S1x512, .f32⟩
  | 88 => ⟨S64x1024, .bf16⟩
  | 89 => ⟨S128x512, .bf16⟩
  | 90 => ⟨S128x512, .bf16⟩
  | 91 => ⟨S512x512, .bf16⟩
  | 92 => ⟨S512x512, .bf16⟩
  | 93 => ⟨S1x512, .f32⟩
  | 94 => ⟨S1x512, .f32⟩
  | 95 => ⟨S128x1024, .bf16⟩
  | 96 => ⟨S256x512, .bf16⟩
  | 97 => ⟨S256x512, .bf16⟩
  | 98 => ⟨S512x512, .bf16⟩
  | 99 => ⟨S512x512, .bf16⟩
  | 100 => ⟨S1x512, .f32⟩
  | 101 => ⟨S1x512, .f32⟩
  | 102 => ⟨S256x1024, .bf16⟩
  | 103 => ⟨S512x512, .bf16⟩
  | 104 => ⟨S512x512, .bf16⟩
  | 105 => ⟨S512x512, .bf16⟩
  | 106 => ⟨S512x512, .bf16⟩
  | 107 => ⟨S1x512, .f32⟩
  | 108 => ⟨S1x512, .f32⟩
  | 109 => ⟨S512x1024, .bf16⟩
  | 110 => ⟨S1024x512, .bf16⟩
  | 111 => ⟨S1024x512, .bf16⟩
  | 112 => ⟨S512x512, .bf16⟩
  | 113 => ⟨S512x512, .bf16⟩
  | 114 => ⟨S1x512, .f32⟩
  | 115 => ⟨S1x512, .f32⟩
  | 116 => ⟨S1024x1024, .bf16⟩
  | 117 => ⟨S2048x512, .bf16⟩
  | 118 => ⟨S2048x512, .bf16⟩
  | 119 => ⟨S512x512, .bf16⟩
  | 120 => ⟨S512x512, .bf16⟩
  | 121 => ⟨S1x512, .f32⟩
  | 122 => ⟨S1x512, .f32⟩
  | 123 => ⟨S2048x1024, .bf16⟩
  | 124 => ⟨S2048x512, .bf16⟩
  | 125 => ⟨S2048x512, .bf16⟩
  | 126 => ⟨S2048x512, .bf16⟩
  | 127 => ⟨S2048x512, .bf16⟩
  | _ => ⟨S16x4096x512, .f32⟩

abbrev vmemTy0_1 (i : Nat) : BufTy := match i % 128 with
  | 0 => ⟨S512x512, .bf16⟩
  | 1 => ⟨S512x512, .bf16⟩
  | 2 => ⟨S1x512, .f32⟩
  | 3 => ⟨S1x512, .f32⟩
  | 4 => ⟨S2048x1024, .bf16⟩
  | 5 => ⟨S2048x1024, .bf16⟩
  | 6 => ⟨S2048x512, .bf16⟩
  | 7 => ⟨S2048x512, .bf16⟩
  | 8 => ⟨S2048x512, .bf16⟩
  | 9 => ⟨S2048x512, .bf16⟩
  | 10 => ⟨S512x512, .bf16⟩
  | 11 => ⟨S512x512, .bf16⟩
  | 12 => ⟨S1x512, .f32⟩
  | 13 => ⟨S1x512, .f32⟩
  | 14 => ⟨S2048x1024, .bf16⟩
  | 15 => ⟨S2048x1024, .bf16⟩
  | 16 => ⟨S2048x512, .bf16⟩
  | 17 => ⟨S2048x512, .bf16⟩
  | 18 => ⟨S2048x512, .bf16⟩
  | 19 => ⟨S2048x512, .bf16⟩
  | 20 => ⟨S512x512, .bf16⟩
  | 21 => ⟨S512x512, .bf16⟩
  | 22 => ⟨S1x512, .f32⟩
  | 23 => ⟨S1x512, .f32⟩
  | 24 => ⟨S2048x1024, .bf16⟩
  | 25 => ⟨S2048x1024, .bf16⟩
  | 26 => ⟨S2048x512, .bf16⟩
  | 27 => ⟨S2048x512, .bf16⟩
  | 28 => ⟨S2048x512, .f32⟩
  | 29 => ⟨S2048x512, .f32⟩
  | 30 => ⟨S512x512, .bf16⟩
  | 31 => ⟨S512x512, .bf16⟩
  | 32 => ⟨S1x512, .f32⟩
  | 33 => ⟨S1x512, .f32⟩
  | 34 => ⟨S2048x1024, .bf16⟩
  | 35 => ⟨S2048x1024, .bf16⟩
  | 36 => ⟨S2048x512, .f32⟩
  | 37 => ⟨S2048x512, .f32⟩
  | 38 => ⟨S2048x512, .bf16⟩
  | 39 => ⟨S2048x512, .bf16⟩
  | 40 => ⟨S512x512, .bf16⟩
  | 41 => ⟨S512x512, .bf16⟩
  | 42 => ⟨S1x512, .f32⟩
  | 43 => ⟨S1x512, .f32⟩
  | 44 => ⟨S2048x512, .f32⟩
  | 45 => ⟨S2048x512, .f32⟩
  | _ => ⟨S16x4096x512, .f32⟩

abbrev vmemTy (i : Nat) : BufTy := match i / 128 with
  | 0 => vmemTy0_0 i
  | 1 => vmemTy0_1 i
  | _ => ⟨S16x4096x512, .f32⟩

abbrev bufTy : (tb : Table) → Fin (tcTables nBuf tb) → BufTy
  | .hbm, ⟨i, _⟩ => hbmTy i
  | .local _ .vmem, ⟨i, _⟩ => vmemTy i
  | _, _ => ⟨S16x4096x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 174 → Bool
  | ⟨i, _⟩ => dmaSemScopedAt i

abbrev sig : RefSig :=
  ofTc nBuf bufTy 0 174 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_cst : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_v249 : Ref sig .tc := ⟨.hbm, 260, rfl⟩
abbrev main_v250 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_v254 : Ref sig .tc := ⟨.hbm, 265, rfl⟩
abbrev main_v255 : Ref sig .tc := ⟨.hbm, 266, rfl⟩
abbrev main_v256 : Ref sig .tc := ⟨.hbm, 267, rfl⟩
abbrev main_v257 : Ref sig .tc := ⟨.hbm, 268, rfl⟩
abbrev main_v258 : Ref sig .tc := ⟨.hbm, 269, rfl⟩
abbrev main_v259 : Ref sig .tc := ⟨.hbm, 270, rfl⟩
abbrev main_v260 : Ref sig .tc := ⟨.hbm, 271, rfl⟩
abbrev main_v261 : Ref sig .tc := ⟨.hbm, 272, rfl⟩
abbrev main_v262 : Ref sig .tc := ⟨.hbm, 273, rfl⟩
abbrev main_v263 : Ref sig .tc := ⟨.hbm, 274, rfl⟩
abbrev main_v264 : Ref sig .tc := ⟨.hbm, 275, rfl⟩
abbrev main_v265 : Ref sig .tc := ⟨.hbm, 276, rfl⟩
abbrev main_v266 : Ref sig .tc := ⟨.hbm, 277, rfl⟩
abbrev main_v267 : Ref sig .tc := ⟨.hbm, 278, rfl⟩
abbrev main_v268 : Ref sig .tc := ⟨.hbm, 279, rfl⟩
abbrev main_v269 : Ref sig .tc := ⟨.hbm, 280, rfl⟩
abbrev main_v270 : Ref sig .tc := ⟨.hbm, 281, rfl⟩
abbrev main_v271 : Ref sig .tc := ⟨.hbm, 282, rfl⟩
abbrev main_v272 : Ref sig .tc := ⟨.hbm, 283, rfl⟩
abbrev main_v273 : Ref sig .tc := ⟨.hbm, 284, rfl⟩
abbrev main_v274 : Ref sig .tc := ⟨.hbm, 285, rfl⟩
abbrev main_v275 : Ref sig .tc := ⟨.hbm, 286, rfl⟩
abbrev main_v276 : Ref sig .tc := ⟨.hbm, 287, rfl⟩
abbrev main_v277 : Ref sig .tc := ⟨.hbm, 288, rfl⟩
abbrev main_v278 : Ref sig .tc := ⟨.hbm, 289, rfl⟩
abbrev main_v279 : Ref sig .tc := ⟨.hbm, 290, rfl⟩
abbrev main_v280 : Ref sig .tc := ⟨.hbm, 291, rfl⟩
abbrev main_v281 : Ref sig .tc := ⟨.hbm, 292, rfl⟩
abbrev main_v282 : Ref sig .tc := ⟨.hbm, 293, rfl⟩
abbrev main_v283 : Ref sig .tc := ⟨.hbm, 294, rfl⟩
abbrev main_v284 : Ref sig .tc := ⟨.hbm, 295, rfl⟩
abbrev main_v285 : Ref sig .tc := ⟨.hbm, 296, rfl⟩
abbrev main_v286 : Ref sig .tc := ⟨.hbm, 297, rfl⟩
abbrev main_v287 : Ref sig .tc := ⟨.hbm, 298, rfl⟩
abbrev main_v288 : Ref sig .tc := ⟨.hbm, 299, rfl⟩
abbrev main_v289 : Ref sig .tc := ⟨.hbm, 300, rfl⟩
abbrev main_v290 : Ref sig .tc := ⟨.hbm, 301, rfl⟩
abbrev main_v291 : Ref sig .tc := ⟨.hbm, 302, rfl⟩
abbrev main_v292 : Ref sig .tc := ⟨.hbm, 303, rfl⟩
abbrev main_v293 : Ref sig .tc := ⟨.hbm, 304, rfl⟩
abbrev main_v294 : Ref sig .tc := ⟨.hbm, 305, rfl⟩
abbrev main_v295 : Ref sig .tc := ⟨.hbm, 306, rfl⟩
abbrev main_v296 : Ref sig .tc := ⟨.hbm, 307, rfl⟩
abbrev main_v297 : Ref sig .tc := ⟨.hbm, 308, rfl⟩
abbrev main_v298 : Ref sig .tc := ⟨.hbm, 309, rfl⟩
abbrev main_v299 : Ref sig .tc := ⟨.hbm, 310, rfl⟩
abbrev main_v300 : Ref sig .tc := ⟨.hbm, 311, rfl⟩
abbrev main_v301 : Ref sig .tc := ⟨.hbm, 312, rfl⟩
abbrev main_v302 : Ref sig .tc := ⟨.hbm, 313, rfl⟩
abbrev main_v303 : Ref sig .tc := ⟨.hbm, 314, rfl⟩
abbrev main_v304 : Ref sig .tc := ⟨.hbm, 315, rfl⟩
abbrev main_v305 : Ref sig .tc := ⟨.hbm, 316, rfl⟩
abbrev main_v306 : Ref sig .tc := ⟨.hbm, 317, rfl⟩
abbrev main_v307 : Ref sig .tc := ⟨.hbm, 318, rfl⟩
abbrev main_v308 : Ref sig .tc := ⟨.hbm, 319, rfl⟩
abbrev main_v309 : Ref sig .tc := ⟨.hbm, 320, rfl⟩
abbrev main_v310 : Ref sig .tc := ⟨.hbm, 321, rfl⟩
abbrev main_v311 : Ref sig .tc := ⟨.hbm, 322, rfl⟩
abbrev main_v312 : Ref sig .tc := ⟨.hbm, 323, rfl⟩
abbrev main_v313 : Ref sig .tc := ⟨.hbm, 324, rfl⟩
abbrev main_v314 : Ref sig .tc := ⟨.hbm, 325, rfl⟩
abbrev main_v315 : Ref sig .tc := ⟨.hbm, 326, rfl⟩
abbrev main_v316 : Ref sig .tc := ⟨.hbm, 327, rfl⟩
abbrev main_v317 : Ref sig .tc := ⟨.hbm, 328, rfl⟩
abbrev main_v318 : Ref sig .tc := ⟨.hbm, 329, rfl⟩
abbrev main_v319 : Ref sig .tc := ⟨.hbm, 330, rfl⟩
abbrev main_v320 : Ref sig .tc := ⟨.hbm, 331, rfl⟩
abbrev main_v321 : Ref sig .tc := ⟨.hbm, 332, rfl⟩
abbrev main_v322 : Ref sig .tc := ⟨.hbm, 333, rfl⟩
abbrev main_v323 : Ref sig .tc := ⟨.hbm, 334, rfl⟩
abbrev main_v324 : Ref sig .tc := ⟨.hbm, 335, rfl⟩
abbrev main_v325 : Ref sig .tc := ⟨.hbm, 336, rfl⟩
abbrev main_v326 : Ref sig .tc := ⟨.hbm, 337, rfl⟩
abbrev main_v327 : Ref sig .tc := ⟨.hbm, 338, rfl⟩
abbrev main_v328 : Ref sig .tc := ⟨.hbm, 339, rfl⟩
abbrev main_v329 : Ref sig .tc := ⟨.hbm, 340, rfl⟩
abbrev main_v330 : Ref sig .tc := ⟨.hbm, 341, rfl⟩
abbrev main_v331 : Ref sig .tc := ⟨.hbm, 342, rfl⟩
abbrev main_v332 : Ref sig .tc := ⟨.hbm, 343, rfl⟩
abbrev main_v333 : Ref sig .tc := ⟨.hbm, 344, rfl⟩
abbrev main_v334 : Ref sig .tc := ⟨.hbm, 345, rfl⟩
abbrev main_v335 : Ref sig .tc := ⟨.hbm, 346, rfl⟩
abbrev main_v336 : Ref sig .tc := ⟨.hbm, 347, rfl⟩
abbrev main_v337 : Ref sig .tc := ⟨.hbm, 348, rfl⟩
abbrev main_v338 : Ref sig .tc := ⟨.hbm, 349, rfl⟩
abbrev main_v339 : Ref sig .tc := ⟨.hbm, 350, rfl⟩
abbrev main_v340 : Ref sig .tc := ⟨.hbm, 351, rfl⟩
abbrev main_v341 : Ref sig .tc := ⟨.hbm, 352, rfl⟩
abbrev main_v342 : Ref sig .tc := ⟨.hbm, 353, rfl⟩
abbrev main_v343 : Ref sig .tc := ⟨.hbm, 354, rfl⟩
abbrev main_v344 : Ref sig .tc := ⟨.hbm, 355, rfl⟩
abbrev main_v345 : Ref sig .tc := ⟨.hbm, 356, rfl⟩
abbrev main_v346 : Ref sig .tc := ⟨.hbm, 357, rfl⟩
abbrev main_v347 : Ref sig .tc := ⟨.hbm, 358, rfl⟩
abbrev main_v348 : Ref sig .tc := ⟨.hbm, 359, rfl⟩
abbrev main_v349 : Ref sig .tc := ⟨.hbm, 360, rfl⟩
abbrev main_v350 : Ref sig .tc := ⟨.hbm, 361, rfl⟩
abbrev main_v351 : Ref sig .tc := ⟨.hbm, 362, rfl⟩
abbrev main_v352 : Ref sig .tc := ⟨.hbm, 363, rfl⟩
abbrev main_v353 : Ref sig .tc := ⟨.hbm, 364, rfl⟩
abbrev main_v354 : Ref sig .tc := ⟨.hbm, 365, rfl⟩
abbrev main_v355 : Ref sig .tc := ⟨.hbm, 366, rfl⟩
abbrev main_v356 : Ref sig .tc := ⟨.hbm, 367, rfl⟩
abbrev main_v357 : Ref sig .tc := ⟨.hbm, 368, rfl⟩
abbrev main_v358 : Ref sig .tc := ⟨.hbm, 369, rfl⟩
abbrev main_v359 : Ref sig .tc := ⟨.hbm, 370, rfl⟩
abbrev main_v360 : Ref sig .tc := ⟨.hbm, 371, rfl⟩
abbrev main_v361 : Ref sig .tc := ⟨.hbm, 372, rfl⟩
abbrev main_v362 : Ref sig .tc := ⟨.hbm, 373, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc5_stg0_0 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc6_stg0_0 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg4_0 : Ref sig .tc := ⟨.vmem, 42, rfl⟩
abbrev cc7_stg0_0 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg4_0 : Ref sig .tc := ⟨.vmem, 47, rfl⟩
abbrev cc8_stg0_0 : Ref sig .tc := ⟨.vmem, 48, rfl⟩
abbrev cc8_stg1_0 : Ref sig .tc := ⟨.vmem, 49, rfl⟩
abbrev cc8_stg2_0 : Ref sig .tc := ⟨.vmem, 50, rfl⟩
abbrev cc8_stg3_0 : Ref sig .tc := ⟨.vmem, 51, rfl⟩
abbrev cc8_stg4_0 : Ref sig .tc := ⟨.vmem, 52, rfl⟩
abbrev cc9_stg0_0 : Ref sig .tc := ⟨.vmem, 53, rfl⟩
abbrev cc9_stg1_0 : Ref sig .tc := ⟨.vmem, 54, rfl⟩
abbrev cc9_stg2_0 : Ref sig .tc := ⟨.vmem, 55, rfl⟩
abbrev cc9_stg3_0 : Ref sig .tc := ⟨.vmem, 56, rfl⟩
abbrev cc9_stg4_0 : Ref sig .tc := ⟨.vmem, 57, rfl⟩
abbrev cc10_stg0_0 : Ref sig .tc := ⟨.vmem, 58, rfl⟩
abbrev cc10_stg1_0 : Ref sig .tc := ⟨.vmem, 59, rfl⟩
abbrev cc10_stg2_0 : Ref sig .tc := ⟨.vmem, 60, rfl⟩
abbrev cc10_stg3_0 : Ref sig .tc := ⟨.vmem, 61, rfl⟩
abbrev cc10_stg4_0 : Ref sig .tc := ⟨.vmem, 62, rfl⟩
abbrev cc11_stg0_0 : Ref sig .tc := ⟨.vmem, 63, rfl⟩
abbrev cc11_stg1_0 : Ref sig .tc := ⟨.vmem, 64, rfl⟩
abbrev cc11_stg2_0 : Ref sig .tc := ⟨.vmem, 65, rfl⟩
abbrev cc11_stg3_0 : Ref sig .tc := ⟨.vmem, 66, rfl⟩
abbrev cc11_stg4_0 : Ref sig .tc := ⟨.vmem, 67, rfl⟩
abbrev cc12_stg0_0 : Ref sig .tc := ⟨.vmem, 68, rfl⟩
abbrev cc12_stg1_0 : Ref sig .tc := ⟨.vmem, 69, rfl⟩
abbrev cc12_stg2_0 : Ref sig .tc := ⟨.vmem, 70, rfl⟩
abbrev cc12_stg3_0 : Ref sig .tc := ⟨.vmem, 71, rfl⟩
abbrev cc12_stg4_0 : Ref sig .tc := ⟨.vmem, 72, rfl⟩
abbrev cc12_stg5_0 : Ref sig .tc := ⟨.vmem, 73, rfl⟩
abbrev cc12_stg6_0 : Ref sig .tc := ⟨.vmem, 74, rfl⟩
abbrev cc13_stg0_0 : Ref sig .tc := ⟨.vmem, 75, rfl⟩
abbrev cc13_stg1_0 : Ref sig .tc := ⟨.vmem, 76, rfl⟩
abbrev cc13_stg2_0 : Ref sig .tc := ⟨.vmem, 77, rfl⟩
abbrev cc13_stg3_0 : Ref sig .tc := ⟨.vmem, 78, rfl⟩
abbrev cc13_stg4_0 : Ref sig .tc := ⟨.vmem, 79, rfl⟩
abbrev cc13_stg5_0 : Ref sig .tc := ⟨.vmem, 80, rfl⟩
abbrev cc13_stg6_0 : Ref sig .tc := ⟨.vmem, 81, rfl⟩
abbrev cc14_stg0_0 : Ref sig .tc := ⟨.vmem, 82, rfl⟩
abbrev cc14_stg1_0 : Ref sig .tc := ⟨.vmem, 83, rfl⟩
abbrev cc14_stg2_0 : Ref sig .tc := ⟨.vmem, 84, rfl⟩
abbrev cc14_stg3_0 : Ref sig .tc := ⟨.vmem, 85, rfl⟩
abbrev cc14_stg4_0 : Ref sig .tc := ⟨.vmem, 86, rfl⟩
abbrev cc14_stg5_0 : Ref sig .tc := ⟨.vmem, 87, rfl⟩
abbrev cc14_stg6_0 : Ref sig .tc := ⟨.vmem, 88, rfl⟩
abbrev cc15_stg0_0 : Ref sig .tc := ⟨.vmem, 89, rfl⟩
abbrev cc15_stg1_0 : Ref sig .tc := ⟨.vmem, 90, rfl⟩
abbrev cc15_stg2_0 : Ref sig .tc := ⟨.vmem, 91, rfl⟩
abbrev cc15_stg3_0 : Ref sig .tc := ⟨.vmem, 92, rfl⟩
abbrev cc15_stg4_0 : Ref sig .tc := ⟨.vmem, 93, rfl⟩
abbrev cc15_stg5_0 : Ref sig .tc := ⟨.vmem, 94, rfl⟩
abbrev cc15_stg6_0 : Ref sig .tc := ⟨.vmem, 95, rfl⟩
abbrev cc16_stg0_0 : Ref sig .tc := ⟨.vmem, 96, rfl⟩
abbrev cc16_stg1_0 : Ref sig .tc := ⟨.vmem, 97, rfl⟩
abbrev cc16_stg2_0 : Ref sig .tc := ⟨.vmem, 98, rfl⟩
abbrev cc16_stg3_0 : Ref sig .tc := ⟨.vmem, 99, rfl⟩
abbrev cc16_stg4_0 : Ref sig .tc := ⟨.vmem, 100, rfl⟩
abbrev cc16_stg5_0 : Ref sig .tc := ⟨.vmem, 101, rfl⟩
abbrev cc16_stg6_0 : Ref sig .tc := ⟨.vmem, 102, rfl⟩
abbrev cc17_stg0_0 : Ref sig .tc := ⟨.vmem, 103, rfl⟩
abbrev cc17_stg1_0 : Ref sig .tc := ⟨.vmem, 104, rfl⟩
abbrev cc17_stg2_0 : Ref sig .tc := ⟨.vmem, 105, rfl⟩
abbrev cc17_stg3_0 : Ref sig .tc := ⟨.vmem, 106, rfl⟩
abbrev cc17_stg4_0 : Ref sig .tc := ⟨.vmem, 107, rfl⟩
abbrev cc17_stg5_0 : Ref sig .tc := ⟨.vmem, 108, rfl⟩
abbrev cc17_stg6_0 : Ref sig .tc := ⟨.vmem, 109, rfl⟩
abbrev cc18_stg0_0 : Ref sig .tc := ⟨.vmem, 110, rfl⟩
abbrev cc18_stg1_0 : Ref sig .tc := ⟨.vmem, 111, rfl⟩
abbrev cc18_stg2_0 : Ref sig .tc := ⟨.vmem, 112, rfl⟩
abbrev cc18_stg3_0 : Ref sig .tc := ⟨.vmem, 113, rfl⟩
abbrev cc18_stg4_0 : Ref sig .tc := ⟨.vmem, 114, rfl⟩
abbrev cc18_stg5_0 : Ref sig .tc := ⟨.vmem, 115, rfl⟩
abbrev cc18_stg6_0 : Ref sig .tc := ⟨.vmem, 116, rfl⟩
abbrev cc19_stg0_0 : Ref sig .tc := ⟨.vmem, 117, rfl⟩
abbrev cc19_stg1_0 : Ref sig .tc := ⟨.vmem, 118, rfl⟩
abbrev cc19_stg2_0 : Ref sig .tc := ⟨.vmem, 119, rfl⟩
abbrev cc19_stg3_0 : Ref sig .tc := ⟨.vmem, 120, rfl⟩
abbrev cc19_stg4_0 : Ref sig .tc := ⟨.vmem, 121, rfl⟩
abbrev cc19_stg5_0 : Ref sig .tc := ⟨.vmem, 122, rfl⟩
abbrev cc19_stg6_0 : Ref sig .tc := ⟨.vmem, 123, rfl⟩
abbrev cc20_stg0_0 : Ref sig .tc := ⟨.vmem, 124, rfl⟩
abbrev cc20_stg0_1 : Ref sig .tc := ⟨.vmem, 125, rfl⟩
abbrev cc20_stg1_0 : Ref sig .tc := ⟨.vmem, 126, rfl⟩
abbrev cc20_stg1_1 : Ref sig .tc := ⟨.vmem, 127, rfl⟩
abbrev cc20_stg2_0 : Ref sig .tc := ⟨.vmem, 128, rfl⟩
abbrev cc20_stg3_0 : Ref sig .tc := ⟨.vmem, 129, rfl⟩
abbrev cc20_stg4_0 : Ref sig .tc := ⟨.vmem, 130, rfl⟩
abbrev cc20_stg5_0 : Ref sig .tc := ⟨.vmem, 131, rfl⟩
abbrev cc20_stg6_0 : Ref sig .tc := ⟨.vmem, 132, rfl⟩
abbrev cc20_stg6_1 : Ref sig .tc := ⟨.vmem, 133, rfl⟩
abbrev cc21_stg0_0 : Ref sig .tc := ⟨.vmem, 134, rfl⟩
abbrev cc21_stg0_1 : Ref sig .tc := ⟨.vmem, 135, rfl⟩
abbrev cc21_stg1_0 : Ref sig .tc := ⟨.vmem, 136, rfl⟩
abbrev cc21_stg1_1 : Ref sig .tc := ⟨.vmem, 137, rfl⟩
abbrev cc21_stg2_0 : Ref sig .tc := ⟨.vmem, 138, rfl⟩
abbrev cc21_stg3_0 : Ref sig .tc := ⟨.vmem, 139, rfl⟩
abbrev cc21_stg4_0 : Ref sig .tc := ⟨.vmem, 140, rfl⟩
abbrev cc21_stg5_0 : Ref sig .tc := ⟨.vmem, 141, rfl⟩
abbrev cc21_stg6_0 : Ref sig .tc := ⟨.vmem, 142, rfl⟩
abbrev cc21_stg6_1 : Ref sig .tc := ⟨.vmem, 143, rfl⟩
abbrev cc22_stg0_0 : Ref sig .tc := ⟨.vmem, 144, rfl⟩
abbrev cc22_stg0_1 : Ref sig .tc := ⟨.vmem, 145, rfl⟩
abbrev cc22_stg1_0 : Ref sig .tc := ⟨.vmem, 146, rfl⟩
abbrev cc22_stg1_1 : Ref sig .tc := ⟨.vmem, 147, rfl⟩
abbrev cc22_stg2_0 : Ref sig .tc := ⟨.vmem, 148, rfl⟩
abbrev cc22_stg3_0 : Ref sig .tc := ⟨.vmem, 149, rfl⟩
abbrev cc22_stg4_0 : Ref sig .tc := ⟨.vmem, 150, rfl⟩
abbrev cc22_stg5_0 : Ref sig .tc := ⟨.vmem, 151, rfl⟩
abbrev cc22_stg6_0 : Ref sig .tc := ⟨.vmem, 152, rfl⟩
abbrev cc22_stg6_1 : Ref sig .tc := ⟨.vmem, 153, rfl⟩
abbrev cc23_stg0_0 : Ref sig .tc := ⟨.vmem, 154, rfl⟩
abbrev cc23_stg0_1 : Ref sig .tc := ⟨.vmem, 155, rfl⟩
abbrev cc23_stg1_0 : Ref sig .tc := ⟨.vmem, 156, rfl⟩
abbrev cc23_stg1_1 : Ref sig .tc := ⟨.vmem, 157, rfl⟩
abbrev cc23_stg2_0 : Ref sig .tc := ⟨.vmem, 158, rfl⟩
abbrev cc23_stg3_0 : Ref sig .tc := ⟨.vmem, 159, rfl⟩
abbrev cc23_stg4_0 : Ref sig .tc := ⟨.vmem, 160, rfl⟩
abbrev cc23_stg5_0 : Ref sig .tc := ⟨.vmem, 161, rfl⟩
abbrev cc23_stg6_0 : Ref sig .tc := ⟨.vmem, 162, rfl⟩
abbrev cc23_stg6_1 : Ref sig .tc := ⟨.vmem, 163, rfl⟩
abbrev cc24_stg0_0 : Ref sig .tc := ⟨.vmem, 164, rfl⟩
abbrev cc24_stg0_1 : Ref sig .tc := ⟨.vmem, 165, rfl⟩
abbrev cc24_stg1_0 : Ref sig .tc := ⟨.vmem, 166, rfl⟩
abbrev cc24_stg1_1 : Ref sig .tc := ⟨.vmem, 167, rfl⟩
abbrev cc24_stg2_0 : Ref sig .tc := ⟨.vmem, 168, rfl⟩
abbrev cc24_stg3_0 : Ref sig .tc := ⟨.vmem, 169, rfl⟩
abbrev cc24_stg4_0 : Ref sig .tc := ⟨.vmem, 170, rfl⟩
abbrev cc24_stg5_0 : Ref sig .tc := ⟨.vmem, 171, rfl⟩
abbrev cc24_stg6_0 : Ref sig .tc := ⟨.vmem, 172, rfl⟩
abbrev cc24_stg6_1 : Ref sig .tc := ⟨.vmem, 173, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc5_sem0_0 : DmaSem sig := 33
abbrev cc5_sem1_0 : DmaSem sig := 34
abbrev cc5_sem2_0 : DmaSem sig := 35
abbrev cc5_sem3_0 : DmaSem sig := 36
abbrev cc5_sem4_0 : DmaSem sig := 37
abbrev cc6_sem0_0 : DmaSem sig := 38
abbrev cc6_sem1_0 : DmaSem sig := 39
abbrev cc6_sem2_0 : DmaSem sig := 40
abbrev cc6_sem3_0 : DmaSem sig := 41
abbrev cc6_sem4_0 : DmaSem sig := 42
abbrev cc7_sem0_0 : DmaSem sig := 43
abbrev cc7_sem1_0 : DmaSem sig := 44
abbrev cc7_sem2_0 : DmaSem sig := 45
abbrev cc7_sem3_0 : DmaSem sig := 46
abbrev cc7_sem4_0 : DmaSem sig := 47
abbrev cc8_sem0_0 : DmaSem sig := 48
abbrev cc8_sem1_0 : DmaSem sig := 49
abbrev cc8_sem2_0 : DmaSem sig := 50
abbrev cc8_sem3_0 : DmaSem sig := 51
abbrev cc8_sem4_0 : DmaSem sig := 52
abbrev cc9_sem0_0 : DmaSem sig := 53
abbrev cc9_sem1_0 : DmaSem sig := 54
abbrev cc9_sem2_0 : DmaSem sig := 55
abbrev cc9_sem3_0 : DmaSem sig := 56
abbrev cc9_sem4_0 : DmaSem sig := 57
abbrev cc10_sem0_0 : DmaSem sig := 58
abbrev cc10_sem1_0 : DmaSem sig := 59
abbrev cc10_sem2_0 : DmaSem sig := 60
abbrev cc10_sem3_0 : DmaSem sig := 61
abbrev cc10_sem4_0 : DmaSem sig := 62
abbrev cc11_sem0_0 : DmaSem sig := 63
abbrev cc11_sem1_0 : DmaSem sig := 64
abbrev cc11_sem2_0 : DmaSem sig := 65
abbrev cc11_sem3_0 : DmaSem sig := 66
abbrev cc11_sem4_0 : DmaSem sig := 67
abbrev cc12_sem0_0 : DmaSem sig := 68
abbrev cc12_sem1_0 : DmaSem sig := 69
abbrev cc12_sem2_0 : DmaSem sig := 70
abbrev cc12_sem3_0 : DmaSem sig := 71
abbrev cc12_sem4_0 : DmaSem sig := 72
abbrev cc12_sem5_0 : DmaSem sig := 73
abbrev cc12_sem6_0 : DmaSem sig := 74
abbrev cc13_sem0_0 : DmaSem sig := 75
abbrev cc13_sem1_0 : DmaSem sig := 76
abbrev cc13_sem2_0 : DmaSem sig := 77
abbrev cc13_sem3_0 : DmaSem sig := 78
abbrev cc13_sem4_0 : DmaSem sig := 79
abbrev cc13_sem5_0 : DmaSem sig := 80
abbrev cc13_sem6_0 : DmaSem sig := 81
abbrev cc14_sem0_0 : DmaSem sig := 82
abbrev cc14_sem1_0 : DmaSem sig := 83
abbrev cc14_sem2_0 : DmaSem sig := 84
abbrev cc14_sem3_0 : DmaSem sig := 85
abbrev cc14_sem4_0 : DmaSem sig := 86
abbrev cc14_sem5_0 : DmaSem sig := 87
abbrev cc14_sem6_0 : DmaSem sig := 88
abbrev cc15_sem0_0 : DmaSem sig := 89
abbrev cc15_sem1_0 : DmaSem sig := 90
abbrev cc15_sem2_0 : DmaSem sig := 91
abbrev cc15_sem3_0 : DmaSem sig := 92
abbrev cc15_sem4_0 : DmaSem sig := 93
abbrev cc15_sem5_0 : DmaSem sig := 94
abbrev cc15_sem6_0 : DmaSem sig := 95
abbrev cc16_sem0_0 : DmaSem sig := 96
abbrev cc16_sem1_0 : DmaSem sig := 97
abbrev cc16_sem2_0 : DmaSem sig := 98
abbrev cc16_sem3_0 : DmaSem sig := 99
abbrev cc16_sem4_0 : DmaSem sig := 100
abbrev cc16_sem5_0 : DmaSem sig := 101
abbrev cc16_sem6_0 : DmaSem sig := 102
abbrev cc17_sem0_0 : DmaSem sig := 103
abbrev cc17_sem1_0 : DmaSem sig := 104
abbrev cc17_sem2_0 : DmaSem sig := 105
abbrev cc17_sem3_0 : DmaSem sig := 106
abbrev cc17_sem4_0 : DmaSem sig := 107
abbrev cc17_sem5_0 : DmaSem sig := 108
abbrev cc17_sem6_0 : DmaSem sig := 109
abbrev cc18_sem0_0 : DmaSem sig := 110
abbrev cc18_sem1_0 : DmaSem sig := 111
abbrev cc18_sem2_0 : DmaSem sig := 112
abbrev cc18_sem3_0 : DmaSem sig := 113
abbrev cc18_sem4_0 : DmaSem sig := 114
abbrev cc18_sem5_0 : DmaSem sig := 115
abbrev cc18_sem6_0 : DmaSem sig := 116
abbrev cc19_sem0_0 : DmaSem sig := 117
abbrev cc19_sem1_0 : DmaSem sig := 118
abbrev cc19_sem2_0 : DmaSem sig := 119
abbrev cc19_sem3_0 : DmaSem sig := 120
abbrev cc19_sem4_0 : DmaSem sig := 121
abbrev cc19_sem5_0 : DmaSem sig := 122
abbrev cc19_sem6_0 : DmaSem sig := 123
abbrev cc20_sem0_0 : DmaSem sig := 124
abbrev cc20_sem0_1 : DmaSem sig := 125
abbrev cc20_sem1_0 : DmaSem sig := 126
abbrev cc20_sem1_1 : DmaSem sig := 127
abbrev cc20_sem2_0 : DmaSem sig := 128
abbrev cc20_sem3_0 : DmaSem sig := 129
abbrev cc20_sem4_0 : DmaSem sig := 130
abbrev cc20_sem5_0 : DmaSem sig := 131
abbrev cc20_sem6_0 : DmaSem sig := 132
abbrev cc20_sem6_1 : DmaSem sig := 133
abbrev cc21_sem0_0 : DmaSem sig := 134
abbrev cc21_sem0_1 : DmaSem sig := 135
abbrev cc21_sem1_0 : DmaSem sig := 136
abbrev cc21_sem1_1 : DmaSem sig := 137
abbrev cc21_sem2_0 : DmaSem sig := 138
abbrev cc21_sem3_0 : DmaSem sig := 139
abbrev cc21_sem4_0 : DmaSem sig := 140
abbrev cc21_sem5_0 : DmaSem sig := 141
abbrev cc21_sem6_0 : DmaSem sig := 142
abbrev cc21_sem6_1 : DmaSem sig := 143
abbrev cc22_sem0_0 : DmaSem sig := 144
abbrev cc22_sem0_1 : DmaSem sig := 145
abbrev cc22_sem1_0 : DmaSem sig := 146
abbrev cc22_sem1_1 : DmaSem sig := 147
abbrev cc22_sem2_0 : DmaSem sig := 148
abbrev cc22_sem3_0 : DmaSem sig := 149
abbrev cc22_sem4_0 : DmaSem sig := 150
abbrev cc22_sem5_0 : DmaSem sig := 151
abbrev cc22_sem6_0 : DmaSem sig := 152
abbrev cc22_sem6_1 : DmaSem sig := 153
abbrev cc23_sem0_0 : DmaSem sig := 154
abbrev cc23_sem0_1 : DmaSem sig := 155
abbrev cc23_sem1_0 : DmaSem sig := 156
abbrev cc23_sem1_1 : DmaSem sig := 157
abbrev cc23_sem2_0 : DmaSem sig := 158
abbrev cc23_sem3_0 : DmaSem sig := 159
abbrev cc23_sem4_0 : DmaSem sig := 160
abbrev cc23_sem5_0 : DmaSem sig := 161
abbrev cc23_sem6_0 : DmaSem sig := 162
abbrev cc23_sem6_1 : DmaSem sig := 163
abbrev cc24_sem0_0 : DmaSem sig := 164
abbrev cc24_sem0_1 : DmaSem sig := 165
abbrev cc24_sem1_0 : DmaSem sig := 166
abbrev cc24_sem1_1 : DmaSem sig := 167
abbrev cc24_sem2_0 : DmaSem sig := 168
abbrev cc24_sem3_0 : DmaSem sig := 169
abbrev cc24_sem4_0 : DmaSem sig := 170
abbrev cc24_sem5_0 : DmaSem sig := 171
abbrev cc24_sem6_0 : DmaSem sig := 172
abbrev cc24_sem6_1 : DmaSem sig := 173

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1024x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2048x512 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1024x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1024x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1024x512 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S512x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1024x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S512x512 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S256x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S1024x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256x512 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S128x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S1024x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x512 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S64x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S1024x512 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x512 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S32x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S1024x512 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S32x512 .bf16 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S16x1024 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S1024x512 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x512 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x512 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S16x512 .bf16 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 1 → Memref sig .tc .vmem S16x512 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S16x512 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![true]

abbrev stage12_2 : Fin 1 → Memref sig .tc .vmem S512x512 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S512x512 .bf16 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x512 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x512 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S16x1024 .bf16 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 1 → Memref sig .tc .vmem S32x512 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true]

abbrev stage13_1 : Fin 1 → Memref sig .tc .vmem S32x512 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![true]

abbrev stage13_2 : Fin 1 → Memref sig .tc .vmem S512x512 .bf16 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S512x512 .bf16 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x512 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x512 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S32x1024 .bf16 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S64x512 .bf16 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S64x512 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![true]

abbrev stage14_2 : Fin 1 → Memref sig .tc .vmem S512x512 .bf16 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S512x512 .bf16 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x512 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x512 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S64x1024 .bf16 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 1 → Memref sig .tc .vmem S128x512 .bf16 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true]

abbrev stage15_1 : Fin 1 → Memref sig .tc .vmem S128x512 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![true]

abbrev stage15_2 : Fin 1 → Memref sig .tc .vmem S512x512 .bf16 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S512x512 .bf16 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x512 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x512 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S128x1024 .bf16 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 1 → Memref sig .tc .vmem S256x512 .bf16 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S256x512 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![true]

abbrev stage16_2 : Fin 1 → Memref sig .tc .vmem S512x512 .bf16 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S512x512 .bf16 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x512 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x512 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S256x1024 .bf16 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![true]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_6 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 1 → Memref sig .tc .vmem S512x512 .bf16 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S512x512 .bf16 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![true]

abbrev stage17_2 : Fin 1 → Memref sig .tc .vmem S512x512 .bf16 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S512x512 .bf16 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x512 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 1 → Memref sig .tc .vmem S1x512 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

abbrev stage17_6 : Fin 1 → Memref sig .tc .vmem S512x1024 .bf16 := fun | 0 => Memref.whole cc17_stg6_0 | ⟨_ + 1, h⟩ => absurd h (Nat.not_lt.2 (Nat.le_add_left _ _))
abbrev sem17_6 : Fin 1 → DmaSem sig := fun | 0 => cc17_sem6_0 | ⟨_ + 1, h⟩ => absurd h (Nat.not_lt.2 (Nat.le_add_left _ _))
abbrev reads17_6 : Fin grid17.rank → Bool := ![true]

abbrev grid18 : Pipeline.Grid := ⟨1, ![1], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_6 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 1 → Memref sig .tc .vmem S1024x512 .bf16 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![true]

abbrev stage18_1 : Fin 1 → Memref sig .tc .vmem S1024x512 .bf16 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![true]

abbrev stage18_2 : Fin 1 → Memref sig .tc .vmem S512x512 .bf16 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S512x512 .bf16 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x512 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S1x512 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev stage18_6 : Fin 1 → Memref sig .tc .vmem S1024x1024 .bf16 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))
abbrev reads18_6 : Fin grid18.rank → Bool := ![true]

abbrev grid19 : Pipeline.Grid := ⟨1, ![1], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_6 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 1 → Memref sig .tc .vmem S2048x512 .bf16 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))
abbrev reads19_0 : Fin grid19.rank → Bool := ![true]

abbrev stage19_1 : Fin 1 → Memref sig .tc .vmem S2048x512 .bf16 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![true]

abbrev stage19_2 : Fin 1 → Memref sig .tc .vmem S512x512 .bf16 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S512x512 .bf16 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x512 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 1 → Memref sig .tc .vmem S1x512 .f32 := fun | 0 => Memref.whole cc19_stg5_0 | ⟨_ + 1, h⟩ => absurd h (Nat.not_lt.2 (Nat.le_add_left _ _))
abbrev sem19_5 : Fin 1 → DmaSem sig := fun | 0 => cc19_sem5_0 | ⟨_ + 1, h⟩ => absurd h (Nat.not_lt.2 (Nat.le_add_left _ _))
abbrev reads19_5 : Fin grid19.rank → Bool := ![false]

abbrev stage19_6 : Fin 1 → Memref sig .tc .vmem S2048x1024 .bf16 := fun | 0 => Memref.whole cc19_stg6_0 | ⟨_ + 1, h⟩ => absurd h (Nat.not_lt.2 (Nat.le_add_left _ _))
abbrev sem19_6 : Fin 1 → DmaSem sig := fun | 0 => cc19_sem6_0 | ⟨_ + 1, h⟩ => absurd h (Nat.not_lt.2 (Nat.le_add_left _ _))
abbrev reads19_6 : Fin grid19.rank → Bool := ![true]

abbrev grid20 : Pipeline.Grid := ⟨1, ![2], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_6 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S2048x512 .bf16 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S2048x512 .bf16 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S512x512 .bf16 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S512x512 .bf16 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x512 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 1 → Memref sig .tc .vmem S1x512 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))
abbrev reads20_5 : Fin grid20.rank → Bool := ![false]

abbrev stage20_6 : Fin 2 → Memref sig .tc .vmem S2048x1024 .bf16 := fun | 0 => Memref.whole cc20_stg6_0 | 1 => Memref.whole cc20_stg6_1 | ⟨_ + 2, h⟩ => absurd h (Nat.not_lt.2 (Nat.le_add_left _ _))
abbrev sem20_6 : Fin 2 → DmaSem sig := fun | 0 => cc20_sem6_0 | 1 => cc20_sem6_1 | ⟨_ + 2, h⟩ => absurd h (Nat.not_lt.2 (Nat.le_add_left _ _))
abbrev reads20_6 : Fin grid20.rank → Bool := ![true]

abbrev grid21 : Pipeline.Grid := ⟨1, ![4], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_6 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S2048x512 .bf16 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S2048x512 .bf16 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 1 → Memref sig .tc .vmem S512x512 .bf16 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S512x512 .bf16 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x512 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 1 → Memref sig .tc .vmem S1x512 .f32 := fun | 0 => Memref.whole cc21_stg5_0 | ⟨_ + 1, h⟩ => absurd h (Nat.not_lt.2 (Nat.le_add_left _ _))
abbrev sem21_5 : Fin 1 → DmaSem sig := fun | 0 => cc21_sem5_0 | ⟨_ + 1, h⟩ => absurd h (Nat.not_lt.2 (Nat.le_add_left _ _))
abbrev reads21_5 : Fin grid21.rank → Bool := ![false]

abbrev stage21_6 : Fin 2 → Memref sig .tc .vmem S2048x1024 .bf16 := fun | 0 => Memref.whole cc21_stg6_0 | 1 => Memref.whole cc21_stg6_1 | ⟨_ + 2, h⟩ => absurd h (Nat.not_lt.2 (Nat.le_add_left _ _))
abbrev sem21_6 : Fin 2 → DmaSem sig := fun | 0 => cc21_sem6_0 | 1 => cc21_sem6_1 | ⟨_ + 2, h⟩ => absurd h (Nat.not_lt.2 (Nat.le_add_left _ _))
abbrev reads21_6 : Fin grid21.rank → Bool := ![true]

abbrev grid22 : Pipeline.Grid := ⟨1, ![8], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_5 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_6 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S2048x512 .bf16 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S2048x512 .bf16 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 1 → Memref sig .tc .vmem S512x512 .bf16 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S512x512 .bf16 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S1x512 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev stage22_5 : Fin 1 → Memref sig .tc .vmem S1x512 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev stage22_6 : Fin 2 → Memref sig .tc .vmem S2048x1024 .bf16 := fun | 0 => Memref.whole cc22_stg6_0 | 1 => Memref.whole cc22_stg6_1 | ⟨_ + 2, h⟩ => absurd h (Nat.not_lt.2 (Nat.le_add_left _ _))
abbrev sem22_6 : Fin 2 → DmaSem sig := fun | 0 => cc22_sem6_0 | 1 => cc22_sem6_1 | ⟨_ + 2, h⟩ => absurd h (Nat.not_lt.2 (Nat.le_add_left _ _))
abbrev reads22_6 : Fin grid22.rank → Bool := ![true]

abbrev grid23 : Pipeline.Grid := ⟨1, ![16], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_4 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_5 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_6 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S2048x512 .bf16 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 2 → Memref sig .tc .vmem S2048x512 .f32 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![true]

abbrev stage23_2 : Fin 1 → Memref sig .tc .vmem S512x512 .bf16 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S512x512 .bf16 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false]

abbrev stage23_4 : Fin 1 → Memref sig .tc .vmem S1x512 .f32 := fun | 0 => Memref.whole cc23_stg4_0 | ⟨_ + 1, h⟩ => absurd h (Nat.not_lt.2 (Nat.le_add_left _ _))
abbrev sem23_4 : Fin 1 → DmaSem sig := fun | 0 => cc23_sem4_0 | ⟨_ + 1, h⟩ => absurd h (Nat.not_lt.2 (Nat.le_add_left _ _))
abbrev reads23_4 : Fin grid23.rank → Bool := ![false]

abbrev stage23_5 : Fin 1 → Memref sig .tc .vmem S1x512 .f32 := fun | 0 => Memref.whole cc23_stg5_0 | ⟨_ + 1, h⟩ => absurd h (Nat.not_lt.2 (Nat.le_add_left _ _))
abbrev sem23_5 : Fin 1 → DmaSem sig := fun | 0 => cc23_sem5_0 | ⟨_ + 1, h⟩ => absurd h (Nat.not_lt.2 (Nat.le_add_left _ _))
abbrev reads23_5 : Fin grid23.rank → Bool := ![false]

abbrev stage23_6 : Fin 2 → Memref sig .tc .vmem S2048x1024 .bf16 := fun | 0 => Memref.whole cc23_stg6_0 | 1 => Memref.whole cc23_stg6_1 | ⟨_ + 2, h⟩ => absurd h (Nat.not_lt.2 (Nat.le_add_left _ _))
abbrev sem23_6 : Fin 2 → DmaSem sig := fun | 0 => cc23_sem6_0 | 1 => cc23_sem6_1 | ⟨_ + 2, h⟩ => absurd h (Nat.not_lt.2 (Nat.le_add_left _ _))
abbrev reads23_6 : Fin grid23.rank → Bool := ![true]

abbrev grid24 : Pipeline.Grid := ⟨1, ![32], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_3 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_5 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_6 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S2048x512 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S2048x512 .bf16 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 1 → Memref sig .tc .vmem S512x512 .bf16 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev stage24_3 : Fin 1 → Memref sig .tc .vmem S512x512 .bf16 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false]

abbrev stage24_4 : Fin 1 → Memref sig .tc .vmem S1x512 .f32 := fun | 0 => Memref.whole cc24_stg4_0 | ⟨_ + 1, h⟩ => absurd h (Nat.not_lt.2 (Nat.le_add_left _ _))
abbrev sem24_4 : Fin 1 → DmaSem sig := fun | 0 => cc24_sem4_0 | ⟨_ + 1, h⟩ => absurd h (Nat.not_lt.2 (Nat.le_add_left _ _))
abbrev reads24_4 : Fin grid24.rank → Bool := ![false]

abbrev stage24_5 : Fin 1 → Memref sig .tc .vmem S1x512 .f32 := fun | 0 => Memref.whole cc24_stg5_0 | ⟨_ + 1, h⟩ => absurd h (Nat.not_lt.2 (Nat.le_add_left _ _))
abbrev sem24_5 : Fin 1 → DmaSem sig := fun | 0 => cc24_sem5_0 | ⟨_ + 1, h⟩ => absurd h (Nat.not_lt.2 (Nat.le_add_left _ _))
abbrev reads24_5 : Fin grid24.rank → Bool := ![false]

abbrev stage24_6 : Fin 2 → Memref sig .tc .vmem S2048x512 .f32 := fun | 0 => Memref.whole cc24_stg6_0 | 1 => Memref.whole cc24_stg6_1 | ⟨_ + 2, h⟩ => absurd h (Nat.not_lt.2 (Nat.le_add_left _ _))
abbrev sem24_6 : Fin 2 → DmaSem sig := fun | 0 => cc24_sem6_0 | 1 => cc24_sem6_1 | ⟨_ + 2, h⟩ => absurd h (Nat.not_lt.2 (Nat.le_add_left _ _))
abbrev reads24_6 : Fin grid24.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S32768x512.size a
  hwx0_4 : ∀ i : grid0.Coords, EltTy.bits .bf16 = 32 ∨ (Rect.block (s := S32768x512) S2048x512.size (cc0_transform_4 i) (hinb0_4 i)).WholeWords (EltTy.packing .bf16)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x1024.size a
  hwx1_0 : ∀ i : grid1.Coords, EltTy.bits .bf16 = 32 ∨ (Rect.block (s := S16384x1024) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S16384x512.size a
  hwx1_4 : ∀ i : grid1.Coords, EltTy.bits .bf16 = 32 ∨ (Rect.block (s := S16384x512) S2048x512.size (cc1_transform_4 i) (hinb1_4 i)).WholeWords (EltTy.packing .bf16)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x1024.size a
  hwx2_0 : ∀ i : grid2.Coords, EltTy.bits .bf16 = 32 ∨ (Rect.block (s := S8192x1024) S2048x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x512.size a
  hwx2_1 : ∀ i : grid2.Coords, EltTy.bits .bf16 = 32 ∨ (Rect.block (s := S1024x512) S1024x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x512.size a ≤ S8192x512.size a
  hwx2_4 : ∀ i : grid2.Coords, EltTy.bits .bf16 = 32 ∨ (Rect.block (s := S8192x512) S2048x512.size (cc2_transform_4 i) (hinb2_4 i)).WholeWords (EltTy.packing .bf16)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S4096x1024.size a
  hwx3_0 : ∀ i : grid3.Coords, EltTy.bits .bf16 = 32 ∨ (Rect.block (s := S4096x1024) S2048x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x512.size a
  hwx3_1 : ∀ i : grid3.Coords, EltTy.bits .bf16 = 32 ∨ (Rect.block (s := S1024x512) S1024x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x512.size a ≤ S4096x512.size a
  hwx3_4 : ∀ i : grid3.Coords, EltTy.bits .bf16 = 32 ∨ (Rect.block (s := S4096x512) S2048x512.size (cc3_transform_4 i) (hinb3_4 i)).WholeWords (EltTy.packing .bf16)

class K4.Facts₀ : Prop where
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S2048x1024.size a
  hwx4_0 : ∀ i : grid4.Coords, EltTy.bits .bf16 = 32 ∨ (Rect.block (s := S2048x1024) S2048x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S1024x512.size a
  hwx4_1 : ∀ i : grid4.Coords, EltTy.bits .bf16 = 32 ∨ (Rect.block (s := S1024x512) S1024x512.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 false = 1
  hreads4_4 : ∀ i i' : grid4.Coords, (∀ a, reads4_4 a = true → i a = i' a) → cc4_transform_4 i = cc4_transform_4 i'
  hinb4_4 : ∀ (i : grid4.Coords) a, (cc4_transform_4 i a + 1) * S2048x512.size a ≤ S2048x512.size a
  hwx4_4 : ∀ i : grid4.Coords, EltTy.bits .bf16 = 32 ∨ (Rect.block (s := S2048x512) S2048x512.size (cc4_transform_4 i) (hinb4_4 i)).WholeWords (EltTy.packing .bf16)

class K5.Facts₀ : Prop where
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S1024x1024.size a
  hwx5_0 : ∀ i : grid5.Coords, EltTy.bits .bf16 = 32 ∨ (Rect.block (s := S1024x1024) S1024x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S1024x512.size a
  hwx5_1 : ∀ i : grid5.Coords, EltTy.bits .bf16 = 32 ∨ (Rect.block (s := S1024x512) S1024x512.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 false = 1
  hreads5_4 : ∀ i i' : grid5.Coords, (∀ a, reads5_4 a = true → i a = i' a) → cc5_transform_4 i = cc5_transform_4 i'
  hinb5_4 : ∀ (i : grid5.Coords) a, (cc5_transform_4 i a + 1) * S1024x512.size a ≤ S1024x512.size a
  hwx5_4 : ∀ i : grid5.Coords, EltTy.bits .bf16 = 32 ∨ (Rect.block (s := S1024x512) S1024x512.size (cc5_transform_4 i) (hinb5_4 i)).WholeWords (EltTy.packing .bf16)

class K6.Facts₀ : Prop where
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S512x1024.size a ≤ S512x1024.size a
  hwx6_0 : ∀ i : grid6.Coords, EltTy.bits .bf16 = 32 ∨ (Rect.block (s := S512x1024) S512x1024.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x512.size a ≤ S1024x512.size a
  hwx6_1 : ∀ i : grid6.Coords, EltTy.bits .bf16 = 32 ∨ (Rect.block (s := S1024x512) S1024x512.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x512.size a ≤ S1x512.size a
  hwx6_3 : ∀ i : grid6.Coords, EltTy.bits .f32 = 32 ∨ (Rect.block (s := S1x512) S1x512.size (cc6_transform_3 i) (hinb6_3 i)).WholeWords (EltTy.packing .f32)
  hstage6_4 : ∀ j, (stage6_4 j).IsWhole
  nbuf6_4 : grid6.bufCount reads6_4 false = 1
  hreads6_4 : ∀ i i' : grid6.Coords, (∀ a, reads6_4 a = true → i a = i' a) → cc6_transform_4 i = cc6_transform_4 i'
  hinb6_4 : ∀ (i : grid6.Coords) a, (cc6_transform_4 i a + 1) * S512x512.size a ≤ S512x512.size a
  hwx6_4 : ∀ i : grid6.Coords, EltTy.bits .bf16 = 32 ∨ (Rect.block (s := S512x512) S512x512.size (cc6_transform_4 i) (hinb6_4 i)).WholeWords (EltTy.packing .bf16)

class K7.Facts₀ : Prop where
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S256x1024.size a ≤ S256x1024.size a
  hwx7_0 : ∀ i : grid7.Coords, EltTy.bits .bf16 = 32 ∨ (Rect.block (s := S256x1024) S256x1024.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x512.size a ≤ S1024x512.size a
  hwx7_1 : ∀ i : grid7.Coords, EltTy.bits .bf16 = 32 ∨ (Rect.block (s := S1024x512) S1024x512.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x512.size a ≤ S1x512.size a
  hwx7_3 : ∀ i : grid7.Coords, EltTy.bits .f32 = 32 ∨ (Rect.block (s := S1x512) S1x512.size (cc7_transform_3 i) (hinb7_3 i)).WholeWords (EltTy.packing .f32)
  hstage7_4 : ∀ j, (stage7_4 j).IsWhole
  nbuf7_4 : grid7.bufCount reads7_4 false = 1
  hreads7_4 : ∀ i i' : grid7.Coords, (∀ a, reads7_4 a = true → i a = i' a) → cc7_transform_4 i = cc7_transform_4 i'
  hinb7_4 : ∀ (i : grid7.Coords) a, (cc7_transform_4 i a + 1) * S256x512.size a ≤ S256x512.size a
  hwx7_4 : ∀ i : grid7.Coords, EltTy.bits .bf16 = 32 ∨ (Rect.block (s := S256x512) S256x512.size (cc7_transform_4 i) (hinb7_4 i)).WholeWords (EltTy.packing .bf16)

class K8.Facts₀ : Prop where
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S128x1024.size a ≤ S128x1024.size a
  hwx8_0 : ∀ i : grid8.Coords, EltTy.bits .bf16 = 32 ∨ (Rect.block (s := S128x1024) S128x1024.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1024x512.size a ≤ S1024x512.size a
  hwx8_1 : ∀ i : grid8.Coords, EltTy.bits .bf16 = 32 ∨ (Rect.block (s := S1024x512) S1024x512.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x512.size a ≤ S1x512.size a
  hwx8_3 : ∀ i : grid8.Coords, EltTy.bits .f32 = 32 ∨ (Rect.block (s := S1x512) S1x512.size (cc8_transform_3 i) (hinb8_3 i)).WholeWords (EltTy.packing .f32)
  hstage8_4 : ∀ j, (stage8_4 j).IsWhole
  nbuf8_4 : grid8.bufCount reads8_4 false = 1
  hreads8_4 : ∀ i i' : grid8.Coords, (∀ a, reads8_4 a = true → i a = i' a) → cc8_transform_4 i = cc8_transform_4 i'
  hinb8_4 : ∀ (i : grid8.Coords) a, (cc8_transform_4 i a + 1) * S128x512.size a ≤ S128x512.size a
  hwx8_4 : ∀ i : grid8.Coords, EltTy.bits .bf16 = 32 ∨ (Rect.block (s := S128x512) S128x512.size (cc8_transform_4 i) (hinb8_4 i)).WholeWords (EltTy.packing .bf16)

class K9.Facts₀ : Prop where
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S64x1024.size a ≤ S64x1024.size a
  hwx9_0 : ∀ i : grid9.Coords, EltTy.bits .bf16 = 32 ∨ (Rect.block (s := S64x1024) S64x1024.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1024x512.size a ≤ S1024x512.size a
  hwx9_1 : ∀ i : grid9.Coords, EltTy.bits .bf16 = 32 ∨ (Rect.block (s := S1024x512) S1024x512.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x512.size a ≤ S1x512.size a
  hwx9_2 : ∀ i : grid9.Coords, EltTy.bits .f32 = 32 ∨ (Rect.block (s := S1x512) S1x512.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x512.size a ≤ S1x512.size a
  hwx9_3 : ∀ i : grid9.Coords, EltTy.bits .f32 = 32 ∨ (Rect.block (s := S1x512) S1x512.size (cc9_transform_3 i) (hinb9_3 i)).WholeWords (EltTy.packing .f32)
  hstage9_4 : ∀ j, (stage9_4 j).IsWhole
  nbuf9_4 : grid9.bufCount reads9_4 false = 1
  hreads9_4 : ∀ i i' : grid9.Coords, (∀ a, reads9_4 a = true → i a = i' a) → cc9_transform_4 i = cc9_transform_4 i'
  hinb9_4 : ∀ (i : grid9.Coords) a, (cc9_transform_4 i a + 1) * S64x512.size a ≤ S64x512.size a
  hwx9_4 : ∀ i : grid9.Coords, EltTy.bits .bf16 = 32 ∨ (Rect.block (s := S64x512) S64x512.size (cc9_transform_4 i) (hinb9_4 i)).WholeWords (EltTy.packing .bf16)

class K10.Facts₀ : Prop where
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S32x1024.size a ≤ S32x1024.size a
  hwx10_0 : ∀ i : grid10.Coords, EltTy.bits .bf16 = 32 ∨ (Rect.block (s := S32x1024) S32x1024.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1024x512.size a ≤ S1024x512.size a
  hwx10_1 : ∀ i : grid10.Coords, EltTy.bits .bf16 = 32 ∨ (Rect.block (s := S1024x512) S1024x512.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x512.size a ≤ S1x512.size a
  hwx10_2 : ∀ i : grid10.Coords, EltTy.bits .f32 = 32 ∨ (Rect.block (s := S1x512) S1x512.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x512.size a ≤ S1x512.size a
  hwx10_3 : ∀ i : grid10.Coords, EltTy.bits .f32 = 32 ∨ (Rect.block (s := S1x512) S1x512.size (cc10_transform_3 i) (hinb10_3 i)).WholeWords (EltTy.packing .f32)
  hstage10_4 : ∀ j, (stage10_4 j).IsWhole
  nbuf10_4 : grid10.bufCount reads10_4 false = 1
  hreads10_4 : ∀ i i' : grid10.Coords, (∀ a, reads10_4 a = true → i a = i' a) → cc10_transform_4 i = cc10_transform_4 i'
  hinb10_4 : ∀ (i : grid10.Coords) a, (cc10_transform_4 i a + 1) * S32x512.size a ≤ S32x512.size a
  hwx10_4 : ∀ i : grid10.Coords, EltTy.bits .bf16 = 32 ∨ (Rect.block (s := S32x512) S32x512.size (cc10_transform_4 i) (hinb10_4 i)).WholeWords (EltTy.packing .bf16)

class K11.Facts₀ : Prop where
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S16x1024.size a ≤ S16x1024.size a
  hwx11_0 : ∀ i : grid11.Coords, EltTy.bits .bf16 = 32 ∨ (Rect.block (s := S16x1024) S16x1024.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1024x512.size a ≤ S1024x512.size a
  hwx11_1 : ∀ i : grid11.Coords, EltTy.bits .bf16 = 32 ∨ (Rect.block (s := S1024x512) S1024x512.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x512.size a ≤ S1x512.size a
  hwx11_2 : ∀ i : grid11.Coords, EltTy.bits .f32 = 32 ∨ (Rect.block (s := S1x512) S1x512.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x512.size a ≤ S1x512.size a
  hwx11_3 : ∀ i : grid11.Coords, EltTy.bits .f32 = 32 ∨ (Rect.block (s := S1x512) S1x512.size (cc11_transform_3 i) (hinb11_3 i)).WholeWords (EltTy.packing .f32)
  hstage11_4 : ∀ j, (stage11_4 j).IsWhole
  nbuf11_4 : grid11.bufCount reads11_4 false = 1
  hreads11_4 : ∀ i i' : grid11.Coords, (∀ a, reads11_4 a = true → i a = i' a) → cc11_transform_4 i = cc11_transform_4 i'
  hinb11_4 : ∀ (i : grid11.Coords) a, (cc11_transform_4 i a + 1) * S16x512.size a ≤ S16x512.size a
  hwx11_4 : ∀ i : grid11.Coords, EltTy.bits .bf16 = 32 ∨ (Rect.block (s := S16x512) S16x512.size (cc11_transform_4 i) (hinb11_4 i)).WholeWords (EltTy.packing .bf16)

class K12.Facts₀ : Prop where
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S16x512.size a ≤ S16x512.size a
  hwx12_0 : ∀ i : grid12.Coords, EltTy.bits .bf16 = 32 ∨ (Rect.block (s := S16x512) S16x512.size (cc12_transform_0 i) (hinb12_0 i)).WholeWords (EltTy.packing .bf16)
  hstage12_1 : ∀ j, (stage12_1 j).IsWhole
  nbuf12_1 : grid12.bufCount reads12_1 false = 1
  hreads12_1 : ∀ i i' : grid12.Coords, (∀ a, reads12_1 a = true → i a = i' a) → cc12_transform_1 i = cc12_transform_1 i'
  hinb12_1 : ∀ (i : grid12.Coords) a, (cc12_transform_1 i a + 1) * S16x512.size a ≤ S16x1024.size a
  hwx12_1 : ∀ i : grid12.Coords, EltTy.bits .bf16 = 32 ∨ (Rect.block (s := S16x1024) S16x512.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S512x512.size a ≤ S512x512.size a
  hwx12_2 : ∀ i : grid12.Coords, EltTy.bits .bf16 = 32 ∨ (Rect.block (s := S512x512) S512x512.size (cc12_transform_2 i) (hinb12_2 i)).WholeWords (EltTy.packing .bf16)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S512x512.size a ≤ S512x512.size a
  hwx12_3 : ∀ i : grid12.Coords, EltTy.bits .bf16 = 32 ∨ (Rect.block (s := S512x512) S512x512.size (cc12_transform_3 i) (hinb12_3 i)).WholeWords (EltTy.packing .bf16)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x512.size a ≤ S1x512.size a
  hwx12_4 : ∀ i : grid12.Coords, EltTy.bits .f32 = 32 ∨ (Rect.block (s := S1x512) S1x512.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x512.size a ≤ S1x512.size a
  hwx12_5 : ∀ i : grid12.Coords, EltTy.bits .f32 = 32 ∨ (Rect.block (s := S1x512) S1x512.size (cc12_transform_5 i) (hinb12_5 i)).WholeWords (EltTy.packing .f32)
  hstage12_6 : ∀ j, (stage12_6 j).IsWhole
  nbuf12_6 : grid12.bufCount reads12_6 false = 1
  hreads12_6 : ∀ i i' : grid12.Coords, (∀ a, reads12_6 a = true → i a = i' a) → cc12_transform_6 i = cc12_transform_6 i'
  hinb12_6 : ∀ (i : grid12.Coords) a, (cc12_transform_6 i a + 1) * S16x1024.size a ≤ S16x1024.size a
  hwx12_6 : ∀ i : grid12.Coords, EltTy.bits .bf16 = 32 ∨ (Rect.block (s := S16x1024) S16x1024.size (cc12_transform_6 i) (hinb12_6 i)).WholeWords (EltTy.packing .bf16)

class K13.Facts₀ : Prop where
  hrank13 : 0 < grid13.rank
  hstage13_0 : ∀ j, (stage13_0 j).IsWhole
  nbuf13_0 : grid13.bufCount reads13_0 false = 1
  hreads13_0 : ∀ i i' : grid13.Coords, (∀ a, reads13_0 a = true → i a = i' a) → cc13_transform_0 i = cc13_transform_0 i'
  hinb13_0 : ∀ (i : grid13.Coords) a, (cc13_transform_0 i a + 1) * S32x512.size a ≤ S32x512.size a
  hwx13_0 : ∀ i : grid13.Coords, EltTy.bits .bf16 = 32 ∨ (Rect.block (s := S32x512) S32x512.size (cc13_transform_0 i) (hinb13_0 i)).WholeWords (EltTy.packing .bf16)
  hstage13_1 : ∀ j, (stage13_1 j).IsWhole
  nbuf13_1 : grid13.bufCount reads13_1 false = 1
  hreads13_1 : ∀ i i' : grid13.Coords, (∀ a, reads13_1 a = true → i a = i' a) → cc13_transform_1 i = cc13_transform_1 i'
  hinb13_1 : ∀ (i : grid13.Coords) a, (cc13_transform_1 i a + 1) * S32x512.size a ≤ S32x1024.size a
  hwx13_1 : ∀ i : grid13.Coords, EltTy.bits .bf16 = 32 ∨ (Rect.block (s := S32x1024) S32x512.size (cc13_transform_1 i) (hinb13_1 i)).WholeWords (EltTy.packing .bf16)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S512x512.size a ≤ S512x512.size a
  hwx13_2 : ∀ i : grid13.Coords, EltTy.bits .bf16 = 32 ∨ (Rect.block (s := S512x512) S512x512.size (cc13_transform_2 i) (hinb13_2 i)).WholeWords (EltTy.packing .bf16)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S512x512.size a ≤ S512x512.size a
  hwx13_3 : ∀ i : grid13.Coords, EltTy.bits .bf16 = 32 ∨ (Rect.block (s := S512x512) S512x512.size (cc13_transform_3 i) (hinb13_3 i)).WholeWords (EltTy.packing .bf16)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x512.size a ≤ S1x512.size a
  hwx13_4 : ∀ i : grid13.Coords, EltTy.bits .f32 = 32 ∨ (Rect.block (s := S1x512) S1x512.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x512.size a ≤ S1x512.size a
  hwx13_5 : ∀ i : grid13.Coords, EltTy.bits .f32 = 32 ∨ (Rect.block (s := S1x512) S1x512.size (cc13_transform_5 i) (hinb13_5 i)).WholeWords (EltTy.packing .f32)
  hstage13_6 : ∀ j, (stage13_6 j).IsWhole
  nbuf13_6 : grid13.bufCount reads13_6 false = 1
  hreads13_6 : ∀ i i' : grid13.Coords, (∀ a, reads13_6 a = true → i a = i' a) → cc13_transform_6 i = cc13_transform_6 i'
  hinb13_6 : ∀ (i : grid13.Coords) a, (cc13_transform_6 i a + 1) * S32x1024.size a ≤ S32x1024.size a
  hwx13_6 : ∀ i : grid13.Coords, EltTy.bits .bf16 = 32 ∨ (Rect.block (s := S32x1024) S32x1024.size (cc13_transform_6 i) (hinb13_6 i)).WholeWords (EltTy.packing .bf16)

class K14.Facts₀ : Prop where
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S64x512.size a ≤ S64x512.size a
  hwx14_0 : ∀ i : grid14.Coords, EltTy.bits .bf16 = 32 ∨ (Rect.block (s := S64x512) S64x512.size (cc14_transform_0 i) (hinb14_0 i)).WholeWords (EltTy.packing .bf16)
  hstage14_1 : ∀ j, (stage14_1 j).IsWhole
  nbuf14_1 : grid14.bufCount reads14_1 false = 1
  hreads14_1 : ∀ i i' : grid14.Coords, (∀ a, reads14_1 a = true → i a = i' a) → cc14_transform_1 i = cc14_transform_1 i'
  hinb14_1 : ∀ (i : grid14.Coords) a, (cc14_transform_1 i a + 1) * S64x512.size a ≤ S64x1024.size a
  hwx14_1 : ∀ i : grid14.Coords, EltTy.bits .bf16 = 32 ∨ (Rect.block (s := S64x1024) S64x512.size (cc14_transform_1 i) (hinb14_1 i)).WholeWords (EltTy.packing .bf16)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S512x512.size a ≤ S512x512.size a
  hwx14_2 : ∀ i : grid14.Coords, EltTy.bits .bf16 = 32 ∨ (Rect.block (s := S512x512) S512x512.size (cc14_transform_2 i) (hinb14_2 i)).WholeWords (EltTy.packing .bf16)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S512x512.size a ≤ S512x512.size a
  hwx14_3 : ∀ i : grid14.Coords, EltTy.bits .bf16 = 32 ∨ (Rect.block (s := S512x512) S512x512.size (cc14_transform_3 i) (hinb14_3 i)).WholeWords (EltTy.packing .bf16)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x512.size a ≤ S1x512.size a
  hwx14_4 : ∀ i : grid14.Coords, EltTy.bits .f32 = 32 ∨ (Rect.block (s := S1x512) S1x512.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x512.size a ≤ S1x512.size a
  hwx14_5 : ∀ i : grid14.Coords, EltTy.bits .f32 = 32 ∨ (Rect.block (s := S1x512) S1x512.size (cc14_transform_5 i) (hinb14_5 i)).WholeWords (EltTy.packing .f32)
  hstage14_6 : ∀ j, (stage14_6 j).IsWhole
  nbuf14_6 : grid14.bufCount reads14_6 false = 1
  hreads14_6 : ∀ i i' : grid14.Coords, (∀ a, reads14_6 a = true → i a = i' a) → cc14_transform_6 i = cc14_transform_6 i'
  hinb14_6 : ∀ (i : grid14.Coords) a, (cc14_transform_6 i a + 1) * S64x1024.size a ≤ S64x1024.size a
  hwx14_6 : ∀ i : grid14.Coords, EltTy.bits .bf16 = 32 ∨ (Rect.block (s := S64x1024) S64x1024.size (cc14_transform_6 i) (hinb14_6 i)).WholeWords (EltTy.packing .bf16)

class K15.Facts₀ : Prop where
  hrank15 : 0 < grid15.rank
  hstage15_0 : ∀ j, (stage15_0 j).IsWhole
  nbuf15_0 : grid15.bufCount reads15_0 false = 1
  hreads15_0 : ∀ i i' : grid15.Coords, (∀ a, reads15_0 a = true → i a = i' a) → cc15_transform_0 i = cc15_transform_0 i'
  hinb15_0 : ∀ (i : grid15.Coords) a, (cc15_transform_0 i a + 1) * S128x512.size a ≤ S128x512.size a
  hwx15_0 : ∀ i : grid15.Coords, EltTy.bits .bf16 = 32 ∨ (Rect.block (s := S128x512) S128x512.size (cc15_transform_0 i) (hinb15_0 i)).WholeWords (EltTy.packing .bf16)
  hstage15_1 : ∀ j, (stage15_1 j).IsWhole
  nbuf15_1 : grid15.bufCount reads15_1 false = 1
  hreads15_1 : ∀ i i' : grid15.Coords, (∀ a, reads15_1 a = true → i a = i' a) → cc15_transform_1 i = cc15_transform_1 i'
  hinb15_1 : ∀ (i : grid15.Coords) a, (cc15_transform_1 i a + 1) * S128x512.size a ≤ S128x1024.size a
  hwx15_1 : ∀ i : grid15.Coords, EltTy.bits .bf16 = 32 ∨ (Rect.block (s := S128x1024) S128x512.size (cc15_transform_1 i) (hinb15_1 i)).WholeWords (EltTy.packing .bf16)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S512x512.size a ≤ S512x512.size a
  hwx15_2 : ∀ i : grid15.Coords, EltTy.bits .bf16 = 32 ∨ (Rect.block (s := S512x512) S512x512.size (cc15_transform_2 i) (hinb15_2 i)).WholeWords (EltTy.packing .bf16)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S512x512.size a ≤ S512x512.size a
  hwx15_3 : ∀ i : grid15.Coords, EltTy.bits .bf16 = 32 ∨ (Rect.block (s := S512x512) S512x512.size (cc15_transform_3 i) (hinb15_3 i)).WholeWords (EltTy.packing .bf16)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x512.size a ≤ S1x512.size a
  hwx15_4 : ∀ i : grid15.Coords, EltTy.bits .f32 = 32 ∨ (Rect.block (s := S1x512) S1x512.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S1x512.size a ≤ S1x512.size a
  hwx15_5 : ∀ i : grid15.Coords, EltTy.bits .f32 = 32 ∨ (Rect.block (s := S1x512) S1x512.size (cc15_transform_5 i) (hinb15_5 i)).WholeWords (EltTy.packing .f32)
  hstage15_6 : ∀ j, (stage15_6 j).IsWhole
  nbuf15_6 : grid15.bufCount reads15_6 false = 1
  hreads15_6 : ∀ i i' : grid15.Coords, (∀ a, reads15_6 a = true → i a = i' a) → cc15_transform_6 i = cc15_transform_6 i'
  hinb15_6 : ∀ (i : grid15.Coords) a, (cc15_transform_6 i a + 1) * S128x1024.size a ≤ S128x1024.size a
  hwx15_6 : ∀ i : grid15.Coords, EltTy.bits .bf16 = 32 ∨ (Rect.block (s := S128x1024) S128x1024.size (cc15_transform_6 i) (hinb15_6 i)).WholeWords (EltTy.packing .bf16)

class K16.Facts₀ : Prop where
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S256x512.size a ≤ S256x512.size a
  hwx16_0 : ∀ i : grid16.Coords, EltTy.bits .bf16 = 32 ∨ (Rect.block (s := S256x512) S256x512.size (cc16_transform_0 i) (hinb16_0 i)).WholeWords (EltTy.packing .bf16)
  hstage16_1 : ∀ j, (stage16_1 j).IsWhole
  nbuf16_1 : grid16.bufCount reads16_1 false = 1
  hreads16_1 : ∀ i i' : grid16.Coords, (∀ a, reads16_1 a = true → i a = i' a) → cc16_transform_1 i = cc16_transform_1 i'
  hinb16_1 : ∀ (i : grid16.Coords) a, (cc16_transform_1 i a + 1) * S256x512.size a ≤ S256x1024.size a
  hwx16_1 : ∀ i : grid16.Coords, EltTy.bits .bf16 = 32 ∨ (Rect.block (s := S256x1024) S256x512.size (cc16_transform_1 i) (hinb16_1 i)).WholeWords (EltTy.packing .bf16)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S512x512.size a ≤ S512x512.size a
  hwx16_2 : ∀ i : grid16.Coords, EltTy.bits .bf16 = 32 ∨ (Rect.block (s := S512x512) S512x512.size (cc16_transform_2 i) (hinb16_2 i)).WholeWords (EltTy.packing .bf16)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S512x512.size a ≤ S512x512.size a
  hwx16_3 : ∀ i : grid16.Coords, EltTy.bits .bf16 = 32 ∨ (Rect.block (s := S512x512) S512x512.size (cc16_transform_3 i) (hinb16_3 i)).WholeWords (EltTy.packing .bf16)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x512.size a ≤ S1x512.size a
  hwx16_4 : ∀ i : grid16.Coords, EltTy.bits .f32 = 32 ∨ (Rect.block (s := S1x512) S1x512.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x512.size a ≤ S1x512.size a
  hwx16_5 : ∀ i : grid16.Coords, EltTy.bits .f32 = 32 ∨ (Rect.block (s := S1x512) S1x512.size (cc16_transform_5 i) (hinb16_5 i)).WholeWords (EltTy.packing .f32)
  hstage16_6 : ∀ j, (stage16_6 j).IsWhole
  nbuf16_6 : grid16.bufCount reads16_6 false = 1
  hreads16_6 : ∀ i i' : grid16.Coords, (∀ a, reads16_6 a = true → i a = i' a) → cc16_transform_6 i = cc16_transform_6 i'
  hinb16_6 : ∀ (i : grid16.Coords) a, (cc16_transform_6 i a + 1) * S256x1024.size a ≤ S256x1024.size a
  hwx16_6 : ∀ i : grid16.Coords, EltTy.bits .bf16 = 32 ∨ (Rect.block (s := S256x1024) S256x1024.size (cc16_transform_6 i) (hinb16_6 i)).WholeWords (EltTy.packing .bf16)

class K17.Facts₀ : Prop where
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S512x512.size a ≤ S512x512.size a
  hwx17_0 : ∀ i : grid17.Coords, EltTy.bits .bf16 = 32 ∨ (Rect.block (s := S512x512) S512x512.size (cc17_transform_0 i) (hinb17_0 i)).WholeWords (EltTy.packing .bf16)
  hstage17_1 : ∀ j, (stage17_1 j).IsWhole
  nbuf17_1 : grid17.bufCount reads17_1 false = 1
  hreads17_1 : ∀ i i' : grid17.Coords, (∀ a, reads17_1 a = true → i a = i' a) → cc17_transform_1 i = cc17_transform_1 i'
  hinb17_1 : ∀ (i : grid17.Coords) a, (cc17_transform_1 i a + 1) * S512x512.size a ≤ S512x1024.size a
  hwx17_1 : ∀ i : grid17.Coords, EltTy.bits .bf16 = 32 ∨ (Rect.block (s := S512x1024) S512x512.size (cc17_transform_1 i) (hinb17_1 i)).WholeWords (EltTy.packing .bf16)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S512x512.size a ≤ S512x512.size a
  hwx17_2 : ∀ i : grid17.Coords, EltTy.bits .bf16 = 32 ∨ (Rect.block (s := S512x512) S512x512.size (cc17_transform_2 i) (hinb17_2 i)).WholeWords (EltTy.packing .bf16)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S512x512.size a ≤ S512x512.size a
  hwx17_3 : ∀ i : grid17.Coords, EltTy.bits .bf16 = 32 ∨ (Rect.block (s := S512x512) S512x512.size (cc17_transform_3 i) (hinb17_3 i)).WholeWords (EltTy.packing .bf16)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x512.size a ≤ S1x512.size a
  hwx17_4 : ∀ i : grid17.Coords, EltTy.bits .f32 = 32 ∨ (Rect.block (s := S1x512) S1x512.size (cc17_transform_4 i) (hinb17_4 i)).WholeWords (EltTy.packing .f32)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S1x512.size a ≤ S1x512.size a
  hwx17_5 : ∀ i : grid17.Coords, EltTy.bits .f32 = 32 ∨ (Rect.block (s := S1x512) S1x512.size (cc17_transform_5 i) (hinb17_5 i)).WholeWords (EltTy.packing .f32)
  hstage17_6 : ∀ j, (stage17_6 j).IsWhole
  nbuf17_6 : grid17.bufCount reads17_6 false = 1
  hreads17_6 : ∀ i i' : grid17.Coords, (∀ a, reads17_6 a = true → i a = i' a) → cc17_transform_6 i = cc17_transform_6 i'
  hinb17_6 : ∀ (i : grid17.Coords) a, (cc17_transform_6 i a + 1) * S512x1024.size a ≤ S512x1024.size a
  hwx17_6 : ∀ i : grid17.Coords, EltTy.bits .bf16 = 32 ∨ (Rect.block (s := S512x1024) S512x1024.size (cc17_transform_6 i) (hinb17_6 i)).WholeWords (EltTy.packing .bf16)

class K18.Facts₀ : Prop where
  hrank18 : 0 < grid18.rank
  hstage18_0 : ∀ j, (stage18_0 j).IsWhole
  nbuf18_0 : grid18.bufCount reads18_0 false = 1
  hreads18_0 : ∀ i i' : grid18.Coords, (∀ a, reads18_0 a = true → i a = i' a) → cc18_transform_0 i = cc18_transform_0 i'
  hinb18_0 : ∀ (i : grid18.Coords) a, (cc18_transform_0 i a + 1) * S1024x512.size a ≤ S1024x512.size a
  hwx18_0 : ∀ i : grid18.Coords, EltTy.bits .bf16 = 32 ∨ (Rect.block (s := S1024x512) S1024x512.size (cc18_transform_0 i) (hinb18_0 i)).WholeWords (EltTy.packing .bf16)
  hstage18_1 : ∀ j, (stage18_1 j).IsWhole
  nbuf18_1 : grid18.bufCount reads18_1 false = 1
  hreads18_1 : ∀ i i' : grid18.Coords, (∀ a, reads18_1 a = true → i a = i' a) → cc18_transform_1 i = cc18_transform_1 i'
  hinb18_1 : ∀ (i : grid18.Coords) a, (cc18_transform_1 i a + 1) * S1024x512.size a ≤ S1024x1024.size a
  hwx18_1 : ∀ i : grid18.Coords, EltTy.bits .bf16 = 32 ∨ (Rect.block (s := S1024x1024) S1024x512.size (cc18_transform_1 i) (hinb18_1 i)).WholeWords (EltTy.packing .bf16)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S512x512.size a ≤ S512x512.size a
  hwx18_2 : ∀ i : grid18.Coords, EltTy.bits .bf16 = 32 ∨ (Rect.block (s := S512x512) S512x512.size (cc18_transform_2 i) (hinb18_2 i)).WholeWords (EltTy.packing .bf16)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S512x512.size a ≤ S512x512.size a
  hwx18_3 : ∀ i : grid18.Coords, EltTy.bits .bf16 = 32 ∨ (Rect.block (s := S512x512) S512x512.size (cc18_transform_3 i) (hinb18_3 i)).WholeWords (EltTy.packing .bf16)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x512.size a ≤ S1x512.size a
  hwx18_4 : ∀ i : grid18.Coords, EltTy.bits .f32 = 32 ∨ (Rect.block (s := S1x512) S1x512.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S1x512.size a ≤ S1x512.size a
  hwx18_5 : ∀ i : grid18.Coords, EltTy.bits .f32 = 32 ∨ (Rect.block (s := S1x512) S1x512.size (cc18_transform_5 i) (hinb18_5 i)).WholeWords (EltTy.packing .f32)
  hstage18_6 : ∀ j, (stage18_6 j).IsWhole
  nbuf18_6 : grid18.bufCount reads18_6 false = 1
  hreads18_6 : ∀ i i' : grid18.Coords, (∀ a, reads18_6 a = true → i a = i' a) → cc18_transform_6 i = cc18_transform_6 i'
  hinb18_6 : ∀ (i : grid18.Coords) a, (cc18_transform_6 i a + 1) * S1024x1024.size a ≤ S1024x1024.size a
  hwx18_6 : ∀ i : grid18.Coords, EltTy.bits .bf16 = 32 ∨ (Rect.block (s := S1024x1024) S1024x1024.size (cc18_transform_6 i) (hinb18_6 i)).WholeWords (EltTy.packing .bf16)

class K19.Facts₀ : Prop where
  hrank19 : 0 < grid19.rank
  hstage19_0 : ∀ j, (stage19_0 j).IsWhole
  nbuf19_0 : grid19.bufCount reads19_0 false = 1
  hreads19_0 : ∀ i i' : grid19.Coords, (∀ a, reads19_0 a = true → i a = i' a) → cc19_transform_0 i = cc19_transform_0 i'
  hinb19_0 : ∀ (i : grid19.Coords) a, (cc19_transform_0 i a + 1) * S2048x512.size a ≤ S2048x512.size a
  hwx19_0 : ∀ i : grid19.Coords, EltTy.bits .bf16 = 32 ∨ (Rect.block (s := S2048x512) S2048x512.size (cc19_transform_0 i) (hinb19_0 i)).WholeWords (EltTy.packing .bf16)
  hstage19_1 : ∀ j, (stage19_1 j).IsWhole
  nbuf19_1 : grid19.bufCount reads19_1 false = 1
  hreads19_1 : ∀ i i' : grid19.Coords, (∀ a, reads19_1 a = true → i a = i' a) → cc19_transform_1 i = cc19_transform_1 i'
  hinb19_1 : ∀ (i : grid19.Coords) a, (cc19_transform_1 i a + 1) * S2048x512.size a ≤ S2048x1024.size a
  hwx19_1 : ∀ i : grid19.Coords, EltTy.bits .bf16 = 32 ∨ (Rect.block (s := S2048x1024) S2048x512.size (cc19_transform_1 i) (hinb19_1 i)).WholeWords (EltTy.packing .bf16)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S512x512.size a ≤ S512x512.size a
  hwx19_2 : ∀ i : grid19.Coords, EltTy.bits .bf16 = 32 ∨ (Rect.block (s := S512x512) S512x512.size (cc19_transform_2 i) (hinb19_2 i)).WholeWords (EltTy.packing .bf16)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S512x512.size a ≤ S512x512.size a
  hwx19_3 : ∀ i : grid19.Coords, EltTy.bits .bf16 = 32 ∨ (Rect.block (s := S512x512) S512x512.size (cc19_transform_3 i) (hinb19_3 i)).WholeWords (EltTy.packing .bf16)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x512.size a ≤ S1x512.size a
  hwx19_4 : ∀ i : grid19.Coords, EltTy.bits .f32 = 32 ∨ (Rect.block (s := S1x512) S1x512.size (cc19_transform_4 i) (hinb19_4 i)).WholeWords (EltTy.packing .f32)
  hstage19_5 : ∀ j, (stage19_5 j).IsWhole
  nbuf19_5 : grid19.bufCount reads19_5 true = 1
  hreads19_5 : ∀ i i' : grid19.Coords, (∀ a, reads19_5 a = true → i a = i' a) → cc19_transform_5 i = cc19_transform_5 i'
  hinb19_5 : ∀ (i : grid19.Coords) a, (cc19_transform_5 i a + 1) * S1x512.size a ≤ S1x512.size a
  hwx19_5 : ∀ i : grid19.Coords, EltTy.bits .f32 = 32 ∨ (Rect.block (s := S1x512) S1x512.size (cc19_transform_5 i) (hinb19_5 i)).WholeWords (EltTy.packing .f32)
  hstage19_6 : ∀ j, (stage19_6 j).IsWhole
  nbuf19_6 : grid19.bufCount reads19_6 false = 1
  hreads19_6 : ∀ i i' : grid19.Coords, (∀ a, reads19_6 a = true → i a = i' a) → cc19_transform_6 i = cc19_transform_6 i'
  hinb19_6 : ∀ (i : grid19.Coords) a, (cc19_transform_6 i a + 1) * S2048x1024.size a ≤ S2048x1024.size a
  hwx19_6 : ∀ i : grid19.Coords, EltTy.bits .bf16 = 32 ∨ (Rect.block (s := S2048x1024) S2048x1024.size (cc19_transform_6 i) (hinb19_6 i)).WholeWords (EltTy.packing .bf16)

class K20.Facts₀ : Prop where
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2048x512.size a ≤ S4096x512.size a
  hwx20_0 : ∀ i : grid20.Coords, EltTy.bits .bf16 = 32 ∨ (Rect.block (s := S4096x512) S2048x512.size (cc20_transform_0 i) (hinb20_0 i)).WholeWords (EltTy.packing .bf16)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S2048x512.size a ≤ S4096x1024.size a
  hwx20_1 : ∀ i : grid20.Coords, EltTy.bits .bf16 = 32 ∨ (Rect.block (s := S4096x1024) S2048x512.size (cc20_transform_1 i) (hinb20_1 i)).WholeWords (EltTy.packing .bf16)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S512x512.size a ≤ S512x512.size a
  hwx20_2 : ∀ i : grid20.Coords, EltTy.bits .bf16 = 32 ∨ (Rect.block (s := S512x512) S512x512.size (cc20_transform_2 i) (hinb20_2 i)).WholeWords (EltTy.packing .bf16)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S512x512.size a ≤ S512x512.size a
  hwx20_3 : ∀ i : grid20.Coords, EltTy.bits .bf16 = 32 ∨ (Rect.block (s := S512x512) S512x512.size (cc20_transform_3 i) (hinb20_3 i)).WholeWords (EltTy.packing .bf16)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x512.size a ≤ S1x512.size a
  hwx20_4 : ∀ i : grid20.Coords, EltTy.bits .f32 = 32 ∨ (Rect.block (s := S1x512) S1x512.size (cc20_transform_4 i) (hinb20_4 i)).WholeWords (EltTy.packing .f32)
  hstage20_5 : ∀ j, (stage20_5 j).IsWhole
  nbuf20_5 : grid20.bufCount reads20_5 true = 1
  hreads20_5 : ∀ i i' : grid20.Coords, (∀ a, reads20_5 a = true → i a = i' a) → cc20_transform_5 i = cc20_transform_5 i'
  hinb20_5 : ∀ (i : grid20.Coords) a, (cc20_transform_5 i a + 1) * S1x512.size a ≤ S1x512.size a
  hwx20_5 : ∀ i : grid20.Coords, EltTy.bits .f32 = 32 ∨ (Rect.block (s := S1x512) S1x512.size (cc20_transform_5 i) (hinb20_5 i)).WholeWords (EltTy.packing .f32)
  hstage20_6 : ∀ j, (stage20_6 j).IsWhole
  nbuf20_6 : grid20.bufCount reads20_6 false = 2
  hreads20_6 : ∀ i i' : grid20.Coords, (∀ a, reads20_6 a = true → i a = i' a) → cc20_transform_6 i = cc20_transform_6 i'
  hinb20_6 : ∀ (i : grid20.Coords) a, (cc20_transform_6 i a + 1) * S2048x1024.size a ≤ S4096x1024.size a
  hwx20_6 : ∀ i : grid20.Coords, EltTy.bits .bf16 = 32 ∨ (Rect.block (s := S4096x1024) S2048x1024.size (cc20_transform_6 i) (hinb20_6 i)).WholeWords (EltTy.packing .bf16)

class K21.Facts₀ : Prop where
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2048x512.size a ≤ S8192x512.size a
  hwx21_0 : ∀ i : grid21.Coords, EltTy.bits .bf16 = 32 ∨ (Rect.block (s := S8192x512) S2048x512.size (cc21_transform_0 i) (hinb21_0 i)).WholeWords (EltTy.packing .bf16)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S2048x512.size a ≤ S8192x1024.size a
  hwx21_1 : ∀ i : grid21.Coords, EltTy.bits .bf16 = 32 ∨ (Rect.block (s := S8192x1024) S2048x512.size (cc21_transform_1 i) (hinb21_1 i)).WholeWords (EltTy.packing .bf16)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S512x512.size a ≤ S512x512.size a
  hwx21_2 : ∀ i : grid21.Coords, EltTy.bits .bf16 = 32 ∨ (Rect.block (s := S512x512) S512x512.size (cc21_transform_2 i) (hinb21_2 i)).WholeWords (EltTy.packing .bf16)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S512x512.size a ≤ S512x512.size a
  hwx21_3 : ∀ i : grid21.Coords, EltTy.bits .bf16 = 32 ∨ (Rect.block (s := S512x512) S512x512.size (cc21_transform_3 i) (hinb21_3 i)).WholeWords (EltTy.packing .bf16)
  hstage21_4 : ∀ j, (stage21_4 j).IsWhole
  nbuf21_4 : grid21.bufCount reads21_4 true = 1
  hreads21_4 : ∀ i i' : grid21.Coords, (∀ a, reads21_4 a = true → i a = i' a) → cc21_transform_4 i = cc21_transform_4 i'
  hinb21_4 : ∀ (i : grid21.Coords) a, (cc21_transform_4 i a + 1) * S1x512.size a ≤ S1x512.size a
  hwx21_4 : ∀ i : grid21.Coords, EltTy.bits .f32 = 32 ∨ (Rect.block (s := S1x512) S1x512.size (cc21_transform_4 i) (hinb21_4 i)).WholeWords (EltTy.packing .f32)
  hstage21_5 : ∀ j, (stage21_5 j).IsWhole
  nbuf21_5 : grid21.bufCount reads21_5 true = 1
  hreads21_5 : ∀ i i' : grid21.Coords, (∀ a, reads21_5 a = true → i a = i' a) → cc21_transform_5 i = cc21_transform_5 i'
  hinb21_5 : ∀ (i : grid21.Coords) a, (cc21_transform_5 i a + 1) * S1x512.size a ≤ S1x512.size a
  hwx21_5 : ∀ i : grid21.Coords, EltTy.bits .f32 = 32 ∨ (Rect.block (s := S1x512) S1x512.size (cc21_transform_5 i) (hinb21_5 i)).WholeWords (EltTy.packing .f32)
  hstage21_6 : ∀ j, (stage21_6 j).IsWhole
  nbuf21_6 : grid21.bufCount reads21_6 false = 2
  hreads21_6 : ∀ i i' : grid21.Coords, (∀ a, reads21_6 a = true → i a = i' a) → cc21_transform_6 i = cc21_transform_6 i'
  hinb21_6 : ∀ (i : grid21.Coords) a, (cc21_transform_6 i a + 1) * S2048x1024.size a ≤ S8192x1024.size a
  hwx21_6 : ∀ i : grid21.Coords, EltTy.bits .bf16 = 32 ∨ (Rect.block (s := S8192x1024) S2048x1024.size (cc21_transform_6 i) (hinb21_6 i)).WholeWords (EltTy.packing .bf16)

class K22.Facts₀ : Prop where
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S2048x512.size a ≤ S16384x512.size a
  hwx22_0 : ∀ i : grid22.Coords, EltTy.bits .bf16 = 32 ∨ (Rect.block (s := S16384x512) S2048x512.size (cc22_transform_0 i) (hinb22_0 i)).WholeWords (EltTy.packing .bf16)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S2048x512.size a ≤ S16384x1024.size a
  hwx22_1 : ∀ i : grid22.Coords, EltTy.bits .bf16 = 32 ∨ (Rect.block (s := S16384x1024) S2048x512.size (cc22_transform_1 i) (hinb22_1 i)).WholeWords (EltTy.packing .bf16)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S512x512.size a ≤ S512x512.size a
  hwx22_2 : ∀ i : grid22.Coords, EltTy.bits .bf16 = 32 ∨ (Rect.block (s := S512x512) S512x512.size (cc22_transform_2 i) (hinb22_2 i)).WholeWords (EltTy.packing .bf16)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S512x512.size a ≤ S512x512.size a
  hwx22_3 : ∀ i : grid22.Coords, EltTy.bits .bf16 = 32 ∨ (Rect.block (s := S512x512) S512x512.size (cc22_transform_3 i) (hinb22_3 i)).WholeWords (EltTy.packing .bf16)
  hstage22_4 : ∀ j, (stage22_4 j).IsWhole
  nbuf22_4 : grid22.bufCount reads22_4 true = 1
  hreads22_4 : ∀ i i' : grid22.Coords, (∀ a, reads22_4 a = true → i a = i' a) → cc22_transform_4 i = cc22_transform_4 i'
  hinb22_4 : ∀ (i : grid22.Coords) a, (cc22_transform_4 i a + 1) * S1x512.size a ≤ S1x512.size a
  hwx22_4 : ∀ i : grid22.Coords, EltTy.bits .f32 = 32 ∨ (Rect.block (s := S1x512) S1x512.size (cc22_transform_4 i) (hinb22_4 i)).WholeWords (EltTy.packing .f32)
  hstage22_5 : ∀ j, (stage22_5 j).IsWhole
  nbuf22_5 : grid22.bufCount reads22_5 true = 1
  hreads22_5 : ∀ i i' : grid22.Coords, (∀ a, reads22_5 a = true → i a = i' a) → cc22_transform_5 i = cc22_transform_5 i'
  hinb22_5 : ∀ (i : grid22.Coords) a, (cc22_transform_5 i a + 1) * S1x512.size a ≤ S1x512.size a
  hwx22_5 : ∀ i : grid22.Coords, EltTy.bits .f32 = 32 ∨ (Rect.block (s := S1x512) S1x512.size (cc22_transform_5 i) (hinb22_5 i)).WholeWords (EltTy.packing .f32)
  hstage22_6 : ∀ j, (stage22_6 j).IsWhole
  nbuf22_6 : grid22.bufCount reads22_6 false = 2
  hreads22_6 : ∀ i i' : grid22.Coords, (∀ a, reads22_6 a = true → i a = i' a) → cc22_transform_6 i = cc22_transform_6 i'
  hinb22_6 : ∀ (i : grid22.Coords) a, (cc22_transform_6 i a + 1) * S2048x1024.size a ≤ S16384x1024.size a
  hwx22_6 : ∀ i : grid22.Coords, EltTy.bits .bf16 = 32 ∨ (Rect.block (s := S16384x1024) S2048x1024.size (cc22_transform_6 i) (hinb22_6 i)).WholeWords (EltTy.packing .bf16)

class K23.Facts₀ : Prop where
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S2048x512.size a ≤ S32768x512.size a
  hwx23_0 : ∀ i : grid23.Coords, EltTy.bits .bf16 = 32 ∨ (Rect.block (s := S32768x512) S2048x512.size (cc23_transform_0 i) (hinb23_0 i)).WholeWords (EltTy.packing .bf16)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S2048x512.size a ≤ S32768x1024.size a
  hwx23_1 : ∀ i : grid23.Coords, EltTy.bits .f32 = 32 ∨ (Rect.block (s := S32768x1024) S2048x512.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S512x512.size a ≤ S512x512.size a
  hwx23_2 : ∀ i : grid23.Coords, EltTy.bits .bf16 = 32 ∨ (Rect.block (s := S512x512) S512x512.size (cc23_transform_2 i) (hinb23_2 i)).WholeWords (EltTy.packing .bf16)
  hstage23_3 : ∀ j, (stage23_3 j).IsWhole
  nbuf23_3 : grid23.bufCount reads23_3 true = 1
  hreads23_3 : ∀ i i' : grid23.Coords, (∀ a, reads23_3 a = true → i a = i' a) → cc23_transform_3 i = cc23_transform_3 i'
  hinb23_3 : ∀ (i : grid23.Coords) a, (cc23_transform_3 i a + 1) * S512x512.size a ≤ S512x512.size a
  hwx23_3 : ∀ i : grid23.Coords, EltTy.bits .bf16 = 32 ∨ (Rect.block (s := S512x512) S512x512.size (cc23_transform_3 i) (hinb23_3 i)).WholeWords (EltTy.packing .bf16)
  hstage23_4 : ∀ j, (stage23_4 j).IsWhole
  nbuf23_4 : grid23.bufCount reads23_4 true = 1
  hreads23_4 : ∀ i i' : grid23.Coords, (∀ a, reads23_4 a = true → i a = i' a) → cc23_transform_4 i = cc23_transform_4 i'
  hinb23_4 : ∀ (i : grid23.Coords) a, (cc23_transform_4 i a + 1) * S1x512.size a ≤ S1x512.size a
  hwx23_4 : ∀ i : grid23.Coords, EltTy.bits .f32 = 32 ∨ (Rect.block (s := S1x512) S1x512.size (cc23_transform_4 i) (hinb23_4 i)).WholeWords (EltTy.packing .f32)
  hstage23_5 : ∀ j, (stage23_5 j).IsWhole
  nbuf23_5 : grid23.bufCount reads23_5 true = 1
  hreads23_5 : ∀ i i' : grid23.Coords, (∀ a, reads23_5 a = true → i a = i' a) → cc23_transform_5 i = cc23_transform_5 i'
  hinb23_5 : ∀ (i : grid23.Coords) a, (cc23_transform_5 i a + 1) * S1x512.size a ≤ S1x512.size a
  hwx23_5 : ∀ i : grid23.Coords, EltTy.bits .f32 = 32 ∨ (Rect.block (s := S1x512) S1x512.size (cc23_transform_5 i) (hinb23_5 i)).WholeWords (EltTy.packing .f32)
  hstage23_6 : ∀ j, (stage23_6 j).IsWhole
  nbuf23_6 : grid23.bufCount reads23_6 false = 2
  hreads23_6 : ∀ i i' : grid23.Coords, (∀ a, reads23_6 a = true → i a = i' a) → cc23_transform_6 i = cc23_transform_6 i'
  hinb23_6 : ∀ (i : grid23.Coords) a, (cc23_transform_6 i a + 1) * S2048x1024.size a ≤ S32768x1024.size a
  hwx23_6 : ∀ i : grid23.Coords, EltTy.bits .bf16 = 32 ∨ (Rect.block (s := S32768x1024) S2048x1024.size (cc23_transform_6 i) (hinb23_6 i)).WholeWords (EltTy.packing .bf16)

class K24.Facts₀ : Prop where
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S2048x512.size a ≤ S65536x512.size a
  hwx24_0 : ∀ i : grid24.Coords, EltTy.bits .f32 = 32 ∨ (Rect.block (s := S65536x512) S2048x512.size (cc24_transform_0 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S2048x512.size a ≤ S65536x512.size a
  hwx24_1 : ∀ i : grid24.Coords, EltTy.bits .bf16 = 32 ∨ (Rect.block (s := S65536x512) S2048x512.size (cc24_transform_1 i) (hinb24_1 i)).WholeWords (EltTy.packing .bf16)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S512x512.size a ≤ S512x512.size a
  hwx24_2 : ∀ i : grid24.Coords, EltTy.bits .bf16 = 32 ∨ (Rect.block (s := S512x512) S512x512.size (cc24_transform_2 i) (hinb24_2 i)).WholeWords (EltTy.packing .bf16)
  hstage24_3 : ∀ j, (stage24_3 j).IsWhole
  nbuf24_3 : grid24.bufCount reads24_3 true = 1
  hreads24_3 : ∀ i i' : grid24.Coords, (∀ a, reads24_3 a = true → i a = i' a) → cc24_transform_3 i = cc24_transform_3 i'
  hinb24_3 : ∀ (i : grid24.Coords) a, (cc24_transform_3 i a + 1) * S512x512.size a ≤ S512x512.size a
  hwx24_3 : ∀ i : grid24.Coords, EltTy.bits .bf16 = 32 ∨ (Rect.block (s := S512x512) S512x512.size (cc24_transform_3 i) (hinb24_3 i)).WholeWords (EltTy.packing .bf16)
  hstage24_4 : ∀ j, (stage24_4 j).IsWhole
  nbuf24_4 : grid24.bufCount reads24_4 true = 1
  hreads24_4 : ∀ i i' : grid24.Coords, (∀ a, reads24_4 a = true → i a = i' a) → cc24_transform_4 i = cc24_transform_4 i'
  hinb24_4 : ∀ (i : grid24.Coords) a, (cc24_transform_4 i a + 1) * S1x512.size a ≤ S1x512.size a
  hwx24_4 : ∀ i : grid24.Coords, EltTy.bits .f32 = 32 ∨ (Rect.block (s := S1x512) S1x512.size (cc24_transform_4 i) (hinb24_4 i)).WholeWords (EltTy.packing .f32)
  hstage24_5 : ∀ j, (stage24_5 j).IsWhole
  nbuf24_5 : grid24.bufCount reads24_5 true = 1
  hreads24_5 : ∀ i i' : grid24.Coords, (∀ a, reads24_5 a = true → i a = i' a) → cc24_transform_5 i = cc24_transform_5 i'
  hinb24_5 : ∀ (i : grid24.Coords) a, (cc24_transform_5 i a + 1) * S1x512.size a ≤ S1x512.size a
  hwx24_5 : ∀ i : grid24.Coords, EltTy.bits .f32 = 32 ∨ (Rect.block (s := S1x512) S1x512.size (cc24_transform_5 i) (hinb24_5 i)).WholeWords (EltTy.packing .f32)
  hstage24_6 : ∀ j, (stage24_6 j).IsWhole
  nbuf24_6 : grid24.bufCount reads24_6 false = 2
  hreads24_6 : ∀ i i' : grid24.Coords, (∀ a, reads24_6 a = true → i a = i' a) → cc24_transform_6 i = cc24_transform_6 i'
  hinb24_6 : ∀ (i : grid24.Coords) a, (cc24_transform_6 i a + 1) * S2048x512.size a ≤ S65536x512.size a
  hwx24_6 : ∀ i : grid24.Coords, EltTy.bits .f32 = 32 ∨ (Rect.block (s := S65536x512) S2048x512.size (cc24_transform_6 i) (hinb24_6 i)).WholeWords (EltTy.packing .f32)

class Shapes1.Facts₀ : Prop where
  bitsLt_bf16_f32 : FTy.bits .bf16 < FTy.bits .f32
  transposes_S12x512x1024_S12x1024x512_0_2_1 : S12x512x1024.Transposes [0, 2, 1] S12x1024x512
  transposes_S512x1024_S1024x512_1_0 : S512x1024.Transposes [1, 0] S1024x512
  shapeCasts_S16x4096x512_S16x2048x1024 : S16x4096x512.ShapeCasts S16x2048x1024
  shapeCasts_S16x2048x1024_S32768x1024 : S16x2048x1024.ShapeCasts S32768x1024
  slices_S12x512_S1x512_0_0 : S12x512.Slices ![0, 0] S1x512
  shapeCasts_S1x512_S512 : S1x512.ShapeCasts S512
  shapeCasts_S512_S1x512 : S512.ShapeCasts S1x512
  slices_S12x1024x512_S1x1024x512_0_0_0 : S12x1024x512.Slices ![0, 0, 0] S1x1024x512
  shapeCasts_S1x1024x512_S1024x512 : S1x1024x512.ShapeCasts S1024x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  natLt_1_32 : 1 < 32
  reduces_S2048x512_S2048 : S2048x512.Reduces [1] S2048
  shapeCasts_S2048_S2048x1 : S2048.ShapeCasts S2048x1
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  shapeCasts_S32768x512_S16x2048x512 : S32768x512.ShapeCasts S16x2048x512
  shapeCasts_S16x2048x512_S16x1024x1024 : S16x2048x512.ShapeCasts S16x1024x1024
  shapeCasts_S16x1024x1024_S16384x1024 : S16x1024x1024.ShapeCasts S16384x1024
  slices_S12x512_S1x512_1_0 : S12x512.Slices ![1, 0] S1x512
  slices_S12x1024x512_S1x1024x512_1_0_0 : S12x1024x512.Slices ![1, 0, 0] S1x1024x512
  shapeCasts_S16384x512_S16x1024x512 : S16384x512.ShapeCasts S16x1024x512
  shapeCasts_S16x1024x512_S16x512x1024 : S16x1024x512.ShapeCasts S16x512x1024
  shapeCasts_S16x512x1024_S8192x1024 : S16x512x1024.ShapeCasts S8192x1024
  slices_S12x512_S1x512_2_0 : S12x512.Slices ![2, 0] S1x512
  slices_S12x1024x512_S1x1024x512_2_0_0 : S12x1024x512.Slices ![2, 0, 0] S1x1024x512
  shapeCasts_S8192x512_S16x512x512 : S8192x512.ShapeCasts S16x512x512
  shapeCasts_S16x512x512_S16x256x1024 : S16x512x512.ShapeCasts S16x256x1024
  shapeCasts_S16x256x1024_S4096x1024 : S16x256x1024.ShapeCasts S4096x1024
  slices_S12x512_S1x512_3_0 : S12x512.Slices ![3, 0] S1x512
  slices_S12x1024x512_S1x1024x512_3_0_0 : S12x1024x512.Slices ![3, 0, 0] S1x1024x512
  shapeCasts_S4096x512_S16x256x512 : S4096x512.ShapeCasts S16x256x512
  shapeCasts_S16x256x512_S16x128x1024 : S16x256x512.ShapeCasts S16x128x1024
  shapeCasts_S16x128x1024_S2048x1024 : S16x128x1024.ShapeCasts S2048x1024
  slices_S12x512_S1x512_4_0 : S12x512.Slices ![4, 0] S1x512
  slices_S12x1024x512_S1x1024x512_4_0_0 : S12x1024x512.Slices ![4, 0, 0] S1x1024x512
  shapeCasts_S2048x512_S16x128x512 : S2048x512.ShapeCasts S16x128x512
  shapeCasts_S16x128x512_S16x64x1024 : S16x128x512.ShapeCasts S16x64x1024
  shapeCasts_S16x64x1024_S1024x1024 : S16x64x1024.ShapeCasts S1024x1024
  slices_S12x512_S1x512_5_0 : S12x512.Slices ![5, 0] S1x512
  slices_S12x1024x512_S1x1024x512_5_0_0 : S12x1024x512.Slices ![5, 0, 0] S1x1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  shapeCasts_S1024x512_S16x64x512 : S1024x512.ShapeCasts S16x64x512
  shapeCasts_S16x64x512_S16x32x1024 : S16x64x512.ShapeCasts S16x32x1024
  shapeCasts_S16x32x1024_S512x1024 : S16x32x1024.ShapeCasts S512x1024
  slices_S12x512_S1x512_6_0 : S12x512.Slices ![6, 0] S1x512
  slices_S12x1024x512_S1x1024x512_6_0_0 : S12x1024x512.Slices ![6, 0, 0] S1x1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S512x512_S16x32x512 : S512x512.ShapeCasts S16x32x512
  shapeCasts_S16x32x512_S16x16x1024 : S16x32x512.ShapeCasts S16x16x1024
  shapeCasts_S16x16x1024_S256x1024 : S16x16x1024.ShapeCasts S256x1024
  slices_S12x512_S1x512_7_0 : S12x512.Slices ![7, 0] S1x512
  slices_S12x1024x512_S1x1024x512_7_0_0 : S12x1024x512.Slices ![7, 0, 0] S1x1024x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  broadcasts_S1x512_S256x512 : S1x512.Broadcasts S256x512
  reduces_S256x512_S256 : S256x512.Reduces [1] S256
  shapeCasts_S256_S256x1 : S256.ShapeCasts S256x1
  broadcasts_S256x1_S256x512 : S256x1.Broadcasts S256x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  shapeCasts_S256x512_S16x16x512 : S256x512.ShapeCasts S16x16x512
  shapeCasts_S16x16x512_S16x8x1024 : S16x16x512.ShapeCasts S16x8x1024
  shapeCasts_S16x8x1024_S128x1024 : S16x8x1024.ShapeCasts S128x1024
  slices_S12x512_S1x512_8_0 : S12x512.Slices ![8, 0] S1x512
  slices_S12x1024x512_S1x1024x512_8_0_0 : S12x1024x512.Slices ![8, 0, 0] S1x1024x512
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  broadcasts_S1x512_S128x512 : S1x512.Broadcasts S128x512
  reduces_S128x512_S128 : S128x512.Reduces [1] S128
  shapeCasts_S128_S128x1 : S128.ShapeCasts S128x1
  broadcasts_S128x1_S128x512 : S128x1.Broadcasts S128x512
  inb_S128x512_S128x512_0_0 : ∀ a, (![0, 0] : Fin 2 → Nat) a + S128x512.size a ≤ S128x512.size a
  h_S128x512 : 0 < S128x512.numel
  packedbf16_S128x512_S128x512_0_0 : (Rect.unit (s := S128x512) ![0, 0] S128x512.size inb_S128x512_S128x512_0_0).PackedRows (EltTy.packing .bf16)
  shapeCasts_S128x512_S16x8x512 : S128x512.ShapeCasts S16x8x512
  shapeCasts_S16x8x512_S16x4x1024 : S16x8x512.ShapeCasts S16x4x1024
  shapeCasts_S16x4x1024_S64x1024 : S16x4x1024.ShapeCasts S64x1024
  slices_S12x512_S1x512_9_0 : S12x512.Slices ![9, 0] S1x512
  slices_S12x1024x512_S1x1024x512_9_0_0 : S12x1024x512.Slices ![9, 0, 0] S1x1024x512
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  broadcasts_S1x512_S64x512 : S1x512.Broadcasts S64x512
  reduces_S64x512_S64 : S64x512.Reduces [1] S64
  shapeCasts_S64_S64x1 : S64.ShapeCasts S64x1
  broadcasts_S64x1_S64x512 : S64x1.Broadcasts S64x512
  inb_S64x512_S64x512_0_0 : ∀ a, (![0, 0] : Fin 2 → Nat) a + S64x512.size a ≤ S64x512.size a
  h_S64x512 : 0 < S64x512.numel
  packedbf16_S64x512_S64x512_0_0 : (Rect.unit (s := S64x512) ![0, 0] S64x512.size inb_S64x512_S64x512_0_0).PackedRows (EltTy.packing .bf16)
  shapeCasts_S64x512_S16x4x512 : S64x512.ShapeCasts S16x4x512
  shapeCasts_S16x4x512_S16x2x1024 : S16x4x512.ShapeCasts S16x2x1024
  shapeCasts_S16x2x1024_S32x1024 : S16x2x1024.ShapeCasts S32x1024
  slices_S12x512_S1x512_10_0 : S12x512.Slices ![10, 0] S1x512
  slices_S12x1024x512_S1x1024x512_10_0_0 : S12x1024x512.Slices ![10, 0, 0] S1x1024x512
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  broadcasts_S1x512_S32x512 : S1x512.Broadcasts S32x512
  reduces_S32x512_S32 : S32x512.Reduces [1] S32
  shapeCasts_S32_S32x1 : S32.ShapeCasts S32x1
  broadcasts_S32x1_S32x512 : S32x1.Broadcasts S32x512
  inb_S32x512_S32x512_0_0 : ∀ a, (![0, 0] : Fin 2 → Nat) a + S32x512.size a ≤ S32x512.size a
  h_S32x512 : 0 < S32x512.numel
  packedbf16_S32x512_S32x512_0_0 : (Rect.unit (s := S32x512) ![0, 0] S32x512.size inb_S32x512_S32x512_0_0).PackedRows (EltTy.packing .bf16)
  shapeCasts_S32x512_S16x2x512 : S32x512.ShapeCasts S16x2x512
  shapeCasts_S16x2x512_S16x1x1024 : S16x2x512.ShapeCasts S16x1x1024
  shapeCasts_S16x1x1024_S16x1024 : S16x1x1024.ShapeCasts S16x1024
  slices_S12x512_S1x512_11_0 : S12x512.Slices ![11, 0] S1x512
  slices_S12x1024x512_S1x1024x512_11_0_0 : S12x1024x512.Slices ![11, 0, 0] S1x1024x512
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  broadcasts_S1x512_S16x512 : S1x512.Broadcasts S16x512
  reduces_S16x512_S16 : S16x512.Reduces [1] S16
  shapeCasts_S16_S16x1 : S16.ShapeCasts S16x1
  broadcasts_S16x1_S16x512 : S16x1.Broadcasts S16x512
  inb_S16x512_S16x512_0_0 : ∀ a, (![0, 0] : Fin 2 → Nat) a + S16x512.size a ≤ S16x512.size a
  h_S16x512 : 0 < S16x512.numel
  packedbf16_S16x512_S16x512_0_0 : (Rect.unit (s := S16x512) ![0, 0] S16x512.size inb_S16x512_S16x512_0_0).PackedRows (EltTy.packing .bf16)
  shapeCasts_S16x512_S16x1x512 : S16x512.ShapeCasts S16x1x512
  bcast_S_S16x1x512 : S_.BroadcastsInDim S16x1x512 (![] : Fin 0 → Fin S16x1x512.rank)
  shapeCasts_S16x1x512_S16x512 : S16x1x512.ShapeCasts S16x512
  slices_S1024x512_S512x512_0_0 : S1024x512.Slices ![0, 0] S512x512
  slices_S1024x512_S512x512_512_0 : S1024x512.Slices ![512, 0] S512x512
  shapeCasts_S16x512_S16x512 : S16x512.ShapeCasts S16x512
  shapeCasts_S512x512_S512x512 : S512x512.ShapeCasts S512x512
  inb_S16x1024_S16x512_0_0 : ∀ a, (![0, 0] : Fin 2 → Nat) a + S16x512.size a ≤ S16x1024.size a
  packedbf16_S16x1024_S16x512_0_0 : (Rect.unit (s := S16x1024) ![0, 0] S16x512.size inb_S16x1024_S16x512_0_0).PackedRows (EltTy.packing .bf16)
  inb_S16x1024_S16x512_0_512 : ∀ a, (![0, 512] : Fin 2 → Nat) a + S16x512.size a ≤ S16x1024.size a
  packedbf16_S16x1024_S16x512_0_512 : (Rect.unit (s := S16x1024) ![0, 512] S16x512.size inb_S16x1024_S16x512_0_512).PackedRows (EltTy.packing .bf16)
  shapeCasts_S16x1024_S16x2x512 : S16x1024.ShapeCasts S16x2x512
  shapeCasts_S16x2x512_S32x512 : S16x2x512.ShapeCasts S32x512
  shapeCasts_S32x512_S32x512 : S32x512.ShapeCasts S32x512
  inb_S32x1024_S32x512_0_0 : ∀ a, (![0, 0] : Fin 2 → Nat) a + S32x512.size a ≤ S32x1024.size a
  packedbf16_S32x1024_S32x512_0_0 : (Rect.unit (s := S32x1024) ![0, 0] S32x512.size inb_S32x1024_S32x512_0_0).PackedRows (EltTy.packing .bf16)
  inb_S32x1024_S32x512_0_512 : ∀ a, (![0, 512] : Fin 2 → Nat) a + S32x512.size a ≤ S32x1024.size a
  packedbf16_S32x1024_S32x512_0_512 : (Rect.unit (s := S32x1024) ![0, 512] S32x512.size inb_S32x1024_S32x512_0_512).PackedRows (EltTy.packing .bf16)
  shapeCasts_S32x1024_S16x4x512 : S32x1024.ShapeCasts S16x4x512
  shapeCasts_S16x4x512_S64x512 : S16x4x512.ShapeCasts S64x512
  shapeCasts_S64x512_S64x512 : S64x512.ShapeCasts S64x512
  inb_S64x1024_S64x512_0_0 : ∀ a, (![0, 0] : Fin 2 → Nat) a + S64x512.size a ≤ S64x1024.size a
  packedbf16_S64x1024_S64x512_0_0 : (Rect.unit (s := S64x1024) ![0, 0] S64x512.size inb_S64x1024_S64x512_0_0).PackedRows (EltTy.packing .bf16)
  inb_S64x1024_S64x512_0_512 : ∀ a, (![0, 512] : Fin 2 → Nat) a + S64x512.size a ≤ S64x1024.size a
  packedbf16_S64x1024_S64x512_0_512 : (Rect.unit (s := S64x1024) ![0, 512] S64x512.size inb_S64x1024_S64x512_0_512).PackedRows (EltTy.packing .bf16)
  shapeCasts_S64x1024_S16x8x512 : S64x1024.ShapeCasts S16x8x512
  shapeCasts_S16x8x512_S128x512 : S16x8x512.ShapeCasts S128x512
  shapeCasts_S128x512_S128x512 : S128x512.ShapeCasts S128x512
  inb_S128x1024_S128x512_0_0 : ∀ a, (![0, 0] : Fin 2 → Nat) a + S128x512.size a ≤ S128x1024.size a
  packedbf16_S128x1024_S128x512_0_0 : (Rect.unit (s := S128x1024) ![0, 0] S128x512.size inb_S128x1024_S128x512_0_0).PackedRows (EltTy.packing .bf16)
  inb_S128x1024_S128x512_0_512 : ∀ a, (![0, 512] : Fin 2 → Nat) a + S128x512.size a ≤ S128x1024.size a
  packedbf16_S128x1024_S128x512_0_512 : (Rect.unit (s := S128x1024) ![0, 512] S128x512.size inb_S128x1024_S128x512_0_512).PackedRows (EltTy.packing .bf16)
  shapeCasts_S128x1024_S16x16x512 : S128x1024.ShapeCasts S16x16x512
  shapeCasts_S16x16x512_S256x512 : S16x16x512.ShapeCasts S256x512
  shapeCasts_S256x512_S256x512 : S256x512.ShapeCasts S256x512
  inb_S256x1024_S256x512_0_0 : ∀ a, (![0, 0] : Fin 2 → Nat) a + S256x512.size a ≤ S256x1024.size a
  packedbf16_S256x1024_S256x512_0_0 : (Rect.unit (s := S256x1024) ![0, 0] S256x512.size inb_S256x1024_S256x512_0_0).PackedRows (EltTy.packing .bf16)
  inb_S256x1024_S256x512_0_512 : ∀ a, (![0, 512] : Fin 2 → Nat) a + S256x512.size a ≤ S256x1024.size a
  packedbf16_S256x1024_S256x512_0_512 : (Rect.unit (s := S256x1024) ![0, 512] S256x512.size inb_S256x1024_S256x512_0_512).PackedRows (EltTy.packing .bf16)
  shapeCasts_S256x1024_S16x32x512 : S256x1024.ShapeCasts S16x32x512
  shapeCasts_S16x32x512_S512x512 : S16x32x512.ShapeCasts S512x512
  inb_S512x1024_S512x512_0_0 : ∀ a, (![0, 0] : Fin 2 → Nat) a + S512x512.size a ≤ S512x1024.size a
  packedbf16_S512x1024_S512x512_0_0 : (Rect.unit (s := S512x1024) ![0, 0] S512x512.size inb_S512x1024_S512x512_0_0).PackedRows (EltTy.packing .bf16)
  inb_S512x1024_S512x512_0_512 : ∀ a, (![0, 512] : Fin 2 → Nat) a + S512x512.size a ≤ S512x1024.size a
  packedbf16_S512x1024_S512x512_0_512 : (Rect.unit (s := S512x1024) ![0, 512] S512x512.size inb_S512x1024_S512x512_0_512).PackedRows (EltTy.packing .bf16)
  shapeCasts_S512x1024_S16x64x512 : S512x1024.ShapeCasts S16x64x512
  shapeCasts_S16x64x512_S1024x512 : S16x64x512.ShapeCasts S1024x512
  inb_S1024x1024_S1024x512_0_0 : ∀ a, (![0, 0] : Fin 2 → Nat) a + S1024x512.size a ≤ S1024x1024.size a
  packedbf16_S1024x1024_S1024x512_0_0 : (Rect.unit (s := S1024x1024) ![0, 0] S1024x512.size inb_S1024x1024_S1024x512_0_0).PackedRows (EltTy.packing .bf16)
  inb_S1024x1024_S1024x512_0_512 : ∀ a, (![0, 512] : Fin 2 → Nat) a + S1024x512.size a ≤ S1024x1024.size a
  packedbf16_S1024x1024_S1024x512_0_512 : (Rect.unit (s := S1024x1024) ![0, 512] S1024x512.size inb_S1024x1024_S1024x512_0_512).PackedRows (EltTy.packing .bf16)
  shapeCasts_S1024x1024_S16x128x512 : S1024x1024.ShapeCasts S16x128x512
  shapeCasts_S16x128x512_S2048x512 : S16x128x512.ShapeCasts S2048x512
  shapeCasts_S2048x512_S2048x512 : S2048x512.ShapeCasts S2048x512
  inb_S2048x1024_S2048x512_0_0 : ∀ a, (![0, 0] : Fin 2 → Nat) a + S2048x512.size a ≤ S2048x1024.size a
  packedbf16_S2048x1024_S2048x512_0_0 : (Rect.unit (s := S2048x1024) ![0, 0] S2048x512.size inb_S2048x1024_S2048x512_0_0).PackedRows (EltTy.packing .bf16)
  inb_S2048x1024_S2048x512_0_512 : ∀ a, (![0, 512] : Fin 2 → Nat) a + S2048x512.size a ≤ S2048x1024.size a
  packedbf16_S2048x1024_S2048x512_0_512 : (Rect.unit (s := S2048x1024) ![0, 512] S2048x512.size inb_S2048x1024_S2048x512_0_512).PackedRows (EltTy.packing .bf16)
  shapeCasts_S2048x1024_S16x256x512 : S2048x1024.ShapeCasts S16x256x512
  shapeCasts_S16x256x512_S4096x512 : S16x256x512.ShapeCasts S4096x512
  shapeCasts_S4096x1024_S16x512x512 : S4096x1024.ShapeCasts S16x512x512
  shapeCasts_S16x512x512_S8192x512 : S16x512x512.ShapeCasts S8192x512
  shapeCasts_S8192x1024_S16x1024x512 : S8192x1024.ShapeCasts S16x1024x512
  shapeCasts_S16x1024x512_S16384x512 : S16x1024x512.ShapeCasts S16384x512
  shapeCasts_S16384x1024_S16x2048x512 : S16384x1024.ShapeCasts S16x2048x512
  shapeCasts_S16x2048x512_S32768x512 : S16x2048x512.ShapeCasts S32768x512
  shapeCasts_S32768x1024_S16x4096x512 : S32768x1024.ShapeCasts S16x4096x512
  shapeCasts_S16x4096x512_S65536x512 : S16x4096x512.ShapeCasts S65536x512
  shapeCasts_S65536x512_S16x4096x512 : S65536x512.ShapeCasts S16x4096x512
  dot_S2048x1024_S1024x512_S2048x512_1_0_0_1_n_n_wf : DotDims.WF S2048x1024 S1024x512 S2048x512 [1] [0] [0] [1] [] []
  dot_S1024x1024_S1024x512_S1024x512_1_0_0_1_n_n_wf : DotDims.WF S1024x1024 S1024x512 S1024x512 [1] [0] [0] [1] [] []
  dot_S512x1024_S1024x512_S512x512_1_0_0_1_n_n_wf : DotDims.WF S512x1024 S1024x512 S512x512 [1] [0] [0] [1] [] []
  dot_S256x1024_S1024x512_S256x512_1_0_0_1_n_n_wf : DotDims.WF S256x1024 S1024x512 S256x512 [1] [0] [0] [1] [] []
  dot_S128x1024_S1024x512_S128x512_1_0_0_1_n_n_wf : DotDims.WF S128x1024 S1024x512 S128x512 [1] [0] [0] [1] [] []
  dot_S64x1024_S1024x512_S64x512_1_0_0_1_n_n_wf : DotDims.WF S64x1024 S1024x512 S64x512 [1] [0] [0] [1] [] []
  dot_S32x1024_S1024x512_S32x512_1_0_0_1_n_n_wf : DotDims.WF S32x1024 S1024x512 S32x512 [1] [0] [0] [1] [] []
  dot_S16x1024_S1024x512_S16x512_1_0_0_1_n_n_wf : DotDims.WF S16x1024 S1024x512 S16x512 [1] [0] [0] [1] [] []
  dot_S16x512_S512x512_S16x512_1_0_0_1_n_n_wf : DotDims.WF S16x512 S512x512 S16x512 [1] [0] [0] [1] [] []
  dot_S32x512_S512x512_S32x512_1_0_0_1_n_n_wf : DotDims.WF S32x512 S512x512 S32x512 [1] [0] [0] [1] [] []
  dot_S64x512_S512x512_S64x512_1_0_0_1_n_n_wf : DotDims.WF S64x512 S512x512 S64x512 [1] [0] [0] [1] [] []
  dot_S128x512_S512x512_S128x512_1_0_0_1_n_n_wf : DotDims.WF S128x512 S512x512 S128x512 [1] [0] [0] [1] [] []
  dot_S256x512_S512x512_S256x512_1_0_0_1_n_n_wf : DotDims.WF S256x512 S512x512 S256x512 [1] [0] [0] [1] [] []
  dot_S512x512_S512x512_S512x512_1_0_0_1_n_n_wf : DotDims.WF S512x512 S512x512 S512x512 [1] [0] [0] [1] [] []
  dot_S1024x512_S512x512_S1024x512_1_0_0_1_n_n_wf : DotDims.WF S1024x512 S512x512 S1024x512 [1] [0] [0] [1] [] []
  dot_S2048x512_S512x512_S2048x512_1_0_0_1_n_n_wf : DotDims.WF S2048x512 S512x512 S2048x512 [1] [0] [0] [1] [] []

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.shapes1

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v7) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1024x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S2048x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v43) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1024x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S2048x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v55) S2048x1024.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1024x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S2048x512.size cc4_transform_4 reads4_4 true false 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v67) S1024x1024.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1024x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1024x512.size cc5_transform_4 reads5_4 true false 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v79) S512x1024.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v87) S1024x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85) S1x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v88) S512x512.size cc6_transform_4 reads6_4 true false 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v91) S256x1024.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v99) S1024x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97) S1x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v100) S256x512.size cc7_transform_4 reads7_4 true false 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v103) S128x1024.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v111) S1024x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v106) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v109) S1x512.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v112) S128x512.size cc8_transform_4 reads8_4 true false 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v115) S64x1024.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v123) S1024x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v118) S1x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v121) S1x512.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v124) S64x512.size cc9_transform_4 reads9_4 true false 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v127) S32x1024.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v135) S1024x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v130) S1x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v133) S1x512.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v136) S32x512.size cc10_transform_4 reads10_4 true false 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v139) S16x1024.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v147) S1024x512.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v142) S1x512.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v145) S1x512.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v148) S16x512.size cc11_transform_4 reads11_4 true false 1 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v153) S16x512.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_v152) S16x512.size cc12_transform_1 reads12_1 false false 1 stage12_1 sem12_1
    hrank12 hreads12_1 hinb12_1 nbuf12_1 (Memref.isWhole_whole _) hwx12_1 hstage12_1

abbrev win12_2 : Pipeline.Window sig grid12 :=
  Pipeline.Window.ofSpec (Memref.whole main_v156) S512x512.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v159) S512x512.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v162) S1x512.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v165) S1x512.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v166) S16x1024.size cc12_transform_6 reads12_6 true false 1 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v170) S32x512.size cc13_transform_0 reads13_0 false false 1 stage13_0 sem13_0
    hrank13 hreads13_0 hinb13_0 nbuf13_0 (Memref.isWhole_whole _) hwx13_0 hstage13_0

abbrev win13_1 : Pipeline.Window sig grid13 :=
  Pipeline.Window.ofSpec (Memref.whole main_v169) S32x512.size cc13_transform_1 reads13_1 false false 1 stage13_1 sem13_1
    hrank13 hreads13_1 hinb13_1 nbuf13_1 (Memref.isWhole_whole _) hwx13_1 hstage13_1

abbrev win13_2 : Pipeline.Window sig grid13 :=
  Pipeline.Window.ofSpec (Memref.whole main_v173) S512x512.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v176) S512x512.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v179) S1x512.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v182) S1x512.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v183) S32x1024.size cc13_transform_6 reads13_6 true false 1 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v187) S64x512.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_v186) S64x512.size cc14_transform_1 reads14_1 false false 1 stage14_1 sem14_1
    hrank14 hreads14_1 hinb14_1 nbuf14_1 (Memref.isWhole_whole _) hwx14_1 hstage14_1

abbrev win14_2 : Pipeline.Window sig grid14 :=
  Pipeline.Window.ofSpec (Memref.whole main_v190) S512x512.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v193) S512x512.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v196) S1x512.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v199) S1x512.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v200) S64x1024.size cc14_transform_6 reads14_6 true false 1 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

abbrev win15_0 : Pipeline.Window sig grid15 :=
  Pipeline.Window.ofSpec (Memref.whole main_v204) S128x512.size cc15_transform_0 reads15_0 false false 1 stage15_0 sem15_0
    hrank15 hreads15_0 hinb15_0 nbuf15_0 (Memref.isWhole_whole _) hwx15_0 hstage15_0

abbrev win15_1 : Pipeline.Window sig grid15 :=
  Pipeline.Window.ofSpec (Memref.whole main_v203) S128x512.size cc15_transform_1 reads15_1 false false 1 stage15_1 sem15_1
    hrank15 hreads15_1 hinb15_1 nbuf15_1 (Memref.isWhole_whole _) hwx15_1 hstage15_1

abbrev win15_2 : Pipeline.Window sig grid15 :=
  Pipeline.Window.ofSpec (Memref.whole main_v207) S512x512.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v210) S512x512.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v213) S1x512.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v216) S1x512.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v217) S128x1024.size cc15_transform_6 reads15_6 true false 1 stage15_6 sem15_6
    hrank15 hreads15_6 hinb15_6 nbuf15_6 (Memref.isWhole_whole _) hwx15_6 hstage15_6

abbrev win15 : Fin 7 → Pipeline.Window sig grid15 := fun | 0 => win15_0 | 1 => win15_1 | 2 => win15_2 | 3 => win15_3 | 4 => win15_4 | 5 => win15_5 | 6 => win15_6 | ⟨_ + 7, h⟩ => absurd h (Nat.not_lt.2 (Nat.le_add_left _ _))
abbrev spec15 : Fin 7 → Pipeline.WinSpec sig grid15.rank := fun w => (win15 w).toWinSpec

abbrev win16_0 : Pipeline.Window sig grid16 :=
  Pipeline.Window.ofSpec (Memref.whole main_v221) S256x512.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_v220) S256x512.size cc16_transform_1 reads16_1 false false 1 stage16_1 sem16_1
    hrank16 hreads16_1 hinb16_1 nbuf16_1 (Memref.isWhole_whole _) hwx16_1 hstage16_1

abbrev win16_2 : Pipeline.Window sig grid16 :=
  Pipeline.Window.ofSpec (Memref.whole main_v224) S512x512.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v227) S512x512.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v230) S1x512.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v233) S1x512.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v234) S256x1024.size cc16_transform_6 reads16_6 true false 1 stage16_6 sem16_6
    hrank16 hreads16_6 hinb16_6 nbuf16_6 (Memref.isWhole_whole _) hwx16_6 hstage16_6

abbrev win16 : Fin 7 → Pipeline.Window sig grid16 := fun | 0 => win16_0 | 1 => win16_1 | 2 => win16_2 | 3 => win16_3 | 4 => win16_4 | 5 => win16_5 | 6 => win16_6 | ⟨_ + 7, h⟩ => absurd h (Nat.not_lt.2 (Nat.le_add_left _ _))
abbrev spec16 : Fin 7 → Pipeline.WinSpec sig grid16.rank := fun w => (win16 w).toWinSpec

abbrev win17_0 : Pipeline.Window sig grid17 :=
  Pipeline.Window.ofSpec (Memref.whole main_v238) S512x512.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_v237) S512x512.size cc17_transform_1 reads17_1 false false 1 stage17_1 sem17_1
    hrank17 hreads17_1 hinb17_1 nbuf17_1 (Memref.isWhole_whole _) hwx17_1 hstage17_1

abbrev win17_2 : Pipeline.Window sig grid17 :=
  Pipeline.Window.ofSpec (Memref.whole main_v241) S512x512.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v244) S512x512.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v247) S1x512.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v250) S1x512.size cc17_transform_5 reads17_5 false true 1 stage17_5 sem17_5
    hrank17 hreads17_5 hinb17_5 nbuf17_5 (Memref.isWhole_whole _) hwx17_5 hstage17_5

abbrev win17_6 : Pipeline.Window sig grid17 :=
  Pipeline.Window.ofSpec (Memref.whole main_v251) S512x1024.size cc17_transform_6 reads17_6 true false 1 stage17_6 sem17_6
    hrank17 hreads17_6 hinb17_6 nbuf17_6 (Memref.isWhole_whole _) hwx17_6 hstage17_6

abbrev win17 : Fin 7 → Pipeline.Window sig grid17 := fun | 0 => win17_0 | 1 => win17_1 | 2 => win17_2 | 3 => win17_3 | 4 => win17_4 | 5 => win17_5 | 6 => win17_6 | ⟨_ + 7, h⟩ => absurd h (Nat.not_lt.2 (Nat.le_add_left _ _))
abbrev spec17 : Fin 7 → Pipeline.WinSpec sig grid17.rank := fun w => (win17 w).toWinSpec

abbrev win18_0 : Pipeline.Window sig grid18 :=
  Pipeline.Window.ofSpec (Memref.whole main_v255) S1024x512.size cc18_transform_0 reads18_0 false false 1 stage18_0 sem18_0
    hrank18 hreads18_0 hinb18_0 nbuf18_0 (Memref.isWhole_whole _) hwx18_0 hstage18_0

abbrev win18_1 : Pipeline.Window sig grid18 :=
  Pipeline.Window.ofSpec (Memref.whole main_v254) S1024x512.size cc18_transform_1 reads18_1 false false 1 stage18_1 sem18_1
    hrank18 hreads18_1 hinb18_1 nbuf18_1 (Memref.isWhole_whole _) hwx18_1 hstage18_1

abbrev win18_2 : Pipeline.Window sig grid18 :=
  Pipeline.Window.ofSpec (Memref.whole main_v258) S512x512.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v261) S512x512.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v264) S1x512.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v267) S1x512.size cc18_transform_5 reads18_5 false true 1 stage18_5 sem18_5
    hrank18 hreads18_5 hinb18_5 nbuf18_5 (Memref.isWhole_whole _) hwx18_5 hstage18_5

abbrev win18_6 : Pipeline.Window sig grid18 :=
  Pipeline.Window.ofSpec (Memref.whole main_v268) S1024x1024.size cc18_transform_6 reads18_6 true false 1 stage18_6 sem18_6
    hrank18 hreads18_6 hinb18_6 nbuf18_6 (Memref.isWhole_whole _) hwx18_6 hstage18_6

abbrev win18 : Fin 7 → Pipeline.Window sig grid18 := fun | 0 => win18_0 | 1 => win18_1 | 2 => win18_2 | 3 => win18_3 | 4 => win18_4 | 5 => win18_5 | 6 => win18_6 | ⟨_ + 7, h⟩ => absurd h (Nat.not_lt.2 (Nat.le_add_left _ _))
abbrev spec18 : Fin 7 → Pipeline.WinSpec sig grid18.rank := fun w => (win18 w).toWinSpec

abbrev win19_0 : Pipeline.Window sig grid19 :=
  Pipeline.Window.ofSpec (Memref.whole main_v272) S2048x512.size cc19_transform_0 reads19_0 false false 1 stage19_0 sem19_0
    hrank19 hreads19_0 hinb19_0 nbuf19_0 (Memref.isWhole_whole _) hwx19_0 hstage19_0

abbrev win19_1 : Pipeline.Window sig grid19 :=
  Pipeline.Window.ofSpec (Memref.whole main_v271) S2048x512.size cc19_transform_1 reads19_1 false false 1 stage19_1 sem19_1
    hrank19 hreads19_1 hinb19_1 nbuf19_1 (Memref.isWhole_whole _) hwx19_1 hstage19_1

abbrev win19_2 : Pipeline.Window sig grid19 :=
  Pipeline.Window.ofSpec (Memref.whole main_v275) S512x512.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v278) S512x512.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v281) S1x512.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v284) S1x512.size cc19_transform_5 reads19_5 false true 1 stage19_5 sem19_5
    hrank19 hreads19_5 hinb19_5 nbuf19_5 (Memref.isWhole_whole _) hwx19_5 hstage19_5

abbrev win19_6 : Pipeline.Window sig grid19 :=
  Pipeline.Window.ofSpec (Memref.whole main_v285) S2048x1024.size cc19_transform_6 reads19_6 true false 1 stage19_6 sem19_6
    hrank19 hreads19_6 hinb19_6 nbuf19_6 (Memref.isWhole_whole _) hwx19_6 hstage19_6

abbrev win19 : Fin 7 → Pipeline.Window sig grid19 := fun | 0 => win19_0 | 1 => win19_1 | 2 => win19_2 | 3 => win19_3 | 4 => win19_4 | 5 => win19_5 | 6 => win19_6 | ⟨_ + 7, h⟩ => absurd h (Nat.not_lt.2 (Nat.le_add_left _ _))
abbrev spec19 : Fin 7 → Pipeline.WinSpec sig grid19.rank := fun w => (win19 w).toWinSpec

abbrev win20_0 : Pipeline.Window sig grid20 :=
  Pipeline.Window.ofSpec (Memref.whole main_v289) S2048x512.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v288) S2048x512.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v292) S512x512.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v295) S512x512.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v298) S1x512.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v301) S1x512.size cc20_transform_5 reads20_5 false true 1 stage20_5 sem20_5
    hrank20 hreads20_5 hinb20_5 nbuf20_5 (Memref.isWhole_whole _) hwx20_5 hstage20_5

abbrev win20_6 : Pipeline.Window sig grid20 :=
  Pipeline.Window.ofSpec (Memref.whole main_v302) S2048x1024.size cc20_transform_6 reads20_6 true false 2 stage20_6 sem20_6
    hrank20 hreads20_6 hinb20_6 nbuf20_6 (Memref.isWhole_whole _) hwx20_6 hstage20_6

abbrev win20 : Fin 7 → Pipeline.Window sig grid20 := fun | 0 => win20_0 | 1 => win20_1 | 2 => win20_2 | 3 => win20_3 | 4 => win20_4 | 5 => win20_5 | 6 => win20_6 | ⟨_ + 7, h⟩ => absurd h (Nat.not_lt.2 (Nat.le_add_left _ _))
abbrev spec20 : Fin 7 → Pipeline.WinSpec sig grid20.rank := fun w => (win20 w).toWinSpec

abbrev win21_0 : Pipeline.Window sig grid21 :=
  Pipeline.Window.ofSpec (Memref.whole main_v306) S2048x512.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v305) S2048x512.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v309) S512x512.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v312) S512x512.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v315) S1x512.size cc21_transform_4 reads21_4 false true 1 stage21_4 sem21_4
    hrank21 hreads21_4 hinb21_4 nbuf21_4 (Memref.isWhole_whole _) hwx21_4 hstage21_4

abbrev win21_5 : Pipeline.Window sig grid21 :=
  Pipeline.Window.ofSpec (Memref.whole main_v318) S1x512.size cc21_transform_5 reads21_5 false true 1 stage21_5 sem21_5
    hrank21 hreads21_5 hinb21_5 nbuf21_5 (Memref.isWhole_whole _) hwx21_5 hstage21_5

abbrev win21_6 : Pipeline.Window sig grid21 :=
  Pipeline.Window.ofSpec (Memref.whole main_v319) S2048x1024.size cc21_transform_6 reads21_6 true false 2 stage21_6 sem21_6
    hrank21 hreads21_6 hinb21_6 nbuf21_6 (Memref.isWhole_whole _) hwx21_6 hstage21_6

abbrev win21 : Fin 7 → Pipeline.Window sig grid21 := fun | 0 => win21_0 | 1 => win21_1 | 2 => win21_2 | 3 => win21_3 | 4 => win21_4 | 5 => win21_5 | 6 => win21_6 | ⟨_ + 7, h⟩ => absurd h (Nat.not_lt.2 (Nat.le_add_left _ _))
abbrev spec21 : Fin 7 → Pipeline.WinSpec sig grid21.rank := fun w => (win21 w).toWinSpec

abbrev win22_0 : Pipeline.Window sig grid22 :=
  Pipeline.Window.ofSpec (Memref.whole main_v323) S2048x512.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v322) S2048x512.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v326) S512x512.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v329) S512x512.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v332) S1x512.size cc22_transform_4 reads22_4 false true 1 stage22_4 sem22_4
    hrank22 hreads22_4 hinb22_4 nbuf22_4 (Memref.isWhole_whole _) hwx22_4 hstage22_4

abbrev win22_5 : Pipeline.Window sig grid22 :=
  Pipeline.Window.ofSpec (Memref.whole main_v335) S1x512.size cc22_transform_5 reads22_5 false true 1 stage22_5 sem22_5
    hrank22 hreads22_5 hinb22_5 nbuf22_5 (Memref.isWhole_whole _) hwx22_5 hstage22_5

abbrev win22_6 : Pipeline.Window sig grid22 :=
  Pipeline.Window.ofSpec (Memref.whole main_v336) S2048x1024.size cc22_transform_6 reads22_6 true false 2 stage22_6 sem22_6
    hrank22 hreads22_6 hinb22_6 nbuf22_6 (Memref.isWhole_whole _) hwx22_6 hstage22_6

abbrev win22 : Fin 7 → Pipeline.Window sig grid22 := fun | 0 => win22_0 | 1 => win22_1 | 2 => win22_2 | 3 => win22_3 | 4 => win22_4 | 5 => win22_5 | 6 => win22_6 | ⟨_ + 7, h⟩ => absurd h (Nat.not_lt.2 (Nat.le_add_left _ _))
abbrev spec22 : Fin 7 → Pipeline.WinSpec sig grid22.rank := fun w => (win22 w).toWinSpec

abbrev win23_0 : Pipeline.Window sig grid23 :=
  Pipeline.Window.ofSpec (Memref.whole main_v340) S2048x512.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v339) S2048x512.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_v343) S512x512.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v346) S512x512.size cc23_transform_3 reads23_3 false true 1 stage23_3 sem23_3
    hrank23 hreads23_3 hinb23_3 nbuf23_3 (Memref.isWhole_whole _) hwx23_3 hstage23_3

abbrev win23_4 : Pipeline.Window sig grid23 :=
  Pipeline.Window.ofSpec (Memref.whole main_v349) S1x512.size cc23_transform_4 reads23_4 false true 1 stage23_4 sem23_4
    hrank23 hreads23_4 hinb23_4 nbuf23_4 (Memref.isWhole_whole _) hwx23_4 hstage23_4

abbrev win23_5 : Pipeline.Window sig grid23 :=
  Pipeline.Window.ofSpec (Memref.whole main_v352) S1x512.size cc23_transform_5 reads23_5 false true 1 stage23_5 sem23_5
    hrank23 hreads23_5 hinb23_5 nbuf23_5 (Memref.isWhole_whole _) hwx23_5 hstage23_5

abbrev win23_6 : Pipeline.Window sig grid23 :=
  Pipeline.Window.ofSpec (Memref.whole main_v353) S2048x1024.size cc23_transform_6 reads23_6 true false 2 stage23_6 sem23_6
    hrank23 hreads23_6 hinb23_6 nbuf23_6 (Memref.isWhole_whole _) hwx23_6 hstage23_6

abbrev win23 : Fin 7 → Pipeline.Window sig grid23 := fun | 0 => win23_0 | 1 => win23_1 | 2 => win23_2 | 3 => win23_3 | 4 => win23_4 | 5 => win23_5 | 6 => win23_6 | ⟨_ + 7, h⟩ => absurd h (Nat.not_lt.2 (Nat.le_add_left _ _))
abbrev spec23 : Fin 7 → Pipeline.WinSpec sig grid23.rank := fun w => (win23 w).toWinSpec

abbrev win24_0 : Pipeline.Window sig grid24 :=
  Pipeline.Window.ofSpec (Memref.whole main_v355) S2048x512.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v356) S2048x512.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_v357) S512x512.size cc24_transform_2 reads24_2 false true 1 stage24_2 sem24_2
    hrank24 hreads24_2 hinb24_2 nbuf24_2 (Memref.isWhole_whole _) hwx24_2 hstage24_2

abbrev win24_3 : Pipeline.Window sig grid24 :=
  Pipeline.Window.ofSpec (Memref.whole main_v358) S512x512.size cc24_transform_3 reads24_3 false true 1 stage24_3 sem24_3
    hrank24 hreads24_3 hinb24_3 nbuf24_3 (Memref.isWhole_whole _) hwx24_3 hstage24_3

abbrev win24_4 : Pipeline.Window sig grid24 :=
  Pipeline.Window.ofSpec (Memref.whole main_v359) S1x512.size cc24_transform_4 reads24_4 false true 1 stage24_4 sem24_4
    hrank24 hreads24_4 hinb24_4 nbuf24_4 (Memref.isWhole_whole _) hwx24_4 hstage24_4

abbrev win24_5 : Pipeline.Window sig grid24 :=
  Pipeline.Window.ofSpec (Memref.whole main_v360) S1x512.size cc24_transform_5 reads24_5 false true 1 stage24_5 sem24_5
    hrank24 hreads24_5 hinb24_5 nbuf24_5 (Memref.isWhole_whole _) hwx24_5 hstage24_5

abbrev win24_6 : Pipeline.Window sig grid24 :=
  Pipeline.Window.ofSpec (Memref.whole main_v361) S2048x512.size cc24_transform_6 reads24_6 true false 2 stage24_6 sem24_6
    hrank24 hreads24_6 hinb24_6 nbuf24_6 (Memref.isWhole_whole _) hwx24_6 hstage24_6

abbrev win24 : Fin 7 → Pipeline.Window sig grid24 := fun | 0 => win24_0 | 1 => win24_1 | 2 => win24_2 | 3 => win24_3 | 4 => win24_4 | 5 => win24_5 | 6 => win24_6 | ⟨_ + 7, h⟩ => absurd h (Nat.not_lt.2 (Nat.le_add_left _ _))
abbrev spec24 : Fin 7 → Pipeline.WinSpec sig grid24.rank := fun w => (win24 w).toWinSpec

class Facts : Prop extends Facts₀ where

variable [Facts]
-- ==== ReferenceIdeal.lean ====
abbrev S16x4096x512 : Shape := ⟨3, ![16, 4096, 512]⟩
abbrev S12x512x1024 : Shape := ⟨3, ![12, 512, 1024]⟩
abbrev S12x512 : Shape := ⟨2, ![12, 512]⟩
abbrev S512x1024 : Shape := ⟨2, ![512, 1024]⟩
abbrev S512 : Shape := ⟨1, ![512]⟩
abbrev S16x2048x1024 : Shape := ⟨3, ![16, 2048, 1024]⟩
abbrev S1x512x1024 : Shape := ⟨3, ![1, 512, 1024]⟩
abbrev S16x2048x512 : Shape := ⟨3, ![16, 2048, 512]⟩
abbrev S1x512 : Shape := ⟨2, ![1, 512]⟩
abbrev S1x1x512 : Shape := ⟨3, ![1, 1, 512]⟩
abbrev S_ : Shape := ⟨0, ![]⟩
abbrev S16x2048 : Shape := ⟨2, ![16, 2048]⟩
abbrev S16x2048x1 : Shape := ⟨3, ![16, 2048, 1]⟩
abbrev S16x1024x1024 : Shape := ⟨3, ![16, 1024, 1024]⟩
abbrev S16x1024x512 : Shape := ⟨3, ![16, 1024, 512]⟩
abbrev S16x1024 : Shape := ⟨2, ![16, 1024]⟩
abbrev S16x1024x1 : Shape := ⟨3, ![16, 1024, 1]⟩
abbrev S16x512x1024 : Shape := ⟨3, ![16, 512, 1024]⟩
abbrev S16x512x512 : Shape := ⟨3, ![16, 512, 512]⟩
abbrev S16x512 : Shape := ⟨2, ![16, 512]⟩
abbrev S16x512x1 : Shape := ⟨3, ![16, 512, 1]⟩
abbrev S16x256x1024 : Shape := ⟨3, ![16, 256, 1024]⟩
abbrev S16x256x512 : Shape := ⟨3, ![16, 256, 512]⟩
abbrev S16x256 : Shape := ⟨2, ![16, 256]⟩
abbrev S16x256x1 : Shape := ⟨3, ![16, 256, 1]⟩
abbrev S16x128x1024 : Shape := ⟨3, ![16, 128, 1024]⟩
abbrev S16x128x512 : Shape := ⟨3, ![16, 128, 512]⟩
abbrev S16x128 : Shape := ⟨2, ![16, 128]⟩
abbrev S16x128x1 : Shape := ⟨3, ![16, 128, 1]⟩
abbrev S16x64x1024 : Shape := ⟨3, ![16, 64, 1024]⟩
abbrev S16x64x512 : Shape := ⟨3, ![16, 64, 512]⟩
abbrev S16x64 : Shape := ⟨2, ![16, 64]⟩
abbrev S16x64x1 : Shape := ⟨3, ![16, 64, 1]⟩
abbrev S16x32x1024 : Shape := ⟨3, ![16, 32, 1024]⟩
abbrev S16x32x512 : Shape := ⟨3, ![16, 32, 512]⟩
abbrev S16x32 : Shape := ⟨2, ![16, 32]⟩
abbrev S16x32x1 : Shape := ⟨3, ![16, 32, 1]⟩
abbrev S16x16x1024 : Shape := ⟨3, ![16, 16, 1024]⟩
abbrev S16x16x512 : Shape := ⟨3, ![16, 16, 512]⟩
abbrev S16x16 : Shape := ⟨2, ![16, 16]⟩
abbrev S16x16x1 : Shape := ⟨3, ![16, 16, 1]⟩
abbrev S16x8x1024 : Shape := ⟨3, ![16, 8, 1024]⟩
abbrev S16x8x512 : Shape := ⟨3, ![16, 8, 512]⟩
abbrev S16x8 : Shape := ⟨2, ![16, 8]⟩
abbrev S16x8x1 : Shape := ⟨3, ![16, 8, 1]⟩
abbrev S16x4x1024 : Shape := ⟨3, ![16, 4, 1024]⟩
abbrev S16x4x512 : Shape := ⟨3, ![16, 4, 512]⟩
abbrev S16x4 : Shape := ⟨2, ![16, 4]⟩
abbrev S16x4x1 : Shape := ⟨3, ![16, 4, 1]⟩
abbrev S16x2x1024 : Shape := ⟨3, ![16, 2, 1024]⟩
abbrev S16x2x512 : Shape := ⟨3, ![16, 2, 512]⟩
abbrev S16x2 : Shape := ⟨2, ![16, 2]⟩
abbrev S16x2x1 : Shape := ⟨3, ![16, 2, 1]⟩
abbrev S16x1x1024 : Shape := ⟨3, ![16, 1, 1024]⟩
abbrev S16x1x512 : Shape := ⟨3, ![16, 1, 512]⟩
abbrev S16x1 : Shape := ⟨2, ![16, 1]⟩
abbrev S16x1x1 : Shape := ⟨3, ![16, 1, 1]⟩
abbrev S16x1x2x512 : Shape := ⟨4, ![16, 1, 2, 512]⟩
abbrev S16x1x1x512 : Shape := ⟨4, ![16, 1, 1, 512]⟩
abbrev S16x2x2x512 : Shape := ⟨4, ![16, 2, 2, 512]⟩
abbrev S16x2x1x512 : Shape := ⟨4, ![16, 2, 1, 512]⟩
abbrev S16x4x2x512 : Shape := ⟨4, ![16, 4, 2, 512]⟩
abbrev S16x4x1x512 : Shape := ⟨4, ![16, 4, 1, 512]⟩
abbrev S16x8x2x512 : Shape := ⟨4, ![16, 8, 2, 512]⟩
abbrev S16x8x1x512 : Shape := ⟨4, ![16, 8, 1, 512]⟩
abbrev S16x16x2x512 : Shape := ⟨4, ![16, 16, 2, 512]⟩
abbrev S16x16x1x512 : Shape := ⟨4, ![16, 16, 1, 512]⟩
abbrev S16x32x2x512 : Shape := ⟨4, ![16, 32, 2, 512]⟩
abbrev S16x32x1x512 : Shape := ⟨4, ![16, 32, 1, 512]⟩
abbrev S16x64x2x512 : Shape := ⟨4, ![16, 64, 2, 512]⟩
abbrev S16x64x1x512 : Shape := ⟨4, ![16, 64, 1, 512]⟩
abbrev S16x128x2x512 : Shape := ⟨4, ![16, 128, 2, 512]⟩
abbrev S16x128x1x512 : Shape := ⟨4, ![16, 128, 1, 512]⟩
abbrev S16x256x2x512 : Shape := ⟨4, ![16, 256, 2, 512]⟩
abbrev S16x256x1x512 : Shape := ⟨4, ![16, 256, 1, 512]⟩
abbrev S16x512x2x512 : Shape := ⟨4, ![16, 512, 2, 512]⟩
abbrev S16x512x1x512 : Shape := ⟨4, ![16, 512, 1, 512]⟩
abbrev S16x1024x2x512 : Shape := ⟨4, ![16, 1024, 2, 512]⟩
abbrev S16x1024x1x512 : Shape := ⟨4, ![16, 1024, 1, 512]⟩
abbrev S16x2048x2x512 : Shape := ⟨4, ![16, 2048, 2, 512]⟩
abbrev S16x2048x1x512 : Shape := ⟨4, ![16, 2048, 1, 512]⟩
abbrev S16x4096x1024 : Shape := ⟨3, ![16, 4096, 1024]⟩
abbrev S16x4096 : Shape := ⟨2, ![16, 4096]⟩
abbrev S16x4096x1 : Shape := ⟨3, ![16, 4096, 1]⟩

abbrev nBuf : Space → Nat
  | .hbm => 665
  | .vmem => 0
  | .smem => 0
  | _ => 0

abbrev hbmTy0_0 (i : Nat) : BufTy := match i % 128 with
  | 0 => ⟨S16x4096x512, .f32⟩
  | 1 => ⟨S12x512x1024, .f32⟩
  | 2 => ⟨S12x512, .f32⟩
  | 3 => ⟨S12x512, .f32⟩
  | 4 => ⟨S12x512x1024, .f32⟩
  | 5 => ⟨S12x512, .f32⟩
  | 6 => ⟨S12x512, .f32⟩
  | 7 => ⟨S512x1024, .f32⟩
  | 8 => ⟨S512, .f32⟩
  | 9 => ⟨S512, .f32⟩
  | 10 => ⟨S16x2048x1024, .f32⟩
  | 11 => ⟨S1x512x1024, .f32⟩
  | 12 => ⟨S512x1024, .f32⟩
  | 13 => ⟨S16x2048x512, .f32⟩
  | 14 => ⟨S1x512, .f32⟩
  | 15 => ⟨S512, .f32⟩
  | 16 => ⟨S1x1x512, .f32⟩
  | 17 => ⟨S16x2048x512, .f32⟩
  | 18 => ⟨S16x2048x512, .f32⟩
  | 19 => ⟨S1x512, .f32⟩
  | 20 => ⟨S512, .f32⟩
  | 21 => ⟨S1x1x512, .f32⟩
  | 22 => ⟨S16x2048x512, .f32⟩
  | 23 => ⟨S16x2048x512, .i1⟩
  | 24 => ⟨S16x2048x512, .f32⟩
  | 25 => ⟨S_, .f32⟩
  | 26 => ⟨S16x2048, .f32⟩
  | 27 => ⟨S16x2048x1, .f32⟩
  | 28 => ⟨S_, .f32⟩
  | 29 => ⟨S16x2048x1, .f32⟩
  | 30 => ⟨S16x2048x1, .f32⟩
  | 31 => ⟨S16x2048x512, .f32⟩
  | 32 => ⟨S16x2048x512, .f32⟩
  | 33 => ⟨S16x1024x1024, .f32⟩
  | 34 => ⟨S1x512x1024, .f32⟩
  | 35 => ⟨S512x1024, .f32⟩
  | 36 => ⟨S16x1024x512, .f32⟩
  | 37 => ⟨S1x512, .f32⟩
  | 38 => ⟨S512, .f32⟩
  | 39 => ⟨S1x1x512, .f32⟩
  | 40 => ⟨S16x1024x512, .f32⟩
  | 41 => ⟨S16x1024x512, .f32⟩
  | 42 => ⟨S1x512, .f32⟩
  | 43 => ⟨S512, .f32⟩
  | 44 => ⟨S1x1x512, .f32⟩
  | 45 => ⟨S16x1024x512, .f32⟩
  | 46 => ⟨S16x1024x512, .i1⟩
  | 47 => ⟨S16x1024x512, .f32⟩
  | 48 => ⟨S_, .f32⟩
  | 49 => ⟨S16x1024, .f32⟩
  | 50 => ⟨S16x1024x1, .f32⟩
  | 51 => ⟨S_, .f32⟩
  | 52 => ⟨S16x1024x1, .f32⟩
  | 53 => ⟨S16x1024x1, .f32⟩
  | 54 => ⟨S16x1024x512, .f32⟩
  | 55 => ⟨S16x1024x512, .f32⟩
  | 56 => ⟨S16x512x1024, .f32⟩
  | 57 => ⟨S1x512x1024, .f32⟩
  | 58 => ⟨S512x1024, .f32⟩
  | 59 => ⟨S16x512x512, .f32⟩
  | 60 => ⟨S1x512, .f32⟩
  | 61 => ⟨S512, .f32⟩
  | 62 => ⟨S1x1x512, .f32⟩
  | 63 => ⟨S16x512x512, .f32⟩
  | 64 => ⟨S16x512x512, .f32⟩
  | 65 => ⟨S1x512, .f32⟩
  | 66 => ⟨S512, .f32⟩
  | 67 => ⟨S1x1x512, .f32⟩
  | 68 => ⟨S16x512x512, .f32⟩
  | 69 => ⟨S16x512x512, .i1⟩
  | 70 => ⟨S16x512x512, .f32⟩
  | 71 => ⟨S_, .f32⟩
  | 72 => ⟨S16x512, .f32⟩
  | 73 => ⟨S16x512x1, .f32⟩
  | 74 => ⟨S_, .f32⟩
  | 75 => ⟨S16x512x1, .f32⟩
  | 76 => ⟨S16x512x1, .f32⟩
  | 77 => ⟨S16x512x512, .f32⟩
  | 78 => ⟨S16x512x512, .f32⟩
  | 79 => ⟨S16x256x1024, .f32⟩
  | 80 => ⟨S1x512x1024, .f32⟩
  | 81 => ⟨S512x1024, .f32⟩
  | 82 => ⟨S16x256x512, .f32⟩
  | 83 => ⟨S1x512, .f32⟩
  | 84 => ⟨S512, .f32⟩
  | 85 => ⟨S1x1x512, .f32⟩
  | 86 => ⟨S16x256x512, .f32⟩
  | 87 => ⟨S16x256x512, .f32⟩
  | 88 => ⟨S1x512, .f32⟩
  | 89 => ⟨S512, .f32⟩
  | 90 => ⟨S1x1x512, .f32⟩
  | 91 => ⟨S16x256x512, .f32⟩
  | 92 => ⟨S16x256x512, .i1⟩
  | 93 => ⟨S16x256x512, .f32⟩
  | 94 => ⟨S_, .f32⟩
  | 95 => ⟨S16x256, .f32⟩
  | 96 => ⟨S16x256x1, .f32⟩
  | 97 => ⟨S_, .f32⟩
  | 98 => ⟨S16x256x1, .f32⟩
  | 99 => ⟨S16x256x1, .f32⟩
  | 100 => ⟨S16x256x512, .f32⟩
  | 101 => ⟨S16x256x512, .f32⟩
  | 102 => ⟨S16x128x1024, .f32⟩
  | 103 => ⟨S1x512x1024, .f32⟩
  | 104 => ⟨S512x1024, .f32⟩
  | 105 => ⟨S16x128x512, .f32⟩
  | 106 => ⟨S1x512, .f32⟩
  | 107 => ⟨S512, .f32⟩
  | 108 => ⟨S1x1x512, .f32⟩
  | 109 => ⟨S16x128x512, .f32⟩
  | 110 => ⟨S16x128x512, .f32⟩
  | 111 => ⟨S1x512, .f32⟩
  | 112 => ⟨S512, .f32⟩
  | 113 => ⟨S1x1x512, .f32⟩
  | 114 => ⟨S16x128x512, .f32⟩
  | 115 => ⟨S16x128x512, .i1⟩
  | 116 => ⟨S16x128x512, .f32⟩
  | 117 => ⟨S_, .f32⟩
  | 118 => ⟨S16x128, .f32⟩
  | 119 => ⟨S16x128x1, .f32⟩
  | 120 => ⟨S_, .f32⟩
  | 121 => ⟨S16x128x1, .f32⟩
  | 122 => ⟨S16x128x1, .f32⟩
  | 123 => ⟨S16x128x512, .f32⟩
  | 124 => ⟨S16x128x512, .f32⟩
  | 125 => ⟨S16x64x1024, .f32⟩
  | 126 => ⟨S1x512x1024, .f32⟩
  | 127 => ⟨S512x1024, .f32⟩
  | _ => ⟨S16x4096x512, .f32⟩

abbrev hbmTy0_1 (i : Nat) : BufTy := match i % 128 with
  | 0 => ⟨S16x64x512, .f32⟩
  | 1 => ⟨S1x512, .f32⟩
  | 2 => ⟨S512, .f32⟩
  | 3 => ⟨S1x1x512, .f32⟩
  | 4 => ⟨S16x64x512, .f32⟩
  | 5 => ⟨S16x64x512, .f32⟩
  | 6 => ⟨S1x512, .f32⟩
  | 7 => ⟨S512, .f32⟩
  | 8 => ⟨S1x1x512, .f32⟩
  | 9 => ⟨S16x64x512, .f32⟩
  | 10 => ⟨S16x64x512, .i1⟩
  | 11 => ⟨S16x64x512, .f32⟩
  | 12 => ⟨S_, .f32⟩
  | 13 => ⟨S16x64, .f32⟩
  | 14 => ⟨S16x64x1, .f32⟩
  | 15 => ⟨S_, .f32⟩
  | 16 => ⟨S16x64x1, .f32⟩
  | 17 => ⟨S16x64x1, .f32⟩
  | 18 => ⟨S16x64x512, .f32⟩
  | 19 => ⟨S16x64x512, .f32⟩
  | 20 => ⟨S16x32x1024, .f32⟩
  | 21 => ⟨S1x512x1024, .f32⟩
  | 22 => ⟨S512x1024, .f32⟩
  | 23 => ⟨S16x32x512, .f32⟩
  | 24 => ⟨S1x512, .f32⟩
  | 25 => ⟨S512, .f32⟩
  | 26 => ⟨S1x1x512, .f32⟩
  | 27 => ⟨S16x32x512, .f32⟩
  | 28 => ⟨S16x32x512, .f32⟩
  | 29 => ⟨S1x512, .f32⟩
  | 30 => ⟨S512, .f32⟩
  | 31 => ⟨S1x1x512, .f32⟩
  | 32 => ⟨S16x32x512, .f32⟩
  | 33 => ⟨S16x32x512, .i1⟩
  | 34 => ⟨S16x32x512, .f32⟩
  | 35 => ⟨S_, .f32⟩
  | 36 => ⟨S16x32, .f32⟩
  | 37 => ⟨S16x32x1, .f32⟩
  | 38 => ⟨S_, .f32⟩
  | 39 => ⟨S16x32x1, .f32⟩
  | 40 => ⟨S16x32x1, .f32⟩
  | 41 => ⟨S16x32x512, .f32⟩
  | 42 => ⟨S16x32x512, .f32⟩
  | 43 => ⟨S16x16x1024, .f32⟩
  | 44 => ⟨S1x512x1024, .f32⟩
  | 45 => ⟨S512x1024, .f32⟩
  | 46 => ⟨S16x16x512, .f32⟩
  | 47 => ⟨S1x512, .f32⟩
  | 48 => ⟨S512, .f32⟩
  | 49 => ⟨S1x1x512, .f32⟩
  | 50 => ⟨S16x16x512, .f32⟩
  | 51 => ⟨S16x16x512, .f32⟩
  | 52 => ⟨S1x512, .f32⟩
  | 53 => ⟨S512, .f32⟩
  | 54 => ⟨S1x1x512, .f32⟩
  | 55 => ⟨S16x16x512, .f32⟩
  | 56 => ⟨S16x16x512, .i1⟩
  | 57 => ⟨S16x16x512, .f32⟩
  | 58 => ⟨S_, .f32⟩
  | 59 => ⟨S16x16, .f32⟩
  | 60 => ⟨S16x16x1, .f32⟩
  | 61 => ⟨S_, .f32⟩
  | 62 => ⟨S16x16x1, .f32⟩
  | 63 => ⟨S16x16x1, .f32⟩
  | 64 => ⟨S16x16x512, .f32⟩
  | 65 => ⟨S16x16x512, .f32⟩
  | 66 => ⟨S16x8x1024, .f32⟩
  | 67 => ⟨S1x512x1024, .f32⟩
  | 68 => ⟨S512x1024, .f32⟩
  | 69 => ⟨S16x8x512, .f32⟩
  | 70 => ⟨S1x512, .f32⟩
  | 71 => ⟨S512, .f32⟩
  | 72 => ⟨S1x1x512, .f32⟩
  | 73 => ⟨S16x8x512, .f32⟩
  | 74 => ⟨S16x8x512, .f32⟩
  | 75 => ⟨S1x512, .f32⟩
  | 76 => ⟨S512, .f32⟩
  | 77 => ⟨S1x1x512, .f32⟩
  | 78 => ⟨S16x8x512, .f32⟩
  | 79 => ⟨S16x8x512, .i1⟩
  | 80 => ⟨S16x8x512, .f32⟩
  | 81 => ⟨S_, .f32⟩
  | 82 => ⟨S16x8, .f32⟩
  | 83 => ⟨S16x8x1, .f32⟩
  | 84 => ⟨S_, .f32⟩
  | 85 => ⟨S16x8x1, .f32⟩
  | 86 => ⟨S16x8x1, .f32⟩
  | 87 => ⟨S16x8x512, .f32⟩
  | 88 => ⟨S16x8x512, .f32⟩
  | 89 => ⟨S16x4x1024, .f32⟩
  | 90 => ⟨S1x512x1024, .f32⟩
  | 91 => ⟨S512x1024, .f32⟩
  | 92 => ⟨S16x4x512, .f32⟩
  | 93 => ⟨S1x512, .f32⟩
  | 94 => ⟨S512, .f32⟩
  | 95 => ⟨S1x1x512, .f32⟩
  | 96 => ⟨S16x4x512, .f32⟩
  | 97 => ⟨S16x4x512, .f32⟩
  | 98 => ⟨S1x512, .f32⟩
  | 99 => ⟨S512, .f32⟩
  | 100 => ⟨S1x1x512, .f32⟩
  | 101 => ⟨S16x4x512, .f32⟩
  | 102 => ⟨S16x4x512, .i1⟩
  | 103 => ⟨S16x4x512, .f32⟩
  | 104 => ⟨S_, .f32⟩
  | 105 => ⟨S16x4, .f32⟩
  | 106 => ⟨S16x4x1, .f32⟩
  | 107 => ⟨S_, .f32⟩
  | 108 => ⟨S16x4x1, .f32⟩
  | 109 => ⟨S16x4x1, .f32⟩
  | 110 => ⟨S16x4x512, .f32⟩
  | 111 => ⟨S16x4x512, .f32⟩
  | 112 => ⟨S16x2x1024, .f32⟩
  | 113 => ⟨S1x512x1024, .f32⟩
  | 114 => ⟨S512x1024, .f32⟩
  | 115 => ⟨S16x2x512, .f32⟩
  | 116 => ⟨S1x512, .f32⟩
  | 117 => ⟨S512, .f32⟩
  | 118 => ⟨S1x1x512, .f32⟩
  | 119 => ⟨S16x2x512, .f32⟩
  | 120 => ⟨S16x2x512, .f32⟩
  | 121 => ⟨S1x512, .f32⟩
  | 122 => ⟨S512, .f32⟩
  | 123 => ⟨S1x1x512, .f32⟩
  | 124 => ⟨S16x2x512, .f32⟩
  | 125 => ⟨S16x2x512, .i1⟩
  | 126 => ⟨S16x2x512, .f32⟩
  | 127 => ⟨S_, .f32⟩
  | _ => ⟨S16x4096x512, .f32⟩

abbrev hbmTy0_2 (i : Nat) : BufTy := match i % 128 with
  | 0 => ⟨S16x2, .f32⟩
  | 1 => ⟨S16x2x1, .f32⟩
  | 2 => ⟨S_, .f32⟩
  | 3 => ⟨S16x2x1, .f32⟩
  | 4 => ⟨S16x2x1, .f32⟩
  | 5 => ⟨S16x2x512, .f32⟩
  | 6 => ⟨S16x2x512, .f32⟩
  | 7 => ⟨S16x1x1024, .f32⟩
  | 8 => ⟨S1x512x1024, .f32⟩
  | 9 => ⟨S512x1024, .f32⟩
  | 10 => ⟨S16x1x512, .f32⟩
  | 11 => ⟨S1x512, .f32⟩
  | 12 => ⟨S512, .f32⟩
  | 13 => ⟨S1x1x512, .f32⟩
  | 14 => ⟨S16x1x512, .f32⟩
  | 15 => ⟨S16x1x512, .f32⟩
  | 16 => ⟨S1x512, .f32⟩
  | 17 => ⟨S512, .f32⟩
  | 18 => ⟨S1x1x512, .f32⟩
  | 19 => ⟨S16x1x512, .f32⟩
  | 20 => ⟨S16x1x512, .i1⟩
  | 21 => ⟨S16x1x512, .f32⟩
  | 22 => ⟨S_, .f32⟩
  | 23 => ⟨S16x1, .f32⟩
  | 24 => ⟨S16x1x1, .f32⟩
  | 25 => ⟨S_, .f32⟩
  | 26 => ⟨S16x1x1, .f32⟩
  | 27 => ⟨S16x1x1, .f32⟩
  | 28 => ⟨S16x1x512, .f32⟩
  | 29 => ⟨S16x1x512, .f32⟩
  | 30 => ⟨S_, .f32⟩
  | 31 => ⟨S16x1x512, .f32⟩
  | 32 => ⟨S16x1x2x512, .f32⟩
  | 33 => ⟨S16x1x1x512, .f32⟩
  | 34 => ⟨S16x1x512, .f32⟩
  | 35 => ⟨S16x1x1024, .f32⟩
  | 36 => ⟨S1x512x1024, .f32⟩
  | 37 => ⟨S512x1024, .f32⟩
  | 38 => ⟨S16x1x512, .f32⟩
  | 39 => ⟨S1x512, .f32⟩
  | 40 => ⟨S512, .f32⟩
  | 41 => ⟨S1x1x512, .f32⟩
  | 42 => ⟨S16x1x512, .f32⟩
  | 43 => ⟨S16x1x512, .f32⟩
  | 44 => ⟨S1x512, .f32⟩
  | 45 => ⟨S512, .f32⟩
  | 46 => ⟨S1x1x512, .f32⟩
  | 47 => ⟨S16x1x512, .f32⟩
  | 48 => ⟨S16x1x512, .i1⟩
  | 49 => ⟨S16x1x512, .f32⟩
  | 50 => ⟨S_, .f32⟩
  | 51 => ⟨S16x1, .f32⟩
  | 52 => ⟨S16x1x1, .f32⟩
  | 53 => ⟨S_, .f32⟩
  | 54 => ⟨S16x1x1, .f32⟩
  | 55 => ⟨S16x1x1, .f32⟩
  | 56 => ⟨S16x1x512, .f32⟩
  | 57 => ⟨S16x1x512, .f32⟩
  | 58 => ⟨S16x1x1x512, .f32⟩
  | 59 => ⟨S16x1x1x512, .f32⟩
  | 60 => ⟨S16x1x2x512, .f32⟩
  | 61 => ⟨S16x2x512, .f32⟩
  | 62 => ⟨S16x2x2x512, .f32⟩
  | 63 => ⟨S16x2x1x512, .f32⟩
  | 64 => ⟨S16x2x512, .f32⟩
  | 65 => ⟨S16x2x1024, .f32⟩
  | 66 => ⟨S1x512x1024, .f32⟩
  | 67 => ⟨S512x1024, .f32⟩
  | 68 => ⟨S16x2x512, .f32⟩
  | 69 => ⟨S1x512, .f32⟩
  | 70 => ⟨S512, .f32⟩
  | 71 => ⟨S1x1x512, .f32⟩
  | 72 => ⟨S16x2x512, .f32⟩
  | 73 => ⟨S16x2x512, .f32⟩
  | 74 => ⟨S1x512, .f32⟩
  | 75 => ⟨S512, .f32⟩
  | 76 => ⟨S1x1x512, .f32⟩
  | 77 => ⟨S16x2x512, .f32⟩
  | 78 => ⟨S16x2x512, .i1⟩
  | 79 => ⟨S16x2x512, .f32⟩
  | 80 => ⟨S_, .f32⟩
  | 81 => ⟨S16x2, .f32⟩
  | 82 => ⟨S16x2x1, .f32⟩
  | 83 => ⟨S_, .f32⟩
  | 84 => ⟨S16x2x1, .f32⟩
  | 85 => ⟨S16x2x1, .f32⟩
  | 86 => ⟨S16x2x512, .f32⟩
  | 87 => ⟨S16x2x512, .f32⟩
  | 88 => ⟨S16x2x1x512, .f32⟩
  | 89 => ⟨S16x2x1x512, .f32⟩
  | 90 => ⟨S16x2x2x512, .f32⟩
  | 91 => ⟨S16x4x512, .f32⟩
  | 92 => ⟨S16x4x2x512, .f32⟩
  | 93 => ⟨S16x4x1x512, .f32⟩
  | 94 => ⟨S16x4x512, .f32⟩
  | 95 => ⟨S16x4x1024, .f32⟩
  | 96 => ⟨S1x512x1024, .f32⟩
  | 97 => ⟨S512x1024, .f32⟩
  | 98 => ⟨S16x4x512, .f32⟩
  | 99 => ⟨S1x512, .f32⟩
  | 100 => ⟨S512, .f32⟩
  | 101 => ⟨S1x1x512, .f32⟩
  | 102 => ⟨S16x4x512, .f32⟩
  | 103 => ⟨S16x4x512, .f32⟩
  | 104 => ⟨S1x512, .f32⟩
  | 105 => ⟨S512, .f32⟩
  | 106 => ⟨S1x1x512, .f32⟩
  | 107 => ⟨S16x4x512, .f32⟩
  | 108 => ⟨S16x4x512, .i1⟩
  | 109 => ⟨S16x4x512, .f32⟩
  | 110 => ⟨S_, .f32⟩
  | 111 => ⟨S16x4, .f32⟩
  | 112 => ⟨S16x4x1, .f32⟩
  | 113 => ⟨S_, .f32⟩
  | 114 => ⟨S16x4x1, .f32⟩
  | 115 => ⟨S16x4x1, .f32⟩
  | 116 => ⟨S16x4x512, .f32⟩
  | 117 => ⟨S16x4x512, .f32⟩
  | 118 => ⟨S16x4x1x512, .f32⟩
  | 119 => ⟨S16x4x1x512, .f32⟩
  | 120 => ⟨S16x4x2x512, .f32⟩
  | 121 => ⟨S16x8x512, .f32⟩
  | 122 => ⟨S16x8x2x512, .f32⟩
  | 123 => ⟨S16x8x1x512, .f32⟩
  | 124 => ⟨S16x8x512, .f32⟩
  | 125 => ⟨S16x8x1024, .f32⟩
  | 126 => ⟨S1x512x1024, .f32⟩
  | 127 => ⟨S512x1024, .f32⟩
  | _ => ⟨S16x4096x512, .f32⟩

abbrev hbmTy0_3 (i : Nat) : BufTy := match i % 128 with
  | 0 => ⟨S16x8x512, .f32⟩
  | 1 => ⟨S1x512, .f32⟩
  | 2 => ⟨S512, .f32⟩
  | 3 => ⟨S1x1x512, .f32⟩
  | 4 => ⟨S16x8x512, .f32⟩
  | 5 => ⟨S16x8x512, .f32⟩
  | 6 => ⟨S1x512, .f32⟩
  | 7 => ⟨S512, .f32⟩
  | 8 => ⟨S1x1x512, .f32⟩
  | 9 => ⟨S16x8x512, .f32⟩
  | 10 => ⟨S16x8x512, .i1⟩
  | 11 => ⟨S16x8x512, .f32⟩
  | 12 => ⟨S_, .f32⟩
  | 13 => ⟨S16x8, .f32⟩
  | 14 => ⟨S16x8x1, .f32⟩
  | 15 => ⟨S_, .f32⟩
  | 16 => ⟨S16x8x1, .f32⟩
  | 17 => ⟨S16x8x1, .f32⟩
  | 18 => ⟨S16x8x512, .f32⟩
  | 19 => ⟨S16x8x512, .f32⟩
  | 20 => ⟨S16x8x1x512, .f32⟩
  | 21 => ⟨S16x8x1x512, .f32⟩
  | 22 => ⟨S16x8x2x512, .f32⟩
  | 23 => ⟨S16x16x512, .f32⟩
  | 24 => ⟨S16x16x2x512, .f32⟩
  | 25 => ⟨S16x16x1x512, .f32⟩
  | 26 => ⟨S16x16x512, .f32⟩
  | 27 => ⟨S16x16x1024, .f32⟩
  | 28 => ⟨S1x512x1024, .f32⟩
  | 29 => ⟨S512x1024, .f32⟩
  | 30 => ⟨S16x16x512, .f32⟩
  | 31 => ⟨S1x512, .f32⟩
  | 32 => ⟨S512, .f32⟩
  | 33 => ⟨S1x1x512, .f32⟩
  | 34 => ⟨S16x16x512, .f32⟩
  | 35 => ⟨S16x16x512, .f32⟩
  | 36 => ⟨S1x512, .f32⟩
  | 37 => ⟨S512, .f32⟩
  | 38 => ⟨S1x1x512, .f32⟩
  | 39 => ⟨S16x16x512, .f32⟩
  | 40 => ⟨S16x16x512, .i1⟩
  | 41 => ⟨S16x16x512, .f32⟩
  | 42 => ⟨S_, .f32⟩
  | 43 => ⟨S16x16, .f32⟩
  | 44 => ⟨S16x16x1, .f32⟩
  | 45 => ⟨S_, .f32⟩
  | 46 => ⟨S16x16x1, .f32⟩
  | 47 => ⟨S16x16x1, .f32⟩
  | 48 => ⟨S16x16x512, .f32⟩
  | 49 => ⟨S16x16x512, .f32⟩
  | 50 => ⟨S16x16x1x512, .f32⟩
  | 51 => ⟨S16x16x1x512, .f32⟩
  | 52 => ⟨S16x16x2x512, .f32⟩
  | 53 => ⟨S16x32x512, .f32⟩
  | 54 => ⟨S16x32x2x512, .f32⟩
  | 55 => ⟨S16x32x1x512, .f32⟩
  | 56 => ⟨S16x32x512, .f32⟩
  | 57 => ⟨S16x32x1024, .f32⟩
  | 58 => ⟨S1x512x1024, .f32⟩
  | 59 => ⟨S512x1024, .f32⟩
  | 60 => ⟨S16x32x512, .f32⟩
  | 61 => ⟨S1x512, .f32⟩
  | 62 => ⟨S512, .f32⟩
  | 63 => ⟨S1x1x512, .f32⟩
  | 64 => ⟨S16x32x512, .f32⟩
  | 65 => ⟨S16x32x512, .f32⟩
  | 66 => ⟨S1x512, .f32⟩
  | 67 => ⟨S512, .f32⟩
  | 68 => ⟨S1x1x512, .f32⟩
  | 69 => ⟨S16x32x512, .f32⟩
  | 70 => ⟨S16x32x512, .i1⟩
  | 71 => ⟨S16x32x512, .f32⟩
  | 72 => ⟨S_, .f32⟩
  | 73 => ⟨S16x32, .f32⟩
  | 74 => ⟨S16x32x1, .f32⟩
  | 75 => ⟨S_, .f32⟩
  | 76 => ⟨S16x32x1, .f32⟩
  | 77 => ⟨S16x32x1, .f32⟩
  | 78 => ⟨S16x32x512, .f32⟩
  | 79 => ⟨S16x32x512, .f32⟩
  | 80 => ⟨S16x32x1x512, .f32⟩
  | 81 => ⟨S16x32x1x512, .f32⟩
  | 82 => ⟨S16x32x2x512, .f32⟩
  | 83 => ⟨S16x64x512, .f32⟩
  | 84 => ⟨S16x64x2x512, .f32⟩
  | 85 => ⟨S16x64x1x512, .f32⟩
  | 86 => ⟨S16x64x512, .f32⟩
  | 87 => ⟨S16x64x1024, .f32⟩
  | 88 => ⟨S1x512x1024, .f32⟩
  | 89 => ⟨S512x1024, .f32⟩
  | 90 => ⟨S16x64x512, .f32⟩
  | 91 => ⟨S1x512, .f32⟩
  | 92 => ⟨S512, .f32⟩
  | 93 => ⟨S1x1x512, .f32⟩
  | 94 => ⟨S16x64x512, .f32⟩
  | 95 => ⟨S16x64x512, .f32⟩
  | 96 => ⟨S1x512, .f32⟩
  | 97 => ⟨S512, .f32⟩
  | 98 => ⟨S1x1x512, .f32⟩
  | 99 => ⟨S16x64x512, .f32⟩
  | 100 => ⟨S16x64x512, .i1⟩
  | 101 => ⟨S16x64x512, .f32⟩
  | 102 => ⟨S_, .f32⟩
  | 103 => ⟨S16x64, .f32⟩
  | 104 => ⟨S16x64x1, .f32⟩
  | 105 => ⟨S_, .f32⟩
  | 106 => ⟨S16x64x1, .f32⟩
  | 107 => ⟨S16x64x1, .f32⟩
  | 108 => ⟨S16x64x512, .f32⟩
  | 109 => ⟨S16x64x512, .f32⟩
  | 110 => ⟨S16x64x1x512, .f32⟩
  | 111 => ⟨S16x64x1x512, .f32⟩
  | 112 => ⟨S16x64x2x512, .f32⟩
  | 113 => ⟨S16x128x512, .f32⟩
  | 114 => ⟨S16x128x2x512, .f32⟩
  | 115 => ⟨S16x128x1x512, .f32⟩
  | 116 => ⟨S16x128x512, .f32⟩
  | 117 => ⟨S16x128x1024, .f32⟩
  | 118 => ⟨S1x512x1024, .f32⟩
  | 119 => ⟨S512x1024, .f32⟩
  | 120 => ⟨S16x128x512, .f32⟩
  | 121 => ⟨S1x512, .f32⟩
  | 122 => ⟨S512, .f32⟩
  | 123 => ⟨S1x1x512, .f32⟩
  | 124 => ⟨S16x128x512, .f32⟩
  | 125 => ⟨S16x128x512, .f32⟩
  | 126 => ⟨S1x512, .f32⟩
  | 127 => ⟨S512, .f32⟩
  | _ => ⟨S16x4096x512, .f32⟩

abbrev hbmTy0_4 (i : Nat) : BufTy := match i % 128 with
  | 0 => ⟨S1x1x512, .f32⟩
  | 1 => ⟨S16x128x512, .f32⟩
  | 2 => ⟨S16x128x512, .i1⟩
  | 3 => ⟨S16x128x512, .f32⟩
  | 4 => ⟨S_, .f32⟩
  | 5 => ⟨S16x128, .f32⟩
  | 6 => ⟨S16x128x1, .f32⟩
  | 7 => ⟨S_, .f32⟩
  | 8 => ⟨S16x128x1, .f32⟩
  | 9 => ⟨S16x128x1, .f32⟩
  | 10 => ⟨S16x128x512, .f32⟩
  | 11 => ⟨S16x128x512, .f32⟩
  | 12 => ⟨S16x128x1x512, .f32⟩
  | 13 => ⟨S16x128x1x512, .f32⟩
  | 14 => ⟨S16x128x2x512, .f32⟩
  | 15 => ⟨S16x256x512, .f32⟩
  | 16 => ⟨S16x256x2x512, .f32⟩
  | 17 => ⟨S16x256x1x512, .f32⟩
  | 18 => ⟨S16x256x512, .f32⟩
  | 19 => ⟨S16x256x1024, .f32⟩
  | 20 => ⟨S1x512x1024, .f32⟩
  | 21 => ⟨S512x1024, .f32⟩
  | 22 => ⟨S16x256x512, .f32⟩
  | 23 => ⟨S1x512, .f32⟩
  | 24 => ⟨S512, .f32⟩
  | 25 => ⟨S1x1x512, .f32⟩
  | 26 => ⟨S16x256x512, .f32⟩
  | 27 => ⟨S16x256x512, .f32⟩
  | 28 => ⟨S1x512, .f32⟩
  | 29 => ⟨S512, .f32⟩
  | 30 => ⟨S1x1x512, .f32⟩
  | 31 => ⟨S16x256x512, .f32⟩
  | 32 => ⟨S16x256x512, .i1⟩
  | 33 => ⟨S16x256x512, .f32⟩
  | 34 => ⟨S_, .f32⟩
  | 35 => ⟨S16x256, .f32⟩
  | 36 => ⟨S16x256x1, .f32⟩
  | 37 => ⟨S_, .f32⟩
  | 38 => ⟨S16x256x1, .f32⟩
  | 39 => ⟨S16x256x1, .f32⟩
  | 40 => ⟨S16x256x512, .f32⟩
  | 41 => ⟨S16x256x512, .f32⟩
  | 42 => ⟨S16x256x1x512, .f32⟩
  | 43 => ⟨S16x256x1x512, .f32⟩
  | 44 => ⟨S16x256x2x512, .f32⟩
  | 45 => ⟨S16x512x512, .f32⟩
  | 46 => ⟨S16x512x2x512, .f32⟩
  | 47 => ⟨S16x512x1x512, .f32⟩
  | 48 => ⟨S16x512x512, .f32⟩
  | 49 => ⟨S16x512x1024, .f32⟩
  | 50 => ⟨S1x512x1024, .f32⟩
  | 51 => ⟨S512x1024, .f32⟩
  | 52 => ⟨S16x512x512, .f32⟩
  | 53 => ⟨S1x512, .f32⟩
  | 54 => ⟨S512, .f32⟩
  | 55 => ⟨S1x1x512, .f32⟩
  | 56 => ⟨S16x512x512, .f32⟩
  | 57 => ⟨S16x512x512, .f32⟩
  | 58 => ⟨S1x512, .f32⟩
  | 59 => ⟨S512, .f32⟩
  | 60 => ⟨S1x1x512, .f32⟩
  | 61 => ⟨S16x512x512, .f32⟩
  | 62 => ⟨S16x512x512, .i1⟩
  | 63 => ⟨S16x512x512, .f32⟩
  | 64 => ⟨S_, .f32⟩
  | 65 => ⟨S16x512, .f32⟩
  | 66 => ⟨S16x512x1, .f32⟩
  | 67 => ⟨S_, .f32⟩
  | 68 => ⟨S16x512x1, .f32⟩
  | 69 => ⟨S16x512x1, .f32⟩
  | 70 => ⟨S16x512x512, .f32⟩
  | 71 => ⟨S16x512x512, .f32⟩
  | 72 => ⟨S16x512x1x512, .f32⟩
  | 73 => ⟨S16x512x1x512, .f32⟩
  | 74 => ⟨S16x512x2x512, .f32⟩
  | 75 => ⟨S16x1024x512, .f32⟩
  | 76 => ⟨S16x1024x2x512, .f32⟩
  | 77 => ⟨S16x1024x1x512, .f32⟩
  | 78 => ⟨S16x1024x512, .f32⟩
  | 79 => ⟨S16x1024x1024, .f32⟩
  | 80 => ⟨S1x512x1024, .f32⟩
  | 81 => ⟨S512x1024, .f32⟩
  | 82 => ⟨S16x1024x512, .f32⟩
  | 83 => ⟨S1x512, .f32⟩
  | 84 => ⟨S512, .f32⟩
  | 85 => ⟨S1x1x512, .f32⟩
  | 86 => ⟨S16x1024x512, .f32⟩
  | 87 => ⟨S16x1024x512, .f32⟩
  | 88 => ⟨S1x512, .f32⟩
  | 89 => ⟨S512, .f32⟩
  | 90 => ⟨S1x1x512, .f32⟩
  | 91 => ⟨S16x1024x512, .f32⟩
  | 92 => ⟨S16x1024x512, .i1⟩
  | 93 => ⟨S16x1024x512, .f32⟩
  | 94 => ⟨S_, .f32⟩
  | 95 => ⟨S16x1024, .f32⟩
  | 96 => ⟨S16x1024x1, .f32⟩
  | 97 => ⟨S_, .f32⟩
  | 98 => ⟨S16x1024x1, .f32⟩
  | 99 => ⟨S16x1024x1, .f32⟩
  | 100 => ⟨S16x1024x512, .f32⟩
  | 101 => ⟨S16x1024x512, .f32⟩
  | 102 => ⟨S16x1024x1x512, .f32⟩
  | 103 => ⟨S16x1024x1x512, .f32⟩
  | 104 => ⟨S16x1024x2x512, .f32⟩
  | 105 => ⟨S16x2048x512, .f32⟩
  | 106 => ⟨S16x2048x2x512, .f32⟩
  | 107 => ⟨S16x2048x1x512, .f32⟩
  | 108 => ⟨S16x2048x512, .f32⟩
  | 109 => ⟨S16x2048x1024, .f32⟩
  | 110 => ⟨S1x512x1024, .f32⟩
  | 111 => ⟨S512x1024, .f32⟩
  | 112 => ⟨S16x2048x512, .f32⟩
  | 113 => ⟨S1x512, .f32⟩
  | 114 => ⟨S512, .f32⟩
  | 115 => ⟨S1x1x512, .f32⟩
  | 116 => ⟨S16x2048x512, .f32⟩
  | 117 => ⟨S16x2048x512, .f32⟩
  | 118 => ⟨S1x512, .f32⟩
  | 119 => ⟨S512, .f32⟩
  | 120 => ⟨S1x1x512, .f32⟩
  | 121 => ⟨S16x2048x512, .f32⟩
  | 122 => ⟨S16x2048x512, .i1⟩
  | 123 => ⟨S16x2048x512, .f32⟩
  | 124 => ⟨S_, .f32⟩
  | 125 => ⟨S16x2048, .f32⟩
  | 126 => ⟨S16x2048x1, .f32⟩
  | 127 => ⟨S_, .f32⟩
  | _ => ⟨S16x4096x512, .f32⟩

abbrev hbmTy0_5 (i : Nat) : BufTy := match i % 128 with
  | 0 => ⟨S16x2048x1, .f32⟩
  | 1 => ⟨S16x2048x1, .f32⟩
  | 2 => ⟨S16x2048x512, .f32⟩
  | 3 => ⟨S16x2048x512, .f32⟩
  | 4 => ⟨S16x2048x1x512, .f32⟩
  | 5 => ⟨S16x2048x1x512, .f32⟩
  | 6 => ⟨S16x2048x2x512, .f32⟩
  | 7 => ⟨S16x4096x512, .f32⟩
  | 8 => ⟨S16x4096x1024, .f32⟩
  | 9 => ⟨S16x4096x512, .f32⟩
  | 10 => ⟨S1x1x512, .f32⟩
  | 11 => ⟨S16x4096x512, .f32⟩
  | 12 => ⟨S16x4096x512, .f32⟩
  | 13 => ⟨S1x1x512, .f32⟩
  | 14 => ⟨S16x4096x512, .f32⟩
  | 15 => ⟨S16x4096x512, .i1⟩
  | 16 => ⟨S16x4096x512, .f32⟩
  | 17 => ⟨S_, .f32⟩
  | 18 => ⟨S16x4096, .f32⟩
  | 19 => ⟨S16x4096x1, .f32⟩
  | 20 => ⟨S_, .f32⟩
  | 21 => ⟨S16x4096x1, .f32⟩
  | 22 => ⟨S16x4096x1, .f32⟩
  | 23 => ⟨S16x4096x512, .f32⟩
  | 24 => ⟨S16x4096x512, .f32⟩
  | _ => ⟨S16x4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_5 : Ref sig .tc := ⟨.hbm, 94, rfl⟩
abbrev main_v78 : Ref sig .tc := ⟨.hbm, 95, rfl⟩
abbrev main_v79 : Ref sig .tc := ⟨.hbm, 96, rfl⟩
abbrev main_cst_6 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_7 : Ref sig .tc := ⟨.hbm, 117, rfl⟩
abbrev main_v99 : Ref sig .tc := ⟨.hbm, 118, rfl⟩
abbrev main_v100 : Ref sig .tc := ⟨.hbm, 119, rfl⟩
abbrev main_cst_8 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_9 : Ref sig .tc := ⟨.hbm, 140, rfl⟩
abbrev main_v120 : Ref sig .tc := ⟨.hbm, 141, rfl⟩
abbrev main_v121 : Ref sig .tc := ⟨.hbm, 142, rfl⟩
abbrev main_cst_10 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_cst_11 : Ref sig .tc := ⟨.hbm, 163, rfl⟩
abbrev main_v141 : Ref sig .tc := ⟨.hbm, 164, rfl⟩
abbrev main_v142 : Ref sig .tc := ⟨.hbm, 165, rfl⟩
abbrev main_cst_12 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_cst_13 : Ref sig .tc := ⟨.hbm, 186, rfl⟩
abbrev main_v162 : Ref sig .tc := ⟨.hbm, 187, rfl⟩
abbrev main_v163 : Ref sig .tc := ⟨.hbm, 188, rfl⟩
abbrev main_cst_14 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_cst_15 : Ref sig .tc := ⟨.hbm, 209, rfl⟩
abbrev main_v183 : Ref sig .tc := ⟨.hbm, 210, rfl⟩
abbrev main_v184 : Ref sig .tc := ⟨.hbm, 211, rfl⟩
abbrev main_cst_16 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_cst_17 : Ref sig .tc := ⟨.hbm, 232, rfl⟩
abbrev main_v204 : Ref sig .tc := ⟨.hbm, 233, rfl⟩
abbrev main_v205 : Ref sig .tc := ⟨.hbm, 234, rfl⟩
abbrev main_cst_18 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_cst_19 : Ref sig .tc := ⟨.hbm, 255, rfl⟩
abbrev main_v225 : Ref sig .tc := ⟨.hbm, 256, rfl⟩
abbrev main_v226 : Ref sig .tc := ⟨.hbm, 257, rfl⟩
abbrev main_cst_20 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_cst_21 : Ref sig .tc := ⟨.hbm, 278, rfl⟩
abbrev main_v246 : Ref sig .tc := ⟨.hbm, 279, rfl⟩
abbrev main_v247 : Ref sig .tc := ⟨.hbm, 280, rfl⟩
abbrev main_cst_22 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_cst_23 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_cst_24 : Ref sig .tc := ⟨.hbm, 306, rfl⟩
abbrev main_v271 : Ref sig .tc := ⟨.hbm, 307, rfl⟩
abbrev main_v272 : Ref sig .tc := ⟨.hbm, 308, rfl⟩
abbrev main_cst_25 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_v284 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩
abbrev main_v288 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_v298 : Ref sig .tc := ⟨.hbm, 335, rfl⟩
abbrev main_cst_26 : Ref sig .tc := ⟨.hbm, 336, rfl⟩
abbrev main_v299 : Ref sig .tc := ⟨.hbm, 337, rfl⟩
abbrev main_v300 : Ref sig .tc := ⟨.hbm, 338, rfl⟩
abbrev main_cst_27 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_v306 : Ref sig .tc := ⟨.hbm, 345, rfl⟩
abbrev main_v307 : Ref sig .tc := ⟨.hbm, 346, rfl⟩
abbrev main_v308 : Ref sig .tc := ⟨.hbm, 347, rfl⟩
abbrev main_v309 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_v317 : Ref sig .tc := ⟨.hbm, 356, rfl⟩
abbrev main_v318 : Ref sig .tc := ⟨.hbm, 357, rfl⟩
abbrev main_v319 : Ref sig .tc := ⟨.hbm, 358, rfl⟩
abbrev main_v320 : Ref sig .tc := ⟨.hbm, 359, rfl⟩
abbrev main_v321 : Ref sig .tc := ⟨.hbm, 360, rfl⟩
abbrev main_v322 : Ref sig .tc := ⟨.hbm, 361, rfl⟩
abbrev main_v323 : Ref sig .tc := ⟨.hbm, 362, rfl⟩
abbrev main_v324 : Ref sig .tc := ⟨.hbm, 363, rfl⟩
abbrev main_v325 : Ref sig .tc := ⟨.hbm, 364, rfl⟩
abbrev main_v326 : Ref sig .tc := ⟨.hbm, 365, rfl⟩
abbrev main_cst_28 : Ref sig .tc := ⟨.hbm, 366, rfl⟩
abbrev main_v327 : Ref sig .tc := ⟨.hbm, 367, rfl⟩
abbrev main_v328 : Ref sig .tc := ⟨.hbm, 368, rfl⟩
abbrev main_cst_29 : Ref sig .tc := ⟨.hbm, 369, rfl⟩
abbrev main_v329 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩
abbrev main_v337 : Ref sig .tc := ⟨.hbm, 378, rfl⟩
abbrev main_v338 : Ref sig .tc := ⟨.hbm, 379, rfl⟩
abbrev main_v339 : Ref sig .tc := ⟨.hbm, 380, rfl⟩
abbrev main_v340 : Ref sig .tc := ⟨.hbm, 381, rfl⟩
abbrev main_v341 : Ref sig .tc := ⟨.hbm, 382, rfl⟩
abbrev main_v342 : Ref sig .tc := ⟨.hbm, 383, rfl⟩
abbrev main_v343 : Ref sig .tc := ⟨.hbm, 384, rfl⟩
abbrev main_v344 : Ref sig .tc := ⟨.hbm, 385, rfl⟩
abbrev main_v345 : Ref sig .tc := ⟨.hbm, 386, rfl⟩
abbrev main_v346 : Ref sig .tc := ⟨.hbm, 387, rfl⟩
abbrev main_v347 : Ref sig .tc := ⟨.hbm, 388, rfl⟩
abbrev main_v348 : Ref sig .tc := ⟨.hbm, 389, rfl⟩
abbrev main_v349 : Ref sig .tc := ⟨.hbm, 390, rfl⟩
abbrev main_v350 : Ref sig .tc := ⟨.hbm, 391, rfl⟩
abbrev main_v351 : Ref sig .tc := ⟨.hbm, 392, rfl⟩
abbrev main_v352 : Ref sig .tc := ⟨.hbm, 393, rfl⟩
abbrev main_v353 : Ref sig .tc := ⟨.hbm, 394, rfl⟩
abbrev main_v354 : Ref sig .tc := ⟨.hbm, 395, rfl⟩
abbrev main_cst_30 : Ref sig .tc := ⟨.hbm, 396, rfl⟩
abbrev main_v355 : Ref sig .tc := ⟨.hbm, 397, rfl⟩
abbrev main_v356 : Ref sig .tc := ⟨.hbm, 398, rfl⟩
abbrev main_cst_31 : Ref sig .tc := ⟨.hbm, 399, rfl⟩
abbrev main_v357 : Ref sig .tc := ⟨.hbm, 400, rfl⟩
abbrev main_v358 : Ref sig .tc := ⟨.hbm, 401, rfl⟩
abbrev main_v359 : Ref sig .tc := ⟨.hbm, 402, rfl⟩
abbrev main_v360 : Ref sig .tc := ⟨.hbm, 403, rfl⟩
abbrev main_v361 : Ref sig .tc := ⟨.hbm, 404, rfl⟩
abbrev main_v362 : Ref sig .tc := ⟨.hbm, 405, rfl⟩
abbrev main_v363 : Ref sig .tc := ⟨.hbm, 406, rfl⟩
abbrev main_v364 : Ref sig .tc := ⟨.hbm, 407, rfl⟩
abbrev main_v365 : Ref sig .tc := ⟨.hbm, 408, rfl⟩
abbrev main_v366 : Ref sig .tc := ⟨.hbm, 409, rfl⟩
abbrev main_v367 : Ref sig .tc := ⟨.hbm, 410, rfl⟩
abbrev main_v368 : Ref sig .tc := ⟨.hbm, 411, rfl⟩
abbrev main_v369 : Ref sig .tc := ⟨.hbm, 412, rfl⟩
abbrev main_v370 : Ref sig .tc := ⟨.hbm, 413, rfl⟩
abbrev main_v371 : Ref sig .tc := ⟨.hbm, 414, rfl⟩
abbrev main_v372 : Ref sig .tc := ⟨.hbm, 415, rfl⟩
abbrev main_v373 : Ref sig .tc := ⟨.hbm, 416, rfl⟩
abbrev main_v374 : Ref sig .tc := ⟨.hbm, 417, rfl⟩
abbrev main_v375 : Ref sig .tc := ⟨.hbm, 418, rfl⟩
abbrev main_v376 : Ref sig .tc := ⟨.hbm, 419, rfl⟩
abbrev main_v377 : Ref sig .tc := ⟨.hbm, 420, rfl⟩
abbrev main_v378 : Ref sig .tc := ⟨.hbm, 421, rfl⟩
abbrev main_v379 : Ref sig .tc := ⟨.hbm, 422, rfl⟩
abbrev main_v380 : Ref sig .tc := ⟨.hbm, 423, rfl⟩
abbrev main_v381 : Ref sig .tc := ⟨.hbm, 424, rfl⟩
abbrev main_v382 : Ref sig .tc := ⟨.hbm, 425, rfl⟩
abbrev main_cst_32 : Ref sig .tc := ⟨.hbm, 426, rfl⟩
abbrev main_v383 : Ref sig .tc := ⟨.hbm, 427, rfl⟩
abbrev main_v384 : Ref sig .tc := ⟨.hbm, 428, rfl⟩
abbrev main_cst_33 : Ref sig .tc := ⟨.hbm, 429, rfl⟩
abbrev main_v385 : Ref sig .tc := ⟨.hbm, 430, rfl⟩
abbrev main_v386 : Ref sig .tc := ⟨.hbm, 431, rfl⟩
abbrev main_v387 : Ref sig .tc := ⟨.hbm, 432, rfl⟩
abbrev main_v388 : Ref sig .tc := ⟨.hbm, 433, rfl⟩
abbrev main_v389 : Ref sig .tc := ⟨.hbm, 434, rfl⟩
abbrev main_v390 : Ref sig .tc := ⟨.hbm, 435, rfl⟩
abbrev main_v391 : Ref sig .tc := ⟨.hbm, 436, rfl⟩
abbrev main_v392 : Ref sig .tc := ⟨.hbm, 437, rfl⟩
abbrev main_v393 : Ref sig .tc := ⟨.hbm, 438, rfl⟩
abbrev main_v394 : Ref sig .tc := ⟨.hbm, 439, rfl⟩
abbrev main_v395 : Ref sig .tc := ⟨.hbm, 440, rfl⟩
abbrev main_v396 : Ref sig .tc := ⟨.hbm, 441, rfl⟩
abbrev main_v397 : Ref sig .tc := ⟨.hbm, 442, rfl⟩
abbrev main_v398 : Ref sig .tc := ⟨.hbm, 443, rfl⟩
abbrev main_v399 : Ref sig .tc := ⟨.hbm, 444, rfl⟩
abbrev main_v400 : Ref sig .tc := ⟨.hbm, 445, rfl⟩
abbrev main_v401 : Ref sig .tc := ⟨.hbm, 446, rfl⟩
abbrev main_v402 : Ref sig .tc := ⟨.hbm, 447, rfl⟩
abbrev main_v403 : Ref sig .tc := ⟨.hbm, 448, rfl⟩
abbrev main_v404 : Ref sig .tc := ⟨.hbm, 449, rfl⟩
abbrev main_v405 : Ref sig .tc := ⟨.hbm, 450, rfl⟩
abbrev main_v406 : Ref sig .tc := ⟨.hbm, 451, rfl⟩
abbrev main_v407 : Ref sig .tc := ⟨.hbm, 452, rfl⟩
abbrev main_v408 : Ref sig .tc := ⟨.hbm, 453, rfl⟩
abbrev main_v409 : Ref sig .tc := ⟨.hbm, 454, rfl⟩
abbrev main_v410 : Ref sig .tc := ⟨.hbm, 455, rfl⟩
abbrev main_cst_34 : Ref sig .tc := ⟨.hbm, 456, rfl⟩
abbrev main_v411 : Ref sig .tc := ⟨.hbm, 457, rfl⟩
abbrev main_v412 : Ref sig .tc := ⟨.hbm, 458, rfl⟩
abbrev main_cst_35 : Ref sig .tc := ⟨.hbm, 459, rfl⟩
abbrev main_v413 : Ref sig .tc := ⟨.hbm, 460, rfl⟩
abbrev main_v414 : Ref sig .tc := ⟨.hbm, 461, rfl⟩
abbrev main_v415 : Ref sig .tc := ⟨.hbm, 462, rfl⟩
abbrev main_v416 : Ref sig .tc := ⟨.hbm, 463, rfl⟩
abbrev main_v417 : Ref sig .tc := ⟨.hbm, 464, rfl⟩
abbrev main_v418 : Ref sig .tc := ⟨.hbm, 465, rfl⟩
abbrev main_v419 : Ref sig .tc := ⟨.hbm, 466, rfl⟩
abbrev main_v420 : Ref sig .tc := ⟨.hbm, 467, rfl⟩
abbrev main_v421 : Ref sig .tc := ⟨.hbm, 468, rfl⟩
abbrev main_v422 : Ref sig .tc := ⟨.hbm, 469, rfl⟩
abbrev main_v423 : Ref sig .tc := ⟨.hbm, 470, rfl⟩
abbrev main_v424 : Ref sig .tc := ⟨.hbm, 471, rfl⟩
abbrev main_v425 : Ref sig .tc := ⟨.hbm, 472, rfl⟩
abbrev main_v426 : Ref sig .tc := ⟨.hbm, 473, rfl⟩
abbrev main_v427 : Ref sig .tc := ⟨.hbm, 474, rfl⟩
abbrev main_v428 : Ref sig .tc := ⟨.hbm, 475, rfl⟩
abbrev main_v429 : Ref sig .tc := ⟨.hbm, 476, rfl⟩
abbrev main_v430 : Ref sig .tc := ⟨.hbm, 477, rfl⟩
abbrev main_v431 : Ref sig .tc := ⟨.hbm, 478, rfl⟩
abbrev main_v432 : Ref sig .tc := ⟨.hbm, 479, rfl⟩
abbrev main_v433 : Ref sig .tc := ⟨.hbm, 480, rfl⟩
abbrev main_v434 : Ref sig .tc := ⟨.hbm, 481, rfl⟩
abbrev main_v435 : Ref sig .tc := ⟨.hbm, 482, rfl⟩
abbrev main_v436 : Ref sig .tc := ⟨.hbm, 483, rfl⟩
abbrev main_v437 : Ref sig .tc := ⟨.hbm, 484, rfl⟩
abbrev main_v438 : Ref sig .tc := ⟨.hbm, 485, rfl⟩
abbrev main_cst_36 : Ref sig .tc := ⟨.hbm, 486, rfl⟩
abbrev main_v439 : Ref sig .tc := ⟨.hbm, 487, rfl⟩
abbrev main_v440 : Ref sig .tc := ⟨.hbm, 488, rfl⟩
abbrev main_cst_37 : Ref sig .tc := ⟨.hbm, 489, rfl⟩
abbrev main_v441 : Ref sig .tc := ⟨.hbm, 490, rfl⟩
abbrev main_v442 : Ref sig .tc := ⟨.hbm, 491, rfl⟩
abbrev main_v443 : Ref sig .tc := ⟨.hbm, 492, rfl⟩
abbrev main_v444 : Ref sig .tc := ⟨.hbm, 493, rfl⟩
abbrev main_v445 : Ref sig .tc := ⟨.hbm, 494, rfl⟩
abbrev main_v446 : Ref sig .tc := ⟨.hbm, 495, rfl⟩
abbrev main_v447 : Ref sig .tc := ⟨.hbm, 496, rfl⟩
abbrev main_v448 : Ref sig .tc := ⟨.hbm, 497, rfl⟩
abbrev main_v449 : Ref sig .tc := ⟨.hbm, 498, rfl⟩
abbrev main_v450 : Ref sig .tc := ⟨.hbm, 499, rfl⟩
abbrev main_v451 : Ref sig .tc := ⟨.hbm, 500, rfl⟩
abbrev main_v452 : Ref sig .tc := ⟨.hbm, 501, rfl⟩
abbrev main_v453 : Ref sig .tc := ⟨.hbm, 502, rfl⟩
abbrev main_v454 : Ref sig .tc := ⟨.hbm, 503, rfl⟩
abbrev main_v455 : Ref sig .tc := ⟨.hbm, 504, rfl⟩
abbrev main_v456 : Ref sig .tc := ⟨.hbm, 505, rfl⟩
abbrev main_v457 : Ref sig .tc := ⟨.hbm, 506, rfl⟩
abbrev main_v458 : Ref sig .tc := ⟨.hbm, 507, rfl⟩
abbrev main_v459 : Ref sig .tc := ⟨.hbm, 508, rfl⟩
abbrev main_v460 : Ref sig .tc := ⟨.hbm, 509, rfl⟩
abbrev main_v461 : Ref sig .tc := ⟨.hbm, 510, rfl⟩
abbrev main_v462 : Ref sig .tc := ⟨.hbm, 511, rfl⟩
abbrev main_v463 : Ref sig .tc := ⟨.hbm, 512, rfl⟩
abbrev main_v464 : Ref sig .tc := ⟨.hbm, 513, rfl⟩
abbrev main_v465 : Ref sig .tc := ⟨.hbm, 514, rfl⟩
abbrev main_v466 : Ref sig .tc := ⟨.hbm, 515, rfl⟩
abbrev main_cst_38 : Ref sig .tc := ⟨.hbm, 516, rfl⟩
abbrev main_v467 : Ref sig .tc := ⟨.hbm, 517, rfl⟩
abbrev main_v468 : Ref sig .tc := ⟨.hbm, 518, rfl⟩
abbrev main_cst_39 : Ref sig .tc := ⟨.hbm, 519, rfl⟩
abbrev main_v469 : Ref sig .tc := ⟨.hbm, 520, rfl⟩
abbrev main_v470 : Ref sig .tc := ⟨.hbm, 521, rfl⟩
abbrev main_v471 : Ref sig .tc := ⟨.hbm, 522, rfl⟩
abbrev main_v472 : Ref sig .tc := ⟨.hbm, 523, rfl⟩
abbrev main_v473 : Ref sig .tc := ⟨.hbm, 524, rfl⟩
abbrev main_v474 : Ref sig .tc := ⟨.hbm, 525, rfl⟩
abbrev main_v475 : Ref sig .tc := ⟨.hbm, 526, rfl⟩
abbrev main_v476 : Ref sig .tc := ⟨.hbm, 527, rfl⟩
abbrev main_v477 : Ref sig .tc := ⟨.hbm, 528, rfl⟩
abbrev main_v478 : Ref sig .tc := ⟨.hbm, 529, rfl⟩
abbrev main_v479 : Ref sig .tc := ⟨.hbm, 530, rfl⟩
abbrev main_v480 : Ref sig .tc := ⟨.hbm, 531, rfl⟩
abbrev main_v481 : Ref sig .tc := ⟨.hbm, 532, rfl⟩
abbrev main_v482 : Ref sig .tc := ⟨.hbm, 533, rfl⟩
abbrev main_v483 : Ref sig .tc := ⟨.hbm, 534, rfl⟩
abbrev main_v484 : Ref sig .tc := ⟨.hbm, 535, rfl⟩
abbrev main_v485 : Ref sig .tc := ⟨.hbm, 536, rfl⟩
abbrev main_v486 : Ref sig .tc := ⟨.hbm, 537, rfl⟩
abbrev main_v487 : Ref sig .tc := ⟨.hbm, 538, rfl⟩
abbrev main_v488 : Ref sig .tc := ⟨.hbm, 539, rfl⟩
abbrev main_v489 : Ref sig .tc := ⟨.hbm, 540, rfl⟩
abbrev main_v490 : Ref sig .tc := ⟨.hbm, 541, rfl⟩
abbrev main_v491 : Ref sig .tc := ⟨.hbm, 542, rfl⟩
abbrev main_v492 : Ref sig .tc := ⟨.hbm, 543, rfl⟩
abbrev main_v493 : Ref sig .tc := ⟨.hbm, 544, rfl⟩
abbrev main_v494 : Ref sig .tc := ⟨.hbm, 545, rfl⟩
abbrev main_cst_40 : Ref sig .tc := ⟨.hbm, 546, rfl⟩
abbrev main_v495 : Ref sig .tc := ⟨.hbm, 547, rfl⟩
abbrev main_v496 : Ref sig .tc := ⟨.hbm, 548, rfl⟩
abbrev main_cst_41 : Ref sig .tc := ⟨.hbm, 549, rfl⟩
abbrev main_v497 : Ref sig .tc := ⟨.hbm, 550, rfl⟩
abbrev main_v498 : Ref sig .tc := ⟨.hbm, 551, rfl⟩
abbrev main_v499 : Ref sig .tc := ⟨.hbm, 552, rfl⟩
abbrev main_v500 : Ref sig .tc := ⟨.hbm, 553, rfl⟩
abbrev main_v501 : Ref sig .tc := ⟨.hbm, 554, rfl⟩
abbrev main_v502 : Ref sig .tc := ⟨.hbm, 555, rfl⟩
abbrev main_v503 : Ref sig .tc := ⟨.hbm, 556, rfl⟩
abbrev main_v504 : Ref sig .tc := ⟨.hbm, 557, rfl⟩
abbrev main_v505 : Ref sig .tc := ⟨.hbm, 558, rfl⟩
abbrev main_v506 : Ref sig .tc := ⟨.hbm, 559, rfl⟩
abbrev main_v507 : Ref sig .tc := ⟨.hbm, 560, rfl⟩
abbrev main_v508 : Ref sig .tc := ⟨.hbm, 561, rfl⟩
abbrev main_v509 : Ref sig .tc := ⟨.hbm, 562, rfl⟩
abbrev main_v510 : Ref sig .tc := ⟨.hbm, 563, rfl⟩
abbrev main_v511 : Ref sig .tc := ⟨.hbm, 564, rfl⟩
abbrev main_v512 : Ref sig .tc := ⟨.hbm, 565, rfl⟩
abbrev main_v513 : Ref sig .tc := ⟨.hbm, 566, rfl⟩
abbrev main_v514 : Ref sig .tc := ⟨.hbm, 567, rfl⟩
abbrev main_v515 : Ref sig .tc := ⟨.hbm, 568, rfl⟩
abbrev main_v516 : Ref sig .tc := ⟨.hbm, 569, rfl⟩
abbrev main_v517 : Ref sig .tc := ⟨.hbm, 570, rfl⟩
abbrev main_v518 : Ref sig .tc := ⟨.hbm, 571, rfl⟩
abbrev main_v519 : Ref sig .tc := ⟨.hbm, 572, rfl⟩
abbrev main_v520 : Ref sig .tc := ⟨.hbm, 573, rfl⟩
abbrev main_v521 : Ref sig .tc := ⟨.hbm, 574, rfl⟩
abbrev main_v522 : Ref sig .tc := ⟨.hbm, 575, rfl⟩
abbrev main_cst_42 : Ref sig .tc := ⟨.hbm, 576, rfl⟩
abbrev main_v523 : Ref sig .tc := ⟨.hbm, 577, rfl⟩
abbrev main_v524 : Ref sig .tc := ⟨.hbm, 578, rfl⟩
abbrev main_cst_43 : Ref sig .tc := ⟨.hbm, 579, rfl⟩
abbrev main_v525 : Ref sig .tc := ⟨.hbm, 580, rfl⟩
abbrev main_v526 : Ref sig .tc := ⟨.hbm, 581, rfl⟩
abbrev main_v527 : Ref sig .tc := ⟨.hbm, 582, rfl⟩
abbrev main_v528 : Ref sig .tc := ⟨.hbm, 583, rfl⟩
abbrev main_v529 : Ref sig .tc := ⟨.hbm, 584, rfl⟩
abbrev main_v530 : Ref sig .tc := ⟨.hbm, 585, rfl⟩
abbrev main_v531 : Ref sig .tc := ⟨.hbm, 586, rfl⟩
abbrev main_v532 : Ref sig .tc := ⟨.hbm, 587, rfl⟩
abbrev main_v533 : Ref sig .tc := ⟨.hbm, 588, rfl⟩
abbrev main_v534 : Ref sig .tc := ⟨.hbm, 589, rfl⟩
abbrev main_v535 : Ref sig .tc := ⟨.hbm, 590, rfl⟩
abbrev main_v536 : Ref sig .tc := ⟨.hbm, 591, rfl⟩
abbrev main_v537 : Ref sig .tc := ⟨.hbm, 592, rfl⟩
abbrev main_v538 : Ref sig .tc := ⟨.hbm, 593, rfl⟩
abbrev main_v539 : Ref sig .tc := ⟨.hbm, 594, rfl⟩
abbrev main_v540 : Ref sig .tc := ⟨.hbm, 595, rfl⟩
abbrev main_v541 : Ref sig .tc := ⟨.hbm, 596, rfl⟩
abbrev main_v542 : Ref sig .tc := ⟨.hbm, 597, rfl⟩
abbrev main_v543 : Ref sig .tc := ⟨.hbm, 598, rfl⟩
abbrev main_v544 : Ref sig .tc := ⟨.hbm, 599, rfl⟩
abbrev main_v545 : Ref sig .tc := ⟨.hbm, 600, rfl⟩
abbrev main_v546 : Ref sig .tc := ⟨.hbm, 601, rfl⟩
abbrev main_v547 : Ref sig .tc := ⟨.hbm, 602, rfl⟩
abbrev main_v548 : Ref sig .tc := ⟨.hbm, 603, rfl⟩
abbrev main_v549 : Ref sig .tc := ⟨.hbm, 604, rfl⟩
abbrev main_v550 : Ref sig .tc := ⟨.hbm, 605, rfl⟩
abbrev main_cst_44 : Ref sig .tc := ⟨.hbm, 606, rfl⟩
abbrev main_v551 : Ref sig .tc := ⟨.hbm, 607, rfl⟩
abbrev main_v552 : Ref sig .tc := ⟨.hbm, 608, rfl⟩
abbrev main_cst_45 : Ref sig .tc := ⟨.hbm, 609, rfl⟩
abbrev main_v553 : Ref sig .tc := ⟨.hbm, 610, rfl⟩
abbrev main_v554 : Ref sig .tc := ⟨.hbm, 611, rfl⟩
abbrev main_v555 : Ref sig .tc := ⟨.hbm, 612, rfl⟩
abbrev main_v556 : Ref sig .tc := ⟨.hbm, 613, rfl⟩
abbrev main_v557 : Ref sig .tc := ⟨.hbm, 614, rfl⟩
abbrev main_v558 : Ref sig .tc := ⟨.hbm, 615, rfl⟩
abbrev main_v559 : Ref sig .tc := ⟨.hbm, 616, rfl⟩
abbrev main_v560 : Ref sig .tc := ⟨.hbm, 617, rfl⟩
abbrev main_v561 : Ref sig .tc := ⟨.hbm, 618, rfl⟩
abbrev main_v562 : Ref sig .tc := ⟨.hbm, 619, rfl⟩
abbrev main_v563 : Ref sig .tc := ⟨.hbm, 620, rfl⟩
abbrev main_v564 : Ref sig .tc := ⟨.hbm, 621, rfl⟩
abbrev main_v565 : Ref sig .tc := ⟨.hbm, 622, rfl⟩
abbrev main_v566 : Ref sig .tc := ⟨.hbm, 623, rfl⟩
abbrev main_v567 : Ref sig .tc := ⟨.hbm, 624, rfl⟩
abbrev main_v568 : Ref sig .tc := ⟨.hbm, 625, rfl⟩
abbrev main_v569 : Ref sig .tc := ⟨.hbm, 626, rfl⟩
abbrev main_v570 : Ref sig .tc := ⟨.hbm, 627, rfl⟩
abbrev main_v571 : Ref sig .tc := ⟨.hbm, 628, rfl⟩
abbrev main_v572 : Ref sig .tc := ⟨.hbm, 629, rfl⟩
abbrev main_v573 : Ref sig .tc := ⟨.hbm, 630, rfl⟩
abbrev main_v574 : Ref sig .tc := ⟨.hbm, 631, rfl⟩
abbrev main_v575 : Ref sig .tc := ⟨.hbm, 632, rfl⟩
abbrev main_v576 : Ref sig .tc := ⟨.hbm, 633, rfl⟩
abbrev main_v577 : Ref sig .tc := ⟨.hbm, 634, rfl⟩
abbrev main_v578 : Ref sig .tc := ⟨.hbm, 635, rfl⟩
abbrev main_cst_46 : Ref sig .tc := ⟨.hbm, 636, rfl⟩
abbrev main_v579 : Ref sig .tc := ⟨.hbm, 637, rfl⟩
abbrev main_v580 : Ref sig .tc := ⟨.hbm, 638, rfl⟩
abbrev main_cst_47 : Ref sig .tc := ⟨.hbm, 639, rfl⟩
abbrev main_v581 : Ref sig .tc := ⟨.hbm, 640, rfl⟩
abbrev main_v582 : Ref sig .tc := ⟨.hbm, 641, rfl⟩
abbrev main_v583 : Ref sig .tc := ⟨.hbm, 642, rfl⟩
abbrev main_v584 : Ref sig .tc := ⟨.hbm, 643, rfl⟩
abbrev main_v585 : Ref sig .tc := ⟨.hbm, 644, rfl⟩
abbrev main_v586 : Ref sig .tc := ⟨.hbm, 645, rfl⟩
abbrev main_v587 : Ref sig .tc := ⟨.hbm, 646, rfl⟩
abbrev main_v588 : Ref sig .tc := ⟨.hbm, 647, rfl⟩
abbrev main_v589 : Ref sig .tc := ⟨.hbm, 648, rfl⟩
abbrev main_v590 : Ref sig .tc := ⟨.hbm, 649, rfl⟩
abbrev main_v591 : Ref sig .tc := ⟨.hbm, 650, rfl⟩
abbrev main_v592 : Ref sig .tc := ⟨.hbm, 651, rfl⟩
abbrev main_v593 : Ref sig .tc := ⟨.hbm, 652, rfl⟩
abbrev main_v594 : Ref sig .tc := ⟨.hbm, 653, rfl⟩
abbrev main_v595 : Ref sig .tc := ⟨.hbm, 654, rfl⟩
abbrev main_v596 : Ref sig .tc := ⟨.hbm, 655, rfl⟩
abbrev main_v597 : Ref sig .tc := ⟨.hbm, 656, rfl⟩
abbrev main_cst_48 : Ref sig .tc := ⟨.hbm, 657, rfl⟩
abbrev main_v598 : Ref sig .tc := ⟨.hbm, 658, rfl⟩
abbrev main_v599 : Ref sig .tc := ⟨.hbm, 659, rfl⟩
abbrev main_cst_49 : Ref sig .tc := ⟨.hbm, 660, rfl⟩
abbrev main_v600 : Ref sig .tc := ⟨.hbm, 661, rfl⟩
abbrev main_v601 : Ref sig .tc := ⟨.hbm, 662, rfl⟩
abbrev main_v602 : Ref sig .tc := ⟨.hbm, 663, rfl⟩
abbrev main_v603 : Ref sig .tc := ⟨.hbm, 664, rfl⟩

abbrev nD : Nat := 1
abbrev τ : Topo := Topo.v7x

variable {F : FTy → Type} [FloatOps F]

class Facts₀ : Prop where
  shapeCasts_S16x4096x512_S16x2048x1024 : S16x4096x512.ShapeCasts S16x2048x1024
  slices_S12x512x1024_S1x512x1024_0_0_0 : S12x512x1024.Slices ![0, 0, 0] S1x512x1024
  shapeCasts_S1x512x1024_S512x1024 : S1x512x1024.ShapeCasts S512x1024
  slices_S12x512_S1x512_0_0 : S12x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  reducesTo_S16x2048x512_S16x2048_d2 : S16x2048x512.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x512_0_1_2 : S16x2048x1.BroadcastsInDim S16x2048x512 (![0, 1, 2] : Fin 3 → Fin S16x2048x512.rank)
  shapeCasts_S16x2048x512_S16x1024x1024 : S16x2048x512.ShapeCasts S16x1024x1024
  slices_S12x512x1024_S1x512x1024_1_0_0 : S12x512x1024.Slices ![1, 0, 0] S1x512x1024
  slices_S12x512_S1x512_1_0 : S12x512.Slices ![1, 0] S1x512
  bcast_S1x1x512_S16x1024x512_0_1_2 : S1x1x512.BroadcastsInDim S16x1024x512 (![0, 1, 2] : Fin 3 → Fin S16x1024x512.rank)
  reducesTo_S16x1024x512_S16x1024_d2 : S16x1024x512.ReducesTo [2] S16x1024
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x512_0_1_2 : S16x1024x1.BroadcastsInDim S16x1024x512 (![0, 1, 2] : Fin 3 → Fin S16x1024x512.rank)
  shapeCasts_S16x1024x512_S16x512x1024 : S16x1024x512.ShapeCasts S16x512x1024
  slices_S12x512x1024_S1x512x1024_2_0_0 : S12x512x1024.Slices ![2, 0, 0] S1x512x1024
  slices_S12x512_S1x512_2_0 : S12x512.Slices ![2, 0] S1x512
  bcast_S1x1x512_S16x512x512_0_1_2 : S1x1x512.BroadcastsInDim S16x512x512 (![0, 1, 2] : Fin 3 → Fin S16x512x512.rank)
  reducesTo_S16x512x512_S16x512_d2 : S16x512x512.ReducesTo [2] S16x512
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S16x512x1_S16x512x512_0_1_2 : S16x512x1.BroadcastsInDim S16x512x512 (![0, 1, 2] : Fin 3 → Fin S16x512x512.rank)
  shapeCasts_S16x512x512_S16x256x1024 : S16x512x512.ShapeCasts S16x256x1024
  slices_S12x512x1024_S1x512x1024_3_0_0 : S12x512x1024.Slices ![3, 0, 0] S1x512x1024
  slices_S12x512_S1x512_3_0 : S12x512.Slices ![3, 0] S1x512
  bcast_S1x1x512_S16x256x512_0_1_2 : S1x1x512.BroadcastsInDim S16x256x512 (![0, 1, 2] : Fin 3 → Fin S16x256x512.rank)
  reducesTo_S16x256x512_S16x256_d2 : S16x256x512.ReducesTo [2] S16x256
  bcast_S16x256_S16x256x1_0_1 : S16x256.BroadcastsInDim S16x256x1 (![0, 1] : Fin 2 → Fin S16x256x1.rank)
  bcast_S_S16x256x1 : S_.BroadcastsInDim S16x256x1 (![] : Fin 0 → Fin S16x256x1.rank)
  bcast_S16x256x1_S16x256x512_0_1_2 : S16x256x1.BroadcastsInDim S16x256x512 (![0, 1, 2] : Fin 3 → Fin S16x256x512.rank)
  shapeCasts_S16x256x512_S16x128x1024 : S16x256x512.ShapeCasts S16x128x1024
  slices_S12x512x1024_S1x512x1024_4_0_0 : S12x512x1024.Slices ![4, 0, 0] S1x512x1024
  slices_S12x512_S1x512_4_0 : S12x512.Slices ![4, 0] S1x512
  bcast_S1x1x512_S16x128x512_0_1_2 : S1x1x512.BroadcastsInDim S16x128x512 (![0, 1, 2] : Fin 3 → Fin S16x128x512.rank)
  reducesTo_S16x128x512_S16x128_d2 : S16x128x512.ReducesTo [2] S16x128
  bcast_S16x128_S16x128x1_0_1 : S16x128.BroadcastsInDim S16x128x1 (![0, 1] : Fin 2 → Fin S16x128x1.rank)
  bcast_S_S16x128x1 : S_.BroadcastsInDim S16x128x1 (![] : Fin 0 → Fin S16x128x1.rank)
  bcast_S16x128x1_S16x128x512_0_1_2 : S16x128x1.BroadcastsInDim S16x128x512 (![0, 1, 2] : Fin 3 → Fin S16x128x512.rank)
  shapeCasts_S16x128x512_S16x64x1024 : S16x128x512.ShapeCasts S16x64x1024
  slices_S12x512x1024_S1x512x1024_5_0_0 : S12x512x1024.Slices ![5, 0, 0] S1x512x1024
  slices_S12x512_S1x512_5_0 : S12x512.Slices ![5, 0] S1x512
  bcast_S1x1x512_S16x64x512_0_1_2 : S1x1x512.BroadcastsInDim S16x64x512 (![0, 1, 2] : Fin 3 → Fin S16x64x512.rank)
  reducesTo_S16x64x512_S16x64_d2 : S16x64x512.ReducesTo [2] S16x64
  bcast_S16x64_S16x64x1_0_1 : S16x64.BroadcastsInDim S16x64x1 (![0, 1] : Fin 2 → Fin S16x64x1.rank)
  bcast_S_S16x64x1 : S_.BroadcastsInDim S16x64x1 (![] : Fin 0 → Fin S16x64x1.rank)
  bcast_S16x64x1_S16x64x512_0_1_2 : S16x64x1.BroadcastsInDim S16x64x512 (![0, 1, 2] : Fin 3 → Fin S16x64x512.rank)
  shapeCasts_S16x64x512_S16x32x1024 : S16x64x512.ShapeCasts S16x32x1024
  slices_S12x512x1024_S1x512x1024_6_0_0 : S12x512x1024.Slices ![6, 0, 0] S1x512x1024
  slices_S12x512_S1x512_6_0 : S12x512.Slices ![6, 0] S1x512
  bcast_S1x1x512_S16x32x512_0_1_2 : S1x1x512.BroadcastsInDim S16x32x512 (![0, 1, 2] : Fin 3 → Fin S16x32x512.rank)
  reducesTo_S16x32x512_S16x32_d2 : S16x32x512.ReducesTo [2] S16x32
  bcast_S16x32_S16x32x1_0_1 : S16x32.BroadcastsInDim S16x32x1 (![0, 1] : Fin 2 → Fin S16x32x1.rank)
  bcast_S_S16x32x1 : S_.BroadcastsInDim S16x32x1 (![] : Fin 0 → Fin S16x32x1.rank)
  bcast_S16x32x1_S16x32x512_0_1_2 : S16x32x1.BroadcastsInDim S16x32x512 (![0, 1, 2] : Fin 3 → Fin S16x32x512.rank)
  shapeCasts_S16x32x512_S16x16x1024 : S16x32x512.ShapeCasts S16x16x1024
  slices_S12x512x1024_S1x512x1024_7_0_0 : S12x512x1024.Slices ![7, 0, 0] S1x512x1024
  slices_S12x512_S1x512_7_0 : S12x512.Slices ![7, 0] S1x512
  bcast_S1x1x512_S16x16x512_0_1_2 : S1x1x512.BroadcastsInDim S16x16x512 (![0, 1, 2] : Fin 3 → Fin S16x16x512.rank)
  reducesTo_S16x16x512_S16x16_d2 : S16x16x512.ReducesTo [2] S16x16
  bcast_S16x16_S16x16x1_0_1 : S16x16.BroadcastsInDim S16x16x1 (![0, 1] : Fin 2 → Fin S16x16x1.rank)
  bcast_S_S16x16x1 : S_.BroadcastsInDim S16x16x1 (![] : Fin 0 → Fin S16x16x1.rank)
  bcast_S16x16x1_S16x16x512_0_1_2 : S16x16x1.BroadcastsInDim S16x16x512 (![0, 1, 2] : Fin 3 → Fin S16x16x512.rank)
  shapeCasts_S16x16x512_S16x8x1024 : S16x16x512.ShapeCasts S16x8x1024
  slices_S12x512x1024_S1x512x1024_8_0_0 : S12x512x1024.Slices ![8, 0, 0] S1x512x1024
  slices_S12x512_S1x512_8_0 : S12x512.Slices ![8, 0] S1x512
  bcast_S1x1x512_S16x8x512_0_1_2 : S1x1x512.BroadcastsInDim S16x8x512 (![0, 1, 2] : Fin 3 → Fin S16x8x512.rank)
  reducesTo_S16x8x512_S16x8_d2 : S16x8x512.ReducesTo [2] S16x8
  bcast_S16x8_S16x8x1_0_1 : S16x8.BroadcastsInDim S16x8x1 (![0, 1] : Fin 2 → Fin S16x8x1.rank)
  bcast_S_S16x8x1 : S_.BroadcastsInDim S16x8x1 (![] : Fin 0 → Fin S16x8x1.rank)
  bcast_S16x8x1_S16x8x512_0_1_2 : S16x8x1.BroadcastsInDim S16x8x512 (![0, 1, 2] : Fin 3 → Fin S16x8x512.rank)
  shapeCasts_S16x8x512_S16x4x1024 : S16x8x512.ShapeCasts S16x4x1024
  slices_S12x512x1024_S1x512x1024_9_0_0 : S12x512x1024.Slices ![9, 0, 0] S1x512x1024
  slices_S12x512_S1x512_9_0 : S12x512.Slices ![9, 0] S1x512
  bcast_S1x1x512_S16x4x512_0_1_2 : S1x1x512.BroadcastsInDim S16x4x512 (![0, 1, 2] : Fin 3 → Fin S16x4x512.rank)
  reducesTo_S16x4x512_S16x4_d2 : S16x4x512.ReducesTo [2] S16x4
  bcast_S16x4_S16x4x1_0_1 : S16x4.BroadcastsInDim S16x4x1 (![0, 1] : Fin 2 → Fin S16x4x1.rank)
  bcast_S_S16x4x1 : S_.BroadcastsInDim S16x4x1 (![] : Fin 0 → Fin S16x4x1.rank)
  bcast_S16x4x1_S16x4x512_0_1_2 : S16x4x1.BroadcastsInDim S16x4x512 (![0, 1, 2] : Fin 3 → Fin S16x4x512.rank)
  shapeCasts_S16x4x512_S16x2x1024 : S16x4x512.ShapeCasts S16x2x1024
  slices_S12x512x1024_S1x512x1024_10_0_0 : S12x512x1024.Slices ![10, 0, 0] S1x512x1024
  slices_S12x512_S1x512_10_0 : S12x512.Slices ![10, 0] S1x512
  bcast_S1x1x512_S16x2x512_0_1_2 : S1x1x512.BroadcastsInDim S16x2x512 (![0, 1, 2] : Fin 3 → Fin S16x2x512.rank)
  reducesTo_S16x2x512_S16x2_d2 : S16x2x512.ReducesTo [2] S16x2
  bcast_S16x2_S16x2x1_0_1 : S16x2.BroadcastsInDim S16x2x1 (![0, 1] : Fin 2 → Fin S16x2x1.rank)
  bcast_S_S16x2x1 : S_.BroadcastsInDim S16x2x1 (![] : Fin 0 → Fin S16x2x1.rank)
  bcast_S16x2x1_S16x2x512_0_1_2 : S16x2x1.BroadcastsInDim S16x2x512 (![0, 1, 2] : Fin 3 → Fin S16x2x512.rank)
  shapeCasts_S16x2x512_S16x1x1024 : S16x2x512.ShapeCasts S16x1x1024
  slices_S12x512x1024_S1x512x1024_11_0_0 : S12x512x1024.Slices ![11, 0, 0] S1x512x1024
  slices_S12x512_S1x512_11_0 : S12x512.Slices ![11, 0] S1x512
  bcast_S1x1x512_S16x1x512_0_1_2 : S1x1x512.BroadcastsInDim S16x1x512 (![0, 1, 2] : Fin 3 → Fin S16x1x512.rank)
  reducesTo_S16x1x512_S16x1_d2 : S16x1x512.ReducesTo [2] S16x1
  bcast_S16x1_S16x1x1_0_1 : S16x1.BroadcastsInDim S16x1x1 (![0, 1] : Fin 2 → Fin S16x1x1.rank)
  bcast_S_S16x1x1 : S_.BroadcastsInDim S16x1x1 (![] : Fin 0 → Fin S16x1x1.rank)
  bcast_S16x1x1_S16x1x512_0_1_2 : S16x1x1.BroadcastsInDim S16x1x512 (![0, 1, 2] : Fin 3 → Fin S16x1x512.rank)
  bcast_S_S16x1x512 : S_.BroadcastsInDim S16x1x512 (![] : Fin 0 → Fin S16x1x512.rank)
  shapeCasts_S16x2x512_S16x1x2x512 : S16x2x512.ShapeCasts S16x1x2x512
  slices_S16x1x2x512_S16x1x1x512_0_0_0_0 : S16x1x2x512.Slices ![0, 0, 0, 0] S16x1x1x512
  shapeCasts_S16x1x1x512_S16x1x512 : S16x1x1x512.ShapeCasts S16x1x512
  concatenates_S16x1x512_S16x1x512_S16x1x1024_d2 : Shape.Concatenates [S16x1x512, S16x1x512] S16x1x1024 2
  bcast_S16x1x512_S16x1x1x512_0_1_3 : S16x1x512.BroadcastsInDim S16x1x1x512 (![0, 1, 3] : Fin 3 → Fin S16x1x1x512.rank)
  concatenates_S16x1x1x512_S16x1x1x512_S16x1x2x512_d2 : Shape.Concatenates [S16x1x1x512, S16x1x1x512] S16x1x2x512 2
  shapeCasts_S16x1x2x512_S16x2x512 : S16x1x2x512.ShapeCasts S16x2x512
  shapeCasts_S16x4x512_S16x2x2x512 : S16x4x512.ShapeCasts S16x2x2x512
  slices_S16x2x2x512_S16x2x1x512_0_0_0_0 : S16x2x2x512.Slices ![0, 0, 0, 0] S16x2x1x512
  shapeCasts_S16x2x1x512_S16x2x512 : S16x2x1x512.ShapeCasts S16x2x512
  concatenates_S16x2x512_S16x2x512_S16x2x1024_d2 : Shape.Concatenates [S16x2x512, S16x2x512] S16x2x1024 2
  bcast_S16x2x512_S16x2x1x512_0_1_3 : S16x2x512.BroadcastsInDim S16x2x1x512 (![0, 1, 3] : Fin 3 → Fin S16x2x1x512.rank)
  concatenates_S16x2x1x512_S16x2x1x512_S16x2x2x512_d2 : Shape.Concatenates [S16x2x1x512, S16x2x1x512] S16x2x2x512 2
  shapeCasts_S16x2x2x512_S16x4x512 : S16x2x2x512.ShapeCasts S16x4x512
  shapeCasts_S16x8x512_S16x4x2x512 : S16x8x512.ShapeCasts S16x4x2x512
  slices_S16x4x2x512_S16x4x1x512_0_0_0_0 : S16x4x2x512.Slices ![0, 0, 0, 0] S16x4x1x512
  shapeCasts_S16x4x1x512_S16x4x512 : S16x4x1x512.ShapeCasts S16x4x512
  concatenates_S16x4x512_S16x4x512_S16x4x1024_d2 : Shape.Concatenates [S16x4x512, S16x4x512] S16x4x1024 2
  bcast_S16x4x512_S16x4x1x512_0_1_3 : S16x4x512.BroadcastsInDim S16x4x1x512 (![0, 1, 3] : Fin 3 → Fin S16x4x1x512.rank)
  concatenates_S16x4x1x512_S16x4x1x512_S16x4x2x512_d2 : Shape.Concatenates [S16x4x1x512, S16x4x1x512] S16x4x2x512 2
  shapeCasts_S16x4x2x512_S16x8x512 : S16x4x2x512.ShapeCasts S16x8x512
  shapeCasts_S16x16x512_S16x8x2x512 : S16x16x512.ShapeCasts S16x8x2x512
  slices_S16x8x2x512_S16x8x1x512_0_0_0_0 : S16x8x2x512.Slices ![0, 0, 0, 0] S16x8x1x512
  shapeCasts_S16x8x1x512_S16x8x512 : S16x8x1x512.ShapeCasts S16x8x512
  concatenates_S16x8x512_S16x8x512_S16x8x1024_d2 : Shape.Concatenates [S16x8x512, S16x8x512] S16x8x1024 2
  bcast_S16x8x512_S16x8x1x512_0_1_3 : S16x8x512.BroadcastsInDim S16x8x1x512 (![0, 1, 3] : Fin 3 → Fin S16x8x1x512.rank)
  concatenates_S16x8x1x512_S16x8x1x512_S16x8x2x512_d2 : Shape.Concatenates [S16x8x1x512, S16x8x1x512] S16x8x2x512 2
  shapeCasts_S16x8x2x512_S16x16x512 : S16x8x2x512.ShapeCasts S16x16x512
  shapeCasts_S16x32x512_S16x16x2x512 : S16x32x512.ShapeCasts S16x16x2x512
  slices_S16x16x2x512_S16x16x1x512_0_0_0_0 : S16x16x2x512.Slices ![0, 0, 0, 0] S16x16x1x512
  shapeCasts_S16x16x1x512_S16x16x512 : S16x16x1x512.ShapeCasts S16x16x512
  concatenates_S16x16x512_S16x16x512_S16x16x1024_d2 : Shape.Concatenates [S16x16x512, S16x16x512] S16x16x1024 2
  bcast_S16x16x512_S16x16x1x512_0_1_3 : S16x16x512.BroadcastsInDim S16x16x1x512 (![0, 1, 3] : Fin 3 → Fin S16x16x1x512.rank)
  concatenates_S16x16x1x512_S16x16x1x512_S16x16x2x512_d2 : Shape.Concatenates [S16x16x1x512, S16x16x1x512] S16x16x2x512 2
  shapeCasts_S16x16x2x512_S16x32x512 : S16x16x2x512.ShapeCasts S16x32x512
  shapeCasts_S16x64x512_S16x32x2x512 : S16x64x512.ShapeCasts S16x32x2x512
  slices_S16x32x2x512_S16x32x1x512_0_0_0_0 : S16x32x2x512.Slices ![0, 0, 0, 0] S16x32x1x512
  shapeCasts_S16x32x1x512_S16x32x512 : S16x32x1x512.ShapeCasts S16x32x512
  concatenates_S16x32x512_S16x32x512_S16x32x1024_d2 : Shape.Concatenates [S16x32x512, S16x32x512] S16x32x1024 2
  bcast_S16x32x512_S16x32x1x512_0_1_3 : S16x32x512.BroadcastsInDim S16x32x1x512 (![0, 1, 3] : Fin 3 → Fin S16x32x1x512.rank)
  concatenates_S16x32x1x512_S16x32x1x512_S16x32x2x512_d2 : Shape.Concatenates [S16x32x1x512, S16x32x1x512] S16x32x2x512 2
  shapeCasts_S16x32x2x512_S16x64x512 : S16x32x2x512.ShapeCasts S16x64x512
  shapeCasts_S16x128x512_S16x64x2x512 : S16x128x512.ShapeCasts S16x64x2x512
  slices_S16x64x2x512_S16x64x1x512_0_0_0_0 : S16x64x2x512.Slices ![0, 0, 0, 0] S16x64x1x512
  shapeCasts_S16x64x1x512_S16x64x512 : S16x64x1x512.ShapeCasts S16x64x512
  concatenates_S16x64x512_S16x64x512_S16x64x1024_d2 : Shape.Concatenates [S16x64x512, S16x64x512] S16x64x1024 2
  bcast_S16x64x512_S16x64x1x512_0_1_3 : S16x64x512.BroadcastsInDim S16x64x1x512 (![0, 1, 3] : Fin 3 → Fin S16x64x1x512.rank)
  concatenates_S16x64x1x512_S16x64x1x512_S16x64x2x512_d2 : Shape.Concatenates [S16x64x1x512, S16x64x1x512] S16x64x2x512 2
  shapeCasts_S16x64x2x512_S16x128x512 : S16x64x2x512.ShapeCasts S16x128x512
  shapeCasts_S16x256x512_S16x128x2x512 : S16x256x512.ShapeCasts S16x128x2x512
  slices_S16x128x2x512_S16x128x1x512_0_0_0_0 : S16x128x2x512.Slices ![0, 0, 0, 0] S16x128x1x512
  shapeCasts_S16x128x1x512_S16x128x512 : S16x128x1x512.ShapeCasts S16x128x512
  concatenates_S16x128x512_S16x128x512_S16x128x1024_d2 : Shape.Concatenates [S16x128x512, S16x128x512] S16x128x1024 2
  bcast_S16x128x512_S16x128x1x512_0_1_3 : S16x128x512.BroadcastsInDim S16x128x1x512 (![0, 1, 3] : Fin 3 → Fin S16x128x1x512.rank)
  concatenates_S16x128x1x512_S16x128x1x512_S16x128x2x512_d2 : Shape.Concatenates [S16x128x1x512, S16x128x1x512] S16x128x2x512 2
  shapeCasts_S16x128x2x512_S16x256x512 : S16x128x2x512.ShapeCasts S16x256x512
  shapeCasts_S16x512x512_S16x256x2x512 : S16x512x512.ShapeCasts S16x256x2x512
  slices_S16x256x2x512_S16x256x1x512_0_0_0_0 : S16x256x2x512.Slices ![0, 0, 0, 0] S16x256x1x512
  shapeCasts_S16x256x1x512_S16x256x512 : S16x256x1x512.ShapeCasts S16x256x512
  concatenates_S16x256x512_S16x256x512_S16x256x1024_d2 : Shape.Concatenates [S16x256x512, S16x256x512] S16x256x1024 2
  bcast_S16x256x512_S16x256x1x512_0_1_3 : S16x256x512.BroadcastsInDim S16x256x1x512 (![0, 1, 3] : Fin 3 → Fin S16x256x1x512.rank)
  concatenates_S16x256x1x512_S16x256x1x512_S16x256x2x512_d2 : Shape.Concatenates [S16x256x1x512, S16x256x1x512] S16x256x2x512 2
  shapeCasts_S16x256x2x512_S16x512x512 : S16x256x2x512.ShapeCasts S16x512x512
  shapeCasts_S16x1024x512_S16x512x2x512 : S16x1024x512.ShapeCasts S16x512x2x512
  slices_S16x512x2x512_S16x512x1x512_0_0_0_0 : S16x512x2x512.Slices ![0, 0, 0, 0] S16x512x1x512
  shapeCasts_S16x512x1x512_S16x512x512 : S16x512x1x512.ShapeCasts S16x512x512
  concatenates_S16x512x512_S16x512x512_S16x512x1024_d2 : Shape.Concatenates [S16x512x512, S16x512x512] S16x512x1024 2
  bcast_S16x512x512_S16x512x1x512_0_1_3 : S16x512x512.BroadcastsInDim S16x512x1x512 (![0, 1, 3] : Fin 3 → Fin S16x512x1x512.rank)
  concatenates_S16x512x1x512_S16x512x1x512_S16x512x2x512_d2 : Shape.Concatenates [S16x512x1x512, S16x512x1x512] S16x512x2x512 2
  shapeCasts_S16x512x2x512_S16x1024x512 : S16x512x2x512.ShapeCasts S16x1024x512
  shapeCasts_S16x2048x512_S16x1024x2x512 : S16x2048x512.ShapeCasts S16x1024x2x512
  slices_S16x1024x2x512_S16x1024x1x512_0_0_0_0 : S16x1024x2x512.Slices ![0, 0, 0, 0] S16x1024x1x512
  shapeCasts_S16x1024x1x512_S16x1024x512 : S16x1024x1x512.ShapeCasts S16x1024x512
  concatenates_S16x1024x512_S16x1024x512_S16x1024x1024_d2 : Shape.Concatenates [S16x1024x512, S16x1024x512] S16x1024x1024 2
  bcast_S16x1024x512_S16x1024x1x512_0_1_3 : S16x1024x512.BroadcastsInDim S16x1024x1x512 (![0, 1, 3] : Fin 3 → Fin S16x1024x1x512.rank)
  concatenates_S16x1024x1x512_S16x1024x1x512_S16x1024x2x512_d2 : Shape.Concatenates [S16x1024x1x512, S16x1024x1x512] S16x1024x2x512 2
  shapeCasts_S16x1024x2x512_S16x2048x512 : S16x1024x2x512.ShapeCasts S16x2048x512
  shapeCasts_S16x4096x512_S16x2048x2x512 : S16x4096x512.ShapeCasts S16x2048x2x512
  slices_S16x2048x2x512_S16x2048x1x512_0_0_0_0 : S16x2048x2x512.Slices ![0, 0, 0, 0] S16x2048x1x512
  shapeCasts_S16x2048x1x512_S16x2048x512 : S16x2048x1x512.ShapeCasts S16x2048x512
  concatenates_S16x2048x512_S16x2048x512_S16x2048x1024_d2 : Shape.Concatenates [S16x2048x512, S16x2048x512] S16x2048x1024 2
  bcast_S16x2048x512_S16x2048x1x512_0_1_3 : S16x2048x512.BroadcastsInDim S16x2048x1x512 (![0, 1, 3] : Fin 3 → Fin S16x2048x1x512.rank)
  concatenates_S16x2048x1x512_S16x2048x1x512_S16x2048x2x512_d2 : Shape.Concatenates [S16x2048x1x512, S16x2048x1x512] S16x2048x2x512 2
  shapeCasts_S16x2048x2x512_S16x4096x512 : S16x2048x2x512.ShapeCasts S16x4096x512
  concatenates_S16x4096x512_S16x4096x512_S16x4096x1024_d2 : Shape.Concatenates [S16x4096x512, S16x4096x512] S16x4096x1024 2
  bcast_S1x1x512_S16x4096x512_0_1_2 : S1x1x512.BroadcastsInDim S16x4096x512 (![0, 1, 2] : Fin 3 → Fin S16x4096x512.rank)
  reducesTo_S16x4096x512_S16x4096_d2 : S16x4096x512.ReducesTo [2] S16x4096
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x512_0_1_2 : S16x4096x1.BroadcastsInDim S16x4096x512 (![0, 1, 2] : Fin 3 → Fin S16x4096x512.rank)
  dot_S16x2048x1024_S512x1024_S16x2048x512_2_1_01_0_n_n_wf : DotDims.WF S16x2048x1024 S512x1024 S16x2048x512 [2] [1] [0, 1] [0] [] []
  dot_S16x1024x1024_S512x1024_S16x1024x512_2_1_01_0_n_n_wf : DotDims.WF S16x1024x1024 S512x1024 S16x1024x512 [2] [1] [0, 1] [0] [] []
  dot_S16x512x1024_S512x1024_S16x512x512_2_1_01_0_n_n_wf : DotDims.WF S16x512x1024 S512x1024 S16x512x512 [2] [1] [0, 1] [0] [] []
  dot_S16x256x1024_S512x1024_S16x256x512_2_1_01_0_n_n_wf : DotDims.WF S16x256x1024 S512x1024 S16x256x512 [2] [1] [0, 1] [0] [] []
  dot_S16x128x1024_S512x1024_S16x128x512_2_1_01_0_n_n_wf : DotDims.WF S16x128x1024 S512x1024 S16x128x512 [2] [1] [0, 1] [0] [] []
  dot_S16x64x1024_S512x1024_S16x64x512_2_1_01_0_n_n_wf : DotDims.WF S16x64x1024 S512x1024 S16x64x512 [2] [1] [0, 1] [0] [] []
  dot_S16x32x1024_S512x1024_S16x32x512_2_1_01_0_n_n_wf : DotDims.WF S16x32x1024 S512x1024 S16x32x512 [2] [1] [0, 1] [0] [] []
  dot_S16x16x1024_S512x1024_S16x16x512_2_1_01_0_n_n_wf : DotDims.WF S16x16x1024 S512x1024 S16x16x512 [2] [1] [0, 1] [0] [] []
  dot_S16x8x1024_S512x1024_S16x8x512_2_1_01_0_n_n_wf : DotDims.WF S16x8x1024 S512x1024 S16x8x512 [2] [1] [0, 1] [0] [] []
  dot_S16x4x1024_S512x1024_S16x4x512_2_1_01_0_n_n_wf : DotDims.WF S16x4x1024 S512x1024 S16x4x512 [2] [1] [0, 1] [0] [] []
  dot_S16x2x1024_S512x1024_S16x2x512_2_1_01_0_n_n_wf : DotDims.WF S16x2x1024 S512x1024 S16x2x512 [2] [1] [0, 1] [0] [] []
  dot_S16x1x1024_S512x1024_S16x1x512_2_1_01_0_n_n_wf : DotDims.WF S16x1x1024 S512x1024 S16x1x512 [2] [1] [0, 1] [0] [] []
  dot_S16x4096x1024_S512x1024_S16x4096x512_2_1_01_0_n_n_wf : DotDims.WF S16x4096x1024 S512x1024 S16x4096x512 [2] [1] [0, 1] [0] [] []

variable [Facts₀]

def dot_S16x2048x1024_S512x1024_S16x2048x512_2_1_01_0_n_n : DotDims S16x2048x1024 S512x1024 S16x2048x512 where
  lhsContracting := [2]
  rhsContracting := [1]
  lhsNonContracting := [0, 1]
  rhsNonContracting := [0]
  lhsBatch := []
  rhsBatch := []
  wf := dot_S16x2048x1024_S512x1024_S16x2048x512_2_1_01_0_n_n_wf
def dot_S16x1024x1024_S512x1024_S16x1024x512_2_1_01_0_n_n : DotDims S16x1024x1024 S512x1024 S16x1024x512 where
  lhsContracting := [2]
  rhsContracting := [1]
  lhsNonContracting := [0, 1]
  rhsNonContracting := [0]
  lhsBatch := []
  rhsBatch := []
  wf := dot_S16x1024x1024_S512x1024_S16x1024x512_2_1_01_0_n_n_wf
def dot_S16x512x1024_S512x1024_S16x512x512_2_1_01_0_n_n : DotDims S16x512x1024 S512x1024 S16x512x512 where
  lhsContracting := [2]
  rhsContracting := [1]
  lhsNonContracting := [0, 1]
  rhsNonContracting := [0]
  lhsBatch := []
  rhsBatch := []
  wf := dot_S16x512x1024_S512x1024_S16x512x512_2_1_01_0_n_n_wf
def dot_S16x256x1024_S512x1024_S16x256x512_2_1_01_0_n_n : DotDims S16x256x1024 S512x1024 S16x256x512 where
  lhsContracting := [2]
  rhsContracting := [1]
  lhsNonContracting := [0, 1]
  rhsNonContracting := [0]
  lhsBatch := []
  rhsBatch := []
  wf := dot_S16x256x1024_S512x1024_S16x256x512_2_1_01_0_n_n_wf
def dot_S16x128x1024_S512x1024_S16x128x512_2_1_01_0_n_n : DotDims S16x128x1024 S512x1024 S16x128x512 where
  lhsContracting := [2]
  rhsContracting := [1]
  lhsNonContracting := [0, 1]
  rhsNonContracting := [0]
  lhsBatch := []
  rhsBatch := []
  wf := dot_S16x128x1024_S512x1024_S16x128x512_2_1_01_0_n_n_wf
def dot_S16x64x1024_S512x1024_S16x64x512_2_1_01_0_n_n : DotDims S16x64x1024 S512x1024 S16x64x512 where
  lhsContracting := [2]
  rhsContracting := [1]
  lhsNonContracting := [0, 1]
  rhsNonContracting := [0]
  lhsBatch := []
  rhsBatch := []
  wf := dot_S16x64x1024_S512x1024_S16x64x512_2_1_01_0_n_n_wf
def dot_S16x32x1024_S512x1024_S16x32x512_2_1_01_0_n_n : DotDims S16x32x1024 S512x1024 S16x32x512 where
  lhsContracting := [2]
  rhsContracting := [1]
  lhsNonContracting := [0, 1]
  rhsNonContracting := [0]
  lhsBatch := []
  rhsBatch := []
  wf := dot_S16x32x1024_S512x1024_S16x32x512_2_1_01_0_n_n_wf
def dot_S16x16x1024_S512x1024_S16x16x512_2_1_01_0_n_n : DotDims S16x16x1024 S512x1024 S16x16x512 where
  lhsContracting := [2]
  rhsContracting := [1]
  lhsNonContracting := [0, 1]
  rhsNonContracting := [0]
  lhsBatch := []
  rhsBatch := []
  wf := dot_S16x16x1024_S512x1024_S16x16x512_2_1_01_0_n_n_wf
def dot_S16x8x1024_S512x1024_S16x8x512_2_1_01_0_n_n : DotDims S16x8x1024 S512x1024 S16x8x512 where
  lhsContracting := [2]
  rhsContracting := [1]
  lhsNonContracting := [0, 1]
  rhsNonContracting := [0]
  lhsBatch := []
  rhsBatch := []
  wf := dot_S16x8x1024_S512x1024_S16x8x512_2_1_01_0_n_n_wf
def dot_S16x4x1024_S512x1024_S16x4x512_2_1_01_0_n_n : DotDims S16x4x1024 S512x1024 S16x4x512 where
  lhsContracting := [2]
  rhsContracting := [1]
  lhsNonContracting := [0, 1]
  rhsNonContracting := [0]
  lhsBatch := []
  rhsBatch := []
  wf := dot_S16x4x1024_S512x1024_S16x4x512_2_1_01_0_n_n_wf
def dot_S16x2x1024_S512x1024_S16x2x512_2_1_01_0_n_n : DotDims S16x2x1024 S512x1024 S16x2x512 where
  lhsContracting := [2]
  rhsContracting := [1]
  lhsNonContracting := [0, 1]
  rhsNonContracting := [0]
  lhsBatch := []
  rhsBatch := []
  wf := dot_S16x2x1024_S512x1024_S16x2x512_2_1_01_0_n_n_wf
def dot_S16x1x1024_S512x1024_S16x1x512_2_1_01_0_n_n : DotDims S16x1x1024 S512x1024 S16x1x512 where
  lhsContracting := [2]
  rhsContracting := [1]
  lhsNonContracting := [0, 1]
  rhsNonContracting := [0]
  lhsBatch := []
  rhsBatch := []
  wf := dot_S16x1x1024_S512x1024_S16x1x512_2_1_01_0_n_n_wf
def dot_S16x4096x1024_S512x1024_S16x4096x512_2_1_01_0_n_n : DotDims S16x4096x1024 S512x1024 S16x4096x512 where
  lhsContracting := [2]
  rhsContracting := [1]
  lhsNonContracting := [0, 1]
  rhsNonContracting := [0]
  lhsBatch := []
  rhsBatch := []
  wf := dot_S16x4096x1024_S512x1024_S16x4096x512_2_1_01_0_n_n_wf

class Facts : Prop extends Facts₀ where

variable [Facts]
-- ==== Proof.LibRowMajor.lean ====
/-
  Arrays read through their row-major positions.

  An array over a shape is "represented" by a function f on the natural numbers when its entry at every index is f
  at the index's row-major position.  A reshape keeps the row-major position of every entry, so it keeps the
  representing function; two arrays of one shape with one representing function are equal.  For ranks one to four
  the position of an index built from coordinates is spelt as the usual nested sum of products.
-/
import Idealize.ShloMosaic.PureOps.Ideal.Laws
import Idealize.ShloMosaic.Lib.ValueIdx
import Idealize.ShloMosaic.Lib.Pipeline.Value

noncomputable section

open scoped BigOperators

namespace Cert.Lib.RowMajor

open Idealize.ShloMosaic Idealize.ShloMosaic.ValueIdx

variable {α : Type}

/-- The array `A` at an index is `f` at the index's row-major position. -/
def Rep {S : Shape} (A : S.Idx → α) (f : ℕ → α) : Prop := ∀ i : S.Idx, A i = f (S.rowMajor i).val

/-- The entries of an array listed by row-major position (zero past the last one). -/
def flatOf {S : Shape} (A : S.Idx → EReal) (n : ℕ) : EReal :=
  if h : n < S.numel then A (S.rowMajor.symm ⟨n, h⟩) else 0

theorem rep_flatOf {S : Shape} (A : S.Idx → EReal) : Rep A (flatOf A) := fun i => by
  unfold flatOf
  rw [dif_pos (S.rowMajor i).isLt]
  exact congrArg A ((S.rowMajor.symm_apply_apply i).symm.trans (congrArg S.rowMajor.symm (Fin.ext rfl)))

theorem rep_ext {S : Shape} {A B : S.Idx → α} {f : ℕ → α} (hA : Rep A f) (hB : Rep B f) : A = B :=
  funext fun i => (hA i).trans (hB i).symm

/-- A reshape keeps every entry's row-major position. -/
theorem rep_shapeCast {S T : Shape} {A : S.Idx → α} {f : ℕ → α} (hA : Rep A f) (h : S.ShapeCasts T) :
    Rep (shapeCast T A h) f := fun j => by
  unfold Idealize.ShloMosaic.shapeCast
  rw [hA (Shape.reshapeEquiv h j), Shape.rowMajor_reshapeEquiv h j]

theorem rowMajor_ix1 {a : ℕ} (r : Fin a) : ((⟨1, ![a]⟩ : Shape).rowMajor (ix1 r)).val = r.val := by
  rw [Shape.rowMajor_val_one]; rfl

theorem rowMajor_ix2 {a b : ℕ} (r : Fin a) (c : Fin b) :
    ((⟨2, ![a, b]⟩ : Shape).rowMajor (ix2 r c)).val = r.val * b + c.val := by
  rw [Shape.rowMajor_val_two]; rfl

theorem rowMajor_ix3 {a b c : ℕ} (x : Fin a) (y : Fin b) (z : Fin c) :
    ((⟨3, ![a, b, c]⟩ : Shape).rowMajor (ix3 x y z)).val = (x.val * b + y.val) * c + z.val := by
  rw [Shape.rowMajor_val_three]; rfl

theorem rowMajor_ix4 {a b c d : ℕ} (x : Fin a) (y : Fin b) (z : Fin c) (w : Fin d) :
    ((⟨4, ![a, b, c, d]⟩ : Shape).rowMajor (ix4 x y z w)).val = ((x.val * b + y.val) * c + z.val) * d + w.val := by
  rw [Shape.rowMajor_val_four]; rfl

theorem rep1_iff {a : ℕ} {A : (⟨1, ![a]⟩ : Shape).Idx → α} {f : ℕ → α} :
    Rep A f ↔ ∀ r : Fin a, A (ix1 r) = f r.val :=
  ⟨fun h r => (h (ix1 r)).trans (congrArg f (rowMajor_ix1 r)),
   fun h i => by
    obtain ⟨r, rfl⟩ : ∃ r : Fin a, i = ix1 r := ⟨i 0, eq_ix1 i⟩
    exact (h r).trans (congrArg f (rowMajor_ix1 r).symm)⟩

theorem rep2_iff {a b : ℕ} {A : (⟨2, ![a, b]⟩ : Shape).Idx → α} {f : ℕ → α} :
    Rep A f ↔ ∀ (r : Fin a) (c : Fin b), A (ix2 r c) = f (r.val * b + c.val) :=
  ⟨fun h r c => (h (ix2 r c)).trans (congrArg f (rowMajor_ix2 r c)),
   fun h i => by
    obtain ⟨r, c, rfl⟩ : ∃ (r : Fin a) (c : Fin b), i = ix2 r c := ⟨i 0, i 1, eq_ix2 i⟩
    exact (h r c).trans (congrArg f (rowMajor_ix2 r c).symm)⟩

theorem rep3_iff {a b c : ℕ} {A : (⟨3, ![a, b, c]⟩ : Shape).Idx → α} {f : ℕ → α} :
    Rep A f ↔ ∀ (x : Fin a) (y : Fin b) (z : Fin c), A (ix3 x y z) = f ((x.val * b + y.val) * c + z.val) :=
  ⟨fun h x y z => (h (ix3 x y z)).trans (congrArg f (rowMajor_ix3 x y z)),
   fun h i => by
    obtain ⟨x, y, z, rfl⟩ : ∃ (x : Fin a) (y : Fin b) (z : Fin c), i = ix3 x y z := ⟨i 0, i 1, i 2, eq_ix3 i⟩
    exact (h x y z).trans (congrArg f (rowMajor_ix3 x y z).symm)⟩

theorem rep4_iff {a b c d : ℕ} {A : (⟨4, ![a, b, c, d]⟩ : Shape).Idx → α} {f : ℕ → α} :
    Rep A f ↔ ∀ (x : Fin a) (y : Fin b) (z : Fin c) (w : Fin d),
      A (ix4 x y z w) = f (((x.val * b + y.val) * c + z.val) * d + w.val) :=
  ⟨fun h x y z w => (h (ix4 x y z w)).trans (congrArg f (rowMajor_ix4 x y z w)),
   fun h i => by
    obtain ⟨x, y, z, w, rfl⟩ : ∃ (x : Fin a) (y : Fin b) (z : Fin c) (w : Fin d), i = ix4 x y z w :=
      ⟨i 0, i 1, i 2, i 3, eq_ix4 i⟩
    exact (h x y z w).trans (congrArg f (rowMajor_ix4 x y z w).symm)⟩

end Cert.Lib.RowMajor

end
-- ==== Proof.LibSpikeLayer.lean ====
/-
  A spiking dense layer read through row-major positions.

  The layer: y = a · Wᵀ + b row by row; every entry of y is compared with a per-column threshold and replaced by
  1 or 0; every row of the resulting 0/1 table is divided by (its sum + a fixed small constant).  All tables are
  read as functions of the row-major position n: the row is n / N, the column n % N (N the row length).

  The lemmas carry "array A is represented by f" through each host operation of such a layer on arrays of rank
  three [B, P, ·]: slices of the stacked parameters, the broadcast of a parameter row, the contraction with a weight
  table stored [N, K], the comparison, the row sum and the division.  No finiteness is asked anywhere: both sides
  are the same sums of the same products.
-/
import Idealize.ShloMosaic.PureOps.Ideal.Laws
import Idealize.ShloMosaic.Lib.ValueIdx
import Idealize.ShloMosaic.Lib.Pipeline.Value
import proofs.«113582_j30116310680263_2_alg».proof.Proof.LibRowMajor

noncomputable section

open scoped BigOperators

namespace Cert.Lib.SpikeLayer

open Idealize.ShloMosaic Idealize.ShloMosaic.ValueIdx Cert.Lib.RowMajor

/-! ## The layer on row-major positions -/

/-- 1 if y ≥ thr, else 0. -/
def spike (y thr : EReal) : EReal := (((Ideal.cmp .oge y thr).toNat : ℝ) : EReal)

/-- The small constant added to a row's sum (the float nearest 1e-8, at its exact binary value). -/
def eps : EReal := Ideal.ofBits .f32 0x322BCC77#32

/-- Each entry divided by (the sum of its row + eps); rows have length N. -/
def rowNormalize (N : ℕ) (s : ℕ → EReal) (n : ℕ) : EReal :=
  Ideal.div (s n) ((∑ o : Fin N, s (n / N * N + o.val)) + eps)

/-- Row n / N of `a` (rows start every `sa` positions) against row n % N of the weight table `w` (rows of
    length Kw, read from column `off`), K terms. -/
def rowDot (K N sa Kw off : ℕ) (a w : ℕ → EReal) (n : ℕ) : EReal :=
  ∑ k : Fin K, a (n / N * sa + k.val) * w (n % N * Kw + off + k.val)

/-- A parameter row added to / compared with every row: column n % N of the row. -/
def colOf (N : ℕ) (b : ℕ → EReal) (n : ℕ) : EReal := b (n % N)

theorem div_mod_row {N q r : ℕ} (hr : r < N) : (q * N + r) / N = q ∧ (q * N + r) % N = r :=
  ⟨by rw [Nat.add_comm, Nat.add_mul_div_right _ _ (by omega), Nat.div_eq_of_lt hr, Nat.zero_add],
   by rw [Nat.add_comm, Nat.add_mul_mod_self_right, Nat.mod_eq_of_lt hr]⟩

/-! ## Entrywise operations -/

theorem rep_addf {S : Shape} {A B : FVec Ideal S .f32} {f g : ℕ → EReal} (hA : Rep A f) (hB : Rep B g) :
    Rep (addf A B) (fun n => f n + g n) := fun i => by rw [addf_apply, hA i, hB i]

theorem rep_spike {S : Shape} {A B : FVec Ideal S .f32} {f g : ℕ → EReal} (hA : Rep A f) (hB : Rep B g) :
    Rep (uitofp (F := Ideal) .f32 (cmpf .oge A B)) (fun n => spike (f n) (g n)) := fun i => by
  show spike (A i) (B i) = _
  rw [hA i, hB i]

theorem rep_hostDivf {S : Shape} {A B : FVec Ideal S .f32} {f g : ℕ → EReal} (hA : Rep A f) (hB : Rep B g) :
    Rep (Host.divf A B) (fun n => Ideal.div (f n) (g n)) := fun i => by
  show Ideal.div (A i) (B i) = _
  rw [hA i, hB i]

/-! ## Slices of stacked parameters -/

/-- Layer l of a stack [L, N, K]. -/
theorem rep_slice3 {L N K : ℕ} {W : (⟨3, ![L, N, K]⟩ : Shape).Idx → EReal} {wf : ℕ → EReal} (hW : Rep W wf) (l : ℕ) (hl : l < L)
    (h : (⟨3, ![L, N, K]⟩ : Shape).Slices ![l, 0, 0] ⟨3, ![1, N, K]⟩) :
    Rep (extractStridedSlice ⟨3, ![1, N, K]⟩ ![l, 0, 0] W h) (fun j => wf (l * (N * K) + j)) := by
  rw [rep3_iff]; intro x y z
  rw [extractStridedSlice_apply ![l, 0, 0] W h (ix3 x y z) (ix3 ⟨l, hl⟩ y z) (fun a => by
        match a with
        | ⟨0, _⟩ => show l = l + x.val; omega
        | ⟨1, _⟩ => show y.val = 0 + y.val; omega
        | ⟨2, _⟩ => show z.val = 0 + z.val; omega),
    (rep3_iff.mp hW) ⟨l, hl⟩ y z]
  have hx : x.val = 0 := by omega
  exact congrArg wf (by rw [hx]; ring)

/-- Row l of a stack [L, N]. -/
theorem rep_slice2 {L N : ℕ} {W : (⟨2, ![L, N]⟩ : Shape).Idx → EReal} {wf : ℕ → EReal} (hW : Rep W wf) (l : ℕ) (hl : l < L)
    (h : (⟨2, ![L, N]⟩ : Shape).Slices ![l, 0] ⟨2, ![1, N]⟩) :
    Rep (extractStridedSlice ⟨2, ![1, N]⟩ ![l, 0] W h) (fun j => wf (l * N + j)) := by
  rw [rep2_iff]; intro x y
  rw [extractStridedSlice_apply ![l, 0] W h (ix2 x y) (ix2 ⟨l, hl⟩ y) (fun a => by
        match a with
        | ⟨0, _⟩ => show l = l + x.val; omega
        | ⟨1, _⟩ => show y.val = 0 + y.val; omega),
    (rep2_iff.mp hW) ⟨l, hl⟩ y]
  have hx : x.val = 0 := by omega
  exact congrArg wf (by rw [hx]; ring)

/-! ## A parameter row broadcast to every row of [B, P, N] -/

theorem rep_rowBroadcast3 {B P N : ℕ} {v : (⟨1, ![N]⟩ : Shape).Idx → EReal} {g : ℕ → EReal} (hv : Rep v g)
    (h1 : (⟨1, ![N]⟩ : Shape).BroadcastsInDim ⟨3, ![1, 1, N]⟩ ![2])
    (h2 : (⟨3, ![1, 1, N]⟩ : Shape).BroadcastsInDim ⟨3, ![B, P, N]⟩ ![0, 1, 2]) :
    Rep (broadcastInDim ⟨3, ![B, P, N]⟩ ![0, 1, 2] h2 (broadcastInDim ⟨3, ![1, 1, N]⟩ ![2] h1 v)) (colOf N g) := by
  rw [rep3_iff]; intro x y z
  have hz : N = 1 → z.val = 0 := fun e => by have := z.isLt; omega
  rw [broadcastInDim_apply ![0, 1, 2] h2 _ (ix3 x y z) (ix3 0 0 z) (fun a => by
        match a with
        | ⟨0, _⟩ => exact (if_pos rfl).symm
        | ⟨1, _⟩ => exact (if_pos rfl).symm
        | ⟨2, _⟩ =>
          show z.val = if N = 1 then 0 else z.val
          split
          · exact hz ‹_›
          · rfl),
    broadcastInDim_apply ![2] h1 v (ix3 0 0 z) (ix1 z) (fun a => by
        match a with
        | ⟨0, _⟩ =>
          show z.val = if N = 1 then 0 else z.val
          split
          · exact hz ‹_›
          · rfl),
    (rep1_iff.mp hv) z]
  exact congrArg g (div_mod_row z.isLt).2.symm

/-! ## The contraction [B, P, K] · [N, K]ᵀ -/

/-- A record that contracts the last axis of a rank-3 left operand with the last axis of a rank-2 right operand,
    no batch axis: the facts that read it as rows against rows. -/
structure RowsByRows {B P K N : ℕ} (d : DotDims ⟨3, ![B, P, K]⟩ ⟨2, ![N, K]⟩ ⟨3, ![B, P, N]⟩) : Prop where
  rank : d.contr.rank = 1
  size : d.contr.size ⟨0, by omega⟩ = K
  l0 : ∀ (i : (⟨3, ![B, P, N]⟩ : Shape).Idx) (q : d.contr.Idx), (d.lhsIdx i q 0).val = (i 0).val
  l1 : ∀ (i : (⟨3, ![B, P, N]⟩ : Shape).Idx) (q : d.contr.Idx), (d.lhsIdx i q 1).val = (i 1).val
  l2 : ∀ (i : (⟨3, ![B, P, N]⟩ : Shape).Idx) (q : d.contr.Idx), (d.lhsIdx i q 2).val = (q ⟨0, by omega⟩).val
  r0 : ∀ (i : (⟨3, ![B, P, N]⟩ : Shape).Idx) (q : d.contr.Idx), (d.rhsIdx i q 0).val = (i 2).val
  r1 : ∀ (i : (⟨3, ![B, P, N]⟩ : Shape).Idx) (q : d.contr.Idx), (d.rhsIdx i q 1).val = (q ⟨0, by omega⟩).val

theorem rep_dot3 {B P K N : ℕ} {φ₁ φ₂ : FTy} {d : DotDims ⟨3, ![B, P, K]⟩ ⟨2, ![N, K]⟩ ⟨3, ![B, P, N]⟩} (hd : RowsByRows d)
    {A : FVec Ideal ⟨3, ![B, P, K]⟩ φ₁} {W : FVec Ideal ⟨2, ![N, K]⟩ φ₂} {a w : ℕ → EReal} (hA : Rep A a) (hW : Rep W w)
    (prec : Option ContractPrecision) :
    Rep (Host.dotGeneral d prec A W) (rowDot K N K K 0 a w) := by
  rw [rep3_iff]; intro x y z
  show FloatOps.dotGeneral d prec .single A W (ix3 x y z) = _
  rw [Ideal.dotGeneral_apply, ← Equiv.sum_comp (contrEquiv1 d K hd.rank hd.size).symm]
  unfold rowDot
  refine Finset.sum_congr rfl fun k _ => ?_
  have hk := contrEquiv1_symm_val d K hd.rank hd.size k
  have el : d.lhsIdx (ix3 x y z) ((contrEquiv1 d K hd.rank hd.size).symm k) = ix3 x y k := funext fun c => Fin.ext (by
    match c with
    | ⟨0, _⟩ => exact hd.l0 _ _
    | ⟨1, _⟩ => exact hd.l1 _ _
    | ⟨2, _⟩ => exact (hd.l2 _ _).trans hk)
  have er : d.rhsIdx (ix3 x y z) ((contrEquiv1 d K hd.rank hd.size).symm k) = ix2 z k := funext fun c => Fin.ext (by
    match c with
    | ⟨0, _⟩ => exact hd.r0 _ _
    | ⟨1, _⟩ => exact (hd.r1 _ _).trans hk)
  rw [el, er, (rep3_iff.mp hA) x y k, (rep2_iff.mp hW) z k, (div_mod_row z.isLt).1, (div_mod_row z.isLt).2, Nat.add_zero]

/-! ## Rows divided by (their sum + eps) -/

theorem rep_normalize3 {B P N : ℕ} {Sp : FVec Ideal ⟨3, ![B, P, N]⟩ .f32} {s : ℕ → EReal} (hS : Rep Sp s)
    (hR' : (⟨3, ![B, P, N]⟩ : Shape).ReducesTo [2] ⟨2, ![B, P]⟩) (hR : (⟨3, ![B, P, N]⟩ : Shape).Reduces [2] ⟨2, ![B, P]⟩)
    (h0 : 0 < (⟨0, ![]⟩ : Shape).numel)
    (b1 : (⟨2, ![B, P]⟩ : Shape).BroadcastsInDim ⟨3, ![B, P, 1]⟩ ![0, 1])
    (b0 : (⟨0, ![]⟩ : Shape).BroadcastsInDim ⟨3, ![B, P, 1]⟩ ![])
    (b3 : (⟨3, ![B, P, 1]⟩ : Shape).BroadcastsInDim ⟨3, ![B, P, N]⟩ ![0, 1, 2]) :
    Rep (Host.divf Sp (broadcastInDim ⟨3, ![B, P, N]⟩ ![0, 1, 2] b3
          (addf (broadcastInDim ⟨3, ![B, P, 1]⟩ ![0, 1] b1 (Host.reduceAdd Sp (constant (F := Ideal) ⟨0, ![]⟩ .f32 0x00000000#32) hR' h0))
                (broadcastInDim ⟨3, ![B, P, 1]⟩ ![] b0 (constant (F := Ideal) ⟨0, ![]⟩ .f32 0x322BCC77#32)))))
      (rowNormalize N s) := by
  rw [rep3_iff]; intro x y z
  have hx : B = 1 → x.val = 0 := fun e => by have := x.isLt; omega
  have hy : P = 1 → y.val = 0 := fun e => by have := y.isLt; omega
  show Ideal.div (Sp (ix3 x y z)) _ = _
  rw [broadcastInDim_apply ![0, 1, 2] b3 _ (ix3 x y z) (ix3 x y 0) (fun a => by
        match a with
        | ⟨0, _⟩ =>
          show x.val = if B = 1 then 0 else x.val
          split
          · exact hx ‹_›
          · rfl
        | ⟨1, _⟩ =>
          show y.val = if P = 1 then 0 else y.val
          split
          · exact hy ‹_›
          · rfl
        | ⟨2, _⟩ => exact (if_pos rfl).symm),
    addf_apply,
    broadcastInDim_apply ![0, 1] b1 _ (ix3 x y 0) (ix2 x y) (fun a => by
        match a with
        | ⟨0, _⟩ =>
          show x.val = if B = 1 then 0 else x.val
          split
          · exact hx ‹_›
          · rfl
        | ⟨1, _⟩ =>
          show y.val = if P = 1 then 0 else y.val
          split
          · exact hy ‹_›
          · rfl)]
  show Ideal.div (Sp (ix3 x y z)) ((Ideal.hostReduceAdd hR' Sp (Ideal.ofBits .f32 0x00000000#32) (ix2 x y)) + Ideal.ofBits .f32 0x322BCC77#32) = _
  rw [Ideal.hostReduceAdd_single hR' hR Sp _ (ix2 x y), Ideal.ofBits_zero_f32, zero_add]
  have hl : ∀ k : Fin N, hR.lift (ix2 x y) k = ix3 x y k := fun k => funext fun c => Fin.ext (by
    match c with
    | ⟨0, _⟩ => rfl
    | ⟨1, _⟩ => rfl
    | ⟨2, _⟩ => rfl)
  unfold rowNormalize eps
  rw [(rep3_iff.mp hS) x y z, (div_mod_row z.isLt).1]
  refine congrArg (fun t => Ideal.div _ (t + _)) (Finset.sum_congr rfl fun k _ => ?_)
  rw [hl k, (rep3_iff.mp hS) x y k]

/-! ## The re-layouts of the down sweep -/

/-- Of each adjacent pair of rows keep the first: [B, P, 2, N] at (·, ·, 0, ·). -/
theorem rep_slice4_first {B P N : ℕ} {A : (⟨4, ![B, P, 2, N]⟩ : Shape).Idx → EReal} {f : ℕ → EReal} (hA : Rep A f)
    (h : (⟨4, ![B, P, 2, N]⟩ : Shape).Slices ![0, 0, 0, 0] ⟨4, ![B, P, 1, N]⟩) :
    Rep (extractStridedSlice ⟨4, ![B, P, 1, N]⟩ ![0, 0, 0, 0] A h) (fun n => f (n / N * (N + N) + n % N)) := by
  rw [rep4_iff]; intro x y u z
  rw [extractStridedSlice_apply ![0, 0, 0, 0] A h (ix4 x y u z) (ix4 x y 0 z) (fun a => by
        match a with
        | ⟨0, _⟩ => show x.val = 0 + x.val; omega
        | ⟨1, _⟩ => show y.val = 0 + y.val; omega
        | ⟨2, _⟩ => show 0 = 0 + u.val; omega
        | ⟨3, _⟩ => show z.val = 0 + z.val; omega),
    (rep4_iff.mp hA) x y 0 z]
  have hu : u.val = 0 := by omega
  show f (((x.val * P + y.val) * 2 + 0) * N + z.val) = f (_ / N * (N + N) + _ % N)
  rw [(div_mod_row z.isLt).1, (div_mod_row z.isLt).2, hu]
  exact congrArg f (by ring)

/-- Two tables of rows of length N laid side by side: rows of length N + N. -/
def catRows (N : ℕ) (f g : ℕ → EReal) (n : ℕ) : EReal :=
  if n % (N + N) < N then f (n / (N + N) * N + n % (N + N)) else g (n / (N + N) * N + (n % (N + N) - N))

theorem rep_concat3_last {B P N K2 : ℕ} (hK : K2 = N + N) {A C : (⟨3, ![B, P, N]⟩ : Shape).Idx → EReal} {f g : ℕ → EReal}
    (hA : Rep A f) (hC : Rep C g)
    (h : Shape.Concatenates [(⟨3, ![B, P, N]⟩ : Shape), (⟨3, ![B, P, N]⟩ : Shape)] ⟨3, ![B, P, K2]⟩ 2) :
    Rep (concatenate ⟨3, ![B, P, K2]⟩ 2 [⟨⟨3, ![B, P, N]⟩, A⟩, ⟨⟨3, ![B, P, N]⟩, C⟩] h) (catRows N f g) := by
  subst hK
  rw [rep3_iff]; intro x y z
  have hz2 := z.isLt
  unfold catRows
  rw [(div_mod_row hz2).1, (div_mod_row hz2).2]
  by_cases hz : z.val < N
  · rw [if_pos hz, concatenate_pair_apply_left 2 A C h (ix3 x y z) rfl (ix3 x y ⟨z.val, hz⟩) (fun b => by
          match b with
          | ⟨0, _⟩ => rfl
          | ⟨1, _⟩ => rfl
          | ⟨2, _⟩ => rfl), (rep3_iff.mp hA) x y ⟨z.val, hz⟩]
  · rw [if_neg hz, concatenate_pair_apply_right 2 A C h (ix3 x y z) rfl rfl (ix3 x y ⟨z.val - N, by omega⟩) (fun b hb => by
          match b with
          | ⟨0, _⟩ => rfl
          | ⟨1, _⟩ => rfl
          | ⟨2, _⟩ => exact absurd rfl hb) (by show (z.val - N) + N = z.val; omega), (rep3_iff.mp hC) x y ⟨z.val - N, by omega⟩]

/-- A contraction over side-by-side rows is the sum of the two halves' contractions, each against its half of the
    weight rows (a sum over N + N terms split at N: no finiteness needed). -/
theorem rowDot_catRows (N N' : ℕ) (f g w : ℕ → EReal) (n : ℕ) :
    rowDot (N + N) N' (N + N) (N + N) 0 (catRows N f g) w n
      = rowDot N N' N (N + N) 0 f w n + rowDot N N' N (N + N) N g w n := by
  unfold rowDot
  rw [Fin.sum_univ_add]
  congr 1
  · refine Finset.sum_congr rfl fun k _ => ?_
    have hk : k.val < N + N := by have := k.isLt; omega
    unfold catRows
    rw [Fin.val_castAdd, (div_mod_row hk).1, (div_mod_row hk).2, if_pos k.isLt]
  · refine Finset.sum_congr rfl fun k _ => ?_
    have hk : N + k.val < N + N := by have := k.isLt; omega
    unfold catRows
    rw [Fin.val_natAdd, (div_mod_row hk).1, (div_mod_row hk).2, if_neg (by omega), Nat.add_sub_cancel_left]
    have e : n % N' * (N + N) + 0 + (N + k.val) = n % N' * (N + N) + N + k.val := by ring
    rw [e]

/-- A new unit axis before the last one keeps every row-major position. -/
theorem rep_bcast4 {B P N : ℕ} {A : (⟨3, ![B, P, N]⟩ : Shape).Idx → EReal} {f : ℕ → EReal} (hA : Rep A f)
    (h : (⟨3, ![B, P, N]⟩ : Shape).BroadcastsInDim ⟨4, ![B, P, 1, N]⟩ ![0, 1, 3]) :
    Rep (broadcastInDim ⟨4, ![B, P, 1, N]⟩ ![0, 1, 3] h A) f := by
  rw [rep4_iff]; intro x y u z
  have hx : B = 1 → x.val = 0 := fun e => by have := x.isLt; omega
  have hy : P = 1 → y.val = 0 := fun e => by have := y.isLt; omega
  have hz : N = 1 → z.val = 0 := fun e => by have := z.isLt; omega
  rw [broadcastInDim_apply ![0, 1, 3] h A (ix4 x y u z) (ix3 x y z) (fun a => by
        match a with
        | ⟨0, _⟩ =>
          show x.val = if B = 1 then 0 else x.val
          split
          · exact hx ‹_›
          · rfl
        | ⟨1, _⟩ =>
          show y.val = if P = 1 then 0 else y.val
          split
          · exact hy ‹_›
          · rfl
        | ⟨2, _⟩ =>
          show z.val = if N = 1 then 0 else z.val
          split
          · exact hz ‹_›
          · rfl), (rep3_iff.mp hA) x y z]
  have hu : u.val = 0 := by omega
  exact congrArg f (by rw [hu]; ring)

/-- Rows of two tables taken alternately: row 2q from f's row q, row 2q+1 from g's row q. -/
def interleave (N : ℕ) (f g : ℕ → EReal) (n : ℕ) : EReal :=
  if n / N % 2 = 0 then f (n / (N + N) * N + n % N) else g (n / (N + N) * N + n % N)

theorem rep_concat4_pair {B P N : ℕ} {A C : (⟨4, ![B, P, 1, N]⟩ : Shape).Idx → EReal} {f g : ℕ → EReal}
    (hA : Rep A f) (hC : Rep C g)
    (h : Shape.Concatenates [(⟨4, ![B, P, 1, N]⟩ : Shape), (⟨4, ![B, P, 1, N]⟩ : Shape)] ⟨4, ![B, P, 2, N]⟩ 2) :
    Rep (concatenate ⟨4, ![B, P, 2, N]⟩ 2 [⟨⟨4, ![B, P, 1, N]⟩, A⟩, ⟨⟨4, ![B, P, 1, N]⟩, C⟩] h) (interleave N f g) := by
  rw [rep4_iff]; intro x y u z
  have hz := z.isLt
  unfold interleave
  rw [(div_mod_row hz).1, (div_mod_row hz).2]
  by_cases hu : u.val = 0
  · have e : ((x.val * P + y.val) * 2 + u.val) * N + z.val = (x.val * P + y.val) * (N + N) + z.val := by rw [hu]; ring
    rw [if_pos (by omega), e, (div_mod_row (show z.val < N + N by omega)).1,
      concatenate_pair_apply_left 2 A C h (ix4 x y u z) rfl (ix4 x y 0 z) (fun b => by
          match b with
          | ⟨0, _⟩ => rfl
          | ⟨1, _⟩ => rfl
          | ⟨2, _⟩ => exact hu.symm
          | ⟨3, _⟩ => rfl), (rep4_iff.mp hA) x y 0 z]
    exact congrArg f (by show ((x.val * P + y.val) * 1 + 0) * N + z.val = _; ring)
  · have hu1 : u.val = 1 := by have := u.isLt; omega
    have e : ((x.val * P + y.val) * 2 + u.val) * N + z.val = (x.val * P + y.val) * (N + N) + (N + z.val) := by rw [hu1]; ring
    rw [if_neg (by omega), e, (div_mod_row (show N + z.val < N + N by omega)).1,
      concatenate_pair_apply_right 2 A C h (ix4 x y u z) rfl rfl (ix4 x y 0 z) (fun b hb => by
          match b with
          | ⟨0, _⟩ => rfl
          | ⟨1, _⟩ => rfl
          | ⟨2, _⟩ => exact absurd rfl hb
          | ⟨3, _⟩ => rfl) (by show 0 + 1 = u.val; omega), (rep4_iff.mp hC) x y 0 z]
    exact congrArg g (by show ((x.val * P + y.val) * 1 + 0) * N + z.val = _; ring)

theorem rep_congr {S : Shape} {A : S.Idx → EReal} {f g : ℕ → EReal} (h : Rep A f) (e : ∀ n, f n = g n) : Rep A g :=
  fun i => (h i).trans (e _)

/-- Side-by-side rows whose right halves are "the first row of each pair" of a table s: the contraction is the
    context's half plus the half read straight from s with rows of length N + N. -/
theorem rowDot_cat_left {N N' K2 : ℕ} (hK : K2 = N + N) (c s w : ℕ → EReal) (n : ℕ) :
    rowDot K2 N' K2 K2 0 (catRows N c (fun m => s (m / N * (N + N) + m % N))) w n
      = rowDot N N' N K2 0 c w n + rowDot N N' K2 K2 N s w n := by
  subst hK
  rw [rowDot_catRows]
  congr 1
  unfold rowDot
  refine Finset.sum_congr rfl fun k _ => ?_
  show s ((n / N' * N + k.val) / N * (N + N) + (n / N' * N + k.val) % N) * _ = _
  rw [(div_mod_row k.isLt).1, (div_mod_row k.isLt).2]

theorem rowDot_cat_plain {N N' K2 : ℕ} (hK : K2 = N + N) (f g w : ℕ → EReal) (n : ℕ) :
    rowDot K2 N' K2 K2 0 (catRows N f g) w n = rowDot N N' N K2 0 f w n + rowDot N N' N K2 N g w n := by
  subst hK
  exact rowDot_catRows N N' f g w n

/-- A constant array. -/
theorem rep_const {T : Shape} {φ : FTy} (b : BitVec φ.bits) (h : (⟨0, ![]⟩ : Shape).BroadcastsInDim T ![]) :
    Rep (broadcastInDim T ![] h (constant (F := Ideal) ⟨0, ![]⟩ φ b)) (fun _ => Ideal.ofBits φ b) := fun _ => rfl

end Cert.Lib.SpikeLayer

end
-- ==== Proof.TreeSpec.lean ====
/-
  The tree sweep, as functions of row-major positions.

  Rows have 512 entries.  The up sweep halves the number of rows at every level: level l reads its input as rows of
  1024 entries (two adjacent rows side by side), multiplies by the level's weight table [512, 1024], adds the
  level's bias row, compares with the level's threshold row and divides every 0/1 row by (its sum + eps).  The down
  sweep starts from a zero context of one row per batch entry and doubles the rows at every step: the new right-hand
  rows are the same kind of layer applied to (context row, left child's summary row) — the contraction split into
  its two halves of 512 terms — and the new context interleaves the old context rows with them.  The leaf layer is
  that two-half layer applied to (input row, context row).
-/
import proofs.«113582_j30116310680263_2_alg».proof.Proof.LibSpikeLayer

noncomputable section

namespace Cert.TreeSpec

open Cert.Lib.SpikeLayer

/-- The ten argument arrays, listed by row-major position. -/
structure Tables where
  x : ℕ → EReal
  uW : ℕ → EReal
  ub : ℕ → EReal
  ut : ℕ → EReal
  dW : ℕ → EReal
  db : ℕ → EReal
  dt : ℕ → EReal
  lW : ℕ → EReal
  lb : ℕ → EReal
  lt : ℕ → EReal

/-- The 0/1 table of up-sweep level l on the input table a. -/
def upSpike (T : Tables) (l : ℕ) (a : ℕ → EReal) : ℕ → EReal := fun n =>
  spike (rowDot 1024 512 1024 1024 0 a (fun j => T.uW (l * (512 * 1024) + j)) n + colOf 512 (fun j => T.ub (l * 512 + j)) n)
    (colOf 512 (fun j => T.ut (l * 512 + j)) n)

/-- The 0/1 table of the down-sweep step with parameters i on the context c and the summaries s (whose rows of
    1024 hold a left child then a right child). -/
def downSpike (T : Tables) (i : ℕ) (c s : ℕ → EReal) : ℕ → EReal := fun n =>
  spike ((rowDot 512 512 512 1024 0 c (fun j => T.dW (i * (512 * 1024) + j)) n
          + rowDot 512 512 1024 1024 512 s (fun j => T.dW (i * (512 * 1024) + j)) n)
         + colOf 512 (fun j => T.db (i * 512 + j)) n)
    (colOf 512 (fun j => T.dt (i * 512 + j)) n)

/-- The 0/1 table of the leaf layer on the context c. -/
def leafSpike (T : Tables) (c : ℕ → EReal) : ℕ → EReal := fun n =>
  spike ((rowDot 512 512 512 1024 0 T.x T.lW n + rowDot 512 512 512 1024 512 c T.lW n) + colOf 512 T.lb n) (colOf 512 T.lt n)

/-- The summaries: s0 is the input, s(l+1) the normalized spikes of level l on s(l). -/
def s0 (T : Tables) : ℕ → EReal := T.x
def s1 (T : Tables) : ℕ → EReal := rowNormalize 512 (upSpike T 0 (s0 T))
def s2 (T : Tables) : ℕ → EReal := rowNormalize 512 (upSpike T 1 (s1 T))
def s3 (T : Tables) : ℕ → EReal := rowNormalize 512 (upSpike T 2 (s2 T))
def s4 (T : Tables) : ℕ → EReal := rowNormalize 512 (upSpike T 3 (s3 T))
def s5 (T : Tables) : ℕ → EReal := rowNormalize 512 (upSpike T 4 (s4 T))
def s6 (T : Tables) : ℕ → EReal := rowNormalize 512 (upSpike T 5 (s5 T))
def s7 (T : Tables) : ℕ → EReal := rowNormalize 512 (upSpike T 6 (s6 T))
def s8 (T : Tables) : ℕ → EReal := rowNormalize 512 (upSpike T 7 (s7 T))
def s9 (T : Tables) : ℕ → EReal := rowNormalize 512 (upSpike T 8 (s8 T))
def s10 (T : Tables) : ℕ → EReal := rowNormalize 512 (upSpike T 9 (s9 T))
def s11 (T : Tables) : ℕ → EReal := rowNormalize 512 (upSpike T 10 (s10 T))

/-- The contexts: c0 is zero, c(j+1) interleaves c(j) with the normalized spikes of the step with parameters 11 - j. -/
def c0 (_T : Tables) : ℕ → EReal := fun _ => 0
def c1 (T : Tables) : ℕ → EReal := interleave 512 (c0 T) (rowNormalize 512 (downSpike T 11 (c0 T) (s11 T)))
def c2 (T : Tables) : ℕ → EReal := interleave 512 (c1 T) (rowNormalize 512 (downSpike T 10 (c1 T) (s10 T)))
def c3 (T : Tables) : ℕ → EReal := interleave 512 (c2 T) (rowNormalize 512 (downSpike T 9 (c2 T) (s9 T)))
def c4 (T : Tables) : ℕ → EReal := interleave 512 (c3 T) (rowNormalize 512 (downSpike T 8 (c3 T) (s8 T)))
def c5 (T : Tables) : ℕ → EReal := interleave 512 (c4 T) (rowNormalize 512 (downSpike T 7 (c4 T) (s7 T)))
def c6 (T : Tables) : ℕ → EReal := interleave 512 (c5 T) (rowNormalize 512 (downSpike T 6 (c5 T) (s6 T)))
def c7 (T : Tables) : ℕ → EReal := interleave 512 (c6 T) (rowNormalize 512 (downSpike T 5 (c6 T) (s5 T)))
def c8 (T : Tables) : ℕ → EReal := interleave 512 (c7 T) (rowNormalize 512 (downSpike T 4 (c7 T) (s4 T)))
def c9 (T : Tables) : ℕ → EReal := interleave 512 (c8 T) (rowNormalize 512 (downSpike T 3 (c8 T) (s3 T)))
def c10 (T : Tables) : ℕ → EReal := interleave 512 (c9 T) (rowNormalize 512 (downSpike T 2 (c9 T) (s2 T)))
def c11 (T : Tables) : ℕ → EReal := interleave 512 (c10 T) (rowNormalize 512 (downSpike T 1 (c10 T) (s1 T)))
def c12 (T : Tables) : ℕ → EReal := interleave 512 (c11 T) (rowNormalize 512 (downSpike T 0 (c11 T) (s0 T)))

/-- The result. -/
def out (T : Tables) : ℕ → EReal := rowNormalize 512 (leafSpike T (c12 T))

end Cert.TreeSpec

end
-- ==== Proof.RefValue.lean ====
/-
  The reference computes the tree sweep of TreeSpec: level by level, each named intermediate array of the
  reference's run is represented (read through row-major positions) by the corresponding table of the specification.
  Up level l: the summary s(l), reshaped to rows of 1024, against the level's slice of the weights; down step j: the
  context next to the first row of each pair of s(11 - j), a contraction over 1024 terms that splits into its two
  halves; the leaf: the input next to the last context.
-/
import proofs.«113582_j30116310680263_2_alg».proof.Proof.Gen.ReferenceIdeal.Run
import proofs.«113582_j30116310680263_2_alg».proof.Proof.LibRowMajor
import proofs.«113582_j30116310680263_2_alg».proof.Proof.LibSpikeLayer
import proofs.«113582_j30116310680263_2_alg».proof.Proof.TreeSpec

set_option maxRecDepth 8192

noncomputable section

namespace Cert.ReferenceIdeal.RefValue

open Cert.ReferenceIdeal Cert.ReferenceIdeal.Gen Cert.ReferenceIdeal.Value Idealize.ShloMosaic Idealize.ShloMosaic.StableHlo
open Cert.Lib.RowMajor Cert.Lib.SpikeLayer Cert.TreeSpec

abbrev Val := Valuation τ sig (Elt Ideal)

/-- The argument arrays by row-major position. -/
def tables (V0 : Val) : Tables where
  x := flatOf (S := S16x4096x512) (V0 (Proc.devRef .tc main_arg0))
  uW := flatOf (S := S12x512x1024) (V0 (Proc.devRef .tc main_arg1))
  ub := flatOf (S := S12x512) (V0 (Proc.devRef .tc main_arg2))
  ut := flatOf (S := S12x512) (V0 (Proc.devRef .tc main_arg3))
  dW := flatOf (S := S12x512x1024) (V0 (Proc.devRef .tc main_arg4))
  db := flatOf (S := S12x512) (V0 (Proc.devRef .tc main_arg5))
  dt := flatOf (S := S12x512) (V0 (Proc.devRef .tc main_arg6))
  lW := flatOf (S := S512x1024) (V0 (Proc.devRef .tc main_arg7))
  lb := flatOf (S := S512) (V0 (Proc.devRef .tc main_arg8))
  lt := flatOf (S := S512) (V0 (Proc.devRef .tc main_arg9))

/-! ## The contraction records: rows of the left operand against rows of the weight table -/
theorem rbr1 : RowsByRows dot_S16x1x1024_S512x1024_S16x1x512_2_1_01_0_n_n :=
  ⟨rfl, rfl, fun _ _ => rfl, fun _ _ => rfl, fun _ _ => rfl, fun _ _ => rfl, fun _ _ => rfl⟩
theorem rbr2 : RowsByRows dot_S16x2x1024_S512x1024_S16x2x512_2_1_01_0_n_n :=
  ⟨rfl, rfl, fun _ _ => rfl, fun _ _ => rfl, fun _ _ => rfl, fun _ _ => rfl, fun _ _ => rfl⟩
theorem rbr4 : RowsByRows dot_S16x4x1024_S512x1024_S16x4x512_2_1_01_0_n_n :=
  ⟨rfl, rfl, fun _ _ => rfl, fun _ _ => rfl, fun _ _ => rfl, fun _ _ => rfl, fun _ _ => rfl⟩
theorem rbr8 : RowsByRows dot_S16x8x1024_S512x1024_S16x8x512_2_1_01_0_n_n :=
  ⟨rfl, rfl, fun _ _ => rfl, fun _ _ => rfl, fun _ _ => rfl, fun _ _ => rfl, fun _ _ => rfl⟩
theorem rbr16 : RowsByRows dot_S16x16x1024_S512x1024_S16x16x512_2_1_01_0_n_n :=
  ⟨rfl, rfl, fun _ _ => rfl, fun _ _ => rfl, fun _ _ => rfl, fun _ _ => rfl, fun _ _ => rfl⟩
theorem rbr32 : RowsByRows dot_S16x32x1024_S512x1024_S16x32x512_2_1_01_0_n_n :=
  ⟨rfl, rfl, fun _ _ => rfl, fun _ _ => rfl, fun _ _ => rfl, fun _ _ => rfl, fun _ _ => rfl⟩
theorem rbr64 : RowsByRows dot_S16x64x1024_S512x1024_S16x64x512_2_1_01_0_n_n :=
  ⟨rfl, rfl, fun _ _ => rfl, fun _ _ => rfl, fun _ _ => rfl, fun _ _ => rfl, fun _ _ => rfl⟩
theorem rbr128 : RowsByRows dot_S16x128x1024_S512x1024_S16x128x512_2_1_01_0_n_n :=
  ⟨rfl, rfl, fun _ _ => rfl, fun _ _ => rfl, fun _ _ => rfl, fun _ _ => rfl, fun _ _ => rfl⟩
theorem rbr256 : RowsByRows dot_S16x256x1024_S512x1024_S16x256x512_2_1_01_0_n_n :=
  ⟨rfl, rfl, fun _ _ => rfl, fun _ _ => rfl, fun _ _ => rfl, fun _ _ => rfl, fun _ _ => rfl⟩
theorem rbr512 : RowsByRows dot_S16x512x1024_S512x1024_S16x512x512_2_1_01_0_n_n :=
  ⟨rfl, rfl, fun _ _ => rfl, fun _ _ => rfl, fun _ _ => rfl, fun _ _ => rfl, fun _ _ => rfl⟩
theorem rbr1024 : RowsByRows dot_S16x1024x1024_S512x1024_S16x1024x512_2_1_01_0_n_n :=
  ⟨rfl, rfl, fun _ _ => rfl, fun _ _ => rfl, fun _ _ => rfl, fun _ _ => rfl, fun _ _ => rfl⟩
theorem rbr2048 : RowsByRows dot_S16x2048x1024_S512x1024_S16x2048x512_2_1_01_0_n_n :=
  ⟨rfl, rfl, fun _ _ => rfl, fun _ _ => rfl, fun _ _ => rfl, fun _ _ => rfl, fun _ _ => rfl⟩
theorem rbr4096 : RowsByRows dot_S16x4096x1024_S512x1024_S16x4096x512_2_1_01_0_n_n :=
  ⟨rfl, rfl, fun _ _ => rfl, fun _ _ => rfl, fun _ _ => rfl, fun _ _ => rfl, fun _ _ => rfl⟩

/-! ## The up sweep -/

theorem rep_s0 (V0 : Val) : Rep (S := S16x4096x512) (V0 (Proc.devRef .tc main_arg0)) (s0 (tables V0)) := rep_flatOf _

theorem rep_upSpike0 (V0 : Val) : Rep (S := S16x2048x512) (res_main_v14 (F := Ideal) V0) (upSpike (tables V0) 0 (s0 (tables V0))) := by
  unfold res_main_v14
  exact rep_spike (rep_addf (rep_dot3 rbr2048 (rep_shapeCast (rep_s0 V0) _) (rep_shapeCast (rep_slice3 (rep_flatOf _) 0 (by omega) _) _) none)
      (rep_rowBroadcast3 (rep_shapeCast (rep_slice2 (rep_flatOf _) 0 (by omega) _) _) _ _))
    (rep_rowBroadcast3 (rep_shapeCast (rep_slice2 (rep_flatOf _) 0 (by omega) _) _) _ _)

theorem rep_s1 (V0 : Val) : Rep (S := S16x2048x512) (res_main_v20 (F := Ideal) V0) (s1 (tables V0)) := by
  unfold res_main_v20
  exact rep_normalize3 (rep_upSpike0 V0) _ (by decide) _ _ _ _

theorem rep_upSpike1 (V0 : Val) : Rep (S := S16x1024x512) (res_main_v35 (F := Ideal) V0) (upSpike (tables V0) 1 (s1 (tables V0))) := by
  unfold res_main_v35
  exact rep_spike (rep_addf (rep_dot3 rbr1024 (rep_shapeCast (rep_s1 V0) _) (rep_shapeCast (rep_slice3 (rep_flatOf _) 1 (by omega) _) _) none)
      (rep_rowBroadcast3 (rep_shapeCast (rep_slice2 (rep_flatOf _) 1 (by omega) _) _) _ _))
    (rep_rowBroadcast3 (rep_shapeCast (rep_slice2 (rep_flatOf _) 1 (by omega) _) _) _ _)

theorem rep_s2 (V0 : Val) : Rep (S := S16x1024x512) (res_main_v41 (F := Ideal) V0) (s2 (tables V0)) := by
  unfold res_main_v41
  exact rep_normalize3 (rep_upSpike1 V0) _ (by decide) _ _ _ _

theorem rep_upSpike2 (V0 : Val) : Rep (S := S16x512x512) (res_main_v56 (F := Ideal) V0) (upSpike (tables V0) 2 (s2 (tables V0))) := by
  unfold res_main_v56
  exact rep_spike (rep_addf (rep_dot3 rbr512 (rep_shapeCast (rep_s2 V0) _) (rep_shapeCast (rep_slice3 (rep_flatOf _) 2 (by omega) _) _) none)
      (rep_rowBroadcast3 (rep_shapeCast (rep_slice2 (rep_flatOf _) 2 (by omega) _) _) _ _))
    (rep_rowBroadcast3 (rep_shapeCast (rep_slice2 (rep_flatOf _) 2 (by omega) _) _) _ _)

theorem rep_s3 (V0 : Val) : Rep (S := S16x512x512) (res_main_v62 (F := Ideal) V0) (s3 (tables V0)) := by
  unfold res_main_v62
  exact rep_normalize3 (rep_upSpike2 V0) _ (by decide) _ _ _ _

theorem rep_upSpike3 (V0 : Val) : Rep (S := S16x256x512) (res_main_v77 (F := Ideal) V0) (upSpike (tables V0) 3 (s3 (tables V0))) := by
  unfold res_main_v77
  exact rep_spike (rep_addf (rep_dot3 rbr256 (rep_shapeCast (rep_s3 V0) _) (rep_shapeCast (rep_slice3 (rep_flatOf _) 3 (by omega) _) _) none)
      (rep_rowBroadcast3 (rep_shapeCast (rep_slice2 (rep_flatOf _) 3 (by omega) _) _) _ _))
    (rep_rowBroadcast3 (rep_shapeCast (rep_slice2 (rep_flatOf _) 3 (by omega) _) _) _ _)

theorem rep_s4 (V0 : Val) : Rep (S := S16x256x512) (res_main_v83 (F := Ideal) V0) (s4 (tables V0)) := by
  unfold res_main_v83
  exact rep_normalize3 (rep_upSpike3 V0) _ (by decide) _ _ _ _

theorem rep_upSpike4 (V0 : Val) : Rep (S := S16x128x512) (res_main_v98 (F := Ideal) V0) (upSpike (tables V0) 4 (s4 (tables V0))) := by
  unfold res_main_v98
  exact rep_spike (rep_addf (rep_dot3 rbr128 (rep_shapeCast (rep_s4 V0) _) (rep_shapeCast (rep_slice3 (rep_flatOf _) 4 (by omega) _) _) none)
      (rep_rowBroadcast3 (rep_shapeCast (rep_slice2 (rep_flatOf _) 4 (by omega) _) _) _ _))
    (rep_rowBroadcast3 (rep_shapeCast (rep_slice2 (rep_flatOf _) 4 (by omega) _) _) _ _)

theorem rep_s5 (V0 : Val) : Rep (S := S16x128x512) (res_main_v104 (F := Ideal) V0) (s5 (tables V0)) := by
  unfold res_main_v104
  exact rep_normalize3 (rep_upSpike4 V0) _ (by decide) _ _ _ _

theorem rep_upSpike5 (V0 : Val) : Rep (S := S16x64x512) (res_main_v119 (F := Ideal) V0) (upSpike (tables V0) 5 (s5 (tables V0))) := by
  unfold res_main_v119
  exact rep_spike (rep_addf (rep_dot3 rbr64 (rep_shapeCast (rep_s5 V0) _) (rep_shapeCast (rep_slice3 (rep_flatOf _) 5 (by omega) _) _) none)
      (rep_rowBroadcast3 (rep_shapeCast (rep_slice2 (rep_flatOf _) 5 (by omega) _) _) _ _))
    (rep_rowBroadcast3 (rep_shapeCast (rep_slice2 (rep_flatOf _) 5 (by omega) _) _) _ _)

theorem rep_s6 (V0 : Val) : Rep (S := S16x64x512) (res_main_v125 (F := Ideal) V0) (s6 (tables V0)) := by
  unfold res_main_v125
  exact rep_normalize3 (rep_upSpike5 V0) _ (by decide) _ _ _ _

theorem rep_upSpike6 (V0 : Val) : Rep (S := S16x32x512) (res_main_v140 (F := Ideal) V0) (upSpike (tables V0) 6 (s6 (tables V0))) := by
  unfold res_main_v140
  exact rep_spike (rep_addf (rep_dot3 rbr32 (rep_shapeCast (rep_s6 V0) _) (rep_shapeCast (rep_slice3 (rep_flatOf _) 6 (by omega) _) _) none)
      (rep_rowBroadcast3 (rep_shapeCast (rep_slice2 (rep_flatOf _) 6 (by omega) _) _) _ _))
    (rep_rowBroadcast3 (rep_shapeCast (rep_slice2 (rep_flatOf _) 6 (by omega) _) _) _ _)

theorem rep_s7 (V0 : Val) : Rep (S := S16x32x512) (res_main_v146 (F := Ideal) V0) (s7 (tables V0)) := by
  unfold res_main_v146
  exact rep_normalize3 (rep_upSpike6 V0) _ (by decide) _ _ _ _

theorem rep_upSpike7 (V0 : Val) : Rep (S := S16x16x512) (res_main_v161 (F := Ideal) V0) (upSpike (tables V0) 7 (s7 (tables V0))) := by
  unfold res_main_v161
  exact rep_spike (rep_addf (rep_dot3 rbr16 (rep_shapeCast (rep_s7 V0) _) (rep_shapeCast (rep_slice3 (rep_flatOf _) 7 (by omega) _) _) none)
      (rep_rowBroadcast3 (rep_shapeCast (rep_slice2 (rep_flatOf _) 7 (by omega) _) _) _ _))
    (rep_rowBroadcast3 (rep_shapeCast (rep_slice2 (rep_flatOf _) 7 (by omega) _) _) _ _)

theorem rep_s8 (V0 : Val) : Rep (S := S16x16x512) (res_main_v167 (F := Ideal) V0) (s8 (tables V0)) := by
  unfold res_main_v167
  exact rep_normalize3 (rep_upSpike7 V0) _ (by decide) _ _ _ _

theorem rep_upSpike8 (V0 : Val) : Rep (S := S16x8x512) (res_main_v182 (F := Ideal) V0) (upSpike (tables V0) 8 (s8 (tables V0))) := by
  unfold res_main_v182
  exact rep_spike (rep_addf (rep_dot3 rbr8 (rep_shapeCast (rep_s8 V0) _) (rep_shapeCast (rep_slice3 (rep_flatOf _) 8 (by omega) _) _) none)
      (rep_rowBroadcast3 (rep_shapeCast (rep_slice2 (rep_flatOf _) 8 (by omega) _) _) _ _))
    (rep_rowBroadcast3 (rep_shapeCast (rep_slice2 (rep_flatOf _) 8 (by omega) _) _) _ _)

theorem rep_s9 (V0 : Val) : Rep (S := S16x8x512) (res_main_v188 (F := Ideal) V0) (s9 (tables V0)) := by
  unfold res_main_v188
  exact rep_normalize3 (rep_upSpike8 V0) _ (by decide) _ _ _ _

theorem rep_upSpike9 (V0 : Val) : Rep (S := S16x4x512) (res_main_v203 (F := Ideal) V0) (upSpike (tables V0) 9 (s9 (tables V0))) := by
  unfold res_main_v203
  exact rep_spike (rep_addf (rep_dot3 rbr4 (rep_shapeCast (rep_s9 V0) _) (rep_shapeCast (rep_slice3 (rep_flatOf _) 9 (by omega) _) _) none)
      (rep_rowBroadcast3 (rep_shapeCast (rep_slice2 (rep_flatOf _) 9 (by omega) _) _) _ _))
    (rep_rowBroadcast3 (rep_shapeCast (rep_slice2 (rep_flatOf _) 9 (by omega) _) _) _ _)

theorem rep_s10 (V0 : Val) : Rep (S := S16x4x512) (res_main_v209 (F := Ideal) V0) (s10 (tables V0)) := by
  unfold res_main_v209
  exact rep_normalize3 (rep_upSpike9 V0) _ (by decide) _ _ _ _

theorem rep_upSpike10 (V0 : Val) : Rep (S := S16x2x512) (res_main_v224 (F := Ideal) V0) (upSpike (tables V0) 10 (s10 (tables V0))) := by
  unfold res_main_v224
  exact rep_spike (rep_addf (rep_dot3 rbr2 (rep_shapeCast (rep_s10 V0) _) (rep_shapeCast (rep_slice3 (rep_flatOf _) 10 (by omega) _) _) none)
      (rep_rowBroadcast3 (rep_shapeCast (rep_slice2 (rep_flatOf _) 10 (by omega) _) _) _ _))
    (rep_rowBroadcast3 (rep_shapeCast (rep_slice2 (rep_flatOf _) 10 (by omega) _) _) _ _)

theorem rep_s11 (V0 : Val) : Rep (S := S16x2x512) (res_main_v230 (F := Ideal) V0) (s11 (tables V0)) := by
  unfold res_main_v230
  exact rep_normalize3 (rep_upSpike10 V0) _ (by decide) _ _ _ _

/-! ## The down sweep -/

theorem rep_c0 (V0 : Val) : Rep (S := S16x1x512) (res_main_v252 (F := Ideal) V0) (c0 (tables V0)) := by
  unfold res_main_v252
  exact rep_congr (rep_const _ _) (fun _ => Ideal.ofBits_zero_f32)

theorem rep_downSpike0 (V0 : Val) : Rep (S := S16x1x512) (res_main_v270 (F := Ideal) V0) (downSpike (tables V0) 11 (c0 (tables V0)) (s11 (tables V0))) := by
  unfold res_main_v270
  exact rep_spike (rep_addf
      (rep_congr (rep_dot3 rbr1 (rep_concat3_last (N := 512) (K2 := 1024) rfl (rep_c0 V0) (rep_shapeCast (rep_slice4_first (rep_shapeCast (rep_s11 V0) _) _) _) _)
          (rep_shapeCast (rep_slice3 (rep_flatOf _) 11 (by omega) _) _) none)
        (fun n => rowDot_cat_left (N := 512) (N' := 512) (K2 := 1024) rfl _ _ _ n))
      (rep_rowBroadcast3 (rep_shapeCast (rep_slice2 (rep_flatOf _) 11 (by omega) _) _) _ _))
    (rep_rowBroadcast3 (rep_shapeCast (rep_slice2 (rep_flatOf _) 11 (by omega) _) _) _ _)

theorem rep_c1 (V0 : Val) : Rep (S := S16x2x512) (res_main_v280 (F := Ideal) V0) (c1 (tables V0)) := by
  unfold res_main_v280
  exact rep_shapeCast (rep_concat4_pair (rep_bcast4 (rep_c0 V0) _) (rep_bcast4 (rep_normalize3 (rep_downSpike0 V0) _ (by decide) _ _ _ _) _) _) _

theorem rep_downSpike1 (V0 : Val) : Rep (S := S16x2x512) (res_main_v298 (F := Ideal) V0) (downSpike (tables V0) 10 (c1 (tables V0)) (s10 (tables V0))) := by
  unfold res_main_v298
  exact rep_spike (rep_addf
      (rep_congr (rep_dot3 rbr2 (rep_concat3_last (N := 512) (K2 := 1024) rfl (rep_c1 V0) (rep_shapeCast (rep_slice4_first (rep_shapeCast (rep_s10 V0) _) _) _) _)
          (rep_shapeCast (rep_slice3 (rep_flatOf _) 10 (by omega) _) _) none)
        (fun n => rowDot_cat_left (N := 512) (N' := 512) (K2 := 1024) rfl _ _ _ n))
      (rep_rowBroadcast3 (rep_shapeCast (rep_slice2 (rep_flatOf _) 10 (by omega) _) _) _ _))
    (rep_rowBroadcast3 (rep_shapeCast (rep_slice2 (rep_flatOf _) 10 (by omega) _) _) _ _)

theorem rep_c2 (V0 : Val) : Rep (S := S16x4x512) (res_main_v308 (F := Ideal) V0) (c2 (tables V0)) := by
  unfold res_main_v308
  exact rep_shapeCast (rep_concat4_pair (rep_bcast4 (rep_c1 V0) _) (rep_bcast4 (rep_normalize3 (rep_downSpike1 V0) _ (by decide) _ _ _ _) _) _) _

theorem rep_downSpike2 (V0 : Val) : Rep (S := S16x4x512) (res_main_v326 (F := Ideal) V0) (downSpike (tables V0) 9 (c2 (tables V0)) (s9 (tables V0))) := by
  unfold res_main_v326
  exact rep_spike (rep_addf
      (rep_congr (rep_dot3 rbr4 (rep_concat3_last (N := 512) (K2 := 1024) rfl (rep_c2 V0) (rep_shapeCast (rep_slice4_first (rep_shapeCast (rep_s9 V0) _) _) _) _)
          (rep_shapeCast (rep_slice3 (rep_flatOf _) 9 (by omega) _) _) none)
        (fun n => rowDot_cat_left (N := 512) (N' := 512) (K2 := 1024) rfl _ _ _ n))
      (rep_rowBroadcast3 (rep_shapeCast (rep_slice2 (rep_flatOf _) 9 (by omega) _) _) _ _))
    (rep_rowBroadcast3 (rep_shapeCast (rep_slice2 (rep_flatOf _) 9 (by omega) _) _) _ _)

theorem rep_c3 (V0 : Val) : Rep (S := S16x8x512) (res_main_v336 (F := Ideal) V0) (c3 (tables V0)) := by
  unfold res_main_v336
  exact rep_shapeCast (rep_concat4_pair (rep_bcast4 (rep_c2 V0) _) (rep_bcast4 (rep_normalize3 (rep_downSpike2 V0) _ (by decide) _ _ _ _) _) _) _

theorem rep_downSpike3 (V0 : Val) : Rep (S := S16x8x512) (res_main_v354 (F := Ideal) V0) (downSpike (tables V0) 8 (c3 (tables V0)) (s8 (tables V0))) := by
  unfold res_main_v354
  exact rep_spike (rep_addf
      (rep_congr (rep_dot3 rbr8 (rep_concat3_last (N := 512) (K2 := 1024) rfl (rep_c3 V0) (rep_shapeCast (rep_slice4_first (rep_shapeCast (rep_s8 V0) _) _) _) _)
          (rep_shapeCast (rep_slice3 (rep_flatOf _) 8 (by omega) _) _) none)
        (fun n => rowDot_cat_left (N := 512) (N' := 512) (K2 := 1024) rfl _ _ _ n))
      (rep_rowBroadcast3 (rep_shapeCast (rep_slice2 (rep_flatOf _) 8 (by omega) _) _) _ _))
    (rep_rowBroadcast3 (rep_shapeCast (rep_slice2 (rep_flatOf _) 8 (by omega) _) _) _ _)

theorem rep_c4 (V0 : Val) : Rep (S := S16x16x512) (res_main_v364 (F := Ideal) V0) (c4 (tables V0)) := by
  unfold res_main_v364
  exact rep_shapeCast (rep_concat4_pair (rep_bcast4 (rep_c3 V0) _) (rep_bcast4 (rep_normalize3 (rep_downSpike3 V0) _ (by decide) _ _ _ _) _) _) _

theorem rep_downSpike4 (V0 : Val) : Rep (S := S16x16x512) (res_main_v382 (F := Ideal) V0) (downSpike (tables V0) 7 (c4 (tables V0)) (s7 (tables V0))) := by
  unfold res_main_v382
  exact rep_spike (rep_addf
      (rep_congr (rep_dot3 rbr16 (rep_concat3_last (N := 512) (K2 := 1024) rfl (rep_c4 V0) (rep_shapeCast (rep_slice4_first (rep_shapeCast (rep_s7 V0) _) _) _) _)
          (rep_shapeCast (rep_slice3 (rep_flatOf _) 7 (by omega) _) _) none)
        (fun n => rowDot_cat_left (N := 512) (N' := 512) (K2 := 1024) rfl _ _ _ n))
      (rep_rowBroadcast3 (rep_shapeCast (rep_slice2 (rep_flatOf _) 7 (by omega) _) _) _ _))
    (rep_rowBroadcast3 (rep_shapeCast (rep_slice2 (rep_flatOf _) 7 (by omega) _) _) _ _)

theorem rep_c5 (V0 : Val) : Rep (S := S16x32x512) (res_main_v392 (F := Ideal) V0) (c5 (tables V0)) := by
  unfold res_main_v392
  exact rep_shapeCast (rep_concat4_pair (rep_bcast4 (rep_c4 V0) _) (rep_bcast4 (rep_normalize3 (rep_downSpike4 V0) _ (by decide) _ _ _ _) _) _) _

theorem rep_downSpike5 (V0 : Val) : Rep (S := S16x32x512) (res_main_v410 (F := Ideal) V0) (downSpike (tables V0) 6 (c5 (tables V0)) (s6 (tables V0))) := by
  unfold res_main_v410
  exact rep_spike (rep_addf
      (rep_congr (rep_dot3 rbr32 (rep_concat3_last (N := 512) (K2 := 1024) rfl (rep_c5 V0) (rep_shapeCast (rep_slice4_first (rep_shapeCast (rep_s6 V0) _) _) _) _)
          (rep_shapeCast (rep_slice3 (rep_flatOf _) 6 (by omega) _) _) none)
        (fun n => rowDot_cat_left (N := 512) (N' := 512) (K2 := 1024) rfl _ _ _ n))
      (rep_rowBroadcast3 (rep_shapeCast (rep_slice2 (rep_flatOf _) 6 (by omega) _) _) _ _))
    (rep_rowBroadcast3 (rep_shapeCast (rep_slice2 (rep_flatOf _) 6 (by omega) _) _) _ _)

theorem rep_c6 (V0 : Val) : Rep (S := S16x64x512) (res_main_v420 (F := Ideal) V0) (c6 (tables V0)) := by
  unfold res_main_v420
  exact rep_shapeCast (rep_concat4_pair (rep_bcast4 (rep_c5 V0) _) (rep_bcast4 (rep_normalize3 (rep_downSpike5 V0) _ (by decide) _ _ _ _) _) _) _

theorem rep_downSpike6 (V0 : Val) : Rep (S := S16x64x512) (res_main_v438 (F := Ideal) V0) (downSpike (tables V0) 5 (c6 (tables V0)) (s5 (tables V0))) := by
  unfold res_main_v438
  exact rep_spike (rep_addf
      (rep_congr (rep_dot3 rbr64 (rep_concat3_last (N := 512) (K2 := 1024) rfl (rep_c6 V0) (rep_shapeCast (rep_slice4_first (rep_shapeCast (rep_s5 V0) _) _) _) _)
          (rep_shapeCast (rep_slice3 (rep_flatOf _) 5 (by omega) _) _) none)
        (fun n => rowDot_cat_left (N := 512) (N' := 512) (K2 := 1024) rfl _ _ _ n))
      (rep_rowBroadcast3 (rep_shapeCast (rep_slice2 (rep_flatOf _) 5 (by omega) _) _) _ _))
    (rep_rowBroadcast3 (rep_shapeCast (rep_slice2 (rep_flatOf _) 5 (by omega) _) _) _ _)

theorem rep_c7 (V0 : Val) : Rep (S := S16x128x512) (res_main_v448 (F := Ideal) V0) (c7 (tables V0)) := by
  unfold res_main_v448
  exact rep_shapeCast (rep_concat4_pair (rep_bcast4 (rep_c6 V0) _) (rep_bcast4 (rep_normalize3 (rep_downSpike6 V0) _ (by decide) _ _ _ _) _) _) _

theorem rep_downSpike7 (V0 : Val) : Rep (S := S16x128x512) (res_main_v466 (F := Ideal) V0) (downSpike (tables V0) 4 (c7 (tables V0)) (s4 (tables V0))) := by
  unfold res_main_v466
  exact rep_spike (rep_addf
      (rep_congr (rep_dot3 rbr128 (rep_concat3_last (N := 512) (K2 := 1024) rfl (rep_c7 V0) (rep_shapeCast (rep_slice4_first (rep_shapeCast (rep_s4 V0) _) _) _) _)
          (rep_shapeCast (rep_slice3 (rep_flatOf _) 4 (by omega) _) _) none)
        (fun n => rowDot_cat_left (N := 512) (N' := 512) (K2 := 1024) rfl _ _ _ n))
      (rep_rowBroadcast3 (rep_shapeCast (rep_slice2 (rep_flatOf _) 4 (by omega) _) _) _ _))
    (rep_rowBroadcast3 (rep_shapeCast (rep_slice2 (rep_flatOf _) 4 (by omega) _) _) _ _)

theorem rep_c8 (V0 : Val) : Rep (S := S16x256x512) (res_main_v476 (F := Ideal) V0) (c8 (tables V0)) := by
  unfold res_main_v476
  exact rep_shapeCast (rep_concat4_pair (rep_bcast4 (rep_c7 V0) _) (rep_bcast4 (rep_normalize3 (rep_downSpike7 V0) _ (by decide) _ _ _ _) _) _) _

theorem rep_downSpike8 (V0 : Val) : Rep (S := S16x256x512) (res_main_v494 (F := Ideal) V0) (downSpike (tables V0) 3 (c8 (tables V0)) (s3 (tables V0))) := by
  unfold res_main_v494
  exact rep_spike (rep_addf
      (rep_congr (rep_dot3 rbr256 (rep_concat3_last (N := 512) (K2 := 1024) rfl (rep_c8 V0) (rep_shapeCast (rep_slice4_first (rep_shapeCast (rep_s3 V0) _) _) _) _)
          (rep_shapeCast (rep_slice3 (rep_flatOf _) 3 (by omega) _) _) none)
        (fun n => rowDot_cat_left (N := 512) (N' := 512) (K2 := 1024) rfl _ _ _ n))
      (rep_rowBroadcast3 (rep_shapeCast (rep_slice2 (rep_flatOf _) 3 (by omega) _) _) _ _))
    (rep_rowBroadcast3 (rep_shapeCast (rep_slice2 (rep_flatOf _) 3 (by omega) _) _) _ _)

theorem rep_c9 (V0 : Val) : Rep (S := S16x512x512) (res_main_v504 (F := Ideal) V0) (c9 (tables V0)) := by
  unfold res_main_v504
  exact rep_shapeCast (rep_concat4_pair (rep_bcast4 (rep_c8 V0) _) (rep_bcast4 (rep_normalize3 (rep_downSpike8 V0) _ (by decide) _ _ _ _) _) _) _

theorem rep_downSpike9 (V0 : Val) : Rep (S := S16x512x512) (res_main_v522 (F := Ideal) V0) (downSpike (tables V0) 2 (c9 (tables V0)) (s2 (tables V0))) := by
  unfold res_main_v522
  exact rep_spike (rep_addf
      (rep_congr (rep_dot3 rbr512 (rep_concat3_last (N := 512) (K2 := 1024) rfl (rep_c9 V0) (rep_shapeCast (rep_slice4_first (rep_shapeCast (rep_s2 V0) _) _) _) _)
          (rep_shapeCast (rep_slice3 (rep_flatOf _) 2 (by omega) _) _) none)
        (fun n => rowDot_cat_left (N := 512) (N' := 512) (K2 := 1024) rfl _ _ _ n))
      (rep_rowBroadcast3 (rep_shapeCast (rep_slice2 (rep_flatOf _) 2 (by omega) _) _) _ _))
    (rep_rowBroadcast3 (rep_shapeCast (rep_slice2 (rep_flatOf _) 2 (by omega) _) _) _ _)

theorem rep_c10 (V0 : Val) : Rep (S := S16x1024x512) (res_main_v532 (F := Ideal) V0) (c10 (tables V0)) := by
  unfold res_main_v532
  exact rep_shapeCast (rep_concat4_pair (rep_bcast4 (rep_c9 V0) _) (rep_bcast4 (rep_normalize3 (rep_downSpike9 V0) _ (by decide) _ _ _ _) _) _) _

theorem rep_downSpike10 (V0 : Val) : Rep (S := S16x1024x512) (res_main_v550 (F := Ideal) V0) (downSpike (tables V0) 1 (c10 (tables V0)) (s1 (tables V0))) := by
  unfold res_main_v550
  exact rep_spike (rep_addf
      (rep_congr (rep_dot3 rbr1024 (rep_concat3_last (N := 512) (K2 := 1024) rfl (rep_c10 V0) (rep_shapeCast (rep_slice4_first (rep_shapeCast (rep_s1 V0) _) _) _) _)
          (rep_shapeCast (rep_slice3 (rep_flatOf _) 1 (by omega) _) _) none)
        (fun n => rowDot_cat_left (N := 512) (N' := 512) (K2 := 1024) rfl _ _ _ n))
      (rep_rowBroadcast3 (rep_shapeCast (rep_slice2 (rep_flatOf _) 1 (by omega) _) _) _ _))
    (rep_rowBroadcast3 (rep_shapeCast (rep_slice2 (rep_flatOf _) 1 (by omega) _) _) _ _)

theorem rep_c11 (V0 : Val) : Rep (S := S16x2048x512) (res_main_v560 (F := Ideal) V0) (c11 (tables V0)) := by
  unfold res_main_v560
  exact rep_shapeCast (rep_concat4_pair (rep_bcast4 (rep_c10 V0) _) (rep_bcast4 (rep_normalize3 (rep_downSpike10 V0) _ (by decide) _ _ _ _) _) _) _

theorem rep_downSpike11 (V0 : Val) : Rep (S := S16x2048x512) (res_main_v578 (F := Ideal) V0) (downSpike (tables V0) 0 (c11 (tables V0)) (s0 (tables V0))) := by
  unfold res_main_v578
  exact rep_spike (rep_addf
      (rep_congr (rep_dot3 rbr2048 (rep_concat3_last (N := 512) (K2 := 1024) rfl (rep_c11 V0) (rep_shapeCast (rep_slice4_first (rep_shapeCast (rep_s0 V0) _) _) _) _)
          (rep_shapeCast (rep_slice3 (rep_flatOf _) 0 (by omega) _) _) none)
        (fun n => rowDot_cat_left (N := 512) (N' := 512) (K2 := 1024) rfl _ _ _ n))
      (rep_rowBroadcast3 (rep_shapeCast (rep_slice2 (rep_flatOf _) 0 (by omega) _) _) _ _))
    (rep_rowBroadcast3 (rep_shapeCast (rep_slice2 (rep_flatOf _) 0 (by omega) _) _) _ _)

/-! ## The leaf layer and the result -/

theorem rep_leafSpike (V0 : Val) : Rep (S := S16x4096x512) (res_main_v597 (F := Ideal) V0) (leafSpike (tables V0) (c12 (tables V0))) := by
  unfold res_main_v597
  exact rep_spike (rep_addf
      (rep_congr (rep_dot3 rbr4096 (rep_concat3_last (N := 512) (K2 := 1024) rfl (rep_s0 V0)
            (rep_shapeCast (rep_concat4_pair (rep_bcast4 (rep_c11 V0) _) (rep_bcast4 (rep_normalize3 (rep_downSpike11 V0) _ (by decide) _ _ _ _) _) _) _) _)
          (rep_flatOf _) none)
        (fun n => rowDot_cat_plain (N := 512) (N' := 512) (K2 := 1024) rfl _ _ _ n))
      (rep_rowBroadcast3 (rep_flatOf _) _ _))
    (rep_rowBroadcast3 (rep_flatOf _) _ _)

/-- The reference's result array, as its run states it, is the specification's result table. -/
theorem rep_result (V0 : Val) :
    Rep (S := S16x4096x512) (Host.divf (res_main_v597 (F := Ideal) V0) (broadcastInDim S16x4096x512 ![0, 1, 2] bcast_S16x4096x1_S16x4096x512_0_1_2 (addf (broadcastInDim S16x4096x1 ![0, 1] bcast_S16x4096_S16x4096x1_0_1 (Host.reduceAdd (res_main_v597 V0) (constant S_ .f32 0x00000000#32) reducesTo_S16x4096x512_S16x4096_d2 h_S_)) (broadcastInDim S16x4096x1 ![] bcast_S_S16x4096x1 (constant S_ .f32 0x322BCC77#32)))))
      (out (tables V0)) :=
  rep_normalize3 (rep_leafSpike V0) _ (by decide) _ _ _ _

end Cert.ReferenceIdeal.RefValue

end
-- ==== Proof.KernelRun.lean ====
/-
  The idealized kernel's run with its result named: every weakly fair execution of @main terminates, without a
  fault, with the result buffer holding what the last boundary of the fold through @main's host stretches and
  regions holds there, and the argument arrays as launched.
-/
import proofs.«113582_j30116310680263_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's 51 segments, the last thread state read against the final state: the result buffer at
    the last boundary's contents, each argument as launched. -/
theorem run_result : θ_run defs (onTc (τ := τ) (main (F := F))) ⟨m, fun _ => 0, ρ⟩ (fun r => ∀ c : Dev nD,
      r.2.mem ((c.tc : Thread nD τ).loc main_v362) = W51 m ρ c (Proc.devRef .tc main_v362)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W51 m ρ c b)
    (hfin := fun c s' => by
      iintro ⟨⟨Hh, -⟩, HSI⟩
      unfold StableHlo.held
      imodintro
      iapply (pointsTo_read_all (Pipeline.ucRefs τ sig) (fun b => (((c : Thread nD τ)).1, b)) (W51 m ρ c) s')
      isplitl [Hh] <;> iassumption)
    (hQ := fun s h c =>
      ⟨h c _ (mem_uc main_v362 (by decide)),
       (h c _ (mem_uc main_arg0 (by decide))).trans (W51_main_arg0 m ρ c),
       (h c _ (mem_uc main_arg1 (by decide))).trans (W51_main_arg1 m ρ c),
       (h c _ (mem_uc main_arg2 (by decide))).trans (W51_main_arg2 m ρ c),
       (h c _ (mem_uc main_arg3 (by decide))).trans (W51_main_arg3 m ρ c),
       (h c _ (mem_uc main_arg4 (by decide))).trans (W51_main_arg4 m ρ c),
       (h c _ (mem_uc main_arg5 (by decide))).trans (W51_main_arg5 m ρ c),
       (h c _ (mem_uc main_arg6 (by decide))).trans (W51_main_arg6 m ρ c),
       (h c _ (mem_uc main_arg7 (by decide))).trans (W51_main_arg7 m ρ c),
       (h c _ (mem_uc main_arg8 (by decide))).trans (W51_main_arg8 m ρ c),
       (h c _ (mem_uc main_arg9 (by decide))).trans (W51_main_arg9 m ρ c)⟩)

end Cert.KernelIdeal.RunValue

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«113582_j30116310680263_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibSpikeBlock.lean ====
/-
  The same spiking dense layer, computed on one block of rows at a time.

  A kernel body sees Mb consecutive rows of the activations (a block that starts at row `off` of a table whose rows
  begin every `sa` positions), the whole weight table stored transposed [K, N], and the bias and threshold rows.
  Each operation of the body works row by row, so its result on the block is the block of the layer's result on
  the whole table: the lemmas carry "this block is rows off, off+1, … of the table f" through the matrix product
  into a zero accumulator, the row broadcast, the comparison turned into 0/1, and the division of every row by
  (its sum + eps).
-/
import Idealize.ShloMosaic.PureOps.Ideal.Laws
import Idealize.ShloMosaic.Lib.ValueIdx
import Idealize.ShloMosaic.Lib.Pipeline.Value
import Idealize.ShloMosaic.Lib.Pipeline.FrameBody
import proofs.«113582_j30116310680263_2_alg».proof.Proof.LibRowMajor
import proofs.«113582_j30116310680263_2_alg».proof.Proof.LibSpikeLayer
import proofs.«113582_j30116310680263_2_alg».proof.Proof.LibPlainDot
import proofs.«113582_j30116310680263_2_alg».proof.Proof.LibDenseLayer

noncomputable section

open scoped BigOperators

namespace Cert.Lib.SpikeBlock

open Idealize.ShloMosaic Idealize.ShloMosaic.ValueIdx Cert.Lib.RowMajor Cert.Lib.SpikeLayer Cert.Lib.PlainDot Cert.Lib.DenseLayer

/-- `xb` holds rows off, off+1, … of the table `f` whose rows begin every `sa` positions (its first K columns). -/
def BlkRep {Mb K : ℕ} (off sa : ℕ) (xb : (⟨2, ![Mb, K]⟩ : Shape).Idx → EReal) (f : ℕ → EReal) : Prop :=
  ∀ (r : Fin Mb) (k : Fin K), xb (ix2 r k) = f ((off + r.val) * sa + k.val)

/-- `W` [K, N] is the transposed piece of the weight table `w` (rows of length Kw): entry (k, o) is row o, column woff + k. -/
def WtRep {K N : ℕ} (Kw woff : ℕ) (W : (⟨2, ![K, N]⟩ : Shape).Idx → EReal) (w : ℕ → EReal) : Prop :=
  ∀ (k : Fin K) (o : Fin N), W (ix2 k o) = w (o.val * Kw + woff + k.val)

/-- A 1×N row of parameters. -/
def RowRep {N : ℕ} (x : (⟨2, ![1, N]⟩ : Shape).Idx → EReal) (b : ℕ → EReal) : Prop :=
  ∀ o : Fin N, x (ix2 0 o) = b o.val

theorem blk_matmul {Mb K N : ℕ} {φ₁ φ₂ : FTy} {d : DotDims ⟨2, ![Mb, K]⟩ ⟨2, ![K, N]⟩ ⟨2, ![Mb, N]⟩} (hd : Plain d)
    {A : FVec Ideal ⟨2, ![Mb, K]⟩ φ₁} {W : FVec Ideal ⟨2, ![K, N]⟩ φ₂} {a w : ℕ → EReal} {off sa Kw woff : ℕ}
    (hA : BlkRep off sa A a) (hW : WtRep Kw woff W w) (prec : Option ContractPrecision) :
    BlkRep off N (matmul d prec A W (constant ⟨2, ![Mb, N]⟩ .f32 0x00000000#32)) (rowDot K N sa Kw woff a w) := fun r o => by
  show FloatOps.matmul d prec A W (constant ⟨2, ![Mb, N]⟩ .f32 0x00000000#32) (ix2 r o) = _
  rw [Ideal.matmul_constant_zero_apply, contraction_sum d hd.rank hd.size hd.l0 hd.l1 hd.r0 hd.r1 A W r o]
  unfold rowDot
  rw [(div_mod_row o.isLt).1, (div_mod_row o.isLt).2]
  exact Finset.sum_congr rfl fun k _ => by rw [hA r k, hW k o]

theorem blk_rowBroadcast {Mb N : ℕ} {x : (⟨2, ![1, N]⟩ : Shape).Idx → EReal} {b : ℕ → EReal} (hx : RowRep x b)
    (h : (⟨2, ![1, N]⟩ : Shape).Broadcasts ⟨2, ![Mb, N]⟩) (off : ℕ) :
    BlkRep off N (broadcastTo ⟨2, ![Mb, N]⟩ x h) (colOf N b) := fun r c => by
  have hc : N = 1 → c.val = 0 := fun e => by have := c.isLt; omega
  rw [broadcastTo_apply x h (ix2 r c) (ix2 0 c) (fun a => by
        match a with
        | ⟨0, _⟩ => exact (if_pos rfl).symm
        | ⟨1, _⟩ =>
          show c.val = if N = 1 then 0 else c.val
          split
          · exact hc ‹_›
          · rfl), hx c]
  exact congrArg b (div_mod_row c.isLt).2.symm

theorem blk_addf {Mb N : ℕ} {off sa : ℕ} {A B : FVec Ideal ⟨2, ![Mb, N]⟩ .f32} {f g : ℕ → EReal}
    (hA : BlkRep off sa A f) (hB : BlkRep off sa B g) : BlkRep off sa (addf A B) (fun n => f n + g n) := fun r k => by
  rw [addf_apply, hA r k, hB r k]

theorem toInt_setWidth_one (b : BitVec 1) : (b.setWidth 32).toInt = (b.toNat : ℤ) := by
  by_cases h : b = 1#1
  · subst h; decide
  · rw [eq_zero_of_ne_one h]; decide

/-- The comparison widened to an integer and converted as a signed integer is the 0/1 value of the comparison. -/
theorem blk_spike {Mb N : ℕ} {off sa : ℕ} {A B : FVec Ideal ⟨2, ![Mb, N]⟩ .f32} {f g : ℕ → EReal}
    (hA : BlkRep off sa A f) (hB : BlkRep off sa B g) (h : 1 < 32) :
    BlkRep off sa (sitofp (F := Ideal) .f32 (extui 32 (cmpf .oge A B) h)) (fun n => spike (f n) (g n)) := fun r k => by
  show ((((Ideal.cmp .oge (A (ix2 r k)) (B (ix2 r k))).setWidth 32).toInt : ℝ) : EReal) = _
  rw [toInt_setWidth_one, Int.cast_natCast, hA r k, hB r k]
  rfl

theorem blk_normalize {Mb N : ℕ} {Sp : FVec Ideal ⟨2, ![Mb, N]⟩ .f32} {s : ℕ → EReal} {off : ℕ} (hS : BlkRep off N Sp s)
    (hR : (⟨2, ![Mb, N]⟩ : Shape).Reduces [1] ⟨1, ![Mb]⟩) (hφ : FKind.Formats .f32)
    (hacc : (0x00000000#32 : BitVec 32) = FKind.add.neutral .f32 hφ)
    (hc : (⟨1, ![Mb]⟩ : Shape).ShapeCasts ⟨2, ![Mb, 1]⟩) (hb : (⟨2, ![Mb, 1]⟩ : Shape).Broadcasts ⟨2, ![Mb, N]⟩) :
    BlkRep off N (divf Sp (broadcastTo ⟨2, ![Mb, N]⟩
        (addf (shapeCast ⟨2, ![Mb, 1]⟩ (multiReduction .add [1] ⟨1, ![Mb]⟩ Sp 0x00000000#32 hR hφ hacc) hc)
              (broadcast ⟨2, ![Mb, 1]⟩ (Scalar.ofBits (F := Ideal) .f32 0x322BCC77#32))) hb))
      (rowNormalize N s) := fun r o => by
  have hr : Mb = 1 → r.val = 0 := fun e => by have := r.isLt; omega
  show Ideal.div (Sp (ix2 r o)) _ = _
  rw [broadcastTo_apply _ hb (ix2 r o) (ix2 r 0) (fun a => by
        match a with
        | ⟨0, _⟩ =>
          show r.val = if Mb = 1 then 0 else r.val
          split
          · exact hr ‹_›
          · rfl
        | ⟨1, _⟩ => exact (if_pos rfl).symm),
    addf_apply,
    shapeCast_apply _ hc (ix2 r 0) (ix1 r) (by rw [rowMajor_ix1, rowMajor_ix2]; omega)]
  have hl : ∀ k : Fin N, hR.lift (ix1 r) k = ix2 r k := fun k => funext fun c => Fin.ext (by
    match c with
    | ⟨0, _⟩ => rfl
    | ⟨1, _⟩ => rfl)
  have hsum := Ideal.multiReduction_add_single Sp 0x00000000#32 hR hφ hacc (ix1 r)
  rw [hsum]
  show Ideal.div (Sp (ix2 r o)) ((∑ k : Fin N, Sp (hR.lift (ix1 r) k)) + Ideal.ofBits .f32 0x322BCC77#32) = _
  unfold rowNormalize eps
  rw [hS r o, (div_mod_row o.isLt).1]
  refine congrArg (fun t => Ideal.div _ (t + _)) (Finset.sum_congr rfl fun k _ => ?_)
  rw [hl k, hS r k]

/-- A narrowing cast changes no entry. -/
theorem blk_truncf {Mb K : ℕ} {off sa : ℕ} {φ ψ : FTy} {A : FVec Ideal ⟨2, ![Mb, K]⟩ φ} {f : ℕ → EReal}
    (hA : BlkRep off sa A f) (h : ψ.bits < φ.bits) : BlkRep off sa (truncf ψ A h) f := fun r k => hA r k

/-- A cast to the same shape changes no entry. -/
theorem blk_castSelf {Mb K : ℕ} {off sa : ℕ} {A : (⟨2, ![Mb, K]⟩ : Shape).Idx → EReal} {f : ℕ → EReal}
    (hA : BlkRep off sa A f) (h : (⟨2, ![Mb, K]⟩ : Shape).ShapeCasts ⟨2, ![Mb, K]⟩) :
    BlkRep off sa (shapeCast ⟨2, ![Mb, K]⟩ A h) f := by
  rw [shapeCast_self]; exact hA

/-! ## The kernel's host plumbing: transposed, sliced weight tables and parameter rows -/

/-- Layer l of a stack of weight tables [L, N, K], narrowed, transposed to [L, K, N], sliced and reshaped to [K, N]:
    the transposed table of layer l. -/
theorem wt_of_stack {L N K : ℕ} {W : FVec Ideal ⟨3, ![L, N, K]⟩ .f32} {wf : ℕ → EReal} (hW : Rep W wf) (l : ℕ) (hl : l < L)
    (hbits : FTy.bf16.bits < FTy.f32.bits)
    (tr : (⟨3, ![L, N, K]⟩ : Shape).Transposes [0, 2, 1] ⟨3, ![L, K, N]⟩)
    (sl : (⟨3, ![L, K, N]⟩ : Shape).Slices ![l, 0, 0] ⟨3, ![1, K, N]⟩)
    (sc : (⟨3, ![1, K, N]⟩ : Shape).ShapeCasts ⟨2, ![K, N]⟩) :
    WtRep K 0 (shapeCast ⟨2, ![K, N]⟩ (extractStridedSlice ⟨3, ![1, K, N]⟩ ![l, 0, 0]
        (transpose ⟨3, ![L, K, N]⟩ [0, 2, 1] (truncf .bf16 W hbits) tr) sl) sc) (fun j => wf (l * (N * K) + j)) := fun k o => by
  rw [shapeCast_apply _ sc (ix2 k o) (ix3 0 k o) (by rw [rowMajor_ix3, rowMajor_ix2]; simp),
    extractStridedSlice_apply ![l, 0, 0] _ sl (ix3 0 k o) (ix3 ⟨l, hl⟩ k o) (fun a => by
        match a with
        | ⟨0, _⟩ => show l = l + 0; omega
        | ⟨1, _⟩ => show k.val = 0 + k.val; omega
        | ⟨2, _⟩ => show o.val = 0 + o.val; omega),
    transpose_apply [0, 2, 1] _ tr (ix3 ⟨l, hl⟩ k o) (ix3 ⟨l, hl⟩ o k) (fun b => by
        match b with
        | ⟨0, _⟩ => rfl
        | ⟨1, _⟩ => rfl
        | ⟨2, _⟩ => rfl)]
  show W (ix3 ⟨l, hl⟩ o k) = _
  rw [(rep3_iff.mp hW) ⟨l, hl⟩ o k]
  exact congrArg wf (by show (l * N + o.val) * K + k.val = l * (N * K) + (o.val * K + 0 + k.val); ring)

/-- A weight table [N, K], narrowed and transposed to [K, N]. -/
theorem wt_of_table {N K : ℕ} {W : FVec Ideal ⟨2, ![N, K]⟩ .f32} {wf : ℕ → EReal} (hW : Rep W wf)
    (hbits : FTy.bf16.bits < FTy.f32.bits) (tr : (⟨2, ![N, K]⟩ : Shape).Transposes [1, 0] ⟨2, ![K, N]⟩) :
    WtRep K 0 (transpose ⟨2, ![K, N]⟩ [1, 0] (truncf .bf16 W hbits) tr) wf := fun k o => by
  rw [transpose_apply [1, 0] _ tr (ix2 k o) (ix2 o k) (fun b => by
        match b with
        | ⟨0, _⟩ => rfl
        | ⟨1, _⟩ => rfl)]
  show W (ix2 o k) = _
  rw [(rep2_iff.mp hW) o k, Nat.add_zero]

/-- Rows o0, o0+1, … of a transposed weight table: the columns from o0 on of the weight rows. -/
theorem wt_rows {K Kh N : ℕ} {W : (⟨2, ![K, N]⟩ : Shape).Idx → EReal} {w : ℕ → EReal} {Kw woff : ℕ} (hW : WtRep Kw woff W w)
    (o0 : ℕ) (ho : o0 + Kh ≤ K) (sl : (⟨2, ![K, N]⟩ : Shape).Slices ![o0, 0] ⟨2, ![Kh, N]⟩) :
    WtRep Kw (woff + o0) (extractStridedSlice ⟨2, ![Kh, N]⟩ ![o0, 0] W sl) w := fun k o => by
  rw [extractStridedSlice_apply ![o0, 0] W sl (ix2 k o) (ix2 ⟨o0 + k.val, by have := k.isLt; omega⟩ o) (fun a => by
        match a with
        | ⟨0, _⟩ => rfl
        | ⟨1, _⟩ => show o.val = 0 + o.val; omega),
    hW ⟨o0 + k.val, by have := k.isLt; omega⟩ o]
  exact congrArg w (by show o.val * Kw + woff + (o0 + k.val) = o.val * Kw + (woff + o0) + k.val; omega)

/-- A 1×N array represented by g is the parameter row g. -/
theorem rowRep_of_rep {N : ℕ} {x : (⟨2, ![1, N]⟩ : Shape).Idx → EReal} {g : ℕ → EReal} (h : Rep x g) : RowRep x g := fun o => by
  rw [(rep2_iff.mp h) 0 o]
  exact congrArg g (by show 0 * N + o.val = o.val; omega)

/-- A whole 2-D array represented by f, read as the block of all its rows from row 0 … or any block of a window:
    an array entry at row off + r, column k. -/
theorem blkRep_of_rows {Mb K M Ka : ℕ} {X : (⟨2, ![M, Ka]⟩ : Shape).Idx → EReal} {f : ℕ → EReal} (hX : Rep X f)
    {xb : (⟨2, ![Mb, K]⟩ : Shape).Idx → EReal} (off : ℕ)
    (hb : ∀ (r : Fin Mb) (k : Fin K), ∃ (h1 : off + r.val < M) (h2 : k.val < Ka), xb (ix2 r k) = X (ix2 ⟨off + r.val, h1⟩ ⟨k.val, h2⟩)) :
    BlkRep off Ka xb f := fun r k => by
  obtain ⟨h1, h2, e⟩ := hb r k
  rw [e, (rep2_iff.mp hX) ⟨off + r.val, h1⟩ ⟨k.val, h2⟩]

/-! ## A block written in two halves: the left columns from one payload, the right columns from another -/

/-- The staging block [Mb, N + N] after two stores — columns N.. from p2 (the later store), columns ..N from p1 —
    holds, row by row, a row of cf followed by a row of rf: rows of the two tables taken alternately. -/
theorem canon_halves {Mb N N2 : ℕ} (hN : N2 = N + N)
    (inb3 : ∀ a, (![0, 0] : Fin 2 → ℕ) a + (⟨2, ![Mb, N]⟩ : Shape).size a ≤ (⟨2, ![Mb, N2]⟩ : Shape).size a)
    (inb4 : ∀ a, (![0, N] : Fin 2 → ℕ) a + (⟨2, ![Mb, N]⟩ : Shape).size a ≤ (⟨2, ![Mb, N2]⟩ : Shape).size a)
    (p1 p2 : (⟨2, ![Mb, N]⟩ : Shape).Idx → EReal) {cf rf : ℕ → EReal} {off : ℕ}
    (h1 : BlkRep off N p1 cf) (h2 : BlkRep off N p2 rf) :
    BlkRep off N2 (View.canon (Val := Elt Ideal) (e := .bf16)
        [⟨Rect.unit (s := ⟨2, ![Mb, N2]⟩) ![0, N] (⟨2, ![Mb, N]⟩ : Shape).size inb4, p2⟩,
         ⟨Rect.unit (s := ⟨2, ![Mb, N2]⟩) ![0, 0] (⟨2, ![Mb, N]⟩ : Shape).size inb3, p1⟩]) (interleave N cf rf) := by
  subst hN
  intro r col
  have hcol := col.isLt
  unfold interleave
  by_cases hc : col.val < N
  · have e3 : (Rect.unit (s := ⟨2, ![Mb, N + N]⟩) ![0, 0] (⟨2, ![Mb, N]⟩ : Shape).size inb3).emb (ix2 r ⟨col.val, hc⟩) = ix2 r col :=
      funext fun a => Fin.ext (by
        match a with
        | ⟨0, _⟩ => show 0 + 1 * r.val = r.val; omega
        | ⟨1, _⟩ => show 0 + 1 * col.val = col.val; omega)
    rw [View.canon_cons_of_not_mem _ _ (by
          rw [Rect.mem_set_unit]; intro h
          have h1' := (h 1).1
          have : N ≤ col.val := h1'
          omega),
      ← e3, View.canon_cons_emb, h1 r ⟨col.val, hc⟩]
    show cf ((off + r.val) * N + col.val) = _
    have e : (off + r.val) * (N + N) + col.val = ((off + r.val) * 2) * N + col.val := by ring
    rw [(div_mod_row hcol).1, e, (div_mod_row hc).1, (div_mod_row hc).2, if_pos (by omega)]
  · have hc' : col.val - N < N := by omega
    have e4 : (Rect.unit (s := ⟨2, ![Mb, N + N]⟩) ![0, N] (⟨2, ![Mb, N]⟩ : Shape).size inb4).emb (ix2 r ⟨col.val - N, hc'⟩) = ix2 r col :=
      funext fun a => Fin.ext (by
        match a with
        | ⟨0, _⟩ => show 0 + 1 * r.val = r.val; omega
        | ⟨1, _⟩ => show N + 1 * (col.val - N) = col.val; omega)
    rw [← e4, View.canon_cons_emb, h2 r ⟨col.val - N, hc'⟩]
    show rf ((off + r.val) * N + (col.val - N)) = _
    have e : (off + r.val) * (N + N) + col.val = ((off + r.val) * 2 + 1) * N + (col.val - N) := by
      have : col.val = N + (col.val - N) := by omega
      rw [this]; simp only [Nat.add_sub_cancel_left]; ring
    rw [(div_mod_row hcol).1, e, (div_mod_row hc').1, (div_mod_row hc').2, if_neg (by omega)]

end Cert.Lib.SpikeBlock

end
-- ==== Proof.HostKeep.lean ====
/-
  Which buffers each stretch of host operations writes, and that a buffer a boundary's step does not write keeps
  its contents across the step: a host stretch writes only the results of its operations, a region only the arrays
  of its own windows.  Chained from the first region's entry, a buffer written nowhere in between still holds at
  boundary n what it held there.
-/
import proofs.«113582_j30116310680263_2_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The results of host stretch 0. -/
abbrev hw0 : List (Ref sig .tc) := [main_v0, main_v1, main_v2, main_v3, main_v4, main_v5, main_v6, main_v7, main_v8, main_v9, main_v10, main_v11, main_v12, main_v13, main_v14, main_v15]
theorem hostWrites0 : (hostOps0 : List (HloOp τ sig (Elt F))).Forall fun op => op.writes ⊆ (hw0.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH0 (c : Dev nD) (b : Ref sig .tc) (hb : b ∉ hw0) :
    W1 m ρ c (Proc.devRef .tc b) = W0 m ρ c (Proc.devRef .tc b) :=
  StableHlo.after_of_writes_sub hostOps0 _ (hostWrites0 (F := F)) hb
/-- The arrays of region 0's windows. -/
abbrev ra0 : List (Ref sig .tc) := [main_v7, main_v15, main_v10, main_v13, main_v16]
theorem raMem0 : ∀ w, Pipeline.arrRef spec0 w ∈ ra0 := by decide
theorem stepR0 (c : Dev nD) (b : Ref sig .tc) (hb : b ∉ ra0) :
    W2 m ρ c (Proc.devRef .tc b) = W1 m ρ c (Proc.devRef .tc b) :=
  W2_of_ne m ρ c b fun w e => hb (e ▸ raMem0 w)

/-- The results of host stretch 1. -/
abbrev hw1 : List (Ref sig .tc) := [main_v17, main_v18, main_v19, main_v20, main_v21, main_v22, main_v23, main_v24, main_v25, main_v26, main_v27]
theorem hostWrites1 : (hostOps1 : List (HloOp τ sig (Elt F))).Forall fun op => op.writes ⊆ (hw1.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH1 (c : Dev nD) (b : Ref sig .tc) (hb : b ∉ hw1) :
    W3 m ρ c (Proc.devRef .tc b) = W2 m ρ c (Proc.devRef .tc b) :=
  StableHlo.after_of_writes_sub hostOps1 _ (hostWrites1 (F := F)) hb
/-- The arrays of region 1's windows. -/
abbrev ra1 : List (Ref sig .tc) := [main_v19, main_v27, main_v22, main_v25, main_v28]
theorem raMem1 : ∀ w, Pipeline.arrRef spec1 w ∈ ra1 := by decide
theorem stepR1 (c : Dev nD) (b : Ref sig .tc) (hb : b ∉ ra1) :
    W4 m ρ c (Proc.devRef .tc b) = W3 m ρ c (Proc.devRef .tc b) :=
  W4_of_ne m ρ c b fun w e => hb (e ▸ raMem1 w)

/-- The results of host stretch 2. -/
abbrev hw2 : List (Ref sig .tc) := [main_v29, main_v30, main_v31, main_v32, main_v33, main_v34, main_v35, main_v36, main_v37, main_v38, main_v39]
theorem hostWrites2 : (hostOps2 : List (HloOp τ sig (Elt F))).Forall fun op => op.writes ⊆ (hw2.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH2 (c : Dev nD) (b : Ref sig .tc) (hb : b ∉ hw2) :
    W5 m ρ c (Proc.devRef .tc b) = W4 m ρ c (Proc.devRef .tc b) :=
  StableHlo.after_of_writes_sub hostOps2 _ (hostWrites2 (F := F)) hb
/-- The arrays of region 2's windows. -/
abbrev ra2 : List (Ref sig .tc) := [main_v31, main_v39, main_v34, main_v37, main_v40]
theorem raMem2 : ∀ w, Pipeline.arrRef spec2 w ∈ ra2 := by decide
theorem stepR2 (c : Dev nD) (b : Ref sig .tc) (hb : b ∉ ra2) :
    W6 m ρ c (Proc.devRef .tc b) = W5 m ρ c (Proc.devRef .tc b) :=
  W6_of_ne m ρ c b fun w e => hb (e ▸ raMem2 w)

/-- The results of host stretch 3. -/
abbrev hw3 : List (Ref sig .tc) := [main_v41, main_v42, main_v43, main_v44, main_v45, main_v46, main_v47, main_v48, main_v49, main_v50, main_v51]
theorem hostWrites3 : (hostOps3 : List (HloOp τ sig (Elt F))).Forall fun op => op.writes ⊆ (hw3.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH3 (c : Dev nD) (b : Ref sig .tc) (hb : b ∉ hw3) :
    W7 m ρ c (Proc.devRef .tc b) = W6 m ρ c (Proc.devRef .tc b) :=
  StableHlo.after_of_writes_sub hostOps3 _ (hostWrites3 (F := F)) hb
/-- The arrays of region 3's windows. -/
abbrev ra3 : List (Ref sig .tc) := [main_v43, main_v51, main_v46, main_v49, main_v52]
theorem raMem3 : ∀ w, Pipeline.arrRef spec3 w ∈ ra3 := by decide
theorem stepR3 (c : Dev nD) (b : Ref sig .tc) (hb : b ∉ ra3) :
    W8 m ρ c (Proc.devRef .tc b) = W7 m ρ c (Proc.devRef .tc b) :=
  W8_of_ne m ρ c b fun w e => hb (e ▸ raMem3 w)

/-- The results of host stretch 4. -/
abbrev hw4 : List (Ref sig .tc) := [main_v53, main_v54, main_v55, main_v56, main_v57, main_v58, main_v59, main_v60, main_v61, main_v62, main_v63]
theorem hostWrites4 : (hostOps4 : List (HloOp τ sig (Elt F))).Forall fun op => op.writes ⊆ (hw4.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH4 (c : Dev nD) (b : Ref sig .tc) (hb : b ∉ hw4) :
    W9 m ρ c (Proc.devRef .tc b) = W8 m ρ c (Proc.devRef .tc b) :=
  StableHlo.after_of_writes_sub hostOps4 _ (hostWrites4 (F := F)) hb
/-- The arrays of region 4's windows. -/
abbrev ra4 : List (Ref sig .tc) := [main_v55, main_v63, main_v58, main_v61, main_v64]
theorem raMem4 : ∀ w, Pipeline.arrRef spec4 w ∈ ra4 := by decide
theorem stepR4 (c : Dev nD) (b : Ref sig .tc) (hb : b ∉ ra4) :
    W10 m ρ c (Proc.devRef .tc b) = W9 m ρ c (Proc.devRef .tc b) :=
  W10_of_ne m ρ c b fun w e => hb (e ▸ raMem4 w)

/-- The results of host stretch 5. -/
abbrev hw5 : List (Ref sig .tc) := [main_v65, main_v66, main_v67, main_v68, main_v69, main_v70, main_v71, main_v72, main_v73, main_v74, main_v75]
theorem hostWrites5 : (hostOps5 : List (HloOp τ sig (Elt F))).Forall fun op => op.writes ⊆ (hw5.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH5 (c : Dev nD) (b : Ref sig .tc) (hb : b ∉ hw5) :
    W11 m ρ c (Proc.devRef .tc b) = W10 m ρ c (Proc.devRef .tc b) :=
  StableHlo.after_of_writes_sub hostOps5 _ (hostWrites5 (F := F)) hb
/-- The arrays of region 5's windows. -/
abbrev ra5 : List (Ref sig .tc) := [main_v67, main_v75, main_v70, main_v73, main_v76]
theorem raMem5 : ∀ w, Pipeline.arrRef spec5 w ∈ ra5 := by decide
theorem stepR5 (c : Dev nD) (b : Ref sig .tc) (hb : b ∉ ra5) :
    W12 m ρ c (Proc.devRef .tc b) = W11 m ρ c (Proc.devRef .tc b) :=
  W12_of_ne m ρ c b fun w e => hb (e ▸ raMem5 w)

/-- The results of host stretch 6. -/
abbrev hw6 : List (Ref sig .tc) := [main_v77, main_v78, main_v79, main_v80, main_v81, main_v82, main_v83, main_v84, main_v85, main_v86, main_v87]
theorem hostWrites6 : (hostOps6 : List (HloOp τ sig (Elt F))).Forall fun op => op.writes ⊆ (hw6.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH6 (c : Dev nD) (b : Ref sig .tc) (hb : b ∉ hw6) :
    W13 m ρ c (Proc.devRef .tc b) = W12 m ρ c (Proc.devRef .tc b) :=
  StableHlo.after_of_writes_sub hostOps6 _ (hostWrites6 (F := F)) hb
/-- The arrays of region 6's windows. -/
abbrev ra6 : List (Ref sig .tc) := [main_v79, main_v87, main_v82, main_v85, main_v88]
theorem raMem6 : ∀ w, Pipeline.arrRef spec6 w ∈ ra6 := by decide
theorem stepR6 (c : Dev nD) (b : Ref sig .tc) (hb : b ∉ ra6) :
    W14 m ρ c (Proc.devRef .tc b) = W13 m ρ c (Proc.devRef .tc b) :=
  W14_of_ne m ρ c b fun w e => hb (e ▸ raMem6 w)

/-- The results of host stretch 7. -/
abbrev hw7 : List (Ref sig .tc) := [main_v89, main_v90, main_v91, main_v92, main_v93, main_v94, main_v95, main_v96, main_v97, main_v98, main_v99]
theorem hostWrites7 : (hostOps7 : List (HloOp τ sig (Elt F))).Forall fun op => op.writes ⊆ (hw7.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH7 (c : Dev nD) (b : Ref sig .tc) (hb : b ∉ hw7) :
    W15 m ρ c (Proc.devRef .tc b) = W14 m ρ c (Proc.devRef .tc b) :=
  StableHlo.after_of_writes_sub hostOps7 _ (hostWrites7 (F := F)) hb
/-- The arrays of region 7's windows. -/
abbrev ra7 : List (Ref sig .tc) := [main_v91, main_v99, main_v94, main_v97, main_v100]
theorem raMem7 : ∀ w, Pipeline.arrRef spec7 w ∈ ra7 := by decide
theorem stepR7 (c : Dev nD) (b : Ref sig .tc) (hb : b ∉ ra7) :
    W16 m ρ c (Proc.devRef .tc b) = W15 m ρ c (Proc.devRef .tc b) :=
  W16_of_ne m ρ c b fun w e => hb (e ▸ raMem7 w)

/-- The results of host stretch 8. -/
abbrev hw8 : List (Ref sig .tc) := [main_v101, main_v102, main_v103, main_v104, main_v105, main_v106, main_v107, main_v108, main_v109, main_v110, main_v111]
theorem hostWrites8 : (hostOps8 : List (HloOp τ sig (Elt F))).Forall fun op => op.writes ⊆ (hw8.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH8 (c : Dev nD) (b : Ref sig .tc) (hb : b ∉ hw8) :
    W17 m ρ c (Proc.devRef .tc b) = W16 m ρ c (Proc.devRef .tc b) :=
  StableHlo.after_of_writes_sub hostOps8 _ (hostWrites8 (F := F)) hb
/-- The arrays of region 8's windows. -/
abbrev ra8 : List (Ref sig .tc) := [main_v103, main_v111, main_v106, main_v109, main_v112]
theorem raMem8 : ∀ w, Pipeline.arrRef spec8 w ∈ ra8 := by decide
theorem stepR8 (c : Dev nD) (b : Ref sig .tc) (hb : b ∉ ra8) :
    W18 m ρ c (Proc.devRef .tc b) = W17 m ρ c (Proc.devRef .tc b) :=
  W18_of_ne m ρ c b fun w e => hb (e ▸ raMem8 w)

/-- The results of host stretch 9. -/
abbrev hw9 : List (Ref sig .tc) := [main_v113, main_v114, main_v115, main_v116, main_v117, main_v118, main_v119, main_v120, main_v121, main_v122, main_v123]
theorem hostWrites9 : (hostOps9 : List (HloOp τ sig (Elt F))).Forall fun op => op.writes ⊆ (hw9.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH9 (c : Dev nD) (b : Ref sig .tc) (hb : b ∉ hw9) :
    W19 m ρ c (Proc.devRef .tc b) = W18 m ρ c (Proc.devRef .tc b) :=
  StableHlo.after_of_writes_sub hostOps9 _ (hostWrites9 (F := F)) hb
/-- The arrays of region 9's windows. -/
abbrev ra9 : List (Ref sig .tc) := [main_v115, main_v123, main_v118, main_v121, main_v124]
theorem raMem9 : ∀ w, Pipeline.arrRef spec9 w ∈ ra9 := by decide
theorem stepR9 (c : Dev nD) (b : Ref sig .tc) (hb : b ∉ ra9) :
    W20 m ρ c (Proc.devRef .tc b) = W19 m ρ c (Proc.devRef .tc b) :=
  W20_of_ne m ρ c b fun w e => hb (e ▸ raMem9 w)

/-- The results of host stretch 10. -/
abbrev hw10 : List (Ref sig .tc) := [main_v125, main_v126, main_v127, main_v128, main_v129, main_v130, main_v131, main_v132, main_v133, main_v134, main_v135]
theorem hostWrites10 : (hostOps10 : List (HloOp τ sig (Elt F))).Forall fun op => op.writes ⊆ (hw10.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH10 (c : Dev nD) (b : Ref sig .tc) (hb : b ∉ hw10) :
    W21 m ρ c (Proc.devRef .tc b) = W20 m ρ c (Proc.devRef .tc b) :=
  StableHlo.after_of_writes_sub hostOps10 _ (hostWrites10 (F := F)) hb
/-- The arrays of region 10's windows. -/
abbrev ra10 : List (Ref sig .tc) := [main_v127, main_v135, main_v130, main_v133, main_v136]
theorem raMem10 : ∀ w, Pipeline.arrRef spec10 w ∈ ra10 := by decide
theorem stepR10 (c : Dev nD) (b : Ref sig .tc) (hb : b ∉ ra10) :
    W22 m ρ c (Proc.devRef .tc b) = W21 m ρ c (Proc.devRef .tc b) :=
  W22_of_ne m ρ c b fun w e => hb (e ▸ raMem10 w)

/-- The results of host stretch 11. -/
abbrev hw11 : List (Ref sig .tc) := [main_v137, main_v138, main_v139, main_v140, main_v141, main_v142, main_v143, main_v144, main_v145, main_v146, main_v147]
theorem hostWrites11 : (hostOps11 : List (HloOp τ sig (Elt F))).Forall fun op => op.writes ⊆ (hw11.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH11 (c : Dev nD) (b : Ref sig .tc) (hb : b ∉ hw11) :
    W23 m ρ c (Proc.devRef .tc b) = W22 m ρ c (Proc.devRef .tc b) :=
  StableHlo.after_of_writes_sub hostOps11 _ (hostWrites11 (F := F)) hb
/-- The arrays of region 11's windows. -/
abbrev ra11 : List (Ref sig .tc) := [main_v139, main_v147, main_v142, main_v145, main_v148]
theorem raMem11 : ∀ w, Pipeline.arrRef spec11 w ∈ ra11 := by decide
theorem stepR11 (c : Dev nD) (b : Ref sig .tc) (hb : b ∉ ra11) :
    W24 m ρ c (Proc.devRef .tc b) = W23 m ρ c (Proc.devRef .tc b) :=
  W24_of_ne m ρ c b fun w e => hb (e ▸ raMem11 w)

/-- The results of host stretch 12. -/
abbrev hw12 : List (Ref sig .tc) := [main_v149, main_cst, main_v150, main_v151, main_v152, main_v153, main_v154, main_v155, main_v156, main_v157, main_v158, main_v159, main_v160, main_v161, main_v162, main_v163, main_v164, main_v165]
theorem hostWrites12 : (hostOps12 : List (HloOp τ sig (Elt F))).Forall fun op => op.writes ⊆ (hw12.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH12 (c : Dev nD) (b : Ref sig .tc) (hb : b ∉ hw12) :
    W25 m ρ c (Proc.devRef .tc b) = W24 m ρ c (Proc.devRef .tc b) :=
  StableHlo.after_of_writes_sub hostOps12 _ (hostWrites12 (F := F)) hb
/-- The arrays of region 12's windows. -/
abbrev ra12 : List (Ref sig .tc) := [main_v153, main_v152, main_v156, main_v159, main_v162, main_v165, main_v166]
theorem raMem12 : ∀ w, Pipeline.arrRef spec12 w ∈ ra12 := by decide
theorem stepR12 (c : Dev nD) (b : Ref sig .tc) (hb : b ∉ ra12) :
    W26 m ρ c (Proc.devRef .tc b) = W25 m ρ c (Proc.devRef .tc b) :=
  W26_of_ne m ρ c b fun w e => hb (e ▸ raMem12 w)

/-- The results of host stretch 13. -/
abbrev hw13 : List (Ref sig .tc) := [main_v167, main_v168, main_v169, main_v170, main_v171, main_v172, main_v173, main_v174, main_v175, main_v176, main_v177, main_v178, main_v179, main_v180, main_v181, main_v182]
theorem hostWrites13 : (hostOps13 : List (HloOp τ sig (Elt F))).Forall fun op => op.writes ⊆ (hw13.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH13 (c : Dev nD) (b : Ref sig .tc) (hb : b ∉ hw13) :
    W27 m ρ c (Proc.devRef .tc b) = W26 m ρ c (Proc.devRef .tc b) :=
  StableHlo.after_of_writes_sub hostOps13 _ (hostWrites13 (F := F)) hb
/-- The arrays of region 13's windows. -/
abbrev ra13 : List (Ref sig .tc) := [main_v170, main_v169, main_v173, main_v176, main_v179, main_v182, main_v183]
theorem raMem13 : ∀ w, Pipeline.arrRef spec13 w ∈ ra13 := by decide
theorem stepR13 (c : Dev nD) (b : Ref sig .tc) (hb : b ∉ ra13) :
    W28 m ρ c (Proc.devRef .tc b) = W27 m ρ c (Proc.devRef .tc b) :=
  W28_of_ne m ρ c b fun w e => hb (e ▸ raMem13 w)

/-- The results of host stretch 14. -/
abbrev hw14 : List (Ref sig .tc) := [main_v184, main_v185, main_v186, main_v187, main_v188, main_v189, main_v190, main_v191, main_v192, main_v193, main_v194, main_v195, main_v196, main_v197, main_v198, main_v199]
theorem hostWrites14 : (hostOps14 : List (HloOp τ sig (Elt F))).Forall fun op => op.writes ⊆ (hw14.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH14 (c : Dev nD) (b : Ref sig .tc) (hb : b ∉ hw14) :
    W29 m ρ c (Proc.devRef .tc b) = W28 m ρ c (Proc.devRef .tc b) :=
  StableHlo.after_of_writes_sub hostOps14 _ (hostWrites14 (F := F)) hb
/-- The arrays of region 14's windows. -/
abbrev ra14 : List (Ref sig .tc) := [main_v187, main_v186, main_v190, main_v193, main_v196, main_v199, main_v200]
theorem raMem14 : ∀ w, Pipeline.arrRef spec14 w ∈ ra14 := by decide
theorem stepR14 (c : Dev nD) (b : Ref sig .tc) (hb : b ∉ ra14) :
    W30 m ρ c (Proc.devRef .tc b) = W29 m ρ c (Proc.devRef .tc b) :=
  W30_of_ne m ρ c b fun w e => hb (e ▸ raMem14 w)

/-- The results of host stretch 15. -/
abbrev hw15 : List (Ref sig .tc) := [main_v201, main_v202, main_v203, main_v204, main_v205, main_v206, main_v207, main_v208, main_v209, main_v210, main_v211, main_v212, main_v213, main_v214, main_v215, main_v216]
theorem hostWrites15 : (hostOps15 : List (HloOp τ sig (Elt F))).Forall fun op => op.writes ⊆ (hw15.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH15 (c : Dev nD) (b : Ref sig .tc) (hb : b ∉ hw15) :
    W31 m ρ c (Proc.devRef .tc b) = W30 m ρ c (Proc.devRef .tc b) :=
  StableHlo.after_of_writes_sub hostOps15 _ (hostWrites15 (F := F)) hb
/-- The arrays of region 15's windows. -/
abbrev ra15 : List (Ref sig .tc) := [main_v204, main_v203, main_v207, main_v210, main_v213, main_v216, main_v217]
theorem raMem15 : ∀ w, Pipeline.arrRef spec15 w ∈ ra15 := by decide
theorem stepR15 (c : Dev nD) (b : Ref sig .tc) (hb : b ∉ ra15) :
    W32 m ρ c (Proc.devRef .tc b) = W31 m ρ c (Proc.devRef .tc b) :=
  W32_of_ne m ρ c b fun w e => hb (e ▸ raMem15 w)

/-- The results of host stretch 16. -/
abbrev hw16 : List (Ref sig .tc) := [main_v218, main_v219, main_v220, main_v221, main_v222, main_v223, main_v224, main_v225, main_v226, main_v227, main_v228, main_v229, main_v230, main_v231, main_v232, main_v233]
theorem hostWrites16 : (hostOps16 : List (HloOp τ sig (Elt F))).Forall fun op => op.writes ⊆ (hw16.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH16 (c : Dev nD) (b : Ref sig .tc) (hb : b ∉ hw16) :
    W33 m ρ c (Proc.devRef .tc b) = W32 m ρ c (Proc.devRef .tc b) :=
  StableHlo.after_of_writes_sub hostOps16 _ (hostWrites16 (F := F)) hb
/-- The arrays of region 16's windows. -/
abbrev ra16 : List (Ref sig .tc) := [main_v221, main_v220, main_v224, main_v227, main_v230, main_v233, main_v234]
theorem raMem16 : ∀ w, Pipeline.arrRef spec16 w ∈ ra16 := by decide
theorem stepR16 (c : Dev nD) (b : Ref sig .tc) (hb : b ∉ ra16) :
    W34 m ρ c (Proc.devRef .tc b) = W33 m ρ c (Proc.devRef .tc b) :=
  W34_of_ne m ρ c b fun w e => hb (e ▸ raMem16 w)

/-- The results of host stretch 17. -/
abbrev hw17 : List (Ref sig .tc) := [main_v235, main_v236, main_v237, main_v238, main_v239, main_v240, main_v241, main_v242, main_v243, main_v244, main_v245, main_v246, main_v247, main_v248, main_v249, main_v250]
theorem hostWrites17 : (hostOps17 : List (HloOp τ sig (Elt F))).Forall fun op => op.writes ⊆ (hw17.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH17 (c : Dev nD) (b : Ref sig .tc) (hb : b ∉ hw17) :
    W35 m ρ c (Proc.devRef .tc b) = W34 m ρ c (Proc.devRef .tc b) :=
  StableHlo.after_of_writes_sub hostOps17 _ (hostWrites17 (F := F)) hb
/-- The arrays of region 17's windows. -/
abbrev ra17 : List (Ref sig .tc) := [main_v238, main_v237, main_v241, main_v244, main_v247, main_v250, main_v251]
theorem raMem17 : ∀ w, Pipeline.arrRef spec17 w ∈ ra17 := by decide
theorem stepR17 (c : Dev nD) (b : Ref sig .tc) (hb : b ∉ ra17) :
    W36 m ρ c (Proc.devRef .tc b) = W35 m ρ c (Proc.devRef .tc b) :=
  W36_of_ne m ρ c b fun w e => hb (e ▸ raMem17 w)

/-- The results of host stretch 18. -/
abbrev hw18 : List (Ref sig .tc) := [main_v252, main_v253, main_v254, main_v255, main_v256, main_v257, main_v258, main_v259, main_v260, main_v261, main_v262, main_v263, main_v264, main_v265, main_v266, main_v267]
theorem hostWrites18 : (hostOps18 : List (HloOp τ sig (Elt F))).Forall fun op => op.writes ⊆ (hw18.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH18 (c : Dev nD) (b : Ref sig .tc) (hb : b ∉ hw18) :
    W37 m ρ c (Proc.devRef .tc b) = W36 m ρ c (Proc.devRef .tc b) :=
  StableHlo.after_of_writes_sub hostOps18 _ (hostWrites18 (F := F)) hb
/-- The arrays of region 18's windows. -/
abbrev ra18 : List (Ref sig .tc) := [main_v255, main_v254, main_v258, main_v261, main_v264, main_v267, main_v268]
theorem raMem18 : ∀ w, Pipeline.arrRef spec18 w ∈ ra18 := by decide
theorem stepR18 (c : Dev nD) (b : Ref sig .tc) (hb : b ∉ ra18) :
    W38 m ρ c (Proc.devRef .tc b) = W37 m ρ c (Proc.devRef .tc b) :=
  W38_of_ne m ρ c b fun w e => hb (e ▸ raMem18 w)

/-- The results of host stretch 19. -/
abbrev hw19 : List (Ref sig .tc) := [main_v269, main_v270, main_v271, main_v272, main_v273, main_v274, main_v275, main_v276, main_v277, main_v278, main_v279, main_v280, main_v281, main_v282, main_v283, main_v284]
theorem hostWrites19 : (hostOps19 : List (HloOp τ sig (Elt F))).Forall fun op => op.writes ⊆ (hw19.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH19 (c : Dev nD) (b : Ref sig .tc) (hb : b ∉ hw19) :
    W39 m ρ c (Proc.devRef .tc b) = W38 m ρ c (Proc.devRef .tc b) :=
  StableHlo.after_of_writes_sub hostOps19 _ (hostWrites19 (F := F)) hb
/-- The arrays of region 19's windows. -/
abbrev ra19 : List (Ref sig .tc) := [main_v272, main_v271, main_v275, main_v278, main_v281, main_v284, main_v285]
theorem raMem19 : ∀ w, Pipeline.arrRef spec19 w ∈ ra19 := by decide
theorem stepR19 (c : Dev nD) (b : Ref sig .tc) (hb : b ∉ ra19) :
    W40 m ρ c (Proc.devRef .tc b) = W39 m ρ c (Proc.devRef .tc b) :=
  W40_of_ne m ρ c b fun w e => hb (e ▸ raMem19 w)

/-- The results of host stretch 20. -/
abbrev hw20 : List (Ref sig .tc) := [main_v286, main_v287, main_v288, main_v289, main_v290, main_v291, main_v292, main_v293, main_v294, main_v295, main_v296, main_v297, main_v298, main_v299, main_v300, main_v301]
theorem hostWrites20 : (hostOps20 : List (HloOp τ sig (Elt F))).Forall fun op => op.writes ⊆ (hw20.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH20 (c : Dev nD) (b : Ref sig .tc) (hb : b ∉ hw20) :
    W41 m ρ c (Proc.devRef .tc b) = W40 m ρ c (Proc.devRef .tc b) :=
  StableHlo.after_of_writes_sub hostOps20 _ (hostWrites20 (F := F)) hb
/-- The arrays of region 20's windows. -/
abbrev ra20 : List (Ref sig .tc) := [main_v289, main_v288, main_v292, main_v295, main_v298, main_v301, main_v302]
theorem raMem20 : ∀ w, Pipeline.arrRef spec20 w ∈ ra20 := by decide
theorem stepR20 (c : Dev nD) (b : Ref sig .tc) (hb : b ∉ ra20) :
    W42 m ρ c (Proc.devRef .tc b) = W41 m ρ c (Proc.devRef .tc b) :=
  W42_of_ne m ρ c b fun w e => hb (e ▸ raMem20 w)

/-- The results of host stretch 21. -/
abbrev hw21 : List (Ref sig .tc) := [main_v303, main_v304, main_v305, main_v306, main_v307, main_v308, main_v309, main_v310, main_v311, main_v312, main_v313, main_v314, main_v315, main_v316, main_v317, main_v318]
theorem hostWrites21 : (hostOps21 : List (HloOp τ sig (Elt F))).Forall fun op => op.writes ⊆ (hw21.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH21 (c : Dev nD) (b : Ref sig .tc) (hb : b ∉ hw21) :
    W43 m ρ c (Proc.devRef .tc b) = W42 m ρ c (Proc.devRef .tc b) :=
  StableHlo.after_of_writes_sub hostOps21 _ (hostWrites21 (F := F)) hb
/-- The arrays of region 21's windows. -/
abbrev ra21 : List (Ref sig .tc) := [main_v306, main_v305, main_v309, main_v312, main_v315, main_v318, main_v319]
theorem raMem21 : ∀ w, Pipeline.arrRef spec21 w ∈ ra21 := by decide
theorem stepR21 (c : Dev nD) (b : Ref sig .tc) (hb : b ∉ ra21) :
    W44 m ρ c (Proc.devRef .tc b) = W43 m ρ c (Proc.devRef .tc b) :=
  W44_of_ne m ρ c b fun w e => hb (e ▸ raMem21 w)

/-- The results of host stretch 22. -/
abbrev hw22 : List (Ref sig .tc) := [main_v320, main_v321, main_v322, main_v323, main_v324, main_v325, main_v326, main_v327, main_v328, main_v329, main_v330, main_v331, main_v332, main_v333, main_v334, main_v335]
theorem hostWrites22 : (hostOps22 : List (HloOp τ sig (Elt F))).Forall fun op => op.writes ⊆ (hw22.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH22 (c : Dev nD) (b : Ref sig .tc) (hb : b ∉ hw22) :
    W45 m ρ c (Proc.devRef .tc b) = W44 m ρ c (Proc.devRef .tc b) :=
  StableHlo.after_of_writes_sub hostOps22 _ (hostWrites22 (F := F)) hb
/-- The arrays of region 22's windows. -/
abbrev ra22 : List (Ref sig .tc) := [main_v323, main_v322, main_v326, main_v329, main_v332, main_v335, main_v336]
theorem raMem22 : ∀ w, Pipeline.arrRef spec22 w ∈ ra22 := by decide
theorem stepR22 (c : Dev nD) (b : Ref sig .tc) (hb : b ∉ ra22) :
    W46 m ρ c (Proc.devRef .tc b) = W45 m ρ c (Proc.devRef .tc b) :=
  W46_of_ne m ρ c b fun w e => hb (e ▸ raMem22 w)

/-- The results of host stretch 23. -/
abbrev hw23 : List (Ref sig .tc) := [main_v337, main_v338, main_v339, main_v340, main_v341, main_v342, main_v343, main_v344, main_v345, main_v346, main_v347, main_v348, main_v349, main_v350, main_v351, main_v352]
theorem hostWrites23 : (hostOps23 : List (HloOp τ sig (Elt F))).Forall fun op => op.writes ⊆ (hw23.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH23 (c : Dev nD) (b : Ref sig .tc) (hb : b ∉ hw23) :
    W47 m ρ c (Proc.devRef .tc b) = W46 m ρ c (Proc.devRef .tc b) :=
  StableHlo.after_of_writes_sub hostOps23 _ (hostWrites23 (F := F)) hb
/-- The arrays of region 23's windows. -/
abbrev ra23 : List (Ref sig .tc) := [main_v340, main_v339, main_v343, main_v346, main_v349, main_v352, main_v353]
theorem raMem23 : ∀ w, Pipeline.arrRef spec23 w ∈ ra23 := by decide
theorem stepR23 (c : Dev nD) (b : Ref sig .tc) (hb : b ∉ ra23) :
    W48 m ρ c (Proc.devRef .tc b) = W47 m ρ c (Proc.devRef .tc b) :=
  W48_of_ne m ρ c b fun w e => hb (e ▸ raMem23 w)

/-- The results of host stretch 24. -/
abbrev hw24 : List (Ref sig .tc) := [main_v354, main_v355, main_v356, main_v357, main_v358, main_v359, main_v360]
theorem hostWrites24 : (hostOps24 : List (HloOp τ sig (Elt F))).Forall fun op => op.writes ⊆ (hw24.map (Proc.devRef (τ := τ) .tc)).toFinset := by
  simp only [List.Forall]
  exact ⟨by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide),
    by simp only [StableHlo.nullary_writes, StableHlo.unary_writes, StableHlo.reshape_writes, Finset.singleton_subset_iff, List.mem_toFinset]; exact List.mem_map_of_mem (by decide)⟩
theorem stepH24 (c : Dev nD) (b : Ref sig .tc) (hb : b ∉ hw24) :
    W49 m ρ c (Proc.devRef .tc b) = W48 m ρ c (Proc.devRef .tc b) :=
  StableHlo.after_of_writes_sub hostOps24 _ (hostWrites24 (F := F)) hb
/-- The arrays of region 24's windows. -/
abbrev ra24 : List (Ref sig .tc) := [main_v355, main_v356, main_v357, main_v358, main_v359, main_v360, main_v361]
theorem raMem24 : ∀ w, Pipeline.arrRef spec24 w ∈ ra24 := by decide
theorem stepR24 (c : Dev nD) (b : Ref sig .tc) (hb : b ∉ ra24) :
    W50 m ρ c (Proc.devRef .tc b) = W49 m ρ c (Proc.devRef .tc b) :=
  W50_of_ne m ρ c b fun w e => hb (e ▸ raMem24 w)

/-- The results of host stretch 25. -/
abbrev hw25 : List (Ref sig .tc) := [main_v362]
theorem hostWrites25 : (hostOps25 : List (HloOp τ sig (Elt F))).Forall fun op => op.writes ⊆ (hw25.map (Proc.devRef (τ := τ) .tc)).toFinset := by
  simp only [List.Forall]
  exact by simp only [StableHlo.nullary_writes, StableHlo.unary_writes, StableHlo.reshape_writes, Finset.singleton_subset_iff, List.mem_toFinset]; exact List.mem_map_of_mem (by decide)
theorem stepH25 (c : Dev nD) (b : Ref sig .tc) (hb : b ∉ hw25) :
    W51 m ρ c (Proc.devRef .tc b) = W50 m ρ c (Proc.devRef .tc b) :=
  StableHlo.after_of_writes_sub hostOps25 _ (hostWrites25 (F := F)) hb

end Cert.KernelIdeal.Keep

end
-- ==== Proof.Persist.lean ====
/-
  Buffers that nothing writes between the first region's entry and a later boundary hold there what they held at
  that entry; the argument arrays, which nothing writes at all, hold what was launched.
-/
import proofs.«113582_j30116310680263_2_alg».proof.Proof.HostKeep

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- Everything written after boundary 1, up to boundary n. -/
abbrev cum1 : List (Ref sig .tc) := []
theorem keepTo1 (c : Dev nD) (b : Ref sig .tc) (_hb : b ∉ cum1) : W1 m ρ c (Proc.devRef .tc b) = W1 m ρ c (Proc.devRef .tc b) := rfl
abbrev cum2 : List (Ref sig .tc) := ra0 ++ cum1
theorem keepTo2 (c : Dev nD) (b : Ref sig .tc) (hb : b ∉ cum2) : W2 m ρ c (Proc.devRef .tc b) = W1 m ρ c (Proc.devRef .tc b) :=
  (stepR0 m ρ c b (fun h => hb (List.mem_append_left _ h))).trans (keepTo1 m ρ c b (fun h => hb (List.mem_append_right _ h)))
abbrev cum3 : List (Ref sig .tc) := hw1 ++ cum2
theorem keepTo3 (c : Dev nD) (b : Ref sig .tc) (hb : b ∉ cum3) : W3 m ρ c (Proc.devRef .tc b) = W1 m ρ c (Proc.devRef .tc b) :=
  (stepH1 m ρ c b (fun h => hb (List.mem_append_left _ h))).trans (keepTo2 m ρ c b (fun h => hb (List.mem_append_right _ h)))
abbrev cum4 : List (Ref sig .tc) := ra1 ++ cum3
theorem keepTo4 (c : Dev nD) (b : Ref sig .tc) (hb : b ∉ cum4) : W4 m ρ c (Proc.devRef .tc b) = W1 m ρ c (Proc.devRef .tc b) :=
  (stepR1 m ρ c b (fun h => hb (List.mem_append_left _ h))).trans (keepTo3 m ρ c b (fun h => hb (List.mem_append_right _ h)))
abbrev cum5 : List (Ref sig .tc) := hw2 ++ cum4
theorem keepTo5 (c : Dev nD) (b : Ref sig .tc) (hb : b ∉ cum5) : W5 m ρ c (Proc.devRef .tc b) = W1 m ρ c (Proc.devRef .tc b) :=
  (stepH2 m ρ c b (fun h => hb (List.mem_append_left _ h))).trans (keepTo4 m ρ c b (fun h => hb (List.mem_append_right _ h)))
abbrev cum6 : List (Ref sig .tc) := ra2 ++ cum5
theorem keepTo6 (c : Dev nD) (b : Ref sig .tc) (hb : b ∉ cum6) : W6 m ρ c (Proc.devRef .tc b) = W1 m ρ c (Proc.devRef .tc b) :=
  (stepR2 m ρ c b (fun h => hb (List.mem_append_left _ h))).trans (keepTo5 m ρ c b (fun h => hb (List.mem_append_right _ h)))
abbrev cum7 : List (Ref sig .tc) := hw3 ++ cum6
theorem keepTo7 (c : Dev nD) (b : Ref sig .tc) (hb : b ∉ cum7) : W7 m ρ c (Proc.devRef .tc b) = W1 m ρ c (Proc.devRef .tc b) :=
  (stepH3 m ρ c b (fun h => hb (List.mem_append_left _ h))).trans (keepTo6 m ρ c b (fun h => hb (List.mem_append_right _ h)))
abbrev cum8 : List (Ref sig .tc) := ra3 ++ cum7
theorem keepTo8 (c : Dev nD) (b : Ref sig .tc) (hb : b ∉ cum8) : W8 m ρ c (Proc.devRef .tc b) = W1 m ρ c (Proc.devRef .tc b) :=
  (stepR3 m ρ c b (fun h => hb (List.mem_append_left _ h))).trans (keepTo7 m ρ c b (fun h => hb (List.mem_append_right _ h)))
abbrev cum9 : List (Ref sig .tc) := hw4 ++ cum8
theorem keepTo9 (c : Dev nD) (b : Ref sig .tc) (hb : b ∉ cum9) : W9 m ρ c (Proc.devRef .tc b) = W1 m ρ c (Proc.devRef .tc b) :=
  (stepH4 m ρ c b (fun h => hb (List.mem_append_left _ h))).trans (keepTo8 m ρ c b (fun h => hb (List.mem_append_right _ h)))
abbrev cum10 : List (Ref sig .tc) := ra4 ++ cum9
theorem keepTo10 (c : Dev nD) (b : Ref sig .tc) (hb : b ∉ cum10) : W10 m ρ c (Proc.devRef .tc b) = W1 m ρ c (Proc.devRef .tc b) :=
  (stepR4 m ρ c b (fun h => hb (List.mem_append_left _ h))).trans (keepTo9 m ρ c b (fun h => hb (List.mem_append_right _ h)))
abbrev cum11 : List (Ref sig .tc) := hw5 ++ cum10
theorem keepTo11 (c : Dev nD) (b : Ref sig .tc) (hb : b ∉ cum11) : W11 m ρ c (Proc.devRef .tc b) = W1 m ρ c (Proc.devRef .tc b) :=
  (stepH5 m ρ c b (fun h => hb (List.mem_append_left _ h))).trans (keepTo10 m ρ c b (fun h => hb (List.mem_append_right _ h)))
abbrev cum12 : List (Ref sig .tc) := ra5 ++ cum11
theorem keepTo12 (c : Dev nD) (b : Ref sig .tc) (hb : b ∉ cum12) : W12 m ρ c (Proc.devRef .tc b) = W1 m ρ c (Proc.devRef .tc b) :=
  (stepR5 m ρ c b (fun h => hb (List.mem_append_left _ h))).trans (keepTo11 m ρ c b (fun h => hb (List.mem_append_right _ h)))
abbrev cum13 : List (Ref sig .tc) := hw6 ++ cum12
theorem keepTo13 (c : Dev nD) (b : Ref sig .tc) (hb : b ∉ cum13) : W13 m ρ c (Proc.devRef .tc b) = W1 m ρ c (Proc.devRef .tc b) :=
  (stepH6 m ρ c b (fun h => hb (List.mem_append_left _ h))).trans (keepTo12 m ρ c b (fun h => hb (List.mem_append_right _ h)))
abbrev cum14 : List (Ref sig .tc) := ra6 ++ cum13
theorem keepTo14 (c : Dev nD) (b : Ref sig .tc) (hb : b ∉ cum14) : W14 m ρ c (Proc.devRef .tc b) = W1 m ρ c (Proc.devRef .tc b) :=
  (stepR6 m ρ c b (fun h => hb (List.mem_append_left _ h))).trans (keepTo13 m ρ c b (fun h => hb (List.mem_append_right _ h)))
abbrev cum15 : List (Ref sig .tc) := hw7 ++ cum14
theorem keepTo15 (c : Dev nD) (b : Ref sig .tc) (hb : b ∉ cum15) : W15 m ρ c (Proc.devRef .tc b) = W1 m ρ c (Proc.devRef .tc b) :=
  (stepH7 m ρ c b (fun h => hb (List.mem_append_left _ h))).trans (keepTo14 m ρ c b (fun h => hb (List.mem_append_right _ h)))
abbrev cum16 : List (Ref sig .tc) := ra7 ++ cum15
theorem keepTo16 (c : Dev nD) (b : Ref sig .tc) (hb : b ∉ cum16) : W16 m ρ c (Proc.devRef .tc b) = W1 m ρ c (Proc.devRef .tc b) :=
  (stepR7 m ρ c b (fun h => hb (List.mem_append_left _ h))).trans (keepTo15 m ρ c b (fun h => hb (List.mem_append_right _ h)))
abbrev cum17 : List (Ref sig .tc) := hw8 ++ cum16
theorem keepTo17 (c : Dev nD) (b : Ref sig .tc) (hb : b ∉ cum17) : W17 m ρ c (Proc.devRef .tc b) = W1 m ρ c (Proc.devRef .tc b) :=
  (stepH8 m ρ c b (fun h => hb (List.mem_append_left _ h))).trans (keepTo16 m ρ c b (fun h => hb (List.mem_append_right _ h)))
abbrev cum18 : List (Ref sig .tc) := ra8 ++ cum17
theorem keepTo18 (c : Dev nD) (b : Ref sig .tc) (hb : b ∉ cum18) : W18 m ρ c (Proc.devRef .tc b) = W1 m ρ c (Proc.devRef .tc b) :=
  (stepR8 m ρ c b (fun h => hb (List.mem_append_left _ h))).trans (keepTo17 m ρ c b (fun h => hb (List.mem_append_right _ h)))
abbrev cum19 : List (Ref sig .tc) := hw9 ++ cum18
theorem keepTo19 (c : Dev nD) (b : Ref sig .tc) (hb : b ∉ cum19) : W19 m ρ c (Proc.devRef .tc b) = W1 m ρ c (Proc.devRef .tc b) :=
  (stepH9 m ρ c b (fun h => hb (List.mem_append_left _ h))).trans (keepTo18 m ρ c b (fun h => hb (List.mem_append_right _ h)))
abbrev cum20 : List (Ref sig .tc) := ra9 ++ cum19
theorem keepTo20 (c : Dev nD) (b : Ref sig .tc) (hb : b ∉ cum20) : W20 m ρ c (Proc.devRef .tc b) = W1 m ρ c (Proc.devRef .tc b) :=
  (stepR9 m ρ c b (fun h => hb (List.mem_append_left _ h))).trans (keepTo19 m ρ c b (fun h => hb (List.mem_append_right _ h)))
abbrev cum21 : List (Ref sig .tc) := hw10 ++ cum20
theorem keepTo21 (c : Dev nD) (b : Ref sig .tc) (hb : b ∉ cum21) : W21 m ρ c (Proc.devRef .tc b) = W1 m ρ c (Proc.devRef .tc b) :=
  (stepH10 m ρ c b (fun h => hb (List.mem_append_left _ h))).trans (keepTo20 m ρ c b (fun h => hb (List.mem_append_right _ h)))
abbrev cum22 : List (Ref sig .tc) := ra10 ++ cum21
theorem keepTo22 (c : Dev nD) (b : Ref sig .tc) (hb : b ∉ cum22) : W22 m ρ c (Proc.devRef .tc b) = W1 m ρ c (Proc.devRef .tc b) :=
  (stepR10 m ρ c b (fun h => hb (List.mem_append_left _ h))).trans (keepTo21 m ρ c b (fun h => hb (List.mem_append_right _ h)))
abbrev cum23 : List (Ref sig .tc) := hw11 ++ cum22
theorem keepTo23 (c : Dev nD) (b : Ref sig .tc) (hb : b ∉ cum23) : W23 m ρ c (Proc.devRef .tc b) = W1 m ρ c (Proc.devRef .tc b) :=
  (stepH11 m ρ c b (fun h => hb (List.mem_append_left _ h))).trans (keepTo22 m ρ c b (fun h => hb (List.mem_append_right _ h)))
abbrev cum24 : List (Ref sig .tc) := ra11 ++ cum23
theorem keepTo24 (c : Dev nD) (b : Ref sig .tc) (hb : b ∉ cum24) : W24 m ρ c (Proc.devRef .tc b) = W1 m ρ c (Proc.devRef .tc b) :=
  (stepR11 m ρ c b (fun h => hb (List.mem_append_left _ h))).trans (keepTo23 m ρ c b (fun h => hb (List.mem_append_right _ h)))
abbrev cum25 : List (Ref sig .tc) := hw12 ++ cum24
theorem keepTo25 (c : Dev nD) (b : Ref sig .tc) (hb : b ∉ cum25) : W25 m ρ c (Proc.devRef .tc b) = W1 m ρ c (Proc.devRef .tc b) :=
  (stepH12 m ρ c b (fun h => hb (List.mem_append_left _ h))).trans (keepTo24 m ρ c b (fun h => hb (List.mem_append_right _ h)))
abbrev cum26 : List (Ref sig .tc) := ra12 ++ cum25
theorem keepTo26 (c : Dev nD) (b : Ref sig .tc) (hb : b ∉ cum26) : W26 m ρ c (Proc.devRef .tc b) = W1 m ρ c (Proc.devRef .tc b) :=
  (stepR12 m ρ c b (fun h => hb (List.mem_append_left _ h))).trans (keepTo25 m ρ c b (fun h => hb (List.mem_append_right _ h)))
abbrev cum27 : List (Ref sig .tc) := hw13 ++ cum26
theorem keepTo27 (c : Dev nD) (b : Ref sig .tc) (hb : b ∉ cum27) : W27 m ρ c (Proc.devRef .tc b) = W1 m ρ c (Proc.devRef .tc b) :=
  (stepH13 m ρ c b (fun h => hb (List.mem_append_left _ h))).trans (keepTo26 m ρ c b (fun h => hb (List.mem_append_right _ h)))
abbrev cum28 : List (Ref sig .tc) := ra13 ++ cum27
theorem keepTo28 (c : Dev nD) (b : Ref sig .tc) (hb : b ∉ cum28) : W28 m ρ c (Proc.devRef .tc b) = W1 m ρ c (Proc.devRef .tc b) :=
  (stepR13 m ρ c b (fun h => hb (List.mem_append_left _ h))).trans (keepTo27 m ρ c b (fun h => hb (List.mem_append_right _ h)))
abbrev cum29 : List (Ref sig .tc) := hw14 ++ cum28
theorem keepTo29 (c : Dev nD) (b : Ref sig .tc) (hb : b ∉ cum29) : W29 m ρ c (Proc.devRef .tc b) = W1 m ρ c (Proc.devRef .tc b) :=
  (stepH14 m ρ c b (fun h => hb (List.mem_append_left _ h))).trans (keepTo28 m ρ c b (fun h => hb (List.mem_append_right _ h)))
abbrev cum30 : List (Ref sig .tc) := ra14 ++ cum29
theorem keepTo30 (c : Dev nD) (b : Ref sig .tc) (hb : b ∉ cum30) : W30 m ρ c (Proc.devRef .tc b) = W1 m ρ c (Proc.devRef .tc b) :=
  (stepR14 m ρ c b (fun h => hb (List.mem_append_left _ h))).trans (keepTo29 m ρ c b (fun h => hb (List.mem_append_right _ h)))
abbrev cum31 : List (Ref sig .tc) := hw15 ++ cum30
theorem keepTo31 (c : Dev nD) (b : Ref sig .tc) (hb : b ∉ cum31) : W31 m ρ c (Proc.devRef .tc b) = W1 m ρ c (Proc.devRef .tc b) :=
  (stepH15 m ρ c b (fun h => hb (List.mem_append_left _ h))).trans (keepTo30 m ρ c b (fun h => hb (List.mem_append_right _ h)))
abbrev cum32 : List (Ref sig .tc) := ra15 ++ cum31
theorem keepTo32 (c : Dev nD) (b : Ref sig .tc) (hb : b ∉ cum32) : W32 m ρ c (Proc.devRef .tc b) = W1 m ρ c (Proc.devRef .tc b) :=
  (stepR15 m ρ c b (fun h => hb (List.mem_append_left _ h))).trans (keepTo31 m ρ c b (fun h => hb (List.mem_append_right _ h)))
abbrev cum33 : List (Ref sig .tc) := hw16 ++ cum32
theorem keepTo33 (c : Dev nD) (b : Ref sig .tc) (hb : b ∉ cum33) : W33 m ρ c (Proc.devRef .tc b) = W1 m ρ c (Proc.devRef .tc b) :=
  (stepH16 m ρ c b (fun h => hb (List.mem_append_left _ h))).trans (keepTo32 m ρ c b (fun h => hb (List.mem_append_right _ h)))
abbrev cum34 : List (Ref sig .tc) := ra16 ++ cum33
theorem keepTo34 (c : Dev nD) (b : Ref sig .tc) (hb : b ∉ cum34) : W34 m ρ c (Proc.devRef .tc b) = W1 m ρ c (Proc.devRef .tc b) :=
  (stepR16 m ρ c b (fun h => hb (List.mem_append_left _ h))).trans (keepTo33 m ρ c b (fun h => hb (List.mem_append_right _ h)))
abbrev cum35 : List (Ref sig .tc) := hw17 ++ cum34
theorem keepTo35 (c : Dev nD) (b : Ref sig .tc) (hb : b ∉ cum35) : W35 m ρ c (Proc.devRef .tc b) = W1 m ρ c (Proc.devRef .tc b) :=
  (stepH17 m ρ c b (fun h => hb (List.mem_append_left _ h))).trans (keepTo34 m ρ c b (fun h => hb (List.mem_append_right _ h)))
abbrev cum36 : List (Ref sig .tc) := ra17 ++ cum35
theorem keepTo36 (c : Dev nD) (b : Ref sig .tc) (hb : b ∉ cum36) : W36 m ρ c (Proc.devRef .tc b) = W1 m ρ c (Proc.devRef .tc b) :=
  (stepR17 m ρ c b (fun h => hb (List.mem_append_left _ h))).trans (keepTo35 m ρ c b (fun h => hb (List.mem_append_right _ h)))
abbrev cum37 : List (Ref sig .tc) := hw18 ++ cum36
theorem keepTo37 (c : Dev nD) (b : Ref sig .tc) (hb : b ∉ cum37) : W37 m ρ c (Proc.devRef .tc b) = W1 m ρ c (Proc.devRef .tc b) :=
  (stepH18 m ρ c b (fun h => hb (List.mem_append_left _ h))).trans (keepTo36 m ρ c b (fun h => hb (List.mem_append_right _ h)))
abbrev cum38 : List (Ref sig .tc) := ra18 ++ cum37
theorem keepTo38 (c : Dev nD) (b : Ref sig .tc) (hb : b ∉ cum38) : W38 m ρ c (Proc.devRef .tc b) = W1 m ρ c (Proc.devRef .tc b) :=
  (stepR18 m ρ c b (fun h => hb (List.mem_append_left _ h))).trans (keepTo37 m ρ c b (fun h => hb (List.mem_append_right _ h)))
abbrev cum39 : List (Ref sig .tc) := hw19 ++ cum38
theorem keepTo39 (c : Dev nD) (b : Ref sig .tc) (hb : b ∉ cum39) : W39 m ρ c (Proc.devRef .tc b) = W1 m ρ c (Proc.devRef .tc b) :=
  (stepH19 m ρ c b (fun h => hb (List.mem_append_left _ h))).trans (keepTo38 m ρ c b (fun h => hb (List.mem_append_right _ h)))
abbrev cum40 : List (Ref sig .tc) := ra19 ++ cum39
theorem keepTo40 (c : Dev nD) (b : Ref sig .tc) (hb : b ∉ cum40) : W40 m ρ c (Proc.devRef .tc b) = W1 m ρ c (Proc.devRef .tc b) :=
  (stepR19 m ρ c b (fun h => hb (List.mem_append_left _ h))).trans (keepTo39 m ρ c b (fun h => hb (List.mem_append_right _ h)))
abbrev cum41 : List (Ref sig .tc) := hw20 ++ cum40
theorem keepTo41 (c : Dev nD) (b : Ref sig .tc) (hb : b ∉ cum41) : W41 m ρ c (Proc.devRef .tc b) = W1 m ρ c (Proc.devRef .tc b) :=
  (stepH20 m ρ c b (fun h => hb (List.mem_append_left _ h))).trans (keepTo40 m ρ c b (fun h => hb (List.mem_append_right _ h)))
abbrev cum42 : List (Ref sig .tc) := ra20 ++ cum41
theorem keepTo42 (c : Dev nD) (b : Ref sig .tc) (hb : b ∉ cum42) : W42 m ρ c (Proc.devRef .tc b) = W1 m ρ c (Proc.devRef .tc b) :=
  (stepR20 m ρ c b (fun h => hb (List.mem_append_left _ h))).trans (keepTo41 m ρ c b (fun h => hb (List.mem_append_right _ h)))
abbrev cum43 : List (Ref sig .tc) := hw21 ++ cum42
theorem keepTo43 (c : Dev nD) (b : Ref sig .tc) (hb : b ∉ cum43) : W43 m ρ c (Proc.devRef .tc b) = W1 m ρ c (Proc.devRef .tc b) :=
  (stepH21 m ρ c b (fun h => hb (List.mem_append_left _ h))).trans (keepTo42 m ρ c b (fun h => hb (List.mem_append_right _ h)))
abbrev cum44 : List (Ref sig .tc) := ra21 ++ cum43
theorem keepTo44 (c : Dev nD) (b : Ref sig .tc) (hb : b ∉ cum44) : W44 m ρ c (Proc.devRef .tc b) = W1 m ρ c (Proc.devRef .tc b) :=
  (stepR21 m ρ c b (fun h => hb (List.mem_append_left _ h))).trans (keepTo43 m ρ c b (fun h => hb (List.mem_append_right _ h)))
abbrev cum45 : List (Ref sig .tc) := hw22 ++ cum44
theorem keepTo45 (c : Dev nD) (b : Ref sig .tc) (hb : b ∉ cum45) : W45 m ρ c (Proc.devRef .tc b) = W1 m ρ c (Proc.devRef .tc b) :=
  (stepH22 m ρ c b (fun h => hb (List.mem_append_left _ h))).trans (keepTo44 m ρ c b (fun h => hb (List.mem_append_right _ h)))
abbrev cum46 : List (Ref sig .tc) := ra22 ++ cum45
theorem keepTo46 (c : Dev nD) (b : Ref sig .tc) (hb : b ∉ cum46) : W46 m ρ c (Proc.devRef .tc b) = W1 m ρ c (Proc.devRef .tc b) :=
  (stepR22 m ρ c b (fun h => hb (List.mem_append_left _ h))).trans (keepTo45 m ρ c b (fun h => hb (List.mem_append_right _ h)))
abbrev cum47 : List (Ref sig .tc) := hw23 ++ cum46
theorem keepTo47 (c : Dev nD) (b : Ref sig .tc) (hb : b ∉ cum47) : W47 m ρ c (Proc.devRef .tc b) = W1 m ρ c (Proc.devRef .tc b) :=
  (stepH23 m ρ c b (fun h => hb (List.mem_append_left _ h))).trans (keepTo46 m ρ c b (fun h => hb (List.mem_append_right _ h)))
abbrev cum48 : List (Ref sig .tc) := ra23 ++ cum47
theorem keepTo48 (c : Dev nD) (b : Ref sig .tc) (hb : b ∉ cum48) : W48 m ρ c (Proc.devRef .tc b) = W1 m ρ c (Proc.devRef .tc b) :=
  (stepR23 m ρ c b (fun h => hb (List.mem_append_left _ h))).trans (keepTo47 m ρ c b (fun h => hb (List.mem_append_right _ h)))
abbrev cum49 : List (Ref sig .tc) := hw24 ++ cum48
theorem keepTo49 (c : Dev nD) (b : Ref sig .tc) (hb : b ∉ cum49) : W49 m ρ c (Proc.devRef .tc b) = W1 m ρ c (Proc.devRef .tc b) :=
  (stepH24 m ρ c b (fun h => hb (List.mem_append_left _ h))).trans (keepTo48 m ρ c b (fun h => hb (List.mem_append_right _ h)))
abbrev cum50 : List (Ref sig .tc) := ra24 ++ cum49
theorem keepTo50 (c : Dev nD) (b : Ref sig .tc) (hb : b ∉ cum50) : W50 m ρ c (Proc.devRef .tc b) = W1 m ρ c (Proc.devRef .tc b) :=
  (stepR24 m ρ c b (fun h => hb (List.mem_append_left _ h))).trans (keepTo49 m ρ c b (fun h => hb (List.mem_append_right _ h)))

end Cert.KernelIdeal.Keep

end
-- ==== Proof.BodyValue.lean ====
/-
  What each kernel body leaves, on a block of rows: the layer of LibSpikeLayer applied to the rows the block holds.

  An up-sweep body multiplies its block of activations (rows of 1024) by the transposed weight table, adds the
  bias row, compares with the threshold row and divides each 0/1 row by (its sum + eps).  A down-sweep body does
  the same with the contraction in two halves — the context block against the first 512 rows of the transposed
  table, the left-children block against the last 512 — and also passes the context block through unchanged.  The
  leaf body is the two-half layer on (input block, context block).  Narrowing casts change nothing at the extended
  reals.
-/
import proofs.«113582_j30116310680263_2_alg».proof.Proof.Gen.KernelIdeal.Skeleton
import proofs.«113582_j30116310680263_2_alg».proof.Proof.LibRowMajor
import proofs.«113582_j30116310680263_2_alg».proof.Proof.LibSpikeLayer
import proofs.«113582_j30116310680263_2_alg».proof.Proof.LibPlainDot
import proofs.«113582_j30116310680263_2_alg».proof.Proof.LibDenseLayer
import proofs.«113582_j30116310680263_2_alg».proof.Proof.LibSpikeBlock

noncomputable section

namespace Cert.KernelIdeal.BodyValue

open Cert.KernelIdeal Cert.KernelIdeal.Gen Idealize.ShloMosaic Idealize.ShloMosaic.ValueIdx
open Cert.Lib.RowMajor Cert.Lib.SpikeLayer Cert.Lib.SpikeBlock Cert.Lib.DenseLayer

/-- A narrowing cast is the identity at the extended reals. -/
theorem truncf_ideal {s : Shape} {φ ψ : FTy} (a : FVec Ideal s φ) (h : ψ.bits < φ.bits) : (truncf ψ a h : s.Idx → EReal) = a := rfl

/-! ## The matrix unit's records: rows by columns -/
theorem plain_S2048x1024 : Plain dot_S2048x1024_S1024x512_S2048x512_1_0_0_1_n_n :=
  ⟨rfl, rfl, fun _ _ => rfl, fun _ _ => rfl, fun _ _ => rfl, fun _ _ => rfl⟩
theorem plain_S1024x1024 : Plain dot_S1024x1024_S1024x512_S1024x512_1_0_0_1_n_n :=
  ⟨rfl, rfl, fun _ _ => rfl, fun _ _ => rfl, fun _ _ => rfl, fun _ _ => rfl⟩
theorem plain_S512x1024 : Plain dot_S512x1024_S1024x512_S512x512_1_0_0_1_n_n :=
  ⟨rfl, rfl, fun _ _ => rfl, fun _ _ => rfl, fun _ _ => rfl, fun _ _ => rfl⟩
theorem plain_S256x1024 : Plain dot_S256x1024_S1024x512_S256x512_1_0_0_1_n_n :=
  ⟨rfl, rfl, fun _ _ => rfl, fun _ _ => rfl, fun _ _ => rfl, fun _ _ => rfl⟩
theorem plain_S128x1024 : Plain dot_S128x1024_S1024x512_S128x512_1_0_0_1_n_n :=
  ⟨rfl, rfl, fun _ _ => rfl, fun _ _ => rfl, fun _ _ => rfl, fun _ _ => rfl⟩
theorem plain_S64x1024 : Plain dot_S64x1024_S1024x512_S64x512_1_0_0_1_n_n :=
  ⟨rfl, rfl, fun _ _ => rfl, fun _ _ => rfl, fun _ _ => rfl, fun _ _ => rfl⟩
theorem plain_S32x1024 : Plain dot_S32x1024_S1024x512_S32x512_1_0_0_1_n_n :=
  ⟨rfl, rfl, fun _ _ => rfl, fun _ _ => rfl, fun _ _ => rfl, fun _ _ => rfl⟩
theorem plain_S16x1024 : Plain dot_S16x1024_S1024x512_S16x512_1_0_0_1_n_n :=
  ⟨rfl, rfl, fun _ _ => rfl, fun _ _ => rfl, fun _ _ => rfl, fun _ _ => rfl⟩
theorem plain_S16x512 : Plain dot_S16x512_S512x512_S16x512_1_0_0_1_n_n :=
  ⟨rfl, rfl, fun _ _ => rfl, fun _ _ => rfl, fun _ _ => rfl, fun _ _ => rfl⟩
theorem plain_S32x512 : Plain dot_S32x512_S512x512_S32x512_1_0_0_1_n_n :=
  ⟨rfl, rfl, fun _ _ => rfl, fun _ _ => rfl, fun _ _ => rfl, fun _ _ => rfl⟩
theorem plain_S64x512 : Plain dot_S64x512_S512x512_S64x512_1_0_0_1_n_n :=
  ⟨rfl, rfl, fun _ _ => rfl, fun _ _ => rfl, fun _ _ => rfl, fun _ _ => rfl⟩
theorem plain_S128x512 : Plain dot_S128x512_S512x512_S128x512_1_0_0_1_n_n :=
  ⟨rfl, rfl, fun _ _ => rfl, fun _ _ => rfl, fun _ _ => rfl, fun _ _ => rfl⟩
theorem plain_S256x512 : Plain dot_S256x512_S512x512_S256x512_1_0_0_1_n_n :=
  ⟨rfl, rfl, fun _ _ => rfl, fun _ _ => rfl, fun _ _ => rfl, fun _ _ => rfl⟩
theorem plain_S512x512 : Plain dot_S512x512_S512x512_S512x512_1_0_0_1_n_n :=
  ⟨rfl, rfl, fun _ _ => rfl, fun _ _ => rfl, fun _ _ => rfl, fun _ _ => rfl⟩
theorem plain_S1024x512 : Plain dot_S1024x512_S512x512_S1024x512_1_0_0_1_n_n :=
  ⟨rfl, rfl, fun _ _ => rfl, fun _ _ => rfl, fun _ _ => rfl, fun _ _ => rfl⟩
theorem plain_S2048x512 : Plain dot_S2048x512_S512x512_S2048x512_1_0_0_1_n_n :=
  ⟨rfl, rfl, fun _ _ => rfl, fun _ _ => rfl, fun _ _ => rfl, fun _ _ => rfl⟩

/-! ## The bodies -/

theorem pay0 (x0 : Vec Ideal S2048x1024 .f32) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k0_pay1 (F := Ideal) x0 x1 x2 x3)
      (rowNormalize 512 (fun n => spike (rowDot 1024 512 1024 1024 0 a w n + colOf 512 b n) (colOf 512 t n))) := by
  unfold k0_pay1
  simp only [shapeCast_self, truncf_ideal]
  exact blk_normalize (blk_spike (blk_addf (blk_matmul plain_S2048x1024 h0 h1 none) (blk_rowBroadcast h2 _ off))
    (blk_rowBroadcast h3 _ off) _) _ _ _ _ _

theorem pay1 (x0 : Vec Ideal S2048x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k1_pay1 (F := Ideal) x0 x1 x2 x3)
      (rowNormalize 512 (fun n => spike (rowDot 1024 512 1024 1024 0 a w n + colOf 512 b n) (colOf 512 t n))) := by
  unfold k1_pay1
  simp only [shapeCast_self, truncf_ideal]
  exact blk_normalize (blk_spike (blk_addf (blk_matmul plain_S2048x1024 h0 h1 none) (blk_rowBroadcast h2 _ off))
    (blk_rowBroadcast h3 _ off) _) _ _ _ _ _

theorem pay2 (x0 : Vec Ideal S2048x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k2_pay1 (F := Ideal) x0 x1 x2 x3)
      (rowNormalize 512 (fun n => spike (rowDot 1024 512 1024 1024 0 a w n + colOf 512 b n) (colOf 512 t n))) := by
  unfold k2_pay1
  simp only [shapeCast_self, truncf_ideal]
  exact blk_normalize (blk_spike (blk_addf (blk_matmul plain_S2048x1024 h0 h1 none) (blk_rowBroadcast h2 _ off))
    (blk_rowBroadcast h3 _ off) _) _ _ _ _ _

theorem pay3 (x0 : Vec Ideal S2048x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k3_pay1 (F := Ideal) x0 x1 x2 x3)
      (rowNormalize 512 (fun n => spike (rowDot 1024 512 1024 1024 0 a w n + colOf 512 b n) (colOf 512 t n))) := by
  unfold k3_pay1
  simp only [shapeCast_self, truncf_ideal]
  exact blk_normalize (blk_spike (blk_addf (blk_matmul plain_S2048x1024 h0 h1 none) (blk_rowBroadcast h2 _ off))
    (blk_rowBroadcast h3 _ off) _) _ _ _ _ _

theorem pay4 (x0 : Vec Ideal S2048x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k4_pay1 (F := Ideal) x0 x1 x2 x3)
      (rowNormalize 512 (fun n => spike (rowDot 1024 512 1024 1024 0 a w n + colOf 512 b n) (colOf 512 t n))) := by
  unfold k4_pay1
  simp only [shapeCast_self, truncf_ideal]
  exact blk_normalize (blk_spike (blk_addf (blk_matmul plain_S2048x1024 h0 h1 none) (blk_rowBroadcast h2 _ off))
    (blk_rowBroadcast h3 _ off) _) _ _ _ _ _

theorem pay5 (x0 : Vec Ideal S1024x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k5_pay1 (F := Ideal) x0 x1 x2 x3)
      (rowNormalize 512 (fun n => spike (rowDot 1024 512 1024 1024 0 a w n + colOf 512 b n) (colOf 512 t n))) := by
  unfold k5_pay1
  simp only [shapeCast_self, truncf_ideal]
  exact blk_normalize (blk_spike (blk_addf (blk_matmul plain_S1024x1024 h0 h1 none) (blk_rowBroadcast h2 _ off))
    (blk_rowBroadcast h3 _ off) _) _ _ _ _ _

theorem pay6 (x0 : Vec Ideal S512x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k6_pay1 (F := Ideal) x0 x1 x2 x3)
      (rowNormalize 512 (fun n => spike (rowDot 1024 512 1024 1024 0 a w n + colOf 512 b n) (colOf 512 t n))) := by
  unfold k6_pay1
  simp only [shapeCast_self, truncf_ideal]
  exact blk_normalize (blk_spike (blk_addf (blk_matmul plain_S512x1024 h0 h1 none) (blk_rowBroadcast h2 _ off))
    (blk_rowBroadcast h3 _ off) _) _ _ _ _ _

theorem pay7 (x0 : Vec Ideal S256x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k7_pay1 (F := Ideal) x0 x1 x2 x3)
      (rowNormalize 512 (fun n => spike (rowDot 1024 512 1024 1024 0 a w n + colOf 512 b n) (colOf 512 t n))) := by
  unfold k7_pay1
  simp only [shapeCast_self, truncf_ideal]
  exact blk_normalize (blk_spike (blk_addf (blk_matmul plain_S256x1024 h0 h1 none) (blk_rowBroadcast h2 _ off))
    (blk_rowBroadcast h3 _ off) _) _ _ _ _ _

theorem pay8 (x0 : Vec Ideal S128x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k8_pay1 (F := Ideal) x0 x1 x2 x3)
      (rowNormalize 512 (fun n => spike (rowDot 1024 512 1024 1024 0 a w n + colOf 512 b n) (colOf 512 t n))) := by
  unfold k8_pay1
  simp only [shapeCast_self, truncf_ideal]
  exact blk_normalize (blk_spike (blk_addf (blk_matmul plain_S128x1024 h0 h1 none) (blk_rowBroadcast h2 _ off))
    (blk_rowBroadcast h3 _ off) _) _ _ _ _ _

theorem pay9 (x0 : Vec Ideal S64x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k9_pay1 (F := Ideal) x0 x1 x2 x3)
      (rowNormalize 512 (fun n => spike (rowDot 1024 512 1024 1024 0 a w n + colOf 512 b n) (colOf 512 t n))) := by
  unfold k9_pay1
  simp only [shapeCast_self, truncf_ideal]
  exact blk_normalize (blk_spike (blk_addf (blk_matmul plain_S64x1024 h0 h1 none) (blk_rowBroadcast h2 _ off))
    (blk_rowBroadcast h3 _ off) _) _ _ _ _ _

theorem pay10 (x0 : Vec Ideal S32x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k10_pay1 (F := Ideal) x0 x1 x2 x3)
      (rowNormalize 512 (fun n => spike (rowDot 1024 512 1024 1024 0 a w n + colOf 512 b n) (colOf 512 t n))) := by
  unfold k10_pay1
  simp only [shapeCast_self, truncf_ideal]
  exact blk_normalize (blk_spike (blk_addf (blk_matmul plain_S32x1024 h0 h1 none) (blk_rowBroadcast h2 _ off))
    (blk_rowBroadcast h3 _ off) _) _ _ _ _ _

theorem pay11 (x0 : Vec Ideal S16x1024 .bf16) (x1 : Vec Ideal S1024x512 .bf16) (x2 : Vec Ideal S1x512 .f32) (x3 : Vec Ideal S1x512 .f32)
    {a w b t : ℕ → EReal} {off : ℕ}
    (h0 : BlkRep off 1024 x0 a) (h1 : WtRep 1024 0 x1 w) (h2 : RowRep x2 b) (h3 : RowRep x3 t) :
    BlkRep off 512 (k11_pay1 (F := Ideal) x0 x1 x2 x3)
      (rowNormalize 512 (fun n => spike (rowDot 1024 512 1024 1024 0 a w n + colOf 512 b n) (colOf 512 t n))) := by
  unfold k11_pay1
  simp only [shapeCast_self, truncf_ideal]
  exact blk_normalize (blk_spike (blk_addf (blk_matmul plain_S16x1024 h0 h1 none) (blk_rowBroadcast h2 _ off))
    (blk_rowBroadcast h3 _ off) _) _ _ _ _ _

theorem pass12 (x0 : Vec Ideal S16x512 .bf16) {c : ℕ → EReal} {off : ℕ} (h0 : BlkRep off 512 x0 c) :
    BlkRep off 512 (k12_pay1 (F := Ideal) x0) c := by
  unfold k12_pay1
  simp only [shapeCast_self]
  exact h0

theorem pay12 (x0 : Vec Ideal S16x512 .bf16) (x1 : Vec Ideal S16x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k12_pay2 (F := Ideal) x0 x1 x2 x3 x4 x5)
      (rowNormalize 512 (fun n => spike ((rowDot 512 512 512 1024 0 c w n + rowDot 512 512 1024 1024 512 s w n) + colOf 512 b n) (colOf 512 t n))) := by
  unfold k12_pay2 k12_pay1
  simp only [shapeCast_self, truncf_ideal]
  exact blk_normalize (blk_spike (blk_addf (blk_addf (blk_matmul plain_S16x512 h0 h2 none) (blk_matmul plain_S16x512 h1 h3 none)) (blk_rowBroadcast h4 _ off))
    (blk_rowBroadcast h5 _ off) _) _ _ _ _ _

theorem pass13 (x0 : Vec Ideal S32x512 .bf16) {c : ℕ → EReal} {off : ℕ} (h0 : BlkRep off 512 x0 c) :
    BlkRep off 512 (k13_pay1 (F := Ideal) x0) c := by
  unfold k13_pay1
  simp only [shapeCast_self]
  exact h0

theorem pay13 (x0 : Vec Ideal S32x512 .bf16) (x1 : Vec Ideal S32x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k13_pay2 (F := Ideal) x0 x1 x2 x3 x4 x5)
      (rowNormalize 512 (fun n => spike ((rowDot 512 512 512 1024 0 c w n + rowDot 512 512 1024 1024 512 s w n) + colOf 512 b n) (colOf 512 t n))) := by
  unfold k13_pay2 k13_pay1
  simp only [shapeCast_self, truncf_ideal]
  exact blk_normalize (blk_spike (blk_addf (blk_addf (blk_matmul plain_S32x512 h0 h2 none) (blk_matmul plain_S32x512 h1 h3 none)) (blk_rowBroadcast h4 _ off))
    (blk_rowBroadcast h5 _ off) _) _ _ _ _ _

theorem pass14 (x0 : Vec Ideal S64x512 .bf16) {c : ℕ → EReal} {off : ℕ} (h0 : BlkRep off 512 x0 c) :
    BlkRep off 512 (k14_pay1 (F := Ideal) x0) c := by
  unfold k14_pay1
  simp only [shapeCast_self]
  exact h0

theorem pay14 (x0 : Vec Ideal S64x512 .bf16) (x1 : Vec Ideal S64x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k14_pay2 (F := Ideal) x0 x1 x2 x3 x4 x5)
      (rowNormalize 512 (fun n => spike ((rowDot 512 512 512 1024 0 c w n + rowDot 512 512 1024 1024 512 s w n) + colOf 512 b n) (colOf 512 t n))) := by
  unfold k14_pay2 k14_pay1
  simp only [shapeCast_self, truncf_ideal]
  exact blk_normalize (blk_spike (blk_addf (blk_addf (blk_matmul plain_S64x512 h0 h2 none) (blk_matmul plain_S64x512 h1 h3 none)) (blk_rowBroadcast h4 _ off))
    (blk_rowBroadcast h5 _ off) _) _ _ _ _ _

theorem pass15 (x0 : Vec Ideal S128x512 .bf16) {c : ℕ → EReal} {off : ℕ} (h0 : BlkRep off 512 x0 c) :
    BlkRep off 512 (k15_pay1 (F := Ideal) x0) c := by
  unfold k15_pay1
  simp only [shapeCast_self]
  exact h0

theorem pay15 (x0 : Vec Ideal S128x512 .bf16) (x1 : Vec Ideal S128x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k15_pay2 (F := Ideal) x0 x1 x2 x3 x4 x5)
      (rowNormalize 512 (fun n => spike ((rowDot 512 512 512 1024 0 c w n + rowDot 512 512 1024 1024 512 s w n) + colOf 512 b n) (colOf 512 t n))) := by
  unfold k15_pay2 k15_pay1
  simp only [shapeCast_self, truncf_ideal]
  exact blk_normalize (blk_spike (blk_addf (blk_addf (blk_matmul plain_S128x512 h0 h2 none) (blk_matmul plain_S128x512 h1 h3 none)) (blk_rowBroadcast h4 _ off))
    (blk_rowBroadcast h5 _ off) _) _ _ _ _ _

theorem pass16 (x0 : Vec Ideal S256x512 .bf16) {c : ℕ → EReal} {off : ℕ} (h0 : BlkRep off 512 x0 c) :
    BlkRep off 512 (k16_pay1 (F := Ideal) x0) c := by
  unfold k16_pay1
  simp only [shapeCast_self]
  exact h0

theorem pay16 (x0 : Vec Ideal S256x512 .bf16) (x1 : Vec Ideal S256x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k16_pay2 (F := Ideal) x0 x1 x2 x3 x4 x5)
      (rowNormalize 512 (fun n => spike ((rowDot 512 512 512 1024 0 c w n + rowDot 512 512 1024 1024 512 s w n) + colOf 512 b n) (colOf 512 t n))) := by
  unfold k16_pay2 k16_pay1
  simp only [shapeCast_self, truncf_ideal]
  exact blk_normalize (blk_spike (blk_addf (blk_addf (blk_matmul plain_S256x512 h0 h2 none) (blk_matmul plain_S256x512 h1 h3 none)) (blk_rowBroadcast h4 _ off))
    (blk_rowBroadcast h5 _ off) _) _ _ _ _ _

theorem pass17 (x0 : Vec Ideal S512x512 .bf16) {c : ℕ → EReal} {off : ℕ} (h0 : BlkRep off 512 x0 c) :
    BlkRep off 512 (k17_pay1 (F := Ideal) x0) c := by
  unfold k17_pay1
  simp only [shapeCast_self]
  exact h0

theorem pay17 (x0 : Vec Ideal S512x512 .bf16) (x1 : Vec Ideal S512x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k17_pay2 (F := Ideal) x0 x1 x2 x3 x4 x5)
      (rowNormalize 512 (fun n => spike ((rowDot 512 512 512 1024 0 c w n + rowDot 512 512 1024 1024 512 s w n) + colOf 512 b n) (colOf 512 t n))) := by
  unfold k17_pay2 k17_pay1
  simp only [shapeCast_self, truncf_ideal]
  exact blk_normalize (blk_spike (blk_addf (blk_addf (blk_matmul plain_S512x512 h0 h2 none) (blk_matmul plain_S512x512 h1 h3 none)) (blk_rowBroadcast h4 _ off))
    (blk_rowBroadcast h5 _ off) _) _ _ _ _ _

theorem pass18 (x0 : Vec Ideal S1024x512 .bf16) {c : ℕ → EReal} {off : ℕ} (h0 : BlkRep off 512 x0 c) :
    BlkRep off 512 (k18_pay1 (F := Ideal) x0) c := by
  unfold k18_pay1
  simp only [shapeCast_self]
  exact h0

theorem pay18 (x0 : Vec Ideal S1024x512 .bf16) (x1 : Vec Ideal S1024x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k18_pay2 (F := Ideal) x0 x1 x2 x3 x4 x5)
      (rowNormalize 512 (fun n => spike ((rowDot 512 512 512 1024 0 c w n + rowDot 512 512 1024 1024 512 s w n) + colOf 512 b n) (colOf 512 t n))) := by
  unfold k18_pay2 k18_pay1
  simp only [shapeCast_self, truncf_ideal]
  exact blk_normalize (blk_spike (blk_addf (blk_addf (blk_matmul plain_S1024x512 h0 h2 none) (blk_matmul plain_S1024x512 h1 h3 none)) (blk_rowBroadcast h4 _ off))
    (blk_rowBroadcast h5 _ off) _) _ _ _ _ _

theorem pass19 (x0 : Vec Ideal S2048x512 .bf16) {c : ℕ → EReal} {off : ℕ} (h0 : BlkRep off 512 x0 c) :
    BlkRep off 512 (k19_pay1 (F := Ideal) x0) c := by
  unfold k19_pay1
  simp only [shapeCast_self]
  exact h0

theorem pay19 (x0 : Vec Ideal S2048x512 .bf16) (x1 : Vec Ideal S2048x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k19_pay2 (F := Ideal) x0 x1 x2 x3 x4 x5)
      (rowNormalize 512 (fun n => spike ((rowDot 512 512 512 1024 0 c w n + rowDot 512 512 1024 1024 512 s w n) + colOf 512 b n) (colOf 512 t n))) := by
  unfold k19_pay2 k19_pay1
  simp only [shapeCast_self, truncf_ideal]
  exact blk_normalize (blk_spike (blk_addf (blk_addf (blk_matmul plain_S2048x512 h0 h2 none) (blk_matmul plain_S2048x512 h1 h3 none)) (blk_rowBroadcast h4 _ off))
    (blk_rowBroadcast h5 _ off) _) _ _ _ _ _

theorem pass20 (x0 : Vec Ideal S2048x512 .bf16) {c : ℕ → EReal} {off : ℕ} (h0 : BlkRep off 512 x0 c) :
    BlkRep off 512 (k20_pay1 (F := Ideal) x0) c := by
  unfold k20_pay1
  simp only [shapeCast_self]
  exact h0

theorem pay20 (x0 : Vec Ideal S2048x512 .bf16) (x1 : Vec Ideal S2048x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k20_pay2 (F := Ideal) x0 x1 x2 x3 x4 x5)
      (rowNormalize 512 (fun n => spike ((rowDot 512 512 512 1024 0 c w n + rowDot 512 512 1024 1024 512 s w n) + colOf 512 b n) (colOf 512 t n))) := by
  unfold k20_pay2 k20_pay1
  simp only [shapeCast_self, truncf_ideal]
  exact blk_normalize (blk_spike (blk_addf (blk_addf (blk_matmul plain_S2048x512 h0 h2 none) (blk_matmul plain_S2048x512 h1 h3 none)) (blk_rowBroadcast h4 _ off))
    (blk_rowBroadcast h5 _ off) _) _ _ _ _ _

theorem pass21 (x0 : Vec Ideal S2048x512 .bf16) {c : ℕ → EReal} {off : ℕ} (h0 : BlkRep off 512 x0 c) :
    BlkRep off 512 (k21_pay1 (F := Ideal) x0) c := by
  unfold k21_pay1
  simp only [shapeCast_self]
  exact h0

theorem pay21 (x0 : Vec Ideal S2048x512 .bf16) (x1 : Vec Ideal S2048x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k21_pay2 (F := Ideal) x0 x1 x2 x3 x4 x5)
      (rowNormalize 512 (fun n => spike ((rowDot 512 512 512 1024 0 c w n + rowDot 512 512 1024 1024 512 s w n) + colOf 512 b n) (colOf 512 t n))) := by
  unfold k21_pay2 k21_pay1
  simp only [shapeCast_self, truncf_ideal]
  exact blk_normalize (blk_spike (blk_addf (blk_addf (blk_matmul plain_S2048x512 h0 h2 none) (blk_matmul plain_S2048x512 h1 h3 none)) (blk_rowBroadcast h4 _ off))
    (blk_rowBroadcast h5 _ off) _) _ _ _ _ _

theorem pass22 (x0 : Vec Ideal S2048x512 .bf16) {c : ℕ → EReal} {off : ℕ} (h0 : BlkRep off 512 x0 c) :
    BlkRep off 512 (k22_pay1 (F := Ideal) x0) c := by
  unfold k22_pay1
  simp only [shapeCast_self]
  exact h0

theorem pay22 (x0 : Vec Ideal S2048x512 .bf16) (x1 : Vec Ideal S2048x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k22_pay2 (F := Ideal) x0 x1 x2 x3 x4 x5)
      (rowNormalize 512 (fun n => spike ((rowDot 512 512 512 1024 0 c w n + rowDot 512 512 1024 1024 512 s w n) + colOf 512 b n) (colOf 512 t n))) := by
  unfold k22_pay2 k22_pay1
  simp only [shapeCast_self, truncf_ideal]
  exact blk_normalize (blk_spike (blk_addf (blk_addf (blk_matmul plain_S2048x512 h0 h2 none) (blk_matmul plain_S2048x512 h1 h3 none)) (blk_rowBroadcast h4 _ off))
    (blk_rowBroadcast h5 _ off) _) _ _ _ _ _

theorem pass23 (x0 : Vec Ideal S2048x512 .bf16) {c : ℕ → EReal} {off : ℕ} (h0 : BlkRep off 512 x0 c) :
    BlkRep off 512 (k23_pay1 (F := Ideal) x0) c := by
  unfold k23_pay1
  simp only [shapeCast_self]
  exact h0

theorem pay23 (x0 : Vec Ideal S2048x512 .bf16) (x1 : Vec Ideal S2048x512 .f32) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 1024 x1 s) (h2 : WtRep 1024 0 x2 w) (h3 : WtRep 1024 512 x3 w) (h4 : RowRep x4 b) (h5 : RowRep x5 t) :
    BlkRep off 512 (k23_pay2 (F := Ideal) x0 x1 x2 x3 x4 x5)
      (rowNormalize 512 (fun n => spike ((rowDot 512 512 512 1024 0 c w n + rowDot 512 512 1024 1024 512 s w n) + colOf 512 b n) (colOf 512 t n))) := by
  unfold k23_pay2 k23_pay1
  simp only [shapeCast_self, truncf_ideal]
  exact blk_normalize (blk_spike (blk_addf (blk_addf (blk_matmul plain_S2048x512 h0 h2 none) (blk_matmul plain_S2048x512 h1 h3 none)) (blk_rowBroadcast h4 _ off))
    (blk_rowBroadcast h5 _ off) _) _ _ _ _ _

theorem pay24 (x0 : Vec Ideal S2048x512 .f32) (x1 : Vec Ideal S2048x512 .bf16) (x2 : Vec Ideal S512x512 .bf16) (x3 : Vec Ideal S512x512 .bf16)
    (x4 : Vec Ideal S1x512 .f32) (x5 : Vec Ideal S1x512 .f32)
    {c s w b t : ℕ → EReal} {off : ℕ}
    (h0 : BlkRep off 512 x0 c) (h1 : BlkRep off 512 x1 s) (h2 : WtRep 1024 0 x2 w) (h3 : WtRep 1024 512 x3 w) (h4 : RowRep x4 b) (h5 : RowRep x5 t) :
    BlkRep off 512 (k24_pay1 (F := Ideal) x0 x1 x2 x3 x4 x5)
      (rowNormalize 512 (fun n => spike ((rowDot 512 512 512 1024 0 c w n + rowDot 512 512 512 1024 512 s w n) + colOf 512 b n) (colOf 512 t n))) := by
  unfold k24_pay1
  simp only [shapeCast_self, truncf_ideal]
  exact blk_normalize (blk_spike (blk_addf (blk_addf (blk_matmul plain_S2048x512 h0 h2 none) (blk_matmul plain_S2048x512 h1 h3 none)) (blk_rowBroadcast h4 _ off))
    (blk_rowBroadcast h5 _ off) _) _ _ _ _ _

end Cert.KernelIdeal.BodyValue

end
-- ==== Proof.RegionUp.lean ====
/-
  Each up-sweep region leaves in its output array the spiking layer of its input array: every grid point writes back the block of rows its body computed from the same rows of the input, and the blocks tile the array.
-/
import proofs.«113582_j30116310680263_2_alg».proof.Proof.Gen.KernelIdeal.Frame
import Idealize.ShloMosaic.Lib.Pipeline.Value
import proofs.«113582_j30116310680263_2_alg».proof.Proof.LibRowMajor
import proofs.«113582_j30116310680263_2_alg».proof.Proof.LibSpikeLayer
import proofs.«113582_j30116310680263_2_alg».proof.Proof.LibSpikeBlock
import proofs.«113582_j30116310680263_2_alg».proof.Proof.BodyValue

set_option maxRecDepth 16384

noncomputable section

namespace Cert.KernelIdeal.RegionUp

open Cert.KernelIdeal Cert.KernelIdeal.Gen Idealize.ShloMosaic Idealize.ShloMosaic.ValueIdx Idealize.ShloMosaic.TcCoe Idealize.SL.Sem
open Cert.Lib.RowMajor Cert.Lib.SpikeLayer Cert.Lib.SpikeBlock Cert.KernelIdeal.BodyValue
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## Region 0 -/

theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0 :=
  (by decide +kernel : ∀ t : Fin grid0.N, _)

theorem mem_blk0 (t : Fin cfg0.N) (i : S32768x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v16).slice (win0_4.rect t)).set ↔ _
  rw [View.set_slice_whole, Rect.mem_set_unit]
  exact Iff.rfl

theorem read_blk0 (t : Fin cfg0.N) (Gf : ℕ → EReal) (y : ((cfg0.win 4).xblock (cfg0.grid.coords t)).Idx) :
    View.read (Elt Ideal) ((cfg0.win 4).blk t).view (fun i : S32768x512.Idx => Gf (S32768x512.rowMajor i).val) y
      = Gf (S32768x512.rowMajor (((cfg0.win 4).blk t).view.emb y)).val := rfl

theorem region0 (c : Dev nD) {a cf w b th : ℕ → EReal}
    (hA : Rep (S := S32768x1024) (V c main_v7) a) (hW : WtRep (K := 1024) (N := 512) 1024 0 (V c main_v15) w)
    (hB : RowRep (N := 512) (V c main_v10) b) (hT : RowRep (N := 512) (V c main_v13) th) :
    Rep (S := S32768x512) ((dat0 (F := Ideal) V c).arrAt 4 cfg0.N)
      (rowNormalize 512 (fun n => spike (rowDot 1024 512 1024 1024 0 a w n + colOf 512 b n) (colOf 512 th n))) := by
  have key : (dat0 (F := Ideal) V c).arrAt 4 cfg0.N
      = (fun i : S32768x512.Idx => (rowNormalize 512 (fun n => spike (rowDot 1024 512 1024 1024 0 a w n + colOf 512 b n) (colOf 512 th n))) (S32768x512.rowMajor i).val) := by
    refine (dat0 (F := Ideal) V c).arrAt_eq_of_cover 4 _ (fun t _ => ?_) (fun i => ?_)
    · show (cfg0.win 4).cut (grid0.coords t) ((dat0 (F := Ideal) V c).after 4 t) = _
      rw [after0_4]
      unfold out0_4
      rw [View.canon_unit_zero hz2]
      simp only [View.ld_unit_zero (S := S2048x1024) hz2, View.ld_unit_zero (S := S1024x512) hz2, View.ld_unit_zero (S := S1x512) hz2]
      obtain ⟨e00, e01, e10, e11, e20, e21, e30, e31, e40, e41⟩ := idx0 t
      funext j
      obtain ⟨r, o, rfl⟩ : ∃ (r : Fin 2048) (o : Fin 512), j = ix2 r o := ⟨j 0, j 1, eq_ix2 j⟩
      have hb0 : BlkRep (Mb := 2048) (K := 1024) (t.val * 2048) 1024 (iblk0 V c 0 t) a := fun r k => by
        show V c main_v7 (((cfg0.win 0).blk t).view.emb (ix2 r k)) = _
        rw [hA]
        refine congrArg a ?_
        rw [Shape.rowMajor_val_two]
        show (win0_0.index t (0 : Fin 2) * 2048 + 1 * r.val) * 1024 + (win0_0.index t (1 : Fin 2) * 1024 + 1 * k.val) = _
        rw [e00, e01]; omega
      have hb1 : WtRep (K := 1024) (N := 512) 1024 0 (iblk0 V c 1 t) w := fun k o => by
        show V c main_v15 (((cfg0.win 1).blk t).view.emb (ix2 k o)) = _
        have e : ((cfg0.win 1).blk t).view.emb (ix2 k o) = ix2 k o := funext fun a => Fin.ext (by
          match a with
          | ⟨0, _⟩ => show win0_1.index t (0 : Fin 2) * 1024 + 1 * k.val = k.val; rw [e10]; omega
          | ⟨1, _⟩ => show win0_1.index t (1 : Fin 2) * 512 + 1 * o.val = o.val; rw [e11]; omega)
        rw [e]; exact hW k o
      have hb2 : RowRep (N := 512) (iblk0 V c 2 t) b := fun o => by
        show V c main_v10 (((cfg0.win 2).blk t).view.emb (ix2 0 o)) = _
        have e : ((cfg0.win 2).blk t).view.emb (ix2 0 o) = ix2 0 o := funext fun a => Fin.ext (by
          match a with
          | ⟨0, _⟩ => show win0_2.index t (0 : Fin 2) * 1 + 1 * 0 = 0; rw [e20]
          | ⟨1, _⟩ => show win0_2.index t (1 : Fin 2) * 512 + 1 * o.val = o.val; rw [e21]; omega)
        rw [e]; exact hB o
      have hb3 : RowRep (N := 512) (iblk0 V c 3 t) th := fun o => by
        show V c main_v13 (((cfg0.win 3).blk t).view.emb (ix2 0 o)) = _
        have e : ((cfg0.win 3).blk t).view.emb (ix2 0 o) = ix2 0 o := funext fun a => Fin.ext (by
          match a with
          | ⟨0, _⟩ => show win0_3.index t (0 : Fin 2) * 1 + 1 * 0 = 0; rw [e30]
          | ⟨1, _⟩ => show win0_3.index t (1 : Fin 2) * 512 + 1 * o.val = o.val; rw [e31]; omega)
        rw [e]; exact hT o
      refine ((pay0 _ _ _ _ hb0 hb1 hb2 hb3) r o).trans ?_
      refine Eq.trans ?_ (read_blk0 t _ (ix2 r o)).symm
      refine congrArg (rowNormalize 512 (fun n => spike (rowDot 1024 512 1024 1024 0 a w n + colOf 512 b n) (colOf 512 th n))) ?_
      rw [Shape.rowMajor_val_two]
      show _ = (win0_4.index t (0 : Fin 2) * 2048 + 1 * r.val) * 512 + (win0_4.index t (1 : Fin 2) * 512 + 1 * o.val)
      rw [e40, e41]; omega
    · have hi0 : (i 0).val < 32768 := (i 0).isLt
      have hi1 : (i 1).val < 512 := (i 1).isLt
      obtain ⟨-, -, -, -, -, -, -, -, e40, e41⟩ := idx0 ⟨(i 0).val / 2048, lt_of_lt_of_eq (by omega : (i 0).val / 2048 < 16) N_0.symm⟩
      refine ⟨⟨(i 0).val / 2048, lt_of_lt_of_eq (by omega : (i 0).val / 2048 < 16) N_0.symm⟩, flush0_4 _, ?_⟩
      rw [mem_blk0]
      intro ax
      match ax with
      | ⟨0, _⟩ =>
        show win0_4.index _ (0 : Fin 2) * 2048 ≤ (i 0).val ∧ (i 0).val < win0_4.index _ (0 : Fin 2) * 2048 + 2048
        rw [e40]; show (i 0).val / 2048 * 2048 ≤ (i 0).val ∧ (i 0).val < (i 0).val / 2048 * 2048 + 2048; omega
      | ⟨1, _⟩ =>
        show win0_4.index _ (1 : Fin 2) * 512 ≤ (i 1).val ∧ (i 1).val < win0_4.index _ (1 : Fin 2) * 512 + 512
        rw [e41]; omega
  intro i
  rw [key]

/-! ## Region 1 -/

theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

theorem mem_blk1 (t : Fin cfg1.N) (i : S16384x512.Idx) :
    i ∈ ((cfg1.win 4).blk t).view.set ↔ ∀ a : Fin 2, win1_4.index t a * S2048x512.size a ≤ (i a).val ∧ (i a).val < win1_4.index t a * S2048x512.size a + S2048x512.size a := by
  show i ∈ ((View.whole main_v28).slice (win1_4.rect t)).set ↔ _
  rw [View.set_slice_whole, Rect.mem_set_unit]
  exact Iff.rfl

theorem read_blk1 (t : Fin cfg1.N) (Gf : ℕ → EReal) (y : ((cfg1.win 4).xblock (cfg1.grid.coords t)).Idx) :
    View.read (Elt Ideal) ((cfg1.win 4).blk t).view (fun i : S16384x512.Idx => Gf (S16384x512.rowMajor i).val) y
      = Gf (S16384x512.rowMajor (((cfg1.win 4).blk t).view.emb y)).val := rfl

theorem region1 (c : Dev nD) {a cf w b th : ℕ → EReal}
    (hA : Rep (S := S16384x1024) (V c main_v19) a) (hW : WtRep (K := 1024) (N := 512) 1024 0 (V c main_v27) w)
    (hB : RowRep (N := 512) (V c main_v22) b) (hT : RowRep (N := 512) (V c main_v25) th) :
    Rep (S := S16384x512) ((dat1 (F := Ideal) V c).arrAt 4 cfg1.N)
      (rowNormalize 512 (fun n => spike (rowDot 1024 512 1024 1024 0 a w n + colOf 512 b n) (colOf 512 th n))) := by
  have key : (dat1 (F := Ideal) V c).arrAt 4 cfg1.N
      = (fun i : S16384x512.Idx => (rowNormalize 512 (fun n => spike (rowDot 1024 512 1024 1024 0 a w n + colOf 512 b n) (colOf 512 th n))) (S16384x512.rowMajor i).val) := by
    refine (dat1 (F := Ideal) V c).arrAt_eq_of_cover 4 _ (fun t _ => ?_) (fun i => ?_)
    · show (cfg1.win 4).cut (grid1.coords t) ((dat1 (F := Ideal) V c).after 4 t) = _
      rw [after1_4]
      unfold out1_4
      rw [View.canon_unit_zero hz2]
      simp only [View.ld_unit_zero (S := S2048x1024) hz2, View.ld_unit_zero (S := S1024x512) hz2, View.ld_unit_zero (S := S1x512) hz2]
      obtain ⟨e00, e01, e10, e11, e20, e21, e30, e31, e40, e41⟩ := idx1 t
      funext j
      obtain ⟨r, o, rfl⟩ : ∃ (r : Fin 2048) (o : Fin 512), j = ix2 r o := ⟨j 0, j 1, eq_ix2 j⟩
      have hb0 : BlkRep (Mb := 2048) (K := 1024) (t.val * 2048) 1024 (iblk1 V c 0 t) a := fun r k => by
        show V c main_v19 (((cfg1.win 0).blk t).view.emb (ix2 r k)) = _
        rw [hA]
        refine congrArg a ?_
        rw [Shape.rowMajor_val_two]
        show (win1_0.index t (0 : Fin 2) * 2048 + 1 * r.val) * 1024 + (win1_0.index t (1 : Fin 2) * 1024 + 1 * k.val) = _
        rw [e00, e01]; omega
      have hb1 : WtRep (K := 1024) (N := 512) 1024 0 (iblk1 V c 1 t) w := fun k o => by
        show V c main_v27 (((cfg1.win 1).blk t).view.emb (ix2 k o)) = _
        have e : ((cfg1.win 1).blk t).view.emb (ix2 k o) = ix2 k o := funext fun a => Fin.ext (by
          match a with
          | ⟨0, _⟩ => show win1_1.index t (0 : Fin 2) * 1024 + 1 * k.val = k.val; rw [e10]; omega
          | ⟨1, _⟩ => show win1_1.index t (1 : Fin 2) * 512 + 1 * o.val = o.val; rw [e11]; omega)
        rw [e]; exact hW k o
      have hb2 : RowRep (N := 512) (iblk1 V c 2 t) b := fun o => by
        show V c main_v22 (((cfg1.win 2).blk t).view.emb (ix2 0 o)) = _
        have e : ((cfg1.win 2).blk t).view.emb (ix2 0 o) = ix2 0 o := funext fun a => Fin.ext (by
          match a with
          | ⟨0, _⟩ => show win1_2.index t (0 : Fin 2) * 1 + 1 * 0 = 0; rw [e20]
          | ⟨1, _⟩ => show win1_2.index t (1 : Fin 2) * 512 + 1 * o.val = o.val; rw [e21]; omega)
        rw [e]; exact hB o
      have hb3 : RowRep (N := 512) (iblk1 V c 3 t) th := fun o => by
        show V c main_v25 (((cfg1.win 3).blk t).view.emb (ix2 0 o)) = _
        have e : ((cfg1.win 3).blk t).view.emb (ix2 0 o) = ix2 0 o := funext fun a => Fin.ext (by
          match a with
          | ⟨0, _⟩ => show win1_3.index t (0 : Fin 2) * 1 + 1 * 0 = 0; rw [e30]
          | ⟨1, _⟩ => show win1_3.index t (1 : Fin 2) * 512 + 1 * o.val = o.val; rw [e31]; omega)
        rw [e]; exact hT o
      refine ((pay1 _ _ _ _ hb0 hb1 hb2 hb3) r o).trans ?_
      refine Eq.trans ?_ (read_blk1 t _ (ix2 r o)).symm
      refine congrArg (rowNormalize 512 (fun n => spike (rowDot 1024 512 1024 1024 0 a w n + colOf 512 b n) (colOf 512 th n))) ?_
      rw [Shape.rowMajor_val_two]
      show _ = (win1_4.index t (0 : Fin 2) * 2048 + 1 * r.val) * 512 + (win1_4.index t (1 : Fin 2) * 512 + 1 * o.val)
      rw [e40, e41]; omega
    · have hi0 : (i 0).val < 16384 := (i 0).isLt
      have hi1 : (i 1).val < 512 := (i 1).isLt
      obtain ⟨-, -, -, -, -, -, -, -, e40, e41⟩ := idx1 ⟨(i 0).val / 2048, lt_of_lt_of_eq (by omega : (i 0).val / 2048 < 8) N_1.symm⟩
      refine ⟨⟨(i 0).val / 2048, lt_of_lt_of_eq (by omega : (i 0).val / 2048 < 8) N_1.symm⟩, flush1_4 _, ?_⟩
      rw [mem_blk1]
      intro ax
      match ax with
      | ⟨0, _⟩ =>
        show win1_4.index _ (0 : Fin 2) * 2048 ≤ (i 0).val ∧ (i 0).val < win1_4.index _ (0 : Fin 2) * 2048 + 2048
        rw [e40]; show (i 0).val / 2048 * 2048 ≤ (i 0).val ∧ (i 0).val < (i 0).val / 2048 * 2048 + 2048; omega
      | ⟨1, _⟩ =>
        show win1_4.index _ (1 : Fin 2) * 512 ≤ (i 1).val ∧ (i 1).val < win1_4.index _ (1 : Fin 2) * 512 + 512
        rw [e41]; omega
  intro i
  rw [key]

/-! ## Region 2 -/

theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

theorem mem_blk2 (t : Fin cfg2.N) (i : S8192x512.Idx) :
    i ∈ ((cfg2.win 4).blk t).view.set ↔ ∀ a : Fin 2, win2_4.index t a * S2048x512.size a ≤ (i a).val ∧ (i a).val < win2_4.index t a * S2048x512.size a + S2048x512.size a := by
  show i ∈ ((View.whole main_v40).slice (win2_4.rect t)).set ↔ _
  rw [View.set_slice_whole, Rect.mem_set_unit]
  exact Iff.rfl

theorem read_blk2 (t : Fin cfg2.N) (Gf : ℕ → EReal) (y : ((cfg2.win 4).xblock (cfg2.grid.coords t)).Idx) :
    View.read (Elt Ideal) ((cfg2.win 4).blk t).view (fun i : S8192x512.Idx => Gf (S8192x512.rowMajor i).val) y
      = Gf (S8192x512.rowMajor (((cfg2.win 4).blk t).view.emb y)).val := rfl

theorem region2 (c : Dev nD) {a cf w b th : ℕ → EReal}
    (hA : Rep (S := S8192x1024) (V c main_v31) a) (hW : WtRep (K := 1024) (N := 512) 1024 0 (V c main_v39) w)
    (hB : RowRep (N := 512) (V c main_v34) b) (hT : RowRep (N := 512) (V c main_v37) th) :
    Rep (S := S8192x512) ((dat2 (F := Ideal) V c).arrAt 4 cfg2.N)
      (rowNormalize 512 (fun n => spike (rowDot 1024 512 1024 1024 0 a w n + colOf 512 b n) (colOf 512 th n))) := by
  have key : (dat2 (F := Ideal) V c).arrAt 4 cfg2.N
      = (fun i : S8192x512.Idx => (rowNormalize 512 (fun n => spike (rowDot 1024 512 1024 1024 0 a w n + colOf 512 b n) (colOf 512 th n))) (S8192x512.rowMajor i).val) := by
    refine (dat2 (F := Ideal) V c).arrAt_eq_of_cover 4 _ (fun t _ => ?_) (fun i => ?_)
    · show (cfg2.win 4).cut (grid2.coords t) ((dat2 (F := Ideal) V c).after 4 t) = _
      rw [after2_4]
      unfold out2_4
      rw [View.canon_unit_zero hz2]
      simp only [View.ld_unit_zero (S := S2048x1024) hz2, View.ld_unit_zero (S := S1024x512) hz2, View.ld_unit_zero (S := S1x512) hz2]
      obtain ⟨e00, e01, e10, e11, e20, e21, e30, e31, e40, e41⟩ := idx2 t
      funext j
      obtain ⟨r, o, rfl⟩ : ∃ (r : Fin 2048) (o : Fin 512), j = ix2 r o := ⟨j 0, j 1, eq_ix2 j⟩
      have hb0 : BlkRep (Mb := 2048) (K := 1024) (t.val * 2048) 1024 (iblk2 V c 0 t) a := fun r k => by
        show V c main_v31 (((cfg2.win 0).blk t).view.emb (ix2 r k)) = _
        rw [hA]
        refine congrArg a ?_
        rw [Shape.rowMajor_val_two]
        show (win2_0.index t (0 : Fin 2) * 2048 + 1 * r.val) * 1024 + (win2_0.index t (1 : Fin 2) * 1024 + 1 * k.val) = _
        rw [e00, e01]; omega
      have hb1 : WtRep (K := 1024) (N := 512) 1024 0 (iblk2 V c 1 t) w := fun k o => by
        show V c main_v39 (((cfg2.win 1).blk t).view.emb (ix2 k o)) = _
        have e : ((cfg2.win 1).blk t).view.emb (ix2 k o) = ix2 k o := funext fun a => Fin.ext (by
          match a with
          | ⟨0, _⟩ => show win2_1.index t (0 : Fin 2) * 1024 + 1 * k.val = k.val; rw [e10]; omega
          | ⟨1, _⟩ => show win2_1.index t (1 : Fin 2) * 512 + 1 * o.val = o.val; rw [e11]; omega)
        rw [e]; exact hW k o
      have hb2 : RowRep (N := 512) (iblk2 V c 2 t) b := fun o => by
        show V c main_v34 (((cfg2.win 2).blk t).view.emb (ix2 0 o)) = _
        have e : ((cfg2.win 2).blk t).view.emb (ix2 0 o) = ix2 0 o := funext fun a => Fin.ext (by
          match a with
          | ⟨0, _⟩ => show win2_2.index t (0 : Fin 2) * 1 + 1 * 0 = 0; rw [e20]
          | ⟨1, _⟩ => show win2_2.index t (1 : Fin 2) * 512 + 1 * o.val = o.val; rw [e21]; omega)
        rw [e]; exact hB o
      have hb3 : RowRep (N := 512) (iblk2 V c 3 t) th := fun o => by
        show V c main_v37 (((cfg2.win 3).blk t).view.emb (ix2 0 o)) = _
        have e : ((cfg2.win 3).blk t).view.emb (ix2 0 o) = ix2 0 o := funext fun a => Fin.ext (by
          match a with
          | ⟨0, _⟩ => show win2_3.index t (0 : Fin 2) * 1 + 1 * 0 = 0; rw [e30]
          | ⟨1, _⟩ => show win2_3.index t (1 : Fin 2) * 512 + 1 * o.val = o.val; rw [e31]; omega)
        rw [e]; exact hT o
      refine ((pay2 _ _ _ _ hb0 hb1 hb2 hb3) r o).trans ?_
      refine Eq.trans ?_ (read_blk2 t _ (ix2 r o)).symm
      refine congrArg (rowNormalize 512 (fun n => spike (rowDot 1024 512 1024 1024 0 a w n + colOf 512 b n) (colOf 512 th n))) ?_
      rw [Shape.rowMajor_val_two]
      show _ = (win2_4.index t (0 : Fin 2) * 2048 + 1 * r.val) * 512 + (win2_4.index t (1 : Fin 2) * 512 + 1 * o.val)
      rw [e40, e41]; omega
    · have hi0 : (i 0).val < 8192 := (i 0).isLt
      have hi1 : (i 1).val < 512 := (i 1).isLt
      obtain ⟨-, -, -, -, -, -, -, -, e40, e41⟩ := idx2 ⟨(i 0).val / 2048, lt_of_lt_of_eq (by omega : (i 0).val / 2048 < 4) N_2.symm⟩
      refine ⟨⟨(i 0).val / 2048, lt_of_lt_of_eq (by omega : (i 0).val / 2048 < 4) N_2.symm⟩, flush2_4 _, ?_⟩
      rw [mem_blk2]
      intro ax
      match ax with
      | ⟨0, _⟩ =>
        show win2_4.index _ (0 : Fin 2) * 2048 ≤ (i 0).val ∧ (i 0).val < win2_4.index _ (0 : Fin 2) * 2048 + 2048
        rw [e40]; show (i 0).val / 2048 * 2048 ≤ (i 0).val ∧ (i 0).val < (i 0).val / 2048 * 2048 + 2048; omega
      | ⟨1, _⟩ =>
        show win2_4.index _ (1 : Fin 2) * 512 ≤ (i 1).val ∧ (i 1).val < win2_4.index _ (1 : Fin 2) * 512 + 512
        rw [e41]; omega
  intro i
  rw [key]

/-! ## Region 3 -/

theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

theorem mem_blk3 (t : Fin cfg3.N) (i : S4096x512.Idx) :
    i ∈ ((cfg3.win 4).blk t).view.set ↔ ∀ a : Fin 2, win3_4.index t a * S2048x512.size a ≤ (i a).val ∧ (i a).val < win3_4.index t a * S2048x512.size a + S2048x512.size a := by
  show i ∈ ((View.whole main_v52).slice (win3_4.rect t)).set ↔ _
  rw [View.set_slice_whole, Rect.mem_set_unit]
  exact Iff.rfl

theorem read_blk3 (t : Fin cfg3.N) (Gf : ℕ → EReal) (y : ((cfg3.win 4).xblock (cfg3.grid.coords t)).Idx) :
    View.read (Elt Ideal) ((cfg3.win 4).blk t).view (fun i : S4096x512.Idx => Gf (S4096x512.rowMajor i).val) y
      = Gf (S4096x512.rowMajor (((cfg3.win 4).blk t).view.emb y)).val := rfl

theorem region3 (c : Dev nD) {a cf w b th : ℕ → EReal}
    (hA : Rep (S := S4096x1024) (V c main_v43) a) (hW : WtRep (K := 1024) (N := 512) 1024 0 (V c main_v51) w)
    (hB : RowRep (N := 512) (V c main_v46) b) (hT : RowRep (N := 512) (V c main_v49) th) :
    Rep (S := S4096x512) ((dat3 (F := Ideal) V c).arrAt 4 cfg3.N)
      (rowNormalize 512 (fun n => spike (rowDot 1024 512 1024 1024 0 a w n + colOf 512 b n) (colOf 512 th n))) := by
  have key : (dat3 (F := Ideal) V c).arrAt 4 cfg3.N
      = (fun i : S4096x512.Idx => (rowNormalize 512 (fun n => spike (rowDot 1024 512 1024 1024 0 a w n + colOf 512 b n) (colOf 512 th n))) (S4096x512.rowMajor i).val) := by
    refine (dat3 (F := Ideal) V c).arrAt_eq_of_cover 4 _ (fun t _ => ?_) (fun i => ?_)
    · show (cfg3.win 4).cut (grid3.coords t) ((dat3 (F := Ideal) V c).after 4 t) = _
      rw [after3_4]
      unfold out3_4
      rw [View.canon_unit_zero hz2]
      simp only [View.ld_unit_zero (S := S2048x1024) hz2, View.ld_unit_zero (S := S1024x512) hz2, View.ld_unit_zero (S := S1x512) hz2]
      obtain ⟨e00, e01, e10, e11, e20, e21, e30, e31, e40, e41⟩ := idx3 t
      funext j
      obtain ⟨r, o, rfl⟩ : ∃ (r : Fin 2048) (o : Fin 512), j = ix2 r o := ⟨j 0, j 1, eq_ix2 j⟩
      have hb0 : BlkRep (Mb := 2048) (K := 1024) (t.val * 2048) 1024 (iblk3 V c 0 t) a := fun r k => by
        show V c main_v43 (((cfg3.win 0).blk t).view.emb (ix2 r k)) = _
        rw [hA]
        refine congrArg a ?_
        rw [Shape.rowMajor_val_two]
        show (win3_0.index t (0 : Fin 2) * 2048 + 1 * r.val) * 1024 + (win3_0.index t (1 : Fin 2) * 1024 + 1 * k.val) = _
        rw [e00, e01]; omega
      have hb1 : WtRep (K := 1024) (N := 512) 1024 0 (iblk3 V c 1 t) w := fun k o => by
        show V c main_v51 (((cfg3.win 1).blk t).view.emb (ix2 k o)) = _
        have e : ((cfg3.win 1).blk t).view.emb (ix2 k o) = ix2 k o := funext fun a => Fin.ext (by
          match a with
          | ⟨0, _⟩ => show win3_1.index t (0 : Fin 2) * 1024 + 1 * k.val = k.val; rw [e10]; omega
          | ⟨1, _⟩ => show win3_1.index t (1 : Fin 2) * 512 + 1 * o.val = o.val; rw [e11]; omega)
        rw [e]; exact hW k o
      have hb2 : RowRep (N := 512) (iblk3 V c 2 t) b := fun o => by
        show V c main_v46 (((cfg3.win 2).blk t).view.emb (ix2 0 o)) = _
        have e : ((cfg3.win 2).blk t).view.emb (ix2 0 o) = ix2 0 o := funext fun a => Fin.ext (by
          match a with
          | ⟨0, _⟩ => show win3_2.index t (0 : Fin 2) * 1 + 1 * 0 = 0; rw [e20]
          | ⟨1, _⟩ => show win3_2.index t (1 : Fin 2) * 512 + 1 * o.val = o.val; rw [e21]; omega)
        rw [e]; exact hB o
      have hb3 : RowRep (N := 512) (iblk3 V c 3 t) th := fun o => by
        show V c main_v49 (((cfg3.win 3).blk t).view.emb (ix2 0 o)) = _
        have e : ((cfg3.win 3).blk t).view.emb (ix2 0 o) = ix2 0 o := funext fun a => Fin.ext (by
          match a with
          | ⟨0, _⟩ => show win3_3.index t (0 : Fin 2) * 1 + 1 * 0 = 0; rw [e30]
          | ⟨1, _⟩ => show win3_3.index t (1 : Fin 2) * 512 + 1 * o.val = o.val; rw [e31]; omega)
        rw [e]; exact hT o
      refine ((pay3 _ _ _ _ hb0 hb1 hb2 hb3) r o).trans ?_
      refine Eq.trans ?_ (read_blk3 t _ (ix2 r o)).symm
      refine congrArg (rowNormalize 512 (fun n => spike (rowDot 1024 512 1024 1024 0 a w n + colOf 512 b n) (colOf 512 th n))) ?_
      rw [Shape.rowMajor_val_two]
      show _ = (win3_4.index t (0 : Fin 2) * 2048 + 1 * r.val) * 512 + (win3_4.index t (1 : Fin 2) * 512 + 1 * o.val)
      rw [e40, e41]; omega
    · have hi0 : (i 0).val < 4096 := (i 0).isLt
      have hi1 : (i 1).val < 512 := (i 1).isLt
      obtain ⟨-, -, -, -, -, -, -, -, e40, e41⟩ := idx3 ⟨(i 0).val / 2048, lt_of_lt_of_eq (by omega : (i 0).val / 2048 < 2) N_3.symm⟩
      refine ⟨⟨(i 0).val / 2048, lt_of_lt_of_eq (by omega : (i 0).val / 2048 < 2) N_3.symm⟩, flush3_4 _, ?_⟩
      rw [mem_blk3]
      intro ax
      match ax with
      | ⟨0, _⟩ =>
        show win3_4.index _ (0 : Fin 2) * 2048 ≤ (i 0).val ∧ (i 0).val < win3_4.index _ (0 : Fin 2) * 2048 + 2048
        rw [e40]; show (i 0).val / 2048 * 2048 ≤ (i 0).val ∧ (i 0).val < (i 0).val / 2048 * 2048 + 2048; omega
      | ⟨1, _⟩ =>
        show win3_4.index _ (1 : Fin 2) * 512 ≤ (i 1).val ∧ (i 1).val < win3_4.index _ (1 : Fin 2) * 512 + 512
        rw [e41]; omega
  intro i
  rw [key]

/-! ## Region 4 -/

theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

theorem mem_blk4 (t : Fin cfg4.N) (i : S2048x512.Idx) :
    i ∈ ((cfg4.win 4).blk t).view.set ↔ ∀ a : Fin 2, win4_4.index t a * S2048x512.size a ≤ (i a).val ∧ (i a).val < win4_4.index t a * S2048x512.size a + S2048x512.size a := by
  show i ∈ ((View.whole main_v64).slice (win4_4.rect t)).set ↔ _
  rw [View.set_slice_whole, Rect.mem_set_unit]
  exact Iff.rfl

theorem read_blk4 (t : Fin cfg4.N) (Gf : ℕ → EReal) (y : ((cfg4.win 4).xblock (cfg4.grid.coords t)).Idx) :
    View.read (Elt Ideal) ((cfg4.win 4).blk t).view (fun i : S2048x512.Idx => Gf (S2048x512.rowMajor i).val) y
      = Gf (S2048x512.rowMajor (((cfg4.win 4).blk t).view.emb y)).val := rfl

theorem region4 (c : Dev nD) {a cf w b th : ℕ → EReal}
    (hA : Rep (S := S2048x1024) (V c main_v55) a) (hW : WtRep (K := 1024) (N := 512) 1024 0 (V c main_v63) w)
    (hB : RowRep (N := 512) (V c main_v58) b) (hT : RowRep (N := 512) (V c main_v61) th) :
    Rep (S := S2048x512) ((dat4 (F := Ideal) V c).arrAt 4 cfg4.N)
      (rowNormalize 512 (fun n => spike (rowDot 1024 512 1024 1024 0 a w n + colOf 512 b n) (colOf 512 th n))) := by
  have key : (dat4 (F := Ideal) V c).arrAt 4 cfg4.N
      = (fun i : S2048x512.Idx => (rowNormalize 512 (fun n => spike (rowDot 1024 512 1024 1024 0 a w n + colOf 512 b n) (colOf 512 th n))) (S2048x512.rowMajor i).val) := by
    refine (dat4 (F := Ideal) V c).arrAt_eq_of_cover 4 _ (fun t _ => ?_) (fun i => ?_)
    · show (cfg4.win 4).cut (grid4.coords t) ((dat4 (F := Ideal) V c).after 4 t) = _
      rw [after4_4]
      unfold out4_4
      rw [View.canon_unit_zero hz2]
      simp only [View.ld_unit_zero (S := S2048x1024) hz2, View.ld_unit_zero (S := S1024x512) hz2, View.ld_unit_zero (S := S1x512) hz2]
      obtain ⟨e00, e01, e10, e11, e20, e21, e30, e31, e40, e41⟩ := idx4 t
      funext j
      obtain ⟨r, o, rfl⟩ : ∃ (r : Fin 2048) (o : Fin 512), j = ix2 r o := ⟨j 0, j 1, eq_ix2 j⟩
      have hb0 : BlkRep (Mb := 2048) (K := 1024) (t.val * 2048) 1024 (iblk4 V c 0 t) a := fun r k => by
        show V c main_v55 (((cfg4.win 0).blk t).view.emb (ix2 r k)) = _
        rw [hA]
        refine congrArg a ?_
        rw [Shape.rowMajor_val_two]
        show (win4_0.index t (0 : Fin 2) * 2048 + 1 * r.val) * 1024 + (win4_0.index t (1 : Fin 2) * 1024 + 1 * k.val) = _
        rw [e00, e01]; omega
      have hb1 : WtRep (K := 1024) (N := 512) 1024 0 (iblk4 V c 1 t) w := fun k o => by
        show V c main_v63 (((cfg4.win 1).blk t).view.emb (ix2 k o)) = _
        have e : ((cfg4.win 1).blk t).view.emb (ix2 k o) = ix2 k o := funext fun a => Fin.ext (by
          match a with
          | ⟨0, _⟩ => show win4_1.index t (0 : Fin 2) * 1024 + 1 * k.val = k.val; rw [e10]; omega
          | ⟨1, _⟩ => show win4_1.index t (1 : Fin 2) * 512 + 1 * o.val = o.val; rw [e11]; omega)
        rw [e]; exact hW k o
      have hb2 : RowRep (N := 512) (iblk4 V c 2 t) b := fun o => by
        show V c main_v58 (((cfg4.win 2).blk t).view.emb (ix2 0 o)) = _
        have e : ((cfg4.win 2).blk t).view.emb (ix2 0 o) = ix2 0 o := funext fun a => Fin.ext (by
          match a with
          | ⟨0, _⟩ => show win4_2.index t (0 : Fin 2) * 1 + 1 * 0 = 0; rw [e20]
          | ⟨1, _⟩ => show win4_2.index t (1 : Fin 2) * 512 + 1 * o.val = o.val; rw [e21]; omega)
        rw [e]; exact hB o
      have hb3 : RowRep (N := 512) (iblk4 V c 3 t) th := fun o => by
        show V c main_v61 (((cfg4.win 3).blk t).view.emb (ix2 0 o)) = _
        have e : ((cfg4.win 3).blk t).view.emb (ix2 0 o) = ix2 0 o := funext fun a => Fin.ext (by
          match a with
          | ⟨0, _⟩ => show win4_3.index t (0 : Fin 2) * 1 + 1 * 0 = 0; rw [e30]
          | ⟨1, _⟩ => show win4_3.index t (1 : Fin 2) * 512 + 1 * o.val = o.val; rw [e31]; omega)
        rw [e]; exact hT o
      refine ((pay4 _ _ _ _ hb0 hb1 hb2 hb3) r o).trans ?_
      refine Eq.trans ?_ (read_blk4 t _ (ix2 r o)).symm
      refine congrArg (rowNormalize 512 (fun n => spike (rowDot 1024 512 1024 1024 0 a w n + colOf 512 b n) (colOf 512 th n))) ?_
      rw [Shape.rowMajor_val_two]
      show _ = (win4_4.index t (0 : Fin 2) * 2048 + 1 * r.val) * 512 + (win4_4.index t (1 : Fin 2) * 512 + 1 * o.val)
      rw [e40, e41]; omega
    · have hi0 : (i 0).val < 2048 := (i 0).isLt
      have hi1 : (i 1).val < 512 := (i 1).isLt
      obtain ⟨-, -, -, -, -, -, -, -, e40, e41⟩ := idx4 ⟨(i 0).val / 2048, lt_of_lt_of_eq (by omega : (i 0).val / 2048 < 1) N_4.symm⟩
      refine ⟨⟨(i 0).val / 2048, lt_of_lt_of_eq (by omega : (i 0).val / 2048 < 1) N_4.symm⟩, flush4_4 _, ?_⟩
      rw [mem_blk4]
      intro ax
      match ax with
      | ⟨0, _⟩ =>
        show win4_4.index _ (0 : Fin 2) * 2048 ≤ (i 0).val ∧ (i 0).val < win4_4.index _ (0 : Fin 2) * 2048 + 2048
        rw [e40]; show (i 0).val / 2048 * 2048 ≤ (i 0).val ∧ (i 0).val < (i 0).val / 2048 * 2048 + 2048; omega
      | ⟨1, _⟩ =>
        show win4_4.index _ (1 : Fin 2) * 512 ≤ (i 1).val ∧ (i 1).val < win4_4.index _ (1 : Fin 2) * 512 + 512
        rw [e41]; omega
  intro i
  rw [key]

/-! ## Region 5 -/

theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

theorem mem_blk5 (t : Fin cfg5.N) (i : S1024x512.Idx) :
    i ∈ ((cfg5.win 4).blk t).view.set ↔ ∀ a : Fin 2, win5_4.index t a * S1024x512.size a ≤ (i a).val ∧ (i a).val < win5_4.index t a * S1024x512.size a + S1024x512.size a := by
  show i ∈ ((View.whole main_v76).slice (win5_4.rect t)).set ↔ _
  rw [View.set_slice_whole, Rect.mem_set_unit]
  exact Iff.rfl

theorem read_blk5 (t : Fin cfg5.N) (Gf : ℕ → EReal) (y : ((cfg5.win 4).xblock (cfg5.grid.coords t)).Idx) :
    View.read (Elt Ideal) ((cfg5.win 4).blk t).view (fun i : S1024x512.Idx => Gf (S1024x512.rowMajor i).val) y
      = Gf (S1024x512.rowMajor (((cfg5.win 4).blk t).view.emb y)).val := rfl

theorem region5 (c : Dev nD) {a cf w b th : ℕ → EReal}
    (hA : Rep (S := S1024x1024) (V c main_v67) a) (hW : WtRep (K := 1024) (N := 512) 1024 0 (V c main_v75) w)
    (hB : RowRep (N := 512) (V c main_v70) b) (hT : RowRep (N := 512) (V c main_v73) th) :
    Rep (S := S1024x512) ((dat5 (F := Ideal) V c).arrAt 4 cfg5.N)
      (rowNormalize 512 (fun n => spike (rowDot 1024 512 1024 1024 0 a w n + colOf 512 b n) (colOf 512 th n))) := by
  have key : (dat5 (F := Ideal) V c).arrAt 4 cfg5.N
      = (fun i : S1024x512.Idx => (rowNormalize 512 (fun n => spike (rowDot 1024 512 1024 1024 0 a w n + colOf 512 b n) (colOf 512 th n))) (S1024x512.rowMajor i).val) := by
    refine (dat5 (F := Ideal) V c).arrAt_eq_of_cover 4 _ (fun t _ => ?_) (fun i => ?_)
    · show (cfg5.win 4).cut (grid5.coords t) ((dat5 (F := Ideal) V c).after 4 t) = _
      rw [after5_4]
      unfold out5_4
      rw [View.canon_unit_zero hz2]
      simp only [View.ld_unit_zero (S := S1024x1024) hz2, View.ld_unit_zero (S := S1024x512) hz2, View.ld_unit_zero (S := S1x512) hz2]
      obtain ⟨e00, e01, e10, e11, e20, e21, e30, e31, e40, e41⟩ := idx5 t
      funext j
      obtain ⟨r, o, rfl⟩ : ∃ (r : Fin 1024) (o : Fin 512), j = ix2 r o := ⟨j 0, j 1, eq_ix2 j⟩
      have hb0 : BlkRep (Mb := 1024) (K := 1024) (t.val * 1024) 1024 (iblk5 V c 0 t) a := fun r k => by
        show V c main_v67 (((cfg5.win 0).blk t).view.emb (ix2 r k)) = _
        rw [hA]
        refine congrArg a ?_
        rw [Shape.rowMajor_val_two]
        show (win5_0.index t (0 : Fin 2) * 1024 + 1 * r.val) * 1024 + (win5_0.index t (1 : Fin 2) * 1024 + 1 * k.val) = _
        rw [e00, e01]; omega
      have hb1 : WtRep (K := 1024) (N := 512) 1024 0 (iblk5 V c 1 t) w := fun k o => by
        show V c main_v75 (((cfg5.win 1).blk t).view.emb (ix2 k o)) = _
        have e : ((cfg5.win 1).blk t).view.emb (ix2 k o) = ix2 k o := funext fun a => Fin.ext (by
          match a with
          | ⟨0, _⟩ => show win5_1.index t (0 : Fin 2) * 1024 + 1 * k.val = k.val; rw [e10]; omega
          | ⟨1, _⟩ => show win5_1.index t (1 : Fin 2) * 512 + 1 * o.val = o.val; rw [e11]; omega)
        rw [e]; exact hW k o
      have hb2 : RowRep (N := 512) (iblk5 V c 2 t) b := fun o => by
        show V c main_v70 (((cfg5.win 2).blk t).view.emb (ix2 0 o)) = _
        have e : ((cfg5.win 2).blk t).view.emb (ix2 0 o) = ix2 0 o := funext fun a => Fin.ext (by
          match a with
          | ⟨0, _⟩ => show win5_2.index t (0 : Fin 2) * 1 + 1 * 0 = 0; rw [e20]
          | ⟨1, _⟩ => show win5_2.index t (1 : Fin 2) * 512 + 1 * o.val = o.val; rw [e21]; omega)
        rw [e]; exact hB o
      have hb3 : RowRep (N := 512) (iblk5 V c 3 t) th := fun o => by
        show V c main_v73 (((cfg5.win 3).blk t).view.emb (ix2 0 o)) = _
        have e : ((cfg5.win 3).blk t).view.emb (ix2 0 o) = ix2 0 o := funext fun a => Fin.ext (by
          match a with
          | ⟨0, _⟩ => show win5_3.index t (0 : Fin 2) * 1 + 1 * 0 = 0; rw [e30]
          | ⟨1, _⟩ => show win5_3.index t (1 : Fin 2) * 512 + 1 * o.val = o.val; rw [e31]; omega)
        rw [e]; exact hT o
      refine ((pay5 _ _ _ _ hb0 hb1 hb2 hb3) r o).trans ?_
      refine Eq.trans ?_ (read_blk5 t _ (ix2 r o)).symm
      refine congrArg (rowNormalize 512 (fun n => spike (rowDot 1024 512 1024 1024 0 a w n + colOf 512 b n) (colOf 512 th n))) ?_
      rw [Shape.rowMajor_val_two]
      show _ = (win5_4.index t (0 : Fin 2) * 1024 + 1 * r.val) * 512 + (win5_4.index t (1 : Fin 2) * 512 + 1 * o.val)
      rw [e40, e41]; omega
    · have hi0 : (i 0).val < 1024 := (i 0).isLt
      have hi1 : (i 1).val < 512 := (i 1).isLt
      obtain ⟨-, -, -, -, -, -, -, -, e40, e41⟩ := idx5 ⟨(i 0).val / 1024, lt_of_lt_of_eq (by omega : (i 0).val / 1024 < 1) N_5.symm⟩
      refine ⟨⟨(i 0).val / 1024, lt_of_lt_of_eq (by omega : (i 0).val / 1024 < 1) N_5.symm⟩, flush5_4 _, ?_⟩
      rw [mem_blk5]
      intro ax
      match ax with
      | ⟨0, _⟩ =>
        show win5_4.index _ (0 : Fin 2) * 1024 ≤ (i 0).val ∧ (i 0).val < win5_4.index _ (0 : Fin 2) * 1024 + 1024
        rw [e40]; show (i 0).val / 1024 * 1024 ≤ (i 0).val ∧ (i 0).val < (i 0).val / 1024 * 1024 + 1024; omega
      | ⟨1, _⟩ =>
        show win5_4.index _ (1 : Fin 2) * 512 ≤ (i 1).val ∧ (i 1).val < win5_4.index _ (1 : Fin 2) * 512 + 512
        rw [e41]; omega
  intro i
  rw [key]

/-! ## Region 6 -/

theorem idx6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = t.val
    ∧ win6_4.index t (1 : Fin 2) = 0 :=
  (by decide +kernel : ∀ t : Fin grid6.N, _)

theorem mem_blk6 (t : Fin cfg6.N) (i : S512x512.Idx) :
    i ∈ ((cfg6.win 4).blk t).view.set ↔ ∀ a : Fin 2, win6_4.index t a * S512x512.size a ≤ (i a).val ∧ (i a).val < win6_4.index t a * S512x512.size a + S512x512.size a := by
  show i ∈ ((View.whole main_v88).slice (win6_4.rect t)).set ↔ _
  rw [View.set_slice_whole, Rect.mem_set_unit]
  exact Iff.rfl

theorem read_blk6 (t : Fin cfg6.N) (Gf : ℕ → EReal) (y : ((cfg6.win 4).xblock (cfg6.grid.coords t)).Idx) :
    View.read (Elt Ideal) ((cfg6.win 4).blk t).view (fun i : S512x512.Idx => Gf (S512x512.rowMajor i).val) y
      = Gf (S512x512.rowMajor (((cfg6.win 4).blk t).view.emb y)).val := rfl

theorem region6 (c : Dev nD) {a cf w b th : ℕ → EReal}
    (hA : Rep (S := S512x1024) (V c main_v79) a) (hW : WtRep (K := 1024) (N := 512) 1024 0 (V c main_v87) w)
    (hB : RowRep (N := 512) (V c main_v82) b) (hT : RowRep (N := 512) (V c main_v85) th) :
    Rep (S := S512x512) ((dat6 (F := Ideal) V c).arrAt 4 cfg6.N)
      (rowNormalize 512 (fun n => spike (rowDot 1024 512 1024 1024 0 a w n + colOf 512 b n) (colOf 512 th n))) := by
  have key : (dat6 (F := Ideal) V c).arrAt 4 cfg6.N
      = (fun i : S512x512.Idx => (rowNormalize 512 (fun n => spike (rowDot 1024 512 1024 1024 0 a w n + colOf 512 b n) (colOf 512 th n))) (S512x512.rowMajor i).val) := by
    refine (dat6 (F := Ideal) V c).arrAt_eq_of_cover 4 _ (fun t _ => ?_) (fun i => ?_)
    · show (cfg6.win 4).cut (grid6.coords t) ((dat6 (F := Ideal) V c).after 4 t) = _
      rw [after6_4]
      unfold out6_4
      rw [View.canon_unit_zero hz2]
      simp only [View.ld_unit_zero (S := S512x1024) hz2, View.ld_unit_zero (S := S1024x512) hz2, View.ld_unit_zero (S := S1x512) hz2]
      obtain ⟨e00, e01, e10, e11, e20, e21, e30, e31, e40, e41⟩ := idx6 t
      funext j
      obtain ⟨r, o, rfl⟩ : ∃ (r : Fin 512) (o : Fin 512), j = ix2 r o := ⟨j 0, j 1, eq_ix2 j⟩
      have hb0 : BlkRep (Mb := 512) (K := 1024) (t.val * 512) 1024 (iblk6 V c 0 t) a := fun r k => by
        show V c main_v79 (((cfg6.win 0).blk t).view.emb (ix2 r k)) = _
        rw [hA]
        refine congrArg a ?_
        rw [Shape.rowMajor_val_two]
        show (win6_0.index t (0 : Fin 2) * 512 + 1 * r.val) * 1024 + (win6_0.index t (1 : Fin 2) * 1024 + 1 * k.val) = _
        rw [e00, e01]; omega
      have hb1 : WtRep (K := 1024) (N := 512) 1024 0 (iblk6 V c 1 t) w := fun k o => by
        show V c main_v87 (((cfg6.win 1).blk t).view.emb (ix2 k o)) = _
        have e : ((cfg6.win 1).blk t).view.emb (ix2 k o) = ix2 k o := funext fun a => Fin.ext (by
          match a with
          | ⟨0, _⟩ => show win6_1.index t (0 : Fin 2) * 1024 + 1 * k.val = k.val; rw [e10]; omega
          | ⟨1, _⟩ => show win6_1.index t (1 : Fin 2) * 512 + 1 * o.val = o.val; rw [e11]; omega)
        rw [e]; exact hW k o
      have hb2 : RowRep (N := 512) (iblk6 V c 2 t) b := fun o => by
        show V c main_v82 (((cfg6.win 2).blk t).view.emb (ix2 0 o)) = _
        have e : ((cfg6.win 2).blk t).view.emb (ix2 0 o) = ix2 0 o := funext fun a => Fin.ext (by
          match a with
          | ⟨0, _⟩ => show win6_2.index t (0 : Fin 2) * 1 + 1 * 0 = 0; rw [e20]
          | ⟨1, _⟩ => show win6_2.index t (1 : Fin 2) * 512 + 1 * o.val = o.val; rw [e21]; omega)
        rw [e]; exact hB o
      have hb3 : RowRep (N := 512) (iblk6 V c 3 t) th := fun o => by
        show V c main_v85 (((cfg6.win 3).blk t).view.emb (ix2 0 o)) = _
        have e : ((cfg6.win 3).blk t).view.emb (ix2 0 o) = ix2 0 o := funext fun a => Fin.ext (by
          match a with
          | ⟨0, _⟩ => show win6_3.index t (0 : Fin 2) * 1 + 1 * 0 = 0; rw [e30]
          | ⟨1, _⟩ => show win6_3.index t (1 : Fin 2) * 512 + 1 * o.val = o.val; rw [e31]; omega)
        rw [e]; exact hT o
      refine ((pay6 _ _ _ _ hb0 hb1 hb2 hb3) r o).trans ?_
      refine Eq.trans ?_ (read_blk6 t _ (ix2 r o)).symm
      refine congrArg (rowNormalize 512 (fun n => spike (rowDot 1024 512 1024 1024 0 a w n + colOf 512 b n) (colOf 512 th n))) ?_
      rw [Shape.rowMajor_val_two]
      show _ = (win6_4.index t (0 : Fin 2) * 512 + 1 * r.val) * 512 + (win6_4.index t (1 : Fin 2) * 512 + 1 * o.val)
      rw [e40, e41]; omega
    · have hi0 : (i 0).val < 512 := (i 0).isLt
      have hi1 : (i 1).val < 512 := (i 1).isLt
      obtain ⟨-, -, -, -, -, -, -, -, e40, e41⟩ := idx6 ⟨(i 0).val / 512, lt_of_lt_of_eq (by omega : (i 0).val / 512 < 1) N_6.symm⟩
      refine ⟨⟨(i 0).val / 512, lt_of_lt_of_eq (by omega : (i 0).val / 512 < 1) N_6.symm⟩, flush6_4 _, ?_⟩
      rw [mem_blk6]
      intro ax
      match ax with
      | ⟨0, _⟩ =>
        show win6_4.index _ (0 : Fin 2) * 512 ≤ (i 0).val ∧ (i 0).val < win6_4.index _ (0 : Fin 2) * 512 + 512
        rw [e40]; show (i 0).val / 512 * 512 ≤ (i 0).val ∧ (i 0).val < (i 0).val / 512 * 512 + 512; omega
      | ⟨1, _⟩ =>
        show win6_4.index _ (1 : Fin 2) * 512 ≤ (i 1).val ∧ (i 1).val < win6_4.index _ (1 : Fin 2) * 512 + 512
        rw [e41]; omega
  intro i
  rw [key]

/-! ## Region 7 -/

theorem idx7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = t.val
    ∧ win7_4.index t (1 : Fin 2) = 0 :=
  (by decide +kernel : ∀ t : Fin grid7.N, _)

theorem mem_blk7 (t : Fin cfg7.N) (i : S256x512.Idx) :
    i ∈ ((cfg7.win 4).blk t).view.set ↔ ∀ a : Fin 2, win7_4.index t a * S256x512.size a ≤ (i a).val ∧ (i a).val < win7_4.index t a * S256x512.size a + S256x512.size a := by
  show i ∈ ((View.whole main_v100).slice (win7_4.rect t)).set ↔ _
  rw [View.set_slice_whole, Rect.mem_set_unit]
  exact Iff.rfl

theorem read_blk7 (t : Fin cfg7.N) (Gf : ℕ → EReal) (y : ((cfg7.win 4).xblock (cfg7.grid.coords t)).Idx) :
    View.read (Elt Ideal) ((cfg7.win 4).blk t).view (fun i : S256x512.Idx => Gf (S256x512.rowMajor i).val) y
      = Gf (S256x512.rowMajor (((cfg7.win 4).blk t).view.emb y)).val := rfl

theorem region7 (c : Dev nD) {a cf w b th : ℕ → EReal}
    (hA : Rep (S := S256x1024) (V c main_v91) a) (hW : WtRep (K := 1024) (N := 512) 1024 0 (V c main_v99) w)
    (hB : RowRep (N := 512) (V c main_v94) b) (hT : RowRep (N := 512) (V c main_v97) th) :
    Rep (S := S256x512) ((dat7 (F := Ideal) V c).arrAt 4 cfg7.N)
      (rowNormalize 512 (fun n => spike (rowDot 1024 512 1024 1024 0 a w n + colOf 512 b n) (colOf 512 th n))) := by
  have key : (dat7 (F := Ideal) V c).arrAt 4 cfg7.N
      = (fun i : S256x512.Idx => (rowNormalize 512 (fun n => spike (rowDot 1024 512 1024 1024 0 a w n + colOf 512 b n) (colOf 512 th n))) (S256x512.rowMajor i).val) := by
    refine (dat7 (F := Ideal) V c).arrAt_eq_of_cover 4 _ (fun t _ => ?_) (fun i => ?_)
    · show (cfg7.win 4).cut (grid7.coords t) ((dat7 (F := Ideal) V c).after 4 t) = _
      rw [after7_4]
      unfold out7_4
      rw [View.canon_unit_zero hz2]
      simp only [View.ld_unit_zero (S := S256x1024) hz2, View.ld_unit_zero (S := S1024x512) hz2, View.ld_unit_zero (S := S1x512) hz2]
      obtain ⟨e00, e01, e10, e11, e20, e21, e30, e31, e40, e41⟩ := idx7 t
      funext j
      obtain ⟨r, o, rfl⟩ : ∃ (r : Fin 256) (o : Fin 512), j = ix2 r o := ⟨j 0, j 1, eq_ix2 j⟩
      have hb0 : BlkRep (Mb := 256) (K := 1024) (t.val * 256) 1024 (iblk7 V c 0 t) a := fun r k => by
        show V c main_v91 (((cfg7.win 0).blk t).view.emb (ix2 r k)) = _
        rw [hA]
        refine congrArg a ?_
        rw [Shape.rowMajor_val_two]
        show (win7_0.index t (0 : Fin 2) * 256 + 1 * r.val) * 1024 + (win7_0.index t (1 : Fin 2) * 1024 + 1 * k.val) = _
        rw [e00, e01]; omega
      have hb1 : WtRep (K := 1024) (N := 512) 1024 0 (iblk7 V c 1 t) w := fun k o => by
        show V c main_v99 (((cfg7.win 1).blk t).view.emb (ix2 k o)) = _
        have e : ((cfg7.win 1).blk t).view.emb (ix2 k o) = ix2 k o := funext fun a => Fin.ext (by
          match a with
          | ⟨0, _⟩ => show win7_1.index t (0 : Fin 2) * 1024 + 1 * k.val = k.val; rw [e10]; omega
          | ⟨1, _⟩ => show win7_1.index t (1 : Fin 2) * 512 + 1 * o.val = o.val; rw [e11]; omega)
        rw [e]; exact hW k o
      have hb2 : RowRep (N := 512) (iblk7 V c 2 t) b := fun o => by
        show V c main_v94 (((cfg7.win 2).blk t).view.emb (ix2 0 o)) = _
        have e : ((cfg7.win 2).blk t).view.emb (ix2 0 o) = ix2 0 o := funext fun a => Fin.ext (by
          match a with
          | ⟨0, _⟩ => show win7_2.index t (0 : Fin 2) * 1 + 1 * 0 = 0; rw [e20]
          | ⟨1, _⟩ => show win7_2.index t (1 : Fin 2) * 512 + 1 * o.val = o.val; rw [e21]; omega)
        rw [e]; exact hB o
      have hb3 : RowRep (N := 512) (iblk7 V c 3 t) th := fun o => by
        show V c main_v97 (((cfg7.win 3).blk t).view.emb (ix2 0 o)) = _
        have e : ((cfg7.win 3).blk t).view.emb (ix2 0 o) = ix2 0 o := funext fun a => Fin.ext (by
          match a with
          | ⟨0, _⟩ => show win7_3.index t (0 : Fin 2) * 1 + 1 * 0 = 0; rw [e30]
          | ⟨1, _⟩ => show win7_3.index t (1 : Fin 2) * 512 + 1 * o.val = o.val; rw [e31]; omega)
        rw [e]; exact hT o
      refine ((pay7 _ _ _ _ hb0 hb1 hb2 hb3) r o).trans ?_
      refine Eq.trans ?_ (read_blk7 t _ (ix2 r o)).symm
      refine congrArg (rowNormalize 512 (fun n => spike (rowDot 1024 512 1024 1024 0 a w n + colOf 512 b n) (colOf 512 th n))) ?_
      rw [Shape.rowMajor_val_two]
      show _ = (win7_4.index t (0 : Fin 2) * 256 + 1 * r.val) * 512 + (win7_4.index t (1 : Fin 2) * 512 + 1 * o.val)
      rw [e40, e41]; omega
    · have hi0 : (i 0).val < 256 := (i 0).isLt
      have hi1 : (i 1).val < 512 := (i 1).isLt
      obtain ⟨-, -, -, -, -, -, -, -, e40, e41⟩ := idx7 ⟨(i 0).val / 256, lt_of_lt_of_eq (by omega : (i 0).val / 256 < 1) N_7.symm⟩
      refine ⟨⟨(i 0).val / 256, lt_of_lt_of_eq (by omega : (i 0).val / 256 < 1) N_7.symm⟩, flush7_4 _, ?_⟩
      rw [mem_blk7]
      intro ax
      match ax with
      | ⟨0, _⟩ =>
        show win7_4.index _ (0 : Fin 2) * 256 ≤ (i 0).val ∧ (i 0).val < win7_4.index _ (0 : Fin 2) * 256 + 256
        rw [e40]; show (i 0).val / 256 * 256 ≤ (i 0).val ∧ (i 0).val < (i 0).val / 256 * 256 + 256; omega
      | ⟨1, _⟩ =>
        show win7_4.index _ (1 : Fin 2) * 512 ≤ (i 1).val ∧ (i 1).val < win7_4.index _ (1 : Fin 2) * 512 + 512
        rw [e41]; omega
  intro i
  rw [key]

/-! ## Region 8 -/

theorem idx8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = t.val
    ∧ win8_4.index t (1 : Fin 2) = 0 :=
  (by decide +kernel : ∀ t : Fin grid8.N, _)

theorem mem_blk8 (t : Fin cfg8.N) (i : S128x512.Idx) :
    i ∈ ((cfg8.win 4).blk t).view.set ↔ ∀ a : Fin 2, win8_4.index t a * S128x512.size a ≤ (i a).val ∧ (i a).val < win8_4.index t a * S128x512.size a + S128x512.size a := by
  show i ∈ ((View.whole main_v112).slice (win8_4.rect t)).set ↔ _
  rw [View.set_slice_whole, Rect.mem_set_unit]
  exact Iff.rfl

theorem read_blk8 (t : Fin cfg8.N) (Gf : ℕ → EReal) (y : ((cfg8.win 4).xblock (cfg8.grid.coords t)).Idx) :
    View.read (Elt Ideal) ((cfg8.win 4).blk t).view (fun i : S128x512.Idx => Gf (S128x512.rowMajor i).val) y
      = Gf (S128x512.rowMajor (((cfg8.win 4).blk t).view.emb y)).val := rfl

theorem region8 (c : Dev nD) {a cf w b th : ℕ → EReal}
    (hA : Rep (S := S128x1024) (V c main_v103) a) (hW : WtRep (K := 1024) (N := 512) 1024 0 (V c main_v111) w)
    (hB : RowRep (N := 512) (V c main_v106) b) (hT : RowRep (N := 512) (V c main_v109) th) :
    Rep (S := S128x512) ((dat8 (F := Ideal) V c).arrAt 4 cfg8.N)
      (rowNormalize 512 (fun n => spike (rowDot 1024 512 1024 1024 0 a w n + colOf 512 b n) (colOf 512 th n))) := by
  have key : (dat8 (F := Ideal) V c).arrAt 4 cfg8.N
      = (fun i : S128x512.Idx => (rowNormalize 512 (fun n => spike (rowDot 1024 512 1024 1024 0 a w n + colOf 512 b n) (colOf 512 th n))) (S128x512.rowMajor i).val) := by
    refine (dat8 (F := Ideal) V c).arrAt_eq_of_cover 4 _ (fun t _ => ?_) (fun i => ?_)
    · show (cfg8.win 4).cut (grid8.coords t) ((dat8 (F := Ideal) V c).after 4 t) = _
      rw [after8_4]
      unfold out8_4
      rw [View.canon_unit_zero hz2]
      simp only [View.ld_unit_zero (S := S128x1024) hz2, View.ld_unit_zero (S := S1024x512) hz2, View.ld_unit_zero (S := S1x512) hz2]
      obtain ⟨e00, e01, e10, e11, e20, e21, e30, e31, e40, e41⟩ := idx8 t
      funext j
      obtain ⟨r, o, rfl⟩ : ∃ (r : Fin 128) (o : Fin 512), j = ix2 r o := ⟨j 0, j 1, eq_ix2 j⟩
      have hb0 : BlkRep (Mb := 128) (K := 1024) (t.val * 128) 1024 (iblk8 V c 0 t) a := fun r k => by
        show V c main_v103 (((cfg8.win 0).blk t).view.emb (ix2 r k)) = _
        rw [hA]
        refine congrArg a ?_
        rw [Shape.rowMajor_val_two]
        show (win8_0.index t (0 : Fin 2) * 128 + 1 * r.val) * 1024 + (win8_0.index t (1 : Fin 2) * 1024 + 1 * k.val) = _
        rw [e00, e01]; omega
      have hb1 : WtRep (K := 1024) (N := 512) 1024 0 (iblk8 V c 1 t) w := fun k o => by
        show V c main_v111 (((cfg8.win 1).blk t).view.emb (ix2 k o)) = _
        have e : ((cfg8.win 1).blk t).view.emb (ix2 k o) = ix2 k o := funext fun a => Fin.ext (by
          match a with
          | ⟨0, _⟩ => show win8_1.index t (0 : Fin 2) * 1024 + 1 * k.val = k.val; rw [e10]; omega
          | ⟨1, _⟩ => show win8_1.index t (1 : Fin 2) * 512 + 1 * o.val = o.val; rw [e11]; omega)
        rw [e]; exact hW k o
      have hb2 : RowRep (N := 512) (iblk8 V c 2 t) b := fun o => by
        show V c main_v106 (((cfg8.win 2).blk t).view.emb (ix2 0 o)) = _
        have e : ((cfg8.win 2).blk t).view.emb (ix2 0 o) = ix2 0 o := funext fun a => Fin.ext (by
          match a with
          | ⟨0, _⟩ => show win8_2.index t (0 : Fin 2) * 1 + 1 * 0 = 0; rw [e20]
          | ⟨1, _⟩ => show win8_2.index t (1 : Fin 2) * 512 + 1 * o.val = o.val; rw [e21]; omega)
        rw [e]; exact hB o
      have hb3 : RowRep (N := 512) (iblk8 V c 3 t) th := fun o => by
        show V c main_v109 (((cfg8.win 3).blk t).view.emb (ix2 0 o)) = _
        have e : ((cfg8.win 3).blk t).view.emb (ix2 0 o) = ix2 0 o := funext fun a => Fin.ext (by
          match a with
          | ⟨0, _⟩ => show win8_3.index t (0 : Fin 2) * 1 + 1 * 0 = 0; rw [e30]
          | ⟨1, _⟩ => show win8_3.index t (1 : Fin 2) * 512 + 1 * o.val = o.val; rw [e31]; omega)
        rw [e]; exact hT o
      refine ((pay8 _ _ _ _ hb0 hb1 hb2 hb3) r o).trans ?_
      refine Eq.trans ?_ (read_blk8 t _ (ix2 r o)).symm
      refine congrArg (rowNormalize 512 (fun n => spike (rowDot 1024 512 1024 1024 0 a w n + colOf 512 b n) (colOf 512 th n))) ?_
      rw [Shape.rowMajor_val_two]
      show _ = (win8_4.index t (0 : Fin 2) * 128 + 1 * r.val) * 512 + (win8_4.index t (1 : Fin 2) * 512 + 1 * o.val)
      rw [e40, e41]; omega
    · have hi0 : (i 0).val < 128 := (i 0).isLt
      have hi1 : (i 1).val < 512 := (i 1).isLt
      obtain ⟨-, -, -, -, -, -, -, -, e40, e41⟩ := idx8 ⟨(i 0).val / 128, lt_of_lt_of_eq (by omega : (i 0).val / 128 < 1) N_8.symm⟩
      refine ⟨⟨(i 0).val / 128, lt_of_lt_of_eq (by omega : (i 0).val / 128 < 1) N_8.symm⟩, flush8_4 _, ?_⟩
      rw [mem_blk8]
      intro ax
      match ax with
      | ⟨0, _⟩ =>
        show win8_4.index _ (0 : Fin 2) * 128 ≤ (i 0).val ∧ (i 0).val < win8_4.index _ (0 : Fin 2) * 128 + 128
        rw [e40]; show (i 0).val / 128 * 128 ≤ (i 0).val ∧ (i 0).val < (i 0).val / 128 * 128 + 128; omega
      | ⟨1, _⟩ =>
        show win8_4.index _ (1 : Fin 2) * 512 ≤ (i 1).val ∧ (i 1).val < win8_4.index _ (1 : Fin 2) * 512 + 512
        rw [e41]; omega
  intro i
  rw [key]

/-! ## Region 9 -/

theorem idx9 : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = t.val
    ∧ win9_4.index t (1 : Fin 2) = 0 :=
  (by decide +kernel : ∀ t : Fin grid9.N, _)

theorem mem_blk9 (t : Fin cfg9.N) (i : S64x512.Idx) :
    i ∈ ((cfg9.win 4).blk t).view.set ↔ ∀ a : Fin 2, win9_4.index t a * S64x512.size a ≤ (i a).val ∧ (i a).val < win9_4.index t a * S64x512.size a + S64x512.size a := by
  show i ∈ ((View.whole main_v124).slice (win9_4.rect t)).set ↔ _
  rw [View.set_slice_whole, Rect.mem_set_unit]
  exact Iff.rfl

theorem read_blk9 (t : Fin cfg9.N) (Gf : ℕ → EReal) (y : ((cfg9.win 4).xblock (cfg9.grid.coords t)).Idx) :
    View.read (Elt Ideal) ((cfg9.win 4).blk t).view (fun i : S64x512.Idx => Gf (S64x512.rowMajor i).val) y
      = Gf (S64x512.rowMajor (((cfg9.win 4).blk t).view.emb y)).val := rfl

theorem region9 (c : Dev nD) {a cf w b th : ℕ → EReal}
    (hA : Rep (S := S64x1024) (V c main_v115) a) (hW : WtRep (K := 1024) (N := 512) 1024 0 (V c main_v123) w)
    (hB : RowRep (N := 512) (V c main_v118) b) (hT : RowRep (N := 512) (V c main_v121) th) :
    Rep (S := S64x512) ((dat9 (F := Ideal) V c).arrAt 4 cfg9.N)
      (rowNormalize 512 (fun n => spike (rowDot 1024 512 1024 1024 0 a w n + colOf 512 b n) (colOf 512 th n))) := by
  have key : (dat9 (F := Ideal) V c).arrAt 4 cfg9.N
      = (fun i : S64x512.Idx => (rowNormalize 512 (fun n => spike (rowDot 1024 512 1024 1024 0 a w n + colOf 512 b n) (colOf 512 th n))) (S64x512.rowMajor i).val) := by
    refine (dat9 (F := Ideal) V c).arrAt_eq_of_cover 4 _ (fun t _ => ?_) (fun i => ?_)
    · show (cfg9.win 4).cut (grid9.coords t) ((dat9 (F := Ideal) V c).after 4 t) = _
      rw [after9_4]
      unfold out9_4
      rw [View.canon_unit_zero hz2]
      simp only [View.ld_unit_zero (S := S64x1024) hz2, View.ld_unit_zero (S := S1024x512) hz2, View.ld_unit_zero (S := S1x512) hz2]
      obtain ⟨e00, e01, e10, e11, e20, e21, e30, e31, e40, e41⟩ := idx9 t
      funext j
      obtain ⟨r, o, rfl⟩ : ∃ (r : Fin 64) (o : Fin 512), j = ix2 r o := ⟨j 0, j 1, eq_ix2 j⟩
      have hb0 : BlkRep (Mb := 64) (K := 1024) (t.val * 64) 1024 (iblk9 V c 0 t) a := fun r k => by
        show V c main_v115 (((cfg9.win 0).blk t).view.emb (ix2 r k)) = _
        rw [hA]
        refine congrArg a ?_
        rw [Shape.rowMajor_val_two]
        show (win9_0.index t (0 : Fin 2) * 64 + 1 * r.val) * 1024 + (win9_0.index t (1 : Fin 2) * 1024 + 1 * k.val) = _
        rw [e00, e01]; omega
      have hb1 : WtRep (K := 1024) (N := 512) 1024 0 (iblk9 V c 1 t) w := fun k o => by
        show V c main_v123 (((cfg9.win 1).blk t).view.emb (ix2 k o)) = _
        have e : ((cfg9.win 1).blk t).view.emb (ix2 k o) = ix2 k o := funext fun a => Fin.ext (by
          match a with
          | ⟨0, _⟩ => show win9_1.index t (0 : Fin 2) * 1024 + 1 * k.val = k.val; rw [e10]; omega
          | ⟨1, _⟩ => show win9_1.index t (1 : Fin 2) * 512 + 1 * o.val = o.val; rw [e11]; omega)
        rw [e]; exact hW k o
      have hb2 : RowRep (N := 512) (iblk9 V c 2 t) b := fun o => by
        show V c main_v118 (((cfg9.win 2).blk t).view.emb (ix2 0 o)) = _
        have e : ((cfg9.win 2).blk t).view.emb (ix2 0 o) = ix2 0 o := funext fun a => Fin.ext (by
          match a with
          | ⟨0, _⟩ => show win9_2.index t (0 : Fin 2) * 1 + 1 * 0 = 0; rw [e20]
          | ⟨1, _⟩ => show win9_2.index t (1 : Fin 2) * 512 + 1 * o.val = o.val; rw [e21]; omega)
        rw [e]; exact hB o
      have hb3 : RowRep (N := 512) (iblk9 V c 3 t) th := fun o => by
        show V c main_v121 (((cfg9.win 3).blk t).view.emb (ix2 0 o)) = _
        have e : ((cfg9.win 3).blk t).view.emb (ix2 0 o) = ix2 0 o := funext fun a => Fin.ext (by
          match a with
          | ⟨0, _⟩ => show win9_3.index t (0 : Fin 2) * 1 + 1 * 0 = 0; rw [e30]
          | ⟨1, _⟩ => show win9_3.index t (1 : Fin 2) * 512 + 1 * o.val = o.val; rw [e31]; omega)
        rw [e]; exact hT o
      refine ((pay9 _ _ _ _ hb0 hb1 hb2 hb3) r o).trans ?_
      refine Eq.trans ?_ (read_blk9 t _ (ix2 r o)).symm
      refine congrArg (rowNormalize 512 (fun n => spike (rowDot 1024 512 1024 1024 0 a w n + colOf 512 b n) (colOf 512 th n))) ?_
      rw [Shape.rowMajor_val_two]
      show _ = (win9_4.index t (0 : Fin 2) * 64 + 1 * r.val) * 512 + (win9_4.index t (1 : Fin 2) * 512 + 1 * o.val)
      rw [e40, e41]; omega
    · have hi0 : (i 0).val < 64 := (i 0).isLt
      have hi1 : (i 1).val < 512 := (i 1).isLt
      obtain ⟨-, -, -, -, -, -, -, -, e40, e41⟩ := idx9 ⟨(i 0).val / 64, lt_of_lt_of_eq (by omega : (i 0).val / 64 < 1) N_9.symm⟩
      refine ⟨⟨(i 0).val / 64, lt_of_lt_of_eq (by omega : (i 0).val / 64 < 1) N_9.symm⟩, flush9_4 _, ?_⟩
      rw [mem_blk9]
      intro ax
      match ax with
      | ⟨0, _⟩ =>
        show win9_4.index _ (0 : Fin 2) * 64 ≤ (i 0).val ∧ (i 0).val < win9_4.index _ (0 : Fin 2) * 64 + 64
        rw [e40]; show (i 0).val / 64 * 64 ≤ (i 0).val ∧ (i 0).val < (i 0).val / 64 * 64 + 64; omega
      | ⟨1, _⟩ =>
        show win9_4.index _ (1 : Fin 2) * 512 ≤ (i 1).val ∧ (i 1).val < win9_4.index _ (1 : Fin 2) * 512 + 512
        rw [e41]; omega
  intro i
  rw [key]

/-! ## Region 10 -/

theorem idx10 : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = t.val
    ∧ win10_4.index t (1 : Fin 2) = 0 :=
  (by decide +kernel : ∀ t : Fin grid10.N, _)

theorem mem_blk10 (t : Fin cfg10.N) (i : S32x512.Idx) :
    i ∈ ((cfg10.win 4).blk t).view.set ↔ ∀ a : Fin 2, win10_4.index t a * S32x512.size a ≤ (i a).val ∧ (i a).val < win10_4.index t a * S32x512.size a + S32x512.size a := by
  show i ∈ ((View.whole main_v136).slice (win10_4.rect t)).set ↔ _
  rw [View.set_slice_whole, Rect.mem_set_unit]
  exact Iff.rfl

theorem read_blk10 (t : Fin cfg10.N) (Gf : ℕ → EReal) (y : ((cfg10.win 4).xblock (cfg10.grid.coords t)).Idx) :
    View.read (Elt Ideal) ((cfg10.win 4).blk t).view (fun i : S32x512.Idx => Gf (S32x512.rowMajor i).val) y
      = Gf (S32x512.rowMajor (((cfg10.win 4).blk t).view.emb y)).val := rfl

theorem region10 (c : Dev nD) {a cf w b th : ℕ → EReal}
    (hA : Rep (S := S32x1024) (V c main_v127) a) (hW : WtRep (K := 1024) (N := 512) 1024 0 (V c main_v135) w)
    (hB : RowRep (N := 512) (V c main_v130) b) (hT : RowRep (N := 512) (V c main_v133) th) :
    Rep (S := S32x512) ((dat10 (F := Ideal) V c).arrAt 4 cfg10.N)
      (rowNormalize 512 (fun n => spike (rowDot 1024 512 1024 1024 0 a w n + colOf 512 b n) (colOf 512 th n))) := by
  have key : (dat10 (F := Ideal) V c).arrAt 4 cfg10.N
      = (fun i : S32x512.Idx => (rowNormalize 512 (fun n => spike (rowDot 1024 512 1024 1024 0 a w n + colOf 512 b n) (colOf 512 th n))) (S32x512.rowMajor i).val) := by
    refine (dat10 (F := Ideal) V c).arrAt_eq_of_cover 4 _ (fun t _ => ?_) (fun i => ?_)
    · show (cfg10.win 4).cut (grid10.coords t) ((dat10 (F := Ideal) V c).after 4 t) = _
      rw [after10_4]
      unfold out10_4
      rw [View.canon_unit_zero hz2]
      simp only [View.ld_unit_zero (S := S32x1024) hz2, View.ld_unit_zero (S := S1024x512) hz2, View.ld_unit_zero (S := S1x512) hz2]
      obtain ⟨e00, e01, e10, e11, e20, e21, e30, e31, e40, e41⟩ := idx10 t
      funext j
      obtain ⟨r, o, rfl⟩ : ∃ (r : Fin 32) (o : Fin 512), j = ix2 r o := ⟨j 0, j 1, eq_ix2 j⟩
      have hb0 : BlkRep (Mb := 32) (K := 1024) (t.val * 32) 1024 (iblk10 V c 0 t) a := fun r k => by
        show V c main_v127 (((cfg10.win 0).blk t).view.emb (ix2 r k)) = _
        rw [hA]
        refine congrArg a ?_
        rw [Shape.rowMajor_val_two]
        show (win10_0.index t (0 : Fin 2) * 32 + 1 * r.val) * 1024 + (win10_0.index t (1 : Fin 2) * 1024 + 1 * k.val) = _
        rw [e00, e01]; omega
      have hb1 : WtRep (K := 1024) (N := 512) 1024 0 (iblk10 V c 1 t) w := fun k o => by
        show V c main_v135 (((cfg10.win 1).blk t).view.emb (ix2 k o)) = _
        have e : ((cfg10.win 1).blk t).view.emb (ix2 k o) = ix2 k o := funext fun a => Fin.ext (by
          match a with
          | ⟨0, _⟩ => show win10_1.index t (0 : Fin 2) * 1024 + 1 * k.val = k.val; rw [e10]; omega
          | ⟨1, _⟩ => show win10_1.index t (1 : Fin 2) * 512 + 1 * o.val = o.val; rw [e11]; omega)
        rw [e]; exact hW k o
      have hb2 : RowRep (N := 512) (iblk10 V c 2 t) b := fun o => by
        show V c main_v130 (((cfg10.win 2).blk t).view.emb (ix2 0 o)) = _
        have e : ((cfg10.win 2).blk t).view.emb (ix2 0 o) = ix2 0 o := funext fun a => Fin.ext (by
          match a with
          | ⟨0, _⟩ => show win10_2.index t (0 : Fin 2) * 1 + 1 * 0 = 0; rw [e20]
          | ⟨1, _⟩ => show win10_2.index t (1 : Fin 2) * 512 + 1 * o.val = o.val; rw [e21]; omega)
        rw [e]; exact hB o
      have hb3 : RowRep (N := 512) (iblk10 V c 3 t) th := fun o => by
        show V c main_v133 (((cfg10.win 3).blk t).view.emb (ix2 0 o)) = _
        have e : ((cfg10.win 3).blk t).view.emb (ix2 0 o) = ix2 0 o := funext fun a => Fin.ext (by
          match a with
          | ⟨0, _⟩ => show win10_3.index t (0 : Fin 2) * 1 + 1 * 0 = 0; rw [e30]
          | ⟨1, _⟩ => show win10_3.index t (1 : Fin 2) * 512 + 1 * o.val = o.val; rw [e31]; omega)
        rw [e]; exact hT o
      refine ((pay10 _ _ _ _ hb0 hb1 hb2 hb3) r o).trans ?_
      refine Eq.trans ?_ (read_blk10 t _ (ix2 r o)).symm
      refine congrArg (rowNormalize 512 (fun n => spike (rowDot 1024 512 1024 1024 0 a w n + colOf 512 b n) (colOf 512 th n))) ?_
      rw [Shape.rowMajor_val_two]
      show _ = (win10_4.index t (0 : Fin 2) * 32 + 1 * r.val) * 512 + (win10_4.index t (1 : Fin 2) * 512 + 1 * o.val)
      rw [e40, e41]; omega
    · have hi0 : (i 0).val < 32 := (i 0).isLt
      have hi1 : (i 1).val < 512 := (i 1).isLt
      obtain ⟨-, -, -, -, -, -, -, -, e40, e41⟩ := idx10 ⟨(i 0).val / 32, lt_of_lt_of_eq (by omega : (i 0).val / 32 < 1) N_10.symm⟩
      refine ⟨⟨(i 0).val / 32, lt_of_lt_of_eq (by omega : (i 0).val / 32 < 1) N_10.symm⟩, flush10_4 _, ?_⟩
      rw [mem_blk10]
      intro ax
      match ax with
      | ⟨0, _⟩ =>
        show win10_4.index _ (0 : Fin 2) * 32 ≤ (i 0).val ∧ (i 0).val < win10_4.index _ (0 : Fin 2) * 32 + 32
        rw [e40]; show (i 0).val / 32 * 32 ≤ (i 0).val ∧ (i 0).val < (i 0).val / 32 * 32 + 32; omega
      | ⟨1, _⟩ =>
        show win10_4.index _ (1 : Fin 2) * 512 ≤ (i 1).val ∧ (i 1).val < win10_4.index _ (1 : Fin 2) * 512 + 512
        rw [e41]; omega
  intro i
  rw [key]

end Cert.KernelIdeal.RegionUp

end
-- ==== Proof.RegionDown.lean ====
/-
  Each down-sweep region leaves in its output array [M, 1024], row by row, the context row followed by the new right-hand row: the two column halves its body stores.
-/
import proofs.«113582_j30116310680263_2_alg».proof.Proof.Gen.KernelIdeal.Frame
import Idealize.ShloMosaic.Lib.Pipeline.Value
import proofs.«113582_j30116310680263_2_alg».proof.Proof.LibRowMajor
import proofs.«113582_j30116310680263_2_alg».proof.Proof.LibSpikeLayer
import proofs.«113582_j30116310680263_2_alg».proof.Proof.LibSpikeBlock
import proofs.«113582_j30116310680263_2_alg».proof.Proof.BodyValue

set_option maxRecDepth 16384

noncomputable section

namespace Cert.KernelIdeal.RegionDown

open Cert.KernelIdeal Cert.KernelIdeal.Gen Idealize.ShloMosaic Idealize.ShloMosaic.ValueIdx Idealize.ShloMosaic.TcCoe Idealize.SL.Sem
open Cert.Lib.RowMajor Cert.Lib.SpikeLayer Cert.Lib.SpikeBlock Cert.KernelIdeal.BodyValue
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## Region 12 -/

theorem idx12 : ∀ t : Fin cfg12.N, win12_0.index t (0 : Fin 2) = t.val
    ∧ win12_0.index t (1 : Fin 2) = 0
    ∧ win12_1.index t (0 : Fin 2) = t.val
    ∧ win12_1.index t (1 : Fin 2) = 0
    ∧ win12_2.index t (0 : Fin 2) = 0
    ∧ win12_2.index t (1 : Fin 2) = 0
    ∧ win12_3.index t (0 : Fin 2) = 0
    ∧ win12_3.index t (1 : Fin 2) = 0
    ∧ win12_4.index t (0 : Fin 2) = 0
    ∧ win12_4.index t (1 : Fin 2) = 0
    ∧ win12_5.index t (0 : Fin 2) = 0
    ∧ win12_5.index t (1 : Fin 2) = 0
    ∧ win12_6.index t (0 : Fin 2) = t.val
    ∧ win12_6.index t (1 : Fin 2) = 0 :=
  (by decide +kernel : ∀ t : Fin grid12.N, _)

theorem mem_blk12 (t : Fin cfg12.N) (i : S16x1024.Idx) :
    i ∈ ((cfg12.win 6).blk t).view.set ↔ ∀ a : Fin 2, win12_6.index t a * S16x1024.size a ≤ (i a).val ∧ (i a).val < win12_6.index t a * S16x1024.size a + S16x1024.size a := by
  show i ∈ ((View.whole main_v166).slice (win12_6.rect t)).set ↔ _
  rw [View.set_slice_whole, Rect.mem_set_unit]
  exact Iff.rfl

theorem read_blk12 (t : Fin cfg12.N) (Gf : ℕ → EReal) (y : ((cfg12.win 6).xblock (cfg12.grid.coords t)).Idx) :
    View.read (Elt Ideal) ((cfg12.win 6).blk t).view (fun i : S16x1024.Idx => Gf (S16x1024.rowMajor i).val) y
      = Gf (S16x1024.rowMajor (((cfg12.win 6).blk t).view.emb y)).val := rfl

theorem region12 (c : Dev nD) {a cf w b th : ℕ → EReal}
    (hC : Rep (S := S16x512) (V c main_v153) cf) (hS : Rep (S := S16x1024) (V c main_v152) a)
    (hW1 : WtRep (K := 512) (N := 512) 1024 0 (V c main_v156) w) (hW2 : WtRep (K := 512) (N := 512) 1024 512 (V c main_v159) w)
    (hB : RowRep (N := 512) (V c main_v162) b) (hT : RowRep (N := 512) (V c main_v165) th) :
    Rep (S := S16x1024) ((dat12 (F := Ideal) V c).arrAt 6 cfg12.N)
      (interleave 512 cf (rowNormalize 512 (fun n => spike ((rowDot 512 512 512 1024 0 cf w n + rowDot 512 512 1024 1024 512 a w n) + colOf 512 b n) (colOf 512 th n)))) := by
  have key : (dat12 (F := Ideal) V c).arrAt 6 cfg12.N
      = (fun i : S16x1024.Idx => (interleave 512 cf (rowNormalize 512 (fun n => spike ((rowDot 512 512 512 1024 0 cf w n + rowDot 512 512 1024 1024 512 a w n) + colOf 512 b n) (colOf 512 th n)))) (S16x1024.rowMajor i).val) := by
    refine (dat12 (F := Ideal) V c).arrAt_eq_of_cover 6 _ (fun t _ => ?_) (fun i => ?_)
    · show (cfg12.win 6).cut (grid12.coords t) ((dat12 (F := Ideal) V c).after 6 t) = _
      rw [after12_6]
      unfold out12_6
      simp only [View.ld_unit_zero (S := S16x512) hz2, View.ld_unit_zero (S := S512x512) hz2, View.ld_unit_zero (S := S1x512) hz2]
      obtain ⟨e00, e01, e10, e11, e20, e21, e30, e31, e40, e41, e50, e51, e60, e61⟩ := idx12 t
      funext j
      obtain ⟨r, o, rfl⟩ : ∃ (r : Fin 16) (o : Fin 1024), j = ix2 r o := ⟨j 0, j 1, eq_ix2 j⟩
      have hb0 : BlkRep (Mb := 16) (K := 512) (t.val * 16) 512 (iblk12 V c 0 t) cf := fun r k => by
        show V c main_v153 (((cfg12.win 0).blk t).view.emb (ix2 r k)) = _
        rw [hC]
        refine congrArg cf ?_
        rw [Shape.rowMajor_val_two]
        show (win12_0.index t (0 : Fin 2) * 16 + 1 * r.val) * 512 + (win12_0.index t (1 : Fin 2) * 512 + 1 * k.val) = _
        rw [e00, e01]; omega
      have hb1 : BlkRep (Mb := 16) (K := 512) (t.val * 16) 1024 (iblk12 V c 1 t) a := fun r k => by
        show V c main_v152 (((cfg12.win 1).blk t).view.emb (ix2 r k)) = _
        rw [hS]
        refine congrArg a ?_
        rw [Shape.rowMajor_val_two]
        show (win12_1.index t (0 : Fin 2) * 16 + 1 * r.val) * 1024 + (win12_1.index t (1 : Fin 2) * 512 + 1 * k.val) = _
        rw [e10, e11]; omega
      have hb2 : WtRep (K := 512) (N := 512) 1024 0 (iblk12 V c 2 t) w := fun k o => by
        show V c main_v156 (((cfg12.win 2).blk t).view.emb (ix2 k o)) = _
        have e : ((cfg12.win 2).blk t).view.emb (ix2 k o) = ix2 k o := funext fun a => Fin.ext (by
          match a with
          | ⟨0, _⟩ => show win12_2.index t (0 : Fin 2) * 512 + 1 * k.val = k.val; rw [e20]; omega
          | ⟨1, _⟩ => show win12_2.index t (1 : Fin 2) * 512 + 1 * o.val = o.val; rw [e21]; omega)
        rw [e]; exact hW1 k o
      have hb3 : WtRep (K := 512) (N := 512) 1024 512 (iblk12 V c 3 t) w := fun k o => by
        show V c main_v159 (((cfg12.win 3).blk t).view.emb (ix2 k o)) = _
        have e : ((cfg12.win 3).blk t).view.emb (ix2 k o) = ix2 k o := funext fun a => Fin.ext (by
          match a with
          | ⟨0, _⟩ => show win12_3.index t (0 : Fin 2) * 512 + 1 * k.val = k.val; rw [e30]; omega
          | ⟨1, _⟩ => show win12_3.index t (1 : Fin 2) * 512 + 1 * o.val = o.val; rw [e31]; omega)
        rw [e]; exact hW2 k o
      have hb4 : RowRep (N := 512) (iblk12 V c 4 t) b := fun o => by
        show V c main_v162 (((cfg12.win 4).blk t).view.emb (ix2 0 o)) = _
        have e : ((cfg12.win 4).blk t).view.emb (ix2 0 o) = ix2 0 o := funext fun a => Fin.ext (by
          match a with
          | ⟨0, _⟩ => show win12_4.index t (0 : Fin 2) * 1 + 1 * 0 = 0; rw [e40]
          | ⟨1, _⟩ => show win12_4.index t (1 : Fin 2) * 512 + 1 * o.val = o.val; rw [e41]; omega)
        rw [e]; exact hB o
      have hb5 : RowRep (N := 512) (iblk12 V c 5 t) th := fun o => by
        show V c main_v165 (((cfg12.win 5).blk t).view.emb (ix2 0 o)) = _
        have e : ((cfg12.win 5).blk t).view.emb (ix2 0 o) = ix2 0 o := funext fun a => Fin.ext (by
          match a with
          | ⟨0, _⟩ => show win12_5.index t (0 : Fin 2) * 1 + 1 * 0 = 0; rw [e50]
          | ⟨1, _⟩ => show win12_5.index t (1 : Fin 2) * 512 + 1 * o.val = o.val; rw [e51]; omega)
        rw [e]; exact hT o
      refine ((canon_halves (N := 512) (N2 := 1024) rfl _ _ _ _ (pass12 _ hb0) (pay12 _ _ _ _ _ _ hb0 hb1 hb2 hb3 hb4 hb5)) r o).trans ?_
      refine Eq.trans ?_ (read_blk12 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win12_6.index t (0 : Fin 2) * 16 + 1 * r.val) * 1024 + (win12_6.index t (1 : Fin 2) * 1024 + 1 * o.val)
      rw [e60, e61]; omega
    · have hi0 : (i 0).val < 16 := (i 0).isLt
      have hi1 : (i 1).val < 1024 := (i 1).isLt
      obtain ⟨-, -, -, -, -, -, -, -, -, -, -, -, e60, e61⟩ := idx12 ⟨(i 0).val / 16, lt_of_lt_of_eq (by omega : (i 0).val / 16 < 1) N_12.symm⟩
      refine ⟨⟨(i 0).val / 16, lt_of_lt_of_eq (by omega : (i 0).val / 16 < 1) N_12.symm⟩, flush12_6 _, ?_⟩
      rw [mem_blk12]
      intro ax
      match ax with
      | ⟨0, _⟩ =>
        show win12_6.index _ (0 : Fin 2) * 16 ≤ (i 0).val ∧ (i 0).val < win12_6.index _ (0 : Fin 2) * 16 + 16
        rw [e60]; show (i 0).val / 16 * 16 ≤ (i 0).val ∧ (i 0).val < (i 0).val / 16 * 16 + 16; omega
      | ⟨1, _⟩ =>
        show win12_6.index _ (1 : Fin 2) * 1024 ≤ (i 1).val ∧ (i 1).val < win12_6.index _ (1 : Fin 2) * 1024 + 1024
        rw [e61]; omega
  intro i
  rw [key]

/-! ## Region 13 -/

theorem idx13 : ∀ t : Fin cfg13.N, win13_0.index t (0 : Fin 2) = t.val
    ∧ win13_0.index t (1 : Fin 2) = 0
    ∧ win13_1.index t (0 : Fin 2) = t.val
    ∧ win13_1.index t (1 : Fin 2) = 0
    ∧ win13_2.index t (0 : Fin 2) = 0
    ∧ win13_2.index t (1 : Fin 2) = 0
    ∧ win13_3.index t (0 : Fin 2) = 0
    ∧ win13_3.index t (1 : Fin 2) = 0
    ∧ win13_4.index t (0 : Fin 2) = 0
    ∧ win13_4.index t (1 : Fin 2) = 0
    ∧ win13_5.index t (0 : Fin 2) = 0
    ∧ win13_5.index t (1 : Fin 2) = 0
    ∧ win13_6.index t (0 : Fin 2) = t.val
    ∧ win13_6.index t (1 : Fin 2) = 0 :=
  (by decide +kernel : ∀ t : Fin grid13.N, _)

theorem mem_blk13 (t : Fin cfg13.N) (i : S32x1024.Idx) :
    i ∈ ((cfg13.win 6).blk t).view.set ↔ ∀ a : Fin 2, win13_6.index t a * S32x1024.size a ≤ (i a).val ∧ (i a).val < win13_6.index t a * S32x1024.size a + S32x1024.size a := by
  show i ∈ ((View.whole main_v183).slice (win13_6.rect t)).set ↔ _
  rw [View.set_slice_whole, Rect.mem_set_unit]
  exact Iff.rfl

theorem read_blk13 (t : Fin cfg13.N) (Gf : ℕ → EReal) (y : ((cfg13.win 6).xblock (cfg13.grid.coords t)).Idx) :
    View.read (Elt Ideal) ((cfg13.win 6).blk t).view (fun i : S32x1024.Idx => Gf (S32x1024.rowMajor i).val) y
      = Gf (S32x1024.rowMajor (((cfg13.win 6).blk t).view.emb y)).val := rfl

theorem region13 (c : Dev nD) {a cf w b th : ℕ → EReal}
    (hC : Rep (S := S32x512) (V c main_v170) cf) (hS : Rep (S := S32x1024) (V c main_v169) a)
    (hW1 : WtRep (K := 512) (N := 512) 1024 0 (V c main_v173) w) (hW2 : WtRep (K := 512) (N := 512) 1024 512 (V c main_v176) w)
    (hB : RowRep (N := 512) (V c main_v179) b) (hT : RowRep (N := 512) (V c main_v182) th) :
    Rep (S := S32x1024) ((dat13 (F := Ideal) V c).arrAt 6 cfg13.N)
      (interleave 512 cf (rowNormalize 512 (fun n => spike ((rowDot 512 512 512 1024 0 cf w n + rowDot 512 512 1024 1024 512 a w n) + colOf 512 b n) (colOf 512 th n)))) := by
  have key : (dat13 (F := Ideal) V c).arrAt 6 cfg13.N
      = (fun i : S32x1024.Idx => (interleave 512 cf (rowNormalize 512 (fun n => spike ((rowDot 512 512 512 1024 0 cf w n + rowDot 512 512 1024 1024 512 a w n) + colOf 512 b n) (colOf 512 th n)))) (S32x1024.rowMajor i).val) := by
    refine (dat13 (F := Ideal) V c).arrAt_eq_of_cover 6 _ (fun t _ => ?_) (fun i => ?_)
    · show (cfg13.win 6).cut (grid13.coords t) ((dat13 (F := Ideal) V c).after 6 t) = _
      rw [after13_6]
      unfold out13_6
      simp only [View.ld_unit_zero (S := S32x512) hz2, View.ld_unit_zero (S := S512x512) hz2, View.ld_unit_zero (S := S1x512) hz2]
      obtain ⟨e00, e01, e10, e11, e20, e21, e30, e31, e40, e41, e50, e51, e60, e61⟩ := idx13 t
      funext j
      obtain ⟨r, o, rfl⟩ : ∃ (r : Fin 32) (o : Fin 1024), j = ix2 r o := ⟨j 0, j 1, eq_ix2 j⟩
      have hb0 : BlkRep (Mb := 32) (K := 512) (t.val * 32) 512 (iblk13 V c 0 t) cf := fun r k => by
        show V c main_v170 (((cfg13.win 0).blk t).view.emb (ix2 r k)) = _
        rw [hC]
        refine congrArg cf ?_
        rw [Shape.rowMajor_val_two]
        show (win13_0.index t (0 : Fin 2) * 32 + 1 * r.val) * 512 + (win13_0.index t (1 : Fin 2) * 512 + 1 * k.val) = _
        rw [e00, e01]; omega
      have hb1 : BlkRep (Mb := 32) (K := 512) (t.val * 32) 1024 (iblk13 V c 1 t) a := fun r k => by
        show V c main_v169 (((cfg13.win 1).blk t).view.emb (ix2 r k)) = _
        rw [hS]
        refine congrArg a ?_
        rw [Shape.rowMajor_val_two]
        show (win13_1.index t (0 : Fin 2) * 32 + 1 * r.val) * 1024 + (win13_1.index t (1 : Fin 2) * 512 + 1 * k.val) = _
        rw [e10, e11]; omega
      have hb2 : WtRep (K := 512) (N := 512) 1024 0 (iblk13 V c 2 t) w := fun k o => by
        show V c main_v173 (((cfg13.win 2).blk t).view.emb (ix2 k o)) = _
        have e : ((cfg13.win 2).blk t).view.emb (ix2 k o) = ix2 k o := funext fun a => Fin.ext (by
          match a with
          | ⟨0, _⟩ => show win13_2.index t (0 : Fin 2) * 512 + 1 * k.val = k.val; rw [e20]; omega
          | ⟨1, _⟩ => show win13_2.index t (1 : Fin 2) * 512 + 1 * o.val = o.val; rw [e21]; omega)
        rw [e]; exact hW1 k o
      have hb3 : WtRep (K := 512) (N := 512) 1024 512 (iblk13 V c 3 t) w := fun k o => by
        show V c main_v176 (((cfg13.win 3).blk t).view.emb (ix2 k o)) = _
        have e : ((cfg13.win 3).blk t).view.emb (ix2 k o) = ix2 k o := funext fun a => Fin.ext (by
          match a with
          | ⟨0, _⟩ => show win13_3.index t (0 : Fin 2) * 512 + 1 * k.val = k.val; rw [e30]; omega
          | ⟨1, _⟩ => show win13_3.index t (1 : Fin 2) * 512 + 1 * o.val = o.val; rw [e31]; omega)
        rw [e]; exact hW2 k o
      have hb4 : RowRep (N := 512) (iblk13 V c 4 t) b := fun o => by
        show V c main_v179 (((cfg13.win 4).blk t).view.emb (ix2 0 o)) = _
        have e : ((cfg13.win 4).blk t).view.emb (ix2 0 o) = ix2 0 o := funext fun a => Fin.ext (by
          match a with
          | ⟨0, _⟩ => show win13_4.index t (0 : Fin 2) * 1 + 1 * 0 = 0; rw [e40]
          | ⟨1, _⟩ => show win13_4.index t (1 : Fin 2) * 512 + 1 * o.val = o.val; rw [e41]; omega)
        rw [e]; exact hB o
      have hb5 : RowRep (N := 512) (iblk13 V c 5 t) th := fun o => by
        show V c main_v182 (((cfg13.win 5).blk t).view.emb (ix2 0 o)) = _
        have e : ((cfg13.win 5).blk t).view.emb (ix2 0 o) = ix2 0 o := funext fun a => Fin.ext (by
          match a with
          | ⟨0, _⟩ => show win13_5.index t (0 : Fin 2) * 1 + 1 * 0 = 0; rw [e50]
          | ⟨1, _⟩ => show win13_5.index t (1 : Fin 2) * 512 + 1 * o.val = o.val; rw [e51]; omega)
        rw [e]; exact hT o
      refine ((canon_halves (N := 512) (N2 := 1024) rfl _ _ _ _ (pass13 _ hb0) (pay13 _ _ _ _ _ _ hb0 hb1 hb2 hb3 hb4 hb5)) r o).trans ?_
      refine Eq.trans ?_ (read_blk13 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win13_6.index t (0 : Fin 2) * 32 + 1 * r.val) * 1024 + (win13_6.index t (1 : Fin 2) * 1024 + 1 * o.val)
      rw [e60, e61]; omega
    · have hi0 : (i 0).val < 32 := (i 0).isLt
      have hi1 : (i 1).val < 1024 := (i 1).isLt
      obtain ⟨-, -, -, -, -, -, -, -, -, -, -, -, e60, e61⟩ := idx13 ⟨(i 0).val / 32, lt_of_lt_of_eq (by omega : (i 0).val / 32 < 1) N_13.symm⟩
      refine ⟨⟨(i 0).val / 32, lt_of_lt_of_eq (by omega : (i 0).val / 32 < 1) N_13.symm⟩, flush13_6 _, ?_⟩
      rw [mem_blk13]
      intro ax
      match ax with
      | ⟨0, _⟩ =>
        show win13_6.index _ (0 : Fin 2) * 32 ≤ (i 0).val ∧ (i 0).val < win13_6.index _ (0 : Fin 2) * 32 + 32
        rw [e60]; show (i 0).val / 32 * 32 ≤ (i 0).val ∧ (i 0).val < (i 0).val / 32 * 32 + 32; omega
      | ⟨1, _⟩ =>
        show win13_6.index _ (1 : Fin 2) * 1024 ≤ (i 1).val ∧ (i 1).val < win13_6.index _ (1 : Fin 2) * 1024 + 1024
        rw [e61]; omega
  intro i
  rw [key]

/-! ## Region 14 -/

theorem idx14 : ∀ t : Fin cfg14.N, win14_0.index t (0 : Fin 2) = t.val
    ∧ win14_0.index t (1 : Fin 2) = 0
    ∧ win14_1.index t (0 : Fin 2) = t.val
    ∧ win14_1.index t (1 : Fin 2) = 0
    ∧ win14_2.index t (0 : Fin 2) = 0
    ∧ win14_2.index t (1 : Fin 2) = 0
    ∧ win14_3.index t (0 : Fin 2) = 0
    ∧ win14_3.index t (1 : Fin 2) = 0
    ∧ win14_4.index t (0 : Fin 2) = 0
    ∧ win14_4.index t (1 : Fin 2) = 0
    ∧ win14_5.index t (0 : Fin 2) = 0
    ∧ win14_5.index t (1 : Fin 2) = 0
    ∧ win14_6.index t (0 : Fin 2) = t.val
    ∧ win14_6.index t (1 : Fin 2) = 0 :=
  (by decide +kernel : ∀ t : Fin grid14.N, _)

theorem mem_blk14 (t : Fin cfg14.N) (i : S64x1024.Idx) :
    i ∈ ((cfg14.win 6).blk t).view.set ↔ ∀ a : Fin 2, win14_6.index t a * S64x1024.size a ≤ (i a).val ∧ (i a).val < win14_6.index t a * S64x1024.size a + S64x1024.size a := by
  show i ∈ ((View.whole main_v200).slice (win14_6.rect t)).set ↔ _
  rw [View.set_slice_whole, Rect.mem_set_unit]
  exact Iff.rfl

theorem read_blk14 (t : Fin cfg14.N) (Gf : ℕ → EReal) (y : ((cfg14.win 6).xblock (cfg14.grid.coords t)).Idx) :
    View.read (Elt Ideal) ((cfg14.win 6).blk t).view (fun i : S64x1024.Idx => Gf (S64x1024.rowMajor i).val) y
      = Gf (S64x1024.rowMajor (((cfg14.win 6).blk t).view.emb y)).val := rfl

theorem region14 (c : Dev nD) {a cf w b th : ℕ → EReal}
    (hC : Rep (S := S64x512) (V c main_v187) cf) (hS : Rep (S := S64x1024) (V c main_v186) a)
    (hW1 : WtRep (K := 512) (N := 512) 1024 0 (V c main_v190) w) (hW2 : WtRep (K := 512) (N := 512) 1024 512 (V c main_v193) w)
    (hB : RowRep (N := 512) (V c main_v196) b) (hT : RowRep (N := 512) (V c main_v199) th) :
    Rep (S := S64x1024) ((dat14 (F := Ideal) V c).arrAt 6 cfg14.N)
      (interleave 512 cf (rowNormalize 512 (fun n => spike ((rowDot 512 512 512 1024 0 cf w n + rowDot 512 512 1024 1024 512 a w n) + colOf 512 b n) (colOf 512 th n)))) := by
  have key : (dat14 (F := Ideal) V c).arrAt 6 cfg14.N
      = (fun i : S64x1024.Idx => (interleave 512 cf (rowNormalize 512 (fun n => spike ((rowDot 512 512 512 1024 0 cf w n + rowDot 512 512 1024 1024 512 a w n) + colOf 512 b n) (colOf 512 th n)))) (S64x1024.rowMajor i).val) := by
    refine (dat14 (F := Ideal) V c).arrAt_eq_of_cover 6 _ (fun t _ => ?_) (fun i => ?_)
    · show (cfg14.win 6).cut (grid14.coords t) ((dat14 (F := Ideal) V c).after 6 t) = _
      rw [after14_6]
      unfold out14_6
      simp only [View.ld_unit_zero (S := S64x512) hz2, View.ld_unit_zero (S := S512x512) hz2, View.ld_unit_zero (S := S1x512) hz2]
      obtain ⟨e00, e01, e10, e11, e20, e21, e30, e31, e40, e41, e50, e51, e60, e61⟩ := idx14 t
      funext j
      obtain ⟨r, o, rfl⟩ : ∃ (r : Fin 64) (o : Fin 1024), j = ix2 r o := ⟨j 0, j 1, eq_ix2 j⟩
      have hb0 : BlkRep (Mb := 64) (K := 512) (t.val * 64) 512 (iblk14 V c 0 t) cf := fun r k => by
        show V c main_v187 (((cfg14.win 0).blk t).view.emb (ix2 r k)) = _
        rw [hC]
        refine congrArg cf ?_
        rw [Shape.rowMajor_val_two]
        show (win14_0.index t (0 : Fin 2) * 64 + 1 * r.val) * 512 + (win14_0.index t (1 : Fin 2) * 512 + 1 * k.val) = _
        rw [e00, e01]; omega
      have hb1 : BlkRep (Mb := 64) (K := 512) (t.val * 64) 1024 (iblk14 V c 1 t) a := fun r k => by
        show V c main_v186 (((cfg14.win 1).blk t).view.emb (ix2 r k)) = _
        rw [hS]
        refine congrArg a ?_
        rw [Shape.rowMajor_val_two]
        show (win14_1.index t (0 : Fin 2) * 64 + 1 * r.val) * 1024 + (win14_1.index t (1 : Fin 2) * 512 + 1 * k.val) = _
        rw [e10, e11]; omega
      have hb2 : WtRep (K := 512) (N := 512) 1024 0 (iblk14 V c 2 t) w := fun k o => by
        show V c main_v190 (((cfg14.win 2).blk t).view.emb (ix2 k o)) = _
        have e : ((cfg14.win 2).blk t).view.emb (ix2 k o) = ix2 k o := funext fun a => Fin.ext (by
          match a with
          | ⟨0, _⟩ => show win14_2.index t (0 : Fin 2) * 512 + 1 * k.val = k.val; rw [e20]; omega
          | ⟨1, _⟩ => show win14_2.index t (1 : Fin 2) * 512 + 1 * o.val = o.val; rw [e21]; omega)
        rw [e]; exact hW1 k o
      have hb3 : WtRep (K := 512) (N := 512) 1024 512 (iblk14 V c 3 t) w := fun k o => by
        show V c main_v193 (((cfg14.win 3).blk t).view.emb (ix2 k o)) = _
        have e : ((cfg14.win 3).blk t).view.emb (ix2 k o) = ix2 k o := funext fun a => Fin.ext (by
          match a with
          | ⟨0, _⟩ => show win14_3.index t (0 : Fin 2) * 512 + 1 * k.val = k.val; rw [e30]; omega
          | ⟨1, _⟩ => show win14_3.index t (1 : Fin 2) * 512 + 1 * o.val = o.val; rw [e31]; omega)
        rw [e]; exact hW2 k o
      have hb4 : RowRep (N := 512) (iblk14 V c 4 t) b := fun o => by
        show V c main_v196 (((cfg14.win 4).blk t).view.emb (ix2 0 o)) = _
        have e : ((cfg14.win 4).blk t).view.emb (ix2 0 o) = ix2 0 o := funext fun a => Fin.ext (by
          match a with
          | ⟨0, _⟩ => show win14_4.index t (0 : Fin 2) * 1 + 1 * 0 = 0; rw [e40]
          | ⟨1, _⟩ => show win14_4.index t (1 : Fin 2) * 512 + 1 * o.val = o.val; rw [e41]; omega)
        rw [e]; exact hB o
      have hb5 : RowRep (N := 512) (iblk14 V c 5 t) th := fun o => by
        show V c main_v199 (((cfg14.win 5).blk t).view.emb (ix2 0 o)) = _
        have e : ((cfg14.win 5).blk t).view.emb (ix2 0 o) = ix2 0 o := funext fun a => Fin.ext (by
          match a with
          | ⟨0, _⟩ => show win14_5.index t (0 : Fin 2) * 1 + 1 * 0 = 0; rw [e50]
          | ⟨1, _⟩ => show win14_5.index t (1 : Fin 2) * 512 + 1 * o.val = o.val; rw [e51]; omega)
        rw [e]; exact hT o
      refine ((canon_halves (N := 512) (N2 := 1024) rfl _ _ _ _ (pass14 _ hb0) (pay14 _ _ _ _ _ _ hb0 hb1 hb2 hb3 hb4 hb5)) r o).trans ?_
      refine Eq.trans ?_ (read_blk14 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win14_6.index t (0 : Fin 2) * 64 + 1 * r.val) * 1024 + (win14_6.index t (1 : Fin 2) * 1024 + 1 * o.val)
      rw [e60, e61]; omega
    · have hi0 : (i 0).val < 64 := (i 0).isLt
      have hi1 : (i 1).val < 1024 := (i 1).isLt
      obtain ⟨-, -, -, -, -, -, -, -, -, -, -, -, e60, e61⟩ := idx14 ⟨(i 0).val / 64, lt_of_lt_of_eq (by omega : (i 0).val / 64 < 1) N_14.symm⟩
      refine ⟨⟨(i 0).val / 64, lt_of_lt_of_eq (by omega : (i 0).val / 64 < 1) N_14.symm⟩, flush14_6 _, ?_⟩
      rw [mem_blk14]
      intro ax
      match ax with
      | ⟨0, _⟩ =>
        show win14_6.index _ (0 : Fin 2) * 64 ≤ (i 0).val ∧ (i 0).val < win14_6.index _ (0 : Fin 2) * 64 + 64
        rw [e60]; show (i 0).val / 64 * 64 ≤ (i 0).val ∧ (i 0).val < (i 0).val / 64 * 64 + 64; omega
      | ⟨1, _⟩ =>
        show win14_6.index _ (1 : Fin 2) * 1024 ≤ (i 1).val ∧ (i 1).val < win14_6.index _ (1 : Fin 2) * 1024 + 1024
        rw [e61]; omega
  intro i
  rw [key]

/-! ## Region 15 -/

theorem idx15 : ∀ t : Fin cfg15.N, win15_0.index t (0 : Fin 2) = t.val
    ∧ win15_0.index t (1 : Fin 2) = 0
    ∧ win15_1.index t (0 : Fin 2) = t.val
    ∧ win15_1.index t (1 : Fin 2) = 0
    ∧ win15_2.index t (0 : Fin 2) = 0
    ∧ win15_2.index t (1 : Fin 2) = 0
    ∧ win15_3.index t (0 : Fin 2) = 0
    ∧ win15_3.index t (1 : Fin 2) = 0
    ∧ win15_4.index t (0 : Fin 2) = 0
    ∧ win15_4.index t (1 : Fin 2) = 0
    ∧ win15_5.index t (0 : Fin 2) = 0
    ∧ win15_5.index t (1 : Fin 2) = 0
    ∧ win15_6.index t (0 : Fin 2) = t.val
    ∧ win15_6.index t (1 : Fin 2) = 0 :=
  (by decide +kernel : ∀ t : Fin grid15.N, _)

theorem mem_blk15 (t : Fin cfg15.N) (i : S128x1024.Idx) :
    i ∈ ((cfg15.win 6).blk t).view.set ↔ ∀ a : Fin 2, win15_6.index t a * S128x1024.size a ≤ (i a).val ∧ (i a).val < win15_6.index t a * S128x1024.size a + S128x1024.size a := by
  show i ∈ ((View.whole main_v217).slice (win15_6.rect t)).set ↔ _
  rw [View.set_slice_whole, Rect.mem_set_unit]
  exact Iff.rfl

theorem read_blk15 (t : Fin cfg15.N) (Gf : ℕ → EReal) (y : ((cfg15.win 6).xblock (cfg15.grid.coords t)).Idx) :
    View.read (Elt Ideal) ((cfg15.win 6).blk t).view (fun i : S128x1024.Idx => Gf (S128x1024.rowMajor i).val) y
      = Gf (S128x1024.rowMajor (((cfg15.win 6).blk t).view.emb y)).val := rfl

theorem region15 (c : Dev nD) {a cf w b th : ℕ → EReal}
    (hC : Rep (S := S128x512) (V c main_v204) cf) (hS : Rep (S := S128x1024) (V c main_v203) a)
    (hW1 : WtRep (K := 512) (N := 512) 1024 0 (V c main_v207) w) (hW2 : WtRep (K := 512) (N := 512) 1024 512 (V c main_v210) w)
    (hB : RowRep (N := 512) (V c main_v213) b) (hT : RowRep (N := 512) (V c main_v216) th) :
    Rep (S := S128x1024) ((dat15 (F := Ideal) V c).arrAt 6 cfg15.N)
      (interleave 512 cf (rowNormalize 512 (fun n => spike ((rowDot 512 512 512 1024 0 cf w n + rowDot 512 512 1024 1024 512 a w n) + colOf 512 b n) (colOf 512 th n)))) := by
  have key : (dat15 (F := Ideal) V c).arrAt 6 cfg15.N
      = (fun i : S128x1024.Idx => (interleave 512 cf (rowNormalize 512 (fun n => spike ((rowDot 512 512 512 1024 0 cf w n + rowDot 512 512 1024 1024 512 a w n) + colOf 512 b n) (colOf 512 th n)))) (S128x1024.rowMajor i).val) := by
    refine (dat15 (F := Ideal) V c).arrAt_eq_of_cover 6 _ (fun t _ => ?_) (fun i => ?_)
    · show (cfg15.win 6).cut (grid15.coords t) ((dat15 (F := Ideal) V c).after 6 t) = _
      rw [after15_6]
      unfold out15_6
      simp only [View.ld_unit_zero (S := S128x512) hz2, View.ld_unit_zero (S := S512x512) hz2, View.ld_unit_zero (S := S1x512) hz2]
      obtain ⟨e00, e01, e10, e11, e20, e21, e30, e31, e40, e41, e50, e51, e60, e61⟩ := idx15 t
      funext j
      obtain ⟨r, o, rfl⟩ : ∃ (r : Fin 128) (o : Fin 1024), j = ix2 r o := ⟨j 0, j 1, eq_ix2 j⟩
      have hb0 : BlkRep (Mb := 128) (K := 512) (t.val * 128) 512 (iblk15 V c 0 t) cf := fun r k => by
        show V c main_v204 (((cfg15.win 0).blk t).view.emb (ix2 r k)) = _
        rw [hC]
        refine congrArg cf ?_
        rw [Shape.rowMajor_val_two]
        show (win15_0.index t (0 : Fin 2) * 128 + 1 * r.val) * 512 + (win15_0.index t (1 : Fin 2) * 512 + 1 * k.val) = _
        rw [e00, e01]; omega
      have hb1 : BlkRep (Mb := 128) (K := 512) (t.val * 128) 1024 (iblk15 V c 1 t) a := fun r k => by
        show V c main_v203 (((cfg15.win 1).blk t).view.emb (ix2 r k)) = _
        rw [hS]
        refine congrArg a ?_
        rw [Shape.rowMajor_val_two]
        show (win15_1.index t (0 : Fin 2) * 128 + 1 * r.val) * 1024 + (win15_1.index t (1 : Fin 2) * 512 + 1 * k.val) = _
        rw [e10, e11]; omega
      have hb2 : WtRep (K := 512) (N := 512) 1024 0 (iblk15 V c 2 t) w := fun k o => by
        show V c main_v207 (((cfg15.win 2).blk t).view.emb (ix2 k o)) = _
        have e : ((cfg15.win 2).blk t).view.emb (ix2 k o) = ix2 k o := funext fun a => Fin.ext (by
          match a with
          | ⟨0, _⟩ => show win15_2.index t (0 : Fin 2) * 512 + 1 * k.val = k.val; rw [e20]; omega
          | ⟨1, _⟩ => show win15_2.index t (1 : Fin 2) * 512 + 1 * o.val = o.val; rw [e21]; omega)
        rw [e]; exact hW1 k o
      have hb3 : WtRep (K := 512) (N := 512) 1024 512 (iblk15 V c 3 t) w := fun k o => by
        show V c main_v210 (((cfg15.win 3).blk t).view.emb (ix2 k o)) = _
        have e : ((cfg15.win 3).blk t).view.emb (ix2 k o) = ix2 k o := funext fun a => Fin.ext (by
          match a with
          | ⟨0, _⟩ => show win15_3.index t (0 : Fin 2) * 512 + 1 * k.val = k.val; rw [e30]; omega
          | ⟨1, _⟩ => show win15_3.index t (1 : Fin 2) * 512 + 1 * o.val = o.val; rw [e31]; omega)
        rw [e]; exact hW2 k o
      have hb4 : RowRep (N := 512) (iblk15 V c 4 t) b := fun o => by
        show V c main_v213 (((cfg15.win 4).blk t).view.emb (ix2 0 o)) = _
        have e : ((cfg15.win 4).blk t).view.emb (ix2 0 o) = ix2 0 o := funext fun a => Fin.ext (by
          match a with
          | ⟨0, _⟩ => show win15_4.index t (0 : Fin 2) * 1 + 1 * 0 = 0; rw [e40]
          | ⟨1, _⟩ => show win15_4.index t (1 : Fin 2) * 512 + 1 * o.val = o.val; rw [e41]; omega)
        rw [e]; exact hB o
      have hb5 : RowRep (N := 512) (iblk15 V c 5 t) th := fun o => by
        show V c main_v216 (((cfg15.win 5).blk t).view.emb (ix2 0 o)) = _
        have e : ((cfg15.win 5).blk t).view.emb (ix2 0 o) = ix2 0 o := funext fun a => Fin.ext (by
          match a with
          | ⟨0, _⟩ => show win15_5.index t (0 : Fin 2) * 1 + 1 * 0 = 0; rw [e50]
          | ⟨1, _⟩ => show win15_5.index t (1 : Fin 2) * 512 + 1 * o.val = o.val; rw [e51]; omega)
        rw [e]; exact hT o
      refine ((canon_halves (N := 512) (N2 := 1024) rfl _ _ _ _ (pass15 _ hb0) (pay15 _ _ _ _ _ _ hb0 hb1 hb2 hb3 hb4 hb5)) r o).trans ?_
      refine Eq.trans ?_ (read_blk15 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win15_6.index t (0 : Fin 2) * 128 + 1 * r.val) * 1024 + (win15_6.index t (1 : Fin 2) * 1024 + 1 * o.val)
      rw [e60, e61]; omega
    · have hi0 : (i 0).val < 128 := (i 0).isLt
      have hi1 : (i 1).val < 1024 := (i 1).isLt
      obtain ⟨-, -, -, -, -, -, -, -, -, -, -, -, e60, e61⟩ := idx15 ⟨(i 0).val / 128, lt_of_lt_of_eq (by omega : (i 0).val / 128 < 1) N_15.symm⟩
      refine ⟨⟨(i 0).val / 128, lt_of_lt_of_eq (by omega : (i 0).val / 128 < 1) N_15.symm⟩, flush15_6 _, ?_⟩
      rw [mem_blk15]
      intro ax
      match ax with
      | ⟨0, _⟩ =>
        show win15_6.index _ (0 : Fin 2) * 128 ≤ (i 0).val ∧ (i 0).val < win15_6.index _ (0 : Fin 2) * 128 + 128
        rw [e60]; show (i 0).val / 128 * 128 ≤ (i 0).val ∧ (i 0).val < (i 0).val / 128 * 128 + 128; omega
      | ⟨1, _⟩ =>
        show win15_6.index _ (1 : Fin 2) * 1024 ≤ (i 1).val ∧ (i 1).val < win15_6.index _ (1 : Fin 2) * 1024 + 1024
        rw [e61]; omega
  intro i
  rw [key]

/-! ## Region 16 -/

theorem idx16 : ∀ t : Fin cfg16.N, win16_0.index t (0 : Fin 2) = t.val
    ∧ win16_0.index t (1 : Fin 2) = 0
    ∧ win16_1.index t (0 : Fin 2) = t.val
    ∧ win16_1.index t (1 : Fin 2) = 0
    ∧ win16_2.index t (0 : Fin 2) = 0
    ∧ win16_2.index t (1 : Fin 2) = 0
    ∧ win16_3.index t (0 : Fin 2) = 0
    ∧ win16_3.index t (1 : Fin 2) = 0
    ∧ win16_4.index t (0 : Fin 2) = 0
    ∧ win16_4.index t (1 : Fin 2) = 0
    ∧ win16_5.index t (0 : Fin 2) = 0
    ∧ win16_5.index t (1 : Fin 2) = 0
    ∧ win16_6.index t (0 : Fin 2) = t.val
    ∧ win16_6.index t (1 : Fin 2) = 0 :=
  (by decide +kernel : ∀ t : Fin grid16.N, _)

theorem mem_blk16 (t : Fin cfg16.N) (i : S256x1024.Idx) :
    i ∈ ((cfg16.win 6).blk t).view.set ↔ ∀ a : Fin 2, win16_6.index t a * S256x1024.size a ≤ (i a).val ∧ (i a).val < win16_6.index t a * S256x1024.size a + S256x1024.size a := by
  show i ∈ ((View.whole main_v234).slice (win16_6.rect t)).set ↔ _
  rw [View.set_slice_whole, Rect.mem_set_unit]
  exact Iff.rfl

theorem read_blk16 (t : Fin cfg16.N) (Gf : ℕ → EReal) (y : ((cfg16.win 6).xblock (cfg16.grid.coords t)).Idx) :
    View.read (Elt Ideal) ((cfg16.win 6).blk t).view (fun i : S256x1024.Idx => Gf (S256x1024.rowMajor i).val) y
      = Gf (S256x1024.rowMajor (((cfg16.win 6).blk t).view.emb y)).val := rfl

theorem region16 (c : Dev nD) {a cf w b th : ℕ → EReal}
    (hC : Rep (S := S256x512) (V c main_v221) cf) (hS : Rep (S := S256x1024) (V c main_v220) a)
    (hW1 : WtRep (K := 512) (N := 512) 1024 0 (V c main_v224) w) (hW2 : WtRep (K := 512) (N := 512) 1024 512 (V c main_v227) w)
    (hB : RowRep (N := 512) (V c main_v230) b) (hT : RowRep (N := 512) (V c main_v233) th) :
    Rep (S := S256x1024) ((dat16 (F := Ideal) V c).arrAt 6 cfg16.N)
      (interleave 512 cf (rowNormalize 512 (fun n => spike ((rowDot 512 512 512 1024 0 cf w n + rowDot 512 512 1024 1024 512 a w n) + colOf 512 b n) (colOf 512 th n)))) := by
  have key : (dat16 (F := Ideal) V c).arrAt 6 cfg16.N
      = (fun i : S256x1024.Idx => (interleave 512 cf (rowNormalize 512 (fun n => spike ((rowDot 512 512 512 1024 0 cf w n + rowDot 512 512 1024 1024 512 a w n) + colOf 512 b n) (colOf 512 th n)))) (S256x1024.rowMajor i).val) := by
    refine (dat16 (F := Ideal) V c).arrAt_eq_of_cover 6 _ (fun t _ => ?_) (fun i => ?_)
    · show (cfg16.win 6).cut (grid16.coords t) ((dat16 (F := Ideal) V c).after 6 t) = _
      rw [after16_6]
      unfold out16_6
      simp only [View.ld_unit_zero (S := S256x512) hz2, View.ld_unit_zero (S := S512x512) hz2, View.ld_unit_zero (S := S1x512) hz2]
      obtain ⟨e00, e01, e10, e11, e20, e21, e30, e31, e40, e41, e50, e51, e60, e61⟩ := idx16 t
      funext j
      obtain ⟨r, o, rfl⟩ : ∃ (r : Fin 256) (o : Fin 1024), j = ix2 r o := ⟨j 0, j 1, eq_ix2 j⟩
      have hb0 : BlkRep (Mb := 256) (K := 512) (t.val * 256) 512 (iblk16 V c 0 t) cf := fun r k => by
        show V c main_v221 (((cfg16.win 0).blk t).view.emb (ix2 r k)) = _
        rw [hC]
        refine congrArg cf ?_
        rw [Shape.rowMajor_val_two]
        show (win16_0.index t (0 : Fin 2) * 256 + 1 * r.val) * 512 + (win16_0.index t (1 : Fin 2) * 512 + 1 * k.val) = _
        rw [e00, e01]; omega
      have hb1 : BlkRep (Mb := 256) (K := 512) (t.val * 256) 1024 (iblk16 V c 1 t) a := fun r k => by
        show V c main_v220 (((cfg16.win 1).blk t).view.emb (ix2 r k)) = _
        rw [hS]
        refine congrArg a ?_
        rw [Shape.rowMajor_val_two]
        show (win16_1.index t (0 : Fin 2) * 256 + 1 * r.val) * 1024 + (win16_1.index t (1 : Fin 2) * 512 + 1 * k.val) = _
        rw [e10, e11]; omega
      have hb2 : WtRep (K := 512) (N := 512) 1024 0 (iblk16 V c 2 t) w := fun k o => by
        show V c main_v224 (((cfg16.win 2).blk t).view.emb (ix2 k o)) = _
        have e : ((cfg16.win 2).blk t).view.emb (ix2 k o) = ix2 k o := funext fun a => Fin.ext (by
          match a with
          | ⟨0, _⟩ => show win16_2.index t (0 : Fin 2) * 512 + 1 * k.val = k.val; rw [e20]; omega
          | ⟨1, _⟩ => show win16_2.index t (1 : Fin 2) * 512 + 1 * o.val = o.val; rw [e21]; omega)
        rw [e]; exact hW1 k o
      have hb3 : WtRep (K := 512) (N := 512) 1024 512 (iblk16 V c 3 t) w := fun k o => by
        show V c main_v227 (((cfg16.win 3).blk t).view.emb (ix2 k o)) = _
        have e : ((cfg16.win 3).blk t).view.emb (ix2 k o) = ix2 k o := funext fun a => Fin.ext (by
          match a with
          | ⟨0, _⟩ => show win16_3.index t (0 : Fin 2) * 512 + 1 * k.val = k.val; rw [e30]; omega
          | ⟨1, _⟩ => show win16_3.index t (1 : Fin 2) * 512 + 1 * o.val = o.val; rw [e31]; omega)
        rw [e]; exact hW2 k o
      have hb4 : RowRep (N := 512) (iblk16 V c 4 t) b := fun o => by
        show V c main_v230 (((cfg16.win 4).blk t).view.emb (ix2 0 o)) = _
        have e : ((cfg16.win 4).blk t).view.emb (ix2 0 o) = ix2 0 o := funext fun a => Fin.ext (by
          match a with
          | ⟨0, _⟩ => show win16_4.index t (0 : Fin 2) * 1 + 1 * 0 = 0; rw [e40]
          | ⟨1, _⟩ => show win16_4.index t (1 : Fin 2) * 512 + 1 * o.val = o.val; rw [e41]; omega)
        rw [e]; exact hB o
      have hb5 : RowRep (N := 512) (iblk16 V c 5 t) th := fun o => by
        show V c main_v233 (((cfg16.win 5).blk t).view.emb (ix2 0 o)) = _
        have e : ((cfg16.win 5).blk t).view.emb (ix2 0 o) = ix2 0 o := funext fun a => Fin.ext (by
          match a with
          | ⟨0, _⟩ => show win16_5.index t (0 : Fin 2) * 1 + 1 * 0 = 0; rw [e50]
          | ⟨1, _⟩ => show win16_5.index t (1 : Fin 2) * 512 + 1 * o.val = o.val; rw [e51]; omega)
        rw [e]; exact hT o
      refine ((canon_halves (N := 512) (N2 := 1024) rfl _ _ _ _ (pass16 _ hb0) (pay16 _ _ _ _ _ _ hb0 hb1 hb2 hb3 hb4 hb5)) r o).trans ?_
      refine Eq.trans ?_ (read_blk16 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win16_6.index t (0 : Fin 2) * 256 + 1 * r.val) * 1024 + (win16_6.index t (1 : Fin 2) * 1024 + 1 * o.val)
      rw [e60, e61]; omega
    · have hi0 : (i 0).val < 256 := (i 0).isLt
      have hi1 : (i 1).val < 1024 := (i 1).isLt
      obtain ⟨-, -, -, -, -, -, -, -, -, -, -, -, e60, e61⟩ := idx16 ⟨(i 0).val / 256, lt_of_lt_of_eq (by omega : (i 0).val / 256 < 1) N_16.symm⟩
      refine ⟨⟨(i 0).val / 256, lt_of_lt_of_eq (by omega : (i 0).val / 256 < 1) N_16.symm⟩, flush16_6 _, ?_⟩
      rw [mem_blk16]
      intro ax
      match ax with
      | ⟨0, _⟩ =>
        show win16_6.index _ (0 : Fin 2) * 256 ≤ (i 0).val ∧ (i 0).val < win16_6.index _ (0 : Fin 2) * 256 + 256
        rw [e60]; show (i 0).val / 256 * 256 ≤ (i 0).val ∧ (i 0).val < (i 0).val / 256 * 256 + 256; omega
      | ⟨1, _⟩ =>
        show win16_6.index _ (1 : Fin 2) * 1024 ≤ (i 1).val ∧ (i 1).val < win16_6.index _ (1 : Fin 2) * 1024 + 1024
        rw [e61]; omega
  intro i
  rw [key]

/-! ## Region 17 -/

theorem idx17 : ∀ t : Fin cfg17.N, win17_0.index t (0 : Fin 2) = t.val
    ∧ win17_0.index t (1 : Fin 2) = 0
    ∧ win17_1.index t (0 : Fin 2) = t.val
    ∧ win17_1.index t (1 : Fin 2) = 0
    ∧ win17_2.index t (0 : Fin 2) = 0
    ∧ win17_2.index t (1 : Fin 2) = 0
    ∧ win17_3.index t (0 : Fin 2) = 0
    ∧ win17_3.index t (1 : Fin 2) = 0
    ∧ win17_4.index t (0 : Fin 2) = 0
    ∧ win17_4.index t (1 : Fin 2) = 0
    ∧ win17_5.index t (0 : Fin 2) = 0
    ∧ win17_5.index t (1 : Fin 2) = 0
    ∧ win17_6.index t (0 : Fin 2) = t.val
    ∧ win17_6.index t (1 : Fin 2) = 0 :=
  (by decide +kernel : ∀ t : Fin grid17.N, _)

theorem mem_blk17 (t : Fin cfg17.N) (i : S512x1024.Idx) :
    i ∈ ((cfg17.win 6).blk t).view.set ↔ ∀ a : Fin 2, win17_6.index t a * S512x1024.size a ≤ (i a).val ∧ (i a).val < win17_6.index t a * S512x1024.size a + S512x1024.size a := by
  show i ∈ ((View.whole main_v251).slice (win17_6.rect t)).set ↔ _
  rw [View.set_slice_whole, Rect.mem_set_unit]
  exact Iff.rfl

theorem read_blk17 (t : Fin cfg17.N) (Gf : ℕ → EReal) (y : ((cfg17.win 6).xblock (cfg17.grid.coords t)).Idx) :
    View.read (Elt Ideal) ((cfg17.win 6).blk t).view (fun i : S512x1024.Idx => Gf (S512x1024.rowMajor i).val) y
      = Gf (S512x1024.rowMajor (((cfg17.win 6).blk t).view.emb y)).val := rfl

theorem region17 (c : Dev nD) {a cf w b th : ℕ → EReal}
    (hC : Rep (S := S512x512) (V c main_v238) cf) (hS : Rep (S := S512x1024) (V c main_v237) a)
    (hW1 : WtRep (K := 512) (N := 512) 1024 0 (V c main_v241) w) (hW2 : WtRep (K := 512) (N := 512) 1024 512 (V c main_v244) w)
    (hB : RowRep (N := 512) (V c main_v247) b) (hT : RowRep (N := 512) (V c main_v250) th) :
    Rep (S := S512x1024) ((dat17 (F := Ideal) V c).arrAt 6 cfg17.N)
      (interleave 512 cf (rowNormalize 512 (fun n => spike ((rowDot 512 512 512 1024 0 cf w n + rowDot 512 512 1024 1024 512 a w n) + colOf 512 b n) (colOf 512 th n)))) := by
  have key : (dat17 (F := Ideal) V c).arrAt 6 cfg17.N
      = (fun i : S512x1024.Idx => (interleave 512 cf (rowNormalize 512 (fun n => spike ((rowDot 512 512 512 1024 0 cf w n + rowDot 512 512 1024 1024 512 a w n) + colOf 512 b n) (colOf 512 th n)))) (S512x1024.rowMajor i).val) := by
    refine (dat17 (F := Ideal) V c).arrAt_eq_of_cover 6 _ (fun t _ => ?_) (fun i => ?_)
    · show (cfg17.win 6).cut (grid17.coords t) ((dat17 (F := Ideal) V c).after 6 t) = _
      rw [after17_6]
      unfold out17_6
      simp only [View.ld_unit_zero (S := S512x512) hz2, View.ld_unit_zero (S := S1x512) hz2]
      obtain ⟨e00, e01, e10, e11, e20, e21, e30, e31, e40, e41, e50, e51, e60, e61⟩ := idx17 t
      funext j
      obtain ⟨r, o, rfl⟩ : ∃ (r : Fin 512) (o : Fin 1024), j = ix2 r o := ⟨j 0, j 1, eq_ix2 j⟩
      have hb0 : BlkRep (Mb := 512) (K := 512) (t.val * 512) 512 (iblk17 V c 0 t) cf := fun r k => by
        show V c main_v238 (((cfg17.win 0).blk t).view.emb (ix2 r k)) = _
        rw [hC]
        refine congrArg cf ?_
        rw [Shape.rowMajor_val_two]
        show (win17_0.index t (0 : Fin 2) * 512 + 1 * r.val) * 512 + (win17_0.index t (1 : Fin 2) * 512 + 1 * k.val) = _
        rw [e00, e01]; omega
      have hb1 : BlkRep (Mb := 512) (K := 512) (t.val * 512) 1024 (iblk17 V c 1 t) a := fun r k => by
        show V c main_v237 (((cfg17.win 1).blk t).view.emb (ix2 r k)) = _
        rw [hS]
        refine congrArg a ?_
        rw [Shape.rowMajor_val_two]
        show (win17_1.index t (0 : Fin 2) * 512 + 1 * r.val) * 1024 + (win17_1.index t (1 : Fin 2) * 512 + 1 * k.val) = _
        rw [e10, e11]; omega
      have hb2 : WtRep (K := 512) (N := 512) 1024 0 (iblk17 V c 2 t) w := fun k o => by
        show V c main_v241 (((cfg17.win 2).blk t).view.emb (ix2 k o)) = _
        have e : ((cfg17.win 2).blk t).view.emb (ix2 k o) = ix2 k o := funext fun a => Fin.ext (by
          match a with
          | ⟨0, _⟩ => show win17_2.index t (0 : Fin 2) * 512 + 1 * k.val = k.val; rw [e20]; omega
          | ⟨1, _⟩ => show win17_2.index t (1 : Fin 2) * 512 + 1 * o.val = o.val; rw [e21]; omega)
        rw [e]; exact hW1 k o
      have hb3 : WtRep (K := 512) (N := 512) 1024 512 (iblk17 V c 3 t) w := fun k o => by
        show V c main_v244 (((cfg17.win 3).blk t).view.emb (ix2 k o)) = _
        have e : ((cfg17.win 3).blk t).view.emb (ix2 k o) = ix2 k o := funext fun a => Fin.ext (by
          match a with
          | ⟨0, _⟩ => show win17_3.index t (0 : Fin 2) * 512 + 1 * k.val = k.val; rw [e30]; omega
          | ⟨1, _⟩ => show win17_3.index t (1 : Fin 2) * 512 + 1 * o.val = o.val; rw [e31]; omega)
        rw [e]; exact hW2 k o
      have hb4 : RowRep (N := 512) (iblk17 V c 4 t) b := fun o => by
        show V c main_v247 (((cfg17.win 4).blk t).view.emb (ix2 0 o)) = _
        have e : ((cfg17.win 4).blk t).view.emb (ix2 0 o) = ix2 0 o := funext fun a => Fin.ext (by
          match a with
          | ⟨0, _⟩ => show win17_4.index t (0 : Fin 2) * 1 + 1 * 0 = 0; rw [e40]
          | ⟨1, _⟩ => show win17_4.index t (1 : Fin 2) * 512 + 1 * o.val = o.val; rw [e41]; omega)
        rw [e]; exact hB o
      have hb5 : RowRep (N := 512) (iblk17 V c 5 t) th := fun o => by
        show V c main_v250 (((cfg17.win 5).blk t).view.emb (ix2 0 o)) = _
        have e : ((cfg17.win 5).blk t).view.emb (ix2 0 o) = ix2 0 o := funext fun a => Fin.ext (by
          match a with
          | ⟨0, _⟩ => show win17_5.index t (0 : Fin 2) * 1 + 1 * 0 = 0; rw [e50]
          | ⟨1, _⟩ => show win17_5.index t (1 : Fin 2) * 512 + 1 * o.val = o.val; rw [e51]; omega)
        rw [e]; exact hT o
      refine ((canon_halves (N := 512) (N2 := 1024) rfl _ _ _ _ (pass17 _ hb0) (pay17 _ _ _ _ _ _ hb0 hb1 hb2 hb3 hb4 hb5)) r o).trans ?_
      refine Eq.trans ?_ (read_blk17 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win17_6.index t (0 : Fin 2) * 512 + 1 * r.val) * 1024 + (win17_6.index t (1 : Fin 2) * 1024 + 1 * o.val)
      rw [e60, e61]; omega
    · have hi0 : (i 0).val < 512 := (i 0).isLt
      have hi1 : (i 1).val < 1024 := (i 1).isLt
      obtain ⟨-, -, -, -, -, -, -, -, -, -, -, -, e60, e61⟩ := idx17 ⟨(i 0).val / 512, lt_of_lt_of_eq (by omega : (i 0).val / 512 < 1) N_17.symm⟩
      refine ⟨⟨(i 0).val / 512, lt_of_lt_of_eq (by omega : (i 0).val / 512 < 1) N_17.symm⟩, flush17_6 _, ?_⟩
      rw [mem_blk17]
      intro ax
      match ax with
      | ⟨0, _⟩ =>
        show win17_6.index _ (0 : Fin 2) * 512 ≤ (i 0).val ∧ (i 0).val < win17_6.index _ (0 : Fin 2) * 512 + 512
        rw [e60]; show (i 0).val / 512 * 512 ≤ (i 0).val ∧ (i 0).val < (i 0).val / 512 * 512 + 512; omega
      | ⟨1, _⟩ =>
        show win17_6.index _ (1 : Fin 2) * 1024 ≤ (i 1).val ∧ (i 1).val < win17_6.index _ (1 : Fin 2) * 1024 + 1024
        rw [e61]; omega
  intro i
  rw [key]

/-! ## Region 18 -/

theorem idx18 : ∀ t : Fin cfg18.N, win18_0.index t (0 : Fin 2) = t.val
    ∧ win18_0.index t (1 : Fin 2) = 0
    ∧ win18_1.index t (0 : Fin 2) = t.val
    ∧ win18_1.index t (1 : Fin 2) = 0
    ∧ win18_2.index t (0 : Fin 2) = 0
    ∧ win18_2.index t (1 : Fin 2) = 0
    ∧ win18_3.index t (0 : Fin 2) = 0
    ∧ win18_3.index t (1 : Fin 2) = 0
    ∧ win18_4.index t (0 : Fin 2) = 0
    ∧ win18_4.index t (1 : Fin 2) = 0
    ∧ win18_5.index t (0 : Fin 2) = 0
    ∧ win18_5.index t (1 : Fin 2) = 0
    ∧ win18_6.index t (0 : Fin 2) = t.val
    ∧ win18_6.index t (1 : Fin 2) = 0 :=
  (by decide +kernel : ∀ t : Fin grid18.N, _)

theorem mem_blk18 (t : Fin cfg18.N) (i : S1024x1024.Idx) :
    i ∈ ((cfg18.win 6).blk t).view.set ↔ ∀ a : Fin 2, win18_6.index t a * S1024x1024.size a ≤ (i a).val ∧ (i a).val < win18_6.index t a * S1024x1024.size a + S1024x1024.size a := by
  show i ∈ ((View.whole main_v268).slice (win18_6.rect t)).set ↔ _
  rw [View.set_slice_whole, Rect.mem_set_unit]
  exact Iff.rfl

theorem read_blk18 (t : Fin cfg18.N) (Gf : ℕ → EReal) (y : ((cfg18.win 6).xblock (cfg18.grid.coords t)).Idx) :
    View.read (Elt Ideal) ((cfg18.win 6).blk t).view (fun i : S1024x1024.Idx => Gf (S1024x1024.rowMajor i).val) y
      = Gf (S1024x1024.rowMajor (((cfg18.win 6).blk t).view.emb y)).val := rfl

theorem region18 (c : Dev nD) {a cf w b th : ℕ → EReal}
    (hC : Rep (S := S1024x512) (V c main_v255) cf) (hS : Rep (S := S1024x1024) (V c main_v254) a)
    (hW1 : WtRep (K := 512) (N := 512) 1024 0 (V c main_v258) w) (hW2 : WtRep (K := 512) (N := 512) 1024 512 (V c main_v261) w)
    (hB : RowRep (N := 512) (V c main_v264) b) (hT : RowRep (N := 512) (V c main_v267) th) :
    Rep (S := S1024x1024) ((dat18 (F := Ideal) V c).arrAt 6 cfg18.N)
      (interleave 512 cf (rowNormalize 512 (fun n => spike ((rowDot 512 512 512 1024 0 cf w n + rowDot 512 512 1024 1024 512 a w n) + colOf 512 b n) (colOf 512 th n)))) := by
  have key : (dat18 (F := Ideal) V c).arrAt 6 cfg18.N
      = (fun i : S1024x1024.Idx => (interleave 512 cf (rowNormalize 512 (fun n => spike ((rowDot 512 512 512 1024 0 cf w n + rowDot 512 512 1024 1024 512 a w n) + colOf 512 b n) (colOf 512 th n)))) (S1024x1024.rowMajor i).val) := by
    refine (dat18 (F := Ideal) V c).arrAt_eq_of_cover 6 _ (fun t _ => ?_) (fun i => ?_)
    · show (cfg18.win 6).cut (grid18.coords t) ((dat18 (F := Ideal) V c).after 6 t) = _
      rw [after18_6]
      unfold out18_6
      simp only [View.ld_unit_zero (S := S1024x512) hz2, View.ld_unit_zero (S := S512x512) hz2, View.ld_unit_zero (S := S1x512) hz2]
      obtain ⟨e00, e01, e10, e11, e20, e21, e30, e31, e40, e41, e50, e51, e60, e61⟩ := idx18 t
      funext j
      obtain ⟨r, o, rfl⟩ : ∃ (r : Fin 1024) (o : Fin 1024), j = ix2 r o := ⟨j 0, j 1, eq_ix2 j⟩
      have hb0 : BlkRep (Mb := 1024) (K := 512) (t.val * 1024) 512 (iblk18 V c 0 t) cf := fun r k => by
        show V c main_v255 (((cfg18.win 0).blk t).view.emb (ix2 r k)) = _
        rw [hC]
        refine congrArg cf ?_
        rw [Shape.rowMajor_val_two]
        show (win18_0.index t (0 : Fin 2) * 1024 + 1 * r.val) * 512 + (win18_0.index t (1 : Fin 2) * 512 + 1 * k.val) = _
        rw [e00, e01]; omega
      have hb1 : BlkRep (Mb := 1024) (K := 512) (t.val * 1024) 1024 (iblk18 V c 1 t) a := fun r k => by
        show V c main_v254 (((cfg18.win 1).blk t).view.emb (ix2 r k)) = _
        rw [hS]
        refine congrArg a ?_
        rw [Shape.rowMajor_val_two]
        show (win18_1.index t (0 : Fin 2) * 1024 + 1 * r.val) * 1024 + (win18_1.index t (1 : Fin 2) * 512 + 1 * k.val) = _
        rw [e10, e11]; omega
      have hb2 : WtRep (K := 512) (N := 512) 1024 0 (iblk18 V c 2 t) w := fun k o => by
        show V c main_v258 (((cfg18.win 2).blk t).view.emb (ix2 k o)) = _
        have e : ((cfg18.win 2).blk t).view.emb (ix2 k o) = ix2 k o := funext fun a => Fin.ext (by
          match a with
          | ⟨0, _⟩ => show win18_2.index t (0 : Fin 2) * 512 + 1 * k.val = k.val; rw [e20]; omega
          | ⟨1, _⟩ => show win18_2.index t (1 : Fin 2) * 512 + 1 * o.val = o.val; rw [e21]; omega)
        rw [e]; exact hW1 k o
      have hb3 : WtRep (K := 512) (N := 512) 1024 512 (iblk18 V c 3 t) w := fun k o => by
        show V c main_v261 (((cfg18.win 3).blk t).view.emb (ix2 k o)) = _
        have e : ((cfg18.win 3).blk t).view.emb (ix2 k o) = ix2 k o := funext fun a => Fin.ext (by
          match a with
          | ⟨0, _⟩ => show win18_3.index t (0 : Fin 2) * 512 + 1 * k.val = k.val; rw [e30]; omega
          | ⟨1, _⟩ => show win18_3.index t (1 : Fin 2) * 512 + 1 * o.val = o.val; rw [e31]; omega)
        rw [e]; exact hW2 k o
      have hb4 : RowRep (N := 512) (iblk18 V c 4 t) b := fun o => by
        show V c main_v264 (((cfg18.win 4).blk t).view.emb (ix2 0 o)) = _
        have e : ((cfg18.win 4).blk t).view.emb (ix2 0 o) = ix2 0 o := funext fun a => Fin.ext (by
          match a with
          | ⟨0, _⟩ => show win18_4.index t (0 : Fin 2) * 1 + 1 * 0 = 0; rw [e40]
          | ⟨1, _⟩ => show win18_4.index t (1 : Fin 2) * 512 + 1 * o.val = o.val; rw [e41]; omega)
        rw [e]; exact hB o
      have hb5 : RowRep (N := 512) (iblk18 V c 5 t) th := fun o => by
        show V c main_v267 (((cfg18.win 5).blk t).view.emb (ix2 0 o)) = _
        have e : ((cfg18.win 5).blk t).view.emb (ix2 0 o) = ix2 0 o := funext fun a => Fin.ext (by
          match a with
          | ⟨0, _⟩ => show win18_5.index t (0 : Fin 2) * 1 + 1 * 0 = 0; rw [e50]
          | ⟨1, _⟩ => show win18_5.index t (1 : Fin 2) * 512 + 1 * o.val = o.val; rw [e51]; omega)
        rw [e]; exact hT o
      refine ((canon_halves (N := 512) (N2 := 1024) rfl _ _ _ _ (pass18 _ hb0) (pay18 _ _ _ _ _ _ hb0 hb1 hb2 hb3 hb4 hb5)) r o).trans ?_
      refine Eq.trans ?_ (read_blk18 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win18_6.index t (0 : Fin 2) * 1024 + 1 * r.val) * 1024 + (win18_6.index t (1 : Fin 2) * 1024 + 1 * o.val)
      rw [e60, e61]; omega
    · have hi0 : (i 0).val < 1024 := (i 0).isLt
      have hi1 : (i 1).val < 1024 := (i 1).isLt
      obtain ⟨-, -, -, -, -, -, -, -, -, -, -, -, e60, e61⟩ := idx18 ⟨(i 0).val / 1024, lt_of_lt_of_eq (by omega : (i 0).val / 1024 < 1) N_18.symm⟩
      refine ⟨⟨(i 0).val / 1024, lt_of_lt_of_eq (by omega : (i 0).val / 1024 < 1) N_18.symm⟩, flush18_6 _, ?_⟩
      rw [mem_blk18]
      intro ax
      match ax with
      | ⟨0, _⟩ =>
        show win18_6.index _ (0 : Fin 2) * 1024 ≤ (i 0).val ∧ (i 0).val < win18_6.index _ (0 : Fin 2) * 1024 + 1024
        rw [e60]; show (i 0).val / 1024 * 1024 ≤ (i 0).val ∧ (i 0).val < (i 0).val / 1024 * 1024 + 1024; omega
      | ⟨1, _⟩ =>
        show win18_6.index _ (1 : Fin 2) * 1024 ≤ (i 1).val ∧ (i 1).val < win18_6.index _ (1 : Fin 2) * 1024 + 1024
        rw [e61]; omega
  intro i
  rw [key]

/-! ## Region 19 -/

theorem idx19 : ∀ t : Fin cfg19.N, win19_0.index t (0 : Fin 2) = t.val
    ∧ win19_0.index t (1 : Fin 2) = 0
    ∧ win19_1.index t (0 : Fin 2) = t.val
    ∧ win19_1.index t (1 : Fin 2) = 0
    ∧ win19_2.index t (0 : Fin 2) = 0
    ∧ win19_2.index t (1 : Fin 2) = 0
    ∧ win19_3.index t (0 : Fin 2) = 0
    ∧ win19_3.index t (1 : Fin 2) = 0
    ∧ win19_4.index t (0 : Fin 2) = 0
    ∧ win19_4.index t (1 : Fin 2) = 0
    ∧ win19_5.index t (0 : Fin 2) = 0
    ∧ win19_5.index t (1 : Fin 2) = 0
    ∧ win19_6.index t (0 : Fin 2) = t.val
    ∧ win19_6.index t (1 : Fin 2) = 0 :=
  (by decide +kernel : ∀ t : Fin grid19.N, _)

theorem mem_blk19 (t : Fin cfg19.N) (i : S2048x1024.Idx) :
    i ∈ ((cfg19.win 6).blk t).view.set ↔ ∀ a : Fin 2, win19_6.index t a * S2048x1024.size a ≤ (i a).val ∧ (i a).val < win19_6.index t a * S2048x1024.size a + S2048x1024.size a := by
  show i ∈ ((View.whole main_v285).slice (win19_6.rect t)).set ↔ _
  rw [View.set_slice_whole, Rect.mem_set_unit]
  exact Iff.rfl

theorem read_blk19 (t : Fin cfg19.N) (Gf : ℕ → EReal) (y : ((cfg19.win 6).xblock (cfg19.grid.coords t)).Idx) :
    View.read (Elt Ideal) ((cfg19.win 6).blk t).view (fun i : S2048x1024.Idx => Gf (S2048x1024.rowMajor i).val) y
      = Gf (S2048x1024.rowMajor (((cfg19.win 6).blk t).view.emb y)).val := rfl

theorem region19 (c : Dev nD) {a cf w b th : ℕ → EReal}
    (hC : Rep (S := S2048x512) (V c main_v272) cf) (hS : Rep (S := S2048x1024) (V c main_v271) a)
    (hW1 : WtRep (K := 512) (N := 512) 1024 0 (V c main_v275) w) (hW2 : WtRep (K := 512) (N := 512) 1024 512 (V c main_v278) w)
    (hB : RowRep (N := 512) (V c main_v281) b) (hT : RowRep (N := 512) (V c main_v284) th) :
    Rep (S := S2048x1024) ((dat19 (F := Ideal) V c).arrAt 6 cfg19.N)
      (interleave 512 cf (rowNormalize 512 (fun n => spike ((rowDot 512 512 512 1024 0 cf w n + rowDot 512 512 1024 1024 512 a w n) + colOf 512 b n) (colOf 512 th n)))) := by
  have key : (dat19 (F := Ideal) V c).arrAt 6 cfg19.N
      = (fun i : S2048x1024.Idx => (interleave 512 cf (rowNormalize 512 (fun n => spike ((rowDot 512 512 512 1024 0 cf w n + rowDot 512 512 1024 1024 512 a w n) + colOf 512 b n) (colOf 512 th n)))) (S2048x1024.rowMajor i).val) := by
    refine (dat19 (F := Ideal) V c).arrAt_eq_of_cover 6 _ (fun t _ => ?_) (fun i => ?_)
    · show (cfg19.win 6).cut (grid19.coords t) ((dat19 (F := Ideal) V c).after 6 t) = _
      rw [after19_6]
      unfold out19_6
      simp only [View.ld_unit_zero (S := S2048x512) hz2, View.ld_unit_zero (S := S512x512) hz2, View.ld_unit_zero (S := S1x512) hz2]
      obtain ⟨e00, e01, e10, e11, e20, e21, e30, e31, e40, e41, e50, e51, e60, e61⟩ := idx19 t
      funext j
      obtain ⟨r, o, rfl⟩ : ∃ (r : Fin 2048) (o : Fin 1024), j = ix2 r o := ⟨j 0, j 1, eq_ix2 j⟩
      have hb0 : BlkRep (Mb := 2048) (K := 512) (t.val * 2048) 512 (iblk19 V c 0 t) cf := fun r k => by
        show V c main_v272 (((cfg19.win 0).blk t).view.emb (ix2 r k)) = _
        rw [hC]
        refine congrArg cf ?_
        rw [Shape.rowMajor_val_two]
        show (win19_0.index t (0 : Fin 2) * 2048 + 1 * r.val) * 512 + (win19_0.index t (1 : Fin 2) * 512 + 1 * k.val) = _
        rw [e00, e01]; omega
      have hb1 : BlkRep (Mb := 2048) (K := 512) (t.val * 2048) 1024 (iblk19 V c 1 t) a := fun r k => by
        show V c main_v271 (((cfg19.win 1).blk t).view.emb (ix2 r k)) = _
        rw [hS]
        refine congrArg a ?_
        rw [Shape.rowMajor_val_two]
        show (win19_1.index t (0 : Fin 2) * 2048 + 1 * r.val) * 1024 + (win19_1.index t (1 : Fin 2) * 512 + 1 * k.val) = _
        rw [e10, e11]; omega
      have hb2 : WtRep (K := 512) (N := 512) 1024 0 (iblk19 V c 2 t) w := fun k o => by
        show V c main_v275 (((cfg19.win 2).blk t).view.emb (ix2 k o)) = _
        have e : ((cfg19.win 2).blk t).view.emb (ix2 k o) = ix2 k o := funext fun a => Fin.ext (by
          match a with
          | ⟨0, _⟩ => show win19_2.index t (0 : Fin 2) * 512 + 1 * k.val = k.val; rw [e20]; omega
          | ⟨1, _⟩ => show win19_2.index t (1 : Fin 2) * 512 + 1 * o.val = o.val; rw [e21]; omega)
        rw [e]; exact hW1 k o
      have hb3 : WtRep (K := 512) (N := 512) 1024 512 (iblk19 V c 3 t) w := fun k o => by
        show V c main_v278 (((cfg19.win 3).blk t).view.emb (ix2 k o)) = _
        have e : ((cfg19.win 3).blk t).view.emb (ix2 k o) = ix2 k o := funext fun a => Fin.ext (by
          match a with
          | ⟨0, _⟩ => show win19_3.index t (0 : Fin 2) * 512 + 1 * k.val = k.val; rw [e30]; omega
          | ⟨1, _⟩ => show win19_3.index t (1 : Fin 2) * 512 + 1 * o.val = o.val; rw [e31]; omega)
        rw [e]; exact hW2 k o
      have hb4 : RowRep (N := 512) (iblk19 V c 4 t) b := fun o => by
        show V c main_v281 (((cfg19.win 4).blk t).view.emb (ix2 0 o)) = _
        have e : ((cfg19.win 4).blk t).view.emb (ix2 0 o) = ix2 0 o := funext fun a => Fin.ext (by
          match a with
          | ⟨0, _⟩ => show win19_4.index t (0 : Fin 2) * 1 + 1 * 0 = 0; rw [e40]
          | ⟨1, _⟩ => show win19_4.index t (1 : Fin 2) * 512 + 1 * o.val = o.val; rw [e41]; omega)
        rw [e]; exact hB o
      have hb5 : RowRep (N := 512) (iblk19 V c 5 t) th := fun o => by
        show V c main_v284 (((cfg19.win 5).blk t).view.emb (ix2 0 o)) = _
        have e : ((cfg19.win 5).blk t).view.emb (ix2 0 o) = ix2 0 o := funext fun a => Fin.ext (by
          match a with
          | ⟨0, _⟩ => show win19_5.index t (0 : Fin 2) * 1 + 1 * 0 = 0; rw [e50]
          | ⟨1, _⟩ => show win19_5.index t (1 : Fin 2) * 512 + 1 * o.val = o.val; rw [e51]; omega)
        rw [e]; exact hT o
      refine ((canon_halves (N := 512) (N2 := 1024) rfl _ _ _ _ (pass19 _ hb0) (pay19 _ _ _ _ _ _ hb0 hb1 hb2 hb3 hb4 hb5)) r o).trans ?_
      refine Eq.trans ?_ (read_blk19 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win19_6.index t (0 : Fin 2) * 2048 + 1 * r.val) * 1024 + (win19_6.index t (1 : Fin 2) * 1024 + 1 * o.val)
      rw [e60, e61]; omega
    · have hi0 : (i 0).val < 2048 := (i 0).isLt
      have hi1 : (i 1).val < 1024 := (i 1).isLt
      obtain ⟨-, -, -, -, -, -, -, -, -, -, -, -, e60, e61⟩ := idx19 ⟨(i 0).val / 2048, lt_of_lt_of_eq (by omega : (i 0).val / 2048 < 1) N_19.symm⟩
      refine ⟨⟨(i 0).val / 2048, lt_of_lt_of_eq (by omega : (i 0).val / 2048 < 1) N_19.symm⟩, flush19_6 _, ?_⟩
      rw [mem_blk19]
      intro ax
      match ax with
      | ⟨0, _⟩ =>
        show win19_6.index _ (0 : Fin 2) * 2048 ≤ (i 0).val ∧ (i 0).val < win19_6.index _ (0 : Fin 2) * 2048 + 2048
        rw [e60]; show (i 0).val / 2048 * 2048 ≤ (i 0).val ∧ (i 0).val < (i 0).val / 2048 * 2048 + 2048; omega
      | ⟨1, _⟩ =>
        show win19_6.index _ (1 : Fin 2) * 1024 ≤ (i 1).val ∧ (i 1).val < win19_6.index _ (1 : Fin 2) * 1024 + 1024
        rw [e61]; omega
  intro i
  rw [key]

/-! ## Region 20 -/

theorem idx20 : ∀ t : Fin cfg20.N, win20_0.index t (0 : Fin 2) = t.val
    ∧ win20_0.index t (1 : Fin 2) = 0
    ∧ win20_1.index t (0 : Fin 2) = t.val
    ∧ win20_1.index t (1 : Fin 2) = 0
    ∧ win20_2.index t (0 : Fin 2) = 0
    ∧ win20_2.index t (1 : Fin 2) = 0
    ∧ win20_3.index t (0 : Fin 2) = 0
    ∧ win20_3.index t (1 : Fin 2) = 0
    ∧ win20_4.index t (0 : Fin 2) = 0
    ∧ win20_4.index t (1 : Fin 2) = 0
    ∧ win20_5.index t (0 : Fin 2) = 0
    ∧ win20_5.index t (1 : Fin 2) = 0
    ∧ win20_6.index t (0 : Fin 2) = t.val
    ∧ win20_6.index t (1 : Fin 2) = 0 :=
  (by decide +kernel : ∀ t : Fin grid20.N, _)

theorem mem_blk20 (t : Fin cfg20.N) (i : S4096x1024.Idx) :
    i ∈ ((cfg20.win 6).blk t).view.set ↔ ∀ a : Fin 2, win20_6.index t a * S2048x1024.size a ≤ (i a).val ∧ (i a).val < win20_6.index t a * S2048x1024.size a + S2048x1024.size a := by
  show i ∈ ((View.whole main_v302).slice (win20_6.rect t)).set ↔ _
  rw [View.set_slice_whole, Rect.mem_set_unit]
  exact Iff.rfl

theorem read_blk20 (t : Fin cfg20.N) (Gf : ℕ → EReal) (y : ((cfg20.win 6).xblock (cfg20.grid.coords t)).Idx) :
    View.read (Elt Ideal) ((cfg20.win 6).blk t).view (fun i : S4096x1024.Idx => Gf (S4096x1024.rowMajor i).val) y
      = Gf (S4096x1024.rowMajor (((cfg20.win 6).blk t).view.emb y)).val := rfl

theorem region20 (c : Dev nD) {a cf w b th : ℕ → EReal}
    (hC : Rep (S := S4096x512) (V c main_v289) cf) (hS : Rep (S := S4096x1024) (V c main_v288) a)
    (hW1 : WtRep (K := 512) (N := 512) 1024 0 (V c main_v292) w) (hW2 : WtRep (K := 512) (N := 512) 1024 512 (V c main_v295) w)
    (hB : RowRep (N := 512) (V c main_v298) b) (hT : RowRep (N := 512) (V c main_v301) th) :
    Rep (S := S4096x1024) ((dat20 (F := Ideal) V c).arrAt 6 cfg20.N)
      (interleave 512 cf (rowNormalize 512 (fun n => spike ((rowDot 512 512 512 1024 0 cf w n + rowDot 512 512 1024 1024 512 a w n) + colOf 512 b n) (colOf 512 th n)))) := by
  have key : (dat20 (F := Ideal) V c).arrAt 6 cfg20.N
      = (fun i : S4096x1024.Idx => (interleave 512 cf (rowNormalize 512 (fun n => spike ((rowDot 512 512 512 1024 0 cf w n + rowDot 512 512 1024 1024 512 a w n) + colOf 512 b n) (colOf 512 th n)))) (S4096x1024.rowMajor i).val) := by
    refine (dat20 (F := Ideal) V c).arrAt_eq_of_cover 6 _ (fun t _ => ?_) (fun i => ?_)
    · show (cfg20.win 6).cut (grid20.coords t) ((dat20 (F := Ideal) V c).after 6 t) = _
      rw [after20_6]
      unfold out20_6
      simp only [View.ld_unit_zero (S := S2048x512) hz2, View.ld_unit_zero (S := S512x512) hz2, View.ld_unit_zero (S := S1x512) hz2]
      obtain ⟨e00, e01, e10, e11, e20, e21, e30, e31, e40, e41, e50, e51, e60, e61⟩ := idx20 t
      funext j
      obtain ⟨r, o, rfl⟩ : ∃ (r : Fin 2048) (o : Fin 1024), j = ix2 r o := ⟨j 0, j 1, eq_ix2 j⟩
      have hb0 : BlkRep (Mb := 2048) (K := 512) (t.val * 2048) 512 (iblk20 V c 0 t) cf := fun r k => by
        show V c main_v289 (((cfg20.win 0).blk t).view.emb (ix2 r k)) = _
        rw [hC]
        refine congrArg cf ?_
        rw [Shape.rowMajor_val_two]
        show (win20_0.index t (0 : Fin 2) * 2048 + 1 * r.val) * 512 + (win20_0.index t (1 : Fin 2) * 512 + 1 * k.val) = _
        rw [e00, e01]; omega
      have hb1 : BlkRep (Mb := 2048) (K := 512) (t.val * 2048) 1024 (iblk20 V c 1 t) a := fun r k => by
        show V c main_v288 (((cfg20.win 1).blk t).view.emb (ix2 r k)) = _
        rw [hS]
        refine congrArg a ?_
        rw [Shape.rowMajor_val_two]
        show (win20_1.index t (0 : Fin 2) * 2048 + 1 * r.val) * 1024 + (win20_1.index t (1 : Fin 2) * 512 + 1 * k.val) = _
        rw [e10, e11]; omega
      have hb2 : WtRep (K := 512) (N := 512) 1024 0 (iblk20 V c 2 t) w := fun k o => by
        show V c main_v292 (((cfg20.win 2).blk t).view.emb (ix2 k o)) = _
        have e : ((cfg20.win 2).blk t).view.emb (ix2 k o) = ix2 k o := funext fun a => Fin.ext (by
          match a with
          | ⟨0, _⟩ => show win20_2.index t (0 : Fin 2) * 512 + 1 * k.val = k.val; rw [e20]; omega
          | ⟨1, _⟩ => show win20_2.index t (1 : Fin 2) * 512 + 1 * o.val = o.val; rw [e21]; omega)
        rw [e]; exact hW1 k o
      have hb3 : WtRep (K := 512) (N := 512) 1024 512 (iblk20 V c 3 t) w := fun k o => by
        show V c main_v295 (((cfg20.win 3).blk t).view.emb (ix2 k o)) = _
        have e : ((cfg20.win 3).blk t).view.emb (ix2 k o) = ix2 k o := funext fun a => Fin.ext (by
          match a with
          | ⟨0, _⟩ => show win20_3.index t (0 : Fin 2) * 512 + 1 * k.val = k.val; rw [e30]; omega
          | ⟨1, _⟩ => show win20_3.index t (1 : Fin 2) * 512 + 1 * o.val = o.val; rw [e31]; omega)
        rw [e]; exact hW2 k o
      have hb4 : RowRep (N := 512) (iblk20 V c 4 t) b := fun o => by
        show V c main_v298 (((cfg20.win 4).blk t).view.emb (ix2 0 o)) = _
        have e : ((cfg20.win 4).blk t).view.emb (ix2 0 o) = ix2 0 o := funext fun a => Fin.ext (by
          match a with
          | ⟨0, _⟩ => show win20_4.index t (0 : Fin 2) * 1 + 1 * 0 = 0; rw [e40]
          | ⟨1, _⟩ => show win20_4.index t (1 : Fin 2) * 512 + 1 * o.val = o.val; rw [e41]; omega)
        rw [e]; exact hB o
      have hb5 : RowRep (N := 512) (iblk20 V c 5 t) th := fun o => by
        show V c main_v301 (((cfg20.win 5).blk t).view.emb (ix2 0 o)) = _
        have e : ((cfg20.win 5).blk t).view.emb (ix2 0 o) = ix2 0 o := funext fun a => Fin.ext (by
          match a with
          | ⟨0, _⟩ => show win20_5.index t (0 : Fin 2) * 1 + 1 * 0 = 0; rw [e50]
          | ⟨1, _⟩ => show win20_5.index t (1 : Fin 2) * 512 + 1 * o.val = o.val; rw [e51]; omega)
        rw [e]; exact hT o
      refine ((canon_halves (N := 512) (N2 := 1024) rfl _ _ _ _ (pass20 _ hb0) (pay20 _ _ _ _ _ _ hb0 hb1 hb2 hb3 hb4 hb5)) r o).trans ?_
      refine Eq.trans ?_ (read_blk20 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win20_6.index t (0 : Fin 2) * 2048 + 1 * r.val) * 1024 + (win20_6.index t (1 : Fin 2) * 1024 + 1 * o.val)
      rw [e60, e61]; omega
    · have hi0 : (i 0).val < 4096 := (i 0).isLt
      have hi1 : (i 1).val < 1024 := (i 1).isLt
      obtain ⟨-, -, -, -, -, -, -, -, -, -, -, -, e60, e61⟩ := idx20 ⟨(i 0).val / 2048, lt_of_lt_of_eq (by omega : (i 0).val / 2048 < 2) N_20.symm⟩
      refine ⟨⟨(i 0).val / 2048, lt_of_lt_of_eq (by omega : (i 0).val / 2048 < 2) N_20.symm⟩, flush20_6 _, ?_⟩
      rw [mem_blk20]
      intro ax
      match ax with
      | ⟨0, _⟩ =>
        show win20_6.index _ (0 : Fin 2) * 2048 ≤ (i 0).val ∧ (i 0).val < win20_6.index _ (0 : Fin 2) * 2048 + 2048
        rw [e60]; show (i 0).val / 2048 * 2048 ≤ (i 0).val ∧ (i 0).val < (i 0).val / 2048 * 2048 + 2048; omega
      | ⟨1, _⟩ =>
        show win20_6.index _ (1 : Fin 2) * 1024 ≤ (i 1).val ∧ (i 1).val < win20_6.index _ (1 : Fin 2) * 1024 + 1024
        rw [e61]; omega
  intro i
  rw [key]

/-! ## Region 21 -/

theorem idx21 : ∀ t : Fin cfg21.N, win21_0.index t (0 : Fin 2) = t.val
    ∧ win21_0.index t (1 : Fin 2) = 0
    ∧ win21_1.index t (0 : Fin 2) = t.val
    ∧ win21_1.index t (1 : Fin 2) = 0
    ∧ win21_2.index t (0 : Fin 2) = 0
    ∧ win21_2.index t (1 : Fin 2) = 0
    ∧ win21_3.index t (0 : Fin 2) = 0
    ∧ win21_3.index t (1 : Fin 2) = 0
    ∧ win21_4.index t (0 : Fin 2) = 0
    ∧ win21_4.index t (1 : Fin 2) = 0
    ∧ win21_5.index t (0 : Fin 2) = 0
    ∧ win21_5.index t (1 : Fin 2) = 0
    ∧ win21_6.index t (0 : Fin 2) = t.val
    ∧ win21_6.index t (1 : Fin 2) = 0 :=
  (by decide +kernel : ∀ t : Fin grid21.N, _)

theorem mem_blk21 (t : Fin cfg21.N) (i : S8192x1024.Idx) :
    i ∈ ((cfg21.win 6).blk t).view.set ↔ ∀ a : Fin 2, win21_6.index t a * S2048x1024.size a ≤ (i a).val ∧ (i a).val < win21_6.index t a * S2048x1024.size a + S2048x1024.size a := by
  show i ∈ ((View.whole main_v319).slice (win21_6.rect t)).set ↔ _
  rw [View.set_slice_whole, Rect.mem_set_unit]
  exact Iff.rfl

theorem read_blk21 (t : Fin cfg21.N) (Gf : ℕ → EReal) (y : ((cfg21.win 6).xblock (cfg21.grid.coords t)).Idx) :
    View.read (Elt Ideal) ((cfg21.win 6).blk t).view (fun i : S8192x1024.Idx => Gf (S8192x1024.rowMajor i).val) y
      = Gf (S8192x1024.rowMajor (((cfg21.win 6).blk t).view.emb y)).val := rfl

theorem region21 (c : Dev nD) {a cf w b th : ℕ → EReal}
    (hC : Rep (S := S8192x512) (V c main_v306) cf) (hS : Rep (S := S8192x1024) (V c main_v305) a)
    (hW1 : WtRep (K := 512) (N := 512) 1024 0 (V c main_v309) w) (hW2 : WtRep (K := 512) (N := 512) 1024 512 (V c main_v312) w)
    (hB : RowRep (N := 512) (V c main_v315) b) (hT : RowRep (N := 512) (V c main_v318) th) :
    Rep (S := S8192x1024) ((dat21 (F := Ideal) V c).arrAt 6 cfg21.N)
      (interleave 512 cf (rowNormalize 512 (fun n => spike ((rowDot 512 512 512 1024 0 cf w n + rowDot 512 512 1024 1024 512 a w n) + colOf 512 b n) (colOf 512 th n)))) := by
  have key : (dat21 (F := Ideal) V c).arrAt 6 cfg21.N
      = (fun i : S8192x1024.Idx => (interleave 512 cf (rowNormalize 512 (fun n => spike ((rowDot 512 512 512 1024 0 cf w n + rowDot 512 512 1024 1024 512 a w n) + colOf 512 b n) (colOf 512 th n)))) (S8192x1024.rowMajor i).val) := by
    refine (dat21 (F := Ideal) V c).arrAt_eq_of_cover 6 _ (fun t _ => ?_) (fun i => ?_)
    · show (cfg21.win 6).cut (grid21.coords t) ((dat21 (F := Ideal) V c).after 6 t) = _
      rw [after21_6]
      unfold out21_6
      simp only [View.ld_unit_zero (S := S2048x512) hz2, View.ld_unit_zero (S := S512x512) hz2, View.ld_unit_zero (S := S1x512) hz2]
      obtain ⟨e00, e01, e10, e11, e20, e21, e30, e31, e40, e41, e50, e51, e60, e61⟩ := idx21 t
      funext j
      obtain ⟨r, o, rfl⟩ : ∃ (r : Fin 2048) (o : Fin 1024), j = ix2 r o := ⟨j 0, j 1, eq_ix2 j⟩
      have hb0 : BlkRep (Mb := 2048) (K := 512) (t.val * 2048) 512 (iblk21 V c 0 t) cf := fun r k => by
        show V c main_v306 (((cfg21.win 0).blk t).view.emb (ix2 r k)) = _
        rw [hC]
        refine congrArg cf ?_
        rw [Shape.rowMajor_val_two]
        show (win21_0.index t (0 : Fin 2) * 2048 + 1 * r.val) * 512 + (win21_0.index t (1 : Fin 2) * 512 + 1 * k.val) = _
        rw [e00, e01]; omega
      have hb1 : BlkRep (Mb := 2048) (K := 512) (t.val * 2048) 1024 (iblk21 V c 1 t) a := fun r k => by
        show V c main_v305 (((cfg21.win 1).blk t).view.emb (ix2 r k)) = _
        rw [hS]
        refine congrArg a ?_
        rw [Shape.rowMajor_val_two]
        show (win21_1.index t (0 : Fin 2) * 2048 + 1 * r.val) * 1024 + (win21_1.index t (1 : Fin 2) * 512 + 1 * k.val) = _
        rw [e10, e11]; omega
      have hb2 : WtRep (K := 512) (N := 512) 1024 0 (iblk21 V c 2 t) w := fun k o => by
        show V c main_v309 (((cfg21.win 2).blk t).view.emb (ix2 k o)) = _
        have e : ((cfg21.win 2).blk t).view.emb (ix2 k o) = ix2 k o := funext fun a => Fin.ext (by
          match a with
          | ⟨0, _⟩ => show win21_2.index t (0 : Fin 2) * 512 + 1 * k.val = k.val; rw [e20]; omega
          | ⟨1, _⟩ => show win21_2.index t (1 : Fin 2) * 512 + 1 * o.val = o.val; rw [e21]; omega)
        rw [e]; exact hW1 k o
      have hb3 : WtRep (K := 512) (N := 512) 1024 512 (iblk21 V c 3 t) w := fun k o => by
        show V c main_v312 (((cfg21.win 3).blk t).view.emb (ix2 k o)) = _
        have e : ((cfg21.win 3).blk t).view.emb (ix2 k o) = ix2 k o := funext fun a => Fin.ext (by
          match a with
          | ⟨0, _⟩ => show win21_3.index t (0 : Fin 2) * 512 + 1 * k.val = k.val; rw [e30]; omega
          | ⟨1, _⟩ => show win21_3.index t (1 : Fin 2) * 512 + 1 * o.val = o.val; rw [e31]; omega)
        rw [e]; exact hW2 k o
      have hb4 : RowRep (N := 512) (iblk21 V c 4 t) b := fun o => by
        show V c main_v315 (((cfg21.win 4).blk t).view.emb (ix2 0 o)) = _
        have e : ((cfg21.win 4).blk t).view.emb (ix2 0 o) = ix2 0 o := funext fun a => Fin.ext (by
          match a with
          | ⟨0, _⟩ => show win21_4.index t (0 : Fin 2) * 1 + 1 * 0 = 0; rw [e40]
          | ⟨1, _⟩ => show win21_4.index t (1 : Fin 2) * 512 + 1 * o.val = o.val; rw [e41]; omega)
        rw [e]; exact hB o
      have hb5 : RowRep (N := 512) (iblk21 V c 5 t) th := fun o => by
        show V c main_v318 (((cfg21.win 5).blk t).view.emb (ix2 0 o)) = _
        have e : ((cfg21.win 5).blk t).view.emb (ix2 0 o) = ix2 0 o := funext fun a => Fin.ext (by
          match a with
          | ⟨0, _⟩ => show win21_5.index t (0 : Fin 2) * 1 + 1 * 0 = 0; rw [e50]
          | ⟨1, _⟩ => show win21_5.index t (1 : Fin 2) * 512 + 1 * o.val = o.val; rw [e51]; omega)
        rw [e]; exact hT o
      refine ((canon_halves (N := 512) (N2 := 1024) rfl _ _ _ _ (pass21 _ hb0) (pay21 _ _ _ _ _ _ hb0 hb1 hb2 hb3 hb4 hb5)) r o).trans ?_
      refine Eq.trans ?_ (read_blk21 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win21_6.index t (0 : Fin 2) * 2048 + 1 * r.val) * 1024 + (win21_6.index t (1 : Fin 2) * 1024 + 1 * o.val)
      rw [e60, e61]; omega
    · have hi0 : (i 0).val < 8192 := (i 0).isLt
      have hi1 : (i 1).val < 1024 := (i 1).isLt
      obtain ⟨-, -, -, -, -, -, -, -, -, -, -, -, e60, e61⟩ := idx21 ⟨(i 0).val / 2048, lt_of_lt_of_eq (by omega : (i 0).val / 2048 < 4) N_21.symm⟩
      refine ⟨⟨(i 0).val / 2048, lt_of_lt_of_eq (by omega : (i 0).val / 2048 < 4) N_21.symm⟩, flush21_6 _, ?_⟩
      rw [mem_blk21]
      intro ax
      match ax with
      | ⟨0, _⟩ =>
        show win21_6.index _ (0 : Fin 2) * 2048 ≤ (i 0).val ∧ (i 0).val < win21_6.index _ (0 : Fin 2) * 2048 + 2048
        rw [e60]; show (i 0).val / 2048 * 2048 ≤ (i 0).val ∧ (i 0).val < (i 0).val / 2048 * 2048 + 2048; omega
      | ⟨1, _⟩ =>
        show win21_6.index _ (1 : Fin 2) * 1024 ≤ (i 1).val ∧ (i 1).val < win21_6.index _ (1 : Fin 2) * 1024 + 1024
        rw [e61]; omega
  intro i
  rw [key]

/-! ## Region 22 -/

theorem idx22 : ∀ t : Fin cfg22.N, win22_0.index t (0 : Fin 2) = t.val
    ∧ win22_0.index t (1 : Fin 2) = 0
    ∧ win22_1.index t (0 : Fin 2) = t.val
    ∧ win22_1.index t (1 : Fin 2) = 0
    ∧ win22_2.index t (0 : Fin 2) = 0
    ∧ win22_2.index t (1 : Fin 2) = 0
    ∧ win22_3.index t (0 : Fin 2) = 0
    ∧ win22_3.index t (1 : Fin 2) = 0
    ∧ win22_4.index t (0 : Fin 2) = 0
    ∧ win22_4.index t (1 : Fin 2) = 0
    ∧ win22_5.index t (0 : Fin 2) = 0
    ∧ win22_5.index t (1 : Fin 2) = 0
    ∧ win22_6.index t (0 : Fin 2) = t.val
    ∧ win22_6.index t (1 : Fin 2) = 0 :=
  (by decide +kernel : ∀ t : Fin grid22.N, _)

theorem mem_blk22 (t : Fin cfg22.N) (i : S16384x1024.Idx) :
    i ∈ ((cfg22.win 6).blk t).view.set ↔ ∀ a : Fin 2, win22_6.index t a * S2048x1024.size a ≤ (i a).val ∧ (i a).val < win22_6.index t a * S2048x1024.size a + S2048x1024.size a := by
  show i ∈ ((View.whole main_v336).slice (win22_6.rect t)).set ↔ _
  rw [View.set_slice_whole, Rect.mem_set_unit]
  exact Iff.rfl

theorem read_blk22 (t : Fin cfg22.N) (Gf : ℕ → EReal) (y : ((cfg22.win 6).xblock (cfg22.grid.coords t)).Idx) :
    View.read (Elt Ideal) ((cfg22.win 6).blk t).view (fun i : S16384x1024.Idx => Gf (S16384x1024.rowMajor i).val) y
      = Gf (S16384x1024.rowMajor (((cfg22.win 6).blk t).view.emb y)).val := rfl

theorem region22 (c : Dev nD) {a cf w b th : ℕ → EReal}
    (hC : Rep (S := S16384x512) (V c main_v323) cf) (hS : Rep (S := S16384x1024) (V c main_v322) a)
    (hW1 : WtRep (K := 512) (N := 512) 1024 0 (V c main_v326) w) (hW2 : WtRep (K := 512) (N := 512) 1024 512 (V c main_v329) w)
    (hB : RowRep (N := 512) (V c main_v332) b) (hT : RowRep (N := 512) (V c main_v335) th) :
    Rep (S := S16384x1024) ((dat22 (F := Ideal) V c).arrAt 6 cfg22.N)
      (interleave 512 cf (rowNormalize 512 (fun n => spike ((rowDot 512 512 512 1024 0 cf w n + rowDot 512 512 1024 1024 512 a w n) + colOf 512 b n) (colOf 512 th n)))) := by
  have key : (dat22 (F := Ideal) V c).arrAt 6 cfg22.N
      = (fun i : S16384x1024.Idx => (interleave 512 cf (rowNormalize 512 (fun n => spike ((rowDot 512 512 512 1024 0 cf w n + rowDot 512 512 1024 1024 512 a w n) + colOf 512 b n) (colOf 512 th n)))) (S16384x1024.rowMajor i).val) := by
    refine (dat22 (F := Ideal) V c).arrAt_eq_of_cover 6 _ (fun t _ => ?_) (fun i => ?_)
    · show (cfg22.win 6).cut (grid22.coords t) ((dat22 (F := Ideal) V c).after 6 t) = _
      rw [after22_6]
      unfold out22_6
      simp only [View.ld_unit_zero (S := S2048x512) hz2, View.ld_unit_zero (S := S512x512) hz2, View.ld_unit_zero (S := S1x512) hz2]
      obtain ⟨e00, e01, e10, e11, e20, e21, e30, e31, e40, e41, e50, e51, e60, e61⟩ := idx22 t
      funext j
      obtain ⟨r, o, rfl⟩ : ∃ (r : Fin 2048) (o : Fin 1024), j = ix2 r o := ⟨j 0, j 1, eq_ix2 j⟩
      have hb0 : BlkRep (Mb := 2048) (K := 512) (t.val * 2048) 512 (iblk22 V c 0 t) cf := fun r k => by
        show V c main_v323 (((cfg22.win 0).blk t).view.emb (ix2 r k)) = _
        rw [hC]
        refine congrArg cf ?_
        rw [Shape.rowMajor_val_two]
        show (win22_0.index t (0 : Fin 2) * 2048 + 1 * r.val) * 512 + (win22_0.index t (1 : Fin 2) * 512 + 1 * k.val) = _
        rw [e00, e01]; omega
      have hb1 : BlkRep (Mb := 2048) (K := 512) (t.val * 2048) 1024 (iblk22 V c 1 t) a := fun r k => by
        show V c main_v322 (((cfg22.win 1).blk t).view.emb (ix2 r k)) = _
        rw [hS]
        refine congrArg a ?_
        rw [Shape.rowMajor_val_two]
        show (win22_1.index t (0 : Fin 2) * 2048 + 1 * r.val) * 1024 + (win22_1.index t (1 : Fin 2) * 512 + 1 * k.val) = _
        rw [e10, e11]; omega
      have hb2 : WtRep (K := 512) (N := 512) 1024 0 (iblk22 V c 2 t) w := fun k o => by
        show V c main_v326 (((cfg22.win 2).blk t).view.emb (ix2 k o)) = _
        have e : ((cfg22.win 2).blk t).view.emb (ix2 k o) = ix2 k o := funext fun a => Fin.ext (by
          match a with
          | ⟨0, _⟩ => show win22_2.index t (0 : Fin 2) * 512 + 1 * k.val = k.val; rw [e20]; omega
          | ⟨1, _⟩ => show win22_2.index t (1 : Fin 2) * 512 + 1 * o.val = o.val; rw [e21]; omega)
        rw [e]; exact hW1 k o
      have hb3 : WtRep (K := 512) (N := 512) 1024 512 (iblk22 V c 3 t) w := fun k o => by
        show V c main_v329 (((cfg22.win 3).blk t).view.emb (ix2 k o)) = _
        have e : ((cfg22.win 3).blk t).view.emb (ix2 k o) = ix2 k o := funext fun a => Fin.ext (by
          match a with
          | ⟨0, _⟩ => show win22_3.index t (0 : Fin 2) * 512 + 1 * k.val = k.val; rw [e30]; omega
          | ⟨1, _⟩ => show win22_3.index t (1 : Fin 2) * 512 + 1 * o.val = o.val; rw [e31]; omega)
        rw [e]; exact hW2 k o
      have hb4 : RowRep (N := 512) (iblk22 V c 4 t) b := fun o => by
        show V c main_v332 (((cfg22.win 4).blk t).view.emb (ix2 0 o)) = _
        have e : ((cfg22.win 4).blk t).view.emb (ix2 0 o) = ix2 0 o := funext fun a => Fin.ext (by
          match a with
          | ⟨0, _⟩ => show win22_4.index t (0 : Fin 2) * 1 + 1 * 0 = 0; rw [e40]
          | ⟨1, _⟩ => show win22_4.index t (1 : Fin 2) * 512 + 1 * o.val = o.val; rw [e41]; omega)
        rw [e]; exact hB o
      have hb5 : RowRep (N := 512) (iblk22 V c 5 t) th := fun o => by
        show V c main_v335 (((cfg22.win 5).blk t).view.emb (ix2 0 o)) = _
        have e : ((cfg22.win 5).blk t).view.emb (ix2 0 o) = ix2 0 o := funext fun a => Fin.ext (by
          match a with
          | ⟨0, _⟩ => show win22_5.index t (0 : Fin 2) * 1 + 1 * 0 = 0; rw [e50]
          | ⟨1, _⟩ => show win22_5.index t (1 : Fin 2) * 512 + 1 * o.val = o.val; rw [e51]; omega)
        rw [e]; exact hT o
      refine ((canon_halves (N := 512) (N2 := 1024) rfl _ _ _ _ (pass22 _ hb0) (pay22 _ _ _ _ _ _ hb0 hb1 hb2 hb3 hb4 hb5)) r o).trans ?_
      refine Eq.trans ?_ (read_blk22 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win22_6.index t (0 : Fin 2) * 2048 + 1 * r.val) * 1024 + (win22_6.index t (1 : Fin 2) * 1024 + 1 * o.val)
      rw [e60, e61]; omega
    · have hi0 : (i 0).val < 16384 := (i 0).isLt
      have hi1 : (i 1).val < 1024 := (i 1).isLt
      obtain ⟨-, -, -, -, -, -, -, -, -, -, -, -, e60, e61⟩ := idx22 ⟨(i 0).val / 2048, lt_of_lt_of_eq (by omega : (i 0).val / 2048 < 8) N_22.symm⟩
      refine ⟨⟨(i 0).val / 2048, lt_of_lt_of_eq (by omega : (i 0).val / 2048 < 8) N_22.symm⟩, flush22_6 _, ?_⟩
      rw [mem_blk22]
      intro ax
      match ax with
      | ⟨0, _⟩ =>
        show win22_6.index _ (0 : Fin 2) * 2048 ≤ (i 0).val ∧ (i 0).val < win22_6.index _ (0 : Fin 2) * 2048 + 2048
        rw [e60]; show (i 0).val / 2048 * 2048 ≤ (i 0).val ∧ (i 0).val < (i 0).val / 2048 * 2048 + 2048; omega
      | ⟨1, _⟩ =>
        show win22_6.index _ (1 : Fin 2) * 1024 ≤ (i 1).val ∧ (i 1).val < win22_6.index _ (1 : Fin 2) * 1024 + 1024
        rw [e61]; omega
  intro i
  rw [key]

/-! ## Region 23 -/

theorem idx23 : ∀ t : Fin cfg23.N, win23_0.index t (0 : Fin 2) = t.val
    ∧ win23_0.index t (1 : Fin 2) = 0
    ∧ win23_1.index t (0 : Fin 2) = t.val
    ∧ win23_1.index t (1 : Fin 2) = 0
    ∧ win23_2.index t (0 : Fin 2) = 0
    ∧ win23_2.index t (1 : Fin 2) = 0
    ∧ win23_3.index t (0 : Fin 2) = 0
    ∧ win23_3.index t (1 : Fin 2) = 0
    ∧ win23_4.index t (0 : Fin 2) = 0
    ∧ win23_4.index t (1 : Fin 2) = 0
    ∧ win23_5.index t (0 : Fin 2) = 0
    ∧ win23_5.index t (1 : Fin 2) = 0
    ∧ win23_6.index t (0 : Fin 2) = t.val
    ∧ win23_6.index t (1 : Fin 2) = 0 :=
  (by decide +kernel : ∀ t : Fin grid23.N, _)

theorem mem_blk23 (t : Fin cfg23.N) (i : S32768x1024.Idx) :
    i ∈ ((cfg23.win 6).blk t).view.set ↔ ∀ a : Fin 2, win23_6.index t a * S2048x1024.size a ≤ (i a).val ∧ (i a).val < win23_6.index t a * S2048x1024.size a + S2048x1024.size a := by
  show i ∈ ((View.whole main_v353).slice (win23_6.rect t)).set ↔ _
  rw [View.set_slice_whole, Rect.mem_set_unit]
  exact Iff.rfl

theorem read_blk23 (t : Fin cfg23.N) (Gf : ℕ → EReal) (y : ((cfg23.win 6).xblock (cfg23.grid.coords t)).Idx) :
    View.read (Elt Ideal) ((cfg23.win 6).blk t).view (fun i : S32768x1024.Idx => Gf (S32768x1024.rowMajor i).val) y
      = Gf (S32768x1024.rowMajor (((cfg23.win 6).blk t).view.emb y)).val := rfl

theorem region23 (c : Dev nD) {a cf w b th : ℕ → EReal}
    (hC : Rep (S := S32768x512) (V c main_v340) cf) (hS : Rep (S := S32768x1024) (V c main_v339) a)
    (hW1 : WtRep (K := 512) (N := 512) 1024 0 (V c main_v343) w) (hW2 : WtRep (K := 512) (N := 512) 1024 512 (V c main_v346) w)
    (hB : RowRep (N := 512) (V c main_v349) b) (hT : RowRep (N := 512) (V c main_v352) th) :
    Rep (S := S32768x1024) ((dat23 (F := Ideal) V c).arrAt 6 cfg23.N)
      (interleave 512 cf (rowNormalize 512 (fun n => spike ((rowDot 512 512 512 1024 0 cf w n + rowDot 512 512 1024 1024 512 a w n) + colOf 512 b n) (colOf 512 th n)))) := by
  have key : (dat23 (F := Ideal) V c).arrAt 6 cfg23.N
      = (fun i : S32768x1024.Idx => (interleave 512 cf (rowNormalize 512 (fun n => spike ((rowDot 512 512 512 1024 0 cf w n + rowDot 512 512 1024 1024 512 a w n) + colOf 512 b n) (colOf 512 th n)))) (S32768x1024.rowMajor i).val) := by
    refine (dat23 (F := Ideal) V c).arrAt_eq_of_cover 6 _ (fun t _ => ?_) (fun i => ?_)
    · show (cfg23.win 6).cut (grid23.coords t) ((dat23 (F := Ideal) V c).after 6 t) = _
      rw [after23_6]
      unfold out23_6
      simp only [View.ld_unit_zero (S := S2048x512) hz2, View.ld_unit_zero (S := S512x512) hz2, View.ld_unit_zero (S := S1x512) hz2]
      obtain ⟨e00, e01, e10, e11, e20, e21, e30, e31, e40, e41, e50, e51, e60, e61⟩ := idx23 t
      funext j
      obtain ⟨r, o, rfl⟩ : ∃ (r : Fin 2048) (o : Fin 1024), j = ix2 r o := ⟨j 0, j 1, eq_ix2 j⟩
      have hb0 : BlkRep (Mb := 2048) (K := 512) (t.val * 2048) 512 (iblk23 V c 0 t) cf := fun r k => by
        show V c main_v340 (((cfg23.win 0).blk t).view.emb (ix2 r k)) = _
        rw [hC]
        refine congrArg cf ?_
        rw [Shape.rowMajor_val_two]
        show (win23_0.index t (0 : Fin 2) * 2048 + 1 * r.val) * 512 + (win23_0.index t (1 : Fin 2) * 512 + 1 * k.val) = _
        rw [e00, e01]; omega
      have hb1 : BlkRep (Mb := 2048) (K := 512) (t.val * 2048) 1024 (iblk23 V c 1 t) a := fun r k => by
        show V c main_v339 (((cfg23.win 1).blk t).view.emb (ix2 r k)) = _
        rw [hS]
        refine congrArg a ?_
        rw [Shape.rowMajor_val_two]
        show (win23_1.index t (0 : Fin 2) * 2048 + 1 * r.val) * 1024 + (win23_1.index t (1 : Fin 2) * 512 + 1 * k.val) = _
        rw [e10, e11]; omega
      have hb2 : WtRep (K := 512) (N := 512) 1024 0 (iblk23 V c 2 t) w := fun k o => by
        show V c main_v343 (((cfg23.win 2).blk t).view.emb (ix2 k o)) = _
        have e : ((cfg23.win 2).blk t).view.emb (ix2 k o) = ix2 k o := funext fun a => Fin.ext (by
          match a with
          | ⟨0, _⟩ => show win23_2.index t (0 : Fin 2) * 512 + 1 * k.val = k.val; rw [e20]; omega
          | ⟨1, _⟩ => show win23_2.index t (1 : Fin 2) * 512 + 1 * o.val = o.val; rw [e21]; omega)
        rw [e]; exact hW1 k o
      have hb3 : WtRep (K := 512) (N := 512) 1024 512 (iblk23 V c 3 t) w := fun k o => by
        show V c main_v346 (((cfg23.win 3).blk t).view.emb (ix2 k o)) = _
        have e : ((cfg23.win 3).blk t).view.emb (ix2 k o) = ix2 k o := funext fun a => Fin.ext (by
          match a with
          | ⟨0, _⟩ => show win23_3.index t (0 : Fin 2) * 512 + 1 * k.val = k.val; rw [e30]; omega
          | ⟨1, _⟩ => show win23_3.index t (1 : Fin 2) * 512 + 1 * o.val = o.val; rw [e31]; omega)
        rw [e]; exact hW2 k o
      have hb4 : RowRep (N := 512) (iblk23 V c 4 t) b := fun o => by
        show V c main_v349 (((cfg23.win 4).blk t).view.emb (ix2 0 o)) = _
        have e : ((cfg23.win 4).blk t).view.emb (ix2 0 o) = ix2 0 o := funext fun a => Fin.ext (by
          match a with
          | ⟨0, _⟩ => show win23_4.index t (0 : Fin 2) * 1 + 1 * 0 = 0; rw [e40]
          | ⟨1, _⟩ => show win23_4.index t (1 : Fin 2) * 512 + 1 * o.val = o.val; rw [e41]; omega)
        rw [e]; exact hB o
      have hb5 : RowRep (N := 512) (iblk23 V c 5 t) th := fun o => by
        show V c main_v352 (((cfg23.win 5).blk t).view.emb (ix2 0 o)) = _
        have e : ((cfg23.win 5).blk t).view.emb (ix2 0 o) = ix2 0 o := funext fun a => Fin.ext (by
          match a with
          | ⟨0, _⟩ => show win23_5.index t (0 : Fin 2) * 1 + 1 * 0 = 0; rw [e50]
          | ⟨1, _⟩ => show win23_5.index t (1 : Fin 2) * 512 + 1 * o.val = o.val; rw [e51]; omega)
        rw [e]; exact hT o
      refine ((canon_halves (N := 512) (N2 := 1024) rfl _ _ _ _ (pass23 _ hb0) (pay23 _ _ _ _ _ _ hb0 hb1 hb2 hb3 hb4 hb5)) r o).trans ?_
      refine Eq.trans ?_ (read_blk23 t _ (ix2 r o)).symm
      refine congrArg (interleave 512 cf (rowNormalize 512 (fun n => spike ((rowDot 512 512 512 1024 0 cf w n + rowDot 512 512 1024 1024 512 a w n) + colOf 512 b n) (colOf 512 th n)))) ?_
      rw [Shape.rowMajor_val_two]
      show _ = (win23_6.index t (0 : Fin 2) * 2048 + 1 * r.val) * 1024 + (win23_6.index t (1 : Fin 2) * 1024 + 1 * o.val)
      rw [e60, e61]; omega
    · have hi0 : (i 0).val < 32768 := (i 0).isLt
      have hi1 : (i 1).val < 1024 := (i 1).isLt
      obtain ⟨-, -, -, -, -, -, -, -, -, -, -, -, e60, e61⟩ := idx23 ⟨(i 0).val / 2048, lt_of_lt_of_eq (by omega : (i 0).val / 2048 < 16) N_23.symm⟩
      refine ⟨⟨(i 0).val / 2048, lt_of_lt_of_eq (by omega : (i 0).val / 2048 < 16) N_23.symm⟩, flush23_6 _, ?_⟩
      rw [mem_blk23]
      intro ax
      match ax with
      | ⟨0, _⟩ =>
        show win23_6.index _ (0 : Fin 2) * 2048 ≤ (i 0).val ∧ (i 0).val < win23_6.index _ (0 : Fin 2) * 2048 + 2048
        rw [e60]; show (i 0).val / 2048 * 2048 ≤ (i 0).val ∧ (i 0).val < (i 0).val / 2048 * 2048 + 2048; omega
      | ⟨1, _⟩ =>
        show win23_6.index _ (1 : Fin 2) * 1024 ≤ (i 1).val ∧ (i 1).val < win23_6.index _ (1 : Fin 2) * 1024 + 1024
        rw [e61]; omega
  intro i
  rw [key]

end Cert.KernelIdeal.RegionDown

end
-- ==== Proof.RegionLeaf.lean ====
/-
  The leaf region leaves in its output array the two-half spiking layer of (input rows, context rows).
-/
import proofs.«113582_j30116310680263_2_alg».proof.Proof.Gen.KernelIdeal.Frame
import Idealize.ShloMosaic.Lib.Pipeline.Value
import proofs.«113582_j30116310680263_2_alg».proof.Proof.LibRowMajor
import proofs.«113582_j30116310680263_2_alg».proof.Proof.LibSpikeLayer
import proofs.«113582_j30116310680263_2_alg».proof.Proof.LibSpikeBlock
import proofs.«113582_j30116310680263_2_alg».proof.Proof.BodyValue

set_option maxRecDepth 16384

noncomputable section

namespace Cert.KernelIdeal.RegionLeaf

open Cert.KernelIdeal Cert.KernelIdeal.Gen Idealize.ShloMosaic Idealize.ShloMosaic.ValueIdx Idealize.ShloMosaic.TcCoe Idealize.SL.Sem
open Cert.Lib.RowMajor Cert.Lib.SpikeLayer Cert.Lib.SpikeBlock Cert.KernelIdeal.BodyValue
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## Region 24 -/

theorem idx24 : ∀ t : Fin cfg24.N, win24_0.index t (0 : Fin 2) = t.val
    ∧ win24_0.index t (1 : Fin 2) = 0
    ∧ win24_1.index t (0 : Fin 2) = t.val
    ∧ win24_1.index t (1 : Fin 2) = 0
    ∧ win24_2.index t (0 : Fin 2) = 0
    ∧ win24_2.index t (1 : Fin 2) = 0
    ∧ win24_3.index t (0 : Fin 2) = 0
    ∧ win24_3.index t (1 : Fin 2) = 0
    ∧ win24_4.index t (0 : Fin 2) = 0
    ∧ win24_4.index t (1 : Fin 2) = 0
    ∧ win24_5.index t (0 : Fin 2) = 0
    ∧ win24_5.index t (1 : Fin 2) = 0
    ∧ win24_6.index t (0 : Fin 2) = t.val
    ∧ win24_6.index t (1 : Fin 2) = 0 :=
  (by decide +kernel : ∀ t : Fin grid24.N, _)

theorem mem_blk24 (t : Fin cfg24.N) (i : S65536x512.Idx) :
    i ∈ ((cfg24.win 6).blk t).view.set ↔ ∀ a : Fin 2, win24_6.index t a * S2048x512.size a ≤ (i a).val ∧ (i a).val < win24_6.index t a * S2048x512.size a + S2048x512.size a := by
  show i ∈ ((View.whole main_v361).slice (win24_6.rect t)).set ↔ _
  rw [View.set_slice_whole, Rect.mem_set_unit]
  exact Iff.rfl

theorem read_blk24 (t : Fin cfg24.N) (Gf : ℕ → EReal) (y : ((cfg24.win 6).xblock (cfg24.grid.coords t)).Idx) :
    View.read (Elt Ideal) ((cfg24.win 6).blk t).view (fun i : S65536x512.Idx => Gf (S65536x512.rowMajor i).val) y
      = Gf (S65536x512.rowMajor (((cfg24.win 6).blk t).view.emb y)).val := rfl

theorem region24 (c : Dev nD) {a cf w b th : ℕ → EReal}
    (hA : Rep (S := S65536x512) (V c main_v355) a) (hC : Rep (S := S65536x512) (V c main_v356) cf)
    (hW1 : WtRep (K := 512) (N := 512) 1024 0 (V c main_v357) w) (hW2 : WtRep (K := 512) (N := 512) 1024 512 (V c main_v358) w)
    (hB : RowRep (N := 512) (V c main_v359) b) (hT : RowRep (N := 512) (V c main_v360) th) :
    Rep (S := S65536x512) ((dat24 (F := Ideal) V c).arrAt 6 cfg24.N)
      (rowNormalize 512 (fun n => spike ((rowDot 512 512 512 1024 0 a w n + rowDot 512 512 512 1024 512 cf w n) + colOf 512 b n) (colOf 512 th n))) := by
  have key : (dat24 (F := Ideal) V c).arrAt 6 cfg24.N
      = (fun i : S65536x512.Idx => (rowNormalize 512 (fun n => spike ((rowDot 512 512 512 1024 0 a w n + rowDot 512 512 512 1024 512 cf w n) + colOf 512 b n) (colOf 512 th n))) (S65536x512.rowMajor i).val) := by
    refine (dat24 (F := Ideal) V c).arrAt_eq_of_cover 6 _ (fun t _ => ?_) (fun i => ?_)
    · show (cfg24.win 6).cut (grid24.coords t) ((dat24 (F := Ideal) V c).after 6 t) = _
      rw [after24_6]
      unfold out24_6
      rw [View.canon_unit_zero hz2]
      simp only [View.ld_unit_zero (S := S2048x512) hz2, View.ld_unit_zero (S := S512x512) hz2, View.ld_unit_zero (S := S1x512) hz2]
      obtain ⟨e00, e01, e10, e11, e20, e21, e30, e31, e40, e41, e50, e51, e60, e61⟩ := idx24 t
      funext j
      obtain ⟨r, o, rfl⟩ : ∃ (r : Fin 2048) (o : Fin 512), j = ix2 r o := ⟨j 0, j 1, eq_ix2 j⟩
      have hb0 : BlkRep (Mb := 2048) (K := 512) (t.val * 2048) 512 (iblk24 V c 0 t) a := fun r k => by
        show V c main_v355 (((cfg24.win 0).blk t).view.emb (ix2 r k)) = _
        rw [hA]
        refine congrArg a ?_
        rw [Shape.rowMajor_val_two]
        show (win24_0.index t (0 : Fin 2) * 2048 + 1 * r.val) * 512 + (win24_0.index t (1 : Fin 2) * 512 + 1 * k.val) = _
        rw [e00, e01]; omega
      have hb1 : BlkRep (Mb := 2048) (K := 512) (t.val * 2048) 512 (iblk24 V c 1 t) cf := fun r k => by
        show V c main_v356 (((cfg24.win 1).blk t).view.emb (ix2 r k)) = _
        rw [hC]
        refine congrArg cf ?_
        rw [Shape.rowMajor_val_two]
        show (win24_1.index t (0 : Fin 2) * 2048 + 1 * r.val) * 512 + (win24_1.index t (1 : Fin 2) * 512 + 1 * k.val) = _
        rw [e10, e11]; omega
      have hb2 : WtRep (K := 512) (N := 512) 1024 0 (iblk24 V c 2 t) w := fun k o => by
        show V c main_v357 (((cfg24.win 2).blk t).view.emb (ix2 k o)) = _
        have e : ((cfg24.win 2).blk t).view.emb (ix2 k o) = ix2 k o := funext fun a => Fin.ext (by
          match a with
          | ⟨0, _⟩ => show win24_2.index t (0 : Fin 2) * 512 + 1 * k.val = k.val; rw [e20]; omega
          | ⟨1, _⟩ => show win24_2.index t (1 : Fin 2) * 512 + 1 * o.val = o.val; rw [e21]; omega)
        rw [e]; exact hW1 k o
      have hb3 : WtRep (K := 512) (N := 512) 1024 512 (iblk24 V c 3 t) w := fun k o => by
        show V c main_v358 (((cfg24.win 3).blk t).view.emb (ix2 k o)) = _
        have e : ((cfg24.win 3).blk t).view.emb (ix2 k o) = ix2 k o := funext fun a => Fin.ext (by
          match a with
          | ⟨0, _⟩ => show win24_3.index t (0 : Fin 2) * 512 + 1 * k.val = k.val; rw [e30]; omega
          | ⟨1, _⟩ => show win24_3.index t (1 : Fin 2) * 512 + 1 * o.val = o.val; rw [e31]; omega)
        rw [e]; exact hW2 k o
      have hb4 : RowRep (N := 512) (iblk24 V c 4 t) b := fun o => by
        show V c main_v359 (((cfg24.win 4).blk t).view.emb (ix2 0 o)) = _
        have e : ((cfg24.win 4).blk t).view.emb (ix2 0 o) = ix2 0 o := funext fun a => Fin.ext (by
          match a with
          | ⟨0, _⟩ => show win24_4.index t (0 : Fin 2) * 1 + 1 * 0 = 0; rw [e40]
          | ⟨1, _⟩ => show win24_4.index t (1 : Fin 2) * 512 + 1 * o.val = o.val; rw [e41]; omega)
        rw [e]; exact hB o
      have hb5 : RowRep (N := 512) (iblk24 V c 5 t) th := fun o => by
        show V c main_v360 (((cfg24.win 5).blk t).view.emb (ix2 0 o)) = _
        have e : ((cfg24.win 5).blk t).view.emb (ix2 0 o) = ix2 0 o := funext fun a => Fin.ext (by
          match a with
          | ⟨0, _⟩ => show win24_5.index t (0 : Fin 2) * 1 + 1 * 0 = 0; rw [e50]
          | ⟨1, _⟩ => show win24_5.index t (1 : Fin 2) * 512 + 1 * o.val = o.val; rw [e51]; omega)
        rw [e]; exact hT o
      refine ((pay24 _ _ _ _ _ _ hb0 hb1 hb2 hb3 hb4 hb5) r o).trans ?_
      refine Eq.trans ?_ (read_blk24 t _ (ix2 r o)).symm
      refine congrArg (rowNormalize 512 (fun n => spike ((rowDot 512 512 512 1024 0 a w n + rowDot 512 512 512 1024 512 cf w n) + colOf 512 b n) (colOf 512 th n))) ?_
      rw [Shape.rowMajor_val_two]
      show _ = (win24_6.index t (0 : Fin 2) * 2048 + 1 * r.val) * 512 + (win24_6.index t (1 : Fin 2) * 512 + 1 * o.val)
      rw [e60, e61]; omega
    · have hi0 : (i 0).val < 65536 := (i 0).isLt
      have hi1 : (i 1).val < 512 := (i 1).isLt
      obtain ⟨-, -, -, -, -, -, -, -, -, -, -, -, e60, e61⟩ := idx24 ⟨(i 0).val / 2048, lt_of_lt_of_eq (by omega : (i 0).val / 2048 < 32) N_24.symm⟩
      refine ⟨⟨(i 0).val / 2048, lt_of_lt_of_eq (by omega : (i 0).val / 2048 < 32) N_24.symm⟩, flush24_6 _, ?_⟩
      rw [mem_blk24]
      intro ax
      match ax with
      | ⟨0, _⟩ =>
        show win24_6.index _ (0 : Fin 2) * 2048 ≤ (i 0).val ∧ (i 0).val < win24_6.index _ (0 : Fin 2) * 2048 + 2048
        rw [e60]; show (i 0).val / 2048 * 2048 ≤ (i 0).val ∧ (i 0).val < (i 0).val / 2048 * 2048 + 2048; omega
      | ⟨1, _⟩ =>
        show win24_6.index _ (1 : Fin 2) * 512 ≤ (i 1).val ∧ (i 1).val < win24_6.index _ (1 : Fin 2) * 512 + 512
        rw [e61]; omega
  intro i
  rw [key]

end Cert.KernelIdeal.RegionLeaf

end
-- ==== Proof.KernelUp.lean ====
/-
  The idealized kernel's up sweep: at every boundary of @main's fold, the arrays a region is about to read are the specification's tables (read through row-major positions), and the array it leaves is the next summary.
-/
import proofs.«113582_j30116310680263_2_alg».proof.Proof.Gen.KernelIdeal.Frame
import Idealize.ShloMosaic.Lib.StableHlo.Run
import proofs.«113582_j30116310680263_2_alg».proof.Proof.LibRowMajor
import proofs.«113582_j30116310680263_2_alg».proof.Proof.LibSpikeLayer
import proofs.«113582_j30116310680263_2_alg».proof.Proof.LibSpikeBlock
import proofs.«113582_j30116310680263_2_alg».proof.Proof.TreeSpec
import proofs.«113582_j30116310680263_2_alg».proof.Proof.Persist
import proofs.«113582_j30116310680263_2_alg».proof.Proof.RegionUp

set_option maxRecDepth 16384

noncomputable section

namespace Cert.KernelIdeal.KValue

open Cert.KernelIdeal Cert.KernelIdeal.Gen Idealize.ShloMosaic Idealize.ShloMosaic.ValueIdx Idealize.ShloMosaic.TcCoe Idealize.SL.Sem Idealize.ShloMosaic.StableHlo
open Cert.Lib.RowMajor Cert.Lib.SpikeLayer Cert.Lib.SpikeBlock Cert.TreeSpec Cert.KernelIdeal.Keep

variable (m : (ℓ : Loc nD τ sig) → Buf (Elt Ideal) ℓ) (ρ : Dev nD → PrngReg)

/-- The argument arrays, as launched, by row-major position. -/
def kTables (c : Dev nD) : Tables where
  x := flatOf (S := S16x4096x512) (m ((c : Thread nD τ).loc main_arg0))
  uW := flatOf (S := S12x512x1024) (m ((c : Thread nD τ).loc main_arg1))
  ub := flatOf (S := S12x512) (m ((c : Thread nD τ).loc main_arg2))
  ut := flatOf (S := S12x512) (m ((c : Thread nD τ).loc main_arg3))
  dW := flatOf (S := S12x512x1024) (m ((c : Thread nD τ).loc main_arg4))
  db := flatOf (S := S12x512) (m ((c : Thread nD τ).loc main_arg5))
  dt := flatOf (S := S12x512) (m ((c : Thread nD τ).loc main_arg6))
  lW := flatOf (S := S512x1024) (m ((c : Thread nD τ).loc main_arg7))
  lb := flatOf (S := S512) (m ((c : Thread nD τ).loc main_arg8))
  lt := flatOf (S := S512) (m ((c : Thread nD τ).loc main_arg9))

theorem rep_of_eq {S : Shape} {A B : S.Idx → EReal} {f : ℕ → EReal} (e : A = B) (h : Rep B f) : Rep A f := e ▸ h

/-! ## The transposed weight stacks, computed once before the first region -/

theorem v1_at1 (c : Dev nD) : (W1 m ρ c (Proc.devRef .tc main_v1) : S12x1024x512.Idx → EReal)
    = transpose S12x1024x512 [0, 2, 1] (truncf (F := Ideal) (φ := .f32) .bf16 (m ((c : Thread nD τ).loc main_arg1) : S12x512x1024.Idx → EReal) bitsLt_bf16_f32) transposes_S12x512x1024_S12x1024x512_0_2_1 := by
  show StableHlo.after hostOps0 (W0 m ρ c) (Proc.devRef .tc main_v1) = _
  after_results

theorem v3_at1 (c : Dev nD) : (W1 m ρ c (Proc.devRef .tc main_v3) : S12x1024x512.Idx → EReal)
    = transpose S12x1024x512 [0, 2, 1] (truncf (F := Ideal) (φ := .f32) .bf16 (m ((c : Thread nD τ).loc main_arg4) : S12x512x1024.Idx → EReal) bitsLt_bf16_f32) transposes_S12x512x1024_S12x1024x512_0_2_1 := by
  show StableHlo.after hostOps0 (W0 m ρ c) (Proc.devRef .tc main_v3) = _
  after_results

theorem v5_at1 (c : Dev nD) : (W1 m ρ c (Proc.devRef .tc main_v5) : S1024x512.Idx → EReal)
    = transpose S1024x512 [1, 0] (truncf (F := Ideal) (φ := .f32) .bf16 (m ((c : Thread nD τ).loc main_arg7) : S512x1024.Idx → EReal) bitsLt_bf16_f32) transposes_S512x1024_S1024x512_1_0 := by
  show StableHlo.after hostOps0 (W0 m ρ c) (Proc.devRef .tc main_v5) = _
  after_results

/-! ## The argument arrays at the boundaries where a stretch reads them -/
theorem arg2_at2 (c : Dev nD) : W2 m ρ c (Proc.devRef .tc main_arg2) = m ((c : Thread nD τ).loc main_arg2) :=
  (keepTo2 m ρ c main_arg2 (by decide)).trans (stepH0 m ρ c main_arg2 (by decide))
theorem arg3_at2 (c : Dev nD) : W2 m ρ c (Proc.devRef .tc main_arg3) = m ((c : Thread nD τ).loc main_arg3) :=
  (keepTo2 m ρ c main_arg3 (by decide)).trans (stepH0 m ρ c main_arg3 (by decide))
theorem arg2_at4 (c : Dev nD) : W4 m ρ c (Proc.devRef .tc main_arg2) = m ((c : Thread nD τ).loc main_arg2) :=
  (keepTo4 m ρ c main_arg2 (by decide)).trans (stepH0 m ρ c main_arg2 (by decide))
theorem arg3_at4 (c : Dev nD) : W4 m ρ c (Proc.devRef .tc main_arg3) = m ((c : Thread nD τ).loc main_arg3) :=
  (keepTo4 m ρ c main_arg3 (by decide)).trans (stepH0 m ρ c main_arg3 (by decide))
theorem arg2_at6 (c : Dev nD) : W6 m ρ c (Proc.devRef .tc main_arg2) = m ((c : Thread nD τ).loc main_arg2) :=
  (keepTo6 m ρ c main_arg2 (by decide)).trans (stepH0 m ρ c main_arg2 (by decide))
theorem arg3_at6 (c : Dev nD) : W6 m ρ c (Proc.devRef .tc main_arg3) = m ((c : Thread nD τ).loc main_arg3) :=
  (keepTo6 m ρ c main_arg3 (by decide)).trans (stepH0 m ρ c main_arg3 (by decide))
theorem arg2_at8 (c : Dev nD) : W8 m ρ c (Proc.devRef .tc main_arg2) = m ((c : Thread nD τ).loc main_arg2) :=
  (keepTo8 m ρ c main_arg2 (by decide)).trans (stepH0 m ρ c main_arg2 (by decide))
theorem arg3_at8 (c : Dev nD) : W8 m ρ c (Proc.devRef .tc main_arg3) = m ((c : Thread nD τ).loc main_arg3) :=
  (keepTo8 m ρ c main_arg3 (by decide)).trans (stepH0 m ρ c main_arg3 (by decide))
theorem arg2_at10 (c : Dev nD) : W10 m ρ c (Proc.devRef .tc main_arg2) = m ((c : Thread nD τ).loc main_arg2) :=
  (keepTo10 m ρ c main_arg2 (by decide)).trans (stepH0 m ρ c main_arg2 (by decide))
theorem arg3_at10 (c : Dev nD) : W10 m ρ c (Proc.devRef .tc main_arg3) = m ((c : Thread nD τ).loc main_arg3) :=
  (keepTo10 m ρ c main_arg3 (by decide)).trans (stepH0 m ρ c main_arg3 (by decide))
theorem arg2_at12 (c : Dev nD) : W12 m ρ c (Proc.devRef .tc main_arg2) = m ((c : Thread nD τ).loc main_arg2) :=
  (keepTo12 m ρ c main_arg2 (by decide)).trans (stepH0 m ρ c main_arg2 (by decide))
theorem arg3_at12 (c : Dev nD) : W12 m ρ c (Proc.devRef .tc main_arg3) = m ((c : Thread nD τ).loc main_arg3) :=
  (keepTo12 m ρ c main_arg3 (by decide)).trans (stepH0 m ρ c main_arg3 (by decide))
theorem arg2_at14 (c : Dev nD) : W14 m ρ c (Proc.devRef .tc main_arg2) = m ((c : Thread nD τ).loc main_arg2) :=
  (keepTo14 m ρ c main_arg2 (by decide)).trans (stepH0 m ρ c main_arg2 (by decide))
theorem arg3_at14 (c : Dev nD) : W14 m ρ c (Proc.devRef .tc main_arg3) = m ((c : Thread nD τ).loc main_arg3) :=
  (keepTo14 m ρ c main_arg3 (by decide)).trans (stepH0 m ρ c main_arg3 (by decide))
theorem arg2_at16 (c : Dev nD) : W16 m ρ c (Proc.devRef .tc main_arg2) = m ((c : Thread nD τ).loc main_arg2) :=
  (keepTo16 m ρ c main_arg2 (by decide)).trans (stepH0 m ρ c main_arg2 (by decide))
theorem arg3_at16 (c : Dev nD) : W16 m ρ c (Proc.devRef .tc main_arg3) = m ((c : Thread nD τ).loc main_arg3) :=
  (keepTo16 m ρ c main_arg3 (by decide)).trans (stepH0 m ρ c main_arg3 (by decide))
theorem arg2_at18 (c : Dev nD) : W18 m ρ c (Proc.devRef .tc main_arg2) = m ((c : Thread nD τ).loc main_arg2) :=
  (keepTo18 m ρ c main_arg2 (by decide)).trans (stepH0 m ρ c main_arg2 (by decide))
theorem arg3_at18 (c : Dev nD) : W18 m ρ c (Proc.devRef .tc main_arg3) = m ((c : Thread nD τ).loc main_arg3) :=
  (keepTo18 m ρ c main_arg3 (by decide)).trans (stepH0 m ρ c main_arg3 (by decide))
theorem arg2_at20 (c : Dev nD) : W20 m ρ c (Proc.devRef .tc main_arg2) = m ((c : Thread nD τ).loc main_arg2) :=
  (keepTo20 m ρ c main_arg2 (by decide)).trans (stepH0 m ρ c main_arg2 (by decide))
theorem arg3_at20 (c : Dev nD) : W20 m ρ c (Proc.devRef .tc main_arg3) = m ((c : Thread nD τ).loc main_arg3) :=
  (keepTo20 m ρ c main_arg3 (by decide)).trans (stepH0 m ρ c main_arg3 (by decide))
theorem arg5_at24 (c : Dev nD) : W24 m ρ c (Proc.devRef .tc main_arg5) = m ((c : Thread nD τ).loc main_arg5) :=
  (keepTo24 m ρ c main_arg5 (by decide)).trans (stepH0 m ρ c main_arg5 (by decide))
theorem arg6_at24 (c : Dev nD) : W24 m ρ c (Proc.devRef .tc main_arg6) = m ((c : Thread nD τ).loc main_arg6) :=
  (keepTo24 m ρ c main_arg6 (by decide)).trans (stepH0 m ρ c main_arg6 (by decide))
theorem arg5_at26 (c : Dev nD) : W26 m ρ c (Proc.devRef .tc main_arg5) = m ((c : Thread nD τ).loc main_arg5) :=
  (keepTo26 m ρ c main_arg5 (by decide)).trans (stepH0 m ρ c main_arg5 (by decide))
theorem arg6_at26 (c : Dev nD) : W26 m ρ c (Proc.devRef .tc main_arg6) = m ((c : Thread nD τ).loc main_arg6) :=
  (keepTo26 m ρ c main_arg6 (by decide)).trans (stepH0 m ρ c main_arg6 (by decide))
theorem arg5_at28 (c : Dev nD) : W28 m ρ c (Proc.devRef .tc main_arg5) = m ((c : Thread nD τ).loc main_arg5) :=
  (keepTo28 m ρ c main_arg5 (by decide)).trans (stepH0 m ρ c main_arg5 (by decide))
theorem arg6_at28 (c : Dev nD) : W28 m ρ c (Proc.devRef .tc main_arg6) = m ((c : Thread nD τ).loc main_arg6) :=
  (keepTo28 m ρ c main_arg6 (by decide)).trans (stepH0 m ρ c main_arg6 (by decide))
theorem arg5_at30 (c : Dev nD) : W30 m ρ c (Proc.devRef .tc main_arg5) = m ((c : Thread nD τ).loc main_arg5) :=
  (keepTo30 m ρ c main_arg5 (by decide)).trans (stepH0 m ρ c main_arg5 (by decide))
theorem arg6_at30 (c : Dev nD) : W30 m ρ c (Proc.devRef .tc main_arg6) = m ((c : Thread nD τ).loc main_arg6) :=
  (keepTo30 m ρ c main_arg6 (by decide)).trans (stepH0 m ρ c main_arg6 (by decide))
theorem arg5_at32 (c : Dev nD) : W32 m ρ c (Proc.devRef .tc main_arg5) = m ((c : Thread nD τ).loc main_arg5) :=
  (keepTo32 m ρ c main_arg5 (by decide)).trans (stepH0 m ρ c main_arg5 (by decide))
theorem arg6_at32 (c : Dev nD) : W32 m ρ c (Proc.devRef .tc main_arg6) = m ((c : Thread nD τ).loc main_arg6) :=
  (keepTo32 m ρ c main_arg6 (by decide)).trans (stepH0 m ρ c main_arg6 (by decide))
theorem arg5_at34 (c : Dev nD) : W34 m ρ c (Proc.devRef .tc main_arg5) = m ((c : Thread nD τ).loc main_arg5) :=
  (keepTo34 m ρ c main_arg5 (by decide)).trans (stepH0 m ρ c main_arg5 (by decide))
theorem arg6_at34 (c : Dev nD) : W34 m ρ c (Proc.devRef .tc main_arg6) = m ((c : Thread nD τ).loc main_arg6) :=
  (keepTo34 m ρ c main_arg6 (by decide)).trans (stepH0 m ρ c main_arg6 (by decide))
theorem arg5_at36 (c : Dev nD) : W36 m ρ c (Proc.devRef .tc main_arg5) = m ((c : Thread nD τ).loc main_arg5) :=
  (keepTo36 m ρ c main_arg5 (by decide)).trans (stepH0 m ρ c main_arg5 (by decide))
theorem arg6_at36 (c : Dev nD) : W36 m ρ c (Proc.devRef .tc main_arg6) = m ((c : Thread nD τ).loc main_arg6) :=
  (keepTo36 m ρ c main_arg6 (by decide)).trans (stepH0 m ρ c main_arg6 (by decide))
theorem arg5_at38 (c : Dev nD) : W38 m ρ c (Proc.devRef .tc main_arg5) = m ((c : Thread nD τ).loc main_arg5) :=
  (keepTo38 m ρ c main_arg5 (by decide)).trans (stepH0 m ρ c main_arg5 (by decide))
theorem arg6_at38 (c : Dev nD) : W38 m ρ c (Proc.devRef .tc main_arg6) = m ((c : Thread nD τ).loc main_arg6) :=
  (keepTo38 m ρ c main_arg6 (by decide)).trans (stepH0 m ρ c main_arg6 (by decide))
theorem arg5_at40 (c : Dev nD) : W40 m ρ c (Proc.devRef .tc main_arg5) = m ((c : Thread nD τ).loc main_arg5) :=
  (keepTo40 m ρ c main_arg5 (by decide)).trans (stepH0 m ρ c main_arg5 (by decide))
theorem arg6_at40 (c : Dev nD) : W40 m ρ c (Proc.devRef .tc main_arg6) = m ((c : Thread nD τ).loc main_arg6) :=
  (keepTo40 m ρ c main_arg6 (by decide)).trans (stepH0 m ρ c main_arg6 (by decide))
theorem arg5_at42 (c : Dev nD) : W42 m ρ c (Proc.devRef .tc main_arg5) = m ((c : Thread nD τ).loc main_arg5) :=
  (keepTo42 m ρ c main_arg5 (by decide)).trans (stepH0 m ρ c main_arg5 (by decide))
theorem arg6_at42 (c : Dev nD) : W42 m ρ c (Proc.devRef .tc main_arg6) = m ((c : Thread nD τ).loc main_arg6) :=
  (keepTo42 m ρ c main_arg6 (by decide)).trans (stepH0 m ρ c main_arg6 (by decide))
theorem arg5_at44 (c : Dev nD) : W44 m ρ c (Proc.devRef .tc main_arg5) = m ((c : Thread nD τ).loc main_arg5) :=
  (keepTo44 m ρ c main_arg5 (by decide)).trans (stepH0 m ρ c main_arg5 (by decide))
theorem arg6_at44 (c : Dev nD) : W44 m ρ c (Proc.devRef .tc main_arg6) = m ((c : Thread nD τ).loc main_arg6) :=
  (keepTo44 m ρ c main_arg6 (by decide)).trans (stepH0 m ρ c main_arg6 (by decide))
theorem arg5_at46 (c : Dev nD) : W46 m ρ c (Proc.devRef .tc main_arg5) = m ((c : Thread nD τ).loc main_arg5) :=
  (keepTo46 m ρ c main_arg5 (by decide)).trans (stepH0 m ρ c main_arg5 (by decide))
theorem arg6_at46 (c : Dev nD) : W46 m ρ c (Proc.devRef .tc main_arg6) = m ((c : Thread nD τ).loc main_arg6) :=
  (keepTo46 m ρ c main_arg6 (by decide)).trans (stepH0 m ρ c main_arg6 (by decide))
theorem arg0_at46 (c : Dev nD) : W46 m ρ c (Proc.devRef .tc main_arg0) = m ((c : Thread nD τ).loc main_arg0) :=
  (keepTo46 m ρ c main_arg0 (by decide)).trans (stepH0 m ρ c main_arg0 (by decide))
theorem arg0_at48 (c : Dev nD) : W48 m ρ c (Proc.devRef .tc main_arg0) = m ((c : Thread nD τ).loc main_arg0) :=
  (keepTo48 m ρ c main_arg0 (by decide)).trans (stepH0 m ρ c main_arg0 (by decide))
theorem arg8_at48 (c : Dev nD) : W48 m ρ c (Proc.devRef .tc main_arg8) = m ((c : Thread nD τ).loc main_arg8) :=
  (keepTo48 m ρ c main_arg8 (by decide)).trans (stepH0 m ρ c main_arg8 (by decide))
theorem arg9_at48 (c : Dev nD) : W48 m ρ c (Proc.devRef .tc main_arg9) = m ((c : Thread nD τ).loc main_arg9) :=
  (keepTo48 m ρ c main_arg9 (by decide)).trans (stepH0 m ρ c main_arg9 (by decide))

/-! ## The up sweep -/

theorem act0 (c : Dev nD) : Rep (S := S32768x1024) (V1 m ρ c main_v7) (s0 (kTables m c)) := by
  show Rep (S := S32768x1024) (StableHlo.after hostOps0 (W0 m ρ c) (Proc.devRef .tc main_v7)) _
  after_results
  exact rep_shapeCast (rep_shapeCast (rep_flatOf _) _) _

theorem wt0 (c : Dev nD) : WtRep (K := 1024) (N := 512) 1024 0 (V1 m ρ c main_v15) (fun j => (kTables m c).uW (0 * (512 * 1024) + j)) := by
  show WtRep (K := 1024) (N := 512) 1024 0 (StableHlo.after hostOps0 (W0 m ρ c) (Proc.devRef .tc main_v15)) _
  after_results
  exact wt_of_stack (rep_flatOf _) 0 (by omega) _ _ _ _

theorem bias0 (c : Dev nD) : RowRep (N := 512) (V1 m ρ c main_v10) (fun j => (kTables m c).ub (0 * 512 + j)) := by
  show RowRep (N := 512) (StableHlo.after hostOps0 (W0 m ρ c) (Proc.devRef .tc main_v10)) _
  after_results
  exact rowRep_of_rep (rep_shapeCast (rep_shapeCast (rep_slice2 (rep_flatOf _) 0 (by omega) _) _) _)

theorem thr0 (c : Dev nD) : RowRep (N := 512) (V1 m ρ c main_v13) (fun j => (kTables m c).ut (0 * 512 + j)) := by
  show RowRep (N := 512) (StableHlo.after hostOps0 (W0 m ρ c) (Proc.devRef .tc main_v13)) _
  after_results
  exact rowRep_of_rep (rep_shapeCast (rep_shapeCast (rep_slice2 (rep_flatOf _) 0 (by omega) _) _) _)

/-- Region 0 leaves summary 1. -/
theorem kS1 (c : Dev nD) : Rep (S := S32768x512) (V2 m ρ c main_v16) (s1 (kTables m c)) := by
  have h := RegionUp.region0 (V1 m ρ) c (a := s0 (kTables m c)) (cf := fun _ => 0) (act0 m ρ c) (wt0 m ρ c) (bias0 m ρ c) (thr0 m ρ c)
  exact fun i => (congrFun (W2_arr m ρ c 4) i).trans (h i)

/-- Summary 1 in its [16, 2048, 512] form, as stretch 1 makes it. -/
theorem sum3_1_at3 (c : Dev nD) : Rep (S := S16x2048x512) (W3 m ρ c (Proc.devRef .tc main_v17)) (s1 (kTables m c)) := by
  show Rep (S := S16x2048x512) (StableHlo.after hostOps1 (W2 m ρ c) (Proc.devRef .tc main_v17)) _
  after_results
  exact rep_shapeCast (kS1 m ρ c) _

theorem act1 (c : Dev nD) : Rep (S := S16384x1024) (V3 m ρ c main_v19) (s1 (kTables m c)) := by
  show Rep (S := S16384x1024) (StableHlo.after hostOps1 (W2 m ρ c) (Proc.devRef .tc main_v19)) _
  after_results
  exact rep_shapeCast (rep_shapeCast (rep_shapeCast (kS1 m ρ c) _) _) _

theorem wt1 (c : Dev nD) : WtRep (K := 1024) (N := 512) 1024 0 (V3 m ρ c main_v27) (fun j => (kTables m c).uW (1 * (512 * 1024) + j)) := by
  show WtRep (K := 1024) (N := 512) 1024 0 (StableHlo.after hostOps1 (W2 m ρ c) (Proc.devRef .tc main_v27)) _
  after_results
  rw [keepTo2 m ρ c main_v1 (by decide), v1_at1]
  exact wt_of_stack (rep_flatOf _) 1 (by omega) _ _ _ _

theorem bias1 (c : Dev nD) : RowRep (N := 512) (V3 m ρ c main_v22) (fun j => (kTables m c).ub (1 * 512 + j)) := by
  show RowRep (N := 512) (StableHlo.after hostOps1 (W2 m ρ c) (Proc.devRef .tc main_v22)) _
  after_results
  rw [arg2_at2]
  exact rowRep_of_rep (rep_shapeCast (rep_shapeCast (rep_slice2 (rep_flatOf _) 1 (by omega) _) _) _)

theorem thr1 (c : Dev nD) : RowRep (N := 512) (V3 m ρ c main_v25) (fun j => (kTables m c).ut (1 * 512 + j)) := by
  show RowRep (N := 512) (StableHlo.after hostOps1 (W2 m ρ c) (Proc.devRef .tc main_v25)) _
  after_results
  rw [arg3_at2]
  exact rowRep_of_rep (rep_shapeCast (rep_shapeCast (rep_slice2 (rep_flatOf _) 1 (by omega) _) _) _)

/-- Region 1 leaves summary 2. -/
theorem kS2 (c : Dev nD) : Rep (S := S16384x512) (V4 m ρ c main_v28) (s2 (kTables m c)) := by
  have h := RegionUp.region1 (V3 m ρ) c (a := s1 (kTables m c)) (cf := fun _ => 0) (act1 m ρ c) (wt1 m ρ c) (bias1 m ρ c) (thr1 m ρ c)
  exact fun i => (congrFun (W4_arr m ρ c 4) i).trans (h i)

/-- Summary 2 in its [16, 1024, 512] form, as stretch 2 makes it. -/
theorem sum3_2_at5 (c : Dev nD) : Rep (S := S16x1024x512) (W5 m ρ c (Proc.devRef .tc main_v29)) (s2 (kTables m c)) := by
  show Rep (S := S16x1024x512) (StableHlo.after hostOps2 (W4 m ρ c) (Proc.devRef .tc main_v29)) _
  after_results
  exact rep_shapeCast (kS2 m ρ c) _

theorem act2 (c : Dev nD) : Rep (S := S8192x1024) (V5 m ρ c main_v31) (s2 (kTables m c)) := by
  show Rep (S := S8192x1024) (StableHlo.after hostOps2 (W4 m ρ c) (Proc.devRef .tc main_v31)) _
  after_results
  exact rep_shapeCast (rep_shapeCast (rep_shapeCast (kS2 m ρ c) _) _) _

theorem wt2 (c : Dev nD) : WtRep (K := 1024) (N := 512) 1024 0 (V5 m ρ c main_v39) (fun j => (kTables m c).uW (2 * (512 * 1024) + j)) := by
  show WtRep (K := 1024) (N := 512) 1024 0 (StableHlo.after hostOps2 (W4 m ρ c) (Proc.devRef .tc main_v39)) _
  after_results
  rw [keepTo4 m ρ c main_v1 (by decide), v1_at1]
  exact wt_of_stack (rep_flatOf _) 2 (by omega) _ _ _ _

theorem bias2 (c : Dev nD) : RowRep (N := 512) (V5 m ρ c main_v34) (fun j => (kTables m c).ub (2 * 512 + j)) := by
  show RowRep (N := 512) (StableHlo.after hostOps2 (W4 m ρ c) (Proc.devRef .tc main_v34)) _
  after_results
  rw [arg2_at4]
  exact rowRep_of_rep (rep_shapeCast (rep_shapeCast (rep_slice2 (rep_flatOf _) 2 (by omega) _) _) _)

theorem thr2 (c : Dev nD) : RowRep (N := 512) (V5 m ρ c main_v37) (fun j => (kTables m c).ut (2 * 512 + j)) := by
  show RowRep (N := 512) (StableHlo.after hostOps2 (W4 m ρ c) (Proc.devRef .tc main_v37)) _
  after_results
  rw [arg3_at4]
  exact rowRep_of_rep (rep_shapeCast (rep_shapeCast (rep_slice2 (rep_flatOf _) 2 (by omega) _) _) _)

/-- Region 2 leaves summary 3. -/
theorem kS3 (c : Dev nD) : Rep (S := S8192x512) (V6 m ρ c main_v40) (s3 (kTables m c)) := by
  have h := RegionUp.region2 (V5 m ρ) c (a := s2 (kTables m c)) (cf := fun _ => 0) (act2 m ρ c) (wt2 m ρ c) (bias2 m ρ c) (thr2 m ρ c)
  exact fun i => (congrFun (W6_arr m ρ c 4) i).trans (h i)

/-- Summary 3 in its [16, 512, 512] form, as stretch 3 makes it. -/
theorem sum3_3_at7 (c : Dev nD) : Rep (S := S16x512x512) (W7 m ρ c (Proc.devRef .tc main_v41)) (s3 (kTables m c)) := by
  show Rep (S := S16x512x512) (StableHlo.after hostOps3 (W6 m ρ c) (Proc.devRef .tc main_v41)) _
  after_results
  exact rep_shapeCast (kS3 m ρ c) _

theorem act3 (c : Dev nD) : Rep (S := S4096x1024) (V7 m ρ c main_v43) (s3 (kTables m c)) := by
  show Rep (S := S4096x1024) (StableHlo.after hostOps3 (W6 m ρ c) (Proc.devRef .tc main_v43)) _
  after_results
  exact rep_shapeCast (rep_shapeCast (rep_shapeCast (kS3 m ρ c) _) _) _

theorem wt3 (c : Dev nD) : WtRep (K := 1024) (N := 512) 1024 0 (V7 m ρ c main_v51) (fun j => (kTables m c).uW (3 * (512 * 1024) + j)) := by
  show WtRep (K := 1024) (N := 512) 1024 0 (StableHlo.after hostOps3 (W6 m ρ c) (Proc.devRef .tc main_v51)) _
  after_results
  rw [keepTo6 m ρ c main_v1 (by decide), v1_at1]
  exact wt_of_stack (rep_flatOf _) 3 (by omega) _ _ _ _

theorem bias3 (c : Dev nD) : RowRep (N := 512) (V7 m ρ c main_v46) (fun j => (kTables m c).ub (3 * 512 + j)) := by
  show RowRep (N := 512) (StableHlo.after hostOps3 (W6 m ρ c) (Proc.devRef .tc main_v46)) _
  after_results
  rw [arg2_at6]
  exact rowRep_of_rep (rep_shapeCast (rep_shapeCast (rep_slice2 (rep_flatOf _) 3 (by omega) _) _) _)

theorem thr3 (c : Dev nD) : RowRep (N := 512) (V7 m ρ c main_v49) (fun j => (kTables m c).ut (3 * 512 + j)) := by
  show RowRep (N := 512) (StableHlo.after hostOps3 (W6 m ρ c) (Proc.devRef .tc main_v49)) _
  after_results
  rw [arg3_at6]
  exact rowRep_of_rep (rep_shapeCast (rep_shapeCast (rep_slice2 (rep_flatOf _) 3 (by omega) _) _) _)

/-- Region 3 leaves summary 4. -/
theorem kS4 (c : Dev nD) : Rep (S := S4096x512) (V8 m ρ c main_v52) (s4 (kTables m c)) := by
  have h := RegionUp.region3 (V7 m ρ) c (a := s3 (kTables m c)) (cf := fun _ => 0) (act3 m ρ c) (wt3 m ρ c) (bias3 m ρ c) (thr3 m ρ c)
  exact fun i => (congrFun (W8_arr m ρ c 4) i).trans (h i)

/-- Summary 4 in its [16, 256, 512] form, as stretch 4 makes it. -/
theorem sum3_4_at9 (c : Dev nD) : Rep (S := S16x256x512) (W9 m ρ c (Proc.devRef .tc main_v53)) (s4 (kTables m c)) := by
  show Rep (S := S16x256x512) (StableHlo.after hostOps4 (W8 m ρ c) (Proc.devRef .tc main_v53)) _
  after_results
  exact rep_shapeCast (kS4 m ρ c) _

theorem act4 (c : Dev nD) : Rep (S := S2048x1024) (V9 m ρ c main_v55) (s4 (kTables m c)) := by
  show Rep (S := S2048x1024) (StableHlo.after hostOps4 (W8 m ρ c) (Proc.devRef .tc main_v55)) _
  after_results
  exact rep_shapeCast (rep_shapeCast (rep_shapeCast (kS4 m ρ c) _) _) _

theorem wt4 (c : Dev nD) : WtRep (K := 1024) (N := 512) 1024 0 (V9 m ρ c main_v63) (fun j => (kTables m c).uW (4 * (512 * 1024) + j)) := by
  show WtRep (K := 1024) (N := 512) 1024 0 (StableHlo.after hostOps4 (W8 m ρ c) (Proc.devRef .tc main_v63)) _
  after_results
  rw [keepTo8 m ρ c main_v1 (by decide), v1_at1]
  exact wt_of_stack (rep_flatOf _) 4 (by omega) _ _ _ _

theorem bias4 (c : Dev nD) : RowRep (N := 512) (V9 m ρ c main_v58) (fun j => (kTables m c).ub (4 * 512 + j)) := by
  show RowRep (N := 512) (StableHlo.after hostOps4 (W8 m ρ c) (Proc.devRef .tc main_v58)) _
  after_results
  rw [arg2_at8]
  exact rowRep_of_rep (rep_shapeCast (rep_shapeCast (rep_slice2 (rep_flatOf _) 4 (by omega) _) _) _)

theorem thr4 (c : Dev nD) : RowRep (N := 512) (V9 m ρ c main_v61) (fun j => (kTables m c).ut (4 * 512 + j)) := by
  show RowRep (N := 512) (StableHlo.after hostOps4 (W8 m ρ c) (Proc.devRef .tc main_v61)) _
  after_results
  rw [arg3_at8]
  exact rowRep_of_rep (rep_shapeCast (rep_shapeCast (rep_slice2 (rep_flatOf _) 4 (by omega) _) _) _)

/-- Region 4 leaves summary 5. -/
theorem kS5 (c : Dev nD) : Rep (S := S2048x512) (V10 m ρ c main_v64) (s5 (kTables m c)) := by
  have h := RegionUp.region4 (V9 m ρ) c (a := s4 (kTables m c)) (cf := fun _ => 0) (act4 m ρ c) (wt4 m ρ c) (bias4 m ρ c) (thr4 m ρ c)
  exact fun i => (congrFun (W10_arr m ρ c 4) i).trans (h i)

/-- Summary 5 in its [16, 128, 512] form, as stretch 5 makes it. -/
theorem sum3_5_at11 (c : Dev nD) : Rep (S := S16x128x512) (W11 m ρ c (Proc.devRef .tc main_v65)) (s5 (kTables m c)) := by
  show Rep (S := S16x128x512) (StableHlo.after hostOps5 (W10 m ρ c) (Proc.devRef .tc main_v65)) _
  after_results
  exact rep_shapeCast (kS5 m ρ c) _

theorem act5 (c : Dev nD) : Rep (S := S1024x1024) (V11 m ρ c main_v67) (s5 (kTables m c)) := by
  show Rep (S := S1024x1024) (StableHlo.after hostOps5 (W10 m ρ c) (Proc.devRef .tc main_v67)) _
  after_results
  exact rep_shapeCast (rep_shapeCast (rep_shapeCast (kS5 m ρ c) _) _) _

theorem wt5 (c : Dev nD) : WtRep (K := 1024) (N := 512) 1024 0 (V11 m ρ c main_v75) (fun j => (kTables m c).uW (5 * (512 * 1024) + j)) := by
  show WtRep (K := 1024) (N := 512) 1024 0 (StableHlo.after hostOps5 (W10 m ρ c) (Proc.devRef .tc main_v75)) _
  after_results
  rw [keepTo10 m ρ c main_v1 (by decide), v1_at1]
  exact wt_of_stack (rep_flatOf _) 5 (by omega) _ _ _ _

theorem bias5 (c : Dev nD) : RowRep (N := 512) (V11 m ρ c main_v70) (fun j => (kTables m c).ub (5 * 512 + j)) := by
  show RowRep (N := 512) (StableHlo.after hostOps5 (W10 m ρ c) (Proc.devRef .tc main_v70)) _
  after_results
  rw [arg2_at10]
  exact rowRep_of_rep (rep_shapeCast (rep_shapeCast (rep_slice2 (rep_flatOf _) 5 (by omega) _) _) _)

theorem thr5 (c : Dev nD) : RowRep (N := 512) (V11 m ρ c main_v73) (fun j => (kTables m c).ut (5 * 512 + j)) := by
  show RowRep (N := 512) (StableHlo.after hostOps5 (W10 m ρ c) (Proc.devRef .tc main_v73)) _
  after_results
  rw [arg3_at10]
  exact rowRep_of_rep (rep_shapeCast (rep_shapeCast (rep_slice2 (rep_flatOf _) 5 (by omega) _) _) _)

/-- Region 5 leaves summary 6. -/
theorem kS6 (c : Dev nD) : Rep (S := S1024x512) (V12 m ρ c main_v76) (s6 (kTables m c)) := by
  have h := RegionUp.region5 (V11 m ρ) c (a := s5 (kTables m c)) (cf := fun _ => 0) (act5 m ρ c) (wt5 m ρ c) (bias5 m ρ c) (thr5 m ρ c)
  exact fun i => (congrFun (W12_arr m ρ c 4) i).trans (h i)

/-- Summary 6 in its [16, 64, 512] form, as stretch 6 makes it. -/
theorem sum3_6_at13 (c : Dev nD) : Rep (S := S16x64x512) (W13 m ρ c (Proc.devRef .tc main_v77)) (s6 (kTables m c)) := by
  show Rep (S := S16x64x512) (StableHlo.after hostOps6 (W12 m ρ c) (Proc.devRef .tc main_v77)) _
  after_results
  exact rep_shapeCast (kS6 m ρ c) _

theorem act6 (c : Dev nD) : Rep (S := S512x1024) (V13 m ρ c main_v79) (s6 (kTables m c)) := by
  show Rep (S := S512x1024) (StableHlo.after hostOps6 (W12 m ρ c) (Proc.devRef .tc main_v79)) _
  after_results
  exact rep_shapeCast (rep_shapeCast (rep_shapeCast (kS6 m ρ c) _) _) _

theorem wt6 (c : Dev nD) : WtRep (K := 1024) (N := 512) 1024 0 (V13 m ρ c main_v87) (fun j => (kTables m c).uW (6 * (512 * 1024) + j)) := by
  show WtRep (K := 1024) (N := 512) 1024 0 (StableHlo.after hostOps6 (W12 m ρ c) (Proc.devRef .tc main_v87)) _
  after_results
  rw [keepTo12 m ρ c main_v1 (by decide), v1_at1]
  exact wt_of_stack (rep_flatOf _) 6 (by omega) _ _ _ _

theorem bias6 (c : Dev nD) : RowRep (N := 512) (V13 m ρ c main_v82) (fun j => (kTables m c).ub (6 * 512 + j)) := by
  show RowRep (N := 512) (StableHlo.after hostOps6 (W12 m ρ c) (Proc.devRef .tc main_v82)) _
  after_results
  rw [arg2_at12]
  exact rowRep_of_rep (rep_shapeCast (rep_shapeCast (rep_slice2 (rep_flatOf _) 6 (by omega) _) _) _)

theorem thr6 (c : Dev nD) : RowRep (N := 512) (V13 m ρ c main_v85) (fun j => (kTables m c).ut (6 * 512 + j)) := by
  show RowRep (N := 512) (StableHlo.after hostOps6 (W12 m ρ c) (Proc.devRef .tc main_v85)) _
  after_results
  rw [arg3_at12]
  exact rowRep_of_rep (rep_shapeCast (rep_shapeCast (rep_slice2 (rep_flatOf _) 6 (by omega) _) _) _)

/-- Region 6 leaves summary 7. -/
theorem kS7 (c : Dev nD) : Rep (S := S512x512) (V14 m ρ c main_v88) (s7 (kTables m c)) := by
  have h := RegionUp.region6 (V13 m ρ) c (a := s6 (kTables m c)) (cf := fun _ => 0) (act6 m ρ c) (wt6 m ρ c) (bias6 m ρ c) (thr6 m ρ c)
  exact fun i => (congrFun (W14_arr m ρ c 4) i).trans (h i)

/-- Summary 7 in its [16, 32, 512] form, as stretch 7 makes it. -/
theorem sum3_7_at15 (c : Dev nD) : Rep (S := S16x32x512) (W15 m ρ c (Proc.devRef .tc main_v89)) (s7 (kTables m c)) := by
  show Rep (S := S16x32x512) (StableHlo.after hostOps7 (W14 m ρ c) (Proc.devRef .tc main_v89)) _
  after_results
  exact rep_shapeCast (kS7 m ρ c) _

theorem act7 (c : Dev nD) : Rep (S := S256x1024) (V15 m ρ c main_v91) (s7 (kTables m c)) := by
  show Rep (S := S256x1024) (StableHlo.after hostOps7 (W14 m ρ c) (Proc.devRef .tc main_v91)) _
  after_results
  exact rep_shapeCast (rep_shapeCast (rep_shapeCast (kS7 m ρ c) _) _) _

theorem wt7 (c : Dev nD) : WtRep (K := 1024) (N := 512) 1024 0 (V15 m ρ c main_v99) (fun j => (kTables m c).uW (7 * (512 * 1024) + j)) := by
  show WtRep (K := 1024) (N := 512) 1024 0 (StableHlo.after hostOps7 (W14 m ρ c) (Proc.devRef .tc main_v99)) _
  after_results
  rw [keepTo14 m ρ c main_v1 (by decide), v1_at1]
  exact wt_of_stack (rep_flatOf _) 7 (by omega) _ _ _ _

theorem bias7 (c : Dev nD) : RowRep (N := 512) (V15 m ρ c main_v94) (fun j => (kTables m c).ub (7 * 512 + j)) := by
  show RowRep (N := 512) (StableHlo.after hostOps7 (W14 m ρ c) (Proc.devRef .tc main_v94)) _
  after_results
  rw [arg2_at14]
  exact rowRep_of_rep (rep_shapeCast (rep_shapeCast (rep_slice2 (rep_flatOf _) 7 (by omega) _) _) _)

theorem thr7 (c : Dev nD) : RowRep (N := 512) (V15 m ρ c main_v97) (fun j => (kTables m c).ut (7 * 512 + j)) := by
  show RowRep (N := 512) (StableHlo.after hostOps7 (W14 m ρ c) (Proc.devRef .tc main_v97)) _
  after_results
  rw [arg3_at14]
  exact rowRep_of_rep (rep_shapeCast (rep_shapeCast (rep_slice2 (rep_flatOf _) 7 (by omega) _) _) _)

/-- Region 7 leaves summary 8. -/
theorem kS8 (c : Dev nD) : Rep (S := S256x512) (V16 m ρ c main_v100) (s8 (kTables m c)) := by
  have h := RegionUp.region7 (V15 m ρ) c (a := s7 (kTables m c)) (cf := fun _ => 0) (act7 m ρ c) (wt7 m ρ c) (bias7 m ρ c) (thr7 m ρ c)
  exact fun i => (congrFun (W16_arr m ρ c 4) i).trans (h i)

/-- Summary 8 in its [16, 16, 512] form, as stretch 8 makes it. -/
theorem sum3_8_at17 (c : Dev nD) : Rep (S := S16x16x512) (W17 m ρ c (Proc.devRef .tc main_v101)) (s8 (kTables m c)) := by
  show Rep (S := S16x16x512) (StableHlo.after hostOps8 (W16 m ρ c) (Proc.devRef .tc main_v101)) _
  after_results
  exact rep_shapeCast (kS8 m ρ c) _

theorem act8 (c : Dev nD) : Rep (S := S128x1024) (V17 m ρ c main_v103) (s8 (kTables m c)) := by
  show Rep (S := S128x1024) (StableHlo.after hostOps8 (W16 m ρ c) (Proc.devRef .tc main_v103)) _
  after_results
  exact rep_shapeCast (rep_shapeCast (rep_shapeCast (kS8 m ρ c) _) _) _

theorem wt8 (c : Dev nD) : WtRep (K := 1024) (N := 512) 1024 0 (V17 m ρ c main_v111) (fun j => (kTables m c).uW (8 * (512 * 1024) + j)) := by
  show WtRep (K := 1024) (N := 512) 1024 0 (StableHlo.after hostOps8 (W16 m ρ c) (Proc.devRef .tc main_v111)) _
  after_results
  rw [keepTo16 m ρ c main_v1 (by decide), v1_at1]
  exact wt_of_stack (rep_flatOf _) 8 (by omega) _ _ _ _

theorem bias8 (c : Dev nD) : RowRep (N := 512) (V17 m ρ c main_v106) (fun j => (kTables m c).ub (8 * 512 + j)) := by
  show RowRep (N := 512) (StableHlo.after hostOps8 (W16 m ρ c) (Proc.devRef .tc main_v106)) _
  after_results
  rw [arg2_at16]
  exact rowRep_of_rep (rep_shapeCast (rep_shapeCast (rep_slice2 (rep_flatOf _) 8 (by omega) _) _) _)

theorem thr8 (c : Dev nD) : RowRep (N := 512) (V17 m ρ c main_v109) (fun j => (kTables m c).ut (8 * 512 + j)) := by
  show RowRep (N := 512) (StableHlo.after hostOps8 (W16 m ρ c) (Proc.devRef .tc main_v109)) _
  after_results
  rw [arg3_at16]
  exact rowRep_of_rep (rep_shapeCast (rep_shapeCast (rep_slice2 (rep_flatOf _) 8 (by omega) _) _) _)

/-- Region 8 leaves summary 9. -/
theorem kS9 (c : Dev nD) : Rep (S := S128x512) (V18 m ρ c main_v112) (s9 (kTables m c)) := by
  have h := RegionUp.region8 (V17 m ρ) c (a := s8 (kTables m c)) (cf := fun _ => 0) (act8 m ρ c) (wt8 m ρ c) (bias8 m ρ c) (thr8 m ρ c)
  exact fun i => (congrFun (W18_arr m ρ c 4) i).trans (h i)

/-- Summary 9 in its [16, 8, 512] form, as stretch 9 makes it. -/
theorem sum3_9_at19 (c : Dev nD) : Rep (S := S16x8x512) (W19 m ρ c (Proc.devRef .tc main_v113)) (s9 (kTables m c)) := by
  show Rep (S := S16x8x512) (StableHlo.after hostOps9 (W18 m ρ c) (Proc.devRef .tc main_v113)) _
  after_results
  exact rep_shapeCast (kS9 m ρ c) _

theorem act9 (c : Dev nD) : Rep (S := S64x1024) (V19 m ρ c main_v115) (s9 (kTables m c)) := by
  show Rep (S := S64x1024) (StableHlo.after hostOps9 (W18 m ρ c) (Proc.devRef .tc main_v115)) _
  after_results
  exact rep_shapeCast (rep_shapeCast (rep_shapeCast (kS9 m ρ c) _) _) _

theorem wt9 (c : Dev nD) : WtRep (K := 1024) (N := 512) 1024 0 (V19 m ρ c main_v123) (fun j => (kTables m c).uW (9 * (512 * 1024) + j)) := by
  show WtRep (K := 1024) (N := 512) 1024 0 (StableHlo.after hostOps9 (W18 m ρ c) (Proc.devRef .tc main_v123)) _
  after_results
  rw [keepTo18 m ρ c main_v1 (by decide), v1_at1]
  exact wt_of_stack (rep_flatOf _) 9 (by omega) _ _ _ _

theorem bias9 (c : Dev nD) : RowRep (N := 512) (V19 m ρ c main_v118) (fun j => (kTables m c).ub (9 * 512 + j)) := by
  show RowRep (N := 512) (StableHlo.after hostOps9 (W18 m ρ c) (Proc.devRef .tc main_v118)) _
  after_results
  rw [arg2_at18]
  exact rowRep_of_rep (rep_shapeCast (rep_shapeCast (rep_slice2 (rep_flatOf _) 9 (by omega) _) _) _)

theorem thr9 (c : Dev nD) : RowRep (N := 512) (V19 m ρ c main_v121) (fun j => (kTables m c).ut (9 * 512 + j)) := by
  show RowRep (N := 512) (StableHlo.after hostOps9 (W18 m ρ c) (Proc.devRef .tc main_v121)) _
  after_results
  rw [arg3_at18]
  exact rowRep_of_rep (rep_shapeCast (rep_shapeCast (rep_slice2 (rep_flatOf _) 9 (by omega) _) _) _)

/-- Region 9 leaves summary 10. -/
theorem kS10 (c : Dev nD) : Rep (S := S64x512) (V20 m ρ c main_v124) (s10 (kTables m c)) := by
  have h := RegionUp.region9 (V19 m ρ) c (a := s9 (kTables m c)) (cf := fun _ => 0) (act9 m ρ c) (wt9 m ρ c) (bias9 m ρ c) (thr9 m ρ c)
  exact fun i => (congrFun (W20_arr m ρ c 4) i).trans (h i)

/-- Summary 10 in its [16, 4, 512] form, as stretch 10 makes it. -/
theorem sum3_10_at21 (c : Dev nD) : Rep (S := S16x4x512) (W21 m ρ c (Proc.devRef .tc main_v125)) (s10 (kTables m c)) := by
  show Rep (S := S16x4x512) (StableHlo.after hostOps10 (W20 m ρ c) (Proc.devRef .tc main_v125)) _
  after_results
  exact rep_shapeCast (kS10 m ρ c) _

theorem act10 (c : Dev nD) : Rep (S := S32x1024) (V21 m ρ c main_v127) (s10 (kTables m c)) := by
  show Rep (S := S32x1024) (StableHlo.after hostOps10 (W20 m ρ c) (Proc.devRef .tc main_v127)) _
  after_results
  exact rep_shapeCast (rep_shapeCast (rep_shapeCast (kS10 m ρ c) _) _) _

theorem wt10 (c : Dev nD) : WtRep (K := 1024) (N := 512) 1024 0 (V21 m ρ c main_v135) (fun j => (kTables m c).uW (10 * (512 * 1024) + j)) := by
  show WtRep (K := 1024) (N := 512) 1024 0 (StableHlo.after hostOps10 (W20 m ρ c) (Proc.devRef .tc main_v135)) _
  after_results
  rw [keepTo20 m ρ c main_v1 (by decide), v1_at1]
  exact wt_of_stack (rep_flatOf _) 10 (by omega) _ _ _ _

theorem bias10 (c : Dev nD) : RowRep (N := 512) (V21 m ρ c main_v130) (fun j => (kTables m c).ub (10 * 512 + j)) := by
  show RowRep (N := 512) (StableHlo.after hostOps10 (W20 m ρ c) (Proc.devRef .tc main_v130)) _
  after_results
  rw [arg2_at20]
  exact rowRep_of_rep (rep_shapeCast (rep_shapeCast (rep_slice2 (rep_flatOf _) 10 (by omega) _) _) _)

theorem thr10 (c : Dev nD) : RowRep (N := 512) (V21 m ρ c main_v133) (fun j => (kTables m c).ut (10 * 512 + j)) := by
  show RowRep (N := 512) (StableHlo.after hostOps10 (W20 m ρ c) (Proc.devRef .tc main_v133)) _
  after_results
  rw [arg3_at20]
  exact rowRep_of_rep (rep_shapeCast (rep_shapeCast (rep_slice2 (rep_flatOf _) 10 (by omega) _) _) _)

/-- Region 10 leaves summary 11. -/
theorem kS11 (c : Dev nD) : Rep (S := S32x512) (V22 m ρ c main_v136) (s11 (kTables m c)) := by
  have h := RegionUp.region10 (V21 m ρ) c (a := s10 (kTables m c)) (cf := fun _ => 0) (act10 m ρ c) (wt10 m ρ c) (bias10 m ρ c) (thr10 m ρ c)
  exact fun i => (congrFun (W22_arr m ρ c 4) i).trans (h i)

/-- Summary 11 in its [16, 2, 512] form, as stretch 11 makes it. -/
theorem sum3_11_at23 (c : Dev nD) : Rep (S := S16x2x512) (W23 m ρ c (Proc.devRef .tc main_v137)) (s11 (kTables m c)) := by
  show Rep (S := S16x2x512) (StableHlo.after hostOps11 (W22 m ρ c) (Proc.devRef .tc main_v137)) _
  after_results
  exact rep_shapeCast (kS11 m ρ c) _

end Cert.KernelIdeal.KValue

end
-- ==== Proof.KernelCarry.lean ====
/-
  The summaries of the up sweep, in their [16, rows, 512] forms, are written once and read again by the down sweep many boundaries later: nothing in between writes them, so they still hold the summaries there.
-/
import proofs.«113582_j30116310680263_2_alg».proof.Proof.Gen.KernelIdeal.Frame
import Idealize.ShloMosaic.Lib.StableHlo.Run
import proofs.«113582_j30116310680263_2_alg».proof.Proof.LibRowMajor
import proofs.«113582_j30116310680263_2_alg».proof.Proof.LibSpikeLayer
import proofs.«113582_j30116310680263_2_alg».proof.Proof.LibSpikeBlock
import proofs.«113582_j30116310680263_2_alg».proof.Proof.TreeSpec
import proofs.«113582_j30116310680263_2_alg».proof.Proof.Persist
import proofs.«113582_j30116310680263_2_alg».proof.Proof.RegionUp
import proofs.«113582_j30116310680263_2_alg».proof.Proof.KernelUp

set_option maxRecDepth 16384

noncomputable section

namespace Cert.KernelIdeal.KValue

open Cert.KernelIdeal Cert.KernelIdeal.Gen Idealize.ShloMosaic Idealize.ShloMosaic.ValueIdx Idealize.ShloMosaic.TcCoe Idealize.SL.Sem Idealize.ShloMosaic.StableHlo
open Cert.Lib.RowMajor Cert.Lib.SpikeLayer Cert.Lib.SpikeBlock Cert.TreeSpec Cert.KernelIdeal.Keep

variable (m : (ℓ : Loc nD τ sig) → Buf (Elt Ideal) ℓ) (ρ : Dev nD → PrngReg)

/-! ## Summary 1 -/
theorem sum3_1_at4 (c : Dev nD) : Rep (S := S16x2048x512) (W4 m ρ c (Proc.devRef .tc main_v17)) (s1 (kTables m c)) :=
  rep_of_eq (stepR1 m ρ c main_v17 (by decide)) (sum3_1_at3 m ρ c)
theorem sum3_1_at5 (c : Dev nD) : Rep (S := S16x2048x512) (W5 m ρ c (Proc.devRef .tc main_v17)) (s1 (kTables m c)) :=
  rep_of_eq (stepH2 m ρ c main_v17 (by decide)) (sum3_1_at4 m ρ c)
theorem sum3_1_at6 (c : Dev nD) : Rep (S := S16x2048x512) (W6 m ρ c (Proc.devRef .tc main_v17)) (s1 (kTables m c)) :=
  rep_of_eq (stepR2 m ρ c main_v17 (by decide)) (sum3_1_at5 m ρ c)
theorem sum3_1_at7 (c : Dev nD) : Rep (S := S16x2048x512) (W7 m ρ c (Proc.devRef .tc main_v17)) (s1 (kTables m c)) :=
  rep_of_eq (stepH3 m ρ c main_v17 (by decide)) (sum3_1_at6 m ρ c)
theorem sum3_1_at8 (c : Dev nD) : Rep (S := S16x2048x512) (W8 m ρ c (Proc.devRef .tc main_v17)) (s1 (kTables m c)) :=
  rep_of_eq (stepR3 m ρ c main_v17 (by decide)) (sum3_1_at7 m ρ c)
theorem sum3_1_at9 (c : Dev nD) : Rep (S := S16x2048x512) (W9 m ρ c (Proc.devRef .tc main_v17)) (s1 (kTables m c)) :=
  rep_of_eq (stepH4 m ρ c main_v17 (by decide)) (sum3_1_at8 m ρ c)
theorem sum3_1_at10 (c : Dev nD) : Rep (S := S16x2048x512) (W10 m ρ c (Proc.devRef .tc main_v17)) (s1 (kTables m c)) :=
  rep_of_eq (stepR4 m ρ c main_v17 (by decide)) (sum3_1_at9 m ρ c)
theorem sum3_1_at11 (c : Dev nD) : Rep (S := S16x2048x512) (W11 m ρ c (Proc.devRef .tc main_v17)) (s1 (kTables m c)) :=
  rep_of_eq (stepH5 m ρ c main_v17 (by decide)) (sum3_1_at10 m ρ c)
theorem sum3_1_at12 (c : Dev nD) : Rep (S := S16x2048x512) (W12 m ρ c (Proc.devRef .tc main_v17)) (s1 (kTables m c)) :=
  rep_of_eq (stepR5 m ρ c main_v17 (by decide)) (sum3_1_at11 m ρ c)
theorem sum3_1_at13 (c : Dev nD) : Rep (S := S16x2048x512) (W13 m ρ c (Proc.devRef .tc main_v17)) (s1 (kTables m c)) :=
  rep_of_eq (stepH6 m ρ c main_v17 (by decide)) (sum3_1_at12 m ρ c)
theorem sum3_1_at14 (c : Dev nD) : Rep (S := S16x2048x512) (W14 m ρ c (Proc.devRef .tc main_v17)) (s1 (kTables m c)) :=
  rep_of_eq (stepR6 m ρ c main_v17 (by decide)) (sum3_1_at13 m ρ c)
theorem sum3_1_at15 (c : Dev nD) : Rep (S := S16x2048x512) (W15 m ρ c (Proc.devRef .tc main_v17)) (s1 (kTables m c)) :=
  rep_of_eq (stepH7 m ρ c main_v17 (by decide)) (sum3_1_at14 m ρ c)
theorem sum3_1_at16 (c : Dev nD) : Rep (S := S16x2048x512) (W16 m ρ c (Proc.devRef .tc main_v17)) (s1 (kTables m c)) :=
  rep_of_eq (stepR7 m ρ c main_v17 (by decide)) (sum3_1_at15 m ρ c)
theorem sum3_1_at17 (c : Dev nD) : Rep (S := S16x2048x512) (W17 m ρ c (Proc.devRef .tc main_v17)) (s1 (kTables m c)) :=
  rep_of_eq (stepH8 m ρ c main_v17 (by decide)) (sum3_1_at16 m ρ c)
theorem sum3_1_at18 (c : Dev nD) : Rep (S := S16x2048x512) (W18 m ρ c (Proc.devRef .tc main_v17)) (s1 (kTables m c)) :=
  rep_of_eq (stepR8 m ρ c main_v17 (by decide)) (sum3_1_at17 m ρ c)
theorem sum3_1_at19 (c : Dev nD) : Rep (S := S16x2048x512) (W19 m ρ c (Proc.devRef .tc main_v17)) (s1 (kTables m c)) :=
  rep_of_eq (stepH9 m ρ c main_v17 (by decide)) (sum3_1_at18 m ρ c)
theorem sum3_1_at20 (c : Dev nD) : Rep (S := S16x2048x512) (W20 m ρ c (Proc.devRef .tc main_v17)) (s1 (kTables m c)) :=
  rep_of_eq (stepR9 m ρ c main_v17 (by decide)) (sum3_1_at19 m ρ c)
theorem sum3_1_at21 (c : Dev nD) : Rep (S := S16x2048x512) (W21 m ρ c (Proc.devRef .tc main_v17)) (s1 (kTables m c)) :=
  rep_of_eq (stepH10 m ρ c main_v17 (by decide)) (sum3_1_at20 m ρ c)
theorem sum3_1_at22 (c : Dev nD) : Rep (S := S16x2048x512) (W22 m ρ c (Proc.devRef .tc main_v17)) (s1 (kTables m c)) :=
  rep_of_eq (stepR10 m ρ c main_v17 (by decide)) (sum3_1_at21 m ρ c)
theorem sum3_1_at23 (c : Dev nD) : Rep (S := S16x2048x512) (W23 m ρ c (Proc.devRef .tc main_v17)) (s1 (kTables m c)) :=
  rep_of_eq (stepH11 m ρ c main_v17 (by decide)) (sum3_1_at22 m ρ c)
theorem sum3_1_at24 (c : Dev nD) : Rep (S := S16x2048x512) (W24 m ρ c (Proc.devRef .tc main_v17)) (s1 (kTables m c)) :=
  rep_of_eq (stepR11 m ρ c main_v17 (by decide)) (sum3_1_at23 m ρ c)
theorem sum3_1_at25 (c : Dev nD) : Rep (S := S16x2048x512) (W25 m ρ c (Proc.devRef .tc main_v17)) (s1 (kTables m c)) :=
  rep_of_eq (stepH12 m ρ c main_v17 (by decide)) (sum3_1_at24 m ρ c)
theorem sum3_1_at26 (c : Dev nD) : Rep (S := S16x2048x512) (W26 m ρ c (Proc.devRef .tc main_v17)) (s1 (kTables m c)) :=
  rep_of_eq (stepR12 m ρ c main_v17 (by decide)) (sum3_1_at25 m ρ c)
theorem sum3_1_at27 (c : Dev nD) : Rep (S := S16x2048x512) (W27 m ρ c (Proc.devRef .tc main_v17)) (s1 (kTables m c)) :=
  rep_of_eq (stepH13 m ρ c main_v17 (by decide)) (sum3_1_at26 m ρ c)
theorem sum3_1_at28 (c : Dev nD) : Rep (S := S16x2048x512) (W28 m ρ c (Proc.devRef .tc main_v17)) (s1 (kTables m c)) :=
  rep_of_eq (stepR13 m ρ c main_v17 (by decide)) (sum3_1_at27 m ρ c)
theorem sum3_1_at29 (c : Dev nD) : Rep (S := S16x2048x512) (W29 m ρ c (Proc.devRef .tc main_v17)) (s1 (kTables m c)) :=
  rep_of_eq (stepH14 m ρ c main_v17 (by decide)) (sum3_1_at28 m ρ c)
theorem sum3_1_at30 (c : Dev nD) : Rep (S := S16x2048x512) (W30 m ρ c (Proc.devRef .tc main_v17)) (s1 (kTables m c)) :=
  rep_of_eq (stepR14 m ρ c main_v17 (by decide)) (sum3_1_at29 m ρ c)
theorem sum3_1_at31 (c : Dev nD) : Rep (S := S16x2048x512) (W31 m ρ c (Proc.devRef .tc main_v17)) (s1 (kTables m c)) :=
  rep_of_eq (stepH15 m ρ c main_v17 (by decide)) (sum3_1_at30 m ρ c)
theorem sum3_1_at32 (c : Dev nD) : Rep (S := S16x2048x512) (W32 m ρ c (Proc.devRef .tc main_v17)) (s1 (kTables m c)) :=
  rep_of_eq (stepR15 m ρ c main_v17 (by decide)) (sum3_1_at31 m ρ c)
theorem sum3_1_at33 (c : Dev nD) : Rep (S := S16x2048x512) (W33 m ρ c (Proc.devRef .tc main_v17)) (s1 (kTables m c)) :=
  rep_of_eq (stepH16 m ρ c main_v17 (by decide)) (sum3_1_at32 m ρ c)
theorem sum3_1_at34 (c : Dev nD) : Rep (S := S16x2048x512) (W34 m ρ c (Proc.devRef .tc main_v17)) (s1 (kTables m c)) :=
  rep_of_eq (stepR16 m ρ c main_v17 (by decide)) (sum3_1_at33 m ρ c)
theorem sum3_1_at35 (c : Dev nD) : Rep (S := S16x2048x512) (W35 m ρ c (Proc.devRef .tc main_v17)) (s1 (kTables m c)) :=
  rep_of_eq (stepH17 m ρ c main_v17 (by decide)) (sum3_1_at34 m ρ c)
theorem sum3_1_at36 (c : Dev nD) : Rep (S := S16x2048x512) (W36 m ρ c (Proc.devRef .tc main_v17)) (s1 (kTables m c)) :=
  rep_of_eq (stepR17 m ρ c main_v17 (by decide)) (sum3_1_at35 m ρ c)
theorem sum3_1_at37 (c : Dev nD) : Rep (S := S16x2048x512) (W37 m ρ c (Proc.devRef .tc main_v17)) (s1 (kTables m c)) :=
  rep_of_eq (stepH18 m ρ c main_v17 (by decide)) (sum3_1_at36 m ρ c)
theorem sum3_1_at38 (c : Dev nD) : Rep (S := S16x2048x512) (W38 m ρ c (Proc.devRef .tc main_v17)) (s1 (kTables m c)) :=
  rep_of_eq (stepR18 m ρ c main_v17 (by decide)) (sum3_1_at37 m ρ c)
theorem sum3_1_at39 (c : Dev nD) : Rep (S := S16x2048x512) (W39 m ρ c (Proc.devRef .tc main_v17)) (s1 (kTables m c)) :=
  rep_of_eq (stepH19 m ρ c main_v17 (by decide)) (sum3_1_at38 m ρ c)
theorem sum3_1_at40 (c : Dev nD) : Rep (S := S16x2048x512) (W40 m ρ c (Proc.devRef .tc main_v17)) (s1 (kTables m c)) :=
  rep_of_eq (stepR19 m ρ c main_v17 (by decide)) (sum3_1_at39 m ρ c)
theorem sum3_1_at41 (c : Dev nD) : Rep (S := S16x2048x512) (W41 m ρ c (Proc.devRef .tc main_v17)) (s1 (kTables m c)) :=
  rep_of_eq (stepH20 m ρ c main_v17 (by decide)) (sum3_1_at40 m ρ c)
theorem sum3_1_at42 (c : Dev nD) : Rep (S := S16x2048x512) (W42 m ρ c (Proc.devRef .tc main_v17)) (s1 (kTables m c)) :=
  rep_of_eq (stepR20 m ρ c main_v17 (by decide)) (sum3_1_at41 m ρ c)
theorem sum3_1_at43 (c : Dev nD) : Rep (S := S16x2048x512) (W43 m ρ c (Proc.devRef .tc main_v17)) (s1 (kTables m c)) :=
  rep_of_eq (stepH21 m ρ c main_v17 (by decide)) (sum3_1_at42 m ρ c)
theorem sum3_1_at44 (c : Dev nD) : Rep (S := S16x2048x512) (W44 m ρ c (Proc.devRef .tc main_v17)) (s1 (kTables m c)) :=
  rep_of_eq (stepR21 m ρ c main_v17 (by decide)) (sum3_1_at43 m ρ c)

/-! ## Summary 2 -/
theorem sum3_2_at6 (c : Dev nD) : Rep (S := S16x1024x512) (W6 m ρ c (Proc.devRef .tc main_v29)) (s2 (kTables m c)) :=
  rep_of_eq (stepR2 m ρ c main_v29 (by decide)) (sum3_2_at5 m ρ c)
theorem sum3_2_at7 (c : Dev nD) : Rep (S := S16x1024x512) (W7 m ρ c (Proc.devRef .tc main_v29)) (s2 (kTables m c)) :=
  rep_of_eq (stepH3 m ρ c main_v29 (by decide)) (sum3_2_at6 m ρ c)
theorem sum3_2_at8 (c : Dev nD) : Rep (S := S16x1024x512) (W8 m ρ c (Proc.devRef .tc main_v29)) (s2 (kTables m c)) :=
  rep_of_eq (stepR3 m ρ c main_v29 (by decide)) (sum3_2_at7 m ρ c)
theorem sum3_2_at9 (c : Dev nD) : Rep (S := S16x1024x512) (W9 m ρ c (Proc.devRef .tc main_v29)) (s2 (kTables m c)) :=
  rep_of_eq (stepH4 m ρ c main_v29 (by decide)) (sum3_2_at8 m ρ c)
theorem sum3_2_at10 (c : Dev nD) : Rep (S := S16x1024x512) (W10 m ρ c (Proc.devRef .tc main_v29)) (s2 (kTables m c)) :=
  rep_of_eq (stepR4 m ρ c main_v29 (by decide)) (sum3_2_at9 m ρ c)
theorem sum3_2_at11 (c : Dev nD) : Rep (S := S16x1024x512) (W11 m ρ c (Proc.devRef .tc main_v29)) (s2 (kTables m c)) :=
  rep_of_eq (stepH5 m ρ c main_v29 (by decide)) (sum3_2_at10 m ρ c)
theorem sum3_2_at12 (c : Dev nD) : Rep (S := S16x1024x512) (W12 m ρ c (Proc.devRef .tc main_v29)) (s2 (kTables m c)) :=
  rep_of_eq (stepR5 m ρ c main_v29 (by decide)) (sum3_2_at11 m ρ c)
theorem sum3_2_at13 (c : Dev nD) : Rep (S := S16x1024x512) (W13 m ρ c (Proc.devRef .tc main_v29)) (s2 (kTables m c)) :=
  rep_of_eq (stepH6 m ρ c main_v29 (by decide)) (sum3_2_at12 m ρ c)
theorem sum3_2_at14 (c : Dev nD) : Rep (S := S16x1024x512) (W14 m ρ c (Proc.devRef .tc main_v29)) (s2 (kTables m c)) :=
  rep_of_eq (stepR6 m ρ c main_v29 (by decide)) (sum3_2_at13 m ρ c)
theorem sum3_2_at15 (c : Dev nD) : Rep (S := S16x1024x512) (W15 m ρ c (Proc.devRef .tc main_v29)) (s2 (kTables m c)) :=
  rep_of_eq (stepH7 m ρ c main_v29 (by decide)) (sum3_2_at14 m ρ c)
theorem sum3_2_at16 (c : Dev nD) : Rep (S := S16x1024x512) (W16 m ρ c (Proc.devRef .tc main_v29)) (s2 (kTables m c)) :=
  rep_of_eq (stepR7 m ρ c main_v29 (by decide)) (sum3_2_at15 m ρ c)
theorem sum3_2_at17 (c : Dev nD) : Rep (S := S16x1024x512) (W17 m ρ c (Proc.devRef .tc main_v29)) (s2 (kTables m c)) :=
  rep_of_eq (stepH8 m ρ c main_v29 (by decide)) (sum3_2_at16 m ρ c)
theorem sum3_2_at18 (c : Dev nD) : Rep (S := S16x1024x512) (W18 m ρ c (Proc.devRef .tc main_v29)) (s2 (kTables m c)) :=
  rep_of_eq (stepR8 m ρ c main_v29 (by decide)) (sum3_2_at17 m ρ c)
theorem sum3_2_at19 (c : Dev nD) : Rep (S := S16x1024x512) (W19 m ρ c (Proc.devRef .tc main_v29)) (s2 (kTables m c)) :=
  rep_of_eq (stepH9 m ρ c main_v29 (by decide)) (sum3_2_at18 m ρ c)
theorem sum3_2_at20 (c : Dev nD) : Rep (S := S16x1024x512) (W20 m ρ c (Proc.devRef .tc main_v29)) (s2 (kTables m c)) :=
  rep_of_eq (stepR9 m ρ c main_v29 (by decide)) (sum3_2_at19 m ρ c)
theorem sum3_2_at21 (c : Dev nD) : Rep (S := S16x1024x512) (W21 m ρ c (Proc.devRef .tc main_v29)) (s2 (kTables m c)) :=
  rep_of_eq (stepH10 m ρ c main_v29 (by decide)) (sum3_2_at20 m ρ c)
theorem sum3_2_at22 (c : Dev nD) : Rep (S := S16x1024x512) (W22 m ρ c (Proc.devRef .tc main_v29)) (s2 (kTables m c)) :=
  rep_of_eq (stepR10 m ρ c main_v29 (by decide)) (sum3_2_at21 m ρ c)
theorem sum3_2_at23 (c : Dev nD) : Rep (S := S16x1024x512) (W23 m ρ c (Proc.devRef .tc main_v29)) (s2 (kTables m c)) :=
  rep_of_eq (stepH11 m ρ c main_v29 (by decide)) (sum3_2_at22 m ρ c)
theorem sum3_2_at24 (c : Dev nD) : Rep (S := S16x1024x512) (W24 m ρ c (Proc.devRef .tc main_v29)) (s2 (kTables m c)) :=
  rep_of_eq (stepR11 m ρ c main_v29 (by decide)) (sum3_2_at23 m ρ c)
theorem sum3_2_at25 (c : Dev nD) : Rep (S := S16x1024x512) (W25 m ρ c (Proc.devRef .tc main_v29)) (s2 (kTables m c)) :=
  rep_of_eq (stepH12 m ρ c main_v29 (by decide)) (sum3_2_at24 m ρ c)
theorem sum3_2_at26 (c : Dev nD) : Rep (S := S16x1024x512) (W26 m ρ c (Proc.devRef .tc main_v29)) (s2 (kTables m c)) :=
  rep_of_eq (stepR12 m ρ c main_v29 (by decide)) (sum3_2_at25 m ρ c)
theorem sum3_2_at27 (c : Dev nD) : Rep (S := S16x1024x512) (W27 m ρ c (Proc.devRef .tc main_v29)) (s2 (kTables m c)) :=
  rep_of_eq (stepH13 m ρ c main_v29 (by decide)) (sum3_2_at26 m ρ c)
theorem sum3_2_at28 (c : Dev nD) : Rep (S := S16x1024x512) (W28 m ρ c (Proc.devRef .tc main_v29)) (s2 (kTables m c)) :=
  rep_of_eq (stepR13 m ρ c main_v29 (by decide)) (sum3_2_at27 m ρ c)
theorem sum3_2_at29 (c : Dev nD) : Rep (S := S16x1024x512) (W29 m ρ c (Proc.devRef .tc main_v29)) (s2 (kTables m c)) :=
  rep_of_eq (stepH14 m ρ c main_v29 (by decide)) (sum3_2_at28 m ρ c)
theorem sum3_2_at30 (c : Dev nD) : Rep (S := S16x1024x512) (W30 m ρ c (Proc.devRef .tc main_v29)) (s2 (kTables m c)) :=
  rep_of_eq (stepR14 m ρ c main_v29 (by decide)) (sum3_2_at29 m ρ c)
theorem sum3_2_at31 (c : Dev nD) : Rep (S := S16x1024x512) (W31 m ρ c (Proc.devRef .tc main_v29)) (s2 (kTables m c)) :=
  rep_of_eq (stepH15 m ρ c main_v29 (by decide)) (sum3_2_at30 m ρ c)
theorem sum3_2_at32 (c : Dev nD) : Rep (S := S16x1024x512) (W32 m ρ c (Proc.devRef .tc main_v29)) (s2 (kTables m c)) :=
  rep_of_eq (stepR15 m ρ c main_v29 (by decide)) (sum3_2_at31 m ρ c)
theorem sum3_2_at33 (c : Dev nD) : Rep (S := S16x1024x512) (W33 m ρ c (Proc.devRef .tc main_v29)) (s2 (kTables m c)) :=
  rep_of_eq (stepH16 m ρ c main_v29 (by decide)) (sum3_2_at32 m ρ c)
theorem sum3_2_at34 (c : Dev nD) : Rep (S := S16x1024x512) (W34 m ρ c (Proc.devRef .tc main_v29)) (s2 (kTables m c)) :=
  rep_of_eq (stepR16 m ρ c main_v29 (by decide)) (sum3_2_at33 m ρ c)
theorem sum3_2_at35 (c : Dev nD) : Rep (S := S16x1024x512) (W35 m ρ c (Proc.devRef .tc main_v29)) (s2 (kTables m c)) :=
  rep_of_eq (stepH17 m ρ c main_v29 (by decide)) (sum3_2_at34 m ρ c)
theorem sum3_2_at36 (c : Dev nD) : Rep (S := S16x1024x512) (W36 m ρ c (Proc.devRef .tc main_v29)) (s2 (kTables m c)) :=
  rep_of_eq (stepR17 m ρ c main_v29 (by decide)) (sum3_2_at35 m ρ c)
theorem sum3_2_at37 (c : Dev nD) : Rep (S := S16x1024x512) (W37 m ρ c (Proc.devRef .tc main_v29)) (s2 (kTables m c)) :=
  rep_of_eq (stepH18 m ρ c main_v29 (by decide)) (sum3_2_at36 m ρ c)
theorem sum3_2_at38 (c : Dev nD) : Rep (S := S16x1024x512) (W38 m ρ c (Proc.devRef .tc main_v29)) (s2 (kTables m c)) :=
  rep_of_eq (stepR18 m ρ c main_v29 (by decide)) (sum3_2_at37 m ρ c)
theorem sum3_2_at39 (c : Dev nD) : Rep (S := S16x1024x512) (W39 m ρ c (Proc.devRef .tc main_v29)) (s2 (kTables m c)) :=
  rep_of_eq (stepH19 m ρ c main_v29 (by decide)) (sum3_2_at38 m ρ c)
theorem sum3_2_at40 (c : Dev nD) : Rep (S := S16x1024x512) (W40 m ρ c (Proc.devRef .tc main_v29)) (s2 (kTables m c)) :=
  rep_of_eq (stepR19 m ρ c main_v29 (by decide)) (sum3_2_at39 m ρ c)
theorem sum3_2_at41 (c : Dev nD) : Rep (S := S16x1024x512) (W41 m ρ c (Proc.devRef .tc main_v29)) (s2 (kTables m c)) :=
  rep_of_eq (stepH20 m ρ c main_v29 (by decide)) (sum3_2_at40 m ρ c)
theorem sum3_2_at42 (c : Dev nD) : Rep (S := S16x1024x512) (W42 m ρ c (Proc.devRef .tc main_v29)) (s2 (kTables m c)) :=
  rep_of_eq (stepR20 m ρ c main_v29 (by decide)) (sum3_2_at41 m ρ c)

/-! ## Summary 3 -/
theorem sum3_3_at8 (c : Dev nD) : Rep (S := S16x512x512) (W8 m ρ c (Proc.devRef .tc main_v41)) (s3 (kTables m c)) :=
  rep_of_eq (stepR3 m ρ c main_v41 (by decide)) (sum3_3_at7 m ρ c)
theorem sum3_3_at9 (c : Dev nD) : Rep (S := S16x512x512) (W9 m ρ c (Proc.devRef .tc main_v41)) (s3 (kTables m c)) :=
  rep_of_eq (stepH4 m ρ c main_v41 (by decide)) (sum3_3_at8 m ρ c)
theorem sum3_3_at10 (c : Dev nD) : Rep (S := S16x512x512) (W10 m ρ c (Proc.devRef .tc main_v41)) (s3 (kTables m c)) :=
  rep_of_eq (stepR4 m ρ c main_v41 (by decide)) (sum3_3_at9 m ρ c)
theorem sum3_3_at11 (c : Dev nD) : Rep (S := S16x512x512) (W11 m ρ c (Proc.devRef .tc main_v41)) (s3 (kTables m c)) :=
  rep_of_eq (stepH5 m ρ c main_v41 (by decide)) (sum3_3_at10 m ρ c)
theorem sum3_3_at12 (c : Dev nD) : Rep (S := S16x512x512) (W12 m ρ c (Proc.devRef .tc main_v41)) (s3 (kTables m c)) :=
  rep_of_eq (stepR5 m ρ c main_v41 (by decide)) (sum3_3_at11 m ρ c)
theorem sum3_3_at13 (c : Dev nD) : Rep (S := S16x512x512) (W13 m ρ c (Proc.devRef .tc main_v41)) (s3 (kTables m c)) :=
  rep_of_eq (stepH6 m ρ c main_v41 (by decide)) (sum3_3_at12 m ρ c)
theorem sum3_3_at14 (c : Dev nD) : Rep (S := S16x512x512) (W14 m ρ c (Proc.devRef .tc main_v41)) (s3 (kTables m c)) :=
  rep_of_eq (stepR6 m ρ c main_v41 (by decide)) (sum3_3_at13 m ρ c)
theorem sum3_3_at15 (c : Dev nD) : Rep (S := S16x512x512) (W15 m ρ c (Proc.devRef .tc main_v41)) (s3 (kTables m c)) :=
  rep_of_eq (stepH7 m ρ c main_v41 (by decide)) (sum3_3_at14 m ρ c)
theorem sum3_3_at16 (c : Dev nD) : Rep (S := S16x512x512) (W16 m ρ c (Proc.devRef .tc main_v41)) (s3 (kTables m c)) :=
  rep_of_eq (stepR7 m ρ c main_v41 (by decide)) (sum3_3_at15 m ρ c)
theorem sum3_3_at17 (c : Dev nD) : Rep (S := S16x512x512) (W17 m ρ c (Proc.devRef .tc main_v41)) (s3 (kTables m c)) :=
  rep_of_eq (stepH8 m ρ c main_v41 (by decide)) (sum3_3_at16 m ρ c)
theorem sum3_3_at18 (c : Dev nD) : Rep (S := S16x512x512) (W18 m ρ c (Proc.devRef .tc main_v41)) (s3 (kTables m c)) :=
  rep_of_eq (stepR8 m ρ c main_v41 (by decide)) (sum3_3_at17 m ρ c)
theorem sum3_3_at19 (c : Dev nD) : Rep (S := S16x512x512) (W19 m ρ c (Proc.devRef .tc main_v41)) (s3 (kTables m c)) :=
  rep_of_eq (stepH9 m ρ c main_v41 (by decide)) (sum3_3_at18 m ρ c)
theorem sum3_3_at20 (c : Dev nD) : Rep (S := S16x512x512) (W20 m ρ c (Proc.devRef .tc main_v41)) (s3 (kTables m c)) :=
  rep_of_eq (stepR9 m ρ c main_v41 (by decide)) (sum3_3_at19 m ρ c)
theorem sum3_3_at21 (c : Dev nD) : Rep (S := S16x512x512) (W21 m ρ c (Proc.devRef .tc main_v41)) (s3 (kTables m c)) :=
  rep_of_eq (stepH10 m ρ c main_v41 (by decide)) (sum3_3_at20 m ρ c)
theorem sum3_3_at22 (c : Dev nD) : Rep (S := S16x512x512) (W22 m ρ c (Proc.devRef .tc main_v41)) (s3 (kTables m c)) :=
  rep_of_eq (stepR10 m ρ c main_v41 (by decide)) (sum3_3_at21 m ρ c)
theorem sum3_3_at23 (c : Dev nD) : Rep (S := S16x512x512) (W23 m ρ c (Proc.devRef .tc main_v41)) (s3 (kTables m c)) :=
  rep_of_eq (stepH11 m ρ c main_v41 (by decide)) (sum3_3_at22 m ρ c)
theorem sum3_3_at24 (c : Dev nD) : Rep (S := S16x512x512) (W24 m ρ c (Proc.devRef .tc main_v41)) (s3 (kTables m c)) :=
  rep_of_eq (stepR11 m ρ c main_v41 (by decide)) (sum3_3_at23 m ρ c)
theorem sum3_3_at25 (c : Dev nD) : Rep (S := S16x512x512) (W25 m ρ c (Proc.devRef .tc main_v41)) (s3 (kTables m c)) :=
  rep_of_eq (stepH12 m ρ c main_v41 (by decide)) (sum3_3_at24 m ρ c)
theorem sum3_3_at26 (c : Dev nD) : Rep (S := S16x512x512) (W26 m ρ c (Proc.devRef .tc main_v41)) (s3 (kTables m c)) :=
  rep_of_eq (stepR12 m ρ c main_v41 (by decide)) (sum3_3_at25 m ρ c)
theorem sum3_3_at27 (c : Dev nD) : Rep (S := S16x512x512) (W27 m ρ c (Proc.devRef .tc main_v41)) (s3 (kTables m c)) :=
  rep_of_eq (stepH13 m ρ c main_v41 (by decide)) (sum3_3_at26 m ρ c)
theorem sum3_3_at28 (c : Dev nD) : Rep (S := S16x512x512) (W28 m ρ c (Proc.devRef .tc main_v41)) (s3 (kTables m c)) :=
  rep_of_eq (stepR13 m ρ c main_v41 (by decide)) (sum3_3_at27 m ρ c)
theorem sum3_3_at29 (c : Dev nD) : Rep (S := S16x512x512) (W29 m ρ c (Proc.devRef .tc main_v41)) (s3 (kTables m c)) :=
  rep_of_eq (stepH14 m ρ c main_v41 (by decide)) (sum3_3_at28 m ρ c)
theorem sum3_3_at30 (c : Dev nD) : Rep (S := S16x512x512) (W30 m ρ c (Proc.devRef .tc main_v41)) (s3 (kTables m c)) :=
  rep_of_eq (stepR14 m ρ c main_v41 (by decide)) (sum3_3_at29 m ρ c)
theorem sum3_3_at31 (c : Dev nD) : Rep (S := S16x512x512) (W31 m ρ c (Proc.devRef .tc main_v41)) (s3 (kTables m c)) :=
  rep_of_eq (stepH15 m ρ c main_v41 (by decide)) (sum3_3_at30 m ρ c)
theorem sum3_3_at32 (c : Dev nD) : Rep (S := S16x512x512) (W32 m ρ c (Proc.devRef .tc main_v41)) (s3 (kTables m c)) :=
  rep_of_eq (stepR15 m ρ c main_v41 (by decide)) (sum3_3_at31 m ρ c)
theorem sum3_3_at33 (c : Dev nD) : Rep (S := S16x512x512) (W33 m ρ c (Proc.devRef .tc main_v41)) (s3 (kTables m c)) :=
  rep_of_eq (stepH16 m ρ c main_v41 (by decide)) (sum3_3_at32 m ρ c)
theorem sum3_3_at34 (c : Dev nD) : Rep (S := S16x512x512) (W34 m ρ c (Proc.devRef .tc main_v41)) (s3 (kTables m c)) :=
  rep_of_eq (stepR16 m ρ c main_v41 (by decide)) (sum3_3_at33 m ρ c)
theorem sum3_3_at35 (c : Dev nD) : Rep (S := S16x512x512) (W35 m ρ c (Proc.devRef .tc main_v41)) (s3 (kTables m c)) :=
  rep_of_eq (stepH17 m ρ c main_v41 (by decide)) (sum3_3_at34 m ρ c)
theorem sum3_3_at36 (c : Dev nD) : Rep (S := S16x512x512) (W36 m ρ c (Proc.devRef .tc main_v41)) (s3 (kTables m c)) :=
  rep_of_eq (stepR17 m ρ c main_v41 (by decide)) (sum3_3_at35 m ρ c)
theorem sum3_3_at37 (c : Dev nD) : Rep (S := S16x512x512) (W37 m ρ c (Proc.devRef .tc main_v41)) (s3 (kTables m c)) :=
  rep_of_eq (stepH18 m ρ c main_v41 (by decide)) (sum3_3_at36 m ρ c)
theorem sum3_3_at38 (c : Dev nD) : Rep (S := S16x512x512) (W38 m ρ c (Proc.devRef .tc main_v41)) (s3 (kTables m c)) :=
  rep_of_eq (stepR18 m ρ c main_v41 (by decide)) (sum3_3_at37 m ρ c)
theorem sum3_3_at39 (c : Dev nD) : Rep (S := S16x512x512) (W39 m ρ c (Proc.devRef .tc main_v41)) (s3 (kTables m c)) :=
  rep_of_eq (stepH19 m ρ c main_v41 (by decide)) (sum3_3_at38 m ρ c)
theorem sum3_3_at40 (c : Dev nD) : Rep (S := S16x512x512) (W40 m ρ c (Proc.devRef .tc main_v41)) (s3 (kTables m c)) :=
  rep_of_eq (stepR19 m ρ c main_v41 (by decide)) (sum3_3_at39 m ρ c)

/-! ## Summary 4 -/
theorem sum3_4_at10 (c : Dev nD) : Rep (S := S16x256x512) (W10 m ρ c (Proc.devRef .tc main_v53)) (s4 (kTables m c)) :=
  rep_of_eq (stepR4 m ρ c main_v53 (by decide)) (sum3_4_at9 m ρ c)
theorem sum3_4_at11 (c : Dev nD) : Rep (S := S16x256x512) (W11 m ρ c (Proc.devRef .tc main_v53)) (s4 (kTables m c)) :=
  rep_of_eq (stepH5 m ρ c main_v53 (by decide)) (sum3_4_at10 m ρ c)
theorem sum3_4_at12 (c : Dev nD) : Rep (S := S16x256x512) (W12 m ρ c (Proc.devRef .tc main_v53)) (s4 (kTables m c)) :=
  rep_of_eq (stepR5 m ρ c main_v53 (by decide)) (sum3_4_at11 m ρ c)
theorem sum3_4_at13 (c : Dev nD) : Rep (S := S16x256x512) (W13 m ρ c (Proc.devRef .tc main_v53)) (s4 (kTables m c)) :=
  rep_of_eq (stepH6 m ρ c main_v53 (by decide)) (sum3_4_at12 m ρ c)
theorem sum3_4_at14 (c : Dev nD) : Rep (S := S16x256x512) (W14 m ρ c (Proc.devRef .tc main_v53)) (s4 (kTables m c)) :=
  rep_of_eq (stepR6 m ρ c main_v53 (by decide)) (sum3_4_at13 m ρ c)
theorem sum3_4_at15 (c : Dev nD) : Rep (S := S16x256x512) (W15 m ρ c (Proc.devRef .tc main_v53)) (s4 (kTables m c)) :=
  rep_of_eq (stepH7 m ρ c main_v53 (by decide)) (sum3_4_at14 m ρ c)
theorem sum3_4_at16 (c : Dev nD) : Rep (S := S16x256x512) (W16 m ρ c (Proc.devRef .tc main_v53)) (s4 (kTables m c)) :=
  rep_of_eq (stepR7 m ρ c main_v53 (by decide)) (sum3_4_at15 m ρ c)
theorem sum3_4_at17 (c : Dev nD) : Rep (S := S16x256x512) (W17 m ρ c (Proc.devRef .tc main_v53)) (s4 (kTables m c)) :=
  rep_of_eq (stepH8 m ρ c main_v53 (by decide)) (sum3_4_at16 m ρ c)
theorem sum3_4_at18 (c : Dev nD) : Rep (S := S16x256x512) (W18 m ρ c (Proc.devRef .tc main_v53)) (s4 (kTables m c)) :=
  rep_of_eq (stepR8 m ρ c main_v53 (by decide)) (sum3_4_at17 m ρ c)
theorem sum3_4_at19 (c : Dev nD) : Rep (S := S16x256x512) (W19 m ρ c (Proc.devRef .tc main_v53)) (s4 (kTables m c)) :=
  rep_of_eq (stepH9 m ρ c main_v53 (by decide)) (sum3_4_at18 m ρ c)
theorem sum3_4_at20 (c : Dev nD) : Rep (S := S16x256x512) (W20 m ρ c (Proc.devRef .tc main_v53)) (s4 (kTables m c)) :=
  rep_of_eq (stepR9 m ρ c main_v53 (by decide)) (sum3_4_at19 m ρ c)
theorem sum3_4_at21 (c : Dev nD) : Rep (S := S16x256x512) (W21 m ρ c (Proc.devRef .tc main_v53)) (s4 (kTables m c)) :=
  rep_of_eq (stepH10 m ρ c main_v53 (by decide)) (sum3_4_at20 m ρ c)
theorem sum3_4_at22 (c : Dev nD) : Rep (S := S16x256x512) (W22 m ρ c (Proc.devRef .tc main_v53)) (s4 (kTables m c)) :=
  rep_of_eq (stepR10 m ρ c main_v53 (by decide)) (sum3_4_at21 m ρ c)
theorem sum3_4_at23 (c : Dev nD) : Rep (S := S16x256x512) (W23 m ρ c (Proc.devRef .tc main_v53)) (s4 (kTables m c)) :=
  rep_of_eq (stepH11 m ρ c main_v53 (by decide)) (sum3_4_at22 m ρ c)
theorem sum3_4_at24 (c : Dev nD) : Rep (S := S16x256x512) (W24 m ρ c (Proc.devRef .tc main_v53)) (s4 (kTables m c)) :=
  rep_of_eq (stepR11 m ρ c main_v53 (by decide)) (sum3_4_at23 m ρ c)
theorem sum3_4_at25 (c : Dev nD) : Rep (S := S16x256x512) (W25 m ρ c (Proc.devRef .tc main_v53)) (s4 (kTables m c)) :=
  rep_of_eq (stepH12 m ρ c main_v53 (by decide)) (sum3_4_at24 m ρ c)
theorem sum3_4_at26 (c : Dev nD) : Rep (S := S16x256x512) (W26 m ρ c (Proc.devRef .tc main_v53)) (s4 (kTables m c)) :=
  rep_of_eq (stepR12 m ρ c main_v53 (by decide)) (sum3_4_at25 m ρ c)
theorem sum3_4_at27 (c : Dev nD) : Rep (S := S16x256x512) (W27 m ρ c (Proc.devRef .tc main_v53)) (s4 (kTables m c)) :=
  rep_of_eq (stepH13 m ρ c main_v53 (by decide)) (sum3_4_at26 m ρ c)
theorem sum3_4_at28 (c : Dev nD) : Rep (S := S16x256x512) (W28 m ρ c (Proc.devRef .tc main_v53)) (s4 (kTables m c)) :=
  rep_of_eq (stepR13 m ρ c main_v53 (by decide)) (sum3_4_at27 m ρ c)
theorem sum3_4_at29 (c : Dev nD) : Rep (S := S16x256x512) (W29 m ρ c (Proc.devRef .tc main_v53)) (s4 (kTables m c)) :=
  rep_of_eq (stepH14 m ρ c main_v53 (by decide)) (sum3_4_at28 m ρ c)
theorem sum3_4_at30 (c : Dev nD) : Rep (S := S16x256x512) (W30 m ρ c (Proc.devRef .tc main_v53)) (s4 (kTables m c)) :=
  rep_of_eq (stepR14 m ρ c main_v53 (by decide)) (sum3_4_at29 m ρ c)
theorem sum3_4_at31 (c : Dev nD) : Rep (S := S16x256x512) (W31 m ρ c (Proc.devRef .tc main_v53)) (s4 (kTables m c)) :=
  rep_of_eq (stepH15 m ρ c main_v53 (by decide)) (sum3_4_at30 m ρ c)
theorem sum3_4_at32 (c : Dev nD) : Rep (S := S16x256x512) (W32 m ρ c (Proc.devRef .tc main_v53)) (s4 (kTables m c)) :=
  rep_of_eq (stepR15 m ρ c main_v53 (by decide)) (sum3_4_at31 m ρ c)
theorem sum3_4_at33 (c : Dev nD) : Rep (S := S16x256x512) (W33 m ρ c (Proc.devRef .tc main_v53)) (s4 (kTables m c)) :=
  rep_of_eq (stepH16 m ρ c main_v53 (by decide)) (sum3_4_at32 m ρ c)
theorem sum3_4_at34 (c : Dev nD) : Rep (S := S16x256x512) (W34 m ρ c (Proc.devRef .tc main_v53)) (s4 (kTables m c)) :=
  rep_of_eq (stepR16 m ρ c main_v53 (by decide)) (sum3_4_at33 m ρ c)
theorem sum3_4_at35 (c : Dev nD) : Rep (S := S16x256x512) (W35 m ρ c (Proc.devRef .tc main_v53)) (s4 (kTables m c)) :=
  rep_of_eq (stepH17 m ρ c main_v53 (by decide)) (sum3_4_at34 m ρ c)
theorem sum3_4_at36 (c : Dev nD) : Rep (S := S16x256x512) (W36 m ρ c (Proc.devRef .tc main_v53)) (s4 (kTables m c)) :=
  rep_of_eq (stepR17 m ρ c main_v53 (by decide)) (sum3_4_at35 m ρ c)
theorem sum3_4_at37 (c : Dev nD) : Rep (S := S16x256x512) (W37 m ρ c (Proc.devRef .tc main_v53)) (s4 (kTables m c)) :=
  rep_of_eq (stepH18 m ρ c main_v53 (by decide)) (sum3_4_at36 m ρ c)
theorem sum3_4_at38 (c : Dev nD) : Rep (S := S16x256x512) (W38 m ρ c (Proc.devRef .tc main_v53)) (s4 (kTables m c)) :=
  rep_of_eq (stepR18 m ρ c main_v53 (by decide)) (sum3_4_at37 m ρ c)

/-! ## Summary 5 -/
theorem sum3_5_at12 (c : Dev nD) : Rep (S := S16x128x512) (W12 m ρ c (Proc.devRef .tc main_v65)) (s5 (kTables m c)) :=
  rep_of_eq (stepR5 m ρ c main_v65 (by decide)) (sum3_5_at11 m ρ c)
theorem sum3_5_at13 (c : Dev nD) : Rep (S := S16x128x512) (W13 m ρ c (Proc.devRef .tc main_v65)) (s5 (kTables m c)) :=
  rep_of_eq (stepH6 m ρ c main_v65 (by decide)) (sum3_5_at12 m ρ c)
theorem sum3_5_at14 (c : Dev nD) : Rep (S := S16x128x512) (W14 m ρ c (Proc.devRef .tc main_v65)) (s5 (kTables m c)) :=
  rep_of_eq (stepR6 m ρ c main_v65 (by decide)) (sum3_5_at13 m ρ c)
theorem sum3_5_at15 (c : Dev nD) : Rep (S := S16x128x512) (W15 m ρ c (Proc.devRef .tc main_v65)) (s5 (kTables m c)) :=
  rep_of_eq (stepH7 m ρ c main_v65 (by decide)) (sum3_5_at14 m ρ c)
theorem sum3_5_at16 (c : Dev nD) : Rep (S := S16x128x512) (W16 m ρ c (Proc.devRef .tc main_v65)) (s5 (kTables m c)) :=
  rep_of_eq (stepR7 m ρ c main_v65 (by decide)) (sum3_5_at15 m ρ c)
theorem sum3_5_at17 (c : Dev nD) : Rep (S := S16x128x512) (W17 m ρ c (Proc.devRef .tc main_v65)) (s5 (kTables m c)) :=
  rep_of_eq (stepH8 m ρ c main_v65 (by decide)) (sum3_5_at16 m ρ c)
theorem sum3_5_at18 (c : Dev nD) : Rep (S := S16x128x512) (W18 m ρ c (Proc.devRef .tc main_v65)) (s5 (kTables m c)) :=
  rep_of_eq (stepR8 m ρ c main_v65 (by decide)) (sum3_5_at17 m ρ c)
theorem sum3_5_at19 (c : Dev nD) : Rep (S := S16x128x512) (W19 m ρ c (Proc.devRef .tc main_v65)) (s5 (kTables m c)) :=
  rep_of_eq (stepH9 m ρ c main_v65 (by decide)) (sum3_5_at18 m ρ c)
theorem sum3_5_at20 (c : Dev nD) : Rep (S := S16x128x512) (W20 m ρ c (Proc.devRef .tc main_v65)) (s5 (kTables m c)) :=
  rep_of_eq (stepR9 m ρ c main_v65 (by decide)) (sum3_5_at19 m ρ c)
theorem sum3_5_at21 (c : Dev nD) : Rep (S := S16x128x512) (W21 m ρ c (Proc.devRef .tc main_v65)) (s5 (kTables m c)) :=
  rep_of_eq (stepH10 m ρ c main_v65 (by decide)) (sum3_5_at20 m ρ c)
theorem sum3_5_at22 (c : Dev nD) : Rep (S := S16x128x512) (W22 m ρ c (Proc.devRef .tc main_v65)) (s5 (kTables m c)) :=
  rep_of_eq (stepR10 m ρ c main_v65 (by decide)) (sum3_5_at21 m ρ c)
theorem sum3_5_at23 (c : Dev nD) : Rep (S := S16x128x512) (W23 m ρ c (Proc.devRef .tc main_v65)) (s5 (kTables m c)) :=
  rep_of_eq (stepH11 m ρ c main_v65 (by decide)) (sum3_5_at22 m ρ c)
theorem sum3_5_at24 (c : Dev nD) : Rep (S := S16x128x512) (W24 m ρ c (Proc.devRef .tc main_v65)) (s5 (kTables m c)) :=
  rep_of_eq (stepR11 m ρ c main_v65 (by decide)) (sum3_5_at23 m ρ c)
theorem sum3_5_at25 (c : Dev nD) : Rep (S := S16x128x512) (W25 m ρ c (Proc.devRef .tc main_v65)) (s5 (kTables m c)) :=
  rep_of_eq (stepH12 m ρ c main_v65 (by decide)) (sum3_5_at24 m ρ c)
theorem sum3_5_at26 (c : Dev nD) : Rep (S := S16x128x512) (W26 m ρ c (Proc.devRef .tc main_v65)) (s5 (kTables m c)) :=
  rep_of_eq (stepR12 m ρ c main_v65 (by decide)) (sum3_5_at25 m ρ c)
theorem sum3_5_at27 (c : Dev nD) : Rep (S := S16x128x512) (W27 m ρ c (Proc.devRef .tc main_v65)) (s5 (kTables m c)) :=
  rep_of_eq (stepH13 m ρ c main_v65 (by decide)) (sum3_5_at26 m ρ c)
theorem sum3_5_at28 (c : Dev nD) : Rep (S := S16x128x512) (W28 m ρ c (Proc.devRef .tc main_v65)) (s5 (kTables m c)) :=
  rep_of_eq (stepR13 m ρ c main_v65 (by decide)) (sum3_5_at27 m ρ c)
theorem sum3_5_at29 (c : Dev nD) : Rep (S := S16x128x512) (W29 m ρ c (Proc.devRef .tc main_v65)) (s5 (kTables m c)) :=
  rep_of_eq (stepH14 m ρ c main_v65 (by decide)) (sum3_5_at28 m ρ c)
theorem sum3_5_at30 (c : Dev nD) : Rep (S := S16x128x512) (W30 m ρ c (Proc.devRef .tc main_v65)) (s5 (kTables m c)) :=
  rep_of_eq (stepR14 m ρ c main_v65 (by decide)) (sum3_5_at29 m ρ c)
theorem sum3_5_at31 (c : Dev nD) : Rep (S := S16x128x512) (W31 m ρ c (Proc.devRef .tc main_v65)) (s5 (kTables m c)) :=
  rep_of_eq (stepH15 m ρ c main_v65 (by decide)) (sum3_5_at30 m ρ c)
theorem sum3_5_at32 (c : Dev nD) : Rep (S := S16x128x512) (W32 m ρ c (Proc.devRef .tc main_v65)) (s5 (kTables m c)) :=
  rep_of_eq (stepR15 m ρ c main_v65 (by decide)) (sum3_5_at31 m ρ c)
theorem sum3_5_at33 (c : Dev nD) : Rep (S := S16x128x512) (W33 m ρ c (Proc.devRef .tc main_v65)) (s5 (kTables m c)) :=
  rep_of_eq (stepH16 m ρ c main_v65 (by decide)) (sum3_5_at32 m ρ c)
theorem sum3_5_at34 (c : Dev nD) : Rep (S := S16x128x512) (W34 m ρ c (Proc.devRef .tc main_v65)) (s5 (kTables m c)) :=
  rep_of_eq (stepR16 m ρ c main_v65 (by decide)) (sum3_5_at33 m ρ c)
theorem sum3_5_at35 (c : Dev nD) : Rep (S := S16x128x512) (W35 m ρ c (Proc.devRef .tc main_v65)) (s5 (kTables m c)) :=
  rep_of_eq (stepH17 m ρ c main_v65 (by decide)) (sum3_5_at34 m ρ c)
theorem sum3_5_at36 (c : Dev nD) : Rep (S := S16x128x512) (W36 m ρ c (Proc.devRef .tc main_v65)) (s5 (kTables m c)) :=
  rep_of_eq (stepR17 m ρ c main_v65 (by decide)) (sum3_5_at35 m ρ c)

/-! ## Summary 6 -/
theorem sum3_6_at14 (c : Dev nD) : Rep (S := S16x64x512) (W14 m ρ c (Proc.devRef .tc main_v77)) (s6 (kTables m c)) :=
  rep_of_eq (stepR6 m ρ c main_v77 (by decide)) (sum3_6_at13 m ρ c)
theorem sum3_6_at15 (c : Dev nD) : Rep (S := S16x64x512) (W15 m ρ c (Proc.devRef .tc main_v77)) (s6 (kTables m c)) :=
  rep_of_eq (stepH7 m ρ c main_v77 (by decide)) (sum3_6_at14 m ρ c)
theorem sum3_6_at16 (c : Dev nD) : Rep (S := S16x64x512) (W16 m ρ c (Proc.devRef .tc main_v77)) (s6 (kTables m c)) :=
  rep_of_eq (stepR7 m ρ c main_v77 (by decide)) (sum3_6_at15 m ρ c)
theorem sum3_6_at17 (c : Dev nD) : Rep (S := S16x64x512) (W17 m ρ c (Proc.devRef .tc main_v77)) (s6 (kTables m c)) :=
  rep_of_eq (stepH8 m ρ c main_v77 (by decide)) (sum3_6_at16 m ρ c)
theorem sum3_6_at18 (c : Dev nD) : Rep (S := S16x64x512) (W18 m ρ c (Proc.devRef .tc main_v77)) (s6 (kTables m c)) :=
  rep_of_eq (stepR8 m ρ c main_v77 (by decide)) (sum3_6_at17 m ρ c)
theorem sum3_6_at19 (c : Dev nD) : Rep (S := S16x64x512) (W19 m ρ c (Proc.devRef .tc main_v77)) (s6 (kTables m c)) :=
  rep_of_eq (stepH9 m ρ c main_v77 (by decide)) (sum3_6_at18 m ρ c)
theorem sum3_6_at20 (c : Dev nD) : Rep (S := S16x64x512) (W20 m ρ c (Proc.devRef .tc main_v77)) (s6 (kTables m c)) :=
  rep_of_eq (stepR9 m ρ c main_v77 (by decide)) (sum3_6_at19 m ρ c)
theorem sum3_6_at21 (c : Dev nD) : Rep (S := S16x64x512) (W21 m ρ c (Proc.devRef .tc main_v77)) (s6 (kTables m c)) :=
  rep_of_eq (stepH10 m ρ c main_v77 (by decide)) (sum3_6_at20 m ρ c)
theorem sum3_6_at22 (c : Dev nD) : Rep (S := S16x64x512) (W22 m ρ c (Proc.devRef .tc main_v77)) (s6 (kTables m c)) :=
  rep_of_eq (stepR10 m ρ c main_v77 (by decide)) (sum3_6_at21 m ρ c)
theorem sum3_6_at23 (c : Dev nD) : Rep (S := S16x64x512) (W23 m ρ c (Proc.devRef .tc main_v77)) (s6 (kTables m c)) :=
  rep_of_eq (stepH11 m ρ c main_v77 (by decide)) (sum3_6_at22 m ρ c)
theorem sum3_6_at24 (c : Dev nD) : Rep (S := S16x64x512) (W24 m ρ c (Proc.devRef .tc main_v77)) (s6 (kTables m c)) :=
  rep_of_eq (stepR11 m ρ c main_v77 (by decide)) (sum3_6_at23 m ρ c)
theorem sum3_6_at25 (c : Dev nD) : Rep (S := S16x64x512) (W25 m ρ c (Proc.devRef .tc main_v77)) (s6 (kTables m c)) :=
  rep_of_eq (stepH12 m ρ c main_v77 (by decide)) (sum3_6_at24 m ρ c)
theorem sum3_6_at26 (c : Dev nD) : Rep (S := S16x64x512) (W26 m ρ c (Proc.devRef .tc main_v77)) (s6 (kTables m c)) :=
  rep_of_eq (stepR12 m ρ c main_v77 (by decide)) (sum3_6_at25 m ρ c)
theorem sum3_6_at27 (c : Dev nD) : Rep (S := S16x64x512) (W27 m ρ c (Proc.devRef .tc main_v77)) (s6 (kTables m c)) :=
  rep_of_eq (stepH13 m ρ c main_v77 (by decide)) (sum3_6_at26 m ρ c)
theorem sum3_6_at28 (c : Dev nD) : Rep (S := S16x64x512) (W28 m ρ c (Proc.devRef .tc main_v77)) (s6 (kTables m c)) :=
  rep_of_eq (stepR13 m ρ c main_v77 (by decide)) (sum3_6_at27 m ρ c)
theorem sum3_6_at29 (c : Dev nD) : Rep (S := S16x64x512) (W29 m ρ c (Proc.devRef .tc main_v77)) (s6 (kTables m c)) :=
  rep_of_eq (stepH14 m ρ c main_v77 (by decide)) (sum3_6_at28 m ρ c)
theorem sum3_6_at30 (c : Dev nD) : Rep (S := S16x64x512) (W30 m ρ c (Proc.devRef .tc main_v77)) (s6 (kTables m c)) :=
  rep_of_eq (stepR14 m ρ c main_v77 (by decide)) (sum3_6_at29 m ρ c)
theorem sum3_6_at31 (c : Dev nD) : Rep (S := S16x64x512) (W31 m ρ c (Proc.devRef .tc main_v77)) (s6 (kTables m c)) :=
  rep_of_eq (stepH15 m ρ c main_v77 (by decide)) (sum3_6_at30 m ρ c)
theorem sum3_6_at32 (c : Dev nD) : Rep (S := S16x64x512) (W32 m ρ c (Proc.devRef .tc main_v77)) (s6 (kTables m c)) :=
  rep_of_eq (stepR15 m ρ c main_v77 (by decide)) (sum3_6_at31 m ρ c)
theorem sum3_6_at33 (c : Dev nD) : Rep (S := S16x64x512) (W33 m ρ c (Proc.devRef .tc main_v77)) (s6 (kTables m c)) :=
  rep_of_eq (stepH16 m ρ c main_v77 (by decide)) (sum3_6_at32 m ρ c)
theorem sum3_6_at34 (c : Dev nD) : Rep (S := S16x64x512) (W34 m ρ c (Proc.devRef .tc main_v77)) (s6 (kTables m c)) :=
  rep_of_eq (stepR16 m ρ c main_v77 (by decide)) (sum3_6_at33 m ρ c)

/-! ## Summary 7 -/
theorem sum3_7_at16 (c : Dev nD) : Rep (S := S16x32x512) (W16 m ρ c (Proc.devRef .tc main_v89)) (s7 (kTables m c)) :=
  rep_of_eq (stepR7 m ρ c main_v89 (by decide)) (sum3_7_at15 m ρ c)
theorem sum3_7_at17 (c : Dev nD) : Rep (S := S16x32x512) (W17 m ρ c (Proc.devRef .tc main_v89)) (s7 (kTables m c)) :=
  rep_of_eq (stepH8 m ρ c main_v89 (by decide)) (sum3_7_at16 m ρ c)
theorem sum3_7_at18 (c : Dev nD) : Rep (S := S16x32x512) (W18 m ρ c (Proc.devRef .tc main_v89)) (s7 (kTables m c)) :=
  rep_of_eq (stepR8 m ρ c main_v89 (by decide)) (sum3_7_at17 m ρ c)
theorem sum3_7_at19 (c : Dev nD) : Rep (S := S16x32x512) (W19 m ρ c (Proc.devRef .tc main_v89)) (s7 (kTables m c)) :=
  rep_of_eq (stepH9 m ρ c main_v89 (by decide)) (sum3_7_at18 m ρ c)
theorem sum3_7_at20 (c : Dev nD) : Rep (S := S16x32x512) (W20 m ρ c (Proc.devRef .tc main_v89)) (s7 (kTables m c)) :=
  rep_of_eq (stepR9 m ρ c main_v89 (by decide)) (sum3_7_at19 m ρ c)
theorem sum3_7_at21 (c : Dev nD) : Rep (S := S16x32x512) (W21 m ρ c (Proc.devRef .tc main_v89)) (s7 (kTables m c)) :=
  rep_of_eq (stepH10 m ρ c main_v89 (by decide)) (sum3_7_at20 m ρ c)
theorem sum3_7_at22 (c : Dev nD) : Rep (S := S16x32x512) (W22 m ρ c (Proc.devRef .tc main_v89)) (s7 (kTables m c)) :=
  rep_of_eq (stepR10 m ρ c main_v89 (by decide)) (sum3_7_at21 m ρ c)
theorem sum3_7_at23 (c : Dev nD) : Rep (S := S16x32x512) (W23 m ρ c (Proc.devRef .tc main_v89)) (s7 (kTables m c)) :=
  rep_of_eq (stepH11 m ρ c main_v89 (by decide)) (sum3_7_at22 m ρ c)
theorem sum3_7_at24 (c : Dev nD) : Rep (S := S16x32x512) (W24 m ρ c (Proc.devRef .tc main_v89)) (s7 (kTables m c)) :=
  rep_of_eq (stepR11 m ρ c main_v89 (by decide)) (sum3_7_at23 m ρ c)
theorem sum3_7_at25 (c : Dev nD) : Rep (S := S16x32x512) (W25 m ρ c (Proc.devRef .tc main_v89)) (s7 (kTables m c)) :=
  rep_of_eq (stepH12 m ρ c main_v89 (by decide)) (sum3_7_at24 m ρ c)
theorem sum3_7_at26 (c : Dev nD) : Rep (S := S16x32x512) (W26 m ρ c (Proc.devRef .tc main_v89)) (s7 (kTables m c)) :=
  rep_of_eq (stepR12 m ρ c main_v89 (by decide)) (sum3_7_at25 m ρ c)
theorem sum3_7_at27 (c : Dev nD) : Rep (S := S16x32x512) (W27 m ρ c (Proc.devRef .tc main_v89)) (s7 (kTables m c)) :=
  rep_of_eq (stepH13 m ρ c main_v89 (by decide)) (sum3_7_at26 m ρ c)
theorem sum3_7_at28 (c : Dev nD) : Rep (S := S16x32x512) (W28 m ρ c (Proc.devRef .tc main_v89)) (s7 (kTables m c)) :=
  rep_of_eq (stepR13 m ρ c main_v89 (by decide)) (sum3_7_at27 m ρ c)
theorem sum3_7_at29 (c : Dev nD) : Rep (S := S16x32x512) (W29 m ρ c (Proc.devRef .tc main_v89)) (s7 (kTables m c)) :=
  rep_of_eq (stepH14 m ρ c main_v89 (by decide)) (sum3_7_at28 m ρ c)
theorem sum3_7_at30 (c : Dev nD) : Rep (S := S16x32x512) (W30 m ρ c (Proc.devRef .tc main_v89)) (s7 (kTables m c)) :=
  rep_of_eq (stepR14 m ρ c main_v89 (by decide)) (sum3_7_at29 m ρ c)
theorem sum3_7_at31 (c : Dev nD) : Rep (S := S16x32x512) (W31 m ρ c (Proc.devRef .tc main_v89)) (s7 (kTables m c)) :=
  rep_of_eq (stepH15 m ρ c main_v89 (by decide)) (sum3_7_at30 m ρ c)
theorem sum3_7_at32 (c : Dev nD) : Rep (S := S16x32x512) (W32 m ρ c (Proc.devRef .tc main_v89)) (s7 (kTables m c)) :=
  rep_of_eq (stepR15 m ρ c main_v89 (by decide)) (sum3_7_at31 m ρ c)

/-! ## Summary 8 -/
theorem sum3_8_at18 (c : Dev nD) : Rep (S := S16x16x512) (W18 m ρ c (Proc.devRef .tc main_v101)) (s8 (kTables m c)) :=
  rep_of_eq (stepR8 m ρ c main_v101 (by decide)) (sum3_8_at17 m ρ c)
theorem sum3_8_at19 (c : Dev nD) : Rep (S := S16x16x512) (W19 m ρ c (Proc.devRef .tc main_v101)) (s8 (kTables m c)) :=
  rep_of_eq (stepH9 m ρ c main_v101 (by decide)) (sum3_8_at18 m ρ c)
theorem sum3_8_at20 (c : Dev nD) : Rep (S := S16x16x512) (W20 m ρ c (Proc.devRef .tc main_v101)) (s8 (kTables m c)) :=
  rep_of_eq (stepR9 m ρ c main_v101 (by decide)) (sum3_8_at19 m ρ c)
theorem sum3_8_at21 (c : Dev nD) : Rep (S := S16x16x512) (W21 m ρ c (Proc.devRef .tc main_v101)) (s8 (kTables m c)) :=
  rep_of_eq (stepH10 m ρ c main_v101 (by decide)) (sum3_8_at20 m ρ c)
theorem sum3_8_at22 (c : Dev nD) : Rep (S := S16x16x512) (W22 m ρ c (Proc.devRef .tc main_v101)) (s8 (kTables m c)) :=
  rep_of_eq (stepR10 m ρ c main_v101 (by decide)) (sum3_8_at21 m ρ c)
theorem sum3_8_at23 (c : Dev nD) : Rep (S := S16x16x512) (W23 m ρ c (Proc.devRef .tc main_v101)) (s8 (kTables m c)) :=
  rep_of_eq (stepH11 m ρ c main_v101 (by decide)) (sum3_8_at22 m ρ c)
theorem sum3_8_at24 (c : Dev nD) : Rep (S := S16x16x512) (W24 m ρ c (Proc.devRef .tc main_v101)) (s8 (kTables m c)) :=
  rep_of_eq (stepR11 m ρ c main_v101 (by decide)) (sum3_8_at23 m ρ c)
theorem sum3_8_at25 (c : Dev nD) : Rep (S := S16x16x512) (W25 m ρ c (Proc.devRef .tc main_v101)) (s8 (kTables m c)) :=
  rep_of_eq (stepH12 m ρ c main_v101 (by decide)) (sum3_8_at24 m ρ c)
theorem sum3_8_at26 (c : Dev nD) : Rep (S := S16x16x512) (W26 m ρ c (Proc.devRef .tc main_v101)) (s8 (kTables m c)) :=
  rep_of_eq (stepR12 m ρ c main_v101 (by decide)) (sum3_8_at25 m ρ c)
theorem sum3_8_at27 (c : Dev nD) : Rep (S := S16x16x512) (W27 m ρ c (Proc.devRef .tc main_v101)) (s8 (kTables m c)) :=
  rep_of_eq (stepH13 m ρ c main_v101 (by decide)) (sum3_8_at26 m ρ c)
theorem sum3_8_at28 (c : Dev nD) : Rep (S := S16x16x512) (W28 m ρ c (Proc.devRef .tc main_v101)) (s8 (kTables m c)) :=
  rep_of_eq (stepR13 m ρ c main_v101 (by decide)) (sum3_8_at27 m ρ c)
theorem sum3_8_at29 (c : Dev nD) : Rep (S := S16x16x512) (W29 m ρ c (Proc.devRef .tc main_v101)) (s8 (kTables m c)) :=
  rep_of_eq (stepH14 m ρ c main_v101 (by decide)) (sum3_8_at28 m ρ c)
theorem sum3_8_at30 (c : Dev nD) : Rep (S := S16x16x512) (W30 m ρ c (Proc.devRef .tc main_v101)) (s8 (kTables m c)) :=
  rep_of_eq (stepR14 m ρ c main_v101 (by decide)) (sum3_8_at29 m ρ c)

/-! ## Summary 9 -/
theorem sum3_9_at20 (c : Dev nD) : Rep (S := S16x8x512) (W20 m ρ c (Proc.devRef .tc main_v113)) (s9 (kTables m c)) :=
  rep_of_eq (stepR9 m ρ c main_v113 (by decide)) (sum3_9_at19 m ρ c)
theorem sum3_9_at21 (c : Dev nD) : Rep (S := S16x8x512) (W21 m ρ c (Proc.devRef .tc main_v113)) (s9 (kTables m c)) :=
  rep_of_eq (stepH10 m ρ c main_v113 (by decide)) (sum3_9_at20 m ρ c)
theorem sum3_9_at22 (c : Dev nD) : Rep (S := S16x8x512) (W22 m ρ c (Proc.devRef .tc main_v113)) (s9 (kTables m c)) :=
  rep_of_eq (stepR10 m ρ c main_v113 (by decide)) (sum3_9_at21 m ρ c)
theorem sum3_9_at23 (c : Dev nD) : Rep (S := S16x8x512) (W23 m ρ c (Proc.devRef .tc main_v113)) (s9 (kTables m c)) :=
  rep_of_eq (stepH11 m ρ c main_v113 (by decide)) (sum3_9_at22 m ρ c)
theorem sum3_9_at24 (c : Dev nD) : Rep (S := S16x8x512) (W24 m ρ c (Proc.devRef .tc main_v113)) (s9 (kTables m c)) :=
  rep_of_eq (stepR11 m ρ c main_v113 (by decide)) (sum3_9_at23 m ρ c)
theorem sum3_9_at25 (c : Dev nD) : Rep (S := S16x8x512) (W25 m ρ c (Proc.devRef .tc main_v113)) (s9 (kTables m c)) :=
  rep_of_eq (stepH12 m ρ c main_v113 (by decide)) (sum3_9_at24 m ρ c)
theorem sum3_9_at26 (c : Dev nD) : Rep (S := S16x8x512) (W26 m ρ c (Proc.devRef .tc main_v113)) (s9 (kTables m c)) :=
  rep_of_eq (stepR12 m ρ c main_v113 (by decide)) (sum3_9_at25 m ρ c)
theorem sum3_9_at27 (c : Dev nD) : Rep (S := S16x8x512) (W27 m ρ c (Proc.devRef .tc main_v113)) (s9 (kTables m c)) :=
  rep_of_eq (stepH13 m ρ c main_v113 (by decide)) (sum3_9_at26 m ρ c)
theorem sum3_9_at28 (c : Dev nD) : Rep (S := S16x8x512) (W28 m ρ c (Proc.devRef .tc main_v113)) (s9 (kTables m c)) :=
  rep_of_eq (stepR13 m ρ c main_v113 (by decide)) (sum3_9_at27 m ρ c)

/-! ## Summary 10 -/
theorem sum3_10_at22 (c : Dev nD) : Rep (S := S16x4x512) (W22 m ρ c (Proc.devRef .tc main_v125)) (s10 (kTables m c)) :=
  rep_of_eq (stepR10 m ρ c main_v125 (by decide)) (sum3_10_at21 m ρ c)
theorem sum3_10_at23 (c : Dev nD) : Rep (S := S16x4x512) (W23 m ρ c (Proc.devRef .tc main_v125)) (s10 (kTables m c)) :=
  rep_of_eq (stepH11 m ρ c main_v125 (by decide)) (sum3_10_at22 m ρ c)
theorem sum3_10_at24 (c : Dev nD) : Rep (S := S16x4x512) (W24 m ρ c (Proc.devRef .tc main_v125)) (s10 (kTables m c)) :=
  rep_of_eq (stepR11 m ρ c main_v125 (by decide)) (sum3_10_at23 m ρ c)
theorem sum3_10_at25 (c : Dev nD) : Rep (S := S16x4x512) (W25 m ρ c (Proc.devRef .tc main_v125)) (s10 (kTables m c)) :=
  rep_of_eq (stepH12 m ρ c main_v125 (by decide)) (sum3_10_at24 m ρ c)
theorem sum3_10_at26 (c : Dev nD) : Rep (S := S16x4x512) (W26 m ρ c (Proc.devRef .tc main_v125)) (s10 (kTables m c)) :=
  rep_of_eq (stepR12 m ρ c main_v125 (by decide)) (sum3_10_at25 m ρ c)

/-! ## Summary 11 -/
theorem sum3_11_at24 (c : Dev nD) : Rep (S := S16x2x512) (W24 m ρ c (Proc.devRef .tc main_v137)) (s11 (kTables m c)) :=
  rep_of_eq (stepR11 m ρ c main_v137 (by decide)) (sum3_11_at23 m ρ c)

end Cert.KernelIdeal.KValue

end
-- ==== Proof.KernelDown.lean ====
/-
  The idealized kernel's down sweep and leaf layer: each down region reads the context its predecessor left (zero at the root) and the matching summary of the up sweep, and leaves the next context; the leaf region leaves the result.
-/
import proofs.«113582_j30116310680263_2_alg».proof.Proof.Gen.KernelIdeal.Frame
import Idealize.ShloMosaic.Lib.StableHlo.Run
import proofs.«113582_j30116310680263_2_alg».proof.Proof.LibRowMajor
import proofs.«113582_j30116310680263_2_alg».proof.Proof.LibSpikeLayer
import proofs.«113582_j30116310680263_2_alg».proof.Proof.LibSpikeBlock
import proofs.«113582_j30116310680263_2_alg».proof.Proof.TreeSpec
import proofs.«113582_j30116310680263_2_alg».proof.Proof.Persist
import proofs.«113582_j30116310680263_2_alg».proof.Proof.RegionUp
import proofs.«113582_j30116310680263_2_alg».proof.Proof.RegionDown
import proofs.«113582_j30116310680263_2_alg».proof.Proof.RegionLeaf
import proofs.«113582_j30116310680263_2_alg».proof.Proof.KernelUp
import proofs.«113582_j30116310680263_2_alg».proof.Proof.KernelCarry

set_option maxRecDepth 16384

noncomputable section

namespace Cert.KernelIdeal.KValue

open Cert.KernelIdeal Cert.KernelIdeal.Gen Idealize.ShloMosaic Idealize.ShloMosaic.ValueIdx Idealize.ShloMosaic.TcCoe Idealize.SL.Sem Idealize.ShloMosaic.StableHlo
open Cert.Lib.RowMajor Cert.Lib.SpikeLayer Cert.Lib.SpikeBlock Cert.TreeSpec Cert.KernelIdeal.Keep

variable (m : (ℓ : Loc nD τ sig) → Buf (Elt Ideal) ℓ) (ρ : Dev nD → PrngReg)

theorem ofBits_zero_bf16' : Ideal.ofBits .bf16 0x0000#16 = 0 := by simp [Ideal.ofBits, Ideal.ieee]

/-! ## Down step 0 (region 12) -/

theorem ctxIn0 (c : Dev nD) : Rep (S := S16x512) (V25 m ρ c main_v153) (c0 (kTables m c)) := by
  show Rep (S := S16x512) (StableHlo.after hostOps12 (W24 m ρ c) (Proc.devRef .tc main_v153)) _
  after_results
  exact rep_congr (rep_shapeCast (rep_const _ _) _) (fun _ => ofBits_zero_bf16')

theorem parent0 (c : Dev nD) : Rep (S := S16x1024) (V25 m ρ c main_v152) (s11 (kTables m c)) := by
  show Rep (S := S16x1024) (StableHlo.after hostOps12 (W24 m ρ c) (Proc.devRef .tc main_v152)) _
  after_results
  exact rep_shapeCast (rep_shapeCast (sum3_11_at24 m ρ c) _) _

theorem wtA0 (c : Dev nD) : WtRep (K := 512) (N := 512) 1024 0 (V25 m ρ c main_v156) (fun q => (kTables m c).dW (11 * (512 * 1024) + q)) := by
  show WtRep (K := 512) (N := 512) 1024 0 (StableHlo.after hostOps12 (W24 m ρ c) (Proc.devRef .tc main_v156)) _
  after_results
  rw [keepTo24 m ρ c main_v3 (by decide), v3_at1]
  exact wt_rows (wt_of_stack (rep_flatOf _) 11 (by omega) _ _ _ _) 0 (by omega) _

theorem wtB0 (c : Dev nD) : WtRep (K := 512) (N := 512) 1024 512 (V25 m ρ c main_v159) (fun q => (kTables m c).dW (11 * (512 * 1024) + q)) := by
  show WtRep (K := 512) (N := 512) 1024 512 (StableHlo.after hostOps12 (W24 m ρ c) (Proc.devRef .tc main_v159)) _
  after_results
  rw [keepTo24 m ρ c main_v3 (by decide), v3_at1]
  exact wt_rows (wt_of_stack (rep_flatOf _) 11 (by omega) _ _ _ _) 512 (by omega) _

theorem dbias0 (c : Dev nD) : RowRep (N := 512) (V25 m ρ c main_v162) (fun q => (kTables m c).db (11 * 512 + q)) := by
  show RowRep (N := 512) (StableHlo.after hostOps12 (W24 m ρ c) (Proc.devRef .tc main_v162)) _
  after_results
  rw [arg5_at24]
  exact rowRep_of_rep (rep_shapeCast (rep_shapeCast (rep_slice2 (rep_flatOf _) 11 (by omega) _) _) _)

theorem dthr0 (c : Dev nD) : RowRep (N := 512) (V25 m ρ c main_v165) (fun q => (kTables m c).dt (11 * 512 + q)) := by
  show RowRep (N := 512) (StableHlo.after hostOps12 (W24 m ρ c) (Proc.devRef .tc main_v165)) _
  after_results
  rw [arg6_at24]
  exact rowRep_of_rep (rep_shapeCast (rep_shapeCast (rep_slice2 (rep_flatOf _) 11 (by omega) _) _) _)

/-- Region 12 leaves context 1. -/
theorem kC1 (c : Dev nD) : Rep (S := S16x1024) (V26 m ρ c main_v166) (c1 (kTables m c)) := by
  have h := RegionDown.region12 (V25 m ρ) c (ctxIn0 m ρ c) (parent0 m ρ c) (wtA0 m ρ c) (wtB0 m ρ c) (dbias0 m ρ c) (dthr0 m ρ c)
  exact fun i => (congrFun (W26_arr m ρ c 6) i).trans (h i)

/-! ## Down step 1 (region 13) -/

theorem ctxIn1 (c : Dev nD) : Rep (S := S32x512) (V27 m ρ c main_v170) (c1 (kTables m c)) := by
  show Rep (S := S32x512) (StableHlo.after hostOps13 (W26 m ρ c) (Proc.devRef .tc main_v170)) _
  after_results
  exact rep_shapeCast (rep_shapeCast (kC1 m ρ c) _) _

theorem parent1 (c : Dev nD) : Rep (S := S32x1024) (V27 m ρ c main_v169) (s10 (kTables m c)) := by
  show Rep (S := S32x1024) (StableHlo.after hostOps13 (W26 m ρ c) (Proc.devRef .tc main_v169)) _
  after_results
  exact rep_shapeCast (rep_shapeCast (sum3_10_at26 m ρ c) _) _

theorem wtA1 (c : Dev nD) : WtRep (K := 512) (N := 512) 1024 0 (V27 m ρ c main_v173) (fun q => (kTables m c).dW (10 * (512 * 1024) + q)) := by
  show WtRep (K := 512) (N := 512) 1024 0 (StableHlo.after hostOps13 (W26 m ρ c) (Proc.devRef .tc main_v173)) _
  after_results
  rw [keepTo26 m ρ c main_v3 (by decide), v3_at1]
  exact wt_rows (wt_of_stack (rep_flatOf _) 10 (by omega) _ _ _ _) 0 (by omega) _

theorem wtB1 (c : Dev nD) : WtRep (K := 512) (N := 512) 1024 512 (V27 m ρ c main_v176) (fun q => (kTables m c).dW (10 * (512 * 1024) + q)) := by
  show WtRep (K := 512) (N := 512) 1024 512 (StableHlo.after hostOps13 (W26 m ρ c) (Proc.devRef .tc main_v176)) _
  after_results
  rw [keepTo26 m ρ c main_v3 (by decide), v3_at1]
  exact wt_rows (wt_of_stack (rep_flatOf _) 10 (by omega) _ _ _ _) 512 (by omega) _

theorem dbias1 (c : Dev nD) : RowRep (N := 512) (V27 m ρ c main_v179) (fun q => (kTables m c).db (10 * 512 + q)) := by
  show RowRep (N := 512) (StableHlo.after hostOps13 (W26 m ρ c) (Proc.devRef .tc main_v179)) _
  after_results
  rw [arg5_at26]
  exact rowRep_of_rep (rep_shapeCast (rep_shapeCast (rep_slice2 (rep_flatOf _) 10 (by omega) _) _) _)

theorem dthr1 (c : Dev nD) : RowRep (N := 512) (V27 m ρ c main_v182) (fun q => (kTables m c).dt (10 * 512 + q)) := by
  show RowRep (N := 512) (StableHlo.after hostOps13 (W26 m ρ c) (Proc.devRef .tc main_v182)) _
  after_results
  rw [arg6_at26]
  exact rowRep_of_rep (rep_shapeCast (rep_shapeCast (rep_slice2 (rep_flatOf _) 10 (by omega) _) _) _)

/-- Region 13 leaves context 2. -/
theorem kC2 (c : Dev nD) : Rep (S := S32x1024) (V28 m ρ c main_v183) (c2 (kTables m c)) := by
  have h := RegionDown.region13 (V27 m ρ) c (ctxIn1 m ρ c) (parent1 m ρ c) (wtA1 m ρ c) (wtB1 m ρ c) (dbias1 m ρ c) (dthr1 m ρ c)
  exact fun i => (congrFun (W28_arr m ρ c 6) i).trans (h i)

/-! ## Down step 2 (region 14) -/

theorem ctxIn2 (c : Dev nD) : Rep (S := S64x512) (V29 m ρ c main_v187) (c2 (kTables m c)) := by
  show Rep (S := S64x512) (StableHlo.after hostOps14 (W28 m ρ c) (Proc.devRef .tc main_v187)) _
  after_results
  exact rep_shapeCast (rep_shapeCast (kC2 m ρ c) _) _

theorem parent2 (c : Dev nD) : Rep (S := S64x1024) (V29 m ρ c main_v186) (s9 (kTables m c)) := by
  show Rep (S := S64x1024) (StableHlo.after hostOps14 (W28 m ρ c) (Proc.devRef .tc main_v186)) _
  after_results
  exact rep_shapeCast (rep_shapeCast (sum3_9_at28 m ρ c) _) _

theorem wtA2 (c : Dev nD) : WtRep (K := 512) (N := 512) 1024 0 (V29 m ρ c main_v190) (fun q => (kTables m c).dW (9 * (512 * 1024) + q)) := by
  show WtRep (K := 512) (N := 512) 1024 0 (StableHlo.after hostOps14 (W28 m ρ c) (Proc.devRef .tc main_v190)) _
  after_results
  rw [keepTo28 m ρ c main_v3 (by decide), v3_at1]
  exact wt_rows (wt_of_stack (rep_flatOf _) 9 (by omega) _ _ _ _) 0 (by omega) _

theorem wtB2 (c : Dev nD) : WtRep (K := 512) (N := 512) 1024 512 (V29 m ρ c main_v193) (fun q => (kTables m c).dW (9 * (512 * 1024) + q)) := by
  show WtRep (K := 512) (N := 512) 1024 512 (StableHlo.after hostOps14 (W28 m ρ c) (Proc.devRef .tc main_v193)) _
  after_results
  rw [keepTo28 m ρ c main_v3 (by decide), v3_at1]
  exact wt_rows (wt_of_stack (rep_flatOf _) 9 (by omega) _ _ _ _) 512 (by omega) _

theorem dbias2 (c : Dev nD) : RowRep (N := 512) (V29 m ρ c main_v196) (fun q => (kTables m c).db (9 * 512 + q)) := by
  show RowRep (N := 512) (StableHlo.after hostOps14 (W28 m ρ c) (Proc.devRef .tc main_v196)) _
  after_results
  rw [arg5_at28]
  exact rowRep_of_rep (rep_shapeCast (rep_shapeCast (rep_slice2 (rep_flatOf _) 9 (by omega) _) _) _)

theorem dthr2 (c : Dev nD) : RowRep (N := 512) (V29 m ρ c main_v199) (fun q => (kTables m c).dt (9 * 512 + q)) := by
  show RowRep (N := 512) (StableHlo.after hostOps14 (W28 m ρ c) (Proc.devRef .tc main_v199)) _
  after_results
  rw [arg6_at28]
  exact rowRep_of_rep (rep_shapeCast (rep_shapeCast (rep_slice2 (rep_flatOf _) 9 (by omega) _) _) _)

/-- Region 14 leaves context 3. -/
theorem kC3 (c : Dev nD) : Rep (S := S64x1024) (V30 m ρ c main_v200) (c3 (kTables m c)) := by
  have h := RegionDown.region14 (V29 m ρ) c (ctxIn2 m ρ c) (parent2 m ρ c) (wtA2 m ρ c) (wtB2 m ρ c) (dbias2 m ρ c) (dthr2 m ρ c)
  exact fun i => (congrFun (W30_arr m ρ c 6) i).trans (h i)

/-! ## Down step 3 (region 15) -/

theorem ctxIn3 (c : Dev nD) : Rep (S := S128x512) (V31 m ρ c main_v204) (c3 (kTables m c)) := by
  show Rep (S := S128x512) (StableHlo.after hostOps15 (W30 m ρ c) (Proc.devRef .tc main_v204)) _
  after_results
  exact rep_shapeCast (rep_shapeCast (kC3 m ρ c) _) _

theorem parent3 (c : Dev nD) : Rep (S := S128x1024) (V31 m ρ c main_v203) (s8 (kTables m c)) := by
  show Rep (S := S128x1024) (StableHlo.after hostOps15 (W30 m ρ c) (Proc.devRef .tc main_v203)) _
  after_results
  exact rep_shapeCast (rep_shapeCast (sum3_8_at30 m ρ c) _) _

theorem wtA3 (c : Dev nD) : WtRep (K := 512) (N := 512) 1024 0 (V31 m ρ c main_v207) (fun q => (kTables m c).dW (8 * (512 * 1024) + q)) := by
  show WtRep (K := 512) (N := 512) 1024 0 (StableHlo.after hostOps15 (W30 m ρ c) (Proc.devRef .tc main_v207)) _
  after_results
  rw [keepTo30 m ρ c main_v3 (by decide), v3_at1]
  exact wt_rows (wt_of_stack (rep_flatOf _) 8 (by omega) _ _ _ _) 0 (by omega) _

theorem wtB3 (c : Dev nD) : WtRep (K := 512) (N := 512) 1024 512 (V31 m ρ c main_v210) (fun q => (kTables m c).dW (8 * (512 * 1024) + q)) := by
  show WtRep (K := 512) (N := 512) 1024 512 (StableHlo.after hostOps15 (W30 m ρ c) (Proc.devRef .tc main_v210)) _
  after_results
  rw [keepTo30 m ρ c main_v3 (by decide), v3_at1]
  exact wt_rows (wt_of_stack (rep_flatOf _) 8 (by omega) _ _ _ _) 512 (by omega) _

theorem dbias3 (c : Dev nD) : RowRep (N := 512) (V31 m ρ c main_v213) (fun q => (kTables m c).db (8 * 512 + q)) := by
  show RowRep (N := 512) (StableHlo.after hostOps15 (W30 m ρ c) (Proc.devRef .tc main_v213)) _
  after_results
  rw [arg5_at30]
  exact rowRep_of_rep (rep_shapeCast (rep_shapeCast (rep_slice2 (rep_flatOf _) 8 (by omega) _) _) _)

theorem dthr3 (c : Dev nD) : RowRep (N := 512) (V31 m ρ c main_v216) (fun q => (kTables m c).dt (8 * 512 + q)) := by
  show RowRep (N := 512) (StableHlo.after hostOps15 (W30 m ρ c) (Proc.devRef .tc main_v216)) _
  after_results
  rw [arg6_at30]
  exact rowRep_of_rep (rep_shapeCast (rep_shapeCast (rep_slice2 (rep_flatOf _) 8 (by omega) _) _) _)

/-- Region 15 leaves context 4. -/
theorem kC4 (c : Dev nD) : Rep (S := S128x1024) (V32 m ρ c main_v217) (c4 (kTables m c)) := by
  have h := RegionDown.region15 (V31 m ρ) c (ctxIn3 m ρ c) (parent3 m ρ c) (wtA3 m ρ c) (wtB3 m ρ c) (dbias3 m ρ c) (dthr3 m ρ c)
  exact fun i => (congrFun (W32_arr m ρ c 6) i).trans (h i)

/-! ## Down step 4 (region 16) -/

theorem ctxIn4 (c : Dev nD) : Rep (S := S256x512) (V33 m ρ c main_v221) (c4 (kTables m c)) := by
  show Rep (S := S256x512) (StableHlo.after hostOps16 (W32 m ρ c) (Proc.devRef .tc main_v221)) _
  after_results
  exact rep_shapeCast (rep_shapeCast (kC4 m ρ c) _) _

theorem parent4 (c : Dev nD) : Rep (S := S256x1024) (V33 m ρ c main_v220) (s7 (kTables m c)) := by
  show Rep (S := S256x1024) (StableHlo.after hostOps16 (W32 m ρ c) (Proc.devRef .tc main_v220)) _
  after_results
  exact rep_shapeCast (rep_shapeCast (sum3_7_at32 m ρ c) _) _

theorem wtA4 (c : Dev nD) : WtRep (K := 512) (N := 512) 1024 0 (V33 m ρ c main_v224) (fun q => (kTables m c).dW (7 * (512 * 1024) + q)) := by
  show WtRep (K := 512) (N := 512) 1024 0 (StableHlo.after hostOps16 (W32 m ρ c) (Proc.devRef .tc main_v224)) _
  after_results
  rw [keepTo32 m ρ c main_v3 (by decide), v3_at1]
  exact wt_rows (wt_of_stack (rep_flatOf _) 7 (by omega) _ _ _ _) 0 (by omega) _

theorem wtB4 (c : Dev nD) : WtRep (K := 512) (N := 512) 1024 512 (V33 m ρ c main_v227) (fun q => (kTables m c).dW (7 * (512 * 1024) + q)) := by
  show WtRep (K := 512) (N := 512) 1024 512 (StableHlo.after hostOps16 (W32 m ρ c) (Proc.devRef .tc main_v227)) _
  after_results
  rw [keepTo32 m ρ c main_v3 (by decide), v3_at1]
  exact wt_rows (wt_of_stack (rep_flatOf _) 7 (by omega) _ _ _ _) 512 (by omega) _

theorem dbias4 (c : Dev nD) : RowRep (N := 512) (V33 m ρ c main_v230) (fun q => (kTables m c).db (7 * 512 + q)) := by
  show RowRep (N := 512) (StableHlo.after hostOps16 (W32 m ρ c) (Proc.devRef .tc main_v230)) _
  after_results
  rw [arg5_at32]
  exact rowRep_of_rep (rep_shapeCast (rep_shapeCast (rep_slice2 (rep_flatOf _) 7 (by omega) _) _) _)

theorem dthr4 (c : Dev nD) : RowRep (N := 512) (V33 m ρ c main_v233) (fun q => (kTables m c).dt (7 * 512 + q)) := by
  show RowRep (N := 512) (StableHlo.after hostOps16 (W32 m ρ c) (Proc.devRef .tc main_v233)) _
  after_results
  rw [arg6_at32]
  exact rowRep_of_rep (rep_shapeCast (rep_shapeCast (rep_slice2 (rep_flatOf _) 7 (by omega) _) _) _)

/-- Region 16 leaves context 5. -/
theorem kC5 (c : Dev nD) : Rep (S := S256x1024) (V34 m ρ c main_v234) (c5 (kTables m c)) := by
  have h := RegionDown.region16 (V33 m ρ) c (ctxIn4 m ρ c) (parent4 m ρ c) (wtA4 m ρ c) (wtB4 m ρ c) (dbias4 m ρ c) (dthr4 m ρ c)
  exact fun i => (congrFun (W34_arr m ρ c 6) i).trans (h i)

/-! ## Down step 5 (region 17) -/

theorem ctxIn5 (c : Dev nD) : Rep (S := S512x512) (V35 m ρ c main_v238) (c5 (kTables m c)) := by
  show Rep (S := S512x512) (StableHlo.after hostOps17 (W34 m ρ c) (Proc.devRef .tc main_v238)) _
  after_results
  exact rep_shapeCast (rep_shapeCast (kC5 m ρ c) _) _

theorem parent5 (c : Dev nD) : Rep (S := S512x1024) (V35 m ρ c main_v237) (s6 (kTables m c)) := by
  show Rep (S := S512x1024) (StableHlo.after hostOps17 (W34 m ρ c) (Proc.devRef .tc main_v237)) _
  after_results
  exact rep_shapeCast (rep_shapeCast (sum3_6_at34 m ρ c) _) _

theorem wtA5 (c : Dev nD) : WtRep (K := 512) (N := 512) 1024 0 (V35 m ρ c main_v241) (fun q => (kTables m c).dW (6 * (512 * 1024) + q)) := by
  show WtRep (K := 512) (N := 512) 1024 0 (StableHlo.after hostOps17 (W34 m ρ c) (Proc.devRef .tc main_v241)) _
  after_results
  rw [keepTo34 m ρ c main_v3 (by decide), v3_at1]
  exact wt_rows (wt_of_stack (rep_flatOf _) 6 (by omega) _ _ _ _) 0 (by omega) _

theorem wtB5 (c : Dev nD) : WtRep (K := 512) (N := 512) 1024 512 (V35 m ρ c main_v244) (fun q => (kTables m c).dW (6 * (512 * 1024) + q)) := by
  show WtRep (K := 512) (N := 512) 1024 512 (StableHlo.after hostOps17 (W34 m ρ c) (Proc.devRef .tc main_v244)) _
  after_results
  rw [keepTo34 m ρ c main_v3 (by decide), v3_at1]
  exact wt_rows (wt_of_stack (rep_flatOf _) 6 (by omega) _ _ _ _) 512 (by omega) _

theorem dbias5 (c : Dev nD) : RowRep (N := 512) (V35 m ρ c main_v247) (fun q => (kTables m c).db (6 * 512 + q)) := by
  show RowRep (N := 512) (StableHlo.after hostOps17 (W34 m ρ c) (Proc.devRef .tc main_v247)) _
  after_results
  rw [arg5_at34]
  exact rowRep_of_rep (rep_shapeCast (rep_shapeCast (rep_slice2 (rep_flatOf _) 6 (by omega) _) _) _)

theorem dthr5 (c : Dev nD) : RowRep (N := 512) (V35 m ρ c main_v250) (fun q => (kTables m c).dt (6 * 512 + q)) := by
  show RowRep (N := 512) (StableHlo.after hostOps17 (W34 m ρ c) (Proc.devRef .tc main_v250)) _
  after_results
  rw [arg6_at34]
  exact rowRep_of_rep (rep_shapeCast (rep_shapeCast (rep_slice2 (rep_flatOf _) 6 (by omega) _) _) _)

/-- Region 17 leaves context 6. -/
theorem kC6 (c : Dev nD) : Rep (S := S512x1024) (V36 m ρ c main_v251) (c6 (kTables m c)) := by
  have h := RegionDown.region17 (V35 m ρ) c (ctxIn5 m ρ c) (parent5 m ρ c) (wtA5 m ρ c) (wtB5 m ρ c) (dbias5 m ρ c) (dthr5 m ρ c)
  exact fun i => (congrFun (W36_arr m ρ c 6) i).trans (h i)

/-! ## Down step 6 (region 18) -/

theorem ctxIn6 (c : Dev nD) : Rep (S := S1024x512) (V37 m ρ c main_v255) (c6 (kTables m c)) := by
  show Rep (S := S1024x512) (StableHlo.after hostOps18 (W36 m ρ c) (Proc.devRef .tc main_v255)) _
  after_results
  exact rep_shapeCast (rep_shapeCast (kC6 m ρ c) _) _

theorem parent6 (c : Dev nD) : Rep (S := S1024x1024) (V37 m ρ c main_v254) (s5 (kTables m c)) := by
  show Rep (S := S1024x1024) (StableHlo.after hostOps18 (W36 m ρ c) (Proc.devRef .tc main_v254)) _
  after_results
  exact rep_shapeCast (rep_shapeCast (sum3_5_at36 m ρ c) _) _

theorem wtA6 (c : Dev nD) : WtRep (K := 512) (N := 512) 1024 0 (V37 m ρ c main_v258) (fun q => (kTables m c).dW (5 * (512 * 1024) + q)) := by
  show WtRep (K := 512) (N := 512) 1024 0 (StableHlo.after hostOps18 (W36 m ρ c) (Proc.devRef .tc main_v258)) _
  after_results
  rw [keepTo36 m ρ c main_v3 (by decide), v3_at1]
  exact wt_rows (wt_of_stack (rep_flatOf _) 5 (by omega) _ _ _ _) 0 (by omega) _

theorem wtB6 (c : Dev nD) : WtRep (K := 512) (N := 512) 1024 512 (V37 m ρ c main_v261) (fun q => (kTables m c).dW (5 * (512 * 1024) + q)) := by
  show WtRep (K := 512) (N := 512) 1024 512 (StableHlo.after hostOps18 (W36 m ρ c) (Proc.devRef .tc main_v261)) _
  after_results
  rw [keepTo36 m ρ c main_v3 (by decide), v3_at1]
  exact wt_rows (wt_of_stack (rep_flatOf _) 5 (by omega) _ _ _ _) 512 (by omega) _

theorem dbias6 (c : Dev nD) : RowRep (N := 512) (V37 m ρ c main_v264) (fun q => (kTables m c).db (5 * 512 + q)) := by
  show RowRep (N := 512) (StableHlo.after hostOps18 (W36 m ρ c) (Proc.devRef .tc main_v264)) _
  after_results
  rw [arg5_at36]
  exact rowRep_of_rep (rep_shapeCast (rep_shapeCast (rep_slice2 (rep_flatOf _) 5 (by omega) _) _) _)

theorem dthr6 (c : Dev nD) : RowRep (N := 512) (V37 m ρ c main_v267) (fun q => (kTables m c).dt (5 * 512 + q)) := by
  show RowRep (N := 512) (StableHlo.after hostOps18 (W36 m ρ c) (Proc.devRef .tc main_v267)) _
  after_results
  rw [arg6_at36]
  exact rowRep_of_rep (rep_shapeCast (rep_shapeCast (rep_slice2 (rep_flatOf _) 5 (by omega) _) _) _)

/-- Region 18 leaves context 7. -/
theorem kC7 (c : Dev nD) : Rep (S := S1024x1024) (V38 m ρ c main_v268) (c7 (kTables m c)) := by
  have h := RegionDown.region18 (V37 m ρ) c (ctxIn6 m ρ c) (parent6 m ρ c) (wtA6 m ρ c) (wtB6 m ρ c) (dbias6 m ρ c) (dthr6 m ρ c)
  exact fun i => (congrFun (W38_arr m ρ c 6) i).trans (h i)

/-! ## Down step 7 (region 19) -/

theorem ctxIn7 (c : Dev nD) : Rep (S := S2048x512) (V39 m ρ c main_v272) (c7 (kTables m c)) := by
  show Rep (S := S2048x512) (StableHlo.after hostOps19 (W38 m ρ c) (Proc.devRef .tc main_v272)) _
  after_results
  exact rep_shapeCast (rep_shapeCast (kC7 m ρ c) _) _

theorem parent7 (c : Dev nD) : Rep (S := S2048x1024) (V39 m ρ c main_v271) (s4 (kTables m c)) := by
  show Rep (S := S2048x1024) (StableHlo.after hostOps19 (W38 m ρ c) (Proc.devRef .tc main_v271)) _
  after_results
  exact rep_shapeCast (rep_shapeCast (sum3_4_at38 m ρ c) _) _

theorem wtA7 (c : Dev nD) : WtRep (K := 512) (N := 512) 1024 0 (V39 m ρ c main_v275) (fun q => (kTables m c).dW (4 * (512 * 1024) + q)) := by
  show WtRep (K := 512) (N := 512) 1024 0 (StableHlo.after hostOps19 (W38 m ρ c) (Proc.devRef .tc main_v275)) _
  after_results
  rw [keepTo38 m ρ c main_v3 (by decide), v3_at1]
  exact wt_rows (wt_of_stack (rep_flatOf _) 4 (by omega) _ _ _ _) 0 (by omega) _

theorem wtB7 (c : Dev nD) : WtRep (K := 512) (N := 512) 1024 512 (V39 m ρ c main_v278) (fun q => (kTables m c).dW (4 * (512 * 1024) + q)) := by
  show WtRep (K := 512) (N := 512) 1024 512 (StableHlo.after hostOps19 (W38 m ρ c) (Proc.devRef .tc main_v278)) _
  after_results
  rw [keepTo38 m ρ c main_v3 (by decide), v3_at1]
  exact wt_rows (wt_of_stack (rep_flatOf _) 4 (by omega) _ _ _ _) 512 (by omega) _

theorem dbias7 (c : Dev nD) : RowRep (N := 512) (V39 m ρ c main_v281) (fun q => (kTables m c).db (4 * 512 + q)) := by
  show RowRep (N := 512) (StableHlo.after hostOps19 (W38 m ρ c) (Proc.devRef .tc main_v281)) _
  after_results
  rw [arg5_at38]
  exact rowRep_of_rep (rep_shapeCast (rep_shapeCast (rep_slice2 (rep_flatOf _) 4 (by omega) _) _) _)

theorem dthr7 (c : Dev nD) : RowRep (N := 512) (V39 m ρ c main_v284) (fun q => (kTables m c).dt (4 * 512 + q)) := by
  show RowRep (N := 512) (StableHlo.after hostOps19 (W38 m ρ c) (Proc.devRef .tc main_v284)) _
  after_results
  rw [arg6_at38]
  exact rowRep_of_rep (rep_shapeCast (rep_shapeCast (rep_slice2 (rep_flatOf _) 4 (by omega) _) _) _)

/-- Region 19 leaves context 8. -/
theorem kC8 (c : Dev nD) : Rep (S := S2048x1024) (V40 m ρ c main_v285) (c8 (kTables m c)) := by
  have h := RegionDown.region19 (V39 m ρ) c (ctxIn7 m ρ c) (parent7 m ρ c) (wtA7 m ρ c) (wtB7 m ρ c) (dbias7 m ρ c) (dthr7 m ρ c)
  exact fun i => (congrFun (W40_arr m ρ c 6) i).trans (h i)

/-! ## Down step 8 (region 20) -/

theorem ctxIn8 (c : Dev nD) : Rep (S := S4096x512) (V41 m ρ c main_v289) (c8 (kTables m c)) := by
  show Rep (S := S4096x512) (StableHlo.after hostOps20 (W40 m ρ c) (Proc.devRef .tc main_v289)) _
  after_results
  exact rep_shapeCast (rep_shapeCast (kC8 m ρ c) _) _

theorem parent8 (c : Dev nD) : Rep (S := S4096x1024) (V41 m ρ c main_v288) (s3 (kTables m c)) := by
  show Rep (S := S4096x1024) (StableHlo.after hostOps20 (W40 m ρ c) (Proc.devRef .tc main_v288)) _
  after_results
  exact rep_shapeCast (rep_shapeCast (sum3_3_at40 m ρ c) _) _

theorem wtA8 (c : Dev nD) : WtRep (K := 512) (N := 512) 1024 0 (V41 m ρ c main_v292) (fun q => (kTables m c).dW (3 * (512 * 1024) + q)) := by
  show WtRep (K := 512) (N := 512) 1024 0 (StableHlo.after hostOps20 (W40 m ρ c) (Proc.devRef .tc main_v292)) _
  after_results
  rw [keepTo40 m ρ c main_v3 (by decide), v3_at1]
  exact wt_rows (wt_of_stack (rep_flatOf _) 3 (by omega) _ _ _ _) 0 (by omega) _

theorem wtB8 (c : Dev nD) : WtRep (K := 512) (N := 512) 1024 512 (V41 m ρ c main_v295) (fun q => (kTables m c).dW (3 * (512 * 1024) + q)) := by
  show WtRep (K := 512) (N := 512) 1024 512 (StableHlo.after hostOps20 (W40 m ρ c) (Proc.devRef .tc main_v295)) _
  after_results
  rw [keepTo40 m ρ c main_v3 (by decide), v3_at1]
  exact wt_rows (wt_of_stack (rep_flatOf _) 3 (by omega) _ _ _ _) 512 (by omega) _

theorem dbias8 (c : Dev nD) : RowRep (N := 512) (V41 m ρ c main_v298) (fun q => (kTables m c).db (3 * 512 + q)) := by
  show RowRep (N := 512) (StableHlo.after hostOps20 (W40 m ρ c) (Proc.devRef .tc main_v298)) _
  after_results
  rw [arg5_at40]
  exact rowRep_of_rep (rep_shapeCast (rep_shapeCast (rep_slice2 (rep_flatOf _) 3 (by omega) _) _) _)

theorem dthr8 (c : Dev nD) : RowRep (N := 512) (V41 m ρ c main_v301) (fun q => (kTables m c).dt (3 * 512 + q)) := by
  show RowRep (N := 512) (StableHlo.after hostOps20 (W40 m ρ c) (Proc.devRef .tc main_v301)) _
  after_results
  rw [arg6_at40]
  exact rowRep_of_rep (rep_shapeCast (rep_shapeCast (rep_slice2 (rep_flatOf _) 3 (by omega) _) _) _)

/-- Region 20 leaves context 9. -/
theorem kC9 (c : Dev nD) : Rep (S := S4096x1024) (V42 m ρ c main_v302) (c9 (kTables m c)) := by
  have h := RegionDown.region20 (V41 m ρ) c (ctxIn8 m ρ c) (parent8 m ρ c) (wtA8 m ρ c) (wtB8 m ρ c) (dbias8 m ρ c) (dthr8 m ρ c)
  exact fun i => (congrFun (W42_arr m ρ c 6) i).trans (h i)

/-! ## Down step 9 (region 21) -/

theorem ctxIn9 (c : Dev nD) : Rep (S := S8192x512) (V43 m ρ c main_v306) (c9 (kTables m c)) := by
  show Rep (S := S8192x512) (StableHlo.after hostOps21 (W42 m ρ c) (Proc.devRef .tc main_v306)) _
  after_results
  exact rep_shapeCast (rep_shapeCast (kC9 m ρ c) _) _

theorem parent9 (c : Dev nD) : Rep (S := S8192x1024) (V43 m ρ c main_v305) (s2 (kTables m c)) := by
  show Rep (S := S8192x1024) (StableHlo.after hostOps21 (W42 m ρ c) (Proc.devRef .tc main_v305)) _
  after_results
  exact rep_shapeCast (rep_shapeCast (sum3_2_at42 m ρ c) _) _

theorem wtA9 (c : Dev nD) : WtRep (K := 512) (N := 512) 1024 0 (V43 m ρ c main_v309) (fun q => (kTables m c).dW (2 * (512 * 1024) + q)) := by
  show WtRep (K := 512) (N := 512) 1024 0 (StableHlo.after hostOps21 (W42 m ρ c) (Proc.devRef .tc main_v309)) _
  after_results
  rw [keepTo42 m ρ c main_v3 (by decide), v3_at1]
  exact wt_rows (wt_of_stack (rep_flatOf _) 2 (by omega) _ _ _ _) 0 (by omega) _

theorem wtB9 (c : Dev nD) : WtRep (K := 512) (N := 512) 1024 512 (V43 m ρ c main_v312) (fun q => (kTables m c).dW (2 * (512 * 1024) + q)) := by
  show WtRep (K := 512) (N := 512) 1024 512 (StableHlo.after hostOps21 (W42 m ρ c) (Proc.devRef .tc main_v312)) _
  after_results
  rw [keepTo42 m ρ c main_v3 (by decide), v3_at1]
  exact wt_rows (wt_of_stack (rep_flatOf _) 2 (by omega) _ _ _ _) 512 (by omega) _

theorem dbias9 (c : Dev nD) : RowRep (N := 512) (V43 m ρ c main_v315) (fun q => (kTables m c).db (2 * 512 + q)) := by
  show RowRep (N := 512) (StableHlo.after hostOps21 (W42 m ρ c) (Proc.devRef .tc main_v315)) _
  after_results
  rw [arg5_at42]
  exact rowRep_of_rep (rep_shapeCast (rep_shapeCast (rep_slice2 (rep_flatOf _) 2 (by omega) _) _) _)

theorem dthr9 (c : Dev nD) : RowRep (N := 512) (V43 m ρ c main_v318) (fun q => (kTables m c).dt (2 * 512 + q)) := by
  show RowRep (N := 512) (StableHlo.after hostOps21 (W42 m ρ c) (Proc.devRef .tc main_v318)) _
  after_results
  rw [arg6_at42]
  exact rowRep_of_rep (rep_shapeCast (rep_shapeCast (rep_slice2 (rep_flatOf _) 2 (by omega) _) _) _)

/-- Region 21 leaves context 10. -/
theorem kC10 (c : Dev nD) : Rep (S := S8192x1024) (V44 m ρ c main_v319) (c10 (kTables m c)) := by
  have h := RegionDown.region21 (V43 m ρ) c (ctxIn9 m ρ c) (parent9 m ρ c) (wtA9 m ρ c) (wtB9 m ρ c) (dbias9 m ρ c) (dthr9 m ρ c)
  exact fun i => (congrFun (W44_arr m ρ c 6) i).trans (h i)

/-! ## Down step 10 (region 22) -/

theorem ctxIn10 (c : Dev nD) : Rep (S := S16384x512) (V45 m ρ c main_v323) (c10 (kTables m c)) := by
  show Rep (S := S16384x512) (StableHlo.after hostOps22 (W44 m ρ c) (Proc.devRef .tc main_v323)) _
  after_results
  exact rep_shapeCast (rep_shapeCast (kC10 m ρ c) _) _

theorem parent10 (c : Dev nD) : Rep (S := S16384x1024) (V45 m ρ c main_v322) (s1 (kTables m c)) := by
  show Rep (S := S16384x1024) (StableHlo.after hostOps22 (W44 m ρ c) (Proc.devRef .tc main_v322)) _
  after_results
  exact rep_shapeCast (rep_shapeCast (sum3_1_at44 m ρ c) _) _

theorem wtA10 (c : Dev nD) : WtRep (K := 512) (N := 512) 1024 0 (V45 m ρ c main_v326) (fun q => (kTables m c).dW (1 * (512 * 1024) + q)) := by
  show WtRep (K := 512) (N := 512) 1024 0 (StableHlo.after hostOps22 (W44 m ρ c) (Proc.devRef .tc main_v326)) _
  after_results
  rw [keepTo44 m ρ c main_v3 (by decide), v3_at1]
  exact wt_rows (wt_of_stack (rep_flatOf _) 1 (by omega) _ _ _ _) 0 (by omega) _

theorem wtB10 (c : Dev nD) : WtRep (K := 512) (N := 512) 1024 512 (V45 m ρ c main_v329) (fun q => (kTables m c).dW (1 * (512 * 1024) + q)) := by
  show WtRep (K := 512) (N := 512) 1024 512 (StableHlo.after hostOps22 (W44 m ρ c) (Proc.devRef .tc main_v329)) _
  after_results
  rw [keepTo44 m ρ c main_v3 (by decide), v3_at1]
  exact wt_rows (wt_of_stack (rep_flatOf _) 1 (by omega) _ _ _ _) 512 (by omega) _

theorem dbias10 (c : Dev nD) : RowRep (N := 512) (V45 m ρ c main_v332) (fun q => (kTables m c).db (1 * 512 + q)) := by
  show RowRep (N := 512) (StableHlo.after hostOps22 (W44 m ρ c) (Proc.devRef .tc main_v332)) _
  after_results
  rw [arg5_at44]
  exact rowRep_of_rep (rep_shapeCast (rep_shapeCast (rep_slice2 (rep_flatOf _) 1 (by omega) _) _) _)

theorem dthr10 (c : Dev nD) : RowRep (N := 512) (V45 m ρ c main_v335) (fun q => (kTables m c).dt (1 * 512 + q)) := by
  show RowRep (N := 512) (StableHlo.after hostOps22 (W44 m ρ c) (Proc.devRef .tc main_v335)) _
  after_results
  rw [arg6_at44]
  exact rowRep_of_rep (rep_shapeCast (rep_shapeCast (rep_slice2 (rep_flatOf _) 1 (by omega) _) _) _)

/-- Region 22 leaves context 11. -/
theorem kC11 (c : Dev nD) : Rep (S := S16384x1024) (V46 m ρ c main_v336) (c11 (kTables m c)) := by
  have h := RegionDown.region22 (V45 m ρ) c (ctxIn10 m ρ c) (parent10 m ρ c) (wtA10 m ρ c) (wtB10 m ρ c) (dbias10 m ρ c) (dthr10 m ρ c)
  exact fun i => (congrFun (W46_arr m ρ c 6) i).trans (h i)

/-! ## Down step 11 (region 23) -/

theorem ctxIn11 (c : Dev nD) : Rep (S := S32768x512) (V47 m ρ c main_v340) (c11 (kTables m c)) := by
  show Rep (S := S32768x512) (StableHlo.after hostOps23 (W46 m ρ c) (Proc.devRef .tc main_v340)) _
  after_results
  exact rep_shapeCast (rep_shapeCast (kC11 m ρ c) _) _

theorem parent11 (c : Dev nD) : Rep (S := S32768x1024) (V47 m ρ c main_v339) (s0 (kTables m c)) := by
  show Rep (S := S32768x1024) (StableHlo.after hostOps23 (W46 m ρ c) (Proc.devRef .tc main_v339)) _
  after_results
  rw [arg0_at46]
  exact rep_shapeCast (rep_shapeCast (rep_flatOf _) _) _

theorem wtA11 (c : Dev nD) : WtRep (K := 512) (N := 512) 1024 0 (V47 m ρ c main_v343) (fun q => (kTables m c).dW (0 * (512 * 1024) + q)) := by
  show WtRep (K := 512) (N := 512) 1024 0 (StableHlo.after hostOps23 (W46 m ρ c) (Proc.devRef .tc main_v343)) _
  after_results
  rw [keepTo46 m ρ c main_v3 (by decide), v3_at1]
  exact wt_rows (wt_of_stack (rep_flatOf _) 0 (by omega) _ _ _ _) 0 (by omega) _

theorem wtB11 (c : Dev nD) : WtRep (K := 512) (N := 512) 1024 512 (V47 m ρ c main_v346) (fun q => (kTables m c).dW (0 * (512 * 1024) + q)) := by
  show WtRep (K := 512) (N := 512) 1024 512 (StableHlo.after hostOps23 (W46 m ρ c) (Proc.devRef .tc main_v346)) _
  after_results
  rw [keepTo46 m ρ c main_v3 (by decide), v3_at1]
  exact wt_rows (wt_of_stack (rep_flatOf _) 0 (by omega) _ _ _ _) 512 (by omega) _

theorem dbias11 (c : Dev nD) : RowRep (N := 512) (V47 m ρ c main_v349) (fun q => (kTables m c).db (0 * 512 + q)) := by
  show RowRep (N := 512) (StableHlo.after hostOps23 (W46 m ρ c) (Proc.devRef .tc main_v349)) _
  after_results
  rw [arg5_at46]
  exact rowRep_of_rep (rep_shapeCast (rep_shapeCast (rep_slice2 (rep_flatOf _) 0 (by omega) _) _) _)

theorem dthr11 (c : Dev nD) : RowRep (N := 512) (V47 m ρ c main_v352) (fun q => (kTables m c).dt (0 * 512 + q)) := by
  show RowRep (N := 512) (StableHlo.after hostOps23 (W46 m ρ c) (Proc.devRef .tc main_v352)) _
  after_results
  rw [arg6_at46]
  exact rowRep_of_rep (rep_shapeCast (rep_shapeCast (rep_slice2 (rep_flatOf _) 0 (by omega) _) _) _)

/-- Region 23 leaves context 12. -/
theorem kC12 (c : Dev nD) : Rep (S := S32768x1024) (V48 m ρ c main_v353) (c12 (kTables m c)) := by
  have h := RegionDown.region23 (V47 m ρ) c (ctxIn11 m ρ c) (parent11 m ρ c) (wtA11 m ρ c) (wtB11 m ρ c) (dbias11 m ρ c) (dthr11 m ρ c)
  exact fun i => (congrFun (W48_arr m ρ c 6) i).trans (h i)

/-! ## The leaf layer (region 24) and the result -/

theorem leafX (c : Dev nD) : Rep (S := S65536x512) (V49 m ρ c main_v355) (kTables m c).x := by
  show Rep (S := S65536x512) (StableHlo.after hostOps24 (W48 m ρ c) (Proc.devRef .tc main_v355)) _
  after_results
  rw [arg0_at48]
  exact rep_shapeCast (rep_flatOf _) _

theorem leafCtx (c : Dev nD) : Rep (S := S65536x512) (V49 m ρ c main_v356) (c12 (kTables m c)) := by
  show Rep (S := S65536x512) (StableHlo.after hostOps24 (W48 m ρ c) (Proc.devRef .tc main_v356)) _
  after_results
  exact rep_shapeCast (rep_shapeCast (kC12 m ρ c) _) _

theorem leafWtA (c : Dev nD) : WtRep (K := 512) (N := 512) 1024 0 (V49 m ρ c main_v357) (kTables m c).lW := by
  show WtRep (K := 512) (N := 512) 1024 0 (StableHlo.after hostOps24 (W48 m ρ c) (Proc.devRef .tc main_v357)) _
  after_results
  rw [keepTo48 m ρ c main_v5 (by decide), v5_at1]
  exact wt_rows (wt_of_table (rep_flatOf _) _ _) 0 (by omega) _

theorem leafWtB (c : Dev nD) : WtRep (K := 512) (N := 512) 1024 512 (V49 m ρ c main_v358) (kTables m c).lW := by
  show WtRep (K := 512) (N := 512) 1024 512 (StableHlo.after hostOps24 (W48 m ρ c) (Proc.devRef .tc main_v358)) _
  after_results
  rw [keepTo48 m ρ c main_v5 (by decide), v5_at1]
  exact wt_rows (wt_of_table (rep_flatOf _) _ _) 512 (by omega) _

theorem leafBias (c : Dev nD) : RowRep (N := 512) (V49 m ρ c main_v359) (kTables m c).lb := by
  show RowRep (N := 512) (StableHlo.after hostOps24 (W48 m ρ c) (Proc.devRef .tc main_v359)) _
  after_results
  rw [arg8_at48]
  exact rowRep_of_rep (rep_shapeCast (rep_flatOf _) _)

theorem leafThr (c : Dev nD) : RowRep (N := 512) (V49 m ρ c main_v360) (kTables m c).lt := by
  show RowRep (N := 512) (StableHlo.after hostOps24 (W48 m ρ c) (Proc.devRef .tc main_v360)) _
  after_results
  rw [arg9_at48]
  exact rowRep_of_rep (rep_shapeCast (rep_flatOf _) _)

/-- Region 24 leaves the result table. -/
theorem kOut (c : Dev nD) : Rep (S := S65536x512) (V50 m ρ c main_v361) (out (kTables m c)) := by
  have h := RegionLeaf.region24 (V49 m ρ) c (leafX m ρ c) (leafCtx m ρ c) (leafWtA m ρ c) (leafWtB m ρ c) (leafBias m ρ c) (leafThr m ρ c)
  exact fun i => (congrFun (W50_arr m ρ c 6) i).trans (h i)

/-- The kernel's result buffer at the last boundary is the specification's result table. -/
theorem kResult (c : Dev nD) : Rep (S := S16x4096x512) (W51 m ρ c (Proc.devRef .tc main_v362)) (out (kTables m c)) := by
  show Rep (S := S16x4096x512) (StableHlo.after hostOps25 (W50 m ρ c) (Proc.devRef .tc main_v362)) _
  after_results
  exact rep_shapeCast (kOut m ρ c) _

end Cert.KernelIdeal.KValue

end
-- ==== Proof.lean ====
/-
  The five claims of this certificate.

  Both idealized programs compute the same tree sweep (Proof/TreeSpec.lean) of the ten argument arrays.  A spiking
  layer y = a · Wᵀ + b, 1/0 by y ≥ threshold, every 0/1 row divided by (its sum + eps), halves the rows twelve
  times on the way up; on the way down a two-operand layer of the same kind, its contraction over (context row,
  left child's summary row) split into the two halves of 512 terms, doubles the rows of a context that starts at
  zero; the leaf layer combines (input row, context row).  The reference (Proof/RefValue.lean) writes each layer
  on [16, rows, ·] arrays with the two operands concatenated; the kernel (Proof/KernelUp.lean, KernelDown.lean)
  runs 25 regions, each a grid of row blocks through one body, with the weights transposed once and the
  concatenations replaced by two matrix products.  A sum over 1024 terms is the sum of its two halves, and a block
  of rows of a row-wise layer is the layer of the block of rows: no finiteness of any entry is used, so the
  precondition is never opened.  Arrays are compared through their row-major positions, which every reshape keeps.
  The three frames are the generated ones (the reference's is its generated run with the result dropped); the
  idealization changed no operation, so `preserves` is trivial.
-/
import proofs.«113582_j30116310680263_2_alg».proof.Defs
import proofs.«113582_j30116310680263_2_alg».proof.Proof.Gen.Kernel
import proofs.«113582_j30116310680263_2_alg».proof.Proof.Gen.Kernel.Skeleton
import proofs.«113582_j30116310680263_2_alg».proof.Proof.Gen.Kernel.Launch
import proofs.«113582_j30116310680263_2_alg».proof.Proof.Gen.Kernel.Points
import proofs.«113582_j30116310680263_2_alg».proof.Proof.Gen.Kernel.Frame
import proofs.«113582_j30116310680263_2_alg».proof.Proof.Gen.KernelIdeal
import proofs.«113582_j30116310680263_2_alg».proof.Proof.Gen.KernelIdeal.Skeleton
import proofs.«113582_j30116310680263_2_alg».proof.Proof.Gen.KernelIdeal.Launch
import proofs.«113582_j30116310680263_2_alg».proof.Proof.Gen.KernelIdeal.Points
import proofs.«113582_j30116310680263_2_alg».proof.Proof.Gen.KernelIdeal.Frame
import proofs.«113582_j30116310680263_2_alg».proof.Proof.Gen.ReferenceIdeal
import proofs.«113582_j30116310680263_2_alg».proof.Proof.Gen.ReferenceIdeal.Run
import proofs.«113582_j30116310680263_2_alg».proof.Proof.Gen.Pre_finite_inputs
import proofs.«113582_j30116310680263_2_alg».proof.Proof.RefValue
import proofs.«113582_j30116310680263_2_alg».proof.Proof.KernelRun
import proofs.«113582_j30116310680263_2_alg».proof.Proof.KernelDown
import Idealize.ShloMosaic.Adequacy
import Idealize.ShloMosaic.Init

set_option maxRecDepth 16384

noncomputable section

namespace Cert.Proof

open Idealize.ShloMosaic Idealize.SL.Sem Idealize.ShloMosaic.TcCoe
open Cert.Lib.RowMajor Cert.TreeSpec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the two programs' argument tables are the same. -/
theorem tables_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RefValue.tables (StableHlo.launchContents m' c) = Cert.KernelIdeal.KValue.kTables m c := by
  unfold Cert.ReferenceIdeal.RefValue.tables Cert.KernelIdeal.KValue.kTables
  congr 1
  · exact congrArg (flatOf (S := Cert.KernelIdeal.S16x4096x512)) h0
  · exact congrArg (flatOf (S := Cert.KernelIdeal.S12x512x1024)) h1
  · exact congrArg (flatOf (S := Cert.KernelIdeal.S12x512)) h2
  · exact congrArg (flatOf (S := Cert.KernelIdeal.S12x512)) h3
  · exact congrArg (flatOf (S := Cert.KernelIdeal.S12x512x1024)) h4
  · exact congrArg (flatOf (S := Cert.KernelIdeal.S12x512)) h5
  · exact congrArg (flatOf (S := Cert.KernelIdeal.S12x512)) h6
  · exact congrArg (flatOf (S := Cert.KernelIdeal.S512x1024)) h7
  · exact congrArg (flatOf (S := Cert.KernelIdeal.S512)) h8
  · exact congrArg (flatOf (S := Cert.KernelIdeal.S512)) h9

/-- Both runs end with the specification's result table in their result buffers. -/
theorem algebraic : Cert.algebraic_KernelIdeal_ReferenceIdeal := by
  intro m ρ m' ρ' _ hagree
  refine ⟨fun c => Cert.KernelIdeal.Gen.W51 m ρ c (Proc.devRef .tc Cert.KernelIdeal.main_v362), Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  have hR := Cert.ReferenceIdeal.RefValue.rep_result (StableHlo.launchContents m' c)
  rw [tables_eq m m' c h0 h1 h2 h3 h4 h5 h6 h7 h8 h9] at hR
  exact rep_ext (S := Cert.KernelIdeal.S16x4096x512) hR (Cert.KernelIdeal.KValue.kResult m ρ c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
